-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![8, 1024, 16, 128]⟩ ⟨4, ![8, 4096, 16, 128]⟩ (Layout.meshBlock [2, 4, 4] ![[], [2], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![8, 1024, 16, 128]⟩ ⟨4, ![8, 4096, 16, 128]⟩ (Layout.meshBlock [2, 4, 4] ![[], [2], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S8x8x16x128 : Shape := ⟨4, ![8, 8, 16, 128]⟩
abbrev S8x1024x16x128 : Shape := ⟨4, ![8, 1024, 16, 128]⟩
abbrev S_ : Shape := ⟨0, ![]⟩

class Facts : Prop where
  bcast_S_S8x8x16x128 : S_.BroadcastsInDim S8x8x16x128 (![] : Fin 0 → Fin S8x8x16x128.rank)
  reducesTo_S8x8x16x128_S_d0_1_2_3 : S8x8x16x128.ReducesTo [0, 1, 2, 3] S_
  h_S_ : 0 < S_.numel
  bcast_S_S8x1024x16x128 : S_.BroadcastsInDim S8x1024x16x128 (![] : Fin 0 → Fin S8x1024x16x128.rank)
  reducesTo_S8x1024x16x128_S_d0_1_2_3 : S8x1024x16x128.ReducesTo [0, 1, 2, 3] S_

variable [Facts]

def fn {F : FTy → Type} [FloatOps F] (main_arg0 : FVec F S8x8x16x128 .f32) (main_arg1 : FVec F S8x1024x16x128 .f32) (main_arg2 : FVec F S8x1024x16x128 .f32) : IVec S_ 1 :=
  let main_v0 : FVec F S8x8x16x128 .f32 := Host.absf main_arg0
  let main_cst : FVec F S_ .f32 := constant S_ .f32 0x7F800000#32
  let main_v1 : FVec F S8x8x16x128 .f32 := broadcastInDim S8x8x16x128 ![] bcast_S_S8x8x16x128 main_cst
  let main_v2 : IVec S8x8x16x128 1 := cmpf .olt main_v0 main_v1
  let main_c : IVec S_ 1 := constantI S_ 1 1#1
  let main_v3 : IVec S_ 1 := (fun x v => Host.reduce IntOp.andi x v reducesTo_S8x8x16x128_S_d0_1_2_3 h_S_) main_v2 main_c
  let main_v4 : FVec F S8x1024x16x128 .f32 := Host.absf main_arg1
  let main_cst_0 : FVec F S_ .f32 := constant S_ .f32 0x7F800000#32
  let main_v5 : FVec F S8x1024x16x128 .f32 := broadcastInDim S8x1024x16x128 ![] bcast_S_S8x1024x16x128 main_cst_0
  let main_v6 : IVec S8x1024x16x128 1 := cmpf .olt main_v4 main_v5
  let main_c_1 : IVec S_ 1 := constantI S_ 1 1#1
  let main_v7 : IVec S_ 1 := (fun x v => Host.reduce IntOp.andi x v reducesTo_S8x1024x16x128_S_d0_1_2_3 h_S_) main_v6 main_c_1
  let main_v8 : IVec S_ 1 := andi main_v3 main_v7
  let main_v9 : FVec F S8x1024x16x128 .f32 := Host.absf main_arg2
  let main_cst_2 : FVec F S_ .f32 := constant S_ .f32 0x7F800000#32
  let main_v10 : FVec F S8x1024x16x128 .f32 := broadcastInDim S8x1024x16x128 ![] bcast_S_S8x1024x16x128 main_cst_2
  let main_v11 : IVec S8x1024x16x128 1 := cmpf .olt main_v9 main_v10
  let main_c_3 : IVec S_ 1 := constantI S_ 1 1#1
  let main_v12 : IVec S_ 1 := (fun x v => Host.reduce IntOp.andi x v reducesTo_S8x1024x16x128_S_d0_1_2_3 h_S_) main_v11 main_c_3
  let main_v13 : IVec S_ 1 := andi main_v8 main_v12
  main_v13
-- ==== Pre_finite_inputs_ReferenceIdeal.lean ====
abbrev S8x8x16x128 : Shape := ⟨4, ![8, 8, 16, 128]⟩
abbrev S8x4096x16x128 : Shape := ⟨4, ![8, 4096, 16, 128]⟩
abbrev S_ : Shape := ⟨0, ![]⟩

class Facts : Prop where
  bcast_S_S8x8x16x128 : S_.BroadcastsInDim S8x8x16x128 (![] : Fin 0 → Fin S8x8x16x128.rank)
  reducesTo_S8x8x16x128_S_d0_1_2_3 : S8x8x16x128.ReducesTo [0, 1, 2, 3] S_
  h_S_ : 0 < S_.numel
  bcast_S_S8x4096x16x128 : S_.BroadcastsInDim S8x4096x16x128 (![] : Fin 0 → Fin S8x4096x16x128.rank)
  reducesTo_S8x4096x16x128_S_d0_1_2_3 : S8x4096x16x128.ReducesTo [0, 1, 2, 3] S_

variable [Facts]

def fn {F : FTy → Type} [FloatOps F] (main_arg0 : FVec F S8x8x16x128 .f32) (main_arg1 : FVec F S8x4096x16x128 .f32) (main_arg2 : FVec F S8x4096x16x128 .f32) : IVec S_ 1 :=
  let main_v0 : FVec F S8x8x16x128 .f32 := Host.absf main_arg0
  let main_cst : FVec F S_ .f32 := constant S_ .f32 0x7F800000#32
  let main_v1 : FVec F S8x8x16x128 .f32 := broadcastInDim S8x8x16x128 ![] bcast_S_S8x8x16x128 main_cst
  let main_v2 : IVec S8x8x16x128 1 := cmpf .olt main_v0 main_v1
  let main_c : IVec S_ 1 := constantI S_ 1 1#1
  let main_v3 : IVec S_ 1 := (fun x v => Host.reduce IntOp.andi x v reducesTo_S8x8x16x128_S_d0_1_2_3 h_S_) main_v2 main_c
  let main_v4 : FVec F S8x4096x16x128 .f32 := Host.absf main_arg1
  let main_cst_0 : FVec F S_ .f32 := constant S_ .f32 0x7F800000#32
  let main_v5 : FVec F S8x4096x16x128 .f32 := broadcastInDim S8x4096x16x128 ![] bcast_S_S8x4096x16x128 main_cst_0
  let main_v6 : IVec S8x4096x16x128 1 := cmpf .olt main_v4 main_v5
  let main_c_1 : IVec S_ 1 := constantI S_ 1 1#1
  let main_v7 : IVec S_ 1 := (fun x v => Host.reduce IntOp.andi x v reducesTo_S8x4096x16x128_S_d0_1_2_3 h_S_) main_v6 main_c_1
  let main_v8 : IVec S_ 1 := andi main_v3 main_v7
  let main_v9 : FVec F S8x4096x16x128 .f32 := Host.absf main_arg2
  let main_cst_2 : FVec F S_ .f32 := constant S_ .f32 0x7F800000#32
  let main_v10 : FVec F S8x4096x16x128 .f32 := broadcastInDim S8x4096x16x128 ![] bcast_S_S8x4096x16x128 main_cst_2
  let main_v11 : IVec S8x4096x16x128 1 := cmpf .olt main_v9 main_v10
  let main_c_3 : IVec S_ 1 := constantI S_ 1 1#1
  let main_v12 : IVec S_ 1 := (fun x v => Host.reduce IntOp.andi x v reducesTo_S8x4096x16x128_S_d0_1_2_3 h_S_) main_v11 main_c_3
  let main_v13 : IVec S_ 1 := andi main_v8 main_v12
  main_v13
-- ==== Kernel.lean ====
abbrev S8x8x16x128 : Shape := ⟨4, ![8, 8, 16, 128]⟩
abbrev S8x1024x16x128 : Shape := ⟨4, ![8, 1024, 16, 128]⟩
abbrev S1024x16x128 : Shape := ⟨3, ![1024, 16, 128]⟩
abbrev S4x8x16x128 : Shape := ⟨4, ![4, 8, 16, 128]⟩
abbrev S4x8x16x1 : Shape := ⟨4, ![4, 8, 16, 1]⟩
abbrev S2 : Shape := ⟨1, ![2]⟩
abbrev S3 : Shape := ⟨1, ![3]⟩
abbrev S1 : Shape := ⟨1, ![1]⟩
abbrev S_ : Shape := ⟨0, ![]⟩
abbrev S1x1024x16x128 : Shape := ⟨4, ![1, 1024, 16, 128]⟩
abbrev S1x8x1x128 : Shape := ⟨4, ![1, 8, 1, 128]⟩
abbrev S8x128 : Shape := ⟨2, ![8, 128]⟩
abbrev S1024x1x128 : Shape := ⟨3, ![1024, 1, 128]⟩
abbrev S1024x128 : Shape := ⟨2, ![1024, 128]⟩
abbrev S8x1024 : Shape := ⟨2, ![8, 1024]⟩
abbrev S8 : Shape := ⟨1, ![8]⟩
abbrev S8x1 : Shape := ⟨2, ![8, 1]⟩
abbrev S1x8x1x1 : Shape := ⟨4, ![1, 8, 1, 1]⟩
abbrev S1x8x16x128 : Shape := ⟨4, ![1, 8, 16, 128]⟩
abbrev S8x16x128 : Shape := ⟨3, ![8, 16, 128]⟩
abbrev S1x8x16x1 : Shape := ⟨4, ![1, 8, 16, 1]⟩
abbrev S8x16x1 : Shape := ⟨3, ![8, 16, 1]⟩
abbrev S2x8x16x128 : Shape := ⟨4, ![2, 8, 16, 128]⟩

abbrev nBuf : Space → Nat
  | .hbm => 4
  | .vmem => 7
  | .smem => 0
  | _ => 0

abbrev bufTy : (tb : Table) → Fin (tcTables nBuf tb) → BufTy
  | .hbm, ⟨0, _⟩ => ⟨S8x8x16x128, .f32⟩
  | .hbm, ⟨1, _⟩ => ⟨S8x1024x16x128, .f32⟩
  | .hbm, ⟨2, _⟩ => ⟨S8x1024x16x128, .f32⟩
  | .hbm, ⟨3, _⟩ => ⟨S8x8x16x128, .f32⟩
  | .local _ .vmem, ⟨0, _⟩ => ⟨S8x8x16x128, .f32⟩
  | .local _ .vmem, ⟨1, _⟩ => ⟨S8x8x16x128, .f32⟩
  | .local _ .vmem, ⟨2, _⟩ => ⟨S1024x16x128, .f32⟩
  | .local _ .vmem, ⟨3, _⟩ => ⟨S1024x16x128, .f32⟩
  | .local _ .vmem, ⟨4, _⟩ => ⟨S4x8x16x128, .f32⟩
  | .local _ .vmem, ⟨5, _⟩ => ⟨S4x8x16x1, .f32⟩
  | .local _ .vmem, ⟨6, _⟩ => ⟨S4x8x16x1, .f32⟩
  | _, _ => ⟨S8x8x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  { ofTc nBuf bufTy 1 28 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_off1 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c0_i32_3 : BitVec 32 := 0#32
  let c0_i32_4 : BitVec 32 := 0#32
  let c0_i32_5 : BitVec 32 := 0#32
  ![v10.toNat, 0, 0, 0]
def k0_off2 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let v27 : Index := Scalar.indexCast v10
  let c0 : Index := 0#32
  let c0_18 : Index := 0#32
  let c0_19 : Index := 0#32
  ![v27.toNat, 0, 0, 0]
def k0_off3 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let v54 : Index := Scalar.indexCast v10
  let c0_42 : Index := 0#32
  let c1 : Index := 1#32
  let c0_43 : Index := 0#32
  ![v54.toNat, 0, 1, 0]
def k0_off4 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let v81 : Index := Scalar.indexCast v10
  let c0_67 : Index := 0#32
  let c2 : Index := 2#32
  let c0_68 : Index := 0#32
  ![v81.toNat, 0, 2, 0]
def k0_off5 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let v108 : Index := Scalar.indexCast v10
  let c0_92 : Index := 0#32
  let c3 : Index := 3#32
  let c0_93 : Index := 0#32
  ![v108.toNat, 0, 3, 0]
def k0_off6 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let v135 : Index := Scalar.indexCast v10
  let c0_117 : Index := 0#32
  let c4 : Index := 4#32
  let c0_118 : Index := 0#32
  ![v135.toNat, 0, 4, 0]
def k0_off7 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let v162 : Index := Scalar.indexCast v10
  let c0_142 : Index := 0#32
  let c5 : Index := 5#32
  let c0_143 : Index := 0#32
  ![v162.toNat, 0, 5, 0]
def k0_off8 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let v189 : Index := Scalar.indexCast v10
  let c0_167 : Index := 0#32
  let c6 : Index := 6#32
  let c0_168 : Index := 0#32
  ![v189.toNat, 0, 6, 0]
def k0_off9 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let v216 : Index := Scalar.indexCast v10
  let c0_192 : Index := 0#32
  let c7 : Index := 7#32
  let c0_193 : Index := 0#32
  ![v216.toNat, 0, 7, 0]
def k0_off10 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let v243 : Index := Scalar.indexCast v10
  let c0_217 : Index := 0#32
  let c8 : Index := 8#32
  let c0_218 : Index := 0#32
  ![v243.toNat, 0, 8, 0]
def k0_off11 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let v270 : Index := Scalar.indexCast v10
  let c0_242 : Index := 0#32
  let c9 : Index := 9#32
  let c0_243 : Index := 0#32
  ![v270.toNat, 0, 9, 0]
def k0_off12 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let v297 : Index := Scalar.indexCast v10
  let c0_267 : Index := 0#32
  let c10 : Index := 10#32
  let c0_268 : Index := 0#32
  ![v297.toNat, 0, 10, 0]
def k0_off13 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let v324 : Index := Scalar.indexCast v10
  let c0_292 : Index := 0#32
  let c11 : Index := 11#32
  let c0_293 : Index := 0#32
  ![v324.toNat, 0, 11, 0]
def k0_off14 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let v351 : Index := Scalar.indexCast v10
  let c0_317 : Index := 0#32
  let c12 : Index := 12#32
  let c0_318 : Index := 0#32
  ![v351.toNat, 0, 12, 0]
def k0_off15 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let v378 : Index := Scalar.indexCast v10
  let c0_342 : Index := 0#32
  let c13 : Index := 13#32
  let c0_343 : Index := 0#32
  ![v378.toNat, 0, 13, 0]
def k0_off16 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let v405 : Index := Scalar.indexCast v10
  let c0_367 : Index := 0#32
  let c14 : Index := 14#32
  let c0_368 : Index := 0#32
  ![v405.toNat, 0, 14, 0]
def k0_off17 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let v432 : Index := Scalar.indexCast v10
  let c0_392 : Index := 0#32
  let c15 : Index := 15#32
  let c0_393 : Index := 0#32
  ![v432.toNat, 0, 15, 0]
def k0_dev1 (d0 : Dev nD) : Nat :=
  let c0_i32_427 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_426 : BitVec 32 := 16#32
  let v468 : BitVec 32 := Scalar.muli v2 c16_i32_426
  let v469 : BitVec 32 := Scalar.addi c0_i32_427 v468
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_428 : BitVec 32 := 4#32
  let v470 : BitVec 32 := Scalar.muli v5 c4_i32_428
  let v471 : BitVec 32 := Scalar.addi v469 v470
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_419 : BitVec 32 := 4#32
  let v461 : BitVec 32 := Scalar.addi v8 c4_i32_419
  let c1_i32_420 : BitVec 32 := 1#32
  let v462 : BitVec 32 := Scalar.subi v461 c1_i32_420
  let c4_i32_421 : BitVec 32 := 4#32
  let v463 : BitVec 32 := Scalar.remsi v462 c4_i32_421
  let c1_i32_429 : BitVec 32 := 1#32
  let v472 : BitVec 32 := Scalar.muli v463 c1_i32_429
  let v473 : BitVec 32 := Scalar.addi v471 v472
  v473.toNat
def k0_dev2 (d0 : Dev nD) : Nat :=
  let c0_i32_432 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_431 : BitVec 32 := 16#32
  let v474 : BitVec 32 := Scalar.muli v2 c16_i32_431
  let v475 : BitVec 32 := Scalar.addi c0_i32_432 v474
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_433 : BitVec 32 := 4#32
  let v476 : BitVec 32 := Scalar.muli v5 c4_i32_433
  let v477 : BitVec 32 := Scalar.addi v475 v476
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v459 : BitVec 32 := Scalar.addi v8 c1_i32_417
  let c4_i32_418 : BitVec 32 := 4#32
  let v460 : BitVec 32 := Scalar.remsi v459 c4_i32_418
  let c1_i32_434 : BitVec 32 := 1#32
  let v478 : BitVec 32 := Scalar.muli v460 c1_i32_434
  let v479 : BitVec 32 := Scalar.addi v477 v478
  v479.toNat
def k0_dev3 (d0 : Dev nD) : Nat :=
  let c0_i32_437 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_436 : BitVec 32 := 16#32
  let v480 : BitVec 32 := Scalar.muli v2 c16_i32_436
  let v481 : BitVec 32 := Scalar.addi c0_i32_437 v480
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_422 : BitVec 32 := 1#32
  let v464 : BitVec 32 := Scalar.xori v5 c1_i32_422
  let c4_i32_438 : BitVec 32 := 4#32
  let v482 : BitVec 32 := Scalar.muli v464 c4_i32_438
  let v483 : BitVec 32 := Scalar.addi v481 v482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_439 : BitVec 32 := 1#32
  let v484 : BitVec 32 := Scalar.muli v8 c1_i32_439
  let v485 : BitVec 32 := Scalar.addi v483 v484
  v485.toNat
def k0_dev4 (d0 : Dev nD) : Nat :=
  let c0_i32_442 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_441 : BitVec 32 := 16#32
  let v486 : BitVec 32 := Scalar.muli v2 c16_i32_441
  let v487 : BitVec 32 := Scalar.addi c0_i32_442 v486
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_423 : BitVec 32 := 2#32
  let v465 : BitVec 32 := Scalar.xori v5 c2_i32_423
  let c4_i32_443 : BitVec 32 := 4#32
  let v488 : BitVec 32 := Scalar.muli v465 c4_i32_443
  let v489 : BitVec 32 := Scalar.addi v487 v488
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_444 : BitVec 32 := 1#32
  let v490 : BitVec 32 := Scalar.muli v8 c1_i32_444
  let v491 : BitVec 32 := Scalar.addi v489 v490
  v491.toNat
def k0_dev5 (d0 : Dev nD) : Nat :=
  let c0_i32_447 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_424 : BitVec 32 := 1#32
  let v466 : BitVec 32 := Scalar.xori v2 c1_i32_424
  let c16_i32_446 : BitVec 32 := 16#32
  let v492 : BitVec 32 := Scalar.muli v466 c16_i32_446
  let v493 : BitVec 32 := Scalar.addi c0_i32_447 v492
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_448 : BitVec 32 := 4#32
  let v494 : BitVec 32 := Scalar.muli v5 c4_i32_448
  let v495 : BitVec 32 := Scalar.addi v493 v494
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_449 : BitVec 32 := 1#32
  let v496 : BitVec 32 := Scalar.muli v8 c1_i32_449
  let v497 : BitVec 32 := Scalar.addi v495 v496
  v497.toNat
def k0_dev6 (d0 : Dev nD) : Nat :=
  let c0_i32_455 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_454 : BitVec 32 := 16#32
  let v498 : BitVec 32 := Scalar.muli v2 c16_i32_454
  let v499 : BitVec 32 := Scalar.addi c0_i32_455 v498
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_456 : BitVec 32 := 4#32
  let v500 : BitVec 32 := Scalar.muli v5 c4_i32_456
  let v501 : BitVec 32 := Scalar.addi v499 v500
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v459 : BitVec 32 := Scalar.addi v8 c1_i32_417
  let c4_i32_418 : BitVec 32 := 4#32
  let v460 : BitVec 32 := Scalar.remsi v459 c4_i32_418
  let c1_i32_457 : BitVec 32 := 1#32
  let v502 : BitVec 32 := Scalar.muli v460 c1_i32_457
  let v503 : BitVec 32 := Scalar.addi v501 v502
  v503.toNat
def k0_dev7 (d0 : Dev nD) : Nat :=
  let c0_i32_469 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_468 : BitVec 32 := 16#32
  let v512 : BitVec 32 := Scalar.muli v2 c16_i32_468
  let v513 : BitVec 32 := Scalar.addi c0_i32_469 v512
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_470 : BitVec 32 := 4#32
  let v514 : BitVec 32 := Scalar.muli v5 c4_i32_470
  let v515 : BitVec 32 := Scalar.addi v513 v514
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v459 : BitVec 32 := Scalar.addi v8 c1_i32_417
  let c4_i32_418 : BitVec 32 := 4#32
  let v460 : BitVec 32 := Scalar.remsi v459 c4_i32_418
  let c1_i32_471 : BitVec 32 := 1#32
  let v516 : BitVec 32 := Scalar.muli v460 c1_i32_471
  let v517 : BitVec 32 := Scalar.addi v515 v516
  v517.toNat
def k0_dev8 (d0 : Dev nD) : Nat :=
  let c0_i32_483 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_482 : BitVec 32 := 16#32
  let v526 : BitVec 32 := Scalar.muli v2 c16_i32_482
  let v527 : BitVec 32 := Scalar.addi c0_i32_483 v526
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_484 : BitVec 32 := 4#32
  let v528 : BitVec 32 := Scalar.muli v5 c4_i32_484
  let v529 : BitVec 32 := Scalar.addi v527 v528
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v459 : BitVec 32 := Scalar.addi v8 c1_i32_417
  let c4_i32_418 : BitVec 32 := 4#32
  let v460 : BitVec 32 := Scalar.remsi v459 c4_i32_418
  let c1_i32_485 : BitVec 32 := 1#32
  let v530 : BitVec 32 := Scalar.muli v460 c1_i32_485
  let v531 : BitVec 32 := Scalar.addi v529 v530
  v531.toNat
def k0_dev9 (d0 : Dev nD) : Nat :=
  let c0_i32_572 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_571 : BitVec 32 := 16#32
  let v594 : BitVec 32 := Scalar.muli v2 c16_i32_571
  let v595 : BitVec 32 := Scalar.addi c0_i32_572 v594
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_573 : BitVec 32 := 4#32
  let v596 : BitVec 32 := Scalar.muli v5 c4_i32_573
  let v597 : BitVec 32 := Scalar.addi v595 v596
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v459 : BitVec 32 := Scalar.addi v8 c1_i32_417
  let c4_i32_418 : BitVec 32 := 4#32
  let v460 : BitVec 32 := Scalar.remsi v459 c4_i32_418
  let c1_i32_574 : BitVec 32 := 1#32
  let v598 : BitVec 32 := Scalar.muli v460 c1_i32_574
  let v599 : BitVec 32 := Scalar.addi v597 v598
  v599.toNat
def k0_dev10 (d0 : Dev nD) : Nat :=
  let c0_i32_586 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_585 : BitVec 32 := 16#32
  let v608 : BitVec 32 := Scalar.muli v2 c16_i32_585
  let v609 : BitVec 32 := Scalar.addi c0_i32_586 v608
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_587 : BitVec 32 := 4#32
  let v610 : BitVec 32 := Scalar.muli v5 c4_i32_587
  let v611 : BitVec 32 := Scalar.addi v609 v610
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v459 : BitVec 32 := Scalar.addi v8 c1_i32_417
  let c4_i32_418 : BitVec 32 := 4#32
  let v460 : BitVec 32 := Scalar.remsi v459 c4_i32_418
  let c1_i32_588 : BitVec 32 := 1#32
  let v612 : BitVec 32 := Scalar.muli v460 c1_i32_588
  let v613 : BitVec 32 := Scalar.addi v611 v612
  v613.toNat
def k0_dev11 (d0 : Dev nD) : Nat :=
  let c0_i32_600 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_599 : BitVec 32 := 16#32
  let v622 : BitVec 32 := Scalar.muli v2 c16_i32_599
  let v623 : BitVec 32 := Scalar.addi c0_i32_600 v622
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_601 : BitVec 32 := 4#32
  let v624 : BitVec 32 := Scalar.muli v5 c4_i32_601
  let v625 : BitVec 32 := Scalar.addi v623 v624
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v459 : BitVec 32 := Scalar.addi v8 c1_i32_417
  let c4_i32_418 : BitVec 32 := 4#32
  let v460 : BitVec 32 := Scalar.remsi v459 c4_i32_418
  let c1_i32_602 : BitVec 32 := 1#32
  let v626 : BitVec 32 := Scalar.muli v460 c1_i32_602
  let v627 : BitVec 32 := Scalar.addi v625 v626
  v627.toNat
def k0_dev12 (d0 : Dev nD) : Nat :=
  let c0_i32_688 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_687 : BitVec 32 := 16#32
  let v690 : BitVec 32 := Scalar.muli v2 c16_i32_687
  let v691 : BitVec 32 := Scalar.addi c0_i32_688 v690
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_689 : BitVec 32 := 4#32
  let v692 : BitVec 32 := Scalar.muli v5 c4_i32_689
  let v693 : BitVec 32 := Scalar.addi v691 v692
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v459 : BitVec 32 := Scalar.addi v8 c1_i32_417
  let c4_i32_418 : BitVec 32 := 4#32
  let v460 : BitVec 32 := Scalar.remsi v459 c4_i32_418
  let c1_i32_690 : BitVec 32 := 1#32
  let v694 : BitVec 32 := Scalar.muli v460 c1_i32_690
  let v695 : BitVec 32 := Scalar.addi v693 v694
  v695.toNat
def k0_dev13 (d0 : Dev nD) : Nat :=
  let c0_i32_702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_701 : BitVec 32 := 16#32
  let v704 : BitVec 32 := Scalar.muli v2 c16_i32_701
  let v705 : BitVec 32 := Scalar.addi c0_i32_702 v704
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_703 : BitVec 32 := 4#32
  let v706 : BitVec 32 := Scalar.muli v5 c4_i32_703
  let v707 : BitVec 32 := Scalar.addi v705 v706
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v459 : BitVec 32 := Scalar.addi v8 c1_i32_417
  let c4_i32_418 : BitVec 32 := 4#32
  let v460 : BitVec 32 := Scalar.remsi v459 c4_i32_418
  let c1_i32_704 : BitVec 32 := 1#32
  let v708 : BitVec 32 := Scalar.muli v460 c1_i32_704
  let v709 : BitVec 32 := Scalar.addi v707 v708
  v709.toNat
def k0_dev14 (d0 : Dev nD) : Nat :=
  let c0_i32_716 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_715 : BitVec 32 := 16#32
  let v718 : BitVec 32 := Scalar.muli v2 c16_i32_715
  let v719 : BitVec 32 := Scalar.addi c0_i32_716 v718
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_717 : BitVec 32 := 4#32
  let v720 : BitVec 32 := Scalar.muli v5 c4_i32_717
  let v721 : BitVec 32 := Scalar.addi v719 v720
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v459 : BitVec 32 := Scalar.addi v8 c1_i32_417
  let c4_i32_418 : BitVec 32 := 4#32
  let v460 : BitVec 32 := Scalar.remsi v459 c4_i32_418
  let c1_i32_718 : BitVec 32 := 1#32
  let v722 : BitVec 32 := Scalar.muli v460 c1_i32_718
  let v723 : BitVec 32 := Scalar.addi v721 v722
  v723.toNat
def k0_off18 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let v852 : Index := Scalar.indexCast v10
  let c0_848 : Index := 0#32
  let c0_849 : Index := 0#32
  let c0_850 : Index := 0#32
  ![v852.toNat, 0, 0, 0]
def k0_off19 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c0_i32_857 : BitVec 32 := 0#32
  let c0_i32_858 : BitVec 32 := 0#32
  let c0_i32_859 : BitVec 32 := 0#32
  ![v10.toNat, 0, 0, 0]
def k0_dev15 (d0 : Dev nD) : Nat :=
  let c0_i32_854 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_853 : BitVec 32 := 16#32
  let v856 : BitVec 32 := Scalar.muli v2 c16_i32_853
  let v857 : BitVec 32 := Scalar.addi c0_i32_854 v856
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_422 : BitVec 32 := 1#32
  let v464 : BitVec 32 := Scalar.xori v5 c1_i32_422
  let c4_i32_855 : BitVec 32 := 4#32
  let v858 : BitVec 32 := Scalar.muli v464 c4_i32_855
  let v859 : BitVec 32 := Scalar.addi v857 v858
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_856 : BitVec 32 := 1#32
  let v860 : BitVec 32 := Scalar.muli v8 c1_i32_856
  let v861 : BitVec 32 := Scalar.addi v859 v860
  v861.toNat
def k0_off20 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c_m2_i32 : BitVec 32 := 4294967294#32
  let v854 : BitVec 32 := Scalar.andi v10 c_m2_i32
  let c0_i32_890 : BitVec 32 := 0#32
  let c0_i32_891 : BitVec 32 := 0#32
  let c0_i32_892 : BitVec 32 := 0#32
  ![v854.toNat, 0, 0, 0]
def k0_dev16 (d0 : Dev nD) : Nat :=
  let c0_i32_887 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_886 : BitVec 32 := 16#32
  let v882 : BitVec 32 := Scalar.muli v2 c16_i32_886
  let v883 : BitVec 32 := Scalar.addi c0_i32_887 v882
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_423 : BitVec 32 := 2#32
  let v465 : BitVec 32 := Scalar.xori v5 c2_i32_423
  let c4_i32_888 : BitVec 32 := 4#32
  let v884 : BitVec 32 := Scalar.muli v465 c4_i32_888
  let v885 : BitVec 32 := Scalar.addi v883 v884
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_889 : BitVec 32 := 1#32
  let v886 : BitVec 32 := Scalar.muli v8 c1_i32_889
  let v887 : BitVec 32 := Scalar.addi v885 v886
  v887.toNat
def k0_off21 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c_m4_i32 : BitVec 32 := 4294967292#32
  let v855 : BitVec 32 := Scalar.andi v10 c_m4_i32
  let c0_i32_923 : BitVec 32 := 0#32
  let c0_i32_924 : BitVec 32 := 0#32
  let c0_i32_925 : BitVec 32 := 0#32
  ![v855.toNat, 0, 0, 0]
def k0_dev17 (d0 : Dev nD) : Nat :=
  let c0_i32_920 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_424 : BitVec 32 := 1#32
  let v466 : BitVec 32 := Scalar.xori v2 c1_i32_424
  let c16_i32_919 : BitVec 32 := 16#32
  let v908 : BitVec 32 := Scalar.muli v466 c16_i32_919
  let v909 : BitVec 32 := Scalar.addi c0_i32_920 v908
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_921 : BitVec 32 := 4#32
  let v910 : BitVec 32 := Scalar.muli v5 c4_i32_921
  let v911 : BitVec 32 := Scalar.addi v909 v910
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_922 : BitVec 32 := 1#32
  let v912 : BitVec 32 := Scalar.muli v8 c1_i32_922
  let v913 : BitVec 32 := Scalar.addi v911 v912
  v913.toNat
abbrev stage0_0 : Fin 1 → Memref sig .tc .vmem S8x8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  inb_S2_S1_0 : ∀ a, (![0] : Fin 1 → Nat) a + S1.size a ≤ S2.size a
  squeezes_S1_S_ : S1.Squeezes S_
  squeezes_S1x1024x16x128_S1024x16x128 : S1x1024x16x128.Squeezes S1024x16x128
  inb_S2_S1_1 : ∀ a, (![1] : Fin 1 → Nat) a + S1.size a ≤ S2.size a
  h_S1x8x1x128 : 0 < S1x8x1x128.numel
  shapeCasts_S1x8x1x128_S8x128 : S1x8x1x128.ShapeCasts S8x128
  inb_S1024x16x128_S1024x1x128_0_0_0 : ∀ a, (![0, 0, 0] : Fin 3 → Nat) a + S1024x1x128.size a ≤ S1024x16x128.size a
  h_S1024x1x128 : 0 < S1024x1x128.numel
  shapeCasts_S1024x1x128_S1024x128 : S1024x1x128.ShapeCasts S1024x128
  reduces_S8x1024_S8 : S8x1024.Reduces [1] S8
  shapeCasts_S8_S8x1 : S8.ShapeCasts S8x1
  broadcasts_S8x1_S8x1024 : S8x1.Broadcasts S8x1024
  inb_S4x8x16x128_S1x8x1x128_0_0_0_0 : ∀ a, (![0, 0, 0, 0] : Fin 4 → Nat) a + S1x8x1x128.size a ≤ S4x8x16x128.size a
  shapeCasts_S8x128_S1x8x1x128 : S8x128.ShapeCasts S1x8x1x128
  inb_S4x8x16x1_S1x8x1x1_0_0_0_0 : ∀ a, (![0, 0, 0, 0] : Fin 4 → Nat) a + S1x8x1x1.size a ≤ S4x8x16x1.size a
  h_S1x8x1x1 : 0 < S1x8x1x1.numel
  shapeCasts_S1x8x1x1_S8x1 : S1x8x1x1.ShapeCasts S8x1
  shapeCasts_S8x1_S1x8x1x1 : S8x1.ShapeCasts S1x8x1x1
  inb_S1024x16x128_S1024x1x128_0_1_0 : ∀ a, (![0, 1, 0] : Fin 3 → Nat) a + S1024x1x128.size a ≤ S1024x16x128.size a
  inb_S4x8x16x128_S1x8x1x128_0_0_1_0 : ∀ a, (![0, 0, 1, 0] : Fin 4 → Nat) a + S1x8x1x128.size a ≤ S4x8x16x128.size a
  inb_S4x8x16x1_S1x8x1x1_0_0_1_0 : ∀ a, (![0, 0, 1, 0] : Fin 4 → Nat) a + S1x8x1x1.size a ≤ S4x8x16x1.size a
  inb_S1024x16x128_S1024x1x128_0_2_0 : ∀ a, (![0, 2, 0] : Fin 3 → Nat) a + S1024x1x128.size a ≤ S1024x16x128.size a
  inb_S4x8x16x128_S1x8x1x128_0_0_2_0 : ∀ a, (![0, 0, 2, 0] : Fin 4 → Nat) a + S1x8x1x128.size a ≤ S4x8x16x128.size a
  inb_S4x8x16x1_S1x8x1x1_0_0_2_0 : ∀ a, (![0, 0, 2, 0] : Fin 4 → Nat) a + S1x8x1x1.size a ≤ S4x8x16x1.size a
  inb_S1024x16x128_S1024x1x128_0_3_0 : ∀ a, (![0, 3, 0] : Fin 3 → Nat) a + S1024x1x128.size a ≤ S1024x16x128.size a
  inb_S4x8x16x128_S1x8x1x128_0_0_3_0 : ∀ a, (![0, 0, 3, 0] : Fin 4 → Nat) a + S1x8x1x128.size a ≤ S4x8x16x128.size a
  inb_S4x8x16x1_S1x8x1x1_0_0_3_0 : ∀ a, (![0, 0, 3, 0] : Fin 4 → Nat) a + S1x8x1x1.size a ≤ S4x8x16x1.size a
  inb_S1024x16x128_S1024x1x128_0_4_0 : ∀ a, (![0, 4, 0] : Fin 3 → Nat) a + S1024x1x128.size a ≤ S1024x16x128.size a
  inb_S4x8x16x128_S1x8x1x128_0_0_4_0 : ∀ a, (![0, 0, 4, 0] : Fin 4 → Nat) a + S1x8x1x128.size a ≤ S4x8x16x128.size a
  inb_S4x8x16x1_S1x8x1x1_0_0_4_0 : ∀ a, (![0, 0, 4, 0] : Fin 4 → Nat) a + S1x8x1x1.size a ≤ S4x8x16x1.size a
  inb_S1024x16x128_S1024x1x128_0_5_0 : ∀ a, (![0, 5, 0] : Fin 3 → Nat) a + S1024x1x128.size a ≤ S1024x16x128.size a
  inb_S4x8x16x128_S1x8x1x128_0_0_5_0 : ∀ a, (![0, 0, 5, 0] : Fin 4 → Nat) a + S1x8x1x128.size a ≤ S4x8x16x128.size a
  inb_S4x8x16x1_S1x8x1x1_0_0_5_0 : ∀ a, (![0, 0, 5, 0] : Fin 4 → Nat) a + S1x8x1x1.size a ≤ S4x8x16x1.size a
  inb_S1024x16x128_S1024x1x128_0_6_0 : ∀ a, (![0, 6, 0] : Fin 3 → Nat) a + S1024x1x128.size a ≤ S1024x16x128.size a
  inb_S4x8x16x128_S1x8x1x128_0_0_6_0 : ∀ a, (![0, 0, 6, 0] : Fin 4 → Nat) a + S1x8x1x128.size a ≤ S4x8x16x128.size a
  inb_S4x8x16x1_S1x8x1x1_0_0_6_0 : ∀ a, (![0, 0, 6, 0] : Fin 4 → Nat) a + S1x8x1x1.size a ≤ S4x8x16x1.size a
  inb_S1024x16x128_S1024x1x128_0_7_0 : ∀ a, (![0, 7, 0] : Fin 3 → Nat) a + S1024x1x128.size a ≤ S1024x16x128.size a
  inb_S4x8x16x128_S1x8x1x128_0_0_7_0 : ∀ a, (![0, 0, 7, 0] : Fin 4 → Nat) a + S1x8x1x128.size a ≤ S4x8x16x128.size a
  inb_S4x8x16x1_S1x8x1x1_0_0_7_0 : ∀ a, (![0, 0, 7, 0] : Fin 4 → Nat) a + S1x8x1x1.size a ≤ S4x8x16x1.size a
  inb_S1024x16x128_S1024x1x128_0_8_0 : ∀ a, (![0, 8, 0] : Fin 3 → Nat) a + S1024x1x128.size a ≤ S1024x16x128.size a
  inb_S4x8x16x128_S1x8x1x128_0_0_8_0 : ∀ a, (![0, 0, 8, 0] : Fin 4 → Nat) a + S1x8x1x128.size a ≤ S4x8x16x128.size a
  inb_S4x8x16x1_S1x8x1x1_0_0_8_0 : ∀ a, (![0, 0, 8, 0] : Fin 4 → Nat) a + S1x8x1x1.size a ≤ S4x8x16x1.size a
  inb_S1024x16x128_S1024x1x128_0_9_0 : ∀ a, (![0, 9, 0] : Fin 3 → Nat) a + S1024x1x128.size a ≤ S1024x16x128.size a
  inb_S4x8x16x128_S1x8x1x128_0_0_9_0 : ∀ a, (![0, 0, 9, 0] : Fin 4 → Nat) a + S1x8x1x128.size a ≤ S4x8x16x128.size a
  inb_S4x8x16x1_S1x8x1x1_0_0_9_0 : ∀ a, (![0, 0, 9, 0] : Fin 4 → Nat) a + S1x8x1x1.size a ≤ S4x8x16x1.size a
  inb_S1024x16x128_S1024x1x128_0_10_0 : ∀ a, (![0, 10, 0] : Fin 3 → Nat) a + S1024x1x128.size a ≤ S1024x16x128.size a
  inb_S4x8x16x128_S1x8x1x128_0_0_10_0 : ∀ a, (![0, 0, 10, 0] : Fin 4 → Nat) a + S1x8x1x128.size a ≤ S4x8x16x128.size a
  inb_S4x8x16x1_S1x8x1x1_0_0_10_0 : ∀ a, (![0, 0, 10, 0] : Fin 4 → Nat) a + S1x8x1x1.size a ≤ S4x8x16x1.size a
  inb_S1024x16x128_S1024x1x128_0_11_0 : ∀ a, (![0, 11, 0] : Fin 3 → Nat) a + S1024x1x128.size a ≤ S1024x16x128.size a
  inb_S4x8x16x128_S1x8x1x128_0_0_11_0 : ∀ a, (![0, 0, 11, 0] : Fin 4 → Nat) a + S1x8x1x128.size a ≤ S4x8x16x128.size a
  inb_S4x8x16x1_S1x8x1x1_0_0_11_0 : ∀ a, (![0, 0, 11, 0] : Fin 4 → Nat) a + S1x8x1x1.size a ≤ S4x8x16x1.size a
  inb_S1024x16x128_S1024x1x128_0_12_0 : ∀ a, (![0, 12, 0] : Fin 3 → Nat) a + S1024x1x128.size a ≤ S1024x16x128.size a
  inb_S4x8x16x128_S1x8x1x128_0_0_12_0 : ∀ a, (![0, 0, 12, 0] : Fin 4 → Nat) a + S1x8x1x128.size a ≤ S4x8x16x128.size a
  inb_S4x8x16x1_S1x8x1x1_0_0_12_0 : ∀ a, (![0, 0, 12, 0] : Fin 4 → Nat) a + S1x8x1x1.size a ≤ S4x8x16x1.size a
  inb_S1024x16x128_S1024x1x128_0_13_0 : ∀ a, (![0, 13, 0] : Fin 3 → Nat) a + S1024x1x128.size a ≤ S1024x16x128.size a
  inb_S4x8x16x128_S1x8x1x128_0_0_13_0 : ∀ a, (![0, 0, 13, 0] : Fin 4 → Nat) a + S1x8x1x128.size a ≤ S4x8x16x128.size a
  inb_S4x8x16x1_S1x8x1x1_0_0_13_0 : ∀ a, (![0, 0, 13, 0] : Fin 4 → Nat) a + S1x8x1x1.size a ≤ S4x8x16x1.size a
  inb_S1024x16x128_S1024x1x128_0_14_0 : ∀ a, (![0, 14, 0] : Fin 3 → Nat) a + S1024x1x128.size a ≤ S1024x16x128.size a
  inb_S4x8x16x128_S1x8x1x128_0_0_14_0 : ∀ a, (![0, 0, 14, 0] : Fin 4 → Nat) a + S1x8x1x128.size a ≤ S4x8x16x128.size a
  inb_S4x8x16x1_S1x8x1x1_0_0_14_0 : ∀ a, (![0, 0, 14, 0] : Fin 4 → Nat) a + S1x8x1x1.size a ≤ S4x8x16x1.size a
  inb_S1024x16x128_S1024x1x128_0_15_0 : ∀ a, (![0, 15, 0] : Fin 3 → Nat) a + S1024x1x128.size a ≤ S1024x16x128.size a
  inb_S4x8x16x128_S1x8x1x128_0_0_15_0 : ∀ a, (![0, 0, 15, 0] : Fin 4 → Nat) a + S1x8x1x128.size a ≤ S4x8x16x128.size a
  inb_S4x8x16x1_S1x8x1x1_0_0_15_0 : ∀ a, (![0, 0, 15, 0] : Fin 4 → Nat) a + S1x8x1x1.size a ≤ S4x8x16x1.size a
  hamt_1 : (1#32 : BitVec 32).msb = false
  hamt_5 : (5#32 : BitVec 32).msb = false
  inb_S3_S1_0 : ∀ a, (![0] : Fin 1 → Nat) a + S1.size a ≤ S3.size a
  inb_S4x8x16x128_S1x8x16x128_1_0_0_0 : ∀ a, (![1, 0, 0, 0] : Fin 4 → Nat) a + S1x8x16x128.size a ≤ S4x8x16x128.size a
  squeezes_S1x8x16x128_S8x16x128 : S1x8x16x128.Squeezes S8x16x128
  inb_S4x8x16x128_S1x8x16x128_0_0_0_0 : ∀ a, (![0, 0, 0, 0] : Fin 4 → Nat) a + S1x8x16x128.size a ≤ S4x8x16x128.size a
  inb_S4x8x16x1_S1x8x16x1_1_0_0_0 : ∀ a, (![1, 0, 0, 0] : Fin 4 → Nat) a + S1x8x16x1.size a ≤ S4x8x16x1.size a
  squeezes_S1x8x16x1_S8x16x1 : S1x8x16x1.Squeezes S8x16x1
  inb_S4x8x16x1_S1x8x16x1_0_0_0_0 : ∀ a, (![0, 0, 0, 0] : Fin 4 → Nat) a + S1x8x16x1.size a ≤ S4x8x16x1.size a
  inb_S3_S1_1 : ∀ a, (![1] : Fin 1 → Nat) a + S1.size a ≤ S3.size a
  inb_S4x8x16x128_S1x8x16x128_2_0_0_0 : ∀ a, (![2, 0, 0, 0] : Fin 4 → Nat) a + S1x8x16x128.size a ≤ S4x8x16x128.size a
  inb_S4x8x16x1_S1x8x16x1_2_0_0_0 : ∀ a, (![2, 0, 0, 0] : Fin 4 → Nat) a + S1x8x16x1.size a ≤ S4x8x16x1.size a
  inb_S3_S1_2 : ∀ a, (![2] : Fin 1 → Nat) a + S1.size a ≤ S3.size a
  inb_S4x8x16x128_S1x8x16x128_3_0_0_0 : ∀ a, (![3, 0, 0, 0] : Fin 4 → Nat) a + S1x8x16x128.size a ≤ S4x8x16x128.size a
  inb_S4x8x16x1_S1x8x16x1_3_0_0_0 : ∀ a, (![3, 0, 0, 0] : Fin 4 → Nat) a + S1x8x16x1.size a ≤ S4x8x16x1.size a
  h_S1x8x16x1 : 0 < S1x8x16x1.numel
  shapeCasts_S1x8x16x1_S8x16x1 : S1x8x16x1.ShapeCasts S8x16x1
  h_S1x8x16x128 : 0 < S1x8x16x128.numel
  shapeCasts_S1x8x16x128_S8x16x128 : S1x8x16x128.ShapeCasts S8x16x128
  broadcasts_S8x16x1_S8x16x128 : S8x16x1.Broadcasts S8x16x128
  shapeCasts_S8x16x128_S1x8x16x128 : S8x16x128.ShapeCasts S1x8x16x128
  dot_S8x128_S1024x128_S8x1024_1_1_0_0_n_n_wf : DotDims.WF S8x128 S1024x128 S8x1024 [1] [1] [0] [0] [] []
  dot_S8x1024_S1024x128_S8x128_1_0_0_1_n_n_wf : DotDims.WF S8x1024 S1024x128 S8x128 [1] [0] [0] [1] [] []
  hcc0_scratch5 : 2 + S2.numel ≤ 28
  hcc0_scratch6 : 4 + S3.numel ≤ 28
  hcc0_scratch7 : 7 + S3.numel ≤ 28
  hcc0_scratch8 : 10 + S3.numel ≤ 28
  hcc0_scratch9 : 13 + S3.numel ≤ 28
  hcc0_scratch10 : 16 + S3.numel ≤ 28
  hcc0_scratch11 : 19 + S3.numel ≤ 28
  hcc0_scratch12 : 22 + S3.numel ≤ 28
  hcc0_scratch13 : 25 + S3.numel ≤ 28
  k0_off1_inb : ∀ d0 : Dev nD, ∀ a, (k0_off1 d0) a + S1x1024x16x128.size a ≤ S8x1024x16x128.size a
  k0_off2_inb : ∀ d0 : Dev nD, ∀ a, (k0_off2 d0) a + S1x8x1x128.size a ≤ S8x8x16x128.size a
  k0_off3_inb : ∀ d0 : Dev nD, ∀ a, (k0_off3 d0) a + S1x8x1x128.size a ≤ S8x8x16x128.size a
  k0_off4_inb : ∀ d0 : Dev nD, ∀ a, (k0_off4 d0) a + S1x8x1x128.size a ≤ S8x8x16x128.size a
  k0_off5_inb : ∀ d0 : Dev nD, ∀ a, (k0_off5 d0) a + S1x8x1x128.size a ≤ S8x8x16x128.size a
  k0_off6_inb : ∀ d0 : Dev nD, ∀ a, (k0_off6 d0) a + S1x8x1x128.size a ≤ S8x8x16x128.size a
  k0_off7_inb : ∀ d0 : Dev nD, ∀ a, (k0_off7 d0) a + S1x8x1x128.size a ≤ S8x8x16x128.size a
  k0_off8_inb : ∀ d0 : Dev nD, ∀ a, (k0_off8 d0) a + S1x8x1x128.size a ≤ S8x8x16x128.size a
  k0_off9_inb : ∀ d0 : Dev nD, ∀ a, (k0_off9 d0) a + S1x8x1x128.size a ≤ S8x8x16x128.size a
  k0_off10_inb : ∀ d0 : Dev nD, ∀ a, (k0_off10 d0) a + S1x8x1x128.size a ≤ S8x8x16x128.size a
  k0_off11_inb : ∀ d0 : Dev nD, ∀ a, (k0_off11 d0) a + S1x8x1x128.size a ≤ S8x8x16x128.size a
  k0_off12_inb : ∀ d0 : Dev nD, ∀ a, (k0_off12 d0) a + S1x8x1x128.size a ≤ S8x8x16x128.size a
  k0_off13_inb : ∀ d0 : Dev nD, ∀ a, (k0_off13 d0) a + S1x8x1x128.size a ≤ S8x8x16x128.size a
  k0_off14_inb : ∀ d0 : Dev nD, ∀ a, (k0_off14 d0) a + S1x8x1x128.size a ≤ S8x8x16x128.size a
  k0_off15_inb : ∀ d0 : Dev nD, ∀ a, (k0_off15 d0) a + S1x8x1x128.size a ≤ S8x8x16x128.size a
  k0_off16_inb : ∀ d0 : Dev nD, ∀ a, (k0_off16 d0) a + S1x8x1x128.size a ≤ S8x8x16x128.size a
  k0_off17_inb : ∀ d0 : Dev nD, ∀ a, (k0_off17 d0) a + S1x8x1x128.size a ≤ S8x8x16x128.size a
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off18_inb : ∀ d0 : Dev nD, ∀ a, (k0_off18 d0) a + S1x8x16x128.size a ≤ S8x8x16x128.size a
  k0_off19_inb : ∀ d0 : Dev nD, ∀ a, (k0_off19 d0) a + S1x8x16x128.size a ≤ S8x8x16x128.size a
  k0_dev15_lt : ∀ d0 : Dev nD, (k0_dev15 d0) < nD
  k0_off20_inb : ∀ d0 : Dev nD, ∀ a, (k0_off20 d0) a + S2x8x16x128.size a ≤ S8x8x16x128.size a
  k0_dev16_lt : ∀ d0 : Dev nD, (k0_dev16 d0) < nD
  k0_off21_inb : ∀ d0 : Dev nD, ∀ a, (k0_off21 d0) a + S4x8x16x128.size a ≤ S8x8x16x128.size a
  k0_dev17_lt : ∀ d0 : Dev nD, (k0_dev17 d0) < nD
  hstage0_0 : ∀ j, (stage0_0 j).IsWhole
  hstage0_1 : ∀ j, (stage0_1 j).IsWhole

variable [Facts₀]

abbrev cc0_scratch5 : DmaSems sig S2 := SemArray.consecutive 2 S2 hcc0_scratch5
abbrev cc0_scratch6 : DmaSems sig S3 := SemArray.consecutive 4 S3 hcc0_scratch6
abbrev cc0_scratch7 : DmaSems sig S3 := SemArray.consecutive 7 S3 hcc0_scratch7
abbrev cc0_scratch8 : DmaSems sig S3 := SemArray.consecutive 10 S3 hcc0_scratch8
abbrev cc0_scratch9 : DmaSems sig S3 := SemArray.consecutive 13 S3 hcc0_scratch9
abbrev cc0_scratch10 : DmaSems sig S3 := SemArray.consecutive 16 S3 hcc0_scratch10
abbrev cc0_scratch11 : DmaSems sig S3 := SemArray.consecutive 19 S3 hcc0_scratch11
abbrev cc0_scratch12 : DmaSems sig S3 := SemArray.consecutive 22 S3 hcc0_scratch12
abbrev cc0_scratch13 : DmaSems sig S3 := SemArray.consecutive 25 S3 hcc0_scratch13
def dot_S8x128_S1024x128_S8x1024_1_1_0_0_n_n : DotDims S8x128 S1024x128 S8x1024 where
  lhsContracting := [1]
  rhsContracting := [1]
  lhsNonContracting := [0]
  rhsNonContracting := [0]
  lhsBatch := []
  rhsBatch := []
  wf := dot_S8x128_S1024x128_S8x1024_1_1_0_0_n_n_wf
def dot_S8x1024_S1024x128_S8x128_1_0_0_1_n_n : DotDims S8x1024 S1024x128 S8x128 where
  lhsContracting := [1]
  rhsContracting := [0]
  lhsNonContracting := [0]
  rhsNonContracting := [1]
  lhsBatch := []
  rhsBatch := []
  wf := dot_S8x1024_S1024x128_S8x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x8x16x128 : Shape := ⟨4, ![8, 8, 16, 128]⟩
abbrev S8x4096x16x128 : Shape := ⟨4, ![8, 4096, 16, 128]⟩
abbrev S8x16x8x4096 : Shape := ⟨4, ![8, 16, 8, 4096]⟩
abbrev S_ : Shape := ⟨0, ![]⟩
abbrev S8x16x8 : Shape := ⟨3, ![8, 16, 8]⟩
abbrev S8x16x8x1 : Shape := ⟨4, ![8, 16, 8, 1]⟩
abbrev S8x16x128x8 : Shape := ⟨4, ![8, 16, 128, 8]⟩

abbrev nBuf : Space → Nat
  | .hbm => 20
  | .vmem => 0
  | .smem => 0
  | _ => 0

abbrev bufTy : (tb : Table) → Fin (tcTables nBuf tb) → BufTy
  | .hbm, ⟨0, _⟩ => ⟨S8x8x16x128, .f32⟩
  | .hbm, ⟨1, _⟩ => ⟨S8x4096x16x128, .f32⟩
  | .hbm, ⟨2, _⟩ => ⟨S8x4096x16x128, .f32⟩
  | .hbm, ⟨3, _⟩ => ⟨S8x16x8x4096, .f32⟩
  | .hbm, ⟨4, _⟩ => ⟨S_, .f32⟩
  | .hbm, ⟨5, _⟩ => ⟨S8x16x8x4096, .f32⟩
  | .hbm, ⟨6, _⟩ => ⟨S8x16x8x4096, .f32⟩
  | .hbm, ⟨7, _⟩ => ⟨S_, .f32⟩
  | .hbm, ⟨8, _⟩ => ⟨S8x16x8, .f32⟩
  | .hbm, ⟨9, _⟩ => ⟨S8x16x8x1, .f32⟩
  | .hbm, ⟨10, _⟩ => ⟨S8x16x8x4096, .f32⟩
  | .hbm, ⟨11, _⟩ => ⟨S8x16x8x4096, .f32⟩
  | .hbm, ⟨12, _⟩ => ⟨S8x16x8x4096, .f32⟩
  | .hbm, ⟨13, _⟩ => ⟨S_, .f32⟩
  | .hbm, ⟨14, _⟩ => ⟨S8x16x8, .f32⟩
  | .hbm, ⟨15, _⟩ => ⟨S8x16x8x1, .f32⟩
  | .hbm, ⟨16, _⟩ => ⟨S8x16x8x4096, .f32⟩
  | .hbm, ⟨17, _⟩ => ⟨S8x16x8x4096, .f32⟩
  | .hbm, ⟨18, _⟩ => ⟨S8x16x128x8, .f32⟩
  | .hbm, ⟨19, _⟩ => ⟨S8x8x16x128, .f32⟩
  | _, _ => ⟨S8x8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S8x16x8x4096 : S_.BroadcastsInDim S8x16x8x4096 (![] : Fin 0 → Fin S8x16x8x4096.rank)
  reducesTo_S8x16x8x4096_S8x16x8_d3 : S8x16x8x4096.ReducesTo [3] S8x16x8
  h_S_ : 0 < S_.numel
  bcast_S8x16x8_S8x16x8x1_0_1_2 : S8x16x8.BroadcastsInDim S8x16x8x1 (![0, 1, 2] : Fin 3 → Fin S8x16x8x1.rank)
  bcast_S8x16x8x1_S8x16x8x4096_0_1_2_3 : S8x16x8x1.BroadcastsInDim S8x16x8x4096 (![0, 1, 2, 3] : Fin 4 → Fin S8x16x8x4096.rank)
  transposes_S8x16x128x8_S8x8x16x128_0_3_1_2 : S8x16x128x8.Transposes [0, 3, 1, 2] S8x8x16x128
  dot_S8x8x16x128_S8x4096x16x128_S8x16x8x4096_3_3_1_1_02_02_wf : DotDims.WF S8x8x16x128 S8x4096x16x128 S8x16x8x4096 [3] [3] [1] [1] [0, 2] [0, 2]
  dot_S8x4096x16x128_S8x16x8x4096_S8x16x128x8_1_3_3_2_02_01_wf : DotDims.WF S8x4096x16x128 S8x16x8x4096 S8x16x128x8 [1] [3] [3] [2] [0, 2] [0, 1]

variable [Facts₀]

def dot_S8x8x16x128_S8x4096x16x128_S8x16x8x4096_3_3_1_1_02_02 : DotDims S8x8x16x128 S8x4096x16x128 S8x16x8x4096 where
  lhsContracting := [3]
  rhsContracting := [3]
  lhsNonContracting := [1]
  rhsNonContracting := [1]
  lhsBatch := [0, 2]
  rhsBatch := [0, 2]
  wf := dot_S8x8x16x128_S8x4096x16x128_S8x16x8x4096_3_3_1_1_02_02_wf
def dot_S8x4096x16x128_S8x16x8x4096_S8x16x128x8_1_3_3_2_02_01 : DotDims S8x4096x16x128 S8x16x8x4096 S8x16x128x8 where
  lhsContracting := [1]
  rhsContracting := [3]
  lhsNonContracting := [3]
  rhsNonContracting := [2]
  lhsBatch := [0, 2]
  rhsBatch := [0, 1]
  wf := dot_S8x4096x16x128_S8x16x8x4096_S8x16x128x8_1_3_3_2_02_01_wf

class Facts : Prop extends Facts₀ where

variable [Facts]
-- ==== Proof.RefFrame.lean ====
/-
  The reference side of the certificate. The reference is one straight-line host program: two contractions, a
  scaling, a row maximum, an exponential, a row sum, a quotient and a transposition. Its run ends with every
  argument array unchanged; that is its frame. The kernel's program over the extended reals is the same sequence of
  operations as its program over words, read at the other values.
-/
import proofs.«900429_g7700000000000430_dist_flashdec_v7x_xyz2x4x4_z_b8_sq8_skv1024_h16_d128_f32_1_alg».proof.Defs
import proofs.«900429_g7700000000000430_dist_flashdec_v7x_xyz2x4x4_z_b8_sq8_skv1024_h16_d128_f32_1_alg».proof.Proof.Gen.ReferenceIdeal.Run

noncomputable section

open Idealize.ShloMosaic Idealize.ShloMosaic.TcCoe Idealize.SL.Sem

namespace Cert.Proof.RefSide

/-- Every execution of the reference terminates without a fault and leaves its three argument arrays as they were:
    the run of its host operations, with the value of the result forgotten. -/
theorem frame_ri [Cert.ReferenceIdeal.Facts] [Cert.Pre_finite_inputs_ReferenceIdeal.Facts] : Cert.frame_ReferenceIdeal := fun m ρ _ =>
  (θ_run Cert.ReferenceIdeal.defs _ _).mono (fun _ h c => (h c).2) (Cert.ReferenceIdeal.Value.run (F := Ideal) m ρ)

/-- The two readings of the kernel are one sequence of operations: there is nothing to preserve. -/
theorem preserves : Cert.preserves_Kernel_KernelIdeal := trivial

end Cert.Proof.RefSide

end
-- ==== Proof.MeshIdeal.lean ====
/-
  The geometry of the 2 x 4 x 4 mesh as the kernel uses it. A device's id is 16 x + 4 y + z. A device serves the
  batch row r = 4 x + y; the four devices that differ only in z share a row and form a ring along z; the devices
  that differ in one bit of r (y xor 1, y xor 2, x xor 1) at the same z are the three partners of the recursive
  doubling that gathers the eight rows. Every fact here is a finite check over the 32 devices.
-/
import proofs.«900429_g7700000000000430_dist_flashdec_v7x_xyz2x4x4_z_b8_sq8_skv1024_h16_d128_f32_1_alg».proof.Proof.Gen.KernelIdeal

namespace Cert.KernelIdeal.Mesh

open Cert.KernelIdeal Cert.KernelIdeal.Gen Idealize.ShloMosaic

/-- The next device along z (the one a device sends to in the ring). -/
def zr (c : Dev nD) : Dev nD := ⟨16 * (c.val / 16) + 4 * ((c.val / 4) % 4) + ((c.val % 4) + 1) % 4, by have h : c.val < 32 := c.isLt; show _ < 32; omega⟩
/-- The previous device along z (the one a device receives from in the ring). -/
def zl (c : Dev nD) : Dev nD := ⟨16 * (c.val / 16) + 4 * ((c.val / 4) % 4) + ((c.val % 4) + 3) % 4, by have h : c.val < 32 := c.isLt; show _ < 32; omega⟩
/-- The partner across bit 0 of the row (y xor 1), bit 1 (y xor 2), bit 2 (x xor 1). -/
def p0 (c : Dev nD) : Dev nD := ⟨c.val ^^^ 4, by revert c; decide⟩
def p1 (c : Dev nD) : Dev nD := ⟨c.val ^^^ 8, by revert c; decide⟩
def p2 (c : Dev nD) : Dev nD := ⟨c.val ^^^ 16, by revert c; decide⟩

/-- The batch row a device serves. -/
def row (c : Dev nD) : Nat := 4 * (c.val / 16) + (c.val / 4) % 4

theorem row_lt (c : Dev nD) : row c < 8 := by have h : c.val < 32 := c.isLt; unfold row; omega

theorem zl_zr (c : Dev nD) : zl (zr c) = c := by revert c; decide
theorem zr_zl (c : Dev nD) : zr (zl c) = c := by revert c; decide
theorem p0_p0 (c : Dev nD) : p0 (p0 c) = c := by revert c; decide
theorem p1_p1 (c : Dev nD) : p1 (p1 c) = c := by revert c; decide
theorem p2_p2 (c : Dev nD) : p2 (p2 c) = c := by revert c; decide

/-- The five neighbours of a device are five different devices, none of them the device itself. -/
theorem nbrs_distinct (c : Dev nD) :
    [zl c, zr c, p0 c, p1 c, p2 c, c].Nodup := by revert c; decide

theorem row_zr (c : Dev nD) : row (zr c) = row c := by revert c; decide
theorem row_zl (c : Dev nD) : row (zl c) = row c := by revert c; decide
theorem row_p0 (c : Dev nD) : row (p0 c) = row c ^^^ 1 := by revert c; decide
theorem row_p1 (c : Dev nD) : row (p1 c) = row c ^^^ 2 := by revert c; decide
theorem row_p2 (c : Dev nD) : row (p2 c) = row c ^^^ 4 := by revert c; decide

/-! The device ids the body computes, in program order: the five barrier signals (previous and next along z, the three
    partners), the nine ring transfers (all to the next along z), the three gathering transfers (to the partners). -/
theorem dev1_eq (c : Dev nD) : (⟨k0_dev1 c, k0_dev1_lt c⟩ : Dev nD) = zl c := Fin.ext (k0_dev1_eq c)
theorem dev2_eq (c : Dev nD) : (⟨k0_dev2 c, k0_dev2_lt c⟩ : Dev nD) = zr c := Fin.ext (k0_dev2_eq c)
theorem dev3_eq : ∀ c : Dev nD, (⟨k0_dev3 c, k0_dev3_lt c⟩ : Dev nD) = p0 c := by decide +kernel
theorem dev4_eq : ∀ c : Dev nD, (⟨k0_dev4 c, k0_dev4_lt c⟩ : Dev nD) = p1 c := by decide +kernel
theorem dev5_eq : ∀ c : Dev nD, (⟨k0_dev5 c, k0_dev5_lt c⟩ : Dev nD) = p2 c := by decide +kernel
theorem dev6_eq (c : Dev nD) : (⟨k0_dev6 c, k0_dev6_lt c⟩ : Dev nD) = zr c := Fin.ext (k0_dev6_eq c)
theorem dev7_eq (c : Dev nD) : (⟨k0_dev7 c, k0_dev7_lt c⟩ : Dev nD) = zr c := Fin.ext (k0_dev7_eq c)
theorem dev8_eq (c : Dev nD) : (⟨k0_dev8 c, k0_dev8_lt c⟩ : Dev nD) = zr c := Fin.ext (k0_dev8_eq c)
theorem dev9_eq (c : Dev nD) : (⟨k0_dev9 c, k0_dev9_lt c⟩ : Dev nD) = zr c := Fin.ext (k0_dev9_eq c)
theorem dev10_eq (c : Dev nD) : (⟨k0_dev10 c, k0_dev10_lt c⟩ : Dev nD) = zr c := Fin.ext (k0_dev10_eq c)
theorem dev11_eq (c : Dev nD) : (⟨k0_dev11 c, k0_dev11_lt c⟩ : Dev nD) = zr c := Fin.ext (k0_dev11_eq c)
theorem dev12_eq (c : Dev nD) : (⟨k0_dev12 c, k0_dev12_lt c⟩ : Dev nD) = zr c := Fin.ext (k0_dev12_eq c)
theorem dev13_eq (c : Dev nD) : (⟨k0_dev13 c, k0_dev13_lt c⟩ : Dev nD) = zr c := Fin.ext (k0_dev13_eq c)
theorem dev14_eq (c : Dev nD) : (⟨k0_dev14 c, k0_dev14_lt c⟩ : Dev nD) = zr c := Fin.ext (k0_dev14_eq c)
theorem dev15_eq : ∀ c : Dev nD, (⟨k0_dev15 c, k0_dev15_lt c⟩ : Dev nD) = p0 c := by decide +kernel
theorem dev16_eq : ∀ c : Dev nD, (⟨k0_dev16 c, k0_dev16_lt c⟩ : Dev nD) = p1 c := by decide +kernel
theorem dev17_eq : ∀ c : Dev nD, (⟨k0_dev17 c, k0_dev17_lt c⟩ : Dev nD) = p2 c := by decide +kernel

/-! The row offsets of the result buffer the body computes: the device's own row, and the aligned pair and quadruple of
    rows that contain it. -/
theorem off18_eq' (c : Dev nD) : k0_off18 c = ![row c, 0, 0, 0] := k0_off18_eq c
theorem off19_eq' (c : Dev nD) : k0_off19 c = ![row c, 0, 0, 0] := k0_off19_eq c
theorem off20_eq : ∀ c : Dev nD, k0_off20 c = ![row c / 2 * 2, 0, 0, 0] := by decide +kernel
theorem off21_eq : ∀ c : Dev nD, k0_off21 c = ![row c / 4 * 4, 0, 0, 0] := by decide +kernel

end Cert.KernelIdeal.Mesh
-- ==== Proof.Proto.lean ====
/-
  The protocol of the distributed decode step, as ghost state. Each device holds three scratch buffers of four slots
  (the partial sums o, the row maxima m and the row sums l of its own key block in slot 0; slots 1..3 are written by
  the previous device along z, hop after hop), the result's staging buffer of eight rows (its own row written by
  itself, the other seven by its three partners, 1 + 2 + 4), and twenty-six semaphores of its own beside the runtime's
  barrier semaphore. This module names the buffers, their slots and rows, the semaphore cells, and what every unit
  that lands on a cell hands to the device that waits on it.
-/
import proofs.«900429_g7700000000000430_dist_flashdec_v7x_xyz2x4x4_z_b8_sq8_skv1024_h16_d128_f32_1_alg».proof.Proof.MeshIdeal
import proofs.«900429_g7700000000000430_dist_flashdec_v7x_xyz2x4x4_z_b8_sq8_skv1024_h16_d128_f32_1_alg».proof.Proof.Gen.KernelIdeal.Skeleton
import proofs.«900429_g7700000000000430_dist_flashdec_v7x_xyz2x4x4_z_b8_sq8_skv1024_h16_d128_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.FD

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) beside the protocol's (duties `Fin 5`: a
    barrier cell is paid by five neighbours; every other cell has the one duty `0`) -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The buffers -/

abbrev qM : Memref sig .tc .vmem S8x8x16x128 .f32 := Memref.whole cc0_stg0_0
abbrev outM : Memref sig .tc .vmem S8x8x16x128 .f32 := Memref.whole cc0_stg1_0
abbrev kM : Memref sig .tc .vmem S1024x16x128 .f32 := Memref.whole cc0_scratch0
abbrev vM : Memref sig .tc .vmem S1024x16x128 .f32 := Memref.whole cc0_scratch1
abbrev coM : Memref sig .tc .vmem S4x8x16x128 .f32 := Memref.whole cc0_scratch2
abbrev cmM : Memref sig .tc .vmem S4x8x16x1 .f32 := Memref.whole cc0_scratch3
abbrev clM : Memref sig .tc .vmem S4x8x16x1 .f32 := Memref.whole cc0_scratch4
abbrev kHbm : Memref sig .tc .hbm S8x1024x16x128 .f32 := Memref.whole main_arg1
abbrev vHbm : Memref sig .tc .hbm S8x1024x16x128 .f32 := Memref.whole main_arg2

/-- The row of keys (values) device `d` copies into its scratch buffer: row `r(d)` of its block of the key array, as the
    body slices it. -/
abbrev kSrc (d : Dev nD) : Memref sig .tc .hbm S1024x16x128 .f32 :=
  (kHbm.slice (Rect.unit (s := S8x1024x16x128) (k0_off1 d) S1x1024x16x128.size (k0_off1_inb d)) (fun _ => rfl)).squeeze S1024x16x128 squeezes_S1x1024x16x128_S1024x16x128
abbrev vSrc (d : Dev nD) : Memref sig .tc .hbm S1024x16x128 .f32 :=
  (vHbm.slice (Rect.unit (s := S8x1024x16x128) (k0_off1 d) S1x1024x16x128.size (k0_off1_inb d)) (fun _ => rfl)).squeeze S1024x16x128 squeezes_S1x1024x16x128_S1024x16x128

/-- Slot `j` of the partial-sum buffer, as the body slices it: an [8,16,128] view of the [4,8,16,128] buffer. -/
abbrev oSlot : Fin 4 → Memref sig .tc .vmem S8x16x128 .f32
  | 0 => (coM.slice (Rect.unit (s := S4x8x16x128) ![0, 0, 0, 0] S1x8x16x128.size inb_S4x8x16x128_S1x8x16x128_0_0_0_0) (fun _ => rfl)).squeeze S8x16x128 squeezes_S1x8x16x128_S8x16x128
  | 1 => (coM.slice (Rect.unit (s := S4x8x16x128) ![1, 0, 0, 0] S1x8x16x128.size inb_S4x8x16x128_S1x8x16x128_1_0_0_0) (fun _ => rfl)).squeeze S8x16x128 squeezes_S1x8x16x128_S8x16x128
  | 2 => (coM.slice (Rect.unit (s := S4x8x16x128) ![2, 0, 0, 0] S1x8x16x128.size inb_S4x8x16x128_S1x8x16x128_2_0_0_0) (fun _ => rfl)).squeeze S8x16x128 squeezes_S1x8x16x128_S8x16x128
  | 3 => (coM.slice (Rect.unit (s := S4x8x16x128) ![3, 0, 0, 0] S1x8x16x128.size inb_S4x8x16x128_S1x8x16x128_3_0_0_0) (fun _ => rfl)).squeeze S8x16x128 squeezes_S1x8x16x128_S8x16x128

/-- Slot `j` of a column buffer (the maxima `cmM` or the sums `clM`): an [8,16,1] view of a [4,8,16,1] buffer. -/
abbrev cSlot (M : Memref sig .tc .vmem S4x8x16x1 .f32) : Fin 4 → Memref sig .tc .vmem S8x16x1 .f32
  | 0 => (M.slice (Rect.unit (s := S4x8x16x1) ![0, 0, 0, 0] S1x8x16x1.size inb_S4x8x16x1_S1x8x16x1_0_0_0_0) (fun _ => rfl)).squeeze S8x16x1 squeezes_S1x8x16x1_S8x16x1
  | 1 => (M.slice (Rect.unit (s := S4x8x16x1) ![1, 0, 0, 0] S1x8x16x1.size inb_S4x8x16x1_S1x8x16x1_1_0_0_0) (fun _ => rfl)).squeeze S8x16x1 squeezes_S1x8x16x1_S8x16x1
  | 2 => (M.slice (Rect.unit (s := S4x8x16x1) ![2, 0, 0, 0] S1x8x16x1.size inb_S4x8x16x1_S1x8x16x1_2_0_0_0) (fun _ => rfl)).squeeze S8x16x1 squeezes_S1x8x16x1_S8x16x1
  | 3 => (M.slice (Rect.unit (s := S4x8x16x1) ![3, 0, 0, 0] S1x8x16x1.size inb_S4x8x16x1_S1x8x16x1_3_0_0_0) (fun _ => rfl)).squeeze S8x16x1 squeezes_S1x8x16x1_S8x16x1

/-- The rows of the result's staging buffer a device of row `r(d)` sends at the three exchanges: its own row, its
    aligned pair, its aligned quadruple — spelt through the body's own offset functions at the SENDING device `d`. -/
abbrev row1 (d : Dev nD) : Memref sig .tc .vmem S1x8x16x128 .f32 :=
  outM.slice (Rect.unit (s := S8x8x16x128) (k0_off19 d) S1x8x16x128.size (k0_off19_inb d)) (fun _ => rfl)
abbrev row2 (d : Dev nD) : Memref sig .tc .vmem S2x8x16x128 .f32 :=
  outM.slice (Rect.unit (s := S8x8x16x128) (k0_off20 d) S2x8x16x128.size (k0_off20_inb d)) (fun _ => rfl)
abbrev row4 (d : Dev nD) : Memref sig .tc .vmem S4x8x16x128 .f32 :=
  outM.slice (Rect.unit (s := S8x8x16x128) (k0_off21 d) S4x8x16x128.size (k0_off21_inb d)) (fun _ => rfl)

/-! ## The semaphores -/

/-- Entry `h` of a three-semaphore array, as the body slices it. -/
abbrev sem3 (A : DmaSems sig S3) : Fin 3 → DmaSem sig
  | 0 => ((A.slice (Rect.unit (s := S3) ![0] S1.size inb_S3_S1_0)).squeeze S_ squeezes_S1_S_).sem
  | 1 => ((A.slice (Rect.unit (s := S3) ![1] S1.size inb_S3_S1_1)).squeeze S_ squeezes_S1_S_).sem
  | 2 => ((A.slice (Rect.unit (s := S3) ![2] S1.size inb_S3_S1_2)).squeeze S_ squeezes_S1_S_).sem
abbrev sem2 (A : DmaSems sig S2) : Fin 2 → DmaSem sig
  | 0 => ((A.slice (Rect.unit (s := S2) ![0] S1.size inb_S2_S1_0)).squeeze S_ squeezes_S1_S_).sem
  | 1 => ((A.slice (Rect.unit (s := S2) ![1] S1.size inb_S2_S1_1)).squeeze S_ squeezes_S1_S_).sem

/-- The runtime's barrier semaphore of collective id 0. -/
abbrev barS : Sem sig := (SemArray.scalar (sig.barrier 0 rfl) : Sems sig S_).sem

/-- The ring's send and receive semaphore arrays of buffer kind `b` (0: partial sums, 1: maxima, 2: row sums). -/
abbrev sendArr : Fin 3 → DmaSems sig S3 | 0 => cc0_scratch6 | 1 => cc0_scratch8 | 2 => cc0_scratch10
abbrev recvArr : Fin 3 → DmaSems sig S3 | 0 => cc0_scratch7 | 1 => cc0_scratch9 | 2 => cc0_scratch11

abbrev barCell (c : Dev nD) : GSem nD τ sig := ((c : Thread nD τ), .reg barS)
abbrev loadCell (c : Dev nD) (i : Fin 2) : GSem nD τ sig := ((c : Thread nD τ), .dma (sem2 cc0_scratch5 i))
abbrev rsendCell (c : Dev nD) (b h : Fin 3) : GSem nD τ sig := ((c : Thread nD τ), .dma (sem3 (sendArr b) h))
abbrev rrecvCell (c : Dev nD) (b h : Fin 3) : GSem nD τ sig := ((c : Thread nD τ), .dma (sem3 (recvArr b) h))
abbrev gsendCell (c : Dev nD) (st : Fin 3) : GSem nD τ sig := ((c : Thread nD τ), .dma (sem3 cc0_scratch12 st))
abbrev grecvCell (c : Dev nD) (st : Fin 3) : GSem nD τ sig := ((c : Thread nD τ), .dma (sem3 cc0_scratch13 st))

/-- The semaphores are where the launch laid them out: the two loads at 2 and 3, the ring's arrays from 4, the
    exchanges' from 22. -/
theorem sem2_val (i : Fin 2) : (sem2 cc0_scratch5 i).val = 2 + i.val := by fin_cases i <;> rfl
theorem rsend_val (b h : Fin 3) : (sem3 (sendArr b) h).val = 4 + 6 * b.val + h.val := by fin_cases b <;> fin_cases h <;> rfl
theorem rrecv_val (b h : Fin 3) : (sem3 (recvArr b) h).val = 7 + 6 * b.val + h.val := by fin_cases b <;> fin_cases h <;> rfl
theorem gsend_val (st : Fin 3) : (sem3 cc0_scratch12 st).val = 22 + st.val := by fin_cases st <;> rfl
theorem grecv_val (st : Fin 3) : (sem3 cc0_scratch13 st).val = 25 + st.val := by fin_cases st <;> rfl

/-! ## What the buffers hold -/

/-- The view `M` of a buffer of device `c` is owned outright and reads `X`. -/
def holds (c : Dev nD) {S : Shape} (M : Memref sig .tc .vmem S .f32) (X : S.Idx → Elt F .f32) : sProp 𝕄 :=
  iprop(∃ f : Buf (Elt F) (M.view.loc (c : Thread nD τ)),
    (M.view.loc (c : Thread nD τ) ↦[M.view.set]{fullShare} f) ∗ ⌜M.view.read (Elt F) f = X⌝)
/-- The view `M` of a buffer of device `c` is owned outright, at whatever it holds. -/
def owned (c : Dev nD) {S : Shape} (M : Memref sig .tc .vmem S .f32) : sProp 𝕄 :=
  iprop(∃ f : Buf (Elt F) (M.view.loc (c : Thread nD τ)), (M.view.loc (c : Thread nD τ) ↦[M.view.set]{fullShare} f))

omit [FloatOps F] in
instance holds_storable (c : Dev nD) {S : Shape} (M : Memref sig .tc .vmem S .f32) (X : S.Idx → Elt F .f32) :
    BI.Storable (upEmb : UEmb _ 𝕄) (holds c M X) := by unfold holds; infer_instance
omit [FloatOps F] in
instance owned_storable (c : Dev nD) {S : Shape} (M : Memref sig .tc .vmem S .f32) :
    BI.Storable (upEmb : UEmb _ 𝕄) (owned (F := F) c M) := by unfold owned; infer_instance

/-- The `j`-th device before `c` along z. -/
def back : ℕ → Dev nD → Dev nD
  | 0, c => c
  | j + 1, c => back j (zl c)

theorem back_succ (j : ℕ) (c : Dev nD) : back (j + 1) c = back j (zl c) := rfl

/-- The exchanges stay in a device's z-plane. -/
theorem z_p0 (c : Dev nD) : (p0 c).val % 4 = c.val % 4 := by revert c; decide
theorem z_p1 (c : Dev nD) : (p1 c).val % 4 = c.val % 4 := by revert c; decide
theorem z_p2 (c : Dev nD) : (p2 c).val % 4 = c.val % 4 := by revert c; decide

/-! ## The schedule -/

section Schedule

-- The values are parameters of the protocol: the three partial results each device computes from its own key block
-- (vo d, vm d, vl d: what its slot 0 holds when the ring starts) and, per z-plane, the gathered result (vg z).
variable (vo : Dev nD → S8x16x128.Idx → Elt F .f32) (vm vl : Dev nD → S8x16x1.Idx → Elt F .f32)
variable (vg : ℕ → S8x8x16x128.Idx → Elt F .f32)
variable (kin vin : Dev nD → S1024x16x128.Idx → Elt F .f32)
variable (m : (ℓ : Loc nD τ sig) → Buf (Elt F) ℓ)

/-- Slot `j` of the three ring buffers of `c` holds the partial results of the `j`-th device before `c`. -/
def slotHolds (c : Dev nD) (b : Fin 3) (j : Fin 4) : sProp 𝕄 :=
  match b with
  | 0 => holds c (oSlot j) (vo (back j.val c))
  | 1 => holds c (cSlot cmM j) (vm (back j.val c))
  | 2 => holds c (cSlot clM j) (vl (back j.val c))
def slotOwned (c : Dev nD) (b : Fin 3) (j : Fin 4) : sProp 𝕄 :=
  match b with
  | 0 => owned c (oSlot j)
  | 1 => owned c (cSlot cmM j)
  | 2 => owned c (cSlot clM j)

/-- The rows device `d` sends at exchange `st`, as a part of device `c`'s result buffer, hold the gathered result's. -/
def rowsHold (c d : Dev nD) (st : Fin 3) : sProp 𝕄 :=
  match st with
  | 0 => holds c (row1 d) ((row1 d).view.read (Elt F) (vg (c.val % 4)))
  | 1 => holds c (row2 d) ((row2 d).view.read (Elt F) (vg (c.val % 4)))
  | 2 => holds c (row4 d) ((row4 d).view.read (Elt F) (vg (c.val % 4)))
def rowsOwned (c d : Dev nD) (st : Fin 3) : sProp 𝕄 :=
  match st with
  | 0 => owned c (row1 d)
  | 1 => owned c (row2 d)
  | 2 => owned c (row4 d)

/-- The partner of exchange `st`. -/
def partner (st : Fin 3) (c : Dev nD) : Dev nD := match st with | 0 => p0 c | 1 => p1 c | 2 => p2 c

/-- What the five neighbours' barrier signals hand device `c`. Duty 0 is paid by the NEXT device along z (its first
    signal, to its previous one): its slots 1, 2, 3 of the three ring buffers, which `c` will write hop after hop, and
    that it stands at round 0 of its nine ring receive cells. Duty 1, by the previous device, hands nothing. Duties 2,
    3, 4 are paid by the partners: the rows of the partner's result buffer that `c` will write at that exchange, and
    that the partner stands at round 0 of that exchange's receive cell. -/
def barPay (c : Dev nD) (d : Fin 5) : sProp 𝕄 :=
  match d with
  | 0 => iprop((bigSep Finset.univ fun b : Fin 3 => bigSep Finset.univ fun h : Fin 3 => slotOwned (zr c) b h.succ)
        ∗ bigSep Finset.univ fun b : Fin 3 => bigSep Finset.univ fun h : Fin 3 => reached ER (rrecvCell (zr c) b h) 0)
  | 1 => iprop(emp)
  | 2 => iprop(rowsOwned (p0 c) c 0 ∗ reached ER (grecvCell (p0 c) 0) 0)
  | 3 => iprop(rowsOwned (p1 c) c 1 ∗ reached ER (grecvCell (p1 c) 1) 0)
  | 4 => iprop(rowsOwned (p2 c) c 2 ∗ reached ER (grecvCell (p2 c) 2) 0)

/-- The units a whole-view transfer of each kind puts on its cells. -/
def Nkv : ℕ := (kM : Memref sig .tc .vmem S1024x16x128 .f32).view.dmaCredit
theorem Nkv_eq : Nkv = (kM : Memref sig .tc .vmem S1024x16x128 .f32).view.dmaCredit := rfl
abbrev Nring (b : Fin 3) : ℕ := match b with
  | 0 => (oSlot 0).view.dmaCredit | 1 => (cSlot cmM 0).view.dmaCredit | 2 => (cSlot clM 0).view.dmaCredit
abbrev Nrows (d : Dev nD) (st : Fin 3) : ℕ := match st with
  | 0 => (row1 d).view.dmaCredit | 1 => (row2 d).view.dmaCredit | 2 => (row4 d).view.dmaCredit

/-- A DMA semaphore of the kernel's own, decoded: the two loads, the ring's send and receive cells by buffer kind and
    hop, the exchanges' by stage. -/
inductive Kind where
  | load (i : Fin 2) | rsend (b h : Fin 3) | rrecv (b h : Fin 3) | gsend (st : Fin 3) | grecv (st : Fin 3) | other
deriving DecidableEq

def kindOf (q : DmaSem sig) : Kind :=
  if q.val = 2 then .load 0 else if q.val = 3 then .load 1
  else if h : 4 ≤ q.val ∧ q.val < 22 then
    (if ((q.val - 4) / 3) % 2 = 0 then .rsend ⟨(q.val - 4) / 6, by omega⟩ ⟨(q.val - 4) % 3, by omega⟩
     else .rrecv ⟨(q.val - 4) / 6, by omega⟩ ⟨(q.val - 4) % 3, by omega⟩)
  else if h : 22 ≤ q.val ∧ q.val < 25 then .gsend ⟨q.val - 22, by omega⟩
  else if h : 25 ≤ q.val ∧ q.val < 28 then .grecv ⟨q.val - 25, by omega⟩
  else .other

theorem kind_load (i : Fin 2) : kindOf (sem2 cc0_scratch5 i) = .load i := by fin_cases i <;> rfl
theorem kind_rsend (b h : Fin 3) : kindOf (sem3 (sendArr b) h) = .rsend b h := by fin_cases b <;> fin_cases h <;> rfl
theorem kind_rrecv (b h : Fin 3) : kindOf (sem3 (recvArr b) h) = .rrecv b h := by fin_cases b <;> fin_cases h <;> rfl
theorem kind_gsend (st : Fin 3) : kindOf (sem3 cc0_scratch12 st) = .gsend st := by fin_cases st <;> rfl
theorem kind_grecv (st : Fin 3) : kindOf (sem3 cc0_scratch13 st) = .grecv st := by fin_cases st <;> rfl

/-- The row of the key (value) array device `c` copies from, owned outright at its launch contents `m`. -/
def hbmRow (c : Dev nD) (i : Fin 2) : sProp 𝕄 :=
  match i with
  | 0 => iprop((kSrc c).view.loc (c : Thread nD τ) ↦[(kSrc c).view.set]{fullShare} m ((kSrc c).view.loc (c : Thread nD τ)))
  | 1 => iprop((vSrc c).view.loc (c : Thread nD τ) ↦[(vSrc c).view.set]{fullShare} m ((vSrc c).view.loc (c : Thread nD τ)))

/-- What a landing on one of `c`'s own DMA cells hands `c`. A load (with the source row of the array, lent to the copy, back): the scratch buffer holding the row's keys (values).
    A ring send cell of hop `h`: its slot `h` back, as it was. A ring receive cell of hop `h`: its slot `h + 1` holding the
    previous device's slot `h`. An exchange's send cell: its rows back; its receive cell: the partner's rows. -/
def dmaPay (c : Dev nD) (k : Kind) : sProp 𝕄 :=
  match k with
  | .load 0 => iprop(holds c kM (kin c) ∗ hbmRow m c 0)
  | .load 1 => iprop(holds c vM (vin c) ∗ hbmRow m c 1)
  | .rsend b h => slotHolds vo vm vl c b h.castSucc
  | .rrecv b h => slotHolds vo vm vl c b h.succ
  | .gsend st => rowsHold vg c c st
  | .grecv st => rowsHold vg c (partner st c) st
  | .other => iprop(emp)

def dmaAmt (c : Dev nD) (k : Kind) : ℕ :=
  match k with
  | .load _ => Nkv
  | .rsend b _ => Nring b
  | .rrecv b _ => Nring b
  | .gsend st => Nrows c st
  | .grecv st => Nrows (partner st c) st
  | .other => 1

abbrev IsBar (g : GSem nD τ sig) : Prop := g.1.2 = .tc ∧ g.2 = .reg barS
def isOwnDma (g : GSem nD τ sig) : Bool :=
  match g.1.2, g.2 with
  | .tc, .dma q => decide (kindOf q ≠ .other)
  | _, _ => false
def kindAt (g : GSem nD τ sig) : Kind := match g.2 with | .dma q => kindOf q | _ => .other

end Schedule

section Rd

variable (vo : Dev nD → S8x16x128.Idx → Elt F .f32) (vm vl : Dev nD → S8x16x1.Idx → Elt F .f32)
variable (vg : ℕ → S8x8x16x128.Idx → Elt F .f32)
variable (kin vin : Dev nD → S1024x16x128.Idx → Elt F .f32)
variable (m : (ℓ : Loc nD τ sig) → Buf (Elt F) ℓ)

omit [FloatOps F] in
theorem numel_kv : 0 < S1024x16x128.numel := by decide
omit [FloatOps F] in
theorem numel_o : 0 < S8x16x128.numel := by decide
omit [FloatOps F] in
theorem numel_c : 0 < S8x16x1.numel := by decide
omit [FloatOps F] in
theorem numel_r1 : 0 < S1x8x16x128.numel := by decide
omit [FloatOps F] in
theorem numel_r2 : 0 < S2x8x16x128.numel := by decide
omit [FloatOps F] in
theorem numel_r4 : 0 < S4x8x16x128.numel := by decide

omit [FloatOps F] in
theorem Nkv_pos : 0 < Nkv := by rw [Nkv_eq]; exact View.dmaCredit_pos (kM : Memref sig .tc .vmem S1024x16x128 .f32).view numel_kv
omit [FloatOps F] in
theorem Nring_pos : ∀ b : Fin 3, 0 < Nring b
  | 0 => View.dmaCredit_pos (oSlot 0).view numel_o
  | 1 => View.dmaCredit_pos (cSlot cmM 0).view numel_c
  | 2 => View.dmaCredit_pos (cSlot clM 0).view numel_c
omit [FloatOps F] in
theorem Nrows_pos (d : Dev nD) : ∀ st : Fin 3, 0 < Nrows d st
  | 0 => View.dmaCredit_pos (row1 d).view numel_r1
  | 1 => View.dmaCredit_pos (row2 d).view numel_r2
  | 2 => View.dmaCredit_pos (row4 d).view numel_r4

omit [FloatOps F] in
theorem dmaAmt_pos (c : Dev nD) (k : Kind) : 0 < dmaAmt c k := by
  cases k with
  | load i => unfold dmaAmt; exact Nkv_pos
  | rsend b h => unfold dmaAmt; exact Nring_pos b
  | rrecv b h => unfold dmaAmt; exact Nring_pos b
  | gsend st => unfold dmaAmt; exact Nrows_pos c st
  | grecv st => unfold dmaAmt; exact Nrows_pos (partner st c) st
  | other => unfold dmaAmt; exact Nat.one_pos

/-- One round. A barrier cell has five unit duties, one per neighbour; each of the kernel's own DMA cells one duty of
    its transfer's credit. -/
def Rd : Rounds.Schedule (GSem nD τ sig) (Fin 5) 𝕄 where
  duties g r := if r = 0 ∧ IsBar g then Finset.univ else if r = 0 ∧ isOwnDma g = true then {0} else ∅
  unitless _ := False
  amount g _ _ := if g.2 = .reg barS then 1 else dmaAmt g.1.1 (kindAt g)
  payload g _ d := if g.2 = .reg barS then barPay g.1.1 d else dmaPay vo vm vl vg kin vin m g.1.1 (kindAt g)
  amount_pos g _ _ _ := by
    by_cases h : g.2 = .reg barS
    · rw [if_pos h]; exact Nat.one_pos
    · rw [if_neg h]; exact dmaAmt_pos _ _

omit [FloatOps F] in
instance slotHolds_storable (c : Dev nD) (b : Fin 3) (j : Fin 4) : BI.Storable (upEmb : UEmb _ 𝕄) (slotHolds vo vm vl c b j) := by
  fin_cases b <;> (unfold slotHolds; infer_instance)
omit [FloatOps F] in
instance slotOwned_storable (c : Dev nD) (b : Fin 3) (j : Fin 4) : BI.Storable (upEmb : UEmb _ 𝕄) (slotOwned (F := F) c b j) := by
  fin_cases b <;> (unfold slotOwned; infer_instance)
omit [FloatOps F] in
instance rowsHold_storable (c d : Dev nD) (st : Fin 3) : BI.Storable (upEmb : UEmb _ 𝕄) (rowsHold vg c d st) := by
  fin_cases st <;> (unfold rowsHold; infer_instance)
omit [FloatOps F] in
instance rowsOwned_storable (c d : Dev nD) (st : Fin 3) : BI.Storable (upEmb : UEmb _ 𝕄) (rowsOwned (F := F) c d st) := by
  fin_cases st <;> (unfold rowsOwned; infer_instance)
omit [FloatOps F] in
instance barPay_storable (c : Dev nD) (d : Fin 5) : BI.Storable (upEmb : UEmb _ 𝕄) (barPay (F := F) c d) := by
  fin_cases d <;> (unfold barPay; infer_instance)
omit [FloatOps F] in
instance hbmRow_storable (c : Dev nD) (i : Fin 2) : BI.Storable (upEmb : UEmb _ 𝕄) (hbmRow m c i) := by
  fin_cases i <;> (unfold hbmRow; infer_instance)
omit [FloatOps F] in
instance dmaPay_storable (c : Dev nD) (k : Kind) : BI.Storable (upEmb : UEmb _ 𝕄) (dmaPay vo vm vl vg kin vin m c k) := by
  cases k with
  | load i => fin_cases i <;> (unfold dmaPay; infer_instance)
  | rsend b h => unfold dmaPay; infer_instance
  | rrecv b h => unfold dmaPay; infer_instance
  | gsend st => unfold dmaPay; infer_instance
  | grecv st => unfold dmaPay; infer_instance
  | other => unfold dmaPay; infer_instance

omit [FloatOps F] in
instance Rd_payload_storable (g : GSem nD τ sig) (r : ℕ) (d : Fin 5) :
    BI.Storable (upEmb : UEmb _ 𝕄) ((Rd vo vm vl vg kin vin m).payload g r d) := by
  show BI.Storable upEmb (if g.2 = .reg barS then barPay g.1.1 d else dmaPay vo vm vl vg kin vin m g.1.1 (kindAt g))
  split <;> infer_instance

end Rd

section Tables

variable (vo : Dev nD → S8x16x128.Idx → Elt F .f32) (vm vl : Dev nD → S8x16x1.Idx → Elt F .f32)
variable (vg : ℕ → S8x8x16x128.Idx → Elt F .f32)
variable (kin vin : Dev nD → S1024x16x128.Idx → Elt F .f32)
variable (m : (ℓ : Loc nD τ sig) → Buf (Elt F) ℓ)

local notation "RD" => Rd vo vm vl vg kin vin m

/-- A cell of the kernel's own DMA semaphores on a TensorCore thread, by its kind. -/
theorem dma_ne_bar (q : DmaSem sig) : (SemLoc.dma q : SemLoc sig) ≠ .reg barS := fun h => by cases h

omit [FloatOps F] in
theorem duties_bar (c : Dev nD) : (RD).duties (barCell c) 0 = Finset.univ := by
  dsimp only [Rd]; exact if_pos ⟨rfl, rfl, rfl⟩

omit [FloatOps F] in
theorem duties_dma (c : Dev nD) (q : DmaSem sig) (hq : kindOf q ≠ .other) :
    (RD).duties ((c : Thread nD τ), .dma q) 0 = {0} := by
  dsimp only [Rd]
  rw [if_neg (fun h => dma_ne_bar q h.2.2)]
  exact if_pos ⟨rfl, by show decide (kindOf q ≠ .other) = true; exact decide_eq_true hq⟩

omit [FloatOps F] in
theorem duties_later (g : GSem nD τ sig) : ∀ r, 1 ≤ r → (RD).duties g r = ∅ :=
  fun r hr => by dsimp only [Rd]; rw [if_neg fun h => by omega, if_neg fun h => by omega]

omit [FloatOps F] in
theorem amount_bar (c : Dev nD) (d : Fin 5) : (RD).amount (barCell c) 0 d = 1 := by dsimp only [Rd]; exact if_pos rfl
omit [FloatOps F] in
theorem amount_dma (c : Dev nD) (q : DmaSem sig) (d : Fin 5) :
    (RD).amount ((c : Thread nD τ), .dma q) 0 d = dmaAmt c (kindOf q) := by dsimp only [Rd]; exact if_neg (dma_ne_bar q)

omit [FloatOps F] in
theorem payload_bar (c : Dev nD) (d : Fin 5) : (RD).payload (barCell c) 0 d = barPay c d := by dsimp only [Rd]; exact if_pos rfl
omit [FloatOps F] in
theorem payload_dma (c : Dev nD) (q : DmaSem sig) (d : Fin 5) :
    (RD).payload ((c : Thread nD τ), .dma q) 0 d = dmaPay vo vm vl vg kin vin m c (kindOf q) := by
  dsimp only [Rd]; exact if_neg (dma_ne_bar q)

omit [FloatOps F] in
theorem expect_bar (c : Dev nD) : (RD).expect (barCell c) 0 = 5 := by
  unfold Schedule.expect Schedule.amountOf
  rw [duties_bar, Finset.sum_congr rfl fun d _ => amount_bar vo vm vl vg kin vin m c d, Finset.sum_const, Finset.card_univ, Fintype.card_fin, smul_eq_mul]

omit [FloatOps F] in
theorem expect_dma (c : Dev nD) (q : DmaSem sig) (hq : kindOf q ≠ .other) :
    (RD).expect ((c : Thread nD τ), .dma q) 0 = dmaAmt c (kindOf q) := by
  unfold Schedule.expect Schedule.amountOf
  rw [duties_dma vo vm vl vg kin vin m c q hq, Finset.sum_singleton, amount_dma]

omit [FloatOps F] in
/-- The rest of a DMA cell's round, nothing taken: its one payload. -/
theorem rest_dma (c : Dev nD) (q : DmaSem sig) (hq : kindOf q ≠ .other) :
    bigSep ((RD).duties ((c : Thread nD τ), .dma q) 0 \ ∅) (fun d => (RD).payload ((c : Thread nD τ), .dma q) 0 d)
      = dmaPay vo vm vl vg kin vin m c (kindOf q) := by
  rw [Finset.sdiff_empty, duties_dma vo vm vl vg kin vin m c q hq, bigSep_singleton, payload_dma]

omit [FloatOps F] in
/-- The rest of the barrier cell's round, nothing taken: the five neighbours' payloads, in the order of the duties. -/
theorem rest_bar (c : Dev nD) :
    bigSep ((RD).duties (barCell c) 0 \ ∅) (fun d => (RD).payload (barCell c) 0 d)
      = iprop(barPay c 0 ∗ barPay c 1 ∗ barPay c 2 ∗ barPay c 3 ∗ barPay (F := F) c 4) := by
  rw [Finset.sdiff_empty, duties_bar, bigSep_univ_eq_bigSepL [0, 1, 2, 3, 4] (by decide) (by decide)]
  simp only [payload_bar]
  rfl

end Tables

/-! ## What a device owes, payment by payment, and the levels -/

/-- The seventeen payments a device makes to other devices' cells, in program order: five barrier units, the nine ring
    transfers (hop by hop; partial sums, maxima, row sums), the three row exchanges. -/
def payList (c : Dev nD) : List (GSem nD τ sig × ℕ) :=
  [(barCell (zl c), 1), (barCell (zr c), 1), (barCell (p0 c), 1), (barCell (p1 c), 1), (barCell (p2 c), 1),
   (rrecvCell (zr c) 0 0, Nring 0), (rrecvCell (zr c) 1 0, Nring 1), (rrecvCell (zr c) 2 0, Nring 2),
   (rrecvCell (zr c) 0 1, Nring 0), (rrecvCell (zr c) 1 1, Nring 1), (rrecvCell (zr c) 2 1, Nring 2),
   (rrecvCell (zr c) 0 2, Nring 0), (rrecvCell (zr c) 1 2, Nring 1), (rrecvCell (zr c) 2 2, Nring 2),
   (grecvCell (p0 c) 0, Nrows c 0), (grecvCell (p1 c) 1, Nrows c 1), (grecvCell (p2 c) 2, Nrows c 2)]

/-- What is still owed after the first `k` payments (the next payment is the LAST summand). -/
def owedAfter (k : ℕ) (c : Dev nD) : CellTallies nD τ sig Unit :=
  ((payList c).drop k).foldr (fun p acc => acc + tallyAt p.1 () p.2) 0

theorem owedAfter_all (c : Dev nD) : owedAfter 17 c = 0 := rfl

/-- Payment `k` peels the last summand. -/
theorem owedAfter_step (c : Dev nD) (k : ℕ) (hk : k < 17) :
    owedAfter k c = owedAfter (k + 1) c + tallyAt ((payList c)[k]'(by simpa [payList] using hk)).1 () ((payList c)[k]'(by simpa [payList] using hk)).2 := by
  have : k ∈ Finset.range 17 := Finset.mem_range.mpr hk
  fin_cases this <;> rfl

def L (g : GSem nD τ sig) : Finset Unit := if g.1.2 = .tc then {()} else ∅
/-- Barrier cells at 1; the ring's receive cells of hop `h` at `2 + h`; the exchanges' receive cells of stage `st` at
    `5 + st`; everything a device pays itself (staging, loads, send cells) at 0. A device never waits at a level at or
    above one it still owes. -/
def lv (g : GSem nD τ sig) (_ : Unit) : ℕ :=
  match g.2 with
  | .reg s => if s = barS then 1 else 0
  | .dma q => match kindOf q with
    | .rrecv _ h => 2 + h.val
    | .grecv st => 5 + st.val
    | _ => 0

theorem L_of_ne (g : GSem nD τ sig) (h : g.1.2 ≠ .tc) : L g = ∅ := if_neg h
theorem L_tc (c : Dev nD) (sm : SemLoc sig) : L ((c : Thread nD τ), sm) = {()} := if_pos rfl

end Cert.KernelIdeal.FD

end
-- ==== Proof.LaunchLib.lean ====
/-
  The 27 semaphore cells of a device as one table, and the ghost state of the protocol over it.

  Cell 0 of a device is the runtime's barrier cell; cell k + 1 is semaphore k + 2 of the pool of DMA semaphores (the two
  loads, then the ring's send and receive cells of the partial sums, the maxima and the row sums, hop by hop, then the
  send and receive cells of the three row exchanges). The shared, persistent part of the ghost state is every cell's
  invariant and the fact that round 0 of every cell is reached. What stays with one device is its position at round 0
  of each of its own 27 cells and the 31 duty tokens it pays with: one duty of the barrier cell of each of its five
  neighbours (previous and next along z, the three row partners), the one duty of each ring receive cell of the next
  device along z and of each exchange's receive cell of that exchange's partner, and the one duty of each of its own
  load and send cells.
-/
import proofs.«900429_g7700000000000430_dist_flashdec_v7x_xyz2x4x4_z_b8_sq8_skv1024_h16_d128_f32_1_alg».proof.Proof.Proto

noncomputable section

namespace Cert.KernelIdeal.FD

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Iterated separating conjunctions over small index types -/

section Generic
variable {M : Type} [URA M]
theorem bigSep_fin_succ {n : ℕ} (Φ : Fin (n + 1) → sProp M) :
    bigSep Finset.univ Φ = iprop(Φ 0 ∗ bigSep Finset.univ fun k : Fin n => Φ k.succ) := by
  rw [Fin.univ_succ, Finset.cons_eq_insert, bigSep_insert (by simp [Fin.succ_ne_zero]), bigSep_map]
  rfl
/-- Five summands, one by one. -/
theorem bigSep_fin5 (Φ : Fin 5 → sProp M) : bigSep Finset.univ Φ = iprop(Φ 0 ∗ Φ 1 ∗ Φ 2 ∗ Φ 3 ∗ Φ 4) :=
  bigSep_univ_eq_bigSepL [0, 1, 2, 3, 4] (by decide) (by decide) Φ

/-- Three summands, one by one. -/
theorem bigSep_fin3 (Φ : Fin 3 → sProp M) : bigSep Finset.univ Φ = iprop(Φ 0 ∗ Φ 1 ∗ Φ 2) :=
  bigSep_univ_eq_bigSepL [0, 1, 2] (by decide) (by decide) Φ

theorem bigSep_with_persistent {I : Type} [DecidableEq I] {S : Finset I} {R : sProp M} [BI.Persistent R] {Φ Ψ : I → sProp M}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem bigSep_regroup {α β : Type} [Fintype α] [Fintype β] (e : β → α ≃ α) (Φ : α → β → sProp M) :
    (bigSep Finset.univ fun a => bigSep Finset.univ fun b => Φ a b)
      = bigSep Finset.univ fun a => bigSep Finset.univ fun b => Φ (e b a) b :=
  (bigSep_univ_prod (fun p : α × β => Φ p.1 p.2)).symm.trans
    ((bigSep_univ_equiv
        (⟨fun p => (e p.2 p.1, p.2), fun p => ((e p.2).symm p.1, p.2), fun p => by simp, fun p => by simp⟩ : α × β ≃ α × β)
        (fun p : α × β => Φ p.1 p.2)).trans
      (bigSep_univ_prod (fun p : α × β => Φ (e p.2 p.1) p.2)))
end Generic

local notation "𝕄" => MT nD τ sig Unit (Elt F) ℕ UU ℕ

/-! ## The table of cells -/

/-- The kernel's own 26 semaphores: semaphores 2 .. 27 of the pool. -/
abbrev osem : Fin 26 → SemLoc sig := fun k => .dma ⟨k.val + 2, by have := k.isLt; show _ < 28; omega⟩
abbrev csem : Fin 27 → SemLoc sig := Fin.cons (.reg barS) osem
abbrev kcell (ck : Dev nD × Fin 27) : GSem nD τ sig := ((ck.1 : Thread nD τ), csem ck.2)

theorem csem_injective : Function.Injective csem := by decide

theorem kcell_injective : Function.Injective (kcell : Dev nD × Fin 27 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The rows of the table the named cells sit in. -/
def kLoad (i : Fin 2) : Fin 27 := ⟨1 + i.val, by omega⟩
def kRsend (b h : Fin 3) : Fin 27 := ⟨3 + 6 * b.val + h.val, by omega⟩
def kRrecv (b h : Fin 3) : Fin 27 := ⟨6 + 6 * b.val + h.val, by omega⟩
def kGsend (st : Fin 3) : Fin 27 := ⟨21 + st.val, by omega⟩
def kGrecv (st : Fin 3) : Fin 27 := ⟨24 + st.val, by omega⟩

theorem barCell_eq (c : Dev nD) : barCell c = kcell (c, 0) := rfl
theorem loadCell_eq (c : Dev nD) (i : Fin 2) : loadCell c i = kcell (c, kLoad i) := by fin_cases i <;> rfl
theorem rsendCell_eq (c : Dev nD) (b h : Fin 3) : rsendCell c b h = kcell (c, kRsend b h) := by fin_cases b <;> fin_cases h <;> rfl
theorem rrecvCell_eq (c : Dev nD) (b h : Fin 3) : rrecvCell c b h = kcell (c, kRrecv b h) := by fin_cases b <;> fin_cases h <;> rfl
theorem gsendCell_eq (c : Dev nD) (st : Fin 3) : gsendCell c st = kcell (c, kGsend st) := by fin_cases st <;> rfl
theorem grecvCell_eq (c : Dev nD) (st : Fin 3) : grecvCell c st = kcell (c, kGrecv st) := by fin_cases st <;> rfl

omit [FloatOps F] in
/-- The kernel's own 26 counters at zero, one by one in the order of the semaphore pool. -/
theorem ownSems0_chain (c : Dev nD) :
    (Pipeline.ownSems0 (Ix := Unit) (Name := ℕ) (U := UU) (Lvl := ℕ) (Val := Elt F) (τ := τ) osem c : sProp 𝕄)
      = bigSepL ([0, 1, 2, 3, 4, 5, 6, 7, 8, 9, 10, 11, 12, 13, 14, 15, 16, 17, 18, 19, 20, 21, 22, 23, 24, 25] : List (Fin 26)) fun k => semVal ((c : Thread nD τ), osem k) 0 :=
  Pipeline.ownSems0_eq_of_list c osem [0, 1, 2, 3, 4, 5, 6, 7, 8, 9, 10, 11, 12, 13, 14, 15, 16, 17, 18, 19, 20, 21, 22, 23, 24, 25] (by decide) (by decide)

/-- The kernel's own 26 counters at zero. -/
def ownZero (c : Dev nD) : sProp 𝕄 :=
  Pipeline.ownSems0 (Ix := Unit) (Name := ℕ) (U := UU) (Lvl := ℕ) (Val := Elt F) (τ := τ) osem c

omit [FloatOps F] in
/-- The same, cell by cell under the cells' names, in the order of the pool. -/
theorem ownZero_open (c : Dev nD) :
    (ownZero c : sProp 𝕄)
      = iprop(semVal (loadCell c 0) 0 ∗ semVal (loadCell c 1) 0 ∗ semVal (rsendCell c 0 0) 0
      ∗ semVal (rsendCell c 0 1) 0 ∗ semVal (rsendCell c 0 2) 0 ∗ semVal (rrecvCell c 0 0) 0
      ∗ semVal (rrecvCell c 0 1) 0 ∗ semVal (rrecvCell c 0 2) 0 ∗ semVal (rsendCell c 1 0) 0
      ∗ semVal (rsendCell c 1 1) 0 ∗ semVal (rsendCell c 1 2) 0 ∗ semVal (rrecvCell c 1 0) 0
      ∗ semVal (rrecvCell c 1 1) 0 ∗ semVal (rrecvCell c 1 2) 0 ∗ semVal (rsendCell c 2 0) 0
      ∗ semVal (rsendCell c 2 1) 0 ∗ semVal (rsendCell c 2 2) 0 ∗ semVal (rrecvCell c 2 0) 0
      ∗ semVal (rrecvCell c 2 1) 0 ∗ semVal (rrecvCell c 2 2) 0 ∗ semVal (gsendCell c 0) 0
      ∗ semVal (gsendCell c 1) 0 ∗ semVal (gsendCell c 2) 0 ∗ semVal (grecvCell c 0) 0
      ∗ semVal (grecvCell c 1) 0 ∗ semVal (grecvCell c 2) 0) := by
  unfold ownZero; rw [ownSems0_chain]; rfl

/-! ## The shared records -/

section Records

variable (Rd : Rounds.Schedule (GSem nD τ sig) (Fin 5) (MT nD τ sig Unit (Elt F) ℕ UU ℕ))
  [hst : ∀ (g : GSem nD τ sig) (r : ℕ) (d : Fin 5), BI.Storable (upEmb : UEmb _ (MT nD τ sig Unit (Elt F) ℕ UU ℕ)) (Rd.payload g r d)]

/-- Every cell's invariant at the names `K`, and that round 0 of every cell is reached: persistent, shared by all devices. -/
def records (K : Dev nD × Fin 27 → ℕ) : sProp 𝕄 :=
  iprop((bigSep Finset.univ fun ck : Dev nD × Fin 27 => cellInv ER Rd (K ck) (kcell ck))
    ∗ bigSep Finset.univ fun ck : Dev nD × Fin 27 => reached ER (kcell ck) 0)

instance records_persistent (K : Dev nD × Fin 27 → ℕ) : BI.Persistent (records Rd K) := by unfold records; infer_instance

omit [FloatOps F] hst in
theorem inv_at (K : Dev nD × Fin 27 → ℕ) (ck : Dev nD × Fin 27) : records Rd K ⊢ cellInv ER Rd (K ck) (kcell ck) :=
  (show records Rd K ⊢ (bigSep Finset.univ fun ck : Dev nD × Fin 27 => (cellInv ER Rd (K ck) (kcell ck) : sProp 𝕄)) from by
    unfold records; iintro ⟨H, -⟩; iexact H).trans (bigSep_elim (Finset.mem_univ ck))
omit [FloatOps F] hst in
theorem reached_at (K : Dev nD × Fin 27 → ℕ) (ck : Dev nD × Fin 27) : records Rd K ⊢ reached ER (kcell ck) 0 :=
  (show records Rd K ⊢ (bigSep Finset.univ fun ck : Dev nD × Fin 27 => (reached ER (kcell ck) 0 : sProp 𝕄)) from by
    unfold records; iintro ⟨-, H⟩; iexact H).trans (bigSep_elim (Finset.mem_univ ck))

end Records

/-! ## The five device permutations, the token table and who pays -/

def zrE : Dev nD ≃ Dev nD := ⟨zr, zl, zl_zr, zr_zl⟩
def zlE : Dev nD ≃ Dev nD := ⟨zl, zr, zr_zl, zl_zr⟩
def p0E : Dev nD ≃ Dev nD := ⟨p0, p0, p0_p0, p0_p0⟩
def p1E : Dev nD ≃ Dev nD := ⟨p1, p1, p1_p1, p1_p1⟩
def p2E : Dev nD ≃ Dev nD := ⟨p2, p2, p2_p2, p2_p2⟩

/-- The 31 duty tokens of a device's cells at round 0: the barrier cell's five duties, then one duty of each own cell. -/
def tk (j : Fin 31) : Fin 27 × Fin 5 :=
  if h : j.val < 5 then (0, ⟨j.val, h⟩) else (⟨j.val - 4, by have := j.isLt; omega⟩, 0)

theorem tk_injective : Function.Injective tk := by decide

/-- Which device's token `j` a device pays with. Barrier duties: the five neighbours in the order the signals are
    issued (previous and next along z, the three row partners). Own cells (cell `j - 4`, semaphore `j - 3` of the
    pool): the receive cells of the ring are paid by the previous device along z, so a device pays the next one's; the
    receive cells of the row exchanges by the partner; send cells and the two load cells by the device itself. -/
def pay (j : Fin 31) : Dev nD ≃ Dev nD :=
  match j.val with
  | 0 => zlE | 1 => zrE | 2 => p0E | 3 => p1E | 4 => p2E
  | 10 | 11 | 12 | 16 | 17 | 18 | 22 | 23 | 24 => zrE
  | 28 => p0E | 29 => p1E | 30 => p2E
  | _ => Equiv.refl _

/-- Token indices: the barrier's duty `d`; the one duty of own cell `k + 1`. -/
def jBar (d : Fin 5) : Fin 31 := ⟨d.val, by omega⟩
def jOwn (k : Fin 26) : Fin 31 := ⟨k.val + 5, by omega⟩
theorem tk_jBar (d : Fin 5) : tk (jBar d) = (0, d) := by fin_cases d <;> rfl
theorem tk_jOwn (k : Fin 26) : tk (jOwn k) = (k.succ, 0) := by revert k; decide

/-! ## What stays with one device -/

section Linear

variable {J : Type} [Fintype J] [DecidableEq J] (tk : J → Fin 27 × Fin 5) (pay : J → Dev nD ≃ Dev nD)

/-- The duty tokens device `d` pays with: token `j` of the device `pay j d`. -/
def payToks (d : Dev nD) : sProp 𝕄 := bigSep Finset.univ fun j : J => dutyTok ER (kcell (pay j d, (tk j).1)) 0 (tk j).2

/-- What stays with device `c`: its positions at round 0 of its 27 cells, and the tokens of the duties it pays. -/
def linear (c : Dev nD) : sProp 𝕄 :=
  iprop((bigSep Finset.univ fun k : Fin 27 => atPos ER (kcell (c, k)) 0 ∅ 0) ∗ payToks tk pay c)

end Linear

omit [FloatOps F] in
/-- A device's positions on its 27 cells, in the order of the table. -/
theorem atPos_chain (c : Dev nD) :
    (bigSep Finset.univ fun k : Fin 27 => (atPos ER (kcell (c, k)) 0 ∅ 0 : sProp 𝕄))
      = bigSepL ([0, 1, 2, 3, 4, 5, 6, 7, 8, 9, 10, 11, 12, 13, 14, 15, 16, 17, 18, 19, 20, 21, 22, 23, 24, 25, 26] : List (Fin 27)) fun k => atPos ER (kcell (c, k)) 0 ∅ 0 :=
  bigSep_univ_eq_bigSepL _ (by decide) (by decide) _

omit [FloatOps F] in
/-- The 31 duty tokens a device pays with, in the order of the token table. -/
theorem payToks_chain (c : Dev nD) :
    (payToks tk pay c : sProp 𝕄)
      = bigSepL ([0, 1, 2, 3, 4, 5, 6, 7, 8, 9, 10, 11, 12, 13, 14, 15, 16, 17, 18, 19, 20, 21, 22, 23, 24, 25, 26, 27, 28, 29, 30] : List (Fin 31)) fun j => dutyTok ER (kcell (pay j c, (tk j).1)) 0 (tk j).2 := by
  unfold payToks
  exact bigSep_univ_eq_bigSepL _ (by decide) (by decide) _

/-- What stays with device `c`, at the fixed token table and payers. -/
abbrev lin (c : Dev nD) : sProp 𝕄 := linear tk pay c

omit [FloatOps F] in
/-- The same, conjunct by conjunct under the cells' names: the 27 positions in the order of the table, then the 31
    tokens in the order of the token table (the five barrier duties in the order the signals are issued, then the
    own cells' in the order of the pool, each receive cell's token being the neighbour's). -/
theorem lin_open (c : Dev nD) :
    (lin c : sProp 𝕄)
      = iprop((atPos ER (barCell c) 0 ∅ 0 ∗ atPos ER (loadCell c 0) 0 ∅ 0 ∗ atPos ER (loadCell c 1) 0 ∅ 0
      ∗ atPos ER (rsendCell c 0 0) 0 ∅ 0 ∗ atPos ER (rsendCell c 0 1) 0 ∅ 0 ∗ atPos ER (rsendCell c 0 2) 0 ∅ 0
      ∗ atPos ER (rrecvCell c 0 0) 0 ∅ 0 ∗ atPos ER (rrecvCell c 0 1) 0 ∅ 0 ∗ atPos ER (rrecvCell c 0 2) 0 ∅ 0
      ∗ atPos ER (rsendCell c 1 0) 0 ∅ 0 ∗ atPos ER (rsendCell c 1 1) 0 ∅ 0 ∗ atPos ER (rsendCell c 1 2) 0 ∅ 0
      ∗ atPos ER (rrecvCell c 1 0) 0 ∅ 0 ∗ atPos ER (rrecvCell c 1 1) 0 ∅ 0 ∗ atPos ER (rrecvCell c 1 2) 0 ∅ 0
      ∗ atPos ER (rsendCell c 2 0) 0 ∅ 0 ∗ atPos ER (rsendCell c 2 1) 0 ∅ 0 ∗ atPos ER (rsendCell c 2 2) 0 ∅ 0
      ∗ atPos ER (rrecvCell c 2 0) 0 ∅ 0 ∗ atPos ER (rrecvCell c 2 1) 0 ∅ 0 ∗ atPos ER (rrecvCell c 2 2) 0 ∅ 0
      ∗ atPos ER (gsendCell c 0) 0 ∅ 0 ∗ atPos ER (gsendCell c 1) 0 ∅ 0 ∗ atPos ER (gsendCell c 2) 0 ∅ 0
      ∗ atPos ER (grecvCell c 0) 0 ∅ 0 ∗ atPos ER (grecvCell c 1) 0 ∅ 0 ∗ atPos ER (grecvCell c 2) 0 ∅ 0)
    ∗ (dutyTok ER (barCell (zl c)) 0 0 ∗ dutyTok ER (barCell (zr c)) 0 1 ∗ dutyTok ER (barCell (p0 c)) 0 2
      ∗ dutyTok ER (barCell (p1 c)) 0 3 ∗ dutyTok ER (barCell (p2 c)) 0 4 ∗ dutyTok ER (loadCell c 0) 0 0
      ∗ dutyTok ER (loadCell c 1) 0 0 ∗ dutyTok ER (rsendCell c 0 0) 0 0 ∗ dutyTok ER (rsendCell c 0 1) 0 0
      ∗ dutyTok ER (rsendCell c 0 2) 0 0 ∗ dutyTok ER (rrecvCell (zr c) 0 0) 0 0 ∗ dutyTok ER (rrecvCell (zr c) 0 1) 0 0
      ∗ dutyTok ER (rrecvCell (zr c) 0 2) 0 0 ∗ dutyTok ER (rsendCell c 1 0) 0 0 ∗ dutyTok ER (rsendCell c 1 1) 0 0
      ∗ dutyTok ER (rsendCell c 1 2) 0 0 ∗ dutyTok ER (rrecvCell (zr c) 1 0) 0 0 ∗ dutyTok ER (rrecvCell (zr c) 1 1) 0 0
      ∗ dutyTok ER (rrecvCell (zr c) 1 2) 0 0 ∗ dutyTok ER (rsendCell c 2 0) 0 0 ∗ dutyTok ER (rsendCell c 2 1) 0 0
      ∗ dutyTok ER (rsendCell c 2 2) 0 0 ∗ dutyTok ER (rrecvCell (zr c) 2 0) 0 0 ∗ dutyTok ER (rrecvCell (zr c) 2 1) 0 0
      ∗ dutyTok ER (rrecvCell (zr c) 2 2) 0 0 ∗ dutyTok ER (gsendCell c 0) 0 0 ∗ dutyTok ER (gsendCell c 1) 0 0
      ∗ dutyTok ER (gsendCell c 2) 0 0 ∗ dutyTok ER (grecvCell (p0 c) 0) 0 0 ∗ dutyTok ER (grecvCell (p1 c) 1) 0 0
      ∗ dutyTok ER (grecvCell (p2 c) 2) 0 0)) := by
  unfold lin linear; rw [atPos_chain, payToks_chain]; rfl

/-! ## The two arrays no window stages -/

section KV

variable (m : (ℓ : Loc nD τ sig) → Buf (Elt F) ℓ)

/-- The key and value arrays of device `c`, whole, at their launch contents. -/
def kvPts (c : Dev nD) : sProp 𝕄 :=
  iprop((((c : Thread nD τ).loc main_arg1) ↦{fullShare} m ((c : Thread nD τ).loc main_arg1))
    ∗ (((c : Thread nD τ).loc main_arg2) ↦{fullShare} m ((c : Thread nD τ).loc main_arg2)))

end KV

end Cert.KernelIdeal.FD

end
-- ==== Proof.State.lean ====
/-
  What one device's body starts from and what it leaves, as the proof data of the one pipeline point.

  A device starts holding: the shared records of all cells and what stays with it (its positions and the tokens it
  pays with); the credit for what the others owe its cells (five units on its barrier cell, one transfer's worth on each
  of its nine ring receive cells and on each of its three exchange receive cells); the level facts; the key and value
  arrays whole at their launch contents; its five scratch buffers at whatever they hold. It owes the seventeen payments
  to other devices' cells. It ends owing nothing, its own 26 counters back at zero, the key and value arrays as they
  were, the scratch buffers at whatever they then hold; the staged query is left as it was fetched and the result's
  staging buffer holds the gathered result of the device's position along z.
-/
import proofs.«900429_g7700000000000430_dist_flashdec_v7x_xyz2x4x4_z_b8_sq8_skv1024_h16_d128_f32_1_alg».proof.Proof.Proto
import proofs.«900429_g7700000000000430_dist_flashdec_v7x_xyz2x4x4_z_b8_sq8_skv1024_h16_d128_f32_1_alg».proof.Proof.LaunchLib

noncomputable section

namespace Cert.KernelIdeal.FD

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## The one point of the pipeline -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole staging buffer of device `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section State

variable (vo : Dev nD → S8x16x128.Idx → Elt F .f32) (vm vl : Dev nD → S8x16x1.Idx → Elt F .f32)
variable (vg : ℕ → S8x8x16x128.Idx → Elt F .f32)
variable (kin vin : Dev nD → S1024x16x128.Idx → Elt F .f32)
variable (m : (ℓ : Loc nD τ sig) → Buf (Elt F) ℓ)

/-! ## The ghost state and the credit a device starts with -/

/-- The protocol's ghost state device `c` starts from, at the names `K` of the cells' invariants: the shared records
    and what stays with the device. -/
def ghost (K : Dev nD × Fin 27 → ℕ) (c : Dev nD) : sProp 𝕄 :=
  iprop(records (Rd vo vm vl vg kin vin m) K ∗ lin c)

/-- The credit for what the other devices owe device `c`'s cells, in the order the device waits for it: its barrier
    cell's five units; hop by hop the ring's receive cells of the partial sums, the maxima and the row sums; the three
    exchanges' receive cells. -/
def creds (c : Dev nD) : sProp 𝕄 :=
  iprop(cred (tallyAt (barCell c) () 5) ∗ cred (tallyAt (rrecvCell c 0 0) () (Nring 0)) ∗ cred (tallyAt (rrecvCell c 1 0) () (Nring 1))
    ∗ cred (tallyAt (rrecvCell c 2 0) () (Nring 2)) ∗ cred (tallyAt (rrecvCell c 0 1) () (Nring 0)) ∗ cred (tallyAt (rrecvCell c 1 1) () (Nring 1))
    ∗ cred (tallyAt (rrecvCell c 2 1) () (Nring 2)) ∗ cred (tallyAt (rrecvCell c 0 2) () (Nring 0)) ∗ cred (tallyAt (rrecvCell c 1 2) () (Nring 1))
    ∗ cred (tallyAt (rrecvCell c 2 2) () (Nring 2)) ∗ cred (tallyAt (grecvCell c 0) () (Nrows (partner 0 c) 0)) ∗ cred (tallyAt (grecvCell c 1) () (Nrows (partner 1 c) 1))
    ∗ cred (tallyAt (grecvCell c 2) () (Nrows (partner 2 c) 2)))

/-- What device `c`'s body starts from besides its buffers. -/
def start (c : Dev nD) : sProp 𝕄 :=
  iprop((∃ K, ghost vo vm vl vg kin vin m K c) ∗ creds c ∗ levAts L lv)

/-- Before the point: the start, the key and value arrays, the five scratch buffers at whatever they hold. -/
def Φ₀ (c : Dev nD) : sProp 𝕄 :=
  iprop(start vo vm vl vg kin vin m c ∗ kvPts m c ∗ owned c kM ∗ owned c vM ∗ owned c coM ∗ owned c cmM ∗ owned c clM)

/-- After the point: the key and value arrays as they were, the five scratch buffers at whatever they then hold, the
    kernel's own 26 counters at zero. -/
def Φ₁ (c : Dev nD) : sProp 𝕄 :=
  iprop(kvPts m c ∗ owned c kM ∗ owned c vM ∗ owned c coM ∗ owned c cmM ∗ owned c clM ∗ ownZero c)

/-! ## The proof data -/

/-- The staged query of device `c`: its query array as launched. -/
def qstg (c : Dev nD) : (cc0_stg0_0 : Ref sig .tc).ty.Contents (Elt F) :=
  (win0_0.blk (0 : Fin 1)).view.read (Elt F) (m ((c : Thread nD τ).loc main_arg0))

/-- The result's staging buffer of device `c` after the body: the gathered result of its position along z. -/
def outAt (c : Dev nD) : (cc0_stg1_0 : Ref sig .tc).ty.Contents (Elt F) := vg (c.val % 4)

def dats (_ : Fin 1) (c : Dev nD) : Dat τ (Elt F) Unit ℕ UU ℕ cfg0 c where
  A w := m ((cfg0.win w).arr.view.loc (c : Thread nD τ))
  after w _ := match w with
    | ⟨0, _⟩ => qstg m c
    | ⟨1, _⟩ => outAt vg c
  Φ t := match t with
    | ⟨0, _⟩ => Φ₀ vo vm vl vg kin vin m c
    | ⟨_ + 1, _⟩ => Φ₁ m c
  q _ := fullShare
  owed t := match t with
    | ⟨0, _⟩ => owedAfter 0 c
    | ⟨_ + 1, _⟩ => 0

/-! ## The body's precondition and postcondition -/

/-- What the body of device `c` is run from, the names `K` of the invariants fixed. -/
def bodyPre (K : Dev nD × Fin 27 → ℕ) (c : Dev nD) : sProp 𝕄 :=
  iprop((ghost vo vm vl vg kin vin m K c ∗ creds c ∗ levAts L lv ∗ kvPts m c
      ∗ owned c kM ∗ owned c vM ∗ owned c coM ∗ owned c cmM ∗ owned c clM)
    ∗ (dats vo vm vl vg kin vin m 0 c).owesAt () t₀.castSucc
    ∗ (∃ d, stg c cc0_stg0_0 ((dats vo vm vl vg kin vin m 0 c).before (0 : Fin 2) t₀ d))
    ∗ (∃ d, stg c cc0_stg1_0 ((dats vo vm vl vg kin vin m 0 c).before (1 : Fin 2) t₀ d)))

/-- What it leaves. -/
def bodyPost (c : Dev nD) : sProp 𝕄 :=
  iprop(Φ₁ m c ∗ (dats vo vm vl vg kin vin m 0 c).owesAt () t₀.succ
    ∗ stg c cc0_stg0_0 (qstg m c) ∗ stg c cc0_stg1_0 (outAt vg c))

/-- The precondition as the pipeline hands it over. -/
def bodyPre' (c : Dev nD) : sProp 𝕄 :=
  iprop(Φ₀ vo vm vl vg kin vin m c ∗ (dats vo vm vl vg kin vin m 0 c).owesAt () t₀.castSucc
    ∗ (∃ d, stg c cc0_stg0_0 ((dats vo vm vl vg kin vin m 0 c).before (0 : Fin 2) t₀ d))
    ∗ (∃ d, stg c cc0_stg1_0 ((dats vo vm vl vg kin vin m 0 c).before (1 : Fin 2) t₀ d)))

/-- The statement of the body lemma: from `bodyPre` the printed body runs to `bodyPost`. -/
def SoundBody : Prop :=
  ∀ (K : Dev nD × Fin 27 → ℕ) (c : Dev nD) (Kt : PUnit → sProp 𝕄),
    iprop(bodyPre vo vm vl vg kin vin m K c ∗ (bodyPost vo vm vl vg kin vin m c -∗ Kt ⟨⟩))
      ⊢ wp frame (wpE (defs₀ (F := F)) 𝒱₀ c none) Set.univ
          (cc0_body (Memref.whole cc0_stg0_0) (Memref.isWhole_whole _) (Memref.whole main_arg1) (Memref.isWhole_whole _)
            (Memref.whole main_arg2) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _)
            cc0_scratch5 cc0_scratch6 cc0_scratch7 cc0_scratch8 cc0_scratch9 cc0_scratch10 cc0_scratch11 cc0_scratch12 cc0_scratch13) Kt

set_option maxRecDepth 16384 in
/-- The library's body obligation on device `c`, from the body lemma. -/
theorem body_obligation (hsb : SoundBody vo vm vl vg kin vin m) (c : Dev nD) :
    BodyObligation (dats vo vm vl vg kin vin m 0 c) (defs₀ (F := F)) 𝒱₀ () Set.univ := fun t => by
  rw [fin_N t]
  rw [bigSep_W, bigSep_W]
  simp only [owns_whole_eq]
  show bodyPre' vo vm vl vg kin vin m c ⊢ wp frame (wpE (defs₀ (F := F)) 𝒱₀ c none) Set.univ
    (cc0_body (Memref.whole cc0_stg0_0) (Memref.isWhole_whole _) (Memref.whole main_arg1) (Memref.isWhole_whole _)
            (Memref.whole main_arg2) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _)
            cc0_scratch5 cc0_scratch6 cc0_scratch7 cc0_scratch8 cc0_scratch9 cc0_scratch10 cc0_scratch11 cc0_scratch12 cc0_scratch13) (fun _ => bodyPost vo vm vl vg kin vin m c)
  unfold bodyPre' Φ₀ start
  iintro ⟨⟨⟨⟨%K, Hg⟩, Hcr, Hlev⟩, Hkv, Hk, Hv, Hco, Hcm, Hcl⟩, Ho, Hx, Hout⟩
  iapply (hsb K c fun _ => bodyPost vo vm vl vg kin vin m c)
  unfold bodyPre
  isplitr []
  · isplitl [Hg Hcr Hlev Hkv Hk Hv Hco Hcm Hcl]
    · isplitl [Hg]; · iexact Hg
      isplitl [Hcr]; · iexact Hcr
      isplitl [Hlev]; · iexact Hlev
      isplitl [Hkv]; · iexact Hkv
      isplitl [Hk]; · iexact Hk
      isplitl [Hv]; · iexact Hv
      isplitl [Hco]; · iexact Hco
      isplitl [Hcm]; · iexact Hcm
      iexact Hcl
    isplitl [Ho]; · iexact Ho
    isplitl [Hx] <;> iassumption
  · iintro H; iexact H

end State

end Cert.KernelIdeal.FD

end
-- ==== Proof.Launch.lean ====
/-
  The launch of the kernel on the 32 devices: from the proof of one device's body to the run of the whole program.

  The launch funds the round state of all 32 x 27 cells at once, allocates every cell's invariant under one update,
  keeps with each device its positions on its own cells, and hands every duty token from the owner of its cell to the
  device that pays the duty. What a device owes at launch is its seventeen payments to other devices' cells; summed
  over the payers these are, on every device, five units on its barrier cell and one transfer's worth on each of its
  twelve receive cells, which is the credit it starts with. A device waits on its barrier cell at level 1, on the
  ring's receive cells at levels 2, 3, 4 and on the exchanges' at levels 5, 6, 7, always below what it still owes; the
  pipeline's own waits, on the staging cells at level 0, sit below everything owed. The key and value arrays are
  staged by no window: they travel beside the region as whole buffers at their launch contents and are read back
  from the final state.
-/
import proofs.«900429_g7700000000000430_dist_flashdec_v7x_xyz2x4x4_z_b8_sq8_skv1024_h16_d128_f32_1_alg».proof.Proof.State

noncomputable section

namespace Cert.KernelIdeal.FD

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The kernel's own semaphores and the barrier semaphore -/

theorem ownSemFacts : Pipeline.OwnSemFacts cfg0.spec osem := by decide

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 27 => semVal (kcell (c, k)) 0 : sProp 𝕄) := by
  rw [unscopedSems0_eq, bigSep_fin_succ]
  unfold Pipeline.ownSems0
  iintro ⟨HS, HB⟩
  isplitl [HB]; · iexact HB
  iexact HS

section Alloc

variable (Rd : Rounds.Schedule (GSem nD τ sig) (Fin 5) (MT nD τ sig Unit (Elt F) ℕ UU ℕ))
  [hst : ∀ (g : GSem nD τ sig) (r : ℕ) (d : Fin 5), BI.Storable (upEmb : UEmb _ (MT nD τ sig Unit (Elt F) ℕ UU ℕ)) (Rd.payload g r d)]

omit [FloatOps F] in
/-- A device's 27 cells — the barrier cell and its 26 own — each get an invariant from the counter at zero and the round
    state at zero. -/
theorem cells_alloc (c : Dev nD) :
    iprop((bigSep Finset.univ fun k : Fin 27 => semVal (kcell (c, k)) 0) ∗ bigSep Finset.univ fun k : Fin 27 => roundState ER Rd (kcell (c, k)) 0)
      ⊢ (|={Set.univ}=> bigSep Finset.univ fun k => iprop(∃ κ : ℕ, cellInv ER Rd κ (kcell (c, k))) : sProp 𝕄) := by
  rw [← bigSep_sep']
  exact (bigSep_mono fun k _ => (Rounds.body_intro ER Rd (kcell (c, k))).trans inv_alloc).trans (bigSep_fupd _ _)

end Alloc

/-! ## Funding, allocation and the regrouping of the tokens, for any schedule, token table and payer family -/

section Core

variable (Rd : Rounds.Schedule (GSem nD τ sig) (Fin 5) (MT nD τ sig Unit (Elt F) ℕ UU ℕ))
  [hst : ∀ (g : GSem nD τ sig) (r : ℕ) (d : Fin 5), BI.Storable (upEmb : UEmb _ (MT nD τ sig Unit (Elt F) ℕ UU ℕ)) (Rd.payload g r d)]
variable {J : Type} [Fintype J] [DecidableEq J] (tk : J → Fin 27 × Fin 5) (htk : Function.Injective tk)
  (pay : J → Dev nD ≃ Dev nD)

def cells27 : Finset (GSem nD τ sig) := Finset.univ.map ⟨kcell, kcell_injective⟩

/-- Token `j` of device `c`: a duty of round 0 of one of its cells. -/
abbrev tokOf (cj : Dev nD × J) : GSem nD τ sig × ℕ × Fin 5 := (kcell (cj.1, (tk cj.2).1), 0, (tk cj.2).2)

include htk in
theorem tokOf_injective : Function.Injective (tokOf tk : Dev nD × J → GSem nD τ sig × ℕ × Fin 5) := by
  rintro ⟨c, j⟩ ⟨c', j'⟩ h
  have h1 : kcell (c, (tk j).1) = kcell (c', (tk j').1) := congrArg (fun x : GSem nD τ sig × ℕ × Fin 5 => x.1) h
  have h2 : (tk j).2 = (tk j').2 := congrArg (fun x : GSem nD τ sig × ℕ × Fin 5 => x.2.2) h
  have h3 := kcell_injective h1
  have hc : c = c' := congrArg Prod.fst h3
  have hk : (tk j).1 = (tk j').1 := congrArg Prod.snd h3
  have hj : j = j' := htk (Prod.ext hk h2)
  rw [hc, hj]

def allToks : Finset (GSem nD τ sig × ℕ × Fin 5) := Finset.univ.map ⟨tokOf tk, tokOf_injective tk htk⟩

/-- The duty tokens of device `c`'s own cells, as minted. -/
def toks (c : Dev nD) : sProp 𝕄 := bigSep Finset.univ fun j : J => dutyTok ER (kcell (c, (tk j).1)) 0 (tk j).2

/-- What the launch element deals device `c`. -/
def Ggen (c : Dev nD) : sProp 𝕄 :=
  iprop((bigSep Finset.univ fun k : Fin 27 => roundState ER Rd (kcell (c, k)) 0)
    ∗ (bigSep Finset.univ fun k : Fin 27 => iprop(atPos ER (kcell (c, k)) 0 ∅ 0 ∗ reached ER (kcell (c, k)) 0)) ∗ toks tk c)

omit [FloatOps F] hst in
theorem fund_gen : BI.own (ER (initOf cells27 (allToks tk htk))) ⊢ (|==> bigSep Finset.univ (Ggen Rd tk) : sProp 𝕄) := by
  have hX (Φ : GSem nD τ sig → sProp 𝕄) : bigSep cells27 Φ = bigSep Finset.univ fun c : Dev nD => bigSep Finset.univ fun k : Fin 27 => Φ (kcell (c, k)) := by
    unfold cells27; rw [bigSep_map, bigSep_univ_prod]; rfl
  have hT : bigSep (allToks tk htk) (fun x => (dutyTok ER x.1 x.2.1 x.2.2 : sProp 𝕄)) = bigSep Finset.univ fun c : Dev nD => toks tk c := by
    unfold allToks; rw [bigSep_map, bigSep_univ_prod]; rfl
  iintro HX
  imod (Rounds.fund ER Rd cells27 (allToks tk htk)) $$ HX with ⟨Hst, Hr, Hat, Htok⟩
  imodintro
  ihave Hst' := (Entails.of_eq (hX fun g => roundState ER Rd g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold Ggen; simp only [bigSep_sep']
  isplitl [Hst']; · iexact Hst'
  isplitl [Hat' Hr']
  · isplitl [Hat'] <;> iassumption
  iexact Htok'

omit [FloatOps F] in
theorem core_alloc (c : Dev nD) :
    iprop(Pipeline.ownSems0 (Ix := Unit) (Name := ℕ) (U := UU) (Lvl := ℕ) (Val := Elt F) (τ := τ) osem c ∗ unscopedSems0 c ∗ Ggen Rd tk c)
      ⊢ |={Set.univ}=> iprop((bigSep Finset.univ fun k : Fin 27 => iprop(∃ κ : ℕ, cellInv ER Rd κ (kcell (c, k))))
          ∗ (bigSep Finset.univ fun k : Fin 27 => iprop(atPos ER (kcell (c, k)) 0 ∅ 0 ∗ reached ER (kcell (c, k)) 0)) ∗ toks tk c) := by
  unfold Ggen
  iintro ⟨Hos, Hus, Hst, Hat, Htok⟩
  ihave Hv := (sems0_eq (F := F) c) $$ [Hos Hus]
  · isplitl [Hos] <;> iassumption
  imod (cells_alloc Rd c) $$ [Hv Hst] with Hinv
  · isplitl [Hv] <;> iassumption
  imodintro
  isplitl [Hinv]; · iexact Hinv
  isplitl [Hat]; · iexact Hat
  iexact Htok

omit [FloatOps F] in
/-- The tokens dealt from the owners of the cells to the payers of the duties. -/
theorem toks_around : (bigSep Finset.univ fun c : Dev nD => (toks tk c : sProp 𝕄)) = bigSep Finset.univ fun d : Dev nD => payToks tk pay d := by
  unfold toks payToks
  exact bigSep_regroup pay (fun (c : Dev nD) (j : J) => (dutyTok ER (kcell (c, (tk j).1)) 0 (tk j).2 : sProp 𝕄))

omit [FloatOps F] hst in
theorem regroup :
    (bigSep Finset.univ fun c : Dev nD => iprop((bigSep Finset.univ fun k : Fin 27 => iprop(∃ κ : ℕ, cellInv ER Rd κ (kcell (c, k))))
          ∗ (bigSep Finset.univ fun k : Fin 27 => iprop(atPos ER (kcell (c, k)) 0 ∅ 0 ∗ reached ER (kcell (c, k)) 0)) ∗ toks tk c) : sProp 𝕄)
      ⊢ iprop(∃ K, records Rd K ∗ bigSep Finset.univ fun c : Dev nD => linear tk pay c) := by
  rw [bigSep_sep', bigSep_sep', ← bigSep_univ_prod (fun ck : Dev nD × Fin 27 => iprop(∃ κ : ℕ, cellInv ER Rd κ (kcell ck))),
    bigSep_congr (s := Finset.univ) (fun (c : Dev nD) _ => bigSep_sep' Finset.univ (fun k : Fin 27 => (atPos ER (kcell (c, k)) 0 ∅ 0 : sProp 𝕄)) (fun k => reached ER (kcell (c, k)) 0)),
    bigSep_sep', ← bigSep_univ_prod (fun ck : Dev nD × Fin 27 => (reached ER (kcell ck) 0 : sProp 𝕄)), toks_around tk pay]
  iintro ⟨HI, ⟨Hat, #HR⟩, Htok⟩
  ihave HK := (BI.bigSep_exists_pi Finset.univ (fun (ck : Dev nD × Fin 27) (κ : ℕ) => (cellInv ER Rd κ (kcell ck) : sProp 𝕄))) $$ HI
  icases HK with ⟨%K, #HI⟩
  iexists K
  isplitr
  · unfold records; isplitl; · iexact HI
    iexact HR
  · unfold linear; rw [bigSep_sep']
    isplitl [Hat]; · iexact Hat
    iexact Htok

omit [FloatOps F] in
/-- The global step: own and unscoped semaphores of every device at once. -/
theorem glob_gen : (bigSep Finset.univ fun c => iprop(Pipeline.ownSems0 (Ix := Unit) (Name := ℕ) (U := UU) (Lvl := ℕ) (Val := Elt F) (τ := τ) osem c ∗ unscopedSems0 c ∗ Ggen Rd tk c) : sProp 𝕄)
    ⊢ |={Set.univ}=> iprop(∃ K, records Rd K ∗ bigSep Finset.univ fun c : Dev nD => linear tk pay c) :=
  ((bigSep_mono fun c _ => core_alloc Rd tk c).trans (bigSep_fupd _ _)).trans (BI.fupd_mono (regroup Rd tk pay))

omit [FloatOps F] in
/-- The same, every device holding the shared records beside what stays with it. -/
theorem glob_each : (bigSep Finset.univ fun c => iprop(Pipeline.ownSems0 (Ix := Unit) (Name := ℕ) (U := UU) (Lvl := ℕ) (Val := Elt F) (τ := τ) osem c ∗ unscopedSems0 c ∗ Ggen Rd tk c) : sProp 𝕄)
    ⊢ |={Set.univ}=> bigSep Finset.univ fun c : Dev nD => iprop(∃ K, records Rd K ∗ linear tk pay c) := by
  refine (glob_gen Rd tk pay).trans (BI.fupd_mono ?_)
  iintro ⟨%K, #HR, HL⟩
  iapply (bigSep_with_persistent (R := records Rd K) (Φ := fun c : Dev nD => linear tk pay c)
    (Ψ := fun c : Dev nD => iprop(∃ K, records Rd K ∗ linear tk pay c))
    (fun c _ => show iprop(records Rd K ∗ linear tk pay c) ⊢ iprop(∃ K, records Rd K ∗ linear tk pay c) from by
      iintro H; iexists K; iexact H))
  isplitr; · iexact HR
  iexact HL

end Core

/-! ## The two arrays no window stages -/

section KV

variable (m : (ℓ : Loc nD τ sig) → Buf (Elt F) ℓ)

omit [FloatOps F] in
theorem kv_intro (c : Dev nD) :
    (Pipeline.unscopedRestP Pipeline.Prefetch.none cfg0.spec c (fun b => m ((c : Thread nD τ).loc b)) : sProp 𝕄) ⊢ kvPts m c := by
  rw [Pipeline.unscopedRestP_none]
  exact Entails.of_eq (unscopedRest0_eq c (fun b => m ((c : Thread nD τ).loc b)))

omit [FloatOps F] in
/-- Read against a final state, the two arrays hold what they held at launch. -/
theorem kv_read (c : Dev nD) (Z : sProp 𝕄) (s' : Phys nD τ sig (Elt F)) :
    iprop(kvPts m c ∗ Z ∗ SI s') ⊢ |={Set.univ}=> iprop(⌜s'.mem.mem ((c : Thread nD τ).loc main_arg1) = m ((c : Thread nD τ).loc main_arg1)
        ∧ s'.mem.mem ((c : Thread nD τ).loc main_arg2) = m ((c : Thread nD τ).loc main_arg2)⌝ ∗ SI s') := by
  unfold kvPts
  iintro ⟨⟨HK, HV⟩, -, HSI⟩
  icombine HSI HK gives %hk
  icombine HSI HV gives %hv
  imodintro
  isplitr; · ipureintro; exact ⟨Buf.eq_of_forall_mem_univ hk, Buf.eq_of_forall_mem_univ hv⟩
  iexact HSI

end KV

/-! ## The launch credit of one cell along a device permutation -/

omit [FloatOps F] in
theorem launchCred_kcell (k : Fin 27) (e : Dev nD ≃ Dev nD) (n : ℕ) (c : Dev nD) :
    (Pipeline.launchCred (fun d => tallyAt (kcell (e d, k)) () n) c : sProp 𝕄) ⊢ cred (tallyAt (kcell (c, k)) () n) :=
  Pipeline.launchCred_tallyAt (csem k) e e.symm e.apply_symm_apply e.symm_apply_apply () n c

omit [FloatOps F] in
/-- One more summand owed, to cell `k` of the device `e d`: one more credit token on the device's own cell `k`. -/
theorem launchCred_add_kcell (O : Dev nD → CellTallies nD τ sig Unit) (k : Fin 27) (e : Dev nD ≃ Dev nD) (n : ℕ) (c : Dev nD) :
    (Pipeline.launchCred (fun d => O d + tallyAt (kcell (e d, k)) () n) c : sProp 𝕄)
      ⊢ iprop(Pipeline.launchCred O c ∗ cred (tallyAt (kcell (c, k)) () n)) := by
  rw [Pipeline.launchCred_add]
  exact sep_mono_right (launchCred_kcell k e n c)

omit [FloatOps F] in
theorem launchCred_kcell_add (O : Dev nD → CellTallies nD τ sig Unit) (k : Fin 27) (e : Dev nD ≃ Dev nD) (n : ℕ) (c : Dev nD) :
    (Pipeline.launchCred (fun d => tallyAt (kcell (e d, k)) () n + O d) c : sProp 𝕄)
      ⊢ iprop(cred (tallyAt (kcell (c, k)) () n) ∗ Pipeline.launchCred O c) := by
  rw [Pipeline.launchCred_add]
  exact sep_mono_left (launchCred_kcell k e n c)

omit [FloatOps F] in
/-- The same when the amount depends on the payer: every device `d` owing `n d` units to cell `k` of the device `e d`,
    device `c` is dealt the credit of what its payer `e.symm c` owes. -/
theorem launchCred_kcell_var (k : Fin 27) (e : Dev nD ≃ Dev nD) (n : Dev nD → ℕ) (c : Dev nD) :
    (Pipeline.launchCred (fun d => tallyAt (kcell (e d, k)) () (n d)) c : sProp 𝕄)
      ⊢ cred (tallyAt (kcell (c, k)) () (n (e.symm c))) := by
  refine (Pipeline.launchCred_elim _ c (csem k)).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ e.symm c →
      tallyOn (nD := nD) (sig := sig) (kcell (e d, k)) (Finsupp.single () (n d)) (kcell (c, k)) = 0 := fun d _ hd => by
    unfold tallyOn
    refine Pi.single_eq_of_ne (fun h => hd ?_) _
    have h3 : c = e d := congrArg (fun g : GSem nD τ sig => g.1.1) h
    rw [h3, e.symm_apply_apply]
  rw [Finset.sum_eq_single (e.symm c) h0 (fun h => absurd (Finset.mem_univ _) h)]
  unfold tallyOn
  rw [e.apply_symm_apply, Pi.single_eq_same]

omit [FloatOps F] in
theorem launchCred_add_kcell_var (O : Dev nD → CellTallies nD τ sig Unit) (k : Fin 27) (e : Dev nD ≃ Dev nD) (n : Dev nD → ℕ) (c : Dev nD) :
    (Pipeline.launchCred (fun d => O d + tallyAt (kcell (e d, k)) () (n d)) c : sProp 𝕄)
      ⊢ iprop(Pipeline.launchCred O c ∗ cred (tallyAt (kcell (c, k)) () (n (e.symm c)))) := by
  rw [Pipeline.launchCred_add]
  exact sep_mono_right (launchCred_kcell_var k e n c)

omit [FloatOps F] in
/-- Unit credits on one cell merge. -/
theorem cred_tallyAt_add (g : GSem nD τ sig) (a b : ℕ) :
    iprop(cred (tallyAt g () a) ∗ cred (tallyAt g () b)) ⊢ (cred (tallyAt g () (a + b)) : sProp 𝕄) := by
  rw [← tallyAt_add]; exact (cred_add _ _).2

/-- Five unit credits on one cell are a credit of five. -/
theorem cred_five (g : GSem nD τ sig) :
    iprop(cred (tallyAt g () 1) ∗ cred (tallyAt g () 1) ∗ cred (tallyAt g () 1) ∗ cred (tallyAt g () 1) ∗ cred (tallyAt g () 1))
      ⊢ (cred (tallyAt g () 5) : sProp 𝕄) := by
  iintro ⟨H0, H1, H2, H3, H4⟩
  ihave A := (cred_tallyAt_add (F := F) g 1 1) $$ [H0 H1]
  · isplitl [H0] <;> iassumption
  ihave B := (cred_tallyAt_add (F := F) g (1 + 1) 1) $$ [A H2]
  · isplitl [A] <;> iassumption
  ihave C := (cred_tallyAt_add (F := F) g (1 + 1 + 1) 1) $$ [B H3]
  · isplitl [B] <;> iassumption
  ihave D := (cred_tallyAt_add (F := F) g (1 + 1 + 1 + 1) 1) $$ [C H4]
  · isplitl [C] <;> iassumption
  iexact D

/-! ## What a device owes and the credit it starts with -/

omit [FloatOps F] in
/-- What a device owes at launch, every payment spelt as a unit on a cell of the table of the device one of the five
    permutations sends it to. -/
theorem owed_eq :
    (owedAfter 0 : Dev nD → CellTallies nD τ sig Unit) = fun d =>
      ((((((((((((((((((0 : CellTallies nD τ sig Unit)
        + tallyAt (kcell (p2E d, kGrecv 2)) () (Nrows d 2))
        + tallyAt (kcell (p1E d, kGrecv 1)) () (Nrows d 1))
        + tallyAt (kcell (p0E d, kGrecv 0)) () (Nrows d 0))
        + tallyAt (kcell (zrE d, kRrecv 2 2)) () (Nring 2))
        + tallyAt (kcell (zrE d, kRrecv 1 2)) () (Nring 1))
        + tallyAt (kcell (zrE d, kRrecv 0 2)) () (Nring 0))
        + tallyAt (kcell (zrE d, kRrecv 2 1)) () (Nring 2))
        + tallyAt (kcell (zrE d, kRrecv 1 1)) () (Nring 1))
        + tallyAt (kcell (zrE d, kRrecv 0 1)) () (Nring 0))
        + tallyAt (kcell (zrE d, kRrecv 2 0)) () (Nring 2))
        + tallyAt (kcell (zrE d, kRrecv 1 0)) () (Nring 1))
        + tallyAt (kcell (zrE d, kRrecv 0 0)) () (Nring 0))
        + tallyAt (kcell (p2E d, 0)) () 1)
        + tallyAt (kcell (p1E d, 0)) () 1)
        + tallyAt (kcell (p0E d, 0)) () 1)
        + tallyAt (kcell (zrE d, 0)) () 1)
        + tallyAt (kcell (zlE d, 0)) () 1) :=
  funext fun d => rfl

/-- The credit a device starts with: what the others owe its cells. -/
theorem creds_intro (c : Dev nD) : (Pipeline.launchCred (owedAfter 0) c : sProp 𝕄) ⊢ creds c := by
  rw [owed_eq]
  iintro H0
  ihave H1 := (launchCred_add_kcell (F := F) _ 0 zlE 1 c) $$ H0
  icases H1 with ⟨H1, C0⟩
  ihave H2 := (launchCred_add_kcell (F := F) _ 0 zrE 1 c) $$ H1
  icases H2 with ⟨H2, C1⟩
  ihave H3 := (launchCred_add_kcell (F := F) _ 0 p0E 1 c) $$ H2
  icases H3 with ⟨H3, C2⟩
  ihave H4 := (launchCred_add_kcell (F := F) _ 0 p1E 1 c) $$ H3
  icases H4 with ⟨H4, C3⟩
  ihave H5 := (launchCred_add_kcell (F := F) _ 0 p2E 1 c) $$ H4
  icases H5 with ⟨H5, C4⟩
  ihave H6 := (launchCred_add_kcell (F := F) _ (kRrecv 0 0) zrE (Nring 0) c) $$ H5
  icases H6 with ⟨H6, C5⟩
  ihave H7 := (launchCred_add_kcell (F := F) _ (kRrecv 1 0) zrE (Nring 1) c) $$ H6
  icases H7 with ⟨H7, C6⟩
  ihave H8 := (launchCred_add_kcell (F := F) _ (kRrecv 2 0) zrE (Nring 2) c) $$ H7
  icases H8 with ⟨H8, C7⟩
  ihave H9 := (launchCred_add_kcell (F := F) _ (kRrecv 0 1) zrE (Nring 0) c) $$ H8
  icases H9 with ⟨H9, C8⟩
  ihave H10 := (launchCred_add_kcell (F := F) _ (kRrecv 1 1) zrE (Nring 1) c) $$ H9
  icases H10 with ⟨H10, C9⟩
  ihave H11 := (launchCred_add_kcell (F := F) _ (kRrecv 2 1) zrE (Nring 2) c) $$ H10
  icases H11 with ⟨H11, C10⟩
  ihave H12 := (launchCred_add_kcell (F := F) _ (kRrecv 0 2) zrE (Nring 0) c) $$ H11
  icases H12 with ⟨H12, C11⟩
  ihave H13 := (launchCred_add_kcell (F := F) _ (kRrecv 1 2) zrE (Nring 1) c) $$ H12
  icases H13 with ⟨H13, C12⟩
  ihave H14 := (launchCred_add_kcell (F := F) _ (kRrecv 2 2) zrE (Nring 2) c) $$ H13
  icases H14 with ⟨H14, C13⟩
  ihave H15 := (launchCred_add_kcell_var (F := F) _ (kGrecv 0) p0E (fun d => Nrows d 0) c) $$ H14
  icases H15 with ⟨H15, C14⟩
  ihave H16 := (launchCred_add_kcell_var (F := F) _ (kGrecv 1) p1E (fun d => Nrows d 1) c) $$ H15
  icases H16 with ⟨H16, C15⟩
  ihave H17 := (launchCred_add_kcell_var (F := F) _ (kGrecv 2) p2E (fun d => Nrows d 2) c) $$ H16
  icases H17 with ⟨-, C16⟩
  unfold creds
  isplitl [C0 C1 C2 C3 C4]
  · iapply (cred_five (F := F) (barCell c))
    isplitl [C0]; · iexact C0
    isplitl [C1]; · iexact C1
    isplitl [C2]; · iexact C2
    isplitl [C3]; · iexact C3
    iexact C4
  isplitl [C5]; · iexact C5
  isplitl [C6]; · iexact C6
  isplitl [C7]; · iexact C7
  isplitl [C8]; · iexact C8
  isplitl [C9]; · iexact C9
  isplitl [C10]; · iexact C10
  isplitl [C11]; · iexact C11
  isplitl [C12]; · iexact C12
  isplitl [C13]; · iexact C13
  isplitl [C14]; · iexact C14
  isplitl [C15]; · iexact C15
  iexact C16

/-! ## The levels -/

omit [FloatOps F] in
theorem Lmem (d : Dev nD) (sm : SemLoc sig) : () ∈ L ((d : Thread nD τ), sm) := by
  rw [L_tc]; exact Finset.mem_singleton_self _
omit [FloatOps F] in
theorem lv_bar (d : Dev nD) : 0 < lv (barCell d) () := by
  show 0 < (if barS = barS then 1 else 0); rw [if_pos rfl]; exact Nat.one_pos
omit [FloatOps F] in
theorem lv_rrecv (d : Dev nD) (b h : Fin 3) : 0 < lv (rrecvCell d b h) () := by
  fin_cases b <;> fin_cases h <;> first | exact Nat.succ_pos _ | (revert d; decide)
omit [FloatOps F] in
theorem lv_grecv (d : Dev nD) (st : Fin 3) : 0 < lv (grecvCell d st) () := by
  fin_cases st <;> first | exact Nat.succ_pos _ | (revert d; decide)

omit [FloatOps F] in
/-- A sum of units on the cells of a list is positive only at one of the list's cells. -/
theorem foldr_pos (l : List (GSem nD τ sig × ℕ)) {g : GSem nD τ sig} {u : Unit}
    (h : 0 < (l.foldr (fun p acc => acc + tallyAt p.1 () p.2) (0 : CellTallies nD τ sig Unit)) g u) : ∃ p ∈ l, g = p.1 := by
  induction l with
  | nil => exact absurd h (Nat.lt_irrefl 0)
  | cons p l ih =>
    rw [List.foldr_cons] at h
    rcases Pipeline.add_pos_cases h with h | h
    · obtain ⟨q, hq, hg⟩ := ih h
      exact ⟨q, List.Mem.tail _ hq, hg⟩
    · exact ⟨p, List.Mem.head _, (Pipeline.tallyAt_pos h).1⟩

omit [FloatOps F] in
/-- Every cell a device pays is a TensorCore's and sits at level 1 or above. -/
theorem pay_levels (c : Dev nD) : (payList c).Forall fun p => () ∈ L p.1 ∧ 0 < lv p.1 () := by
  unfold payList
  exact ⟨⟨Lmem _ _, lv_bar _⟩,
    ⟨Lmem _ _, lv_bar _⟩,
    ⟨Lmem _ _, lv_bar _⟩,
    ⟨Lmem _ _, lv_bar _⟩,
    ⟨Lmem _ _, lv_bar _⟩,
    ⟨Lmem _ _, lv_rrecv _ 0 0⟩,
    ⟨Lmem _ _, lv_rrecv _ 1 0⟩,
    ⟨Lmem _ _, lv_rrecv _ 2 0⟩,
    ⟨Lmem _ _, lv_rrecv _ 0 1⟩,
    ⟨Lmem _ _, lv_rrecv _ 1 1⟩,
    ⟨Lmem _ _, lv_rrecv _ 2 1⟩,
    ⟨Lmem _ _, lv_rrecv _ 0 2⟩,
    ⟨Lmem _ _, lv_rrecv _ 1 2⟩,
    ⟨Lmem _ _, lv_rrecv _ 2 2⟩,
    ⟨Lmem _ _, lv_grecv _ 0⟩,
    ⟨Lmem _ _, lv_grecv _ 1⟩,
    ⟨Lmem _ _, lv_grecv _ 2⟩⟩

omit [FloatOps F] in
theorem owed_level {c : Dev nD} {g : GSem nD τ sig} {u : Unit} (h : 0 < owedAfter 0 c g u) : u ∈ L g ∧ 0 < lv g u := by
  obtain ⟨p, hp, rfl⟩ := foldr_pos (payList c) h
  cases u
  exact List.forall_iff_forall_mem.1 (pay_levels c) p hp

omit [FloatOps F] in
/-- A wait on a cell at level 0 — a staging cell of the pipeline — sits below everything the device owes. -/
theorem mayWait_stage (c : Dev nD) (q : DmaSem sig) (hq : lv ((c : Thread nD τ), .dma q) () = 0)
    (O : CellTallies nD τ sig Unit) (hO : O = owedAfter 0 c ∨ O = 0) :
    (levAts L lv : sProp 𝕄) ⊢ MayWait (c : Thread nD τ) (.dma q) () O := by
  rcases hO with rfl | rfl
  · exact MayOwe.of_cut (L := L) (lev := lv) 0
      (fun p hp => by rw [Finset.mem_singleton.mp hp, L_tc]; exact Finset.mem_singleton_self _)
      (fun g u hg => (owed_level hg).1)
      (fun p hp => by rw [Finset.mem_singleton.mp hp]; exact Nat.le_of_eq hq)
      (fun g u hg => (owed_level hg).2)
  · rw [MayWait_zero]; iintro -; iempintro

/-! ## The launch theorem's side conditions -/

section Launch

variable (vo : Dev nD → S8x16x128.Idx → Elt F .f32) (vm vl : Dev nD → S8x16x1.Idx → Elt F .f32)
variable (vg : ℕ → S8x8x16x128.Idx → Elt F .f32)
variable (kin vin : Dev nD → S1024x16x128.Idx → Elt F .f32)
variable (m : (ℓ : Loc nD τ sig) → Buf (Elt F) ℓ)
variable (ρ : Dev nD → PrngReg)

theorem share_eq (c : Dev nD) (w : Fin cfg0.W) : (dats vo vm vl vg kin vin m 0 c).share w = fullShare := by
  unfold Dat.share; split <;> rfl

theorem waits (c : Dev nD) : (levAts L lv : sProp 𝕄) ⊢ Pipeline.cellsWaits cfgs (dats vo vm vl vg kin vin m) () 0 c :=
  Pipeline.cellsWaits_intro cfgs (dats vo vm vl vg kin vin m) () 0 c fun w s t =>
    mayWait_stage c _ (by fin_cases w <;> fin_cases s <;> rfl) _ (by
      rcases t with ⟨_ | _, ht⟩
      · exact Or.inl rfl
      · exact Or.inr rfl)

/-- The launch element: the pipeline library's for the staging cells, the protocol's for the 32 x 27 cells and the
    32 x 31 tokens. -/
def u₀ : UU :=
  (initOf (Pipeline.cells cfgs cellOf_inj) (Pipeline.launchToks cfgs cellOf_inj), initOf cells27 (allToks tk tk_injective))

/-- What the launch element deals device `c`, and what the global step makes of it. -/
abbrev dealt (c : Dev nD) : sProp 𝕄 := Ggen (Rd vo vm vl vg kin vin m) tk c
abbrev dealt' (c : Dev nD) : sProp 𝕄 := iprop(∃ K, ghost vo vm vl vg kin vin m K c)

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ dealt vo vm vl vg kin vin m c) : sProp 𝕄)
    ⊢ |={Set.univ}=> bigSep Finset.univ (dealt' vo vm vl vg kin vin m) := by
  unfold dealt' ghost
  exact glob_each (Rd vo vm vl vg kin vin m) tk pay

/-- What a device routes into the pipeline's invariant: the start and the key and value arrays. -/
def startX (c : Dev nD) : sProp 𝕄 := iprop(start vo vm vl vg kin vin m c ∗ kvPts m c)

theorem start_intro (c : Dev nD) :
    iprop(Pipeline.unscopedRestP Pipeline.Prefetch.none cfg0.spec c (fun b => m ((c : Thread nD τ).loc b)) ∗ levAts L lv
        ∗ Pipeline.launchCred (owedAfter 0) c ∗ prngReg c (ρ c) ∗ dealt' vo vm vl vg kin vin m c)
      ⊢ |={Set.univ}=> iprop(startX vo vm vl vg kin vin m c ∗ emp) := by
  iintro ⟨Hur, Hlev, Hcr, -, HG⟩
  ihave Hc := (creds_intro (F := F) c) $$ Hcr
  ihave Hkv := (kv_intro (F := F) m c) $$ Hur
  imodintro
  unfold startX start
  isplitl
  · isplitl [HG Hc Hlev]
    · isplitl [HG]; · iexact HG
      isplitl [Hc]; · iexact Hc
      iexact Hlev
    · iexact Hkv
  · iempintro

omit [FloatOps F] in
theorem owned_kM (c : Dev nD) : (owned c kM : sProp 𝕄)
    = iprop(∃ f : Buf (Elt F) ((c : Thread nD τ).loc cc0_scratch0), ((c : Thread nD τ).loc cc0_scratch0) ↦{fullShare} f) := by
  unfold owned; rw [View.set_whole]
omit [FloatOps F] in
theorem owned_vM (c : Dev nD) : (owned c vM : sProp 𝕄)
    = iprop(∃ f : Buf (Elt F) ((c : Thread nD τ).loc cc0_scratch1), ((c : Thread nD τ).loc cc0_scratch1) ↦{fullShare} f) := by
  unfold owned; rw [View.set_whole]
omit [FloatOps F] in
theorem owned_coM (c : Dev nD) : (owned c coM : sProp 𝕄)
    = iprop(∃ f : Buf (Elt F) ((c : Thread nD τ).loc cc0_scratch2), ((c : Thread nD τ).loc cc0_scratch2) ↦{fullShare} f) := by
  unfold owned; rw [View.set_whole]
omit [FloatOps F] in
theorem owned_cmM (c : Dev nD) : (owned c cmM : sProp 𝕄)
    = iprop(∃ f : Buf (Elt F) ((c : Thread nD τ).loc cc0_scratch3), ((c : Thread nD τ).loc cc0_scratch3) ↦{fullShare} f) := by
  unfold owned; rw [View.set_whole]
omit [FloatOps F] in
theorem owned_clM (c : Dev nD) : (owned c clM : sProp 𝕄)
    = iprop(∃ f : Buf (Elt F) ((c : Thread nD τ).loc cc0_scratch4), ((c : Thread nD τ).loc cc0_scratch4) ↦{fullShare} f) := by
  unfold owned; rw [View.set_whole]

theorem phi0_intro (c : Dev nD) :
    iprop(startX vo vm vl vg kin vin m c ∗ Pipeline.prefHeld Pipeline.Prefetch.none c (fun _ => fullShare.right) (fun k => k.elim0) ∗ Pipeline.scopedRest cfg0.spec c)
      ⊢ (dats vo vm vl vg kin vin m 0 c).Φ 0 := by
  rw [show (dats vo vm vl vg kin vin m 0 c).Φ 0 = Φ₀ vo vm vl vg kin vin m c from rfl, scopedRest0_eq]
  unfold Φ₀ startX
  rw [owned_kM, owned_vM, owned_coM, owned_cmM, owned_clM]
  iintro ⟨⟨Hs, Hkv⟩, -, Hk, Hv, Hco, Hcm, Hcl⟩
  isplitl [Hs]; · iexact Hs
  isplitl [Hkv]; · iexact Hkv
  isplitl [Hk]; · iexact Hk
  isplitl [Hv]; · iexact Hv
  isplitl [Hco]; · iexact Hco
  isplitl [Hcm]; · iexact Hcm
  iexact Hcl

theorem phi1_exit (c : Dev nD) :
    (dats vo vm vl vg kin vin m 0 c).Φ (Fin.last cfg0.N) ⊢ iprop(kvPts m c ∗ Pipeline.ownSems0 osem c ∗ Pipeline.scopedRest cfg0.spec c) := by
  rw [show (dats vo vm vl vg kin vin m 0 c).Φ (Fin.last cfg0.N) = Φ₁ m c from rfl, scopedRest0_eq]
  unfold Φ₁ ownZero
  rw [owned_kM, owned_vM, owned_coM, owned_cmM, owned_clM]
  iintro ⟨Hkv, Hk, Hv, Hco, Hcm, Hcl, Hz⟩
  isplitl [Hkv]; · iexact Hkv
  isplitl [Hz]; · iexact Hz
  isplitl [Hk]; · iexact Hk
  isplitl [Hv]; · iexact Hv
  isplitl [Hco]; · iexact Hco
  isplitl [Hcm]; · iexact Hcm
  iexact Hcl

/-! ## The run -/

/-- The windows' arrays of device `c` after the run, as the pipeline computes them from what the body left. -/
def finalA (c : Dev nD) (w : Fin cfg0.W) : Buf (Elt F) ((cfg0.win w).arr.view.loc (c : Thread nD τ)) :=
  (dats vo vm vl vg kin vin m 0 c).arrAt w cfg0.N

def QC : PUnit × MemSt nD τ sig (Elt F) → Prop := fun r =>
  ∀ c : Dev nD, (∀ w : Fin cfg0.W, r.2.mem ((cfg0.win w).arr.view.loc (c : Thread nD τ)) = finalA vo vm vl vg kin vin m c w)
    ∧ r.2.mem ((c : Thread nD τ).loc main_arg1) = m ((c : Thread nD τ).loc main_arg1)
    ∧ r.2.mem ((c : Thread nD τ).loc main_arg2) = m ((c : Thread nD τ).loc main_arg2)

set_option maxRecDepth 8000 in
/-- At the compiled mesh of 32 devices, for any float values, from any memory with zero counters: given the body lemma,
    every weakly fair execution of the program terminates, and every final state has each device's windowed arrays at
    what the pipeline computes from the body's results and its key and value arrays as they were. -/
theorem run_main (hsb : SoundBody vo vm vl vg kin vin m) :
    θ_run defs (onTc (τ := τ) (main (F := F))) (s₀ m ρ) (QC vo vm vl vg kin vin m) :=
  Pipeline.θ_run_region_owing_glob_pf (fun p => (cfgs p).toPCfg) (fun p => (cfgs p).toPCfg_adm) (dats vo vm vl vg kin vin m) () cellOf_inj (0 : Fin 1)
    winFacts0.to₀ ownSemFacts (Pipeline.PreFacts.none _) EP defs₀ 𝒱₀ m ρ main
    (hmain := fun c => (main_chain c).trans rfl)
    (hbody := body_obligation vo vm vl vg kin vin m hsb) (hne := block_pos0) (harr := arr_whole0) (hstage := stage_whole0)
    (hshare := share_eq vo vm vl vg kin vin m)
    (hdistinct := winFacts0.arr_inj)
    (O₀ := owedAfter 0) (howed₀ := fun _ => rfl) (howedN := fun _ => rfl)
    (L := L) (lv := lv) (hL := L_of_ne) (hwaits := waits vo vm vl vg kin vin m)
    (G := dealt vo vm vl vg kin vin m) (G' := dealt' vo vm vl vg kin vin m) (u₀ := u₀)
    (hu₀ := by
      unfold u₀
      iintro Hu
      ihave H := (ownU_pair _ _) $$ Hu
      icases H with ⟨HP, HX⟩
      imod (fund_gen (Rd vo vm vl vg kin vin m) tk tk_injective) $$ HX with HG
      imodintro
      isplitl [HP] <;> iassumption)
    (hglob := glob vo vm vl vg kin vin m)
    (hA := fun _ _ => rfl) (hpf := fun _ k => k.elim0)
    (X := startX vo vm vl vg kin vin m) (Y := kvPts m) (Z := fun _ => iprop(emp))
    (hX := start_intro vo vm vl vg kin vin m ρ) (hin := phi0_intro vo vm vl vg kin vin m) (hout := phi1_exit vo vm vl vg kin vin m)
    (QY := fun c s => s.mem ((c : Thread nD τ).loc main_arg1) = m ((c : Thread nD τ).loc main_arg1)
        ∧ s.mem ((c : Thread nD τ).loc main_arg2) = m ((c : Thread nD τ).loc main_arg2))
    (hY := fun c s' => kv_read m c _ s')
    (hQ := fun _ h c => ⟨(h c).1, (h c).2.2⟩)

/-- The query array after the run holds what it held. -/
theorem finalA_q (c : Dev nD) : finalA vo vm vl vg kin vin m c (0 : Fin 2) = m (win0_0.arr.view.loc (c : Thread nD τ)) :=
  (dats (F := F) vo vm vl vg kin vin m 0 c).arrAt_in (0 : Fin 2) rfl _

omit [FloatOps F] in
/-- The result window is written back at the one point. -/
theorem flush_out : (cfg0.win (1 : Fin 2)).flush t₀ = true := by decide

/-- The result array after the run holds what the body left in its staging buffer: the gathered result of the device's
    position along z. -/
theorem finalA_out (c : Dev nD) : finalA vo vm vl vg kin vin m c (1 : Fin 2) = outAt vg c := by
  unfold finalA
  have h := (dats (F := F) vo vm vl vg kin vin m 0 c).arrAt_succ (1 : Fin 2) t₀
  rw [flush_out, if_pos rfl] at h
  refine h.trans ?_
  exact Memref.write_access_unit_zero_univ (Elt F) main_v1 (funext fun a => by fin_cases a <;> rfl) _ _ _

/-- The run with its values: every device's result array ends holding the gathered result of its position along z, and
    its three argument arrays end as they were. -/
theorem run_value (hsb : SoundBody vo vm vl vg kin vin m) :
    θ_run defs (onTc (τ := τ) (main (F := F))) (s₀ m ρ) (fun r => ∀ c : Dev nD,
      r.2.mem ((c : Thread nD τ).loc main_v1) = outAt vg c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨((h c).1 (1 : Fin 2)).trans (finalA_out vo vm vl vg kin vin m c),
      ((h c).1 (0 : Fin 2)).trans (finalA_q vo vm vl vg kin vin m c), (h c).2.1, (h c).2.2⟩) (run_main vo vm vl vg kin vin m ρ hsb)

end Launch

/-- info: 'Cert.KernelIdeal.FD.run_value' depends on axioms: [propext, Classical.choice, Quot.sound] -/
#guard_msgs in #print axioms run_value

end Cert.KernelIdeal.FD

end
-- ==== Proof.MeshIdealW.lean ====
/-
  The geometry of the 2 x 4 x 4 mesh as the kernel uses it. A device's id is 16 x + 4 y + z. A device serves the
  batch row r = 4 x + y; the four devices that differ only in z share a row and form a ring along z; the devices
  that differ in one bit of r (y xor 1, y xor 2, x xor 1) at the same z are the three partners of the recursive
  doubling that gathers the eight rows. Every fact here is a finite check over the 32 devices.
-/
import proofs.«900429_g7700000000000430_dist_flashdec_v7x_xyz2x4x4_z_b8_sq8_skv1024_h16_d128_f32_1_alg».proof.Proof.Gen.Kernel

namespace Cert.Kernel.Mesh

open Cert.Kernel Cert.Kernel.Gen Idealize.ShloMosaic

/-- The next device along z (the one a device sends to in the ring). -/
def zr (c : Dev nD) : Dev nD := ⟨16 * (c.val / 16) + 4 * ((c.val / 4) % 4) + ((c.val % 4) + 1) % 4, by have h : c.val < 32 := c.isLt; show _ < 32; omega⟩
/-- The previous device along z (the one a device receives from in the ring). -/
def zl (c : Dev nD) : Dev nD := ⟨16 * (c.val / 16) + 4 * ((c.val / 4) % 4) + ((c.val % 4) + 3) % 4, by have h : c.val < 32 := c.isLt; show _ < 32; omega⟩
/-- The partner across bit 0 of the row (y xor 1), bit 1 (y xor 2), bit 2 (x xor 1). -/
def p0 (c : Dev nD) : Dev nD := ⟨c.val ^^^ 4, by revert c; decide⟩
def p1 (c : Dev nD) : Dev nD := ⟨c.val ^^^ 8, by revert c; decide⟩
def p2 (c : Dev nD) : Dev nD := ⟨c.val ^^^ 16, by revert c; decide⟩

/-- The batch row a device serves. -/
def row (c : Dev nD) : Nat := 4 * (c.val / 16) + (c.val / 4) % 4

theorem row_lt (c : Dev nD) : row c < 8 := by have h : c.val < 32 := c.isLt; unfold row; omega

theorem zl_zr (c : Dev nD) : zl (zr c) = c := by revert c; decide
theorem zr_zl (c : Dev nD) : zr (zl c) = c := by revert c; decide
theorem p0_p0 (c : Dev nD) : p0 (p0 c) = c := by revert c; decide
theorem p1_p1 (c : Dev nD) : p1 (p1 c) = c := by revert c; decide
theorem p2_p2 (c : Dev nD) : p2 (p2 c) = c := by revert c; decide

/-- The five neighbours of a device are five different devices, none of them the device itself. -/
theorem nbrs_distinct (c : Dev nD) :
    [zl c, zr c, p0 c, p1 c, p2 c, c].Nodup := by revert c; decide

theorem row_zr (c : Dev nD) : row (zr c) = row c := by revert c; decide
theorem row_zl (c : Dev nD) : row (zl c) = row c := by revert c; decide
theorem row_p0 (c : Dev nD) : row (p0 c) = row c ^^^ 1 := by revert c; decide
theorem row_p1 (c : Dev nD) : row (p1 c) = row c ^^^ 2 := by revert c; decide
theorem row_p2 (c : Dev nD) : row (p2 c) = row c ^^^ 4 := by revert c; decide

/-! The device ids the body computes, in program order: the five barrier signals (previous and next along z, the three
    partners), the nine ring transfers (all to the next along z), the three gathering transfers (to the partners). -/
theorem dev1_eq (c : Dev nD) : (⟨k0_dev1 c, k0_dev1_lt c⟩ : Dev nD) = zl c := Fin.ext (k0_dev1_eq c)
theorem dev2_eq (c : Dev nD) : (⟨k0_dev2 c, k0_dev2_lt c⟩ : Dev nD) = zr c := Fin.ext (k0_dev2_eq c)
theorem dev3_eq : ∀ c : Dev nD, (⟨k0_dev3 c, k0_dev3_lt c⟩ : Dev nD) = p0 c := by decide +kernel
theorem dev4_eq : ∀ c : Dev nD, (⟨k0_dev4 c, k0_dev4_lt c⟩ : Dev nD) = p1 c := by decide +kernel
theorem dev5_eq : ∀ c : Dev nD, (⟨k0_dev5 c, k0_dev5_lt c⟩ : Dev nD) = p2 c := by decide +kernel
theorem dev6_eq (c : Dev nD) : (⟨k0_dev6 c, k0_dev6_lt c⟩ : Dev nD) = zr c := Fin.ext (k0_dev6_eq c)
theorem dev7_eq (c : Dev nD) : (⟨k0_dev7 c, k0_dev7_lt c⟩ : Dev nD) = zr c := Fin.ext (k0_dev7_eq c)
theorem dev8_eq (c : Dev nD) : (⟨k0_dev8 c, k0_dev8_lt c⟩ : Dev nD) = zr c := Fin.ext (k0_dev8_eq c)
theorem dev9_eq (c : Dev nD) : (⟨k0_dev9 c, k0_dev9_lt c⟩ : Dev nD) = zr c := Fin.ext (k0_dev9_eq c)
theorem dev10_eq (c : Dev nD) : (⟨k0_dev10 c, k0_dev10_lt c⟩ : Dev nD) = zr c := Fin.ext (k0_dev10_eq c)
theorem dev11_eq (c : Dev nD) : (⟨k0_dev11 c, k0_dev11_lt c⟩ : Dev nD) = zr c := Fin.ext (k0_dev11_eq c)
theorem dev12_eq (c : Dev nD) : (⟨k0_dev12 c, k0_dev12_lt c⟩ : Dev nD) = zr c := Fin.ext (k0_dev12_eq c)
theorem dev13_eq (c : Dev nD) : (⟨k0_dev13 c, k0_dev13_lt c⟩ : Dev nD) = zr c := Fin.ext (k0_dev13_eq c)
theorem dev14_eq (c : Dev nD) : (⟨k0_dev14 c, k0_dev14_lt c⟩ : Dev nD) = zr c := Fin.ext (k0_dev14_eq c)
theorem dev15_eq : ∀ c : Dev nD, (⟨k0_dev15 c, k0_dev15_lt c⟩ : Dev nD) = p0 c := by decide +kernel
theorem dev16_eq : ∀ c : Dev nD, (⟨k0_dev16 c, k0_dev16_lt c⟩ : Dev nD) = p1 c := by decide +kernel
theorem dev17_eq : ∀ c : Dev nD, (⟨k0_dev17 c, k0_dev17_lt c⟩ : Dev nD) = p2 c := by decide +kernel

/-! The row offsets of the result buffer the body computes: the device's own row, and the aligned pair and quadruple of
    rows that contain it. -/
theorem off18_eq' (c : Dev nD) : k0_off18 c = ![row c, 0, 0, 0] := k0_off18_eq c
theorem off19_eq' (c : Dev nD) : k0_off19 c = ![row c, 0, 0, 0] := k0_off19_eq c
theorem off20_eq : ∀ c : Dev nD, k0_off20 c = ![row c / 2 * 2, 0, 0, 0] := by decide +kernel
theorem off21_eq : ∀ c : Dev nD, k0_off21 c = ![row c / 4 * 4, 0, 0, 0] := by decide +kernel

end Cert.Kernel.Mesh
-- ==== Proof.ProtoW.lean ====
/-
  The protocol of the distributed decode step, as ghost state. Each device holds three scratch buffers of four slots
  (the partial sums o, the row maxima m and the row sums l of its own key block in slot 0; slots 1..3 are written by
  the previous device along z, hop after hop), the result's staging buffer of eight rows (its own row written by
  itself, the other seven by its three partners, 1 + 2 + 4), and twenty-six semaphores of its own beside the runtime's
  barrier semaphore. This module names the buffers, their slots and rows, the semaphore cells, and what every unit
  that lands on a cell hands to the device that waits on it.
-/
import proofs.«900429_g7700000000000430_dist_flashdec_v7x_xyz2x4x4_z_b8_sq8_skv1024_h16_d128_f32_1_alg».proof.Proof.MeshIdealW
import proofs.«900429_g7700000000000430_dist_flashdec_v7x_xyz2x4x4_z_b8_sq8_skv1024_h16_d128_f32_1_alg».proof.Proof.Gen.Kernel.Skeleton
import proofs.«900429_g7700000000000430_dist_flashdec_v7x_xyz2x4x4_z_b8_sq8_skv1024_h16_d128_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.FD

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) beside the protocol's (duties `Fin 5`: a
    barrier cell is paid by five neighbours; every other cell has the one duty `0`) -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The buffers -/

abbrev qM : Memref sig .tc .vmem S8x8x16x128 .f32 := Memref.whole cc0_stg0_0
abbrev outM : Memref sig .tc .vmem S8x8x16x128 .f32 := Memref.whole cc0_stg1_0
abbrev kM : Memref sig .tc .vmem S1024x16x128 .f32 := Memref.whole cc0_scratch0
abbrev vM : Memref sig .tc .vmem S1024x16x128 .f32 := Memref.whole cc0_scratch1
abbrev coM : Memref sig .tc .vmem S4x8x16x128 .f32 := Memref.whole cc0_scratch2
abbrev cmM : Memref sig .tc .vmem S4x8x16x1 .f32 := Memref.whole cc0_scratch3
abbrev clM : Memref sig .tc .vmem S4x8x16x1 .f32 := Memref.whole cc0_scratch4
abbrev kHbm : Memref sig .tc .hbm S8x1024x16x128 .f32 := Memref.whole main_arg1
abbrev vHbm : Memref sig .tc .hbm S8x1024x16x128 .f32 := Memref.whole main_arg2

/-- The row of keys (values) device `d` copies into its scratch buffer: row `r(d)` of its block of the key array, as the
    body slices it. -/
abbrev kSrc (d : Dev nD) : Memref sig .tc .hbm S1024x16x128 .f32 :=
  (kHbm.slice (Rect.unit (s := S8x1024x16x128) (k0_off1 d) S1x1024x16x128.size (k0_off1_inb d)) (fun _ => rfl)).squeeze S1024x16x128 squeezes_S1x1024x16x128_S1024x16x128
abbrev vSrc (d : Dev nD) : Memref sig .tc .hbm S1024x16x128 .f32 :=
  (vHbm.slice (Rect.unit (s := S8x1024x16x128) (k0_off1 d) S1x1024x16x128.size (k0_off1_inb d)) (fun _ => rfl)).squeeze S1024x16x128 squeezes_S1x1024x16x128_S1024x16x128

/-- Slot `j` of the partial-sum buffer, as the body slices it: an [8,16,128] view of the [4,8,16,128] buffer. -/
abbrev oSlot : Fin 4 → Memref sig .tc .vmem S8x16x128 .f32
  | 0 => (coM.slice (Rect.unit (s := S4x8x16x128) ![0, 0, 0, 0] S1x8x16x128.size inb_S4x8x16x128_S1x8x16x128_0_0_0_0) (fun _ => rfl)).squeeze S8x16x128 squeezes_S1x8x16x128_S8x16x128
  | 1 => (coM.slice (Rect.unit (s := S4x8x16x128) ![1, 0, 0, 0] S1x8x16x128.size inb_S4x8x16x128_S1x8x16x128_1_0_0_0) (fun _ => rfl)).squeeze S8x16x128 squeezes_S1x8x16x128_S8x16x128
  | 2 => (coM.slice (Rect.unit (s := S4x8x16x128) ![2, 0, 0, 0] S1x8x16x128.size inb_S4x8x16x128_S1x8x16x128_2_0_0_0) (fun _ => rfl)).squeeze S8x16x128 squeezes_S1x8x16x128_S8x16x128
  | 3 => (coM.slice (Rect.unit (s := S4x8x16x128) ![3, 0, 0, 0] S1x8x16x128.size inb_S4x8x16x128_S1x8x16x128_3_0_0_0) (fun _ => rfl)).squeeze S8x16x128 squeezes_S1x8x16x128_S8x16x128

/-- Slot `j` of a column buffer (the maxima `cmM` or the sums `clM`): an [8,16,1] view of a [4,8,16,1] buffer. -/
abbrev cSlot (M : Memref sig .tc .vmem S4x8x16x1 .f32) : Fin 4 → Memref sig .tc .vmem S8x16x1 .f32
  | 0 => (M.slice (Rect.unit (s := S4x8x16x1) ![0, 0, 0, 0] S1x8x16x1.size inb_S4x8x16x1_S1x8x16x1_0_0_0_0) (fun _ => rfl)).squeeze S8x16x1 squeezes_S1x8x16x1_S8x16x1
  | 1 => (M.slice (Rect.unit (s := S4x8x16x1) ![1, 0, 0, 0] S1x8x16x1.size inb_S4x8x16x1_S1x8x16x1_1_0_0_0) (fun _ => rfl)).squeeze S8x16x1 squeezes_S1x8x16x1_S8x16x1
  | 2 => (M.slice (Rect.unit (s := S4x8x16x1) ![2, 0, 0, 0] S1x8x16x1.size inb_S4x8x16x1_S1x8x16x1_2_0_0_0) (fun _ => rfl)).squeeze S8x16x1 squeezes_S1x8x16x1_S8x16x1
  | 3 => (M.slice (Rect.unit (s := S4x8x16x1) ![3, 0, 0, 0] S1x8x16x1.size inb_S4x8x16x1_S1x8x16x1_3_0_0_0) (fun _ => rfl)).squeeze S8x16x1 squeezes_S1x8x16x1_S8x16x1

/-- The rows of the result's staging buffer a device of row `r(d)` sends at the three exchanges: its own row, its
    aligned pair, its aligned quadruple — spelt through the body's own offset functions at the SENDING device `d`. -/
abbrev row1 (d : Dev nD) : Memref sig .tc .vmem S1x8x16x128 .f32 :=
  outM.slice (Rect.unit (s := S8x8x16x128) (k0_off19 d) S1x8x16x128.size (k0_off19_inb d)) (fun _ => rfl)
abbrev row2 (d : Dev nD) : Memref sig .tc .vmem S2x8x16x128 .f32 :=
  outM.slice (Rect.unit (s := S8x8x16x128) (k0_off20 d) S2x8x16x128.size (k0_off20_inb d)) (fun _ => rfl)
abbrev row4 (d : Dev nD) : Memref sig .tc .vmem S4x8x16x128 .f32 :=
  outM.slice (Rect.unit (s := S8x8x16x128) (k0_off21 d) S4x8x16x128.size (k0_off21_inb d)) (fun _ => rfl)

/-! ## The semaphores -/

/-- Entry `h` of a three-semaphore array, as the body slices it. -/
abbrev sem3 (A : DmaSems sig S3) : Fin 3 → DmaSem sig
  | 0 => ((A.slice (Rect.unit (s := S3) ![0] S1.size inb_S3_S1_0)).squeeze S_ squeezes_S1_S_).sem
  | 1 => ((A.slice (Rect.unit (s := S3) ![1] S1.size inb_S3_S1_1)).squeeze S_ squeezes_S1_S_).sem
  | 2 => ((A.slice (Rect.unit (s := S3) ![2] S1.size inb_S3_S1_2)).squeeze S_ squeezes_S1_S_).sem
abbrev sem2 (A : DmaSems sig S2) : Fin 2 → DmaSem sig
  | 0 => ((A.slice (Rect.unit (s := S2) ![0] S1.size inb_S2_S1_0)).squeeze S_ squeezes_S1_S_).sem
  | 1 => ((A.slice (Rect.unit (s := S2) ![1] S1.size inb_S2_S1_1)).squeeze S_ squeezes_S1_S_).sem

/-- The runtime's barrier semaphore of collective id 0. -/
abbrev barS : Sem sig := (SemArray.scalar (sig.barrier 0 rfl) : Sems sig S_).sem

/-- The ring's send and receive semaphore arrays of buffer kind `b` (0: partial sums, 1: maxima, 2: row sums). -/
abbrev sendArr : Fin 3 → DmaSems sig S3 | 0 => cc0_scratch6 | 1 => cc0_scratch8 | 2 => cc0_scratch10
abbrev recvArr : Fin 3 → DmaSems sig S3 | 0 => cc0_scratch7 | 1 => cc0_scratch9 | 2 => cc0_scratch11

abbrev barCell (c : Dev nD) : GSem nD τ sig := ((c : Thread nD τ), .reg barS)
abbrev loadCell (c : Dev nD) (i : Fin 2) : GSem nD τ sig := ((c : Thread nD τ), .dma (sem2 cc0_scratch5 i))
abbrev rsendCell (c : Dev nD) (b h : Fin 3) : GSem nD τ sig := ((c : Thread nD τ), .dma (sem3 (sendArr b) h))
abbrev rrecvCell (c : Dev nD) (b h : Fin 3) : GSem nD τ sig := ((c : Thread nD τ), .dma (sem3 (recvArr b) h))
abbrev gsendCell (c : Dev nD) (st : Fin 3) : GSem nD τ sig := ((c : Thread nD τ), .dma (sem3 cc0_scratch12 st))
abbrev grecvCell (c : Dev nD) (st : Fin 3) : GSem nD τ sig := ((c : Thread nD τ), .dma (sem3 cc0_scratch13 st))

/-- The semaphores are where the launch laid them out: the two loads at 2 and 3, the ring's arrays from 4, the
    exchanges' from 22. -/
theorem sem2_val (i : Fin 2) : (sem2 cc0_scratch5 i).val = 2 + i.val := by fin_cases i <;> rfl
theorem rsend_val (b h : Fin 3) : (sem3 (sendArr b) h).val = 4 + 6 * b.val + h.val := by fin_cases b <;> fin_cases h <;> rfl
theorem rrecv_val (b h : Fin 3) : (sem3 (recvArr b) h).val = 7 + 6 * b.val + h.val := by fin_cases b <;> fin_cases h <;> rfl
theorem gsend_val (st : Fin 3) : (sem3 cc0_scratch12 st).val = 22 + st.val := by fin_cases st <;> rfl
theorem grecv_val (st : Fin 3) : (sem3 cc0_scratch13 st).val = 25 + st.val := by fin_cases st <;> rfl

/-! ## What the buffers hold -/

/-- The view `M` of a buffer of device `c` is owned outright and reads `X`. -/
def holds (c : Dev nD) {S : Shape} (M : Memref sig .tc .vmem S .f32) (X : S.Idx → Elt F .f32) : sProp 𝕄 :=
  iprop(∃ f : Buf (Elt F) (M.view.loc (c : Thread nD τ)),
    (M.view.loc (c : Thread nD τ) ↦[M.view.set]{fullShare} f) ∗ ⌜M.view.read (Elt F) f = X⌝)
/-- The view `M` of a buffer of device `c` is owned outright, at whatever it holds. -/
def owned (c : Dev nD) {S : Shape} (M : Memref sig .tc .vmem S .f32) : sProp 𝕄 :=
  iprop(∃ f : Buf (Elt F) (M.view.loc (c : Thread nD τ)), (M.view.loc (c : Thread nD τ) ↦[M.view.set]{fullShare} f))

omit [FloatOps F] in
instance holds_storable (c : Dev nD) {S : Shape} (M : Memref sig .tc .vmem S .f32) (X : S.Idx → Elt F .f32) :
    BI.Storable (upEmb : UEmb _ 𝕄) (holds c M X) := by unfold holds; infer_instance
omit [FloatOps F] in
instance owned_storable (c : Dev nD) {S : Shape} (M : Memref sig .tc .vmem S .f32) :
    BI.Storable (upEmb : UEmb _ 𝕄) (owned (F := F) c M) := by unfold owned; infer_instance

/-- The `j`-th device before `c` along z. -/
def back : ℕ → Dev nD → Dev nD
  | 0, c => c
  | j + 1, c => back j (zl c)

theorem back_succ (j : ℕ) (c : Dev nD) : back (j + 1) c = back j (zl c) := rfl

/-- The exchanges stay in a device's z-plane. -/
theorem z_p0 (c : Dev nD) : (p0 c).val % 4 = c.val % 4 := by revert c; decide
theorem z_p1 (c : Dev nD) : (p1 c).val % 4 = c.val % 4 := by revert c; decide
theorem z_p2 (c : Dev nD) : (p2 c).val % 4 = c.val % 4 := by revert c; decide

/-! ## The schedule -/

section Schedule

-- The values are parameters of the protocol: the three partial results each device computes from its own key block
-- (vo d, vm d, vl d: what its slot 0 holds when the ring starts) and, per z-plane, the gathered result (vg z).
variable (vo : Dev nD → S8x16x128.Idx → Elt F .f32) (vm vl : Dev nD → S8x16x1.Idx → Elt F .f32)
variable (vg : ℕ → S8x8x16x128.Idx → Elt F .f32)
variable (kin vin : Dev nD → S1024x16x128.Idx → Elt F .f32)
variable (m : (ℓ : Loc nD τ sig) → Buf (Elt F) ℓ)

/-- Slot `j` of the three ring buffers of `c` holds the partial results of the `j`-th device before `c`. -/
def slotHolds (c : Dev nD) (b : Fin 3) (j : Fin 4) : sProp 𝕄 :=
  match b with
  | 0 => holds c (oSlot j) (vo (back j.val c))
  | 1 => holds c (cSlot cmM j) (vm (back j.val c))
  | 2 => holds c (cSlot clM j) (vl (back j.val c))
def slotOwned (c : Dev nD) (b : Fin 3) (j : Fin 4) : sProp 𝕄 :=
  match b with
  | 0 => owned c (oSlot j)
  | 1 => owned c (cSlot cmM j)
  | 2 => owned c (cSlot clM j)

/-- The rows device `d` sends at exchange `st`, as a part of device `c`'s result buffer, hold the gathered result's. -/
def rowsHold (c d : Dev nD) (st : Fin 3) : sProp 𝕄 :=
  match st with
  | 0 => holds c (row1 d) ((row1 d).view.read (Elt F) (vg (c.val % 4)))
  | 1 => holds c (row2 d) ((row2 d).view.read (Elt F) (vg (c.val % 4)))
  | 2 => holds c (row4 d) ((row4 d).view.read (Elt F) (vg (c.val % 4)))
def rowsOwned (c d : Dev nD) (st : Fin 3) : sProp 𝕄 :=
  match st with
  | 0 => owned c (row1 d)
  | 1 => owned c (row2 d)
  | 2 => owned c (row4 d)

/-- The partner of exchange `st`. -/
def partner (st : Fin 3) (c : Dev nD) : Dev nD := match st with | 0 => p0 c | 1 => p1 c | 2 => p2 c

/-- What the five neighbours' barrier signals hand device `c`. Duty 0 is paid by the NEXT device along z (its first
    signal, to its previous one): its slots 1, 2, 3 of the three ring buffers, which `c` will write hop after hop, and
    that it stands at round 0 of its nine ring receive cells. Duty 1, by the previous device, hands nothing. Duties 2,
    3, 4 are paid by the partners: the rows of the partner's result buffer that `c` will write at that exchange, and
    that the partner stands at round 0 of that exchange's receive cell. -/
def barPay (c : Dev nD) (d : Fin 5) : sProp 𝕄 :=
  match d with
  | 0 => iprop((bigSep Finset.univ fun b : Fin 3 => bigSep Finset.univ fun h : Fin 3 => slotOwned (zr c) b h.succ)
        ∗ bigSep Finset.univ fun b : Fin 3 => bigSep Finset.univ fun h : Fin 3 => reached ER (rrecvCell (zr c) b h) 0)
  | 1 => iprop(emp)
  | 2 => iprop(rowsOwned (p0 c) c 0 ∗ reached ER (grecvCell (p0 c) 0) 0)
  | 3 => iprop(rowsOwned (p1 c) c 1 ∗ reached ER (grecvCell (p1 c) 1) 0)
  | 4 => iprop(rowsOwned (p2 c) c 2 ∗ reached ER (grecvCell (p2 c) 2) 0)

/-- The units a whole-view transfer of each kind puts on its cells. -/
def Nkv : ℕ := (kM : Memref sig .tc .vmem S1024x16x128 .f32).view.dmaCredit
theorem Nkv_eq : Nkv = (kM : Memref sig .tc .vmem S1024x16x128 .f32).view.dmaCredit := rfl
abbrev Nring (b : Fin 3) : ℕ := match b with
  | 0 => (oSlot 0).view.dmaCredit | 1 => (cSlot cmM 0).view.dmaCredit | 2 => (cSlot clM 0).view.dmaCredit
abbrev Nrows (d : Dev nD) (st : Fin 3) : ℕ := match st with
  | 0 => (row1 d).view.dmaCredit | 1 => (row2 d).view.dmaCredit | 2 => (row4 d).view.dmaCredit

/-- A DMA semaphore of the kernel's own, decoded: the two loads, the ring's send and receive cells by buffer kind and
    hop, the exchanges' by stage. -/
inductive Kind where
  | load (i : Fin 2) | rsend (b h : Fin 3) | rrecv (b h : Fin 3) | gsend (st : Fin 3) | grecv (st : Fin 3) | other
deriving DecidableEq

def kindOf (q : DmaSem sig) : Kind :=
  if q.val = 2 then .load 0 else if q.val = 3 then .load 1
  else if h : 4 ≤ q.val ∧ q.val < 22 then
    (if ((q.val - 4) / 3) % 2 = 0 then .rsend ⟨(q.val - 4) / 6, by omega⟩ ⟨(q.val - 4) % 3, by omega⟩
     else .rrecv ⟨(q.val - 4) / 6, by omega⟩ ⟨(q.val - 4) % 3, by omega⟩)
  else if h : 22 ≤ q.val ∧ q.val < 25 then .gsend ⟨q.val - 22, by omega⟩
  else if h : 25 ≤ q.val ∧ q.val < 28 then .grecv ⟨q.val - 25, by omega⟩
  else .other

theorem kind_load (i : Fin 2) : kindOf (sem2 cc0_scratch5 i) = .load i := by fin_cases i <;> rfl
theorem kind_rsend (b h : Fin 3) : kindOf (sem3 (sendArr b) h) = .rsend b h := by fin_cases b <;> fin_cases h <;> rfl
theorem kind_rrecv (b h : Fin 3) : kindOf (sem3 (recvArr b) h) = .rrecv b h := by fin_cases b <;> fin_cases h <;> rfl
theorem kind_gsend (st : Fin 3) : kindOf (sem3 cc0_scratch12 st) = .gsend st := by fin_cases st <;> rfl
theorem kind_grecv (st : Fin 3) : kindOf (sem3 cc0_scratch13 st) = .grecv st := by fin_cases st <;> rfl

/-- The row of the key (value) array device `c` copies from, owned outright at its launch contents `m`. -/
def hbmRow (c : Dev nD) (i : Fin 2) : sProp 𝕄 :=
  match i with
  | 0 => iprop((kSrc c).view.loc (c : Thread nD τ) ↦[(kSrc c).view.set]{fullShare} m ((kSrc c).view.loc (c : Thread nD τ)))
  | 1 => iprop((vSrc c).view.loc (c : Thread nD τ) ↦[(vSrc c).view.set]{fullShare} m ((vSrc c).view.loc (c : Thread nD τ)))

/-- What a landing on one of `c`'s own DMA cells hands `c`. A load (with the source row of the array, lent to the copy, back): the scratch buffer holding the row's keys (values).
    A ring send cell of hop `h`: its slot `h` back, as it was. A ring receive cell of hop `h`: its slot `h + 1` holding the
    previous device's slot `h`. An exchange's send cell: its rows back; its receive cell: the partner's rows. -/
def dmaPay (c : Dev nD) (k : Kind) : sProp 𝕄 :=
  match k with
  | .load 0 => iprop(holds c kM (kin c) ∗ hbmRow m c 0)
  | .load 1 => iprop(holds c vM (vin c) ∗ hbmRow m c 1)
  | .rsend b h => slotHolds vo vm vl c b h.castSucc
  | .rrecv b h => slotHolds vo vm vl c b h.succ
  | .gsend st => rowsHold vg c c st
  | .grecv st => rowsHold vg c (partner st c) st
  | .other => iprop(emp)

def dmaAmt (c : Dev nD) (k : Kind) : ℕ :=
  match k with
  | .load _ => Nkv
  | .rsend b _ => Nring b
  | .rrecv b _ => Nring b
  | .gsend st => Nrows c st
  | .grecv st => Nrows (partner st c) st
  | .other => 1

abbrev IsBar (g : GSem nD τ sig) : Prop := g.1.2 = .tc ∧ g.2 = .reg barS
def isOwnDma (g : GSem nD τ sig) : Bool :=
  match g.1.2, g.2 with
  | .tc, .dma q => decide (kindOf q ≠ .other)
  | _, _ => false
def kindAt (g : GSem nD τ sig) : Kind := match g.2 with | .dma q => kindOf q | _ => .other

end Schedule

section Rd

variable (vo : Dev nD → S8x16x128.Idx → Elt F .f32) (vm vl : Dev nD → S8x16x1.Idx → Elt F .f32)
variable (vg : ℕ → S8x8x16x128.Idx → Elt F .f32)
variable (kin vin : Dev nD → S1024x16x128.Idx → Elt F .f32)
variable (m : (ℓ : Loc nD τ sig) → Buf (Elt F) ℓ)

omit [FloatOps F] in
theorem numel_kv : 0 < S1024x16x128.numel := by decide
omit [FloatOps F] in
theorem numel_o : 0 < S8x16x128.numel := by decide
omit [FloatOps F] in
theorem numel_c : 0 < S8x16x1.numel := by decide
omit [FloatOps F] in
theorem numel_r1 : 0 < S1x8x16x128.numel := by decide
omit [FloatOps F] in
theorem numel_r2 : 0 < S2x8x16x128.numel := by decide
omit [FloatOps F] in
theorem numel_r4 : 0 < S4x8x16x128.numel := by decide

omit [FloatOps F] in
theorem Nkv_pos : 0 < Nkv := by rw [Nkv_eq]; exact View.dmaCredit_pos (kM : Memref sig .tc .vmem S1024x16x128 .f32).view numel_kv
omit [FloatOps F] in
theorem Nring_pos : ∀ b : Fin 3, 0 < Nring b
  | 0 => View.dmaCredit_pos (oSlot 0).view numel_o
  | 1 => View.dmaCredit_pos (cSlot cmM 0).view numel_c
  | 2 => View.dmaCredit_pos (cSlot clM 0).view numel_c
omit [FloatOps F] in
theorem Nrows_pos (d : Dev nD) : ∀ st : Fin 3, 0 < Nrows d st
  | 0 => View.dmaCredit_pos (row1 d).view numel_r1
  | 1 => View.dmaCredit_pos (row2 d).view numel_r2
  | 2 => View.dmaCredit_pos (row4 d).view numel_r4

omit [FloatOps F] in
theorem dmaAmt_pos (c : Dev nD) (k : Kind) : 0 < dmaAmt c k := by
  cases k with
  | load i => unfold dmaAmt; exact Nkv_pos
  | rsend b h => unfold dmaAmt; exact Nring_pos b
  | rrecv b h => unfold dmaAmt; exact Nring_pos b
  | gsend st => unfold dmaAmt; exact Nrows_pos c st
  | grecv st => unfold dmaAmt; exact Nrows_pos (partner st c) st
  | other => unfold dmaAmt; exact Nat.one_pos

/-- One round. A barrier cell has five unit duties, one per neighbour; each of the kernel's own DMA cells one duty of
    its transfer's credit. -/
def Rd : Rounds.Schedule (GSem nD τ sig) (Fin 5) 𝕄 where
  duties g r := if r = 0 ∧ IsBar g then Finset.univ else if r = 0 ∧ isOwnDma g = true then {0} else ∅
  unitless _ := False
  amount g _ _ := if g.2 = .reg barS then 1 else dmaAmt g.1.1 (kindAt g)
  payload g _ d := if g.2 = .reg barS then barPay g.1.1 d else dmaPay vo vm vl vg kin vin m g.1.1 (kindAt g)
  amount_pos g _ _ _ := by
    by_cases h : g.2 = .reg barS
    · rw [if_pos h]; exact Nat.one_pos
    · rw [if_neg h]; exact dmaAmt_pos _ _

omit [FloatOps F] in
instance slotHolds_storable (c : Dev nD) (b : Fin 3) (j : Fin 4) : BI.Storable (upEmb : UEmb _ 𝕄) (slotHolds vo vm vl c b j) := by
  fin_cases b <;> (unfold slotHolds; infer_instance)
omit [FloatOps F] in
instance slotOwned_storable (c : Dev nD) (b : Fin 3) (j : Fin 4) : BI.Storable (upEmb : UEmb _ 𝕄) (slotOwned (F := F) c b j) := by
  fin_cases b <;> (unfold slotOwned; infer_instance)
omit [FloatOps F] in
instance rowsHold_storable (c d : Dev nD) (st : Fin 3) : BI.Storable (upEmb : UEmb _ 𝕄) (rowsHold vg c d st) := by
  fin_cases st <;> (unfold rowsHold; infer_instance)
omit [FloatOps F] in
instance rowsOwned_storable (c d : Dev nD) (st : Fin 3) : BI.Storable (upEmb : UEmb _ 𝕄) (rowsOwned (F := F) c d st) := by
  fin_cases st <;> (unfold rowsOwned; infer_instance)
omit [FloatOps F] in
instance barPay_storable (c : Dev nD) (d : Fin 5) : BI.Storable (upEmb : UEmb _ 𝕄) (barPay (F := F) c d) := by
  fin_cases d <;> (unfold barPay; infer_instance)
omit [FloatOps F] in
instance hbmRow_storable (c : Dev nD) (i : Fin 2) : BI.Storable (upEmb : UEmb _ 𝕄) (hbmRow m c i) := by
  fin_cases i <;> (unfold hbmRow; infer_instance)
omit [FloatOps F] in
instance dmaPay_storable (c : Dev nD) (k : Kind) : BI.Storable (upEmb : UEmb _ 𝕄) (dmaPay vo vm vl vg kin vin m c k) := by
  cases k with
  | load i => fin_cases i <;> (unfold dmaPay; infer_instance)
  | rsend b h => unfold dmaPay; infer_instance
  | rrecv b h => unfold dmaPay; infer_instance
  | gsend st => unfold dmaPay; infer_instance
  | grecv st => unfold dmaPay; infer_instance
  | other => unfold dmaPay; infer_instance

omit [FloatOps F] in
instance Rd_payload_storable (g : GSem nD τ sig) (r : ℕ) (d : Fin 5) :
    BI.Storable (upEmb : UEmb _ 𝕄) ((Rd vo vm vl vg kin vin m).payload g r d) := by
  show BI.Storable upEmb (if g.2 = .reg barS then barPay g.1.1 d else dmaPay vo vm vl vg kin vin m g.1.1 (kindAt g))
  split <;> infer_instance

end Rd

section Tables

variable (vo : Dev nD → S8x16x128.Idx → Elt F .f32) (vm vl : Dev nD → S8x16x1.Idx → Elt F .f32)
variable (vg : ℕ → S8x8x16x128.Idx → Elt F .f32)
variable (kin vin : Dev nD → S1024x16x128.Idx → Elt F .f32)
variable (m : (ℓ : Loc nD τ sig) → Buf (Elt F) ℓ)

local notation "RD" => Rd vo vm vl vg kin vin m

/-- A cell of the kernel's own DMA semaphores on a TensorCore thread, by its kind. -/
theorem dma_ne_bar (q : DmaSem sig) : (SemLoc.dma q : SemLoc sig) ≠ .reg barS := fun h => by cases h

omit [FloatOps F] in
theorem duties_bar (c : Dev nD) : (RD).duties (barCell c) 0 = Finset.univ := by
  dsimp only [Rd]; exact if_pos ⟨rfl, rfl, rfl⟩

omit [FloatOps F] in
theorem duties_dma (c : Dev nD) (q : DmaSem sig) (hq : kindOf q ≠ .other) :
    (RD).duties ((c : Thread nD τ), .dma q) 0 = {0} := by
  dsimp only [Rd]
  rw [if_neg (fun h => dma_ne_bar q h.2.2)]
  exact if_pos ⟨rfl, by show decide (kindOf q ≠ .other) = true; exact decide_eq_true hq⟩

omit [FloatOps F] in
theorem duties_later (g : GSem nD τ sig) : ∀ r, 1 ≤ r → (RD).duties g r = ∅ :=
  fun r hr => by dsimp only [Rd]; rw [if_neg fun h => by omega, if_neg fun h => by omega]

omit [FloatOps F] in
theorem amount_bar (c : Dev nD) (d : Fin 5) : (RD).amount (barCell c) 0 d = 1 := by dsimp only [Rd]; exact if_pos rfl
omit [FloatOps F] in
theorem amount_dma (c : Dev nD) (q : DmaSem sig) (d : Fin 5) :
    (RD).amount ((c : Thread nD τ), .dma q) 0 d = dmaAmt c (kindOf q) := by dsimp only [Rd]; exact if_neg (dma_ne_bar q)

omit [FloatOps F] in
theorem payload_bar (c : Dev nD) (d : Fin 5) : (RD).payload (barCell c) 0 d = barPay c d := by dsimp only [Rd]; exact if_pos rfl
omit [FloatOps F] in
theorem payload_dma (c : Dev nD) (q : DmaSem sig) (d : Fin 5) :
    (RD).payload ((c : Thread nD τ), .dma q) 0 d = dmaPay vo vm vl vg kin vin m c (kindOf q) := by
  dsimp only [Rd]; exact if_neg (dma_ne_bar q)

omit [FloatOps F] in
theorem expect_bar (c : Dev nD) : (RD).expect (barCell c) 0 = 5 := by
  unfold Schedule.expect Schedule.amountOf
  rw [duties_bar, Finset.sum_congr rfl fun d _ => amount_bar vo vm vl vg kin vin m c d, Finset.sum_const, Finset.card_univ, Fintype.card_fin, smul_eq_mul]

omit [FloatOps F] in
theorem expect_dma (c : Dev nD) (q : DmaSem sig) (hq : kindOf q ≠ .other) :
    (RD).expect ((c : Thread nD τ), .dma q) 0 = dmaAmt c (kindOf q) := by
  unfold Schedule.expect Schedule.amountOf
  rw [duties_dma vo vm vl vg kin vin m c q hq, Finset.sum_singleton, amount_dma]

omit [FloatOps F] in
/-- The rest of a DMA cell's round, nothing taken: its one payload. -/
theorem rest_dma (c : Dev nD) (q : DmaSem sig) (hq : kindOf q ≠ .other) :
    bigSep ((RD).duties ((c : Thread nD τ), .dma q) 0 \ ∅) (fun d => (RD).payload ((c : Thread nD τ), .dma q) 0 d)
      = dmaPay vo vm vl vg kin vin m c (kindOf q) := by
  rw [Finset.sdiff_empty, duties_dma vo vm vl vg kin vin m c q hq, bigSep_singleton, payload_dma]

omit [FloatOps F] in
/-- The rest of the barrier cell's round, nothing taken: the five neighbours' payloads, in the order of the duties. -/
theorem rest_bar (c : Dev nD) :
    bigSep ((RD).duties (barCell c) 0 \ ∅) (fun d => (RD).payload (barCell c) 0 d)
      = iprop(barPay c 0 ∗ barPay c 1 ∗ barPay c 2 ∗ barPay c 3 ∗ barPay (F := F) c 4) := by
  rw [Finset.sdiff_empty, duties_bar, bigSep_univ_eq_bigSepL [0, 1, 2, 3, 4] (by decide) (by decide)]
  simp only [payload_bar]
  rfl

end Tables

/-! ## What a device owes, payment by payment, and the levels -/

/-- The seventeen payments a device makes to other devices' cells, in program order: five barrier units, the nine ring
    transfers (hop by hop; partial sums, maxima, row sums), the three row exchanges. -/
def payList (c : Dev nD) : List (GSem nD τ sig × ℕ) :=
  [(barCell (zl c), 1), (barCell (zr c), 1), (barCell (p0 c), 1), (barCell (p1 c), 1), (barCell (p2 c), 1),
   (rrecvCell (zr c) 0 0, Nring 0), (rrecvCell (zr c) 1 0, Nring 1), (rrecvCell (zr c) 2 0, Nring 2),
   (rrecvCell (zr c) 0 1, Nring 0), (rrecvCell (zr c) 1 1, Nring 1), (rrecvCell (zr c) 2 1, Nring 2),
   (rrecvCell (zr c) 0 2, Nring 0), (rrecvCell (zr c) 1 2, Nring 1), (rrecvCell (zr c) 2 2, Nring 2),
   (grecvCell (p0 c) 0, Nrows c 0), (grecvCell (p1 c) 1, Nrows c 1), (grecvCell (p2 c) 2, Nrows c 2)]

/-- What is still owed after the first `k` payments (the next payment is the LAST summand). -/
def owedAfter (k : ℕ) (c : Dev nD) : CellTallies nD τ sig Unit :=
  ((payList c).drop k).foldr (fun p acc => acc + tallyAt p.1 () p.2) 0

theorem owedAfter_all (c : Dev nD) : owedAfter 17 c = 0 := rfl

/-- Payment `k` peels the last summand. -/
theorem owedAfter_step (c : Dev nD) (k : ℕ) (hk : k < 17) :
    owedAfter k c = owedAfter (k + 1) c + tallyAt ((payList c)[k]'(by simpa [payList] using hk)).1 () ((payList c)[k]'(by simpa [payList] using hk)).2 := by
  have : k ∈ Finset.range 17 := Finset.mem_range.mpr hk
  fin_cases this <;> rfl

def L (g : GSem nD τ sig) : Finset Unit := if g.1.2 = .tc then {()} else ∅
/-- Barrier cells at 1; the ring's receive cells of hop `h` at `2 + h`; the exchanges' receive cells of stage `st` at
    `5 + st`; everything a device pays itself (staging, loads, send cells) at 0. A device never waits at a level at or
    above one it still owes. -/
def lv (g : GSem nD τ sig) (_ : Unit) : ℕ :=
  match g.2 with
  | .reg s => if s = barS then 1 else 0
  | .dma q => match kindOf q with
    | .rrecv _ h => 2 + h.val
    | .grecv st => 5 + st.val
    | _ => 0

theorem L_of_ne (g : GSem nD τ sig) (h : g.1.2 ≠ .tc) : L g = ∅ := if_neg h
theorem L_tc (c : Dev nD) (sm : SemLoc sig) : L ((c : Thread nD τ), sm) = {()} := if_pos rfl

end Cert.Kernel.FD

end
-- ==== Proof.LaunchLibW.lean ====
/-
  The 27 semaphore cells of a device as one table, and the ghost state of the protocol over it.

  Cell 0 of a device is the runtime's barrier cell; cell k + 1 is semaphore k + 2 of the pool of DMA semaphores (the two
  loads, then the ring's send and receive cells of the partial sums, the maxima and the row sums, hop by hop, then the
  send and receive cells of the three row exchanges). The shared, persistent part of the ghost state is every cell's
  invariant and the fact that round 0 of every cell is reached. What stays with one device is its position at round 0
  of each of its own 27 cells and the 31 duty tokens it pays with: one duty of the barrier cell of each of its five
  neighbours (previous and next along z, the three row partners), the one duty of each ring receive cell of the next
  device along z and of each exchange's receive cell of that exchange's partner, and the one duty of each of its own
  load and send cells.
-/
import proofs.«900429_g7700000000000430_dist_flashdec_v7x_xyz2x4x4_z_b8_sq8_skv1024_h16_d128_f32_1_alg».proof.Proof.ProtoW

noncomputable section

namespace Cert.Kernel.FD

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Iterated separating conjunctions over small index types -/

section Generic
variable {M : Type} [URA M]
theorem bigSep_fin_succ {n : ℕ} (Φ : Fin (n + 1) → sProp M) :
    bigSep Finset.univ Φ = iprop(Φ 0 ∗ bigSep Finset.univ fun k : Fin n => Φ k.succ) := by
  rw [Fin.univ_succ, Finset.cons_eq_insert, bigSep_insert (by simp [Fin.succ_ne_zero]), bigSep_map]
  rfl
/-- Five summands, one by one. -/
theorem bigSep_fin5 (Φ : Fin 5 → sProp M) : bigSep Finset.univ Φ = iprop(Φ 0 ∗ Φ 1 ∗ Φ 2 ∗ Φ 3 ∗ Φ 4) :=
  bigSep_univ_eq_bigSepL [0, 1, 2, 3, 4] (by decide) (by decide) Φ

/-- Three summands, one by one. -/
theorem bigSep_fin3 (Φ : Fin 3 → sProp M) : bigSep Finset.univ Φ = iprop(Φ 0 ∗ Φ 1 ∗ Φ 2) :=
  bigSep_univ_eq_bigSepL [0, 1, 2] (by decide) (by decide) Φ

theorem bigSep_with_persistent {I : Type} [DecidableEq I] {S : Finset I} {R : sProp M} [BI.Persistent R] {Φ Ψ : I → sProp M}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem bigSep_regroup {α β : Type} [Fintype α] [Fintype β] (e : β → α ≃ α) (Φ : α → β → sProp M) :
    (bigSep Finset.univ fun a => bigSep Finset.univ fun b => Φ a b)
      = bigSep Finset.univ fun a => bigSep Finset.univ fun b => Φ (e b a) b :=
  (bigSep_univ_prod (fun p : α × β => Φ p.1 p.2)).symm.trans
    ((bigSep_univ_equiv
        (⟨fun p => (e p.2 p.1, p.2), fun p => ((e p.2).symm p.1, p.2), fun p => by simp, fun p => by simp⟩ : α × β ≃ α × β)
        (fun p : α × β => Φ p.1 p.2)).trans
      (bigSep_univ_prod (fun p : α × β => Φ (e p.2 p.1) p.2)))
end Generic

local notation "𝕄" => MT nD τ sig Unit (Elt F) ℕ UU ℕ

/-! ## The table of cells -/

/-- The kernel's own 26 semaphores: semaphores 2 .. 27 of the pool. -/
abbrev osem : Fin 26 → SemLoc sig := fun k => .dma ⟨k.val + 2, by have := k.isLt; show _ < 28; omega⟩
abbrev csem : Fin 27 → SemLoc sig := Fin.cons (.reg barS) osem
abbrev kcell (ck : Dev nD × Fin 27) : GSem nD τ sig := ((ck.1 : Thread nD τ), csem ck.2)

theorem csem_injective : Function.Injective csem := by decide

theorem kcell_injective : Function.Injective (kcell : Dev nD × Fin 27 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The rows of the table the named cells sit in. -/
def kLoad (i : Fin 2) : Fin 27 := ⟨1 + i.val, by omega⟩
def kRsend (b h : Fin 3) : Fin 27 := ⟨3 + 6 * b.val + h.val, by omega⟩
def kRrecv (b h : Fin 3) : Fin 27 := ⟨6 + 6 * b.val + h.val, by omega⟩
def kGsend (st : Fin 3) : Fin 27 := ⟨21 + st.val, by omega⟩
def kGrecv (st : Fin 3) : Fin 27 := ⟨24 + st.val, by omega⟩

theorem barCell_eq (c : Dev nD) : barCell c = kcell (c, 0) := rfl
theorem loadCell_eq (c : Dev nD) (i : Fin 2) : loadCell c i = kcell (c, kLoad i) := by fin_cases i <;> rfl
theorem rsendCell_eq (c : Dev nD) (b h : Fin 3) : rsendCell c b h = kcell (c, kRsend b h) := by fin_cases b <;> fin_cases h <;> rfl
theorem rrecvCell_eq (c : Dev nD) (b h : Fin 3) : rrecvCell c b h = kcell (c, kRrecv b h) := by fin_cases b <;> fin_cases h <;> rfl
theorem gsendCell_eq (c : Dev nD) (st : Fin 3) : gsendCell c st = kcell (c, kGsend st) := by fin_cases st <;> rfl
theorem grecvCell_eq (c : Dev nD) (st : Fin 3) : grecvCell c st = kcell (c, kGrecv st) := by fin_cases st <;> rfl

omit [FloatOps F] in
/-- The kernel's own 26 counters at zero, one by one in the order of the semaphore pool. -/
theorem ownSems0_chain (c : Dev nD) :
    (Pipeline.ownSems0 (Ix := Unit) (Name := ℕ) (U := UU) (Lvl := ℕ) (Val := Elt F) (τ := τ) osem c : sProp 𝕄)
      = bigSepL ([0, 1, 2, 3, 4, 5, 6, 7, 8, 9, 10, 11, 12, 13, 14, 15, 16, 17, 18, 19, 20, 21, 22, 23, 24, 25] : List (Fin 26)) fun k => semVal ((c : Thread nD τ), osem k) 0 :=
  Pipeline.ownSems0_eq_of_list c osem [0, 1, 2, 3, 4, 5, 6, 7, 8, 9, 10, 11, 12, 13, 14, 15, 16, 17, 18, 19, 20, 21, 22, 23, 24, 25] (by decide) (by decide)

/-- The kernel's own 26 counters at zero. -/
def ownZero (c : Dev nD) : sProp 𝕄 :=
  Pipeline.ownSems0 (Ix := Unit) (Name := ℕ) (U := UU) (Lvl := ℕ) (Val := Elt F) (τ := τ) osem c

omit [FloatOps F] in
/-- The same, cell by cell under the cells' names, in the order of the pool. -/
theorem ownZero_open (c : Dev nD) :
    (ownZero c : sProp 𝕄)
      = iprop(semVal (loadCell c 0) 0 ∗ semVal (loadCell c 1) 0 ∗ semVal (rsendCell c 0 0) 0
      ∗ semVal (rsendCell c 0 1) 0 ∗ semVal (rsendCell c 0 2) 0 ∗ semVal (rrecvCell c 0 0) 0
      ∗ semVal (rrecvCell c 0 1) 0 ∗ semVal (rrecvCell c 0 2) 0 ∗ semVal (rsendCell c 1 0) 0
      ∗ semVal (rsendCell c 1 1) 0 ∗ semVal (rsendCell c 1 2) 0 ∗ semVal (rrecvCell c 1 0) 0
      ∗ semVal (rrecvCell c 1 1) 0 ∗ semVal (rrecvCell c 1 2) 0 ∗ semVal (rsendCell c 2 0) 0
      ∗ semVal (rsendCell c 2 1) 0 ∗ semVal (rsendCell c 2 2) 0 ∗ semVal (rrecvCell c 2 0) 0
      ∗ semVal (rrecvCell c 2 1) 0 ∗ semVal (rrecvCell c 2 2) 0 ∗ semVal (gsendCell c 0) 0
      ∗ semVal (gsendCell c 1) 0 ∗ semVal (gsendCell c 2) 0 ∗ semVal (grecvCell c 0) 0
      ∗ semVal (grecvCell c 1) 0 ∗ semVal (grecvCell c 2) 0) := by
  unfold ownZero; rw [ownSems0_chain]; rfl

/-! ## The shared records -/

section Records

variable (Rd : Rounds.Schedule (GSem nD τ sig) (Fin 5) (MT nD τ sig Unit (Elt F) ℕ UU ℕ))
  [hst : ∀ (g : GSem nD τ sig) (r : ℕ) (d : Fin 5), BI.Storable (upEmb : UEmb _ (MT nD τ sig Unit (Elt F) ℕ UU ℕ)) (Rd.payload g r d)]

/-- Every cell's invariant at the names `K`, and that round 0 of every cell is reached: persistent, shared by all devices. -/
def records (K : Dev nD × Fin 27 → ℕ) : sProp 𝕄 :=
  iprop((bigSep Finset.univ fun ck : Dev nD × Fin 27 => cellInv ER Rd (K ck) (kcell ck))
    ∗ bigSep Finset.univ fun ck : Dev nD × Fin 27 => reached ER (kcell ck) 0)

instance records_persistent (K : Dev nD × Fin 27 → ℕ) : BI.Persistent (records Rd K) := by unfold records; infer_instance

omit [FloatOps F] hst in
theorem inv_at (K : Dev nD × Fin 27 → ℕ) (ck : Dev nD × Fin 27) : records Rd K ⊢ cellInv ER Rd (K ck) (kcell ck) :=
  (show records Rd K ⊢ (bigSep Finset.univ fun ck : Dev nD × Fin 27 => (cellInv ER Rd (K ck) (kcell ck) : sProp 𝕄)) from by
    unfold records; iintro ⟨H, -⟩; iexact H).trans (bigSep_elim (Finset.mem_univ ck))
omit [FloatOps F] hst in
theorem reached_at (K : Dev nD × Fin 27 → ℕ) (ck : Dev nD × Fin 27) : records Rd K ⊢ reached ER (kcell ck) 0 :=
  (show records Rd K ⊢ (bigSep Finset.univ fun ck : Dev nD × Fin 27 => (reached ER (kcell ck) 0 : sProp 𝕄)) from by
    unfold records; iintro ⟨-, H⟩; iexact H).trans (bigSep_elim (Finset.mem_univ ck))

end Records

/-! ## The five device permutations, the token table and who pays -/

def zrE : Dev nD ≃ Dev nD := ⟨zr, zl, zl_zr, zr_zl⟩
def zlE : Dev nD ≃ Dev nD := ⟨zl, zr, zr_zl, zl_zr⟩
def p0E : Dev nD ≃ Dev nD := ⟨p0, p0, p0_p0, p0_p0⟩
def p1E : Dev nD ≃ Dev nD := ⟨p1, p1, p1_p1, p1_p1⟩
def p2E : Dev nD ≃ Dev nD := ⟨p2, p2, p2_p2, p2_p2⟩

/-- The 31 duty tokens of a device's cells at round 0: the barrier cell's five duties, then one duty of each own cell. -/
def tk (j : Fin 31) : Fin 27 × Fin 5 :=
  if h : j.val < 5 then (0, ⟨j.val, h⟩) else (⟨j.val - 4, by have := j.isLt; omega⟩, 0)

theorem tk_injective : Function.Injective tk := by decide

/-- Which device's token `j` a device pays with. Barrier duties: the five neighbours in the order the signals are
    issued (previous and next along z, the three row partners). Own cells (cell `j - 4`, semaphore `j - 3` of the
    pool): the receive cells of the ring are paid by the previous device along z, so a device pays the next one's; the
    receive cells of the row exchanges by the partner; send cells and the two load cells by the device itself. -/
def pay (j : Fin 31) : Dev nD ≃ Dev nD :=
  match j.val with
  | 0 => zlE | 1 => zrE | 2 => p0E | 3 => p1E | 4 => p2E
  | 10 | 11 | 12 | 16 | 17 | 18 | 22 | 23 | 24 => zrE
  | 28 => p0E | 29 => p1E | 30 => p2E
  | _ => Equiv.refl _

/-- Token indices: the barrier's duty `d`; the one duty of own cell `k + 1`. -/
def jBar (d : Fin 5) : Fin 31 := ⟨d.val, by omega⟩
def jOwn (k : Fin 26) : Fin 31 := ⟨k.val + 5, by omega⟩
theorem tk_jBar (d : Fin 5) : tk (jBar d) = (0, d) := by fin_cases d <;> rfl
theorem tk_jOwn (k : Fin 26) : tk (jOwn k) = (k.succ, 0) := by revert k; decide

/-! ## What stays with one device -/

section Linear

variable {J : Type} [Fintype J] [DecidableEq J] (tk : J → Fin 27 × Fin 5) (pay : J → Dev nD ≃ Dev nD)

/-- The duty tokens device `d` pays with: token `j` of the device `pay j d`. -/
def payToks (d : Dev nD) : sProp 𝕄 := bigSep Finset.univ fun j : J => dutyTok ER (kcell (pay j d, (tk j).1)) 0 (tk j).2

/-- What stays with device `c`: its positions at round 0 of its 27 cells, and the tokens of the duties it pays. -/
def linear (c : Dev nD) : sProp 𝕄 :=
  iprop((bigSep Finset.univ fun k : Fin 27 => atPos ER (kcell (c, k)) 0 ∅ 0) ∗ payToks tk pay c)

end Linear

omit [FloatOps F] in
/-- A device's positions on its 27 cells, in the order of the table. -/
theorem atPos_chain (c : Dev nD) :
    (bigSep Finset.univ fun k : Fin 27 => (atPos ER (kcell (c, k)) 0 ∅ 0 : sProp 𝕄))
      = bigSepL ([0, 1, 2, 3, 4, 5, 6, 7, 8, 9, 10, 11, 12, 13, 14, 15, 16, 17, 18, 19, 20, 21, 22, 23, 24, 25, 26] : List (Fin 27)) fun k => atPos ER (kcell (c, k)) 0 ∅ 0 :=
  bigSep_univ_eq_bigSepL _ (by decide) (by decide) _

omit [FloatOps F] in
/-- The 31 duty tokens a device pays with, in the order of the token table. -/
theorem payToks_chain (c : Dev nD) :
    (payToks tk pay c : sProp 𝕄)
      = bigSepL ([0, 1, 2, 3, 4, 5, 6, 7, 8, 9, 10, 11, 12, 13, 14, 15, 16, 17, 18, 19, 20, 21, 22, 23, 24, 25, 26, 27, 28, 29, 30] : List (Fin 31)) fun j => dutyTok ER (kcell (pay j c, (tk j).1)) 0 (tk j).2 := by
  unfold payToks
  exact bigSep_univ_eq_bigSepL _ (by decide) (by decide) _

/-- What stays with device `c`, at the fixed token table and payers. -/
abbrev lin (c : Dev nD) : sProp 𝕄 := linear tk pay c

omit [FloatOps F] in
/-- The same, conjunct by conjunct under the cells' names: the 27 positions in the order of the table, then the 31
    tokens in the order of the token table (the five barrier duties in the order the signals are issued, then the
    own cells' in the order of the pool, each receive cell's token being the neighbour's). -/
theorem lin_open (c : Dev nD) :
    (lin c : sProp 𝕄)
      = iprop((atPos ER (barCell c) 0 ∅ 0 ∗ atPos ER (loadCell c 0) 0 ∅ 0 ∗ atPos ER (loadCell c 1) 0 ∅ 0
      ∗ atPos ER (rsendCell c 0 0) 0 ∅ 0 ∗ atPos ER (rsendCell c 0 1) 0 ∅ 0 ∗ atPos ER (rsendCell c 0 2) 0 ∅ 0
      ∗ atPos ER (rrecvCell c 0 0) 0 ∅ 0 ∗ atPos ER (rrecvCell c 0 1) 0 ∅ 0 ∗ atPos ER (rrecvCell c 0 2) 0 ∅ 0
      ∗ atPos ER (rsendCell c 1 0) 0 ∅ 0 ∗ atPos ER (rsendCell c 1 1) 0 ∅ 0 ∗ atPos ER (rsendCell c 1 2) 0 ∅ 0
      ∗ atPos ER (rrecvCell c 1 0) 0 ∅ 0 ∗ atPos ER (rrecvCell c 1 1) 0 ∅ 0 ∗ atPos ER (rrecvCell c 1 2) 0 ∅ 0
      ∗ atPos ER (rsendCell c 2 0) 0 ∅ 0 ∗ atPos ER (rsendCell c 2 1) 0 ∅ 0 ∗ atPos ER (rsendCell c 2 2) 0 ∅ 0
      ∗ atPos ER (rrecvCell c 2 0) 0 ∅ 0 ∗ atPos ER (rrecvCell c 2 1) 0 ∅ 0 ∗ atPos ER (rrecvCell c 2 2) 0 ∅ 0
      ∗ atPos ER (gsendCell c 0) 0 ∅ 0 ∗ atPos ER (gsendCell c 1) 0 ∅ 0 ∗ atPos ER (gsendCell c 2) 0 ∅ 0
      ∗ atPos ER (grecvCell c 0) 0 ∅ 0 ∗ atPos ER (grecvCell c 1) 0 ∅ 0 ∗ atPos ER (grecvCell c 2) 0 ∅ 0)
    ∗ (dutyTok ER (barCell (zl c)) 0 0 ∗ dutyTok ER (barCell (zr c)) 0 1 ∗ dutyTok ER (barCell (p0 c)) 0 2
      ∗ dutyTok ER (barCell (p1 c)) 0 3 ∗ dutyTok ER (barCell (p2 c)) 0 4 ∗ dutyTok ER (loadCell c 0) 0 0
      ∗ dutyTok ER (loadCell c 1) 0 0 ∗ dutyTok ER (rsendCell c 0 0) 0 0 ∗ dutyTok ER (rsendCell c 0 1) 0 0
      ∗ dutyTok ER (rsendCell c 0 2) 0 0 ∗ dutyTok ER (rrecvCell (zr c) 0 0) 0 0 ∗ dutyTok ER (rrecvCell (zr c) 0 1) 0 0
      ∗ dutyTok ER (rrecvCell (zr c) 0 2) 0 0 ∗ dutyTok ER (rsendCell c 1 0) 0 0 ∗ dutyTok ER (rsendCell c 1 1) 0 0
      ∗ dutyTok ER (rsendCell c 1 2) 0 0 ∗ dutyTok ER (rrecvCell (zr c) 1 0) 0 0 ∗ dutyTok ER (rrecvCell (zr c) 1 1) 0 0
      ∗ dutyTok ER (rrecvCell (zr c) 1 2) 0 0 ∗ dutyTok ER (rsendCell c 2 0) 0 0 ∗ dutyTok ER (rsendCell c 2 1) 0 0
      ∗ dutyTok ER (rsendCell c 2 2) 0 0 ∗ dutyTok ER (rrecvCell (zr c) 2 0) 0 0 ∗ dutyTok ER (rrecvCell (zr c) 2 1) 0 0
      ∗ dutyTok ER (rrecvCell (zr c) 2 2) 0 0 ∗ dutyTok ER (gsendCell c 0) 0 0 ∗ dutyTok ER (gsendCell c 1) 0 0
      ∗ dutyTok ER (gsendCell c 2) 0 0 ∗ dutyTok ER (grecvCell (p0 c) 0) 0 0 ∗ dutyTok ER (grecvCell (p1 c) 1) 0 0
      ∗ dutyTok ER (grecvCell (p2 c) 2) 0 0)) := by
  unfold lin linear; rw [atPos_chain, payToks_chain]; rfl

/-! ## The two arrays no window stages -/

section KV

variable (m : (ℓ : Loc nD τ sig) → Buf (Elt F) ℓ)

/-- The key and value arrays of device `c`, whole, at their launch contents. -/
def kvPts (c : Dev nD) : sProp 𝕄 :=
  iprop((((c : Thread nD τ).loc main_arg1) ↦{fullShare} m ((c : Thread nD τ).loc main_arg1))
    ∗ (((c : Thread nD τ).loc main_arg2) ↦{fullShare} m ((c : Thread nD τ).loc main_arg2)))

end KV

end Cert.Kernel.FD

end
-- ==== Proof.StateW.lean ====
/-
  What one device's body starts from and what it leaves, as the proof data of the one pipeline point.

  A device starts holding: the shared records of all cells and what stays with it (its positions and the tokens it
  pays with); the credit for what the others owe its cells (five units on its barrier cell, one transfer's worth on each
  of its nine ring receive cells and on each of its three exchange receive cells); the level facts; the key and value
  arrays whole at their launch contents; its five scratch buffers at whatever they hold. It owes the seventeen payments
  to other devices' cells. It ends owing nothing, its own 26 counters back at zero, the key and value arrays as they
  were, the scratch buffers at whatever they then hold; the staged query is left as it was fetched and the result's
  staging buffer holds the gathered result of the device's position along z.
-/
import proofs.«900429_g7700000000000430_dist_flashdec_v7x_xyz2x4x4_z_b8_sq8_skv1024_h16_d128_f32_1_alg».proof.Proof.ProtoW
import proofs.«900429_g7700000000000430_dist_flashdec_v7x_xyz2x4x4_z_b8_sq8_skv1024_h16_d128_f32_1_alg».proof.Proof.LaunchLibW

noncomputable section

namespace Cert.Kernel.FD

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## The one point of the pipeline -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole staging buffer of device `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section State

variable (vo : Dev nD → S8x16x128.Idx → Elt F .f32) (vm vl : Dev nD → S8x16x1.Idx → Elt F .f32)
variable (vg : ℕ → S8x8x16x128.Idx → Elt F .f32)
variable (kin vin : Dev nD → S1024x16x128.Idx → Elt F .f32)
variable (m : (ℓ : Loc nD τ sig) → Buf (Elt F) ℓ)

/-! ## The ghost state and the credit a device starts with -/

/-- The protocol's ghost state device `c` starts from, at the names `K` of the cells' invariants: the shared records
    and what stays with the device. -/
def ghost (K : Dev nD × Fin 27 → ℕ) (c : Dev nD) : sProp 𝕄 :=
  iprop(records (Rd vo vm vl vg kin vin m) K ∗ lin c)

/-- The credit for what the other devices owe device `c`'s cells, in the order the device waits for it: its barrier
    cell's five units; hop by hop the ring's receive cells of the partial sums, the maxima and the row sums; the three
    exchanges' receive cells. -/
def creds (c : Dev nD) : sProp 𝕄 :=
  iprop(cred (tallyAt (barCell c) () 5) ∗ cred (tallyAt (rrecvCell c 0 0) () (Nring 0)) ∗ cred (tallyAt (rrecvCell c 1 0) () (Nring 1))
    ∗ cred (tallyAt (rrecvCell c 2 0) () (Nring 2)) ∗ cred (tallyAt (rrecvCell c 0 1) () (Nring 0)) ∗ cred (tallyAt (rrecvCell c 1 1) () (Nring 1))
    ∗ cred (tallyAt (rrecvCell c 2 1) () (Nring 2)) ∗ cred (tallyAt (rrecvCell c 0 2) () (Nring 0)) ∗ cred (tallyAt (rrecvCell c 1 2) () (Nring 1))
    ∗ cred (tallyAt (rrecvCell c 2 2) () (Nring 2)) ∗ cred (tallyAt (grecvCell c 0) () (Nrows (partner 0 c) 0)) ∗ cred (tallyAt (grecvCell c 1) () (Nrows (partner 1 c) 1))
    ∗ cred (tallyAt (grecvCell c 2) () (Nrows (partner 2 c) 2)))

/-- What device `c`'s body starts from besides its buffers. -/
def start (c : Dev nD) : sProp 𝕄 :=
  iprop((∃ K, ghost vo vm vl vg kin vin m K c) ∗ creds c ∗ levAts L lv)

/-- Before the point: the start, the key and value arrays, the five scratch buffers at whatever they hold. -/
def Φ₀ (c : Dev nD) : sProp 𝕄 :=
  iprop(start vo vm vl vg kin vin m c ∗ kvPts m c ∗ owned c kM ∗ owned c vM ∗ owned c coM ∗ owned c cmM ∗ owned c clM)

/-- After the point: the key and value arrays as they were, the five scratch buffers at whatever they then hold, the
    kernel's own 26 counters at zero. -/
def Φ₁ (c : Dev nD) : sProp 𝕄 :=
  iprop(kvPts m c ∗ owned c kM ∗ owned c vM ∗ owned c coM ∗ owned c cmM ∗ owned c clM ∗ ownZero c)

/-! ## The proof data -/

/-- The staged query of device `c`: its query array as launched. -/
def qstg (c : Dev nD) : (cc0_stg0_0 : Ref sig .tc).ty.Contents (Elt F) :=
  (win0_0.blk (0 : Fin 1)).view.read (Elt F) (m ((c : Thread nD τ).loc main_arg0))

/-- The result's staging buffer of device `c` after the body: the gathered result of its position along z. -/
def outAt (c : Dev nD) : (cc0_stg1_0 : Ref sig .tc).ty.Contents (Elt F) := vg (c.val % 4)

def dats (_ : Fin 1) (c : Dev nD) : Dat τ (Elt F) Unit ℕ UU ℕ cfg0 c where
  A w := m ((cfg0.win w).arr.view.loc (c : Thread nD τ))
  after w _ := match w with
    | ⟨0, _⟩ => qstg m c
    | ⟨1, _⟩ => outAt vg c
  Φ t := match t with
    | ⟨0, _⟩ => Φ₀ vo vm vl vg kin vin m c
    | ⟨_ + 1, _⟩ => Φ₁ m c
  q _ := fullShare
  owed t := match t with
    | ⟨0, _⟩ => owedAfter 0 c
    | ⟨_ + 1, _⟩ => 0

/-! ## The body's precondition and postcondition -/

/-- What the body of device `c` is run from, the names `K` of the invariants fixed. -/
def bodyPre (K : Dev nD × Fin 27 → ℕ) (c : Dev nD) : sProp 𝕄 :=
  iprop((ghost vo vm vl vg kin vin m K c ∗ creds c ∗ levAts L lv ∗ kvPts m c
      ∗ owned c kM ∗ owned c vM ∗ owned c coM ∗ owned c cmM ∗ owned c clM)
    ∗ (dats vo vm vl vg kin vin m 0 c).owesAt () t₀.castSucc
    ∗ (∃ d, stg c cc0_stg0_0 ((dats vo vm vl vg kin vin m 0 c).before (0 : Fin 2) t₀ d))
    ∗ (∃ d, stg c cc0_stg1_0 ((dats vo vm vl vg kin vin m 0 c).before (1 : Fin 2) t₀ d)))

/-- What it leaves. -/
def bodyPost (c : Dev nD) : sProp 𝕄 :=
  iprop(Φ₁ m c ∗ (dats vo vm vl vg kin vin m 0 c).owesAt () t₀.succ
    ∗ stg c cc0_stg0_0 (qstg m c) ∗ stg c cc0_stg1_0 (outAt vg c))

/-- The precondition as the pipeline hands it over. -/
def bodyPre' (c : Dev nD) : sProp 𝕄 :=
  iprop(Φ₀ vo vm vl vg kin vin m c ∗ (dats vo vm vl vg kin vin m 0 c).owesAt () t₀.castSucc
    ∗ (∃ d, stg c cc0_stg0_0 ((dats vo vm vl vg kin vin m 0 c).before (0 : Fin 2) t₀ d))
    ∗ (∃ d, stg c cc0_stg1_0 ((dats vo vm vl vg kin vin m 0 c).before (1 : Fin 2) t₀ d)))

/-- The statement of the body lemma: from `bodyPre` the printed body runs to `bodyPost`. -/
def SoundBody : Prop :=
  ∀ (K : Dev nD × Fin 27 → ℕ) (c : Dev nD) (Kt : PUnit → sProp 𝕄),
    iprop(bodyPre vo vm vl vg kin vin m K c ∗ (bodyPost vo vm vl vg kin vin m c -∗ Kt ⟨⟩))
      ⊢ wp frame (wpE (defs₀ (F := F)) 𝒱₀ c none) Set.univ
          (cc0_body (Memref.whole cc0_stg0_0) (Memref.isWhole_whole _) (Memref.whole main_arg1) (Memref.isWhole_whole _)
            (Memref.whole main_arg2) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _)
            cc0_scratch5 cc0_scratch6 cc0_scratch7 cc0_scratch8 cc0_scratch9 cc0_scratch10 cc0_scratch11 cc0_scratch12 cc0_scratch13) Kt

set_option maxRecDepth 16384 in
/-- The library's body obligation on device `c`, from the body lemma. -/
theorem body_obligation (hsb : SoundBody vo vm vl vg kin vin m) (c : Dev nD) :
    BodyObligation (dats vo vm vl vg kin vin m 0 c) (defs₀ (F := F)) 𝒱₀ () Set.univ := fun t => by
  rw [fin_N t]
  rw [bigSep_W, bigSep_W]
  simp only [owns_whole_eq]
  show bodyPre' vo vm vl vg kin vin m c ⊢ wp frame (wpE (defs₀ (F := F)) 𝒱₀ c none) Set.univ
    (cc0_body (Memref.whole cc0_stg0_0) (Memref.isWhole_whole _) (Memref.whole main_arg1) (Memref.isWhole_whole _)
            (Memref.whole main_arg2) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _)
            cc0_scratch5 cc0_scratch6 cc0_scratch7 cc0_scratch8 cc0_scratch9 cc0_scratch10 cc0_scratch11 cc0_scratch12 cc0_scratch13) (fun _ => bodyPost vo vm vl vg kin vin m c)
  unfold bodyPre' Φ₀ start
  iintro ⟨⟨⟨⟨%K, Hg⟩, Hcr, Hlev⟩, Hkv, Hk, Hv, Hco, Hcm, Hcl⟩, Ho, Hx, Hout⟩
  iapply (hsb K c fun _ => bodyPost vo vm vl vg kin vin m c)
  unfold bodyPre
  isplitr []
  · isplitl [Hg Hcr Hlev Hkv Hk Hv Hco Hcm Hcl]
    · isplitl [Hg]; · iexact Hg
      isplitl [Hcr]; · iexact Hcr
      isplitl [Hlev]; · iexact Hlev
      isplitl [Hkv]; · iexact Hkv
      isplitl [Hk]; · iexact Hk
      isplitl [Hv]; · iexact Hv
      isplitl [Hco]; · iexact Hco
      isplitl [Hcm]; · iexact Hcm
      iexact Hcl
    isplitl [Ho]; · iexact Ho
    isplitl [Hx] <;> iassumption
  · iintro H; iexact H

end State

end Cert.Kernel.FD

end
-- ==== Proof.LaunchW.lean ====
/-
  The launch of the kernel on the 32 devices: from the proof of one device's body to the run of the whole program.

  The launch funds the round state of all 32 x 27 cells at once, allocates every cell's invariant under one update,
  keeps with each device its positions on its own cells, and hands every duty token from the owner of its cell to the
  device that pays the duty. What a device owes at launch is its seventeen payments to other devices' cells; summed
  over the payers these are, on every device, five units on its barrier cell and one transfer's worth on each of its
  twelve receive cells, which is the credit it starts with. A device waits on its barrier cell at level 1, on the
  ring's receive cells at levels 2, 3, 4 and on the exchanges' at levels 5, 6, 7, always below what it still owes; the
  pipeline's own waits, on the staging cells at level 0, sit below everything owed. The key and value arrays are
  staged by no window: they travel beside the region as whole buffers at their launch contents and are read back
  from the final state.
-/
import proofs.«900429_g7700000000000430_dist_flashdec_v7x_xyz2x4x4_z_b8_sq8_skv1024_h16_d128_f32_1_alg».proof.Proof.StateW

noncomputable section

namespace Cert.Kernel.FD

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The kernel's own semaphores and the barrier semaphore -/

theorem ownSemFacts : Pipeline.OwnSemFacts cfg0.spec osem := by decide

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 27 => semVal (kcell (c, k)) 0 : sProp 𝕄) := by
  rw [unscopedSems0_eq, bigSep_fin_succ]
  unfold Pipeline.ownSems0
  iintro ⟨HS, HB⟩
  isplitl [HB]; · iexact HB
  iexact HS

section Alloc

variable (Rd : Rounds.Schedule (GSem nD τ sig) (Fin 5) (MT nD τ sig Unit (Elt F) ℕ UU ℕ))
  [hst : ∀ (g : GSem nD τ sig) (r : ℕ) (d : Fin 5), BI.Storable (upEmb : UEmb _ (MT nD τ sig Unit (Elt F) ℕ UU ℕ)) (Rd.payload g r d)]

omit [FloatOps F] in
/-- A device's 27 cells — the barrier cell and its 26 own — each get an invariant from the counter at zero and the round
    state at zero. -/
theorem cells_alloc (c : Dev nD) :
    iprop((bigSep Finset.univ fun k : Fin 27 => semVal (kcell (c, k)) 0) ∗ bigSep Finset.univ fun k : Fin 27 => roundState ER Rd (kcell (c, k)) 0)
      ⊢ (|={Set.univ}=> bigSep Finset.univ fun k => iprop(∃ κ : ℕ, cellInv ER Rd κ (kcell (c, k))) : sProp 𝕄) := by
  rw [← bigSep_sep']
  exact (bigSep_mono fun k _ => (Rounds.body_intro ER Rd (kcell (c, k))).trans inv_alloc).trans (bigSep_fupd _ _)

end Alloc

/-! ## Funding, allocation and the regrouping of the tokens, for any schedule, token table and payer family -/

section Core

variable (Rd : Rounds.Schedule (GSem nD τ sig) (Fin 5) (MT nD τ sig Unit (Elt F) ℕ UU ℕ))
  [hst : ∀ (g : GSem nD τ sig) (r : ℕ) (d : Fin 5), BI.Storable (upEmb : UEmb _ (MT nD τ sig Unit (Elt F) ℕ UU ℕ)) (Rd.payload g r d)]
variable {J : Type} [Fintype J] [DecidableEq J] (tk : J → Fin 27 × Fin 5) (htk : Function.Injective tk)
  (pay : J → Dev nD ≃ Dev nD)

def cells27 : Finset (GSem nD τ sig) := Finset.univ.map ⟨kcell, kcell_injective⟩

/-- Token `j` of device `c`: a duty of round 0 of one of its cells. -/
abbrev tokOf (cj : Dev nD × J) : GSem nD τ sig × ℕ × Fin 5 := (kcell (cj.1, (tk cj.2).1), 0, (tk cj.2).2)

include htk in
theorem tokOf_injective : Function.Injective (tokOf tk : Dev nD × J → GSem nD τ sig × ℕ × Fin 5) := by
  rintro ⟨c, j⟩ ⟨c', j'⟩ h
  have h1 : kcell (c, (tk j).1) = kcell (c', (tk j').1) := congrArg (fun x : GSem nD τ sig × ℕ × Fin 5 => x.1) h
  have h2 : (tk j).2 = (tk j').2 := congrArg (fun x : GSem nD τ sig × ℕ × Fin 5 => x.2.2) h
  have h3 := kcell_injective h1
  have hc : c = c' := congrArg Prod.fst h3
  have hk : (tk j).1 = (tk j').1 := congrArg Prod.snd h3
  have hj : j = j' := htk (Prod.ext hk h2)
  rw [hc, hj]

def allToks : Finset (GSem nD τ sig × ℕ × Fin 5) := Finset.univ.map ⟨tokOf tk, tokOf_injective tk htk⟩

/-- The duty tokens of device `c`'s own cells, as minted. -/
def toks (c : Dev nD) : sProp 𝕄 := bigSep Finset.univ fun j : J => dutyTok ER (kcell (c, (tk j).1)) 0 (tk j).2

/-- What the launch element deals device `c`. -/
def Ggen (c : Dev nD) : sProp 𝕄 :=
  iprop((bigSep Finset.univ fun k : Fin 27 => roundState ER Rd (kcell (c, k)) 0)
    ∗ (bigSep Finset.univ fun k : Fin 27 => iprop(atPos ER (kcell (c, k)) 0 ∅ 0 ∗ reached ER (kcell (c, k)) 0)) ∗ toks tk c)

omit [FloatOps F] hst in
theorem fund_gen : BI.own (ER (initOf cells27 (allToks tk htk))) ⊢ (|==> bigSep Finset.univ (Ggen Rd tk) : sProp 𝕄) := by
  have hX (Φ : GSem nD τ sig → sProp 𝕄) : bigSep cells27 Φ = bigSep Finset.univ fun c : Dev nD => bigSep Finset.univ fun k : Fin 27 => Φ (kcell (c, k)) := by
    unfold cells27; rw [bigSep_map, bigSep_univ_prod]; rfl
  have hT : bigSep (allToks tk htk) (fun x => (dutyTok ER x.1 x.2.1 x.2.2 : sProp 𝕄)) = bigSep Finset.univ fun c : Dev nD => toks tk c := by
    unfold allToks; rw [bigSep_map, bigSep_univ_prod]; rfl
  iintro HX
  imod (Rounds.fund ER Rd cells27 (allToks tk htk)) $$ HX with ⟨Hst, Hr, Hat, Htok⟩
  imodintro
  ihave Hst' := (Entails.of_eq (hX fun g => roundState ER Rd g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold Ggen; simp only [bigSep_sep']
  isplitl [Hst']; · iexact Hst'
  isplitl [Hat' Hr']
  · isplitl [Hat'] <;> iassumption
  iexact Htok'

omit [FloatOps F] in
theorem core_alloc (c : Dev nD) :
    iprop(Pipeline.ownSems0 (Ix := Unit) (Name := ℕ) (U := UU) (Lvl := ℕ) (Val := Elt F) (τ := τ) osem c ∗ unscopedSems0 c ∗ Ggen Rd tk c)
      ⊢ |={Set.univ}=> iprop((bigSep Finset.univ fun k : Fin 27 => iprop(∃ κ : ℕ, cellInv ER Rd κ (kcell (c, k))))
          ∗ (bigSep Finset.univ fun k : Fin 27 => iprop(atPos ER (kcell (c, k)) 0 ∅ 0 ∗ reached ER (kcell (c, k)) 0)) ∗ toks tk c) := by
  unfold Ggen
  iintro ⟨Hos, Hus, Hst, Hat, Htok⟩
  ihave Hv := (sems0_eq (F := F) c) $$ [Hos Hus]
  · isplitl [Hos] <;> iassumption
  imod (cells_alloc Rd c) $$ [Hv Hst] with Hinv
  · isplitl [Hv] <;> iassumption
  imodintro
  isplitl [Hinv]; · iexact Hinv
  isplitl [Hat]; · iexact Hat
  iexact Htok

omit [FloatOps F] in
/-- The tokens dealt from the owners of the cells to the payers of the duties. -/
theorem toks_around : (bigSep Finset.univ fun c : Dev nD => (toks tk c : sProp 𝕄)) = bigSep Finset.univ fun d : Dev nD => payToks tk pay d := by
  unfold toks payToks
  exact bigSep_regroup pay (fun (c : Dev nD) (j : J) => (dutyTok ER (kcell (c, (tk j).1)) 0 (tk j).2 : sProp 𝕄))

omit [FloatOps F] hst in
theorem regroup :
    (bigSep Finset.univ fun c : Dev nD => iprop((bigSep Finset.univ fun k : Fin 27 => iprop(∃ κ : ℕ, cellInv ER Rd κ (kcell (c, k))))
          ∗ (bigSep Finset.univ fun k : Fin 27 => iprop(atPos ER (kcell (c, k)) 0 ∅ 0 ∗ reached ER (kcell (c, k)) 0)) ∗ toks tk c) : sProp 𝕄)
      ⊢ iprop(∃ K, records Rd K ∗ bigSep Finset.univ fun c : Dev nD => linear tk pay c) := by
  rw [bigSep_sep', bigSep_sep', ← bigSep_univ_prod (fun ck : Dev nD × Fin 27 => iprop(∃ κ : ℕ, cellInv ER Rd κ (kcell ck))),
    bigSep_congr (s := Finset.univ) (fun (c : Dev nD) _ => bigSep_sep' Finset.univ (fun k : Fin 27 => (atPos ER (kcell (c, k)) 0 ∅ 0 : sProp 𝕄)) (fun k => reached ER (kcell (c, k)) 0)),
    bigSep_sep', ← bigSep_univ_prod (fun ck : Dev nD × Fin 27 => (reached ER (kcell ck) 0 : sProp 𝕄)), toks_around tk pay]
  iintro ⟨HI, ⟨Hat, #HR⟩, Htok⟩
  ihave HK := (BI.bigSep_exists_pi Finset.univ (fun (ck : Dev nD × Fin 27) (κ : ℕ) => (cellInv ER Rd κ (kcell ck) : sProp 𝕄))) $$ HI
  icases HK with ⟨%K, #HI⟩
  iexists K
  isplitr
  · unfold records; isplitl; · iexact HI
    iexact HR
  · unfold linear; rw [bigSep_sep']
    isplitl [Hat]; · iexact Hat
    iexact Htok

omit [FloatOps F] in
/-- The global step: own and unscoped semaphores of every device at once. -/
theorem glob_gen : (bigSep Finset.univ fun c => iprop(Pipeline.ownSems0 (Ix := Unit) (Name := ℕ) (U := UU) (Lvl := ℕ) (Val := Elt F) (τ := τ) osem c ∗ unscopedSems0 c ∗ Ggen Rd tk c) : sProp 𝕄)
    ⊢ |={Set.univ}=> iprop(∃ K, records Rd K ∗ bigSep Finset.univ fun c : Dev nD => linear tk pay c) :=
  ((bigSep_mono fun c _ => core_alloc Rd tk c).trans (bigSep_fupd _ _)).trans (BI.fupd_mono (regroup Rd tk pay))

omit [FloatOps F] in
/-- The same, every device holding the shared records beside what stays with it. -/
theorem glob_each : (bigSep Finset.univ fun c => iprop(Pipeline.ownSems0 (Ix := Unit) (Name := ℕ) (U := UU) (Lvl := ℕ) (Val := Elt F) (τ := τ) osem c ∗ unscopedSems0 c ∗ Ggen Rd tk c) : sProp 𝕄)
    ⊢ |={Set.univ}=> bigSep Finset.univ fun c : Dev nD => iprop(∃ K, records Rd K ∗ linear tk pay c) := by
  refine (glob_gen Rd tk pay).trans (BI.fupd_mono ?_)
  iintro ⟨%K, #HR, HL⟩
  iapply (bigSep_with_persistent (R := records Rd K) (Φ := fun c : Dev nD => linear tk pay c)
    (Ψ := fun c : Dev nD => iprop(∃ K, records Rd K ∗ linear tk pay c))
    (fun c _ => show iprop(records Rd K ∗ linear tk pay c) ⊢ iprop(∃ K, records Rd K ∗ linear tk pay c) from by
      iintro H; iexists K; iexact H))
  isplitr; · iexact HR
  iexact HL

end Core

/-! ## The two arrays no window stages -/

section KV

variable (m : (ℓ : Loc nD τ sig) → Buf (Elt F) ℓ)

omit [FloatOps F] in
theorem kv_intro (c : Dev nD) :
    (Pipeline.unscopedRestP Pipeline.Prefetch.none cfg0.spec c (fun b => m ((c : Thread nD τ).loc b)) : sProp 𝕄) ⊢ kvPts m c := by
  rw [Pipeline.unscopedRestP_none]
  exact Entails.of_eq (unscopedRest0_eq c (fun b => m ((c : Thread nD τ).loc b)))

omit [FloatOps F] in
/-- Read against a final state, the two arrays hold what they held at launch. -/
theorem kv_read (c : Dev nD) (Z : sProp 𝕄) (s' : Phys nD τ sig (Elt F)) :
    iprop(kvPts m c ∗ Z ∗ SI s') ⊢ |={Set.univ}=> iprop(⌜s'.mem.mem ((c : Thread nD τ).loc main_arg1) = m ((c : Thread nD τ).loc main_arg1)
        ∧ s'.mem.mem ((c : Thread nD τ).loc main_arg2) = m ((c : Thread nD τ).loc main_arg2)⌝ ∗ SI s') := by
  unfold kvPts
  iintro ⟨⟨HK, HV⟩, -, HSI⟩
  icombine HSI HK gives %hk
  icombine HSI HV gives %hv
  imodintro
  isplitr; · ipureintro; exact ⟨Buf.eq_of_forall_mem_univ hk, Buf.eq_of_forall_mem_univ hv⟩
  iexact HSI

end KV

/-! ## The launch credit of one cell along a device permutation -/

omit [FloatOps F] in
theorem launchCred_kcell (k : Fin 27) (e : Dev nD ≃ Dev nD) (n : ℕ) (c : Dev nD) :
    (Pipeline.launchCred (fun d => tallyAt (kcell (e d, k)) () n) c : sProp 𝕄) ⊢ cred (tallyAt (kcell (c, k)) () n) :=
  Pipeline.launchCred_tallyAt (csem k) e e.symm e.apply_symm_apply e.symm_apply_apply () n c

omit [FloatOps F] in
/-- One more summand owed, to cell `k` of the device `e d`: one more credit token on the device's own cell `k`. -/
theorem launchCred_add_kcell (O : Dev nD → CellTallies nD τ sig Unit) (k : Fin 27) (e : Dev nD ≃ Dev nD) (n : ℕ) (c : Dev nD) :
    (Pipeline.launchCred (fun d => O d + tallyAt (kcell (e d, k)) () n) c : sProp 𝕄)
      ⊢ iprop(Pipeline.launchCred O c ∗ cred (tallyAt (kcell (c, k)) () n)) := by
  rw [Pipeline.launchCred_add]
  exact sep_mono_right (launchCred_kcell k e n c)

omit [FloatOps F] in
theorem launchCred_kcell_add (O : Dev nD → CellTallies nD τ sig Unit) (k : Fin 27) (e : Dev nD ≃ Dev nD) (n : ℕ) (c : Dev nD) :
    (Pipeline.launchCred (fun d => tallyAt (kcell (e d, k)) () n + O d) c : sProp 𝕄)
      ⊢ iprop(cred (tallyAt (kcell (c, k)) () n) ∗ Pipeline.launchCred O c) := by
  rw [Pipeline.launchCred_add]
  exact sep_mono_left (launchCred_kcell k e n c)

omit [FloatOps F] in
/-- The same when the amount depends on the payer: every device `d` owing `n d` units to cell `k` of the device `e d`,
    device `c` is dealt the credit of what its payer `e.symm c` owes. -/
theorem launchCred_kcell_var (k : Fin 27) (e : Dev nD ≃ Dev nD) (n : Dev nD → ℕ) (c : Dev nD) :
    (Pipeline.launchCred (fun d => tallyAt (kcell (e d, k)) () (n d)) c : sProp 𝕄)
      ⊢ cred (tallyAt (kcell (c, k)) () (n (e.symm c))) := by
  refine (Pipeline.launchCred_elim _ c (csem k)).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ e.symm c →
      tallyOn (nD := nD) (sig := sig) (kcell (e d, k)) (Finsupp.single () (n d)) (kcell (c, k)) = 0 := fun d _ hd => by
    unfold tallyOn
    refine Pi.single_eq_of_ne (fun h => hd ?_) _
    have h3 : c = e d := congrArg (fun g : GSem nD τ sig => g.1.1) h
    rw [h3, e.symm_apply_apply]
  rw [Finset.sum_eq_single (e.symm c) h0 (fun h => absurd (Finset.mem_univ _) h)]
  unfold tallyOn
  rw [e.apply_symm_apply, Pi.single_eq_same]

omit [FloatOps F] in
theorem launchCred_add_kcell_var (O : Dev nD → CellTallies nD τ sig Unit) (k : Fin 27) (e : Dev nD ≃ Dev nD) (n : Dev nD → ℕ) (c : Dev nD) :
    (Pipeline.launchCred (fun d => O d + tallyAt (kcell (e d, k)) () (n d)) c : sProp 𝕄)
      ⊢ iprop(Pipeline.launchCred O c ∗ cred (tallyAt (kcell (c, k)) () (n (e.symm c)))) := by
  rw [Pipeline.launchCred_add]
  exact sep_mono_right (launchCred_kcell_var k e n c)

omit [FloatOps F] in
/-- Unit credits on one cell merge. -/
theorem cred_tallyAt_add (g : GSem nD τ sig) (a b : ℕ) :
    iprop(cred (tallyAt g () a) ∗ cred (tallyAt g () b)) ⊢ (cred (tallyAt g () (a + b)) : sProp 𝕄) := by
  rw [← tallyAt_add]; exact (cred_add _ _).2

/-- Five unit credits on one cell are a credit of five. -/
theorem cred_five (g : GSem nD τ sig) :
    iprop(cred (tallyAt g () 1) ∗ cred (tallyAt g () 1) ∗ cred (tallyAt g () 1) ∗ cred (tallyAt g () 1) ∗ cred (tallyAt g () 1))
      ⊢ (cred (tallyAt g () 5) : sProp 𝕄) := by
  iintro ⟨H0, H1, H2, H3, H4⟩
  ihave A := (cred_tallyAt_add (F := F) g 1 1) $$ [H0 H1]
  · isplitl [H0] <;> iassumption
  ihave B := (cred_tallyAt_add (F := F) g (1 + 1) 1) $$ [A H2]
  · isplitl [A] <;> iassumption
  ihave C := (cred_tallyAt_add (F := F) g (1 + 1 + 1) 1) $$ [B H3]
  · isplitl [B] <;> iassumption
  ihave D := (cred_tallyAt_add (F := F) g (1 + 1 + 1 + 1) 1) $$ [C H4]
  · isplitl [C] <;> iassumption
  iexact D

/-! ## What a device owes and the credit it starts with -/

omit [FloatOps F] in
/-- What a device owes at launch, every payment spelt as a unit on a cell of the table of the device one of the five
    permutations sends it to. -/
theorem owed_eq :
    (owedAfter 0 : Dev nD → CellTallies nD τ sig Unit) = fun d =>
      ((((((((((((((((((0 : CellTallies nD τ sig Unit)
        + tallyAt (kcell (p2E d, kGrecv 2)) () (Nrows d 2))
        + tallyAt (kcell (p1E d, kGrecv 1)) () (Nrows d 1))
        + tallyAt (kcell (p0E d, kGrecv 0)) () (Nrows d 0))
        + tallyAt (kcell (zrE d, kRrecv 2 2)) () (Nring 2))
        + tallyAt (kcell (zrE d, kRrecv 1 2)) () (Nring 1))
        + tallyAt (kcell (zrE d, kRrecv 0 2)) () (Nring 0))
        + tallyAt (kcell (zrE d, kRrecv 2 1)) () (Nring 2))
        + tallyAt (kcell (zrE d, kRrecv 1 1)) () (Nring 1))
        + tallyAt (kcell (zrE d, kRrecv 0 1)) () (Nring 0))
        + tallyAt (kcell (zrE d, kRrecv 2 0)) () (Nring 2))
        + tallyAt (kcell (zrE d, kRrecv 1 0)) () (Nring 1))
        + tallyAt (kcell (zrE d, kRrecv 0 0)) () (Nring 0))
        + tallyAt (kcell (p2E d, 0)) () 1)
        + tallyAt (kcell (p1E d, 0)) () 1)
        + tallyAt (kcell (p0E d, 0)) () 1)
        + tallyAt (kcell (zrE d, 0)) () 1)
        + tallyAt (kcell (zlE d, 0)) () 1) :=
  funext fun d => rfl

/-- The credit a device starts with: what the others owe its cells. -/
theorem creds_intro (c : Dev nD) : (Pipeline.launchCred (owedAfter 0) c : sProp 𝕄) ⊢ creds c := by
  rw [owed_eq]
  iintro H0
  ihave H1 := (launchCred_add_kcell (F := F) _ 0 zlE 1 c) $$ H0
  icases H1 with ⟨H1, C0⟩
  ihave H2 := (launchCred_add_kcell (F := F) _ 0 zrE 1 c) $$ H1
  icases H2 with ⟨H2, C1⟩
  ihave H3 := (launchCred_add_kcell (F := F) _ 0 p0E 1 c) $$ H2
  icases H3 with ⟨H3, C2⟩
  ihave H4 := (launchCred_add_kcell (F := F) _ 0 p1E 1 c) $$ H3
  icases H4 with ⟨H4, C3⟩
  ihave H5 := (launchCred_add_kcell (F := F) _ 0 p2E 1 c) $$ H4
  icases H5 with ⟨H5, C4⟩
  ihave H6 := (launchCred_add_kcell (F := F) _ (kRrecv 0 0) zrE (Nring 0) c) $$ H5
  icases H6 with ⟨H6, C5⟩
  ihave H7 := (launchCred_add_kcell (F := F) _ (kRrecv 1 0) zrE (Nring 1) c) $$ H6
  icases H7 with ⟨H7, C6⟩
  ihave H8 := (launchCred_add_kcell (F := F) _ (kRrecv 2 0) zrE (Nring 2) c) $$ H7
  icases H8 with ⟨H8, C7⟩
  ihave H9 := (launchCred_add_kcell (F := F) _ (kRrecv 0 1) zrE (Nring 0) c) $$ H8
  icases H9 with ⟨H9, C8⟩
  ihave H10 := (launchCred_add_kcell (F := F) _ (kRrecv 1 1) zrE (Nring 1) c) $$ H9
  icases H10 with ⟨H10, C9⟩
  ihave H11 := (launchCred_add_kcell (F := F) _ (kRrecv 2 1) zrE (Nring 2) c) $$ H10
  icases H11 with ⟨H11, C10⟩
  ihave H12 := (launchCred_add_kcell (F := F) _ (kRrecv 0 2) zrE (Nring 0) c) $$ H11
  icases H12 with ⟨H12, C11⟩
  ihave H13 := (launchCred_add_kcell (F := F) _ (kRrecv 1 2) zrE (Nring 1) c) $$ H12
  icases H13 with ⟨H13, C12⟩
  ihave H14 := (launchCred_add_kcell (F := F) _ (kRrecv 2 2) zrE (Nring 2) c) $$ H13
  icases H14 with ⟨H14, C13⟩
  ihave H15 := (launchCred_add_kcell_var (F := F) _ (kGrecv 0) p0E (fun d => Nrows d 0) c) $$ H14
  icases H15 with ⟨H15, C14⟩
  ihave H16 := (launchCred_add_kcell_var (F := F) _ (kGrecv 1) p1E (fun d => Nrows d 1) c) $$ H15
  icases H16 with ⟨H16, C15⟩
  ihave H17 := (launchCred_add_kcell_var (F := F) _ (kGrecv 2) p2E (fun d => Nrows d 2) c) $$ H16
  icases H17 with ⟨-, C16⟩
  unfold creds
  isplitl [C0 C1 C2 C3 C4]
  · iapply (cred_five (F := F) (barCell c))
    isplitl [C0]; · iexact C0
    isplitl [C1]; · iexact C1
    isplitl [C2]; · iexact C2
    isplitl [C3]; · iexact C3
    iexact C4
  isplitl [C5]; · iexact C5
  isplitl [C6]; · iexact C6
  isplitl [C7]; · iexact C7
  isplitl [C8]; · iexact C8
  isplitl [C9]; · iexact C9
  isplitl [C10]; · iexact C10
  isplitl [C11]; · iexact C11
  isplitl [C12]; · iexact C12
  isplitl [C13]; · iexact C13
  isplitl [C14]; · iexact C14
  isplitl [C15]; · iexact C15
  iexact C16

/-! ## The levels -/

omit [FloatOps F] in
theorem Lmem (d : Dev nD) (sm : SemLoc sig) : () ∈ L ((d : Thread nD τ), sm) := by
  rw [L_tc]; exact Finset.mem_singleton_self _
omit [FloatOps F] in
theorem lv_bar (d : Dev nD) : 0 < lv (barCell d) () := by
  show 0 < (if barS = barS then 1 else 0); rw [if_pos rfl]; exact Nat.one_pos
omit [FloatOps F] in
theorem lv_rrecv (d : Dev nD) (b h : Fin 3) : 0 < lv (rrecvCell d b h) () := by
  fin_cases b <;> fin_cases h <;> first | exact Nat.succ_pos _ | (revert d; decide)
omit [FloatOps F] in
theorem lv_grecv (d : Dev nD) (st : Fin 3) : 0 < lv (grecvCell d st) () := by
  fin_cases st <;> first | exact Nat.succ_pos _ | (revert d; decide)

omit [FloatOps F] in
/-- A sum of units on the cells of a list is positive only at one of the list's cells. -/
theorem foldr_pos (l : List (GSem nD τ sig × ℕ)) {g : GSem nD τ sig} {u : Unit}
    (h : 0 < (l.foldr (fun p acc => acc + tallyAt p.1 () p.2) (0 : CellTallies nD τ sig Unit)) g u) : ∃ p ∈ l, g = p.1 := by
  induction l with
  | nil => exact absurd h (Nat.lt_irrefl 0)
  | cons p l ih =>
    rw [List.foldr_cons] at h
    rcases Pipeline.add_pos_cases h with h | h
    · obtain ⟨q, hq, hg⟩ := ih h
      exact ⟨q, List.Mem.tail _ hq, hg⟩
    · exact ⟨p, List.Mem.head _, (Pipeline.tallyAt_pos h).1⟩

omit [FloatOps F] in
/-- Every cell a device pays is a TensorCore's and sits at level 1 or above. -/
theorem pay_levels (c : Dev nD) : (payList c).Forall fun p => () ∈ L p.1 ∧ 0 < lv p.1 () := by
  unfold payList
  exact ⟨⟨Lmem _ _, lv_bar _⟩,
    ⟨Lmem _ _, lv_bar _⟩,
    ⟨Lmem _ _, lv_bar _⟩,
    ⟨Lmem _ _, lv_bar _⟩,
    ⟨Lmem _ _, lv_bar _⟩,
    ⟨Lmem _ _, lv_rrecv _ 0 0⟩,
    ⟨Lmem _ _, lv_rrecv _ 1 0⟩,
    ⟨Lmem _ _, lv_rrecv _ 2 0⟩,
    ⟨Lmem _ _, lv_rrecv _ 0 1⟩,
    ⟨Lmem _ _, lv_rrecv _ 1 1⟩,
    ⟨Lmem _ _, lv_rrecv _ 2 1⟩,
    ⟨Lmem _ _, lv_rrecv _ 0 2⟩,
    ⟨Lmem _ _, lv_rrecv _ 1 2⟩,
    ⟨Lmem _ _, lv_rrecv _ 2 2⟩,
    ⟨Lmem _ _, lv_grecv _ 0⟩,
    ⟨Lmem _ _, lv_grecv _ 1⟩,
    ⟨Lmem _ _, lv_grecv _ 2⟩⟩

omit [FloatOps F] in
theorem owed_level {c : Dev nD} {g : GSem nD τ sig} {u : Unit} (h : 0 < owedAfter 0 c g u) : u ∈ L g ∧ 0 < lv g u := by
  obtain ⟨p, hp, rfl⟩ := foldr_pos (payList c) h
  cases u
  exact List.forall_iff_forall_mem.1 (pay_levels c) p hp

omit [FloatOps F] in
/-- A wait on a cell at level 0 — a staging cell of the pipeline — sits below everything the device owes. -/
theorem mayWait_stage (c : Dev nD) (q : DmaSem sig) (hq : lv ((c : Thread nD τ), .dma q) () = 0)
    (O : CellTallies nD τ sig Unit) (hO : O = owedAfter 0 c ∨ O = 0) :
    (levAts L lv : sProp 𝕄) ⊢ MayWait (c : Thread nD τ) (.dma q) () O := by
  rcases hO with rfl | rfl
  · exact MayOwe.of_cut (L := L) (lev := lv) 0
      (fun p hp => by rw [Finset.mem_singleton.mp hp, L_tc]; exact Finset.mem_singleton_self _)
      (fun g u hg => (owed_level hg).1)
      (fun p hp => by rw [Finset.mem_singleton.mp hp]; exact Nat.le_of_eq hq)
      (fun g u hg => (owed_level hg).2)
  · rw [MayWait_zero]; iintro -; iempintro

/-! ## The launch theorem's side conditions -/

section Launch

variable (vo : Dev nD → S8x16x128.Idx → Elt F .f32) (vm vl : Dev nD → S8x16x1.Idx → Elt F .f32)
variable (vg : ℕ → S8x8x16x128.Idx → Elt F .f32)
variable (kin vin : Dev nD → S1024x16x128.Idx → Elt F .f32)
variable (m : (ℓ : Loc nD τ sig) → Buf (Elt F) ℓ)
variable (ρ : Dev nD → PrngReg)

theorem share_eq (c : Dev nD) (w : Fin cfg0.W) : (dats vo vm vl vg kin vin m 0 c).share w = fullShare := by
  unfold Dat.share; split <;> rfl

theorem waits (c : Dev nD) : (levAts L lv : sProp 𝕄) ⊢ Pipeline.cellsWaits cfgs (dats vo vm vl vg kin vin m) () 0 c :=
  Pipeline.cellsWaits_intro cfgs (dats vo vm vl vg kin vin m) () 0 c fun w s t =>
    mayWait_stage c _ (by fin_cases w <;> fin_cases s <;> rfl) _ (by
      rcases t with ⟨_ | _, ht⟩
      · exact Or.inl rfl
      · exact Or.inr rfl)

/-- The launch element: the pipeline library's for the staging cells, the protocol's for the 32 x 27 cells and the
    32 x 31 tokens. -/
def u₀ : UU :=
  (initOf (Pipeline.cells cfgs cellOf_inj) (Pipeline.launchToks cfgs cellOf_inj), initOf cells27 (allToks tk tk_injective))

/-- What the launch element deals device `c`, and what the global step makes of it. -/
abbrev dealt (c : Dev nD) : sProp 𝕄 := Ggen (Rd vo vm vl vg kin vin m) tk c
abbrev dealt' (c : Dev nD) : sProp 𝕄 := iprop(∃ K, ghost vo vm vl vg kin vin m K c)

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ dealt vo vm vl vg kin vin m c) : sProp 𝕄)
    ⊢ |={Set.univ}=> bigSep Finset.univ (dealt' vo vm vl vg kin vin m) := by
  unfold dealt' ghost
  exact glob_each (Rd vo vm vl vg kin vin m) tk pay

/-- What a device routes into the pipeline's invariant: the start and the key and value arrays. -/
def startX (c : Dev nD) : sProp 𝕄 := iprop(start vo vm vl vg kin vin m c ∗ kvPts m c)

theorem start_intro (c : Dev nD) :
    iprop(Pipeline.unscopedRestP Pipeline.Prefetch.none cfg0.spec c (fun b => m ((c : Thread nD τ).loc b)) ∗ levAts L lv
        ∗ Pipeline.launchCred (owedAfter 0) c ∗ prngReg c (ρ c) ∗ dealt' vo vm vl vg kin vin m c)
      ⊢ |={Set.univ}=> iprop(startX vo vm vl vg kin vin m c ∗ emp) := by
  iintro ⟨Hur, Hlev, Hcr, -, HG⟩
  ihave Hc := (creds_intro (F := F) c) $$ Hcr
  ihave Hkv := (kv_intro (F := F) m c) $$ Hur
  imodintro
  unfold startX start
  isplitl
  · isplitl [HG Hc Hlev]
    · isplitl [HG]; · iexact HG
      isplitl [Hc]; · iexact Hc
      iexact Hlev
    · iexact Hkv
  · iempintro

omit [FloatOps F] in
theorem owned_kM (c : Dev nD) : (owned c kM : sProp 𝕄)
    = iprop(∃ f : Buf (Elt F) ((c : Thread nD τ).loc cc0_scratch0), ((c : Thread nD τ).loc cc0_scratch0) ↦{fullShare} f) := by
  unfold owned; rw [View.set_whole]
omit [FloatOps F] in
theorem owned_vM (c : Dev nD) : (owned c vM : sProp 𝕄)
    = iprop(∃ f : Buf (Elt F) ((c : Thread nD τ).loc cc0_scratch1), ((c : Thread nD τ).loc cc0_scratch1) ↦{fullShare} f) := by
  unfold owned; rw [View.set_whole]
omit [FloatOps F] in
theorem owned_coM (c : Dev nD) : (owned c coM : sProp 𝕄)
    = iprop(∃ f : Buf (Elt F) ((c : Thread nD τ).loc cc0_scratch2), ((c : Thread nD τ).loc cc0_scratch2) ↦{fullShare} f) := by
  unfold owned; rw [View.set_whole]
omit [FloatOps F] in
theorem owned_cmM (c : Dev nD) : (owned c cmM : sProp 𝕄)
    = iprop(∃ f : Buf (Elt F) ((c : Thread nD τ).loc cc0_scratch3), ((c : Thread nD τ).loc cc0_scratch3) ↦{fullShare} f) := by
  unfold owned; rw [View.set_whole]
omit [FloatOps F] in
theorem owned_clM (c : Dev nD) : (owned c clM : sProp 𝕄)
    = iprop(∃ f : Buf (Elt F) ((c : Thread nD τ).loc cc0_scratch4), ((c : Thread nD τ).loc cc0_scratch4) ↦{fullShare} f) := by
  unfold owned; rw [View.set_whole]

theorem phi0_intro (c : Dev nD) :
    iprop(startX vo vm vl vg kin vin m c ∗ Pipeline.prefHeld Pipeline.Prefetch.none c (fun _ => fullShare.right) (fun k => k.elim0) ∗ Pipeline.scopedRest cfg0.spec c)
      ⊢ (dats vo vm vl vg kin vin m 0 c).Φ 0 := by
  rw [show (dats vo vm vl vg kin vin m 0 c).Φ 0 = Φ₀ vo vm vl vg kin vin m c from rfl, scopedRest0_eq]
  unfold Φ₀ startX
  rw [owned_kM, owned_vM, owned_coM, owned_cmM, owned_clM]
  iintro ⟨⟨Hs, Hkv⟩, -, Hk, Hv, Hco, Hcm, Hcl⟩
  isplitl [Hs]; · iexact Hs
  isplitl [Hkv]; · iexact Hkv
  isplitl [Hk]; · iexact Hk
  isplitl [Hv]; · iexact Hv
  isplitl [Hco]; · iexact Hco
  isplitl [Hcm]; · iexact Hcm
  iexact Hcl

theorem phi1_exit (c : Dev nD) :
    (dats vo vm vl vg kin vin m 0 c).Φ (Fin.last cfg0.N) ⊢ iprop(kvPts m c ∗ Pipeline.ownSems0 osem c ∗ Pipeline.scopedRest cfg0.spec c) := by
  rw [show (dats vo vm vl vg kin vin m 0 c).Φ (Fin.last cfg0.N) = Φ₁ m c from rfl, scopedRest0_eq]
  unfold Φ₁ ownZero
  rw [owned_kM, owned_vM, owned_coM, owned_cmM, owned_clM]
  iintro ⟨Hkv, Hk, Hv, Hco, Hcm, Hcl, Hz⟩
  isplitl [Hkv]; · iexact Hkv
  isplitl [Hz]; · iexact Hz
  isplitl [Hk]; · iexact Hk
  isplitl [Hv]; · iexact Hv
  isplitl [Hco]; · iexact Hco
  isplitl [Hcm]; · iexact Hcm
  iexact Hcl

/-! ## The run -/

/-- The windows' arrays of device `c` after the run, as the pipeline computes them from what the body left. -/
def finalA (c : Dev nD) (w : Fin cfg0.W) : Buf (Elt F) ((cfg0.win w).arr.view.loc (c : Thread nD τ)) :=
  (dats vo vm vl vg kin vin m 0 c).arrAt w cfg0.N

def QC : PUnit × MemSt nD τ sig (Elt F) → Prop := fun r =>
  ∀ c : Dev nD, (∀ w : Fin cfg0.W, r.2.mem ((cfg0.win w).arr.view.loc (c : Thread nD τ)) = finalA vo vm vl vg kin vin m c w)
    ∧ r.2.mem ((c : Thread nD τ).loc main_arg1) = m ((c : Thread nD τ).loc main_arg1)
    ∧ r.2.mem ((c : Thread nD τ).loc main_arg2) = m ((c : Thread nD τ).loc main_arg2)

set_option maxRecDepth 8000 in
/-- At the compiled mesh of 32 devices, for any float values, from any memory with zero counters: given the body lemma,
    every weakly fair execution of the program terminates, and every final state has each device's windowed arrays at
    what the pipeline computes from the body's results and its key and value arrays as they were. -/
theorem run_main (hsb : SoundBody vo vm vl vg kin vin m) :
    θ_run defs (onTc (τ := τ) (main (F := F))) (s₀ m ρ) (QC vo vm vl vg kin vin m) :=
  Pipeline.θ_run_region_owing_glob_pf (fun p => (cfgs p).toPCfg) (fun p => (cfgs p).toPCfg_adm) (dats vo vm vl vg kin vin m) () cellOf_inj (0 : Fin 1)
    winFacts0.to₀ ownSemFacts (Pipeline.PreFacts.none _) EP defs₀ 𝒱₀ m ρ main
    (hmain := fun c => (main_chain c).trans rfl)
    (hbody := body_obligation vo vm vl vg kin vin m hsb) (hne := block_pos0) (harr := arr_whole0) (hstage := stage_whole0)
    (hshare := share_eq vo vm vl vg kin vin m)
    (hdistinct := winFacts0.arr_inj)
    (O₀ := owedAfter 0) (howed₀ := fun _ => rfl) (howedN := fun _ => rfl)
    (L := L) (lv := lv) (hL := L_of_ne) (hwaits := waits vo vm vl vg kin vin m)
    (G := dealt vo vm vl vg kin vin m) (G' := dealt' vo vm vl vg kin vin m) (u₀ := u₀)
    (hu₀ := by
      unfold u₀
      iintro Hu
      ihave H := (ownU_pair _ _) $$ Hu
      icases H with ⟨HP, HX⟩
      imod (fund_gen (Rd vo vm vl vg kin vin m) tk tk_injective) $$ HX with HG
      imodintro
      isplitl [HP] <;> iassumption)
    (hglob := glob vo vm vl vg kin vin m)
    (hA := fun _ _ => rfl) (hpf := fun _ k => k.elim0)
    (X := startX vo vm vl vg kin vin m) (Y := kvPts m) (Z := fun _ => iprop(emp))
    (hX := start_intro vo vm vl vg kin vin m ρ) (hin := phi0_intro vo vm vl vg kin vin m) (hout := phi1_exit vo vm vl vg kin vin m)
    (QY := fun c s => s.mem ((c : Thread nD τ).loc main_arg1) = m ((c : Thread nD τ).loc main_arg1)
        ∧ s.mem ((c : Thread nD τ).loc main_arg2) = m ((c : Thread nD τ).loc main_arg2))
    (hY := fun c s' => kv_read m c _ s')
    (hQ := fun _ h c => ⟨(h c).1, (h c).2.2⟩)

/-- The query array after the run holds what it held. -/
theorem finalA_q (c : Dev nD) : finalA vo vm vl vg kin vin m c (0 : Fin 2) = m (win0_0.arr.view.loc (c : Thread nD τ)) :=
  (dats (F := F) vo vm vl vg kin vin m 0 c).arrAt_in (0 : Fin 2) rfl _

omit [FloatOps F] in
/-- The result window is written back at the one point. -/
theorem flush_out : (cfg0.win (1 : Fin 2)).flush t₀ = true := by decide

/-- The result array after the run holds what the body left in its staging buffer: the gathered result of the device's
    position along z. -/
theorem finalA_out (c : Dev nD) : finalA vo vm vl vg kin vin m c (1 : Fin 2) = outAt vg c := by
  unfold finalA
  have h := (dats (F := F) vo vm vl vg kin vin m 0 c).arrAt_succ (1 : Fin 2) t₀
  rw [flush_out, if_pos rfl] at h
  refine h.trans ?_
  exact Memref.write_access_unit_zero_univ (Elt F) main_v1 (funext fun a => by fin_cases a <;> rfl) _ _ _

/-- The run with its values: every device's result array ends holding the gathered result of its position along z, and
    its three argument arrays end as they were. -/
theorem run_value (hsb : SoundBody vo vm vl vg kin vin m) :
    θ_run defs (onTc (τ := τ) (main (F := F))) (s₀ m ρ) (fun r => ∀ c : Dev nD,
      r.2.mem ((c : Thread nD τ).loc main_v1) = outAt vg c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨((h c).1 (1 : Fin 2)).trans (finalA_out vo vm vl vg kin vin m c),
      ((h c).1 (0 : Fin 2)).trans (finalA_q vo vm vl vg kin vin m c), (h c).2.1, (h c).2.2⟩) (run_main vo vm vl vg kin vin m ρ hsb)

end Launch

/-- info: 'Cert.Kernel.FD.run_value' depends on axioms: [propext, Classical.choice, Quot.sound] -/
#guard_msgs in #print axioms run_value

end Cert.Kernel.FD

end
-- ==== Proof.Segments.lean ====
/-
  The body of the decode step, cut where its local computation meets its communication.

  The printed body is one sequence: the entry part (the two local transfers of the device's key and value blocks and
  the first load of the query block), sixteen heads of attention against the device's own key block, the ring that
  passes the three partial results along z, the merge of the four partial results, and the three exchanges of the
  merged rows. The heads (`segCompute`) and the merge (`segMerge`) touch only the device's own buffers; every
  other piece signals, copies to another device or waits for one. This module names those pieces and proves that the
  body is their sequence, so that each piece can be run on its own and the runs composed along the sequence.
-/
import proofs.«900429_g7700000000000430_dist_flashdec_v7x_xyz2x4x4_z_b8_sq8_skv1024_h16_d128_f32_1_alg».proof.Proof.Gen.KernelIdeal.Skeleton

set_option synthInstance.maxSize 4096

noncomputable section

namespace Cert.KernelIdeal.FD

open Cert.KernelIdeal Cert.KernelIdeal.Gen

open Idealize.ShloMosaic Idealize.SL.Sem

variable {F : FTy → Type} [FloatOps F]

/-- The sixteen heads: each loads its rows of the query block (head 0's are loaded by the entry part and handed in
    as `v28`), its column of the key and of the value block, and stores the unnormalised output, the row maxima and
    the row sums at its place in slot 0 of the three partial-result buffers. It ends with the two neighbour
    coordinates along z, computed from the device's own coordinate `v8`. -/
noncomputable def segCompute (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3) (d0 : Dev nD) (v8 : BitVec 32) (v10 : BitVec 32) (v28 : Vec F S1x8x1x128 .f32) :
    Prog (TpuEff nD τ sig (Elt F) Λ₀ .tc) (Σ' (v460 : BitVec 32) (v462 : BitVec 32), BitVec 32) := do
  let v56 : FVec F S8x128 .f32 ← k0_part2 arg0 harg0 arg1 harg1 arg2 harg2 arg3 harg3 arg4 harg4 arg5 harg5 arg6 harg6 arg7 harg7 arg8 harg8 arg9 arg10 arg11 arg12 arg13 arg14 arg15 arg16 arg17 d0 v10 v28
  let ⟨v83, v85⟩ : Σ' (v83 : FVec F S8x128 .f32), FVec F S1024x128 .f32 ← k0_part3 arg0 harg0 arg1 harg1 arg2 harg2 arg3 harg3 arg4 harg4 arg5 harg5 arg6 harg6 arg7 harg7 arg8 harg8 arg9 arg10 arg11 arg12 arg13 arg14 arg15 arg16 arg17 d0 v10 v56
  let ⟨v110, v112, v114, cst_100⟩ : Σ' (v110 : FVec F S8x128 .f32) (v112 : FVec F S1024x128 .f32) (v114 : FVec F S1024x128 .f32), FVec F S8x1024 .f32 ← k0_part4 arg0 harg0 arg1 harg1 arg2 harg2 arg3 harg3 arg4 harg4 arg5 harg5 arg6 harg6 arg7 harg7 arg8 harg8 arg9 arg10 arg11 arg12 arg13 arg14 arg15 arg16 arg17 d0 v10 v83 v85
  let ⟨v141, v144⟩ : Σ' (v141 : FVec F S1024x128 .f32), FVec F S8x1024 .f32 ← k0_part5 arg0 harg0 arg1 harg1 arg2 harg2 arg3 harg3 arg4 harg4 arg5 harg5 arg6 harg6 arg7 harg7 arg8 harg8 arg9 arg10 arg11 arg12 arg13 arg14 arg15 arg16 arg17 d0 v10 v110 v112 v114 cst_100
  let ⟨v168, v171, v173, v174⟩ : Σ' (v168 : FVec F S1024x128 .f32) (v171 : FVec F S8x1024 .f32) (v173 : FVec F S8x1 .f32), FVec F S8x1024 .f32 ← k0_part6 arg0 harg0 arg1 harg1 arg2 harg2 arg3 harg3 arg4 harg4 arg5 harg5 arg6 harg6 arg7 harg7 arg8 harg8 arg9 arg10 arg11 arg12 arg13 arg14 arg15 arg16 arg17 d0 v10 v141 v144
  let ⟨v195, v200, v203, v204⟩ : Σ' (v195 : FVec F S1024x128 .f32) (v200 : FVec F S8x1 .f32) (v203 : FVec F S8x1024 .f32), FVec F S8 .f32 ← k0_part7 arg0 harg0 arg1 harg1 arg2 harg2 arg3 harg3 arg4 harg4 arg5 harg5 arg6 harg6 arg7 harg7 arg8 harg8 arg9 arg10 arg11 arg12 arg13 arg14 arg15 arg16 arg17 d0 v10 v168 v171 v173 v174
  let ⟨v227, v232, v233⟩ : Σ' (v227 : FVec F S8x1 .f32) (v232 : FVec F S8x1 .f32), FVec F S8x128 .f32 ← k0_part8 arg0 harg0 arg1 harg1 arg2 harg2 arg3 harg3 arg4 harg4 arg5 harg5 arg6 harg6 arg7 harg7 arg8 harg8 arg9 arg10 arg11 arg12 arg13 arg14 arg15 arg16 arg17 d0 v10 v195 v200 v203 v204
  let ⟨v254, v259, v260, v261⟩ : Σ' (v254 : FVec F S8x1 .f32) (v259 : FVec F S8x1 .f32) (v260 : FVec F S8x128 .f32), Vec F S1x8x1x128 .f32 ← k0_part9 arg0 harg0 arg1 harg1 arg2 harg2 arg3 harg3 arg4 harg4 arg5 harg5 arg6 harg6 arg7 harg7 arg8 harg8 arg9 arg10 arg11 arg12 arg13 arg14 arg15 arg16 arg17 d0 v10 v227 v232 v233
  let ⟨v281, v286⟩ : Σ' (v281 : FVec F S8x1 .f32), FVec F S8x1 .f32 ← k0_part10 arg0 harg0 arg1 harg1 arg2 harg2 arg3 harg3 arg4 harg4 arg5 harg5 arg6 harg6 arg7 harg7 arg8 harg8 arg9 arg10 arg11 arg12 arg13 arg14 arg15 arg16 arg17 d0 v10 v254 v259 v260 v261
  let ⟨v308, v313, v318⟩ : Σ' (v308 : FVec F S8x1 .f32) (v313 : FVec F S8x1 .f32), Vec F S1x8x1x1 .f32 ← k0_part11 arg0 harg0 arg1 harg1 arg2 harg2 arg3 harg3 arg4 harg4 arg5 harg5 arg6 harg6 arg7 harg7 arg8 harg8 arg9 arg10 arg11 arg12 arg13 arg14 arg15 arg16 arg17 d0 v10 v281 v286
  let v340 : FVec F S8x1 .f32 ← k0_part12 arg0 harg0 arg1 harg1 arg2 harg2 arg3 harg3 arg4 harg4 arg5 harg5 arg6 harg6 arg7 harg7 arg8 harg8 arg9 arg10 arg11 arg12 arg13 arg14 arg15 arg16 arg17 d0 v10 v308 v313 v318
  let ⟨v367, v375⟩ : Σ' (v367 : FVec F S8x1 .f32), Vec F S1x8x1x1 .f32 ← k0_part13 arg0 harg0 arg1 harg1 arg2 harg2 arg3 harg3 arg4 harg4 arg5 harg5 arg6 harg6 arg7 harg7 arg8 harg8 arg9 arg10 arg11 arg12 arg13 arg14 arg15 arg16 arg17 d0 v10 v340
  k0_part14 arg0 harg0 arg1 harg1 arg2 harg2 arg3 harg3 arg4 harg4 arg5 harg5 arg6 harg6 arg7 harg7 arg8 harg8 arg9 arg10 arg11 arg12 arg13 arg14 arg15 arg16 arg17 d0 v10 v367 v375
  let v433 : Vec F S1x8x1x128 .f32 ← k0_part15 arg0 harg0 arg1 harg1 arg2 harg2 arg3 harg3 arg4 harg4 arg5 harg5 arg6 harg6 arg7 harg7 arg8 harg8 arg9 arg10 arg11 arg12 arg13 arg14 arg15 arg16 arg17 d0 v10
  k0_part16 arg0 harg0 arg1 harg1 arg2 harg2 arg3 harg3 arg4 harg4 arg5 harg5 arg6 harg6 arg7 harg7 arg8 harg8 arg9 arg10 arg11 arg12 arg13 arg14 arg15 arg16 arg17 v8 v433

/-- The wait for the last ring hop's row sums: the one communication step of the merge's first part. -/
noncomputable def seg29Wait (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3) :
    Prog (TpuEff nD τ sig (Elt F) Λ₀ .tc) PUnit := do
  let v780 : DmaSems sig S1 := arg15.slice (Rect.unit (s := S3) ![2] S1.size inb_S3_S1_2)
  let v781 : DmaSems sig S_ := v780.squeeze S_ squeezes_S1_S_
  let v782 : Memref sig .tc .vmem S1x8x16x1 .f32 := arg8.slice (Rect.unit (s := S4x8x16x1) ![3, 0, 0, 0] S1x8x16x1.size inb_S4x8x16x1_S1x8x16x1_3_0_0_0) (fun _ => rfl)
  let v783 : Memref sig .tc .vmem S8x16x1 .f32 := v782.squeeze S8x16x1 squeezes_S1x8x16x1_S8x16x1
  let v784 : Memref sig .tc .vmem S1x8x16x1 .f32 := arg8.slice (Rect.unit (s := S4x8x16x1) ![2, 0, 0, 0] S1x8x16x1.size inb_S4x8x16x1_S1x8x16x1_2_0_0_0) (fun _ => rfl)
  let v785 : Memref sig .tc .vmem S8x16x1 .f32 := v784.squeeze S8x16x1 squeezes_S1x8x16x1_S8x16x1
  Prog.lift (.waitDma2 v781.sem v785 v783 ((View.wordExact_bits rfl).reshape _ _) ((View.wordExact_bits rfl).reshape _ _))

/-- The merge of the four slots: it loads slot after slot of the three partial-result buffers, rescales each to the
    common row maximum, and returns the merged and normalised rows. -/
noncomputable def segMerge (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3) :
    Prog (TpuEff nD τ sig (Elt F) Λ₀ .tc) (FVec F S1x8x16x128 .f32) := do
  let v786 : Vec F S1x8x16x1 .f32 ← Prog.lift (.load arg7 (Rect.unit (s := S4x8x16x1) ![0, 0, 0, 0] S1x8x16x1.size inb_S4x8x16x1_S1x8x16x1_0_0_0_0).toLoadRect (View.loadsAt_vmem h_S1x8x16x1))
  let v788 : Vec F S1x8x16x1 .f32 ← Prog.lift (.load arg8 (Rect.unit (s := S4x8x16x1) ![0, 0, 0, 0] S1x8x16x1.size inb_S4x8x16x1_S1x8x16x1_0_0_0_0).toLoadRect (View.loadsAt_vmem h_S1x8x16x1))
  let v790 : Vec F S1x8x16x128 .f32 ← Prog.lift (.load arg6 (Rect.unit (s := S4x8x16x128) ![0, 0, 0, 0] S1x8x16x128.size inb_S4x8x16x128_S1x8x16x128_0_0_0_0).toLoadRect (View.loadsAt_vmem h_S1x8x16x128))
  let v792 : Vec F S1x8x16x1 .f32 ← Prog.lift (.load arg7 (Rect.unit (s := S4x8x16x1) ![1, 0, 0, 0] S1x8x16x1.size inb_S4x8x16x1_S1x8x16x1_1_0_0_0).toLoadRect (View.loadsAt_vmem h_S1x8x16x1))
  let v801 : Vec F S1x8x16x128 .f32 ← Prog.lift (.load arg6 (Rect.unit (s := S4x8x16x128) ![1, 0, 0, 0] S1x8x16x128.size inb_S4x8x16x128_S1x8x16x128_1_0_0_0).toLoadRect (View.loadsAt_vmem h_S1x8x16x128))
  let ⟨v836, v843, v844⟩ : Σ' (v836 : FVec F S8x16x1 .f32) (v843 : FVec F S8x16x128 .f32), FVec F S8x16x1 .f32 ← k0_part30 arg0 harg0 arg1 harg1 arg2 harg2 arg3 harg3 arg4 harg4 arg5 harg5 arg6 harg6 arg7 harg7 arg8 harg8 arg9 arg10 arg11 arg12 arg13 arg14 arg15 arg16 arg17 (k0_pay118 v786 v792) (k0_pay120 v786 v792) (k0_pay121 v786 v790 v792 v801) (k0_pay122 v786 v788 v792)
  let v845 : Vec F S1x8x16x1 .f32 ← Prog.lift (.load arg8 (Rect.unit (s := S4x8x16x1) ![3, 0, 0, 0] S1x8x16x1.size inb_S4x8x16x1_S1x8x16x1_3_0_0_0).toLoadRect (View.loadsAt_vmem h_S1x8x16x1))
  pure (k0_pay133 v836 v843 v844 v845)

/-- After the merge: the merged rows `w` are stored into the device's own row of the result's staging buffer, and the
    first exchange sends that row to the partner and waits for the send. -/
noncomputable def seg31Tail (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3) (d0 : Dev nD) (w : FVec F S1x8x16x128 .f32) :
    Prog (TpuEff nD τ sig (Elt F) Λ₀ .tc) PUnit := do
  let v853 : Vec F S1x8x16x128 .f32 ← Prog.lift (.load arg3 (Rect.unit (s := S8x8x16x128) (k0_off18 d0) S1x8x16x128.size (k0_off18_inb d0)).toLoadRect (View.loadsAt_vmem h_S1x8x16x128))
  Prog.lift (.store arg3 (Rect.unit (s := S8x8x16x128) (k0_off18 d0) S1x8x16x128.size (k0_off18_inb d0)) w Finset.univ (View.stores_vmem_bits_univ h_S1x8x16x128 rfl) (.inl rfl))
  let v862 : DmaSems sig S1 := arg16.slice (Rect.unit (s := S3) ![0] S1.size inb_S3_S1_0)
  let v863 : DmaSems sig S_ := v862.squeeze S_ squeezes_S1_S_
  let v864 : DmaSems sig S1 := arg17.slice (Rect.unit (s := S3) ![0] S1.size inb_S3_S1_0)
  let v865 : DmaSems sig S_ := v864.squeeze S_ squeezes_S1_S_
  let v866 : Memref sig .tc .vmem S1x8x16x128 .f32 := arg3.slice (Rect.unit (s := S8x8x16x128) (k0_off19 d0) S1x8x16x128.size (k0_off19_inb d0)) (fun _ => rfl)
  let v867 : Memref sig .tc .vmem S1x8x16x128 .f32 := arg3.slice (Rect.unit (s := S8x8x16x128) (k0_off19 d0) S1x8x16x128.size (k0_off19_inb d0)) (fun _ => rfl)
  Prog.lift (.enqueueDma v867 (.remote (Dev.tc (⟨k0_dev15 d0, k0_dev15_lt d0⟩ : Dev nD)) v866 (.dma v863.sem)) (.dma v865.sem) (View.wordExact_bits rfl) (View.wordExact_bits rfl) ⟨⟨rfl, Or.inl rfl⟩, trivial⟩)
  let v868 : DmaSems sig S1 := arg16.slice (Rect.unit (s := S3) ![0] S1.size inb_S3_S1_0)
  let v869 : DmaSems sig S_ := v868.squeeze S_ squeezes_S1_S_
  let v870 : Memref sig .tc .vmem S1x8x16x128 .f32 := arg3.slice (Rect.unit (s := S8x8x16x128) (k0_off19 d0) S1x8x16x128.size (k0_off19_inb d0)) (fun _ => rfl)
  let v871 : Memref sig .tc .vmem S1x8x16x128 .f32 := arg3.slice (Rect.unit (s := S8x8x16x128) (k0_off19 d0) S1x8x16x128.size (k0_off19_inb d0)) (fun _ => rfl)
  Prog.lift (.waitDma2 v869.sem v871 v870 (View.wordExact_bits rfl) (View.wordExact_bits rfl))
  pure ⟨⟩

/-- The end of the body: the two waits of the last exchange. -/
noncomputable def segExit (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3) (d0 : Dev nD) :
    Prog (TpuEff nD τ sig (Elt F) Λ₀ .tc) PUnit := do
  let v923 : Memref sig .tc .vmem S4x8x16x128 .f32 := arg3.slice (Rect.unit (s := S8x8x16x128) (k0_off21 d0) S4x8x16x128.size (k0_off21_inb d0)) (fun _ => rfl)
  let v920 : DmaSems sig S1 := arg16.slice (Rect.unit (s := S3) ![2] S1.size inb_S3_S1_2)
  let v921 : DmaSems sig S_ := v920.squeeze S_ squeezes_S1_S_
  let v922 : Memref sig .tc .vmem S4x8x16x128 .f32 := arg3.slice (Rect.unit (s := S8x8x16x128) (k0_off21 d0) S4x8x16x128.size (k0_off21_inb d0)) (fun _ => rfl)
  Prog.lift (.waitDma2 v921.sem v923 v922 (View.wordExact_bits rfl) (View.wordExact_bits rfl))
  let v930 : DmaSems sig S1 := arg17.slice (Rect.unit (s := S3) ![2] S1.size inb_S3_S1_2)
  let v931 : DmaSems sig S_ := v930.squeeze S_ squeezes_S1_S_
  let v932 : Memref sig .tc .vmem S4x8x16x128 .f32 := arg3.slice (Rect.unit (s := S8x8x16x128) (k0_off21 d0) S4x8x16x128.size (k0_off21_inb d0)) (fun _ => rfl)
  let v933 : Memref sig .tc .vmem S4x8x16x128 .f32 := arg3.slice (Rect.unit (s := S8x8x16x128) (k0_off21 d0) S4x8x16x128.size (k0_off21_inb d0)) (fun _ => rfl)
  Prog.lift (.waitDma2 v931.sem v933 v932 (View.wordExact_bits rfl) (View.wordExact_bits rfl))
  pure ⟨⟩

set_option maxRecDepth 65536 in

/-- The body as the sequence of its pieces. -/
noncomputable def bodySegs (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3) :
    Prog (TpuEff nD τ sig (Elt F) Λ₀ .tc) PUnit := do
  let ⟨d0, v2, v5, v8, v10, v28⟩ : Σ' (d0 : Dev nD) (v2 : BitVec 32) (v5 : BitVec 32) (v8 : BitVec 32) (v10 : BitVec 32), Vec F S1x8x1x128 .f32 ← k0_part1 arg0 harg0 arg1 harg1 arg2 harg2 arg3 harg3 arg4 harg4 arg5 harg5 arg6 harg6 arg7 harg7 arg8 harg8 arg9 arg10 arg11 arg12 arg13 arg14 arg15 arg16 arg17
  let ⟨v460, v462, c4_i32_421⟩ : Σ' (v460 : BitVec 32) (v462 : BitVec 32), BitVec 32 ← segCompute arg0 harg0 arg1 harg1 arg2 harg2 arg3 harg3 arg4 harg4 arg5 harg5 arg6 harg6 arg7 harg7 arg8 harg8 arg9 arg10 arg11 arg12 arg13 arg14 arg15 arg16 arg17 d0 v8 v10 v28
  let ⟨v464, v465, v466, v467, v492, c0_i32_447⟩ : Σ' (v464 : BitVec 32) (v465 : BitVec 32) (v466 : BitVec 32) (v467 : Sems sig S_) (v492 : BitVec 32), BitVec 32 ← k0_part17 arg0 harg0 arg1 harg1 arg2 harg2 arg3 harg3 arg4 harg4 arg5 harg5 arg6 harg6 arg7 harg7 arg8 harg8 arg9 arg10 arg11 arg12 arg13 arg14 arg15 arg16 arg17 d0 v2 v5 v8 v460 v462 c4_i32_421
  k0_part18 arg0 harg0 arg1 harg1 arg2 harg2 arg3 harg3 arg4 harg4 arg5 harg5 arg6 harg6 arg7 harg7 arg8 harg8 arg9 arg10 arg11 arg12 arg13 arg14 arg15 arg16 arg17 d0 v2 v5 v8 v460 v467 v492 c0_i32_447
  k0_part19 arg0 harg0 arg1 harg1 arg2 harg2 arg3 harg3 arg4 harg4 arg5 harg5 arg6 harg6 arg7 harg7 arg8 harg8 arg9 arg10 arg11 arg12 arg13 arg14 arg15 arg16 arg17 d0 v2 v5 v460
  k0_part20 arg0 harg0 arg1 harg1 arg2 harg2 arg3 harg3 arg4 harg4 arg5 harg5 arg6 harg6 arg7 harg7 arg8 harg8 arg9 arg10 arg11 arg12 arg13 arg14 arg15 arg16 arg17 v2 v5 v460
  let ⟨v594, c0_i32_572⟩ : Σ' (v594 : BitVec 32), BitVec 32 ← k0_part21 arg0 harg0 arg1 harg1 arg2 harg2 arg3 harg3 arg4 harg4 arg5 harg5 arg6 harg6 arg7 harg7 arg8 harg8 arg9 arg10 arg11 arg12 arg13 arg14 arg15 arg16 arg17 v2 v5 v460
  let ⟨v623, c4_i32_601⟩ : Σ' (v623 : BitVec 32), BitVec 32 ← k0_part22 arg0 harg0 arg1 harg1 arg2 harg2 arg3 harg3 arg4 harg4 arg5 harg5 arg6 harg6 arg7 harg7 arg8 harg8 arg9 arg10 arg11 arg12 arg13 arg14 arg15 arg16 arg17 d0 v2 v5 v460 v594 c0_i32_572
  k0_part23 arg0 harg0 arg1 harg1 arg2 harg2 arg3 harg3 arg4 harg4 arg5 harg5 arg6 harg6 arg7 harg7 arg8 harg8 arg9 arg10 arg11 arg12 arg13 arg14 arg15 arg16 arg17 d0 v2 v5 v460 v623 c4_i32_601
  k0_part24 arg0 harg0 arg1 harg1 arg2 harg2 arg3 harg3 arg4 harg4 arg5 harg5 arg6 harg6 arg7 harg7 arg8 harg8 arg9 arg10 arg11 arg12 arg13 arg14 arg15 arg16 arg17 v2 v5 v460
  k0_part25 arg0 harg0 arg1 harg1 arg2 harg2 arg3 harg3 arg4 harg4 arg5 harg5 arg6 harg6 arg7 harg7 arg8 harg8 arg9 arg10 arg11 arg12 arg13 arg14 arg15 arg16 arg17 v2 v5 v460
  k0_part26 arg0 harg0 arg1 harg1 arg2 harg2 arg3 harg3 arg4 harg4 arg5 harg5 arg6 harg6 arg7 harg7 arg8 harg8 arg9 arg10 arg11 arg12 arg13 arg14 arg15 arg16 arg17 d0 v2 v5 v460
  k0_part27 arg0 harg0 arg1 harg1 arg2 harg2 arg3 harg3 arg4 harg4 arg5 harg5 arg6 harg6 arg7 harg7 arg8 harg8 arg9 arg10 arg11 arg12 arg13 arg14 arg15 arg16 arg17 d0 v2 v5 v460
  let ⟨v775, v776⟩ : Σ' (v775 : BitVec 32), BitVec 32 ← k0_part28 arg0 harg0 arg1 harg1 arg2 harg2 arg3 harg3 arg4 harg4 arg5 harg5 arg6 harg6 arg7 harg7 arg8 harg8 arg9 arg10 arg11 arg12 arg13 arg14 arg15 arg16 arg17 v2 v5 v460
  seg29Wait arg0 harg0 arg1 harg1 arg2 harg2 arg3 harg3 arg4 harg4 arg5 harg5 arg6 harg6 arg7 harg7 arg8 harg8 arg9 arg10 arg11 arg12 arg13 arg14 arg15 arg16 arg17
  let w : FVec F S1x8x16x128 .f32 ← segMerge arg0 harg0 arg1 harg1 arg2 harg2 arg3 harg3 arg4 harg4 arg5 harg5 arg6 harg6 arg7 harg7 arg8 harg8 arg9 arg10 arg11 arg12 arg13 arg14 arg15 arg16 arg17
  seg31Tail arg0 harg0 arg1 harg1 arg2 harg2 arg3 harg3 arg4 harg4 arg5 harg5 arg6 harg6 arg7 harg7 arg8 harg8 arg9 arg10 arg11 arg12 arg13 arg14 arg15 arg16 arg17 d0 w
  k0_part32 arg0 harg0 arg1 harg1 arg2 harg2 arg3 harg3 arg4 harg4 arg5 harg5 arg6 harg6 arg7 harg7 arg8 harg8 arg9 arg10 arg11 arg12 arg13 arg14 arg15 arg16 arg17 d0 v2 v8 v464 v465
  k0_part33 arg0 harg0 arg1 harg1 arg2 harg2 arg3 harg3 arg4 harg4 arg5 harg5 arg6 harg6 arg7 harg7 arg8 harg8 arg9 arg10 arg11 arg12 arg13 arg14 arg15 arg16 arg17 d0 v2 v5 v8 v465 v466
  segExit arg0 harg0 arg1 harg1 arg2 harg2 arg3 harg3 arg4 harg4 arg5 harg5 arg6 harg6 arg7 harg7 arg8 harg8 arg9 arg10 arg11 arg12 arg13 arg14 arg15 arg16 arg17 d0

set_option maxRecDepth 65536 in
/-- The body's skeleton is the sequence of its pieces: both sides unfold to the same sequence of operations. -/
theorem k0_part34_skel_eq_segs : k0_part34_skel (F := F) = bodySegs (F := F) := rfl

/-- The printed root part is the sequence of its pieces. -/
theorem k0_part34_eq_segs : k0_part34 (F := F) = bodySegs (F := F) :=
  k0_part34_eq_skeleton.trans k0_part34_skel_eq_segs

/-- The printed body is the sequence of its pieces, then the return. -/
theorem cc0_body_eq_segs (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3) :
    cc0_body (F := F) arg0 harg0 arg1 harg1 arg2 harg2 arg3 harg3 arg4 harg4 arg5 harg5 arg6 harg6 arg7 harg7 arg8 harg8 arg9 arg10 arg11 arg12 arg13 arg14 arg15 arg16 arg17 = (do bodySegs arg0 harg0 arg1 harg1 arg2 harg2 arg3 harg3 arg4 harg4 arg5 harg5 arg6 harg6 arg7 harg7 arg8 harg8 arg9 arg10 arg11 arg12 arg13 arg14 arg15 arg16 arg17; pure ⟨⟩) := by
  rw [cc0_body_eq_skeleton, cc0_body_skel, k0_part34_eq_segs]

end Cert.KernelIdeal.FD

end
-- ==== Proof.BodyState.lean ====
/-
  The state of one device between the communication steps of the body.

  A device `c` works with: its own barrier cell and its five neighbours'; per ring buffer kind `b` and hop `h` its own send
  cell, its own receive cell and the next device's receive cell; per exchange `st` its own send cell, its own receive cell
  and the partner's receive cell. What it holds of each of these changes step by step: a token for each duty it still has to
  pay, its position and its credit on each cell it still has to wait on, the slots and rows it owns at the moment. This module
  names those holdings one by one, and then the states at the places where the communication steps meet the local ones.
-/
import proofs.«900429_g7700000000000430_dist_flashdec_v7x_xyz2x4x4_z_b8_sq8_skv1024_h16_d128_f32_1_alg».proof.Proof.Proto

noncomputable section

namespace Cert.KernelIdeal.FD

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section State

variable (vo : Dev nD → S8x16x128.Idx → Elt F .f32) (vm vl : Dev nD → S8x16x1.Idx → Elt F .f32)
variable (vg : ℕ → S8x8x16x128.Idx → Elt F .f32)
variable (kin vin : Dev nD → S1024x16x128.Idx → Elt F .f32)
variable (m : (ℓ : Loc nD τ sig) → Buf (Elt F) ℓ)

local notation "RD" => Rd vo vm vl vg kin vin m

/-! ## What never changes: the cells' invariants, their round 0 reached, the levels -/

/-- Cell `g`'s invariant sits at the name `κ g`, and round 0 of `g` is reached. -/
def cellRec (κ : GSem nD τ sig → ℕ) (g : GSem nD τ sig) : sProp 𝕄 := iprop(cellInv ER RD (κ g) g ∗ reached ER g 0)

omit [FloatOps F] in
instance cellRec_persistent (κ : GSem nD τ sig → ℕ) (g : GSem nD τ sig) : BI.Persistent (cellRec vo vm vl vg kin vin m κ g) := by
  unfold cellRec; infer_instance

/-- The records of every cell device `c` signals, copies onto or waits on, and the levels of all cells. -/
def commRecs (κ : GSem nD τ sig → ℕ) (c : Dev nD) : sProp 𝕄 :=
  iprop(levAts L lv
    ∗ cellRec vo vm vl vg kin vin m κ (barCell c) ∗ cellRec vo vm vl vg kin vin m κ (barCell (zl c)) ∗ cellRec vo vm vl vg kin vin m κ (barCell (zr c))
    ∗ cellRec vo vm vl vg kin vin m κ (barCell (p0 c)) ∗ cellRec vo vm vl vg kin vin m κ (barCell (p1 c)) ∗ cellRec vo vm vl vg kin vin m κ (barCell (p2 c))
    ∗ (bigSep Finset.univ fun b : Fin 3 => bigSep Finset.univ fun h : Fin 3 =>
        iprop(cellRec vo vm vl vg kin vin m κ (rsendCell c b h) ∗ cellRec vo vm vl vg kin vin m κ (rrecvCell c b h) ∗ cellRec vo vm vl vg kin vin m κ (rrecvCell (zr c) b h)))
    ∗ (bigSep Finset.univ fun st : Fin 3 =>
        iprop(cellRec vo vm vl vg kin vin m κ (gsendCell c st) ∗ cellRec vo vm vl vg kin vin m κ (grecvCell c st) ∗ cellRec vo vm vl vg kin vin m κ (grecvCell (partner st c) st)))
    ∗ cellRec vo vm vl vg kin vin m κ (loadCell c 0) ∗ cellRec vo vm vl vg kin vin m κ (loadCell c 1))

/-! ## What a device holds of its cells -/

/-- The device owes what is left after its first `k` payments, whatever waits it has recorded. -/
def owesAt (k : ℕ) (c : Dev nD) : sProp 𝕄 := iprop(∃ W, owes (c : Thread nD τ) (owedAfter k c) W)

/-- The five tokens the device's five signals pay with: one duty of each neighbour's barrier cell. -/
def barToks (c : Dev nD) : sProp 𝕄 :=
  iprop(dutyTok ER (barCell (zl c)) 0 0 ∗ dutyTok ER (barCell (zr c)) 0 1 ∗ dutyTok ER (barCell (p0 c)) 0 2
    ∗ dutyTok ER (barCell (p1 c)) 0 3 ∗ dutyTok ER (barCell (p2 c)) 0 4)

/-- The device's position at round 0 of its own barrier cell and the five units of credit it was dealt for it. -/
def barPos (c : Dev nD) : sProp 𝕄 := iprop(atPos ER (barCell c) 0 ∅ 0 ∗ cred (tallyAt (barCell c) () 5))

/-- The two tokens the ring transfer of buffer kind `b` at hop `h` pays with: the duty of the device's own send cell and the duty
    of the next device's receive cell. -/
def ringToks (c : Dev nD) (b h : Fin 3) : sProp 𝕄 :=
  iprop(dutyTok ER (rsendCell c b h) 0 0 ∗ dutyTok ER (rrecvCell (zr c) b h) 0 0)

/-- The device's positions at round 0 of its send and receive cells of `(b, h)`, and the credit it was dealt for the receive cell. -/
def ringPos (c : Dev nD) (b h : Fin 3) : sProp 𝕄 :=
  iprop(atPos ER (rsendCell c b h) 0 ∅ 0 ∗ atPos ER (rrecvCell c b h) 0 ∅ 0 ∗ cred (tallyAt (rrecvCell c b h) () (Nring b)))

/-- Both cells of `(b, h)` waited for: the device stands at round 1 of each, where no duty is left. -/
def ringDone (c : Dev nD) (b h : Fin 3) : sProp 𝕄 :=
  iprop(atPos ER (rsendCell c b h) (0 + 1) ∅ 0 ∗ atPos ER (rrecvCell c b h) (0 + 1) ∅ 0)

/-- The same three for the exchange `st`. -/
def gathToks (c : Dev nD) (st : Fin 3) : sProp 𝕄 :=
  iprop(dutyTok ER (gsendCell c st) 0 0 ∗ dutyTok ER (grecvCell (partner st c) st) 0 0)
def gathPos (c : Dev nD) (st : Fin 3) : sProp 𝕄 :=
  iprop(atPos ER (gsendCell c st) 0 ∅ 0 ∗ atPos ER (grecvCell c st) 0 ∅ 0 ∗ cred (tallyAt (grecvCell c st) () (Nrows (partner st c) st)))
def gathDone (c : Dev nD) (st : Fin 3) : sProp 𝕄 :=
  iprop(atPos ER (gsendCell c st) (0 + 1) ∅ 0 ∗ atPos ER (grecvCell c st) (0 + 1) ∅ 0)

/-- The two loads of the keys and the values: tokens and positions before, positions after. -/
def loadToks (c : Dev nD) : sProp 𝕄 :=
  iprop(dutyTok ER (loadCell c 0) 0 0 ∗ dutyTok ER (loadCell c 1) 0 0 ∗ atPos ER (loadCell c 0) 0 ∅ 0 ∗ atPos ER (loadCell c 1) 0 ∅ 0)
def loadDone (c : Dev nD) : sProp 𝕄 := iprop(atPos ER (loadCell c 0) (0 + 1) ∅ 0 ∗ atPos ER (loadCell c 1) (0 + 1) ∅ 0)

/-! ## The states where the communication steps meet the local ones

`commEntry`: after the sixteen heads, before the first signal. The device has paid nothing yet; slot 0 of its three ring buffers
holds its own partial results and it still owns slots 1, 2, 3 (which its first signal lends to the previous device along z) and
all eight rows of its result staging buffer (seven of which its three signals to the partners lend to them).
`ringExit`: after the last wait of the ring. All four slots of the three ring buffers hold the partial results of the device and of
the three devices before it along z; the five barrier units and the nine ring transfers are paid; the device owns its own row of
the result staging buffer and the rows of its partners' staging buffers it will write.
`gathEntry`: after the merged row is stored. As `ringExit`, the ring buffers apart, the device's own row holding its row of the result.
`commExit`: after the last wait. Everything is paid and waited for; the result staging buffer is whole again and holds the gathered result. -/

def commEntry (c : Dev nD) : sProp 𝕄 :=
  iprop(owesAt 0 c ∗ barToks (F := F) c ∗ barPos (F := F) c
    ∗ (bigSep Finset.univ fun b : Fin 3 => bigSep Finset.univ fun h : Fin 3 => iprop(ringToks (F := F) c b h ∗ ringPos (F := F) c b h))
    ∗ (bigSep Finset.univ fun st : Fin 3 => iprop(gathToks (F := F) c st ∗ gathPos (F := F) c st))
    ∗ (bigSep Finset.univ fun b : Fin 3 => iprop(slotHolds vo vm vl c b 0 ∗ slotOwned (F := F) c b 1 ∗ slotOwned (F := F) c b 2 ∗ slotOwned (F := F) c b 3))
    ∗ owned (F := F) c (row1 c) ∗ rowsOwned (F := F) c (p0 c) 0 ∗ rowsOwned (F := F) c (p1 c) 1 ∗ rowsOwned (F := F) c (p2 c) 2)

def ringExit (c : Dev nD) : sProp 𝕄 :=
  iprop(owesAt 14 c ∗ atPos ER (barCell c) (0 + 1) ∅ 0
    ∗ (bigSep Finset.univ fun b : Fin 3 => bigSep Finset.univ fun h : Fin 3 => ringDone (F := F) c b h)
    ∗ (bigSep Finset.univ fun st : Fin 3 => iprop(gathToks (F := F) c st ∗ gathPos (F := F) c st))
    ∗ (bigSep Finset.univ fun b : Fin 3 => bigSep Finset.univ fun j : Fin 4 => slotHolds vo vm vl c b j)
    ∗ owned (F := F) c (row1 c) ∗ rowsOwned (F := F) (p0 c) c 0 ∗ rowsOwned (F := F) (p1 c) c 1 ∗ rowsOwned (F := F) (p2 c) c 2
    ∗ reached ER (grecvCell (p0 c) 0) 0 ∗ reached ER (grecvCell (p1 c) 1) 0 ∗ reached ER (grecvCell (p2 c) 2) 0)

def gathEntry (c : Dev nD) : sProp 𝕄 :=
  iprop(owesAt 14 c
    ∗ (bigSep Finset.univ fun st : Fin 3 => iprop(gathToks (F := F) c st ∗ gathPos (F := F) c st))
    ∗ rowsHold vg c c 0 ∗ rowsOwned (F := F) (p0 c) c 0 ∗ rowsOwned (F := F) (p1 c) c 1 ∗ rowsOwned (F := F) (p2 c) c 2
    ∗ reached ER (grecvCell (p0 c) 0) 0 ∗ reached ER (grecvCell (p1 c) 1) 0 ∗ reached ER (grecvCell (p2 c) 2) 0)

def commExit (c : Dev nD) : sProp 𝕄 :=
  iprop(owesAt 17 c
    ∗ (bigSep Finset.univ fun st : Fin 3 => gathDone (F := F) c st)
    ∗ (outM.view.loc (c : Thread nD τ) ↦{fullShare} (vg (c.val % 4))))

end State

end Cert.KernelIdeal.FD

end
-- ==== Proof.BodyGlue.lean ====
/-
  The two ends of the body's composition.

  At its entry the body holds the shared records of all cells, what stays with the device, its credit, the level facts
  and its buffers. Read cell by cell under the cells' names, that is the records of the cells the device signals, copies
  onto or waits on, and per communication step the tokens it pays with, its positions and its credit. At its exit the
  device has paid everything and stands at round 1 of each of its own 26 cells, where no duty is left: each cell closes
  and gives its counter back at zero, which is what the pipeline's invariant after the point asks for.
-/
import proofs.«900429_g7700000000000430_dist_flashdec_v7x_xyz2x4x4_z_b8_sq8_skv1024_h16_d128_f32_1_alg».proof.Proof.State
import proofs.«900429_g7700000000000430_dist_flashdec_v7x_xyz2x4x4_z_b8_sq8_skv1024_h16_d128_f32_1_alg».proof.Proof.BodyState

noncomputable section

namespace Cert.KernelIdeal.FD

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The name of a cell's invariant, cell by cell, from the names by table entry. -/
def κOf (K : Dev nD × Fin 27 → ℕ) : GSem nD τ sig → ℕ := fun g => K (Function.invFun kcell g)

theorem κOf_kcell (K : Dev nD × Fin 27 → ℕ) (ck : Dev nD × Fin 27) : κOf K (kcell ck) = K ck := by
  unfold κOf; rw [Function.leftInverse_invFun kcell_injective ck]

section Glue

variable (vo : Dev nD → S8x16x128.Idx → Elt F .f32) (vm vl : Dev nD → S8x16x1.Idx → Elt F .f32)
variable (vg : ℕ → S8x8x16x128.Idx → Elt F .f32)
variable (kin vin : Dev nD → S1024x16x128.Idx → Elt F .f32)
variable (m : (ℓ : Loc nD τ sig) → Buf (Elt F) ℓ)

/-! ## The records, cell by cell -/

theorem cellRec_of (K : Dev nD × Fin 27 → ℕ) (ck : Dev nD × Fin 27) :
    records (Rd vo vm vl vg kin vin m) K ⊢ cellRec vo vm vl vg kin vin m (κOf K) (kcell ck) := by
  unfold cellRec
  rw [κOf_kcell]
  iintro #H
  isplitr
  · iapply (inv_at (Rd vo vm vl vg kin vin m) K ck); iexact H
  · iapply (reached_at (Rd vo vm vl vg kin vin m) K ck); iexact H

theorem rec_bar (K : Dev nD × Fin 27 → ℕ) (d : Dev nD) : records (Rd vo vm vl vg kin vin m) K ⊢ cellRec vo vm vl vg kin vin m (κOf K) (barCell d) :=
  cellRec_of vo vm vl vg kin vin m K (d, 0)
theorem rec_load (K : Dev nD × Fin 27 → ℕ) (d : Dev nD) (i : Fin 2) : records (Rd vo vm vl vg kin vin m) K ⊢ cellRec vo vm vl vg kin vin m (κOf K) (loadCell d i) := by
  rw [loadCell_eq]; exact cellRec_of vo vm vl vg kin vin m K (d, kLoad i)
theorem rec_rsend (K : Dev nD × Fin 27 → ℕ) (d : Dev nD) (b h : Fin 3) : records (Rd vo vm vl vg kin vin m) K ⊢ cellRec vo vm vl vg kin vin m (κOf K) (rsendCell d b h) := by
  rw [rsendCell_eq]; exact cellRec_of vo vm vl vg kin vin m K (d, kRsend b h)
theorem rec_rrecv (K : Dev nD × Fin 27 → ℕ) (d : Dev nD) (b h : Fin 3) : records (Rd vo vm vl vg kin vin m) K ⊢ cellRec vo vm vl vg kin vin m (κOf K) (rrecvCell d b h) := by
  rw [rrecvCell_eq]; exact cellRec_of vo vm vl vg kin vin m K (d, kRrecv b h)
theorem rec_gsend (K : Dev nD × Fin 27 → ℕ) (d : Dev nD) (st : Fin 3) : records (Rd vo vm vl vg kin vin m) K ⊢ cellRec vo vm vl vg kin vin m (κOf K) (gsendCell d st) := by
  rw [gsendCell_eq]; exact cellRec_of vo vm vl vg kin vin m K (d, kGsend st)
theorem rec_grecv (K : Dev nD × Fin 27 → ℕ) (d : Dev nD) (st : Fin 3) : records (Rd vo vm vl vg kin vin m) K ⊢ cellRec vo vm vl vg kin vin m (κOf K) (grecvCell d st) := by
  rw [grecvCell_eq]; exact cellRec_of vo vm vl vg kin vin m K (d, kGrecv st)

theorem ringRecs (K : Dev nD × Fin 27 → ℕ) (c : Dev nD) :
    records (Rd vo vm vl vg kin vin m) K ⊢ bigSep Finset.univ fun b : Fin 3 => bigSep Finset.univ fun h : Fin 3 =>
      iprop(cellRec vo vm vl vg kin vin m (κOf K) (rsendCell c b h) ∗ cellRec vo vm vl vg kin vin m (κOf K) (rrecvCell c b h) ∗ cellRec vo vm vl vg kin vin m (κOf K) (rrecvCell (zr c) b h)) :=
  BI.bigSep_intro_persistent fun b _ => BI.bigSep_intro_persistent fun h _ => by
    iintro #H
    isplitr; · iapply (rec_rsend vo vm vl vg kin vin m K c b h); iexact H
    isplitr; · iapply (rec_rrecv vo vm vl vg kin vin m K c b h); iexact H
    iapply (rec_rrecv vo vm vl vg kin vin m K (zr c) b h); iexact H

theorem gathRecs (K : Dev nD × Fin 27 → ℕ) (c : Dev nD) :
    records (Rd vo vm vl vg kin vin m) K ⊢ bigSep Finset.univ fun st : Fin 3 =>
      iprop(cellRec vo vm vl vg kin vin m (κOf K) (gsendCell c st) ∗ cellRec vo vm vl vg kin vin m (κOf K) (grecvCell c st) ∗ cellRec vo vm vl vg kin vin m (κOf K) (grecvCell (partner st c) st)) :=
  BI.bigSep_intro_persistent fun st _ => by
    iintro #H
    isplitr; · iapply (rec_gsend vo vm vl vg kin vin m K c st); iexact H
    isplitr; · iapply (rec_grecv vo vm vl vg kin vin m K c st); iexact H
    iapply (rec_grecv vo vm vl vg kin vin m K (partner st c) st); iexact H

/-- The records of the cells device `c` works with, from the records of all cells and the level facts. -/
theorem commRecs_intro (K : Dev nD × Fin 27 → ℕ) (c : Dev nD) :
    iprop(records (Rd vo vm vl vg kin vin m) K ∗ levAts L lv) ⊢ commRecs vo vm vl vg kin vin m (κOf K) c := by
  unfold commRecs
  iintro ⟨#HR, Hlev⟩
  isplitl [Hlev]; · iexact Hlev
  isplitr; · iapply (rec_bar vo vm vl vg kin vin m K c); iexact HR
  isplitr; · iapply (rec_bar vo vm vl vg kin vin m K (zl c)); iexact HR
  isplitr; · iapply (rec_bar vo vm vl vg kin vin m K (zr c)); iexact HR
  isplitr; · iapply (rec_bar vo vm vl vg kin vin m K (p0 c)); iexact HR
  isplitr; · iapply (rec_bar vo vm vl vg kin vin m K (p1 c)); iexact HR
  isplitr; · iapply (rec_bar vo vm vl vg kin vin m K (p2 c)); iexact HR
  isplitr; · iapply (ringRecs vo vm vl vg kin vin m K c); iexact HR
  isplitr; · iapply (gathRecs vo vm vl vg kin vin m K c); iexact HR
  isplitr; · iapply (rec_load vo vm vl vg kin vin m K c 0); iexact HR
  iapply (rec_load vo vm vl vg kin vin m K c 1); iexact HR

/-! ## What the device owes, at the two ends -/

theorem owes_open (c : Dev nD) : (dats vo vm vl vg kin vin m 0 c).owesAt () t₀.castSucc ⊢ owesAt (F := F) 0 c := by
  unfold Dat.owesAt Pipeline.owesWithin owesAt
  iintro ⟨%W, -, H⟩
  iexists W; iexact H

theorem owes_close (c : Dev nD) : owesAt (F := F) 17 c ⊢ (dats vo vm vl vg kin vin m 0 c).owesAt () t₀.succ := by
  unfold Dat.owesAt Pipeline.owesWithin owesAt
  rw [owedAfter_all]
  iintro ⟨%W, H⟩
  iexists W
  isplitr; · ipureintro; exact fun x _ => Or.inl trivial
  iexact H

/-! ## The staged query as the body finds it -/

theorem fetch_q : (cfg0.win (0 : Fin 2)).fetch t₀ = true := by decide

theorem before_q (c : Dev nD) (d) : (dats vo vm vl vg kin vin m 0 c).before (0 : Fin 2) t₀ d = qstg m c := by
  unfold Dat.before; rw [if_pos fetch_q]; rfl

/-! ## The entry -/

/-- The body's precondition read cell by cell. -/
theorem open_pre (K : Dev nD × Fin 27 → ℕ) (c : Dev nD) :
    bodyPre vo vm vl vg kin vin m K c ⊢ iprop(commRecs vo vm vl vg kin vin m (κOf K) c
      ∗ owesAt 0 c ∗ barToks c ∗ barPos c
      ∗ (bigSep Finset.univ fun b : Fin 3 => bigSep Finset.univ fun h : Fin 3 => iprop(ringToks c b h ∗ ringPos c b h))
      ∗ (bigSep Finset.univ fun st : Fin 3 => iprop(gathToks c st ∗ gathPos c st))
      ∗ loadToks c ∗ kvPts m c ∗ owned c kM ∗ owned c vM ∗ owned c coM ∗ owned c cmM ∗ owned c clM
      ∗ stg c cc0_stg0_0 (qstg m c)
      ∗ (∃ f, (outM.view.loc (c : Thread nD τ) ↦{fullShare} f))) := by
  unfold bodyPre ghost creds
  rw [lin_open]
  unfold barToks barPos ringToks ringPos gathToks gathPos loadToks
  simp only [bigSep_fin3]
  iintro ⟨⟨⟨#HR, ⟨A0, A1, A2, A3, A4, A5, A6, A7, A8, A9, A10, A11, A12, A13, A14, A15, A16, A17, A18, A19, A20, A21, A22, A23, A24, A25, A26⟩, T0, T1, T2, T3, T4, T5, T6, T7, T8, T9, T10, T11, T12, T13, T14, T15, T16, T17, T18, T19, T20, T21, T22, T23, T24, T25, T26, T27, T28, T29, T30⟩, ⟨C0, C1, C2, C3, C4, C5, C6, C7, C8, C9, C10, C11, C12⟩, Hlev, Hkv, Hk, Hv, Hco, Hcm, Hcl⟩, Ho, ⟨%d0, %f0, %hx0, Hx⟩, ⟨%d1, %f1, -, Hout⟩⟩
  isplitl [Hlev]
  · iapply (commRecs_intro vo vm vl vg kin vin m K c)
    isplitr; · iexact HR
    iexact Hlev
  isplitl [Ho]
  · iapply (owes_open vo vm vl vg kin vin m c); iexact Ho
  isplitl [T0 T1 T2 T3 T4]
  · isplitl [T0]
    · iexact T0
    isplitl [T1]
    · iexact T1
    isplitl [T2]
    · iexact T2
    isplitl [T3]
    · iexact T3
    iexact T4
  isplitl [A0 C0]
  · isplitl [A0]
    · iexact A0
    iexact C0
  isplitl [T7 T10 A3 A6 C1 T8 T11 A4 A7 C4 T9 T12 A5 A8 C7 T13 T16 A9 A12 C2 T14 T17 A10 A13 C5 T15 T18 A11 A14 C8 T19 T22 A15 A18 C3 T20 T23 A16 A19 C6 T21 T24 A17 A20 C9]
  · isplitl [T7 T10 A3 A6 C1 T8 T11 A4 A7 C4 T9 T12 A5 A8 C7]
    · isplitl [T7 T10 A3 A6 C1]
      · isplitl [T7 T10]
        · isplitl [T7]
          · iexact T7
          iexact T10
        isplitl [A3]
        · iexact A3
        isplitl [A6]
        · iexact A6
        iexact C1
      isplitl [T8 T11 A4 A7 C4]
      · isplitl [T8 T11]
        · isplitl [T8]
          · iexact T8
          iexact T11
        isplitl [A4]
        · iexact A4
        isplitl [A7]
        · iexact A7
        iexact C4
      isplitl [T9 T12]
      · isplitl [T9]
        · iexact T9
        iexact T12
      isplitl [A5]
      · iexact A5
      isplitl [A8]
      · iexact A8
      iexact C7
    isplitl [T13 T16 A9 A12 C2 T14 T17 A10 A13 C5 T15 T18 A11 A14 C8]
    · isplitl [T13 T16 A9 A12 C2]
      · isplitl [T13 T16]
        · isplitl [T13]
          · iexact T13
          iexact T16
        isplitl [A9]
        · iexact A9
        isplitl [A12]
        · iexact A12
        iexact C2
      isplitl [T14 T17 A10 A13 C5]
      · isplitl [T14 T17]
        · isplitl [T14]
          · iexact T14
          iexact T17
        isplitl [A10]
        · iexact A10
        isplitl [A13]
        · iexact A13
        iexact C5
      isplitl [T15 T18]
      · isplitl [T15]
        · iexact T15
        iexact T18
      isplitl [A11]
      · iexact A11
      isplitl [A14]
      · iexact A14
      iexact C8
    isplitl [T19 T22 A15 A18 C3]
    · isplitl [T19 T22]
      · isplitl [T19]
        · iexact T19
        iexact T22
      isplitl [A15]
      · iexact A15
      isplitl [A18]
      · iexact A18
      iexact C3
    isplitl [T20 T23 A16 A19 C6]
    · isplitl [T20 T23]
      · isplitl [T20]
        · iexact T20
        iexact T23
      isplitl [A16]
      · iexact A16
      isplitl [A19]
      · iexact A19
      iexact C6
    isplitl [T21 T24]
    · isplitl [T21]
      · iexact T21
      iexact T24
    isplitl [A17]
    · iexact A17
    isplitl [A20]
    · iexact A20
    iexact C9
  isplitl [T25 T28 A21 A24 C10 T26 T29 A22 A25 C11 T27 T30 A23 A26 C12]
  · isplitl [T25 T28 A21 A24 C10]
    · isplitl [T25 T28]
      · isplitl [T25]
        · iexact T25
        iexact T28
      isplitl [A21]
      · iexact A21
      isplitl [A24]
      · iexact A24
      iexact C10
    isplitl [T26 T29 A22 A25 C11]
    · isplitl [T26 T29]
      · isplitl [T26]
        · iexact T26
        iexact T29
      isplitl [A22]
      · iexact A22
      isplitl [A25]
      · iexact A25
      iexact C11
    isplitl [T27 T30]
    · isplitl [T27]
      · iexact T27
      iexact T30
    isplitl [A23]
    · iexact A23
    isplitl [A26]
    · iexact A26
    iexact C12
  isplitl [T5 T6 A1 A2]
  · isplitl [T5]
    · iexact T5
    isplitl [T6]
    · iexact T6
    isplitl [A1]
    · iexact A1
    iexact A2
  isplitl [Hkv]
  · iexact Hkv
  isplitl [Hk]
  · iexact Hk
  isplitl [Hv]
  · iexact Hv
  isplitl [Hco]
  · iexact Hco
  isplitl [Hcm]
  · iexact Hcm
  isplitl [Hcl]
  · iexact Hcl
  isplitl [Hx]
  · rw [before_q vo vm vl vg kin vin m c d0] at hx0
    iexists f0; isplitr; · ipureintro; exact hx0
    iexact Hx
  iexists f1; iexact Hout

/-! ## The exit -/

/-- From the state after the last wait — everything paid, the device at round 1 of each of its own cells — the body's
    postcondition: each own cell closes and gives its counter back at zero. -/
theorem close_post (K : Dev nD × Fin 27 → ℕ) (c : Dev nD) :
    iprop(commRecs vo vm vl vg kin vin m (κOf K) c ∗ owesAt 17 c ∗ atPos ER (barCell c) (0 + 1) ∅ 0
      ∗ (bigSep Finset.univ fun b : Fin 3 => bigSep Finset.univ fun h : Fin 3 => ringDone c b h)
      ∗ (bigSep Finset.univ fun st : Fin 3 => gathDone c st)
      ∗ loadDone c ∗ kvPts m c ∗ owned c kM ∗ owned c vM ∗ owned c coM ∗ owned c cmM ∗ owned c clM
      ∗ stg c cc0_stg0_0 (qstg m c) ∗ stg c cc0_stg1_0 (outAt vg c))
      ⊢ |={Set.univ}=> bodyPost vo vm vl vg kin vin m c := by
  unfold commRecs cellRec ringDone gathDone loadDone bodyPost Φ₁
  rw [ownZero_open]
  simp only [bigSep_fin3]
  iintro ⟨⟨-, -, -, -, -, -, -, ⟨⟨⟨⟨#IS00, -⟩, ⟨#IR00, -⟩, -⟩, ⟨⟨#IS01, -⟩, ⟨#IR01, -⟩, -⟩, ⟨⟨#IS02, -⟩, ⟨#IR02, -⟩, -⟩⟩, ⟨⟨⟨#IS10, -⟩, ⟨#IR10, -⟩, -⟩, ⟨⟨#IS11, -⟩, ⟨#IR11, -⟩, -⟩, ⟨⟨#IS12, -⟩, ⟨#IR12, -⟩, -⟩⟩, ⟨⟨⟨#IS20, -⟩, ⟨#IR20, -⟩, -⟩, ⟨⟨#IS21, -⟩, ⟨#IR21, -⟩, -⟩, ⟨⟨#IS22, -⟩, ⟨#IR22, -⟩, -⟩⟩⟩, ⟨⟨⟨#JS0, -⟩, ⟨#JR0, -⟩, -⟩, ⟨⟨#JS1, -⟩, ⟨#JR1, -⟩, -⟩, ⟨⟨#JS2, -⟩, ⟨#JR2, -⟩, -⟩⟩, ⟨#IL0, -⟩, ⟨#IL1, -⟩⟩, Ho, -, ⟨⟨⟨DS00, DR00⟩, ⟨DS01, DR01⟩, ⟨DS02, DR02⟩⟩, ⟨⟨DS10, DR10⟩, ⟨DS11, DR11⟩, ⟨DS12, DR12⟩⟩, ⟨⟨DS20, DR20⟩, ⟨DS21, DR21⟩, ⟨DS22, DR22⟩⟩⟩, ⟨⟨ES0, ER0⟩, ⟨ES1, ER1⟩, ⟨ES2, ER2⟩⟩, ⟨DL0, DL1⟩, Hkv, Hk, Hv, Hco, Hcm, Hcl, Hx, Hout⟩
  imod (Rounds.cell_close ER (Rd vo vm vl vg kin vin m) (g := loadCell c 0) (κ := κOf K (loadCell c 0)) (Es := Set.univ) (Set.mem_univ _) (fun h => h)
      (R := 0 + 1) (fun r hr => duties_later vo vm vl vg kin vin m (loadCell c 0) r hr)) $$ [DL0] with Z0
  · isplitr; · iexact IL0
    iexact DL0
  imod (Rounds.cell_close ER (Rd vo vm vl vg kin vin m) (g := loadCell c 1) (κ := κOf K (loadCell c 1)) (Es := Set.univ) (Set.mem_univ _) (fun h => h)
      (R := 0 + 1) (fun r hr => duties_later vo vm vl vg kin vin m (loadCell c 1) r hr)) $$ [DL1] with Z1
  · isplitr; · iexact IL1
    iexact DL1
  imod (Rounds.cell_close ER (Rd vo vm vl vg kin vin m) (g := rsendCell c 0 0) (κ := κOf K (rsendCell c 0 0)) (Es := Set.univ) (Set.mem_univ _) (fun h => h)
      (R := 0 + 1) (fun r hr => duties_later vo vm vl vg kin vin m (rsendCell c 0 0) r hr)) $$ [DS00] with Z2
  · isplitr; · iexact IS00
    iexact DS00
  imod (Rounds.cell_close ER (Rd vo vm vl vg kin vin m) (g := rsendCell c 0 1) (κ := κOf K (rsendCell c 0 1)) (Es := Set.univ) (Set.mem_univ _) (fun h => h)
      (R := 0 + 1) (fun r hr => duties_later vo vm vl vg kin vin m (rsendCell c 0 1) r hr)) $$ [DS01] with Z3
  · isplitr; · iexact IS01
    iexact DS01
  imod (Rounds.cell_close ER (Rd vo vm vl vg kin vin m) (g := rsendCell c 0 2) (κ := κOf K (rsendCell c 0 2)) (Es := Set.univ) (Set.mem_univ _) (fun h => h)
      (R := 0 + 1) (fun r hr => duties_later vo vm vl vg kin vin m (rsendCell c 0 2) r hr)) $$ [DS02] with Z4
  · isplitr; · iexact IS02
    iexact DS02
  imod (Rounds.cell_close ER (Rd vo vm vl vg kin vin m) (g := rrecvCell c 0 0) (κ := κOf K (rrecvCell c 0 0)) (Es := Set.univ) (Set.mem_univ _) (fun h => h)
      (R := 0 + 1) (fun r hr => duties_later vo vm vl vg kin vin m (rrecvCell c 0 0) r hr)) $$ [DR00] with Z5
  · isplitr; · iexact IR00
    iexact DR00
  imod (Rounds.cell_close ER (Rd vo vm vl vg kin vin m) (g := rrecvCell c 0 1) (κ := κOf K (rrecvCell c 0 1)) (Es := Set.univ) (Set.mem_univ _) (fun h => h)
      (R := 0 + 1) (fun r hr => duties_later vo vm vl vg kin vin m (rrecvCell c 0 1) r hr)) $$ [DR01] with Z6
  · isplitr; · iexact IR01
    iexact DR01
  imod (Rounds.cell_close ER (Rd vo vm vl vg kin vin m) (g := rrecvCell c 0 2) (κ := κOf K (rrecvCell c 0 2)) (Es := Set.univ) (Set.mem_univ _) (fun h => h)
      (R := 0 + 1) (fun r hr => duties_later vo vm vl vg kin vin m (rrecvCell c 0 2) r hr)) $$ [DR02] with Z7
  · isplitr; · iexact IR02
    iexact DR02
  imod (Rounds.cell_close ER (Rd vo vm vl vg kin vin m) (g := rsendCell c 1 0) (κ := κOf K (rsendCell c 1 0)) (Es := Set.univ) (Set.mem_univ _) (fun h => h)
      (R := 0 + 1) (fun r hr => duties_later vo vm vl vg kin vin m (rsendCell c 1 0) r hr)) $$ [DS10] with Z8
  · isplitr; · iexact IS10
    iexact DS10
  imod (Rounds.cell_close ER (Rd vo vm vl vg kin vin m) (g := rsendCell c 1 1) (κ := κOf K (rsendCell c 1 1)) (Es := Set.univ) (Set.mem_univ _) (fun h => h)
      (R := 0 + 1) (fun r hr => duties_later vo vm vl vg kin vin m (rsendCell c 1 1) r hr)) $$ [DS11] with Z9
  · isplitr; · iexact IS11
    iexact DS11
  imod (Rounds.cell_close ER (Rd vo vm vl vg kin vin m) (g := rsendCell c 1 2) (κ := κOf K (rsendCell c 1 2)) (Es := Set.univ) (Set.mem_univ _) (fun h => h)
      (R := 0 + 1) (fun r hr => duties_later vo vm vl vg kin vin m (rsendCell c 1 2) r hr)) $$ [DS12] with Z10
  · isplitr; · iexact IS12
    iexact DS12
  imod (Rounds.cell_close ER (Rd vo vm vl vg kin vin m) (g := rrecvCell c 1 0) (κ := κOf K (rrecvCell c 1 0)) (Es := Set.univ) (Set.mem_univ _) (fun h => h)
      (R := 0 + 1) (fun r hr => duties_later vo vm vl vg kin vin m (rrecvCell c 1 0) r hr)) $$ [DR10] with Z11
  · isplitr; · iexact IR10
    iexact DR10
  imod (Rounds.cell_close ER (Rd vo vm vl vg kin vin m) (g := rrecvCell c 1 1) (κ := κOf K (rrecvCell c 1 1)) (Es := Set.univ) (Set.mem_univ _) (fun h => h)
      (R := 0 + 1) (fun r hr => duties_later vo vm vl vg kin vin m (rrecvCell c 1 1) r hr)) $$ [DR11] with Z12
  · isplitr; · iexact IR11
    iexact DR11
  imod (Rounds.cell_close ER (Rd vo vm vl vg kin vin m) (g := rrecvCell c 1 2) (κ := κOf K (rrecvCell c 1 2)) (Es := Set.univ) (Set.mem_univ _) (fun h => h)
      (R := 0 + 1) (fun r hr => duties_later vo vm vl vg kin vin m (rrecvCell c 1 2) r hr)) $$ [DR12] with Z13
  · isplitr; · iexact IR12
    iexact DR12
  imod (Rounds.cell_close ER (Rd vo vm vl vg kin vin m) (g := rsendCell c 2 0) (κ := κOf K (rsendCell c 2 0)) (Es := Set.univ) (Set.mem_univ _) (fun h => h)
      (R := 0 + 1) (fun r hr => duties_later vo vm vl vg kin vin m (rsendCell c 2 0) r hr)) $$ [DS20] with Z14
  · isplitr; · iexact IS20
    iexact DS20
  imod (Rounds.cell_close ER (Rd vo vm vl vg kin vin m) (g := rsendCell c 2 1) (κ := κOf K (rsendCell c 2 1)) (Es := Set.univ) (Set.mem_univ _) (fun h => h)
      (R := 0 + 1) (fun r hr => duties_later vo vm vl vg kin vin m (rsendCell c 2 1) r hr)) $$ [DS21] with Z15
  · isplitr; · iexact IS21
    iexact DS21
  imod (Rounds.cell_close ER (Rd vo vm vl vg kin vin m) (g := rsendCell c 2 2) (κ := κOf K (rsendCell c 2 2)) (Es := Set.univ) (Set.mem_univ _) (fun h => h)
      (R := 0 + 1) (fun r hr => duties_later vo vm vl vg kin vin m (rsendCell c 2 2) r hr)) $$ [DS22] with Z16
  · isplitr; · iexact IS22
    iexact DS22
  imod (Rounds.cell_close ER (Rd vo vm vl vg kin vin m) (g := rrecvCell c 2 0) (κ := κOf K (rrecvCell c 2 0)) (Es := Set.univ) (Set.mem_univ _) (fun h => h)
      (R := 0 + 1) (fun r hr => duties_later vo vm vl vg kin vin m (rrecvCell c 2 0) r hr)) $$ [DR20] with Z17
  · isplitr; · iexact IR20
    iexact DR20
  imod (Rounds.cell_close ER (Rd vo vm vl vg kin vin m) (g := rrecvCell c 2 1) (κ := κOf K (rrecvCell c 2 1)) (Es := Set.univ) (Set.mem_univ _) (fun h => h)
      (R := 0 + 1) (fun r hr => duties_later vo vm vl vg kin vin m (rrecvCell c 2 1) r hr)) $$ [DR21] with Z18
  · isplitr; · iexact IR21
    iexact DR21
  imod (Rounds.cell_close ER (Rd vo vm vl vg kin vin m) (g := rrecvCell c 2 2) (κ := κOf K (rrecvCell c 2 2)) (Es := Set.univ) (Set.mem_univ _) (fun h => h)
      (R := 0 + 1) (fun r hr => duties_later vo vm vl vg kin vin m (rrecvCell c 2 2) r hr)) $$ [DR22] with Z19
  · isplitr; · iexact IR22
    iexact DR22
  imod (Rounds.cell_close ER (Rd vo vm vl vg kin vin m) (g := gsendCell c 0) (κ := κOf K (gsendCell c 0)) (Es := Set.univ) (Set.mem_univ _) (fun h => h)
      (R := 0 + 1) (fun r hr => duties_later vo vm vl vg kin vin m (gsendCell c 0) r hr)) $$ [ES0] with Z20
  · isplitr; · iexact JS0
    iexact ES0
  imod (Rounds.cell_close ER (Rd vo vm vl vg kin vin m) (g := gsendCell c 1) (κ := κOf K (gsendCell c 1)) (Es := Set.univ) (Set.mem_univ _) (fun h => h)
      (R := 0 + 1) (fun r hr => duties_later vo vm vl vg kin vin m (gsendCell c 1) r hr)) $$ [ES1] with Z21
  · isplitr; · iexact JS1
    iexact ES1
  imod (Rounds.cell_close ER (Rd vo vm vl vg kin vin m) (g := gsendCell c 2) (κ := κOf K (gsendCell c 2)) (Es := Set.univ) (Set.mem_univ _) (fun h => h)
      (R := 0 + 1) (fun r hr => duties_later vo vm vl vg kin vin m (gsendCell c 2) r hr)) $$ [ES2] with Z22
  · isplitr; · iexact JS2
    iexact ES2
  imod (Rounds.cell_close ER (Rd vo vm vl vg kin vin m) (g := grecvCell c 0) (κ := κOf K (grecvCell c 0)) (Es := Set.univ) (Set.mem_univ _) (fun h => h)
      (R := 0 + 1) (fun r hr => duties_later vo vm vl vg kin vin m (grecvCell c 0) r hr)) $$ [ER0] with Z23
  · isplitr; · iexact JR0
    iexact ER0
  imod (Rounds.cell_close ER (Rd vo vm vl vg kin vin m) (g := grecvCell c 1) (κ := κOf K (grecvCell c 1)) (Es := Set.univ) (Set.mem_univ _) (fun h => h)
      (R := 0 + 1) (fun r hr => duties_later vo vm vl vg kin vin m (grecvCell c 1) r hr)) $$ [ER1] with Z24
  · isplitr; · iexact JR1
    iexact ER1
  imod (Rounds.cell_close ER (Rd vo vm vl vg kin vin m) (g := grecvCell c 2) (κ := κOf K (grecvCell c 2)) (Es := Set.univ) (Set.mem_univ _) (fun h => h)
      (R := 0 + 1) (fun r hr => duties_later vo vm vl vg kin vin m (grecvCell c 2) r hr)) $$ [ER2] with Z25
  · isplitr; · iexact JR2
    iexact ER2
  imodintro
  isplitl [Hkv Hk Hv Hco Hcm Hcl Z0 Z1 Z2 Z3 Z4 Z5 Z6 Z7 Z8 Z9 Z10 Z11 Z12 Z13 Z14 Z15 Z16 Z17 Z18 Z19 Z20 Z21 Z22 Z23 Z24 Z25]
  · isplitl [Hkv]
    · iexact Hkv
    isplitl [Hk]
    · iexact Hk
    isplitl [Hv]
    · iexact Hv
    isplitl [Hco]
    · iexact Hco
    isplitl [Hcm]
    · iexact Hcm
    isplitl [Hcl]
    · iexact Hcl
    isplitl [Z0]
    · iexact Z0
    isplitl [Z1]
    · iexact Z1
    isplitl [Z2]
    · iexact Z2
    isplitl [Z3]
    · iexact Z3
    isplitl [Z4]
    · iexact Z4
    isplitl [Z5]
    · iexact Z5
    isplitl [Z6]
    · iexact Z6
    isplitl [Z7]
    · iexact Z7
    isplitl [Z8]
    · iexact Z8
    isplitl [Z9]
    · iexact Z9
    isplitl [Z10]
    · iexact Z10
    isplitl [Z11]
    · iexact Z11
    isplitl [Z12]
    · iexact Z12
    isplitl [Z13]
    · iexact Z13
    isplitl [Z14]
    · iexact Z14
    isplitl [Z15]
    · iexact Z15
    isplitl [Z16]
    · iexact Z16
    isplitl [Z17]
    · iexact Z17
    isplitl [Z18]
    · iexact Z18
    isplitl [Z19]
    · iexact Z19
    isplitl [Z20]
    · iexact Z20
    isplitl [Z21]
    · iexact Z21
    isplitl [Z22]
    · iexact Z22
    isplitl [Z23]
    · iexact Z23
    isplitl [Z24]
    · iexact Z24
    iexact Z25
  isplitl [Ho]
  · iapply (owes_close vo vm vl vg kin vin m c); iexact Ho
  isplitl [Hx]
  · iexact Hx
  iexact Hout

end Glue

/-- info: 'Cert.KernelIdeal.FD.open_pre' depends on axioms: [propext, Classical.choice, Quot.sound] -/
#guard_msgs in #print axioms open_pre
/-- info: 'Cert.KernelIdeal.FD.close_post' depends on axioms: [propext, Classical.choice, Quot.sound] -/
#guard_msgs in #print axioms close_post

end Cert.KernelIdeal.FD

end
-- ==== Proof.BodyA.lean ====
/-
  The body as its first half followed by whatever comes after it, and the body lemma from the two halves.

  The first half is the entry part, the sixteen heads, the entry handshake and the ring, up to the wait for the last
  hop's row sums. What it hands on is the device and six words the later parts compute addresses from. The second half
  is the merge, the store of the merged row, the three exchanges and the last waits.
-/
import proofs.«900429_g7700000000000430_dist_flashdec_v7x_xyz2x4x4_z_b8_sq8_skv1024_h16_d128_f32_1_alg».proof.Proof.Segments
import proofs.«900429_g7700000000000430_dist_flashdec_v7x_xyz2x4x4_z_b8_sq8_skv1024_h16_d128_f32_1_alg».proof.Proof.State
import proofs.«900429_g7700000000000430_dist_flashdec_v7x_xyz2x4x4_z_b8_sq8_skv1024_h16_d128_f32_1_alg».proof.Proof.BodyState
import proofs.«900429_g7700000000000430_dist_flashdec_v7x_xyz2x4x4_z_b8_sq8_skv1024_h16_d128_f32_1_alg».proof.Proof.BodyGlue

noncomputable section

namespace Cert.KernelIdeal.FD

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The body with its tail abstracted -/

set_option maxRecDepth 65536 in
/-- The body's first half followed by `rest`, which is handed the device and the six words the later parts use. -/
noncomputable def bodyWith (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3)
    (rest : Dev nD → BitVec 32 → BitVec 32 → BitVec 32 → BitVec 32 → BitVec 32 → BitVec 32 → Prog (TpuEff nD τ sig (Elt F) Λ₀ .tc) PUnit) :
    Prog (TpuEff nD τ sig (Elt F) Λ₀ .tc) PUnit := do
  let ⟨d0, v2, v5, v8, v10, v28⟩ : Σ' (d0 : Dev nD) (v2 : BitVec 32) (v5 : BitVec 32) (v8 : BitVec 32) (v10 : BitVec 32), Vec F S1x8x1x128 .f32 ← k0_part1 arg0 harg0 arg1 harg1 arg2 harg2 arg3 harg3 arg4 harg4 arg5 harg5 arg6 harg6 arg7 harg7 arg8 harg8 arg9 arg10 arg11 arg12 arg13 arg14 arg15 arg16 arg17
  let ⟨v460, v462, c4_i32_421⟩ : Σ' (v460 : BitVec 32) (v462 : BitVec 32), BitVec 32 ← segCompute arg0 harg0 arg1 harg1 arg2 harg2 arg3 harg3 arg4 harg4 arg5 harg5 arg6 harg6 arg7 harg7 arg8 harg8 arg9 arg10 arg11 arg12 arg13 arg14 arg15 arg16 arg17 d0 v8 v10 v28
  let ⟨v464, v465, v466, v467, v492, c0_i32_447⟩ : Σ' (v464 : BitVec 32) (v465 : BitVec 32) (v466 : BitVec 32) (v467 : Sems sig S_) (v492 : BitVec 32), BitVec 32 ← k0_part17 arg0 harg0 arg1 harg1 arg2 harg2 arg3 harg3 arg4 harg4 arg5 harg5 arg6 harg6 arg7 harg7 arg8 harg8 arg9 arg10 arg11 arg12 arg13 arg14 arg15 arg16 arg17 d0 v2 v5 v8 v460 v462 c4_i32_421
  k0_part18 arg0 harg0 arg1 harg1 arg2 harg2 arg3 harg3 arg4 harg4 arg5 harg5 arg6 harg6 arg7 harg7 arg8 harg8 arg9 arg10 arg11 arg12 arg13 arg14 arg15 arg16 arg17 d0 v2 v5 v8 v460 v467 v492 c0_i32_447
  k0_part19 arg0 harg0 arg1 harg1 arg2 harg2 arg3 harg3 arg4 harg4 arg5 harg5 arg6 harg6 arg7 harg7 arg8 harg8 arg9 arg10 arg11 arg12 arg13 arg14 arg15 arg16 arg17 d0 v2 v5 v460
  k0_part20 arg0 harg0 arg1 harg1 arg2 harg2 arg3 harg3 arg4 harg4 arg5 harg5 arg6 harg6 arg7 harg7 arg8 harg8 arg9 arg10 arg11 arg12 arg13 arg14 arg15 arg16 arg17 v2 v5 v460
  let ⟨v594, c0_i32_572⟩ : Σ' (v594 : BitVec 32), BitVec 32 ← k0_part21 arg0 harg0 arg1 harg1 arg2 harg2 arg3 harg3 arg4 harg4 arg5 harg5 arg6 harg6 arg7 harg7 arg8 harg8 arg9 arg10 arg11 arg12 arg13 arg14 arg15 arg16 arg17 v2 v5 v460
  let ⟨v623, c4_i32_601⟩ : Σ' (v623 : BitVec 32), BitVec 32 ← k0_part22 arg0 harg0 arg1 harg1 arg2 harg2 arg3 harg3 arg4 harg4 arg5 harg5 arg6 harg6 arg7 harg7 arg8 harg8 arg9 arg10 arg11 arg12 arg13 arg14 arg15 arg16 arg17 d0 v2 v5 v460 v594 c0_i32_572
  k0_part23 arg0 harg0 arg1 harg1 arg2 harg2 arg3 harg3 arg4 harg4 arg5 harg5 arg6 harg6 arg7 harg7 arg8 harg8 arg9 arg10 arg11 arg12 arg13 arg14 arg15 arg16 arg17 d0 v2 v5 v460 v623 c4_i32_601
  k0_part24 arg0 harg0 arg1 harg1 arg2 harg2 arg3 harg3 arg4 harg4 arg5 harg5 arg6 harg6 arg7 harg7 arg8 harg8 arg9 arg10 arg11 arg12 arg13 arg14 arg15 arg16 arg17 v2 v5 v460
  k0_part25 arg0 harg0 arg1 harg1 arg2 harg2 arg3 harg3 arg4 harg4 arg5 harg5 arg6 harg6 arg7 harg7 arg8 harg8 arg9 arg10 arg11 arg12 arg13 arg14 arg15 arg16 arg17 v2 v5 v460
  k0_part26 arg0 harg0 arg1 harg1 arg2 harg2 arg3 harg3 arg4 harg4 arg5 harg5 arg6 harg6 arg7 harg7 arg8 harg8 arg9 arg10 arg11 arg12 arg13 arg14 arg15 arg16 arg17 d0 v2 v5 v460
  k0_part27 arg0 harg0 arg1 harg1 arg2 harg2 arg3 harg3 arg4 harg4 arg5 harg5 arg6 harg6 arg7 harg7 arg8 harg8 arg9 arg10 arg11 arg12 arg13 arg14 arg15 arg16 arg17 d0 v2 v5 v460
  let ⟨v775, v776⟩ : Σ' (v775 : BitVec 32), BitVec 32 ← k0_part28 arg0 harg0 arg1 harg1 arg2 harg2 arg3 harg3 arg4 harg4 arg5 harg5 arg6 harg6 arg7 harg7 arg8 harg8 arg9 arg10 arg11 arg12 arg13 arg14 arg15 arg16 arg17 v2 v5 v460
  seg29Wait arg0 harg0 arg1 harg1 arg2 harg2 arg3 harg3 arg4 harg4 arg5 harg5 arg6 harg6 arg7 harg7 arg8 harg8 arg9 arg10 arg11 arg12 arg13 arg14 arg15 arg16 arg17
  rest d0 v2 v5 v8 v464 v465 v466

/-- The second half: the merge, the store of the merged row, the three exchanges, the last waits. -/
noncomputable def bodyTail (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3)
    (d0 : Dev nD) (v2 v5 v8 v464 v465 v466 : BitVec 32) : Prog (TpuEff nD τ sig (Elt F) Λ₀ .tc) PUnit := do
  let w : FVec F S1x8x16x128 .f32 ← segMerge arg0 harg0 arg1 harg1 arg2 harg2 arg3 harg3 arg4 harg4 arg5 harg5 arg6 harg6 arg7 harg7 arg8 harg8 arg9 arg10 arg11 arg12 arg13 arg14 arg15 arg16 arg17
  seg31Tail arg0 harg0 arg1 harg1 arg2 harg2 arg3 harg3 arg4 harg4 arg5 harg5 arg6 harg6 arg7 harg7 arg8 harg8 arg9 arg10 arg11 arg12 arg13 arg14 arg15 arg16 arg17 d0 w
  k0_part32 arg0 harg0 arg1 harg1 arg2 harg2 arg3 harg3 arg4 harg4 arg5 harg5 arg6 harg6 arg7 harg7 arg8 harg8 arg9 arg10 arg11 arg12 arg13 arg14 arg15 arg16 arg17 d0 v2 v8 v464 v465
  k0_part33 arg0 harg0 arg1 harg1 arg2 harg2 arg3 harg3 arg4 harg4 arg5 harg5 arg6 harg6 arg7 harg7 arg8 harg8 arg9 arg10 arg11 arg12 arg13 arg14 arg15 arg16 arg17 d0 v2 v5 v8 v465 v466
  segExit arg0 harg0 arg1 harg1 arg2 harg2 arg3 harg3 arg4 harg4 arg5 harg5 arg6 harg6 arg7 harg7 arg8 harg8 arg9 arg10 arg11 arg12 arg13 arg14 arg15 arg16 arg17 d0

set_option maxRecDepth 65536 in
/-- The body is its first half followed by its second. -/
theorem bodySegs_eq_with (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3) :
    bodySegs (F := F) arg0 harg0 arg1 harg1 arg2 harg2 arg3 harg3 arg4 harg4 arg5 harg5 arg6 harg6 arg7 harg7 arg8 harg8 arg9 arg10 arg11 arg12 arg13 arg14 arg15 arg16 arg17 = bodyWith arg0 harg0 arg1 harg1 arg2 harg2 arg3 harg3 arg4 harg4 arg5 harg5 arg6 harg6 arg7 harg7 arg8 harg8 arg9 arg10 arg11 arg12 arg13 arg14 arg15 arg16 arg17 (bodyTail arg0 harg0 arg1 harg1 arg2 harg2 arg3 harg3 arg4 harg4 arg5 harg5 arg6 harg6 arg7 harg7 arg8 harg8 arg9 arg10 arg11 arg12 arg13 arg14 arg15 arg16 arg17) := rfl

/-! ## The body lemma from its two halves -/

section Halves

variable (vo : Dev nD → S8x16x128.Idx → Elt F .f32) (vm vl : Dev nD → S8x16x1.Idx → Elt F .f32)
variable (vg : ℕ → S8x8x16x128.Idx → Elt F .f32)
variable (kin vin : Dev nD → S1024x16x128.Idx → Elt F .f32)
variable (m : (ℓ : Loc nD τ sig) → Buf (Elt F) ℓ)

/-- Between the halves: the records, the ring finished (all four slots of the three buffers hold the partial results
    of the device and of the three devices before it; the barrier and the ring paid and waited for), the two loads
    waited for, the key and value arrays, the two scratch buffers of the loads, the staged query. -/
def Mid (K : Dev nD × Fin 27 → ℕ) (c : Dev nD) : sProp 𝕄 :=
  iprop(commRecs vo vm vl vg kin vin m (κOf K) c ∗ ringExit vo vm vl c ∗ loadDone c ∗ kvPts m c ∗ owned c kM ∗ owned c vM
    ∗ stg c cc0_stg0_0 (qstg m c))

/-- The first half, run against any continuation. -/
def FirstHalf : Prop :=
  ∀ (K : Dev nD × Fin 27 → ℕ) (c : Dev nD) (rest : Dev nD → BitVec 32 → BitVec 32 → BitVec 32 → BitVec 32 → BitVec 32 → BitVec 32 → Prog (TpuEff nD τ sig (Elt F) Λ₀ .tc) PUnit) (Q : PUnit → sProp 𝕄),
    iprop(bodyPre vo vm vl vg kin vin m K c
        ∗ (∀ v2, ∀ v5, ∀ v8, ∀ v464, ∀ v465, ∀ v466, Mid vo vm vl vg kin vin m K c -∗ wp frame (wpE (defs₀ (F := F)) 𝒱₀ c none) Set.univ (rest c v2 v5 v8 v464 v465 v466) Q))
      ⊢ wp frame (wpE (defs₀ (F := F)) 𝒱₀ c none) Set.univ (bodyWith (Memref.whole cc0_stg0_0) (Memref.isWhole_whole _) (Memref.whole main_arg1) (Memref.isWhole_whole _)
      (Memref.whole main_arg2) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _)
      cc0_scratch5 cc0_scratch6 cc0_scratch7 cc0_scratch8 cc0_scratch9 cc0_scratch10 cc0_scratch11 cc0_scratch12 cc0_scratch13 rest) Q

/-- The second half, from the state between the halves to the body's postcondition. -/
def SecondHalf : Prop :=
  ∀ (K : Dev nD × Fin 27 → ℕ) (c : Dev nD) (v2 v5 v8 v464 v465 v466 : BitVec 32) (Q : PUnit → sProp 𝕄),
    iprop(Mid vo vm vl vg kin vin m K c ∗ (bodyPost vo vm vl vg kin vin m c -∗ Q ⟨⟩))
      ⊢ wp frame (wpE (defs₀ (F := F)) 𝒱₀ c none) Set.univ (bodyTail (Memref.whole cc0_stg0_0) (Memref.isWhole_whole _) (Memref.whole main_arg1) (Memref.isWhole_whole _)
      (Memref.whole main_arg2) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _)
      cc0_scratch5 cc0_scratch6 cc0_scratch7 cc0_scratch8 cc0_scratch9 cc0_scratch10 cc0_scratch11 cc0_scratch12 cc0_scratch13 c v2 v5 v8 v464 v465 v466) Q

/-- The body lemma from its two halves. -/
theorem sound_body_of_halves (h1 : FirstHalf vo vm vl vg kin vin m) (h2 : SecondHalf vo vm vl vg kin vin m) : SoundBody vo vm vl vg kin vin m := by
  intro K c Kt
  rw [cc0_body_eq_segs, wp_bind, bodySegs_eq_with]
  iintro ⟨Hpre, Hk⟩
  iapply (h1 K c (bodyTail (Memref.whole cc0_stg0_0) (Memref.isWhole_whole _) (Memref.whole main_arg1) (Memref.isWhole_whole _)
      (Memref.whole main_arg2) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _)
      cc0_scratch5 cc0_scratch6 cc0_scratch7 cc0_scratch8 cc0_scratch9 cc0_scratch10 cc0_scratch11 cc0_scratch12 cc0_scratch13) (fun _ => wp frame (wpE (defs₀ (F := F)) 𝒱₀ c none) Set.univ (pure ⟨⟩) Kt))
  isplitl [Hpre]; · iexact Hpre
  iintro %v2 %v5 %v8 %v464 %v465 %v466 HM
  iapply (h2 K c v2 v5 v8 v464 v465 v466 (fun _ => wp frame (wpE (defs₀ (F := F)) 𝒱₀ c none) Set.univ (pure ⟨⟩) Kt))
  isplitl [HM]; · iexact HM
  iintro HP
  iapply (le_wp_ret frame (wpE (defs₀ (F := F)) 𝒱₀ c none) Set.univ ⟨⟩ Kt)
  iapply Hk; iexact HP

end Halves

end Cert.KernelIdeal.FD

end
-- ==== Proof.RingHalf.lean ====
/-
  Where the two stretches of the ring's chain meet: after the second hop's first two transfers.

  The entry handshake and the first hop are over: the device stands at round 1 of its barrier cell and of the six cells of hop 0;
  slot 0 of its three ring buffers is back and slot 1 holds the previous device's partial results; the partial sums and the row
  maxima of slot 1 are on their way to the next device's slot 2 (their send credits in hand), the row sums of slot 1 still to
  send; the third hop and the three exchanges are untouched. This module names that state, cuts the chain's program there, and
  states the two stretches.
-/
import proofs.«900429_g7700000000000430_dist_flashdec_v7x_xyz2x4x4_z_b8_sq8_skv1024_h16_d128_f32_1_alg».proof.Proof.BodyA

noncomputable section

namespace Cert.KernelIdeal.FD

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The chain's program, cut after part 22 -/

set_option maxRecDepth 65536 in
/-- The entry handshake, the first hop and the second hop's first two transfers, followed by `k`, which is handed the three words
    the exchanges use and the two words part 23 takes. -/
noncomputable def ringHead (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3)
    (d0 : Dev nD) (v2 v5 v8 v460 v462 w4 : BitVec 32)
    (k : BitVec 32 → BitVec 32 → BitVec 32 → BitVec 32 → BitVec 32 → Prog (TpuEff nD τ sig (Elt F) Λ₀ .tc) PUnit) :
    Prog (TpuEff nD τ sig (Elt F) Λ₀ .tc) PUnit := do
  let ⟨v464, v465, v466, v467, v492, c0_i32_447⟩ : Σ' (v464 : BitVec 32) (v465 : BitVec 32) (v466 : BitVec 32) (v467 : Sems sig S_) (v492 : BitVec 32), BitVec 32 ← k0_part17 arg0 harg0 arg1 harg1 arg2 harg2 arg3 harg3 arg4 harg4 arg5 harg5 arg6 harg6 arg7 harg7 arg8 harg8 arg9 arg10 arg11 arg12 arg13 arg14 arg15 arg16 arg17 d0 v2 v5 v8 v460 v462 w4
  k0_part18 arg0 harg0 arg1 harg1 arg2 harg2 arg3 harg3 arg4 harg4 arg5 harg5 arg6 harg6 arg7 harg7 arg8 harg8 arg9 arg10 arg11 arg12 arg13 arg14 arg15 arg16 arg17 d0 v2 v5 v8 v460 v467 v492 c0_i32_447
  k0_part19 arg0 harg0 arg1 harg1 arg2 harg2 arg3 harg3 arg4 harg4 arg5 harg5 arg6 harg6 arg7 harg7 arg8 harg8 arg9 arg10 arg11 arg12 arg13 arg14 arg15 arg16 arg17 d0 v2 v5 v460
  k0_part20 arg0 harg0 arg1 harg1 arg2 harg2 arg3 harg3 arg4 harg4 arg5 harg5 arg6 harg6 arg7 harg7 arg8 harg8 arg9 arg10 arg11 arg12 arg13 arg14 arg15 arg16 arg17 v2 v5 v460
  let ⟨v594, c0_i32_572⟩ : Σ' (v594 : BitVec 32), BitVec 32 ← k0_part21 arg0 harg0 arg1 harg1 arg2 harg2 arg3 harg3 arg4 harg4 arg5 harg5 arg6 harg6 arg7 harg7 arg8 harg8 arg9 arg10 arg11 arg12 arg13 arg14 arg15 arg16 arg17 v2 v5 v460
  let ⟨v623, c4_i32_601⟩ : Σ' (v623 : BitVec 32), BitVec 32 ← k0_part22 arg0 harg0 arg1 harg1 arg2 harg2 arg3 harg3 arg4 harg4 arg5 harg5 arg6 harg6 arg7 harg7 arg8 harg8 arg9 arg10 arg11 arg12 arg13 arg14 arg15 arg16 arg17 d0 v2 v5 v460 v594 c0_i32_572
  k v464 v465 v466 v623 c4_i32_601

set_option maxRecDepth 65536 in
/-- The rest of the second hop, the third hop and the wait for its last transfer, followed by `rest`. -/
noncomputable def ringTail (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3)
    (d0 : Dev nD) (v2 v5 v460 v623 w4 : BitVec 32) (rest : Prog (TpuEff nD τ sig (Elt F) Λ₀ .tc) PUnit) :
    Prog (TpuEff nD τ sig (Elt F) Λ₀ .tc) PUnit := do
  k0_part23 arg0 harg0 arg1 harg1 arg2 harg2 arg3 harg3 arg4 harg4 arg5 harg5 arg6 harg6 arg7 harg7 arg8 harg8 arg9 arg10 arg11 arg12 arg13 arg14 arg15 arg16 arg17 d0 v2 v5 v460 v623 w4
  k0_part24 arg0 harg0 arg1 harg1 arg2 harg2 arg3 harg3 arg4 harg4 arg5 harg5 arg6 harg6 arg7 harg7 arg8 harg8 arg9 arg10 arg11 arg12 arg13 arg14 arg15 arg16 arg17 v2 v5 v460
  k0_part25 arg0 harg0 arg1 harg1 arg2 harg2 arg3 harg3 arg4 harg4 arg5 harg5 arg6 harg6 arg7 harg7 arg8 harg8 arg9 arg10 arg11 arg12 arg13 arg14 arg15 arg16 arg17 v2 v5 v460
  k0_part26 arg0 harg0 arg1 harg1 arg2 harg2 arg3 harg3 arg4 harg4 arg5 harg5 arg6 harg6 arg7 harg7 arg8 harg8 arg9 arg10 arg11 arg12 arg13 arg14 arg15 arg16 arg17 d0 v2 v5 v460
  k0_part27 arg0 harg0 arg1 harg1 arg2 harg2 arg3 harg3 arg4 harg4 arg5 harg5 arg6 harg6 arg7 harg7 arg8 harg8 arg9 arg10 arg11 arg12 arg13 arg14 arg15 arg16 arg17 d0 v2 v5 v460
  let ⟨v775, v776⟩ : Σ' (v775 : BitVec 32), BitVec 32 ← k0_part28 arg0 harg0 arg1 harg1 arg2 harg2 arg3 harg3 arg4 harg4 arg5 harg5 arg6 harg6 arg7 harg7 arg8 harg8 arg9 arg10 arg11 arg12 arg13 arg14 arg15 arg16 arg17 v2 v5 v460
  seg29Wait arg0 harg0 arg1 harg1 arg2 harg2 arg3 harg3 arg4 harg4 arg5 harg5 arg6 harg6 arg7 harg7 arg8 harg8 arg9 arg10 arg11 arg12 arg13 arg14 arg15 arg16 arg17
  rest

set_option maxRecDepth 65536 in
/-- The body's first half is the entry part, the sixteen heads, and the chain's two stretches. -/
theorem bodyWith_eq_ring (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3)
    (rest : Dev nD → BitVec 32 → BitVec 32 → BitVec 32 → BitVec 32 → BitVec 32 → BitVec 32 → Prog (TpuEff nD τ sig (Elt F) Λ₀ .tc) PUnit) :
    bodyWith (F := F) arg0 harg0 arg1 harg1 arg2 harg2 arg3 harg3 arg4 harg4 arg5 harg5 arg6 harg6 arg7 harg7 arg8 harg8 arg9 arg10 arg11 arg12 arg13 arg14 arg15 arg16 arg17 rest = (do
      let ⟨d0, v2, v5, v8, v10, v28⟩ : Σ' (d0 : Dev nD) (v2 : BitVec 32) (v5 : BitVec 32) (v8 : BitVec 32) (v10 : BitVec 32), Vec F S1x8x1x128 .f32 ← k0_part1 arg0 harg0 arg1 harg1 arg2 harg2 arg3 harg3 arg4 harg4 arg5 harg5 arg6 harg6 arg7 harg7 arg8 harg8 arg9 arg10 arg11 arg12 arg13 arg14 arg15 arg16 arg17
      let ⟨v460, v462, c4_i32_421⟩ : Σ' (v460 : BitVec 32) (v462 : BitVec 32), BitVec 32 ← segCompute arg0 harg0 arg1 harg1 arg2 harg2 arg3 harg3 arg4 harg4 arg5 harg5 arg6 harg6 arg7 harg7 arg8 harg8 arg9 arg10 arg11 arg12 arg13 arg14 arg15 arg16 arg17 d0 v8 v10 v28
      ringHead arg0 harg0 arg1 harg1 arg2 harg2 arg3 harg3 arg4 harg4 arg5 harg5 arg6 harg6 arg7 harg7 arg8 harg8 arg9 arg10 arg11 arg12 arg13 arg14 arg15 arg16 arg17 d0 v2 v5 v8 v460 v462 c4_i32_421 fun v464 v465 v466 v623 w4 =>
        ringTail arg0 harg0 arg1 harg1 arg2 harg2 arg3 harg3 arg4 harg4 arg5 harg5 arg6 harg6 arg7 harg7 arg8 harg8 arg9 arg10 arg11 arg12 arg13 arg14 arg15 arg16 arg17 d0 v2 v5 v460 v623 w4 (rest d0 v2 v5 v8 v464 v465 v466)) := rfl

section Half

variable (vo : Dev nD → S8x16x128.Idx → Elt F .f32) (vm vl : Dev nD → S8x16x1.Idx → Elt F .f32)
variable (vg : ℕ → S8x8x16x128.Idx → Elt F .f32)
variable (kin vin : Dev nD → S1024x16x128.Idx → Elt F .f32)
variable (m : (ℓ : Loc nD τ sig) → Buf (Elt F) ℓ)

/-! ## The state where the two stretches meet -/

/-- After part 22. -/
def ringHalf (c : Dev nD) : sProp 𝕄 :=
  iprop(owesAt 10 c ∗ atPos ER (barCell c) (0 + 1) ∅ 0
    ∗ ringDone (F := F) c 0 0 ∗ ringDone (F := F) c 1 0 ∗ ringDone (F := F) c 2 0
    ∗ slotHolds vo vm vl c 0 0 ∗ slotHolds vo vm vl c 1 0 ∗ slotHolds vo vm vl c 2 0 ∗ slotHolds vo vm vl c 2 1
    ∗ cred (tallyAt (rsendCell c 0 1) () (Nring 0)) ∗ cred (tallyAt (rsendCell c 1 1) () (Nring 1))
    ∗ ringToks (F := F) c 2 1
    ∗ ringPos (F := F) c 0 1 ∗ ringPos (F := F) c 1 1 ∗ ringPos (F := F) c 2 1
    ∗ ringToks (F := F) c 0 2 ∗ ringToks (F := F) c 1 2 ∗ ringToks (F := F) c 2 2
    ∗ ringPos (F := F) c 0 2 ∗ ringPos (F := F) c 1 2 ∗ ringPos (F := F) c 2 2
    ∗ slotOwned (F := F) (zr c) 2 2 ∗ slotOwned (F := F) (zr c) 0 3 ∗ slotOwned (F := F) (zr c) 1 3 ∗ slotOwned (F := F) (zr c) 2 3
    ∗ (bigSep Finset.univ fun st : Fin 3 => iprop(gathToks (F := F) c st ∗ gathPos (F := F) c st))
    ∗ owned (F := F) c (row1 c) ∗ rowsOwned (F := F) (p0 c) c 0 ∗ rowsOwned (F := F) (p1 c) c 1 ∗ rowsOwned (F := F) (p2 c) c 2
    ∗ reached ER (grecvCell (p0 c) 0) 0 ∗ reached ER (grecvCell (p1 c) 1) 0 ∗ reached ER (grecvCell (p2 c) 2) 0)

/-! ## The two stretches -/

/-- From the state before the first signal to the meeting state, against any continuation. -/
def RingFirst : Prop :=
  ∀ (κ : GSem nD τ sig → ℕ) (c : Dev nD) (v2 v5 v8 v460 v462 w4 : BitVec 32)
    (k : BitVec 32 → BitVec 32 → BitVec 32 → BitVec 32 → BitVec 32 → Prog (TpuEff nD τ sig (Elt F) Λ₀ .tc) PUnit) (Q : PUnit → sProp 𝕄),
    iprop(commRecs vo vm vl vg kin vin m κ c ∗ commEntry vo vm vl c
        ∗ (∀ v464, ∀ v465, ∀ v466, ∀ v623, ∀ w, ringHalf vo vm vl c -∗ wp frame (wpE (defs₀ (F := F)) 𝒱₀ c none) Set.univ (k v464 v465 v466 v623 w) Q))
      ⊢ wp frame (wpE (defs₀ (F := F)) 𝒱₀ c none) Set.univ (ringHead (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 c v2 v5 v8 v460 v462 w4 k) Q

/-- From the meeting state to the state after the ring's last wait, against any continuation. -/
def RingSecond : Prop :=
  ∀ (κ : GSem nD τ sig → ℕ) (c : Dev nD) (v2 v5 v460 v623 w4 : BitVec 32)
    (rest : Prog (TpuEff nD τ sig (Elt F) Λ₀ .tc) PUnit) (Q : PUnit → sProp 𝕄),
    iprop(commRecs vo vm vl vg kin vin m κ c ∗ ringHalf vo vm vl c
        ∗ (ringExit vo vm vl c -∗ wp frame (wpE (defs₀ (F := F)) 𝒱₀ c none) Set.univ rest Q))
      ⊢ wp frame (wpE (defs₀ (F := F)) 𝒱₀ c none) Set.univ (ringTail (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 c v2 v5 v460 v623 w4 rest) Q

end Half

end Cert.KernelIdeal.FD

end
-- ==== Proof.BodyProto.lean ====
/-
  The communication steps of the kernel body.

  First part: how the buffers the devices exchange are held piece by piece. A ring buffer of four slots held whole is
  its four slots, each held by its own elements; the result staging buffer of eight rows held whole is the device's own
  row, its first partner's row, its second partner's pair of rows and its third partner's quadruple of rows, and the
  three joins row + row = pair, pair + pair = quadruple, quadruple + quadruple = all eight rows put it together again
  as the three exchanges deliver the partners' rows.
-/
import proofs.«900429_g7700000000000430_dist_flashdec_v7x_xyz2x4x4_z_b8_sq8_skv1024_h16_d128_f32_1_alg».proof.Proof.Gen.KernelIdeal
import proofs.«900429_g7700000000000430_dist_flashdec_v7x_xyz2x4x4_z_b8_sq8_skv1024_h16_d128_f32_1_alg».proof.Proof.MeshIdeal
import Idealize.ShloMosaic.Lib.Ring
import Idealize.ShloMosaic.Lib.Memref
import Idealize.ShloMosaic.Lib.Rounds

noncomputable section

namespace Cert.KernelIdeal.BodyProto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## A buffer cut along its leading axis, over any signature -/

section General

variable {nD : Nat} {τ : Topo} {sig : RefSig}
variable {Ix : Type} [DecidableEq Ix] {Val : EltTy → Type} {Name : Type} [DecidableEq Name]
variable {U : Type} [URA U] {Lvl : Type}

local notation "𝕄" => MT nD τ sig Ix Val Name U Lvl

/-- Four summands of an iterated separating conjunction over `Fin 4`, written out. -/
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} from by decide,
    bigSep_insert (by decide), bigSep_insert (by decide), bigSep_insert (by decide), bigSep_singleton]
  rfl

/-- A buffer held whole through a memref that is the whole buffer is held block by block, for the blocks that
    differ only in their offset along one axis `a₀` (block `b` at `R * b` there, `R` long, whole on the other axes). -/
theorem whole_lead {c : Thread nD τ} {sp : Space} {s : Shape} {e : EltTy} (m : Memref sig c.2.kind sp s e) (hm : m.IsWhole)
    {NB : ℕ} (a₀ : Fin s.rank) (R : ℕ) (off : Fin NB → Fin s.rank → ℕ) (size : Fin s.rank → ℕ)
    (inb : ∀ b a, off b a + size a ≤ s.size a)
    (hoff₀ : ∀ b, off b a₀ = R * b.val) (hoff : ∀ b a, a ≠ a₀ → off b a = 0)
    (hsz₀ : size a₀ = R) (hsz : ∀ a, a ≠ a₀ → size a = s.size a) (hN : NB * R = s.size a₀)
    (q : PosShare TreeShare) (f : Buf Val (m.view.loc c)) :
    (m.view.loc c ↦{q} f : sProp 𝕄)
      = bigSep Finset.univ fun b : Fin NB => m.view.loc c ↦[(m.view.slice (Rect.unit (off b) size (inb b))).set]{q} f := by
  refine Ring.pointsTo_blocks (ℓ := m.view.loc c) (fun b => (m.view.slice (Rect.unit (off b) size (inb b))).set) ?_ ?_ f
  · intro b b' h
    rw [View.set_slice, View.set_slice]
    exact (Finset.disjoint_map _).mpr (Ring.lead_disjoint a₀ R off size inb hoff₀ hsz₀ b b' h)
  · ext i
    simp only [Finset.mem_biUnion, Finset.mem_univ, true_and, iff_true]
    have hi : i ∈ m.view.set := hm.set_eq_univ ▸ Finset.mem_univ i
    rw [View.set, Finset.mem_map] at hi
    obtain ⟨x, -, rfl⟩ := hi
    have hx : x ∈ Finset.univ.biUnion (fun b => (Rect.unit (off b) size (inb b)).set) := by
      rw [Ring.lead_cover a₀ R off size inb hoff₀ hoff hsz₀ hsz hN]; exact Finset.mem_univ x
    obtain ⟨b, -, hb⟩ := Finset.mem_biUnion.mp hx
    exact ⟨b, by rw [View.set_slice]; exact Finset.mem_map_of_mem _ hb⟩

/-- The elements under a squeezed slice are the slice's. -/
theorem set_squeeze_slice {κ : Kind} {sp : Space} {s s' : Shape} {e : EltTy} (m : Memref sig κ sp s e) (r : Rect s)
    (hr : ∀ a, r.stride a = 1) (h : r.shape.Squeezes s') :
    ((m.slice r hr).squeeze s' h).view.set = (m.view.slice r).set :=
  View.set_reshape (v := m.view.slice r) h.numel_eq

/-- A scratch buffer of four slots `[4, d1, d2, d3]`, held whole, is its four slots `[j]`, each held by its own
    elements through the squeezed slice the program names it by; and back. -/
theorem whole_slots4 {c : Thread nD τ} {sp : Space} {e : EltTy} (d1 d2 d3 : ℕ) {s' : Shape}
    (m : Memref sig c.2.kind sp ⟨4, ![4, d1, d2, d3]⟩ e) (hm : m.IsWhole)
    (i0 : ∀ a, (![0, 0, 0, 0] : Fin 4 → ℕ) a + (![1, d1, d2, d3] : Fin 4 → ℕ) a ≤ (⟨4, ![4, d1, d2, d3]⟩ : Shape).size a)
    (i1 : ∀ a, (![1, 0, 0, 0] : Fin 4 → ℕ) a + (![1, d1, d2, d3] : Fin 4 → ℕ) a ≤ (⟨4, ![4, d1, d2, d3]⟩ : Shape).size a)
    (i2 : ∀ a, (![2, 0, 0, 0] : Fin 4 → ℕ) a + (![1, d1, d2, d3] : Fin 4 → ℕ) a ≤ (⟨4, ![4, d1, d2, d3]⟩ : Shape).size a)
    (i3 : ∀ a, (![3, 0, 0, 0] : Fin 4 → ℕ) a + (![1, d1, d2, d3] : Fin 4 → ℕ) a ≤ (⟨4, ![4, d1, d2, d3]⟩ : Shape).size a)
    (hsq : (⟨4, ![1, d1, d2, d3]⟩ : Shape).Squeezes s')
    (q : PosShare TreeShare) (f : Buf Val (m.view.loc c)) :
    (m.view.loc c ↦{q} f : sProp 𝕄)
      = iprop((((m.slice (Rect.unit (s := ⟨4, ![4, d1, d2, d3]⟩) ![0, 0, 0, 0] ![1, d1, d2, d3] i0) (fun _ => rfl)).squeeze s' hsq).view.loc c
            ↦[((m.slice (Rect.unit (s := ⟨4, ![4, d1, d2, d3]⟩) ![0, 0, 0, 0] ![1, d1, d2, d3] i0) (fun _ => rfl)).squeeze s' hsq).view.set]{q} f)
        ∗ (((m.slice (Rect.unit (s := ⟨4, ![4, d1, d2, d3]⟩) ![1, 0, 0, 0] ![1, d1, d2, d3] i1) (fun _ => rfl)).squeeze s' hsq).view.loc c
            ↦[((m.slice (Rect.unit (s := ⟨4, ![4, d1, d2, d3]⟩) ![1, 0, 0, 0] ![1, d1, d2, d3] i1) (fun _ => rfl)).squeeze s' hsq).view.set]{q} f)
        ∗ (((m.slice (Rect.unit (s := ⟨4, ![4, d1, d2, d3]⟩) ![2, 0, 0, 0] ![1, d1, d2, d3] i2) (fun _ => rfl)).squeeze s' hsq).view.loc c
            ↦[((m.slice (Rect.unit (s := ⟨4, ![4, d1, d2, d3]⟩) ![2, 0, 0, 0] ![1, d1, d2, d3] i2) (fun _ => rfl)).squeeze s' hsq).view.set]{q} f)
        ∗ (((m.slice (Rect.unit (s := ⟨4, ![4, d1, d2, d3]⟩) ![3, 0, 0, 0] ![1, d1, d2, d3] i3) (fun _ => rfl)).squeeze s' hsq).view.loc c
            ↦[((m.slice (Rect.unit (s := ⟨4, ![4, d1, d2, d3]⟩) ![3, 0, 0, 0] ![1, d1, d2, d3] i3) (fun _ => rfl)).squeeze s' hsq).view.set]{q} f)) := by
  have inb : ∀ (b : Fin 4) (a : Fin 4), (![b.val, 0, 0, 0] : Fin 4 → ℕ) a + (![1, d1, d2, d3] : Fin 4 → ℕ) a ≤ (⟨4, ![4, d1, d2, d3]⟩ : Shape).size a := by
    intro b a; have hb := b.isLt
    fin_cases a <;> simp <;> omega
  have h := whole_lead (Ix := Ix) (Name := Name) (U := U) (Lvl := Lvl) m hm (NB := 4) (0 : Fin 4) 1 (fun b => ![b.val, 0, 0, 0]) ![1, d1, d2, d3] inb
    (fun b => by simp) (fun b a ha => by fin_cases a <;> first | exact absurd rfl ha | rfl)
    rfl (fun a ha => by fin_cases a <;> first | exact absurd rfl ha | rfl) rfl q f
  rw [h, bigSep_fin4]
  simp only [View.set_reshape]
  rfl

/-! ## A buffer of rows cut into blocks of rows, over any signature

Blocks of rows of an `[N, d1, d2, d3]` buffer: the block of `k` rows from row `a` is the unit rectangle at `![a, 0, 0, 0]`
of sizes `![k, d1, d2, d3]`. An element lies in it exactly when its row does. Two blocks of `k` rows that sit side by
side tile the block of `2 k` rows they sit in. -/

/-- Membership in a block of rows is membership of the row. -/
theorem mem_rows {N d1 d2 d3 a k : ℕ} {off : Fin 4 → ℕ} (ho : off = ![a, 0, 0, 0])
    (inb : ∀ x, off x + (![k, d1, d2, d3] : Fin 4 → ℕ) x ≤ (⟨4, ![N, d1, d2, d3]⟩ : Shape).size x)
    (i : (⟨4, ![N, d1, d2, d3]⟩ : Shape).Idx) :
    i ∈ (Rect.unit (s := ⟨4, ![N, d1, d2, d3]⟩) off ![k, d1, d2, d3] inb).set ↔ a ≤ (i 0).val ∧ (i 0).val < a + k := by
  subst ho
  rw [Rect.mem_set_unit]
  constructor
  · intro h; exact h 0
  · intro h x
    have h1 := (i 1).isLt
    have h2 := (i 2).isLt
    have h3 := (i 3).isLt
    fin_cases x
    · exact h
    · exact ⟨Nat.zero_le _, by simpa using h1⟩
    · exact ⟨Nat.zero_le _, by simpa using h2⟩
    · exact ⟨Nat.zero_le _, by simpa using h3⟩

/-- Two blocks of `k` rows at `a` and `b` sit side by side in the block of `k2 = 2 k` rows at `o`. -/
def Tiles (k a b o : ℕ) : Prop := (a = o ∧ b = o + k) ∨ (b = o ∧ a = o + k)

/-- Side-by-side blocks of rows are disjoint and make up the block they sit in. -/
theorem rows_tile {N d1 d2 d3 k k2 a b o : ℕ} (hk : k2 = k + k) (ht : Tiles k a b o) {offa offb offo : Fin 4 → ℕ}
    (ha : offa = ![a, 0, 0, 0]) (hb : offb = ![b, 0, 0, 0]) (ho : offo = ![o, 0, 0, 0])
    (inba : ∀ x, offa x + (![k, d1, d2, d3] : Fin 4 → ℕ) x ≤ (⟨4, ![N, d1, d2, d3]⟩ : Shape).size x)
    (inbb : ∀ x, offb x + (![k, d1, d2, d3] : Fin 4 → ℕ) x ≤ (⟨4, ![N, d1, d2, d3]⟩ : Shape).size x)
    (inbo : ∀ x, offo x + (![k2, d1, d2, d3] : Fin 4 → ℕ) x ≤ (⟨4, ![N, d1, d2, d3]⟩ : Shape).size x) :
    Disjoint (Rect.unit (s := ⟨4, ![N, d1, d2, d3]⟩) offa ![k, d1, d2, d3] inba).set (Rect.unit (s := ⟨4, ![N, d1, d2, d3]⟩) offb ![k, d1, d2, d3] inbb).set
      ∧ (Rect.unit (s := ⟨4, ![N, d1, d2, d3]⟩) offa ![k, d1, d2, d3] inba).set ∪ (Rect.unit (s := ⟨4, ![N, d1, d2, d3]⟩) offb ![k, d1, d2, d3] inbb).set
          = (Rect.unit (s := ⟨4, ![N, d1, d2, d3]⟩) offo ![k2, d1, d2, d3] inbo).set := by
  constructor
  · rw [Finset.disjoint_left]
    intro i hi hi'
    rw [mem_rows ha] at hi; rw [mem_rows hb] at hi'
    rcases ht with ⟨rfl, rfl⟩ | ⟨rfl, rfl⟩ <;> omega
  · ext i
    rw [Finset.mem_union, mem_rows ha, mem_rows hb, mem_rows ho]
    rcases ht with ⟨rfl, rfl⟩ | ⟨rfl, rfl⟩ <;> omega

/-- The block of all `N` rows from row 0 is the whole shape. -/
theorem rows_all {N d1 d2 d3 : ℕ} {off : Fin 4 → ℕ} (ho : off = ![0, 0, 0, 0])
    (inb : ∀ x, off x + (![N, d1, d2, d3] : Fin 4 → ℕ) x ≤ (⟨4, ![N, d1, d2, d3]⟩ : Shape).size x) :
    (Rect.unit (s := ⟨4, ![N, d1, d2, d3]⟩) off ![N, d1, d2, d3] inb).set = Finset.univ := by
  ext i
  rw [mem_rows ho]
  have h0 := (i 0).isLt
  simp only [Finset.mem_univ, iff_true]
  exact ⟨Nat.zero_le _, by simpa using h0⟩

/-- Held by the elements of a block of `2 k` rows is held by the elements of its two halves, at the same contents. -/
theorem pointsTo_rows_tile {c : Thread nD τ} {sp : Space} {e : EltTy} {N d1 d2 d3 k k2 a b o : ℕ}
    (m : Memref sig c.2.kind sp ⟨4, ![N, d1, d2, d3]⟩ e) (hk : k2 = k + k) (ht : Tiles k a b o) {offa offb offo : Fin 4 → ℕ}
    (ha : offa = ![a, 0, 0, 0]) (hb : offb = ![b, 0, 0, 0]) (ho : offo = ![o, 0, 0, 0])
    (inba : ∀ x, offa x + (![k, d1, d2, d3] : Fin 4 → ℕ) x ≤ (⟨4, ![N, d1, d2, d3]⟩ : Shape).size x)
    (inbb : ∀ x, offb x + (![k, d1, d2, d3] : Fin 4 → ℕ) x ≤ (⟨4, ![N, d1, d2, d3]⟩ : Shape).size x)
    (inbo : ∀ x, offo x + (![k2, d1, d2, d3] : Fin 4 → ℕ) x ≤ (⟨4, ![N, d1, d2, d3]⟩ : Shape).size x)
    (q : PosShare TreeShare) (f : Buf Val (m.view.loc c)) :
    (m.view.loc c ↦[(m.view.slice (Rect.unit (s := ⟨4, ![N, d1, d2, d3]⟩) offo ![k2, d1, d2, d3] inbo)).set]{q} f : sProp 𝕄)
      = iprop((m.view.loc c ↦[(m.view.slice (Rect.unit (s := ⟨4, ![N, d1, d2, d3]⟩) offa ![k, d1, d2, d3] inba)).set]{q} f)
          ∗ (m.view.loc c ↦[(m.view.slice (Rect.unit (s := ⟨4, ![N, d1, d2, d3]⟩) offb ![k, d1, d2, d3] inbb)).set]{q} f)) := by
  obtain ⟨hd, hu⟩ := rows_tile (N := N) (d1 := d1) (d2 := d2) (d3 := d3) hk ht ha hb ho inba inbb inbo
  have hd' : Disjoint (m.view.slice (Rect.unit (s := ⟨4, ![N, d1, d2, d3]⟩) offa ![k, d1, d2, d3] inba)).set
      (m.view.slice (Rect.unit (s := ⟨4, ![N, d1, d2, d3]⟩) offb ![k, d1, d2, d3] inbb)).set := by
    rw [View.set_slice, View.set_slice]; exact (Finset.disjoint_map _).mpr hd
  have hu' : (m.view.slice (Rect.unit (s := ⟨4, ![N, d1, d2, d3]⟩) offo ![k2, d1, d2, d3] inbo)).set
      = (m.view.slice (Rect.unit (s := ⟨4, ![N, d1, d2, d3]⟩) offa ![k, d1, d2, d3] inba)).set
        ∪ (m.view.slice (Rect.unit (s := ⟨4, ![N, d1, d2, d3]⟩) offb ![k, d1, d2, d3] inbb)).set := by
    rw [View.set_slice, View.set_slice, View.set_slice, ← hu, Finset.map_union]
  rw [hu']
  have h := pointsTo_union (Ix := Ix) (Name := Name) (U := U) (Lvl := Lvl) (Val := Val) (ℓ := m.view.loc c) (q := q) (f := f) hd'
  exact BI.equiv_iff.mp ⟨h.1, h.2⟩

/-- Two halves held at contents of their own join to the block of `2 k` rows, held at the contents that are the
    second's on the second half and the first's elsewhere. -/
theorem pointsTo_rows_join {c : Thread nD τ} {sp : Space} {e : EltTy} {N d1 d2 d3 k k2 a b o : ℕ}
    (m : Memref sig c.2.kind sp ⟨4, ![N, d1, d2, d3]⟩ e) (hk : k2 = k + k) (ht : Tiles k a b o) {offa offb offo : Fin 4 → ℕ}
    (ha : offa = ![a, 0, 0, 0]) (hb : offb = ![b, 0, 0, 0]) (ho : offo = ![o, 0, 0, 0])
    (inba : ∀ x, offa x + (![k, d1, d2, d3] : Fin 4 → ℕ) x ≤ (⟨4, ![N, d1, d2, d3]⟩ : Shape).size x)
    (inbb : ∀ x, offb x + (![k, d1, d2, d3] : Fin 4 → ℕ) x ≤ (⟨4, ![N, d1, d2, d3]⟩ : Shape).size x)
    (inbo : ∀ x, offo x + (![k2, d1, d2, d3] : Fin 4 → ℕ) x ≤ (⟨4, ![N, d1, d2, d3]⟩ : Shape).size x)
    (q : PosShare TreeShare) (f g : Buf Val (m.view.loc c)) :
    iprop((m.view.loc c ↦[(m.view.slice (Rect.unit (s := ⟨4, ![N, d1, d2, d3]⟩) offa ![k, d1, d2, d3] inba)).set]{q} f)
          ∗ (m.view.loc c ↦[(m.view.slice (Rect.unit (s := ⟨4, ![N, d1, d2, d3]⟩) offb ![k, d1, d2, d3] inbb)).set]{q} g))
      ⊢ (m.view.loc c ↦[(m.view.slice (Rect.unit (s := ⟨4, ![N, d1, d2, d3]⟩) offo ![k2, d1, d2, d3] inbo)).set]{q}
            ((m.view.slice (Rect.unit (s := ⟨4, ![N, d1, d2, d3]⟩) offb ![k, d1, d2, d3] inbb)).set.piecewise g f) : sProp 𝕄) := by
  obtain ⟨hd, hu⟩ := rows_tile (N := N) (d1 := d1) (d2 := d2) (d3 := d3) hk ht ha hb ho inba inbb inbo
  have hd' : Disjoint (m.view.slice (Rect.unit (s := ⟨4, ![N, d1, d2, d3]⟩) offa ![k, d1, d2, d3] inba)).set
      (m.view.slice (Rect.unit (s := ⟨4, ![N, d1, d2, d3]⟩) offb ![k, d1, d2, d3] inbb)).set := by
    rw [View.set_slice, View.set_slice]; exact (Finset.disjoint_map _).mpr hd
  have hu' : (m.view.slice (Rect.unit (s := ⟨4, ![N, d1, d2, d3]⟩) offo ![k2, d1, d2, d3] inbo)).set
      = (m.view.slice (Rect.unit (s := ⟨4, ![N, d1, d2, d3]⟩) offa ![k, d1, d2, d3] inba)).set
        ∪ (m.view.slice (Rect.unit (s := ⟨4, ![N, d1, d2, d3]⟩) offb ![k, d1, d2, d3] inbb)).set := by
    rw [View.set_slice, View.set_slice, View.set_slice, ← hu, Finset.map_union]
  rw [hu']
  exact pointsTo_join (Ix := Ix) (Name := Name) (U := U) (Lvl := Lvl) (Val := Val) (ℓ := m.view.loc c) (q := q) (f := f) (g := g) hd'

/-- A buffer held whole through a memref that is the whole buffer is held by the elements of the block of all its rows. -/
theorem pointsTo_rows_all {c : Thread nD τ} {sp : Space} {e : EltTy} {N d1 d2 d3 : ℕ}
    (m : Memref sig c.2.kind sp ⟨4, ![N, d1, d2, d3]⟩ e) (hm : m.IsWhole) {off : Fin 4 → ℕ} (ho : off = ![0, 0, 0, 0])
    (inb : ∀ x, off x + (![N, d1, d2, d3] : Fin 4 → ℕ) x ≤ (⟨4, ![N, d1, d2, d3]⟩ : Shape).size x)
    (q : PosShare TreeShare) (f : Buf Val (m.view.loc c)) :
    (m.view.loc c ↦{q} f : sProp 𝕄)
      = (m.view.loc c ↦[(m.view.slice (Rect.unit (s := ⟨4, ![N, d1, d2, d3]⟩) off ![N, d1, d2, d3] inb)).set]{q} f) := by
  rw [View.set_slice, rows_all ho, ← View.set, hm.set_eq_univ]

/-- Four separating conjuncts, reassociated. -/
theorem sep_assoc4 (A B C D : sProp 𝕄) : (iprop(((A ∗ B) ∗ C) ∗ D) : sProp 𝕄) = iprop(A ∗ B ∗ C ∗ D) := by
  have h₁ : iprop(((A ∗ B) ∗ C) ∗ D) ⊢ (iprop(A ∗ B ∗ C ∗ D) : sProp 𝕄) := by
    iintro ⟨⟨⟨H1, H2⟩, H3⟩, H4⟩
    isplitl [H1]; · iexact H1
    isplitl [H2]; · iexact H2
    isplitl [H3]; · iexact H3
    iexact H4
  have h₂ : (iprop(A ∗ B ∗ C ∗ D) : sProp 𝕄) ⊢ iprop(((A ∗ B) ∗ C) ∗ D) := by
    iintro ⟨H1, H2, H3, H4⟩
    isplitr [H4]
    · isplitr [H3]
      · isplitl [H1]; · iexact H1
        iexact H2
      · iexact H3
    · iexact H4
  exact BI.equiv_iff.mp ⟨h₁, h₂⟩

end General

/-! ## The kernel's three ring buffers and its result staging buffer -/

section Concrete

open Cert.KernelIdeal.Facts₀ Cert.KernelIdeal.Facts
open Cert.KernelIdeal.Mesh (row row_lt p0 p1 p2 row_p0 row_p1 row_p2 off19_eq' off20_eq off21_eq)

variable {Ix : Type} [DecidableEq Ix] {Val : EltTy → Type} {Name : Type} [DecidableEq Name]
variable {U : Type} [URA U] {Lvl : Type}

local notation "𝕄" => MT nD τ sig Ix Val Name U Lvl

/-- Slot `j` of a `[4, 8, 16, 128]` ring buffer, as the program names it. -/
abbrev slotO (m : Memref sig .tc .vmem S4x8x16x128 .f32) (j : ℕ)
    (inb : ∀ a, (![j, 0, 0, 0] : Fin 4 → ℕ) a + S1x8x16x128.size a ≤ S4x8x16x128.size a) : Memref sig .tc .vmem S8x16x128 .f32 :=
  (m.slice (Rect.unit (s := S4x8x16x128) ![j, 0, 0, 0] S1x8x16x128.size inb) (fun _ => rfl)).squeeze S8x16x128 squeezes_S1x8x16x128_S8x16x128

/-- Slot `j` of a `[4, 8, 16, 1]` ring buffer, as the program names it. -/
abbrev slotM (m : Memref sig .tc .vmem S4x8x16x1 .f32) (j : ℕ)
    (inb : ∀ a, (![j, 0, 0, 0] : Fin 4 → ℕ) a + S1x8x16x1.size a ≤ S4x8x16x1.size a) : Memref sig .tc .vmem S8x16x1 .f32 :=
  (m.slice (Rect.unit (s := S4x8x16x1) ![j, 0, 0, 0] S1x8x16x1.size inb) (fun _ => rfl)).squeeze S8x16x1 squeezes_S1x8x16x1_S8x16x1

/-- A `[4, 8, 16, 128]` ring buffer held whole is its four slots, and back. -/
theorem ringO_slots (d : Dev nD) (m : Memref sig .tc .vmem S4x8x16x128 .f32) (hm : m.IsWhole) (q : PosShare TreeShare)
    (f : Buf Val (m.view.loc (d.tc : Thread nD τ))) :
    (m.view.loc (d.tc : Thread nD τ) ↦{q} f : sProp 𝕄)
      = iprop(((slotO m 0 inb_S4x8x16x128_S1x8x16x128_0_0_0_0).view.loc (d.tc : Thread nD τ) ↦[(slotO m 0 inb_S4x8x16x128_S1x8x16x128_0_0_0_0).view.set]{q} f)
        ∗ ((slotO m 1 inb_S4x8x16x128_S1x8x16x128_1_0_0_0).view.loc (d.tc : Thread nD τ) ↦[(slotO m 1 inb_S4x8x16x128_S1x8x16x128_1_0_0_0).view.set]{q} f)
        ∗ ((slotO m 2 inb_S4x8x16x128_S1x8x16x128_2_0_0_0).view.loc (d.tc : Thread nD τ) ↦[(slotO m 2 inb_S4x8x16x128_S1x8x16x128_2_0_0_0).view.set]{q} f)
        ∗ ((slotO m 3 inb_S4x8x16x128_S1x8x16x128_3_0_0_0).view.loc (d.tc : Thread nD τ) ↦[(slotO m 3 inb_S4x8x16x128_S1x8x16x128_3_0_0_0).view.set]{q} f)) :=
  whole_slots4 (c := (d.tc : Thread nD τ)) 8 16 128 m hm inb_S4x8x16x128_S1x8x16x128_0_0_0_0 inb_S4x8x16x128_S1x8x16x128_1_0_0_0
    inb_S4x8x16x128_S1x8x16x128_2_0_0_0 inb_S4x8x16x128_S1x8x16x128_3_0_0_0 squeezes_S1x8x16x128_S8x16x128 q f

/-- A `[4, 8, 16, 1]` ring buffer held whole is its four slots, and back. -/
theorem ringM_slots (d : Dev nD) (m : Memref sig .tc .vmem S4x8x16x1 .f32) (hm : m.IsWhole) (q : PosShare TreeShare)
    (f : Buf Val (m.view.loc (d.tc : Thread nD τ))) :
    (m.view.loc (d.tc : Thread nD τ) ↦{q} f : sProp 𝕄)
      = iprop(((slotM m 0 inb_S4x8x16x1_S1x8x16x1_0_0_0_0).view.loc (d.tc : Thread nD τ) ↦[(slotM m 0 inb_S4x8x16x1_S1x8x16x1_0_0_0_0).view.set]{q} f)
        ∗ ((slotM m 1 inb_S4x8x16x1_S1x8x16x1_1_0_0_0).view.loc (d.tc : Thread nD τ) ↦[(slotM m 1 inb_S4x8x16x1_S1x8x16x1_1_0_0_0).view.set]{q} f)
        ∗ ((slotM m 2 inb_S4x8x16x1_S1x8x16x1_2_0_0_0).view.loc (d.tc : Thread nD τ) ↦[(slotM m 2 inb_S4x8x16x1_S1x8x16x1_2_0_0_0).view.set]{q} f)
        ∗ ((slotM m 3 inb_S4x8x16x1_S1x8x16x1_3_0_0_0).view.loc (d.tc : Thread nD τ) ↦[(slotM m 3 inb_S4x8x16x1_S1x8x16x1_3_0_0_0).view.set]{q} f)) :=
  whole_slots4 (c := (d.tc : Thread nD τ)) 8 16 1 m hm inb_S4x8x16x1_S1x8x16x1_0_0_0_0 inb_S4x8x16x1_S1x8x16x1_1_0_0_0
    inb_S4x8x16x1_S1x8x16x1_2_0_0_0 inb_S4x8x16x1_S1x8x16x1_3_0_0_0 squeezes_S1x8x16x1_S8x16x1 q f

/-! ### The eight rows of the result staging buffer

A device serves row `r`. Its row and the row `r xor 1` make up the aligned pair of rows that holds `r`; that pair and the pair that
holds `r xor 2` make up the aligned quadruple that holds `r`; that quadruple and the one that holds `r xor 4` are all eight rows. -/

theorem tiles_row : ∀ r, r < 8 → Tiles 1 r (r ^^^ 1) (r / 2 * 2) := by
  unfold Tiles; decide
theorem tiles_pair : ∀ r, r < 8 → Tiles 2 (r / 2 * 2) ((r ^^^ 2) / 2 * 2) (r / 4 * 4) := by
  unfold Tiles; decide
theorem tiles_quad : ∀ r, r < 8 → Tiles 4 (r / 4 * 4) ((r ^^^ 4) / 4 * 4) 0 := by
  unfold Tiles; decide

theorem off19_p0 (c : Dev nD) : k0_off19 (p0 c) = ![row c ^^^ 1, 0, 0, 0] := by rw [off19_eq', row_p0]
theorem off20_p1 (c : Dev nD) : k0_off20 (p1 c) = ![(row c ^^^ 2) / 2 * 2, 0, 0, 0] := by rw [off20_eq, row_p1]
theorem off21_p2 (c : Dev nD) : k0_off21 (p2 c) = ![(row c ^^^ 4) / 4 * 4, 0, 0, 0] := by rw [off21_eq, row_p2]

/-- The aligned pair of rows of device `c` (in the staging buffer of any device `d`) is `c`'s row and its first partner's. -/
theorem out_pair (c d : Dev nD) (m : Memref sig .tc .vmem S8x8x16x128 .f32) (q : PosShare TreeShare)
    (f : Buf Val (m.view.loc (d.tc : Thread nD τ))) :
    (((m.slice (Rect.unit (s := S8x8x16x128) (k0_off20 c) S2x8x16x128.size (k0_off20_inb c)) (fun _ => rfl)).view.loc (d.tc : Thread nD τ) ↦[(m.slice (Rect.unit (s := S8x8x16x128) (k0_off20 c) S2x8x16x128.size (k0_off20_inb c)) (fun _ => rfl)).view.set]{q} f) : sProp 𝕄)
      = iprop(((m.slice (Rect.unit (s := S8x8x16x128) (k0_off19 c) S1x8x16x128.size (k0_off19_inb c)) (fun _ => rfl)).view.loc (d.tc : Thread nD τ) ↦[(m.slice (Rect.unit (s := S8x8x16x128) (k0_off19 c) S1x8x16x128.size (k0_off19_inb c)) (fun _ => rfl)).view.set]{q} f)
          ∗ ((m.slice (Rect.unit (s := S8x8x16x128) (k0_off19 (p0 c)) S1x8x16x128.size (k0_off19_inb (p0 c))) (fun _ => rfl)).view.loc (d.tc : Thread nD τ) ↦[(m.slice (Rect.unit (s := S8x8x16x128) (k0_off19 (p0 c)) S1x8x16x128.size (k0_off19_inb (p0 c))) (fun _ => rfl)).view.set]{q} f)) :=
  pointsTo_rows_tile (c := (d.tc : Thread nD τ)) (N := 8) (d1 := 8) (d2 := 16) (d3 := 128) (k := 1) (k2 := 2) m rfl
    (tiles_row (row c) (row_lt c)) (off19_eq' c) (off19_p0 c) (off20_eq c) (k0_off19_inb c) (k0_off19_inb (p0 c)) (k0_off20_inb c) q f

/-- The aligned quadruple of rows of device `c` is `c`'s pair and its second partner's. -/
theorem out_quad (c d : Dev nD) (m : Memref sig .tc .vmem S8x8x16x128 .f32) (q : PosShare TreeShare)
    (f : Buf Val (m.view.loc (d.tc : Thread nD τ))) :
    (((m.slice (Rect.unit (s := S8x8x16x128) (k0_off21 c) S4x8x16x128.size (k0_off21_inb c)) (fun _ => rfl)).view.loc (d.tc : Thread nD τ) ↦[(m.slice (Rect.unit (s := S8x8x16x128) (k0_off21 c) S4x8x16x128.size (k0_off21_inb c)) (fun _ => rfl)).view.set]{q} f) : sProp 𝕄)
      = iprop(((m.slice (Rect.unit (s := S8x8x16x128) (k0_off20 c) S2x8x16x128.size (k0_off20_inb c)) (fun _ => rfl)).view.loc (d.tc : Thread nD τ) ↦[(m.slice (Rect.unit (s := S8x8x16x128) (k0_off20 c) S2x8x16x128.size (k0_off20_inb c)) (fun _ => rfl)).view.set]{q} f)
          ∗ ((m.slice (Rect.unit (s := S8x8x16x128) (k0_off20 (p1 c)) S2x8x16x128.size (k0_off20_inb (p1 c))) (fun _ => rfl)).view.loc (d.tc : Thread nD τ) ↦[(m.slice (Rect.unit (s := S8x8x16x128) (k0_off20 (p1 c)) S2x8x16x128.size (k0_off20_inb (p1 c))) (fun _ => rfl)).view.set]{q} f)) :=
  pointsTo_rows_tile (c := (d.tc : Thread nD τ)) (N := 8) (d1 := 8) (d2 := 16) (d3 := 128) (k := 2) (k2 := 4) m rfl
    (tiles_pair (row c) (row_lt c)) (off20_eq c) (off20_p1 c) (off21_eq c) (k0_off20_inb c) (k0_off20_inb (p1 c)) (k0_off21_inb c) q f

/-- All eight rows are `c`'s quadruple and its third partner's. -/
theorem out_all (c d : Dev nD) (m : Memref sig .tc .vmem S8x8x16x128 .f32) (hm : m.IsWhole) (q : PosShare TreeShare)
    (f : Buf Val (m.view.loc (d.tc : Thread nD τ))) :
    (m.view.loc (d.tc : Thread nD τ) ↦{q} f : sProp 𝕄)
      = iprop(((m.slice (Rect.unit (s := S8x8x16x128) (k0_off21 c) S4x8x16x128.size (k0_off21_inb c)) (fun _ => rfl)).view.loc (d.tc : Thread nD τ) ↦[(m.slice (Rect.unit (s := S8x8x16x128) (k0_off21 c) S4x8x16x128.size (k0_off21_inb c)) (fun _ => rfl)).view.set]{q} f)
          ∗ ((m.slice (Rect.unit (s := S8x8x16x128) (k0_off21 (p2 c)) S4x8x16x128.size (k0_off21_inb (p2 c))) (fun _ => rfl)).view.loc (d.tc : Thread nD τ) ↦[(m.slice (Rect.unit (s := S8x8x16x128) (k0_off21 (p2 c)) S4x8x16x128.size (k0_off21_inb (p2 c))) (fun _ => rfl)).view.set]{q} f)) := by
  have inb0 : ∀ x, (![0, 0, 0, 0] : Fin 4 → ℕ) x + (![8, 8, 16, 128] : Fin 4 → ℕ) x ≤ S8x8x16x128.size x := by decide
  rw [pointsTo_rows_all (c := (d.tc : Thread nD τ)) (N := 8) (d1 := 8) (d2 := 16) (d3 := 128) m hm rfl inb0 q f]
  exact pointsTo_rows_tile (c := (d.tc : Thread nD τ)) (N := 8) (d1 := 8) (d2 := 16) (d3 := 128) (k := 4) (k2 := 8) m rfl
    (tiles_quad (row c) (row_lt c)) (off21_eq c) (off21_p2 c) rfl (k0_off21_inb c) (k0_off21_inb (p2 c)) inb0 q f

/-- The staging buffer held whole is: `c`'s own row, its first partner's row, its second partner's pair, its third partner's quadruple. -/
theorem out_cut (c d : Dev nD) (m : Memref sig .tc .vmem S8x8x16x128 .f32) (hm : m.IsWhole) (q : PosShare TreeShare)
    (f : Buf Val (m.view.loc (d.tc : Thread nD τ))) :
    (m.view.loc (d.tc : Thread nD τ) ↦{q} f : sProp 𝕄)
      = iprop(((m.slice (Rect.unit (s := S8x8x16x128) (k0_off19 c) S1x8x16x128.size (k0_off19_inb c)) (fun _ => rfl)).view.loc (d.tc : Thread nD τ) ↦[(m.slice (Rect.unit (s := S8x8x16x128) (k0_off19 c) S1x8x16x128.size (k0_off19_inb c)) (fun _ => rfl)).view.set]{q} f)
          ∗ ((m.slice (Rect.unit (s := S8x8x16x128) (k0_off19 (p0 c)) S1x8x16x128.size (k0_off19_inb (p0 c))) (fun _ => rfl)).view.loc (d.tc : Thread nD τ) ↦[(m.slice (Rect.unit (s := S8x8x16x128) (k0_off19 (p0 c)) S1x8x16x128.size (k0_off19_inb (p0 c))) (fun _ => rfl)).view.set]{q} f)
          ∗ ((m.slice (Rect.unit (s := S8x8x16x128) (k0_off20 (p1 c)) S2x8x16x128.size (k0_off20_inb (p1 c))) (fun _ => rfl)).view.loc (d.tc : Thread nD τ) ↦[(m.slice (Rect.unit (s := S8x8x16x128) (k0_off20 (p1 c)) S2x8x16x128.size (k0_off20_inb (p1 c))) (fun _ => rfl)).view.set]{q} f)
          ∗ ((m.slice (Rect.unit (s := S8x8x16x128) (k0_off21 (p2 c)) S4x8x16x128.size (k0_off21_inb (p2 c))) (fun _ => rfl)).view.loc (d.tc : Thread nD τ) ↦[(m.slice (Rect.unit (s := S8x8x16x128) (k0_off21 (p2 c)) S4x8x16x128.size (k0_off21_inb (p2 c))) (fun _ => rfl)).view.set]{q} f)) := by
  rw [out_all c d m hm q f, out_quad c d m q f, out_pair c d m q f]
  exact sep_assoc4 _ _ _ _

/-- `c`'s row at `f` and its first partner's row at `g` join to `c`'s pair. -/
theorem out_pair_join (c d : Dev nD) (m : Memref sig .tc .vmem S8x8x16x128 .f32) (q : PosShare TreeShare)
    (f g : Buf Val (m.view.loc (d.tc : Thread nD τ))) :
    iprop(((m.slice (Rect.unit (s := S8x8x16x128) (k0_off19 c) S1x8x16x128.size (k0_off19_inb c)) (fun _ => rfl)).view.loc (d.tc : Thread nD τ) ↦[(m.slice (Rect.unit (s := S8x8x16x128) (k0_off19 c) S1x8x16x128.size (k0_off19_inb c)) (fun _ => rfl)).view.set]{q} f)
          ∗ ((m.slice (Rect.unit (s := S8x8x16x128) (k0_off19 (p0 c)) S1x8x16x128.size (k0_off19_inb (p0 c))) (fun _ => rfl)).view.loc (d.tc : Thread nD τ) ↦[(m.slice (Rect.unit (s := S8x8x16x128) (k0_off19 (p0 c)) S1x8x16x128.size (k0_off19_inb (p0 c))) (fun _ => rfl)).view.set]{q} g))
      ⊢ ((m.slice (Rect.unit (s := S8x8x16x128) (k0_off20 c) S2x8x16x128.size (k0_off20_inb c)) (fun _ => rfl)).view.loc (d.tc : Thread nD τ) ↦[(m.slice (Rect.unit (s := S8x8x16x128) (k0_off20 c) S2x8x16x128.size (k0_off20_inb c)) (fun _ => rfl)).view.set]{q}
            ((m.slice (Rect.unit (s := S8x8x16x128) (k0_off19 (p0 c)) S1x8x16x128.size (k0_off19_inb (p0 c))) (fun _ => rfl)).view.set.piecewise g f) : sProp 𝕄) :=
  pointsTo_rows_join (c := (d.tc : Thread nD τ)) (N := 8) (d1 := 8) (d2 := 16) (d3 := 128) (k := 1) (k2 := 2) m rfl
    (tiles_row (row c) (row_lt c)) (off19_eq' c) (off19_p0 c) (off20_eq c) (k0_off19_inb c) (k0_off19_inb (p0 c)) (k0_off20_inb c) q f g

/-- `c`'s pair at `f` and its second partner's pair at `g` join to `c`'s quadruple. -/
theorem out_quad_join (c d : Dev nD) (m : Memref sig .tc .vmem S8x8x16x128 .f32) (q : PosShare TreeShare)
    (f g : Buf Val (m.view.loc (d.tc : Thread nD τ))) :
    iprop(((m.slice (Rect.unit (s := S8x8x16x128) (k0_off20 c) S2x8x16x128.size (k0_off20_inb c)) (fun _ => rfl)).view.loc (d.tc : Thread nD τ) ↦[(m.slice (Rect.unit (s := S8x8x16x128) (k0_off20 c) S2x8x16x128.size (k0_off20_inb c)) (fun _ => rfl)).view.set]{q} f)
          ∗ ((m.slice (Rect.unit (s := S8x8x16x128) (k0_off20 (p1 c)) S2x8x16x128.size (k0_off20_inb (p1 c))) (fun _ => rfl)).view.loc (d.tc : Thread nD τ) ↦[(m.slice (Rect.unit (s := S8x8x16x128) (k0_off20 (p1 c)) S2x8x16x128.size (k0_off20_inb (p1 c))) (fun _ => rfl)).view.set]{q} g))
      ⊢ ((m.slice (Rect.unit (s := S8x8x16x128) (k0_off21 c) S4x8x16x128.size (k0_off21_inb c)) (fun _ => rfl)).view.loc (d.tc : Thread nD τ) ↦[(m.slice (Rect.unit (s := S8x8x16x128) (k0_off21 c) S4x8x16x128.size (k0_off21_inb c)) (fun _ => rfl)).view.set]{q}
            ((m.slice (Rect.unit (s := S8x8x16x128) (k0_off20 (p1 c)) S2x8x16x128.size (k0_off20_inb (p1 c))) (fun _ => rfl)).view.set.piecewise g f) : sProp 𝕄) :=
  pointsTo_rows_join (c := (d.tc : Thread nD τ)) (N := 8) (d1 := 8) (d2 := 16) (d3 := 128) (k := 2) (k2 := 4) m rfl
    (tiles_pair (row c) (row_lt c)) (off20_eq c) (off20_p1 c) (off21_eq c) (k0_off20_inb c) (k0_off20_inb (p1 c)) (k0_off21_inb c) q f g

/-- `c`'s quadruple at `f` and its third partner's quadruple at `g` join to the whole staging buffer. -/
theorem out_all_join (c d : Dev nD) (m : Memref sig .tc .vmem S8x8x16x128 .f32) (hm : m.IsWhole) (q : PosShare TreeShare)
    (f g : Buf Val (m.view.loc (d.tc : Thread nD τ))) :
    iprop(((m.slice (Rect.unit (s := S8x8x16x128) (k0_off21 c) S4x8x16x128.size (k0_off21_inb c)) (fun _ => rfl)).view.loc (d.tc : Thread nD τ) ↦[(m.slice (Rect.unit (s := S8x8x16x128) (k0_off21 c) S4x8x16x128.size (k0_off21_inb c)) (fun _ => rfl)).view.set]{q} f)
          ∗ ((m.slice (Rect.unit (s := S8x8x16x128) (k0_off21 (p2 c)) S4x8x16x128.size (k0_off21_inb (p2 c))) (fun _ => rfl)).view.loc (d.tc : Thread nD τ) ↦[(m.slice (Rect.unit (s := S8x8x16x128) (k0_off21 (p2 c)) S4x8x16x128.size (k0_off21_inb (p2 c))) (fun _ => rfl)).view.set]{q} g))
      ⊢ (m.view.loc (d.tc : Thread nD τ) ↦{q} ((m.slice (Rect.unit (s := S8x8x16x128) (k0_off21 (p2 c)) S4x8x16x128.size (k0_off21_inb (p2 c))) (fun _ => rfl)).view.set.piecewise g f) : sProp 𝕄) := by
  have inb0 : ∀ x, (![0, 0, 0, 0] : Fin 4 → ℕ) x + (![8, 8, 16, 128] : Fin 4 → ℕ) x ≤ S8x8x16x128.size x := by decide
  rw [pointsTo_rows_all (c := (d.tc : Thread nD τ)) (N := 8) (d1 := 8) (d2 := 16) (d3 := 128) m hm rfl inb0 q]
  exact pointsTo_rows_join (c := (d.tc : Thread nD τ)) (N := 8) (d1 := 8) (d2 := 16) (d3 := 128) (k := 4) (k2 := 8) m rfl
    (tiles_quad (row c) (row_lt c)) (off21_eq c) (off21_p2 c) rfl (k0_off21_inb c) (k0_off21_inb (p2 c)) inb0 q f g

/-- info: 'Cert.KernelIdeal.BodyProto.out_cut' depends on axioms: [propext, Classical.choice, Quot.sound] -/
#guard_msgs in #print axioms out_cut

end Concrete

end Cert.KernelIdeal.BodyProto
-- ==== Proof.BodySteps.lean ====
/-
  The communication steps of the kernel body, second part: the steps themselves.

  A signal to a neighbour's barrier semaphore, the wait for the five neighbours, a remote copy into a neighbour's buffer, and a
  wait on one of the device's own transfer cells are each one lemma, stated once for every place the body takes that kind of
  step; then each part of the body that communicates is run as the chain of its steps. Around them: how the buffers are cut
  before the first signal and joined again after the last hop and after the last exchange, what each signal hands over put
  together, and the evidence a wait presents from the levels of the cells still to be paid.
-/
import proofs.«900429_g7700000000000430_dist_flashdec_v7x_xyz2x4x4_z_b8_sq8_skv1024_h16_d128_f32_1_alg».proof.Proof.BodyProto
import proofs.«900429_g7700000000000430_dist_flashdec_v7x_xyz2x4x4_z_b8_sq8_skv1024_h16_d128_f32_1_alg».proof.Proof.Proto
import proofs.«900429_g7700000000000430_dist_flashdec_v7x_xyz2x4x4_z_b8_sq8_skv1024_h16_d128_f32_1_alg».proof.Proof.Segments
import Idealize.ShloMosaic.Lib.Ring
import Idealize.ShloMosaic.Lib.Memref
import Idealize.ShloMosaic.Lib.Rounds

noncomputable section

namespace Cert.KernelIdeal.BodyProto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## Blocks held at contents of their own, joined -/

section GeneralJoin

variable {nD : Nat} {τ : Topo} {sig : RefSig}
variable {Ix : Type} [DecidableEq Ix] {Val : EltTy → Type} {Name : Type} [DecidableEq Name]
variable {U : Type} [URA U] {Lvl : Type}

local notation "𝕄" => MT nD τ sig Ix Val Name U Lvl

/-- Blocks along one axis held at contents of their own join to the buffer held whole, at contents that agree with each block's
    on that block's elements. -/
theorem whole_lead_join {c : Thread nD τ} {sp : Space} {s : Shape} {e : EltTy} (m : Memref sig c.2.kind sp s e) (hm : m.IsWhole)
    {NB : ℕ} (a₀ : Fin s.rank) (R : ℕ) (off : Fin NB → Fin s.rank → ℕ) (size : Fin s.rank → ℕ)
    (inb : ∀ b a, off b a + size a ≤ s.size a)
    (hoff₀ : ∀ b, off b a₀ = R * b.val) (hoff : ∀ b a, a ≠ a₀ → off b a = 0)
    (hsz₀ : size a₀ = R) (hsz : ∀ a, a ≠ a₀ → size a = s.size a) (hN : NB * R = s.size a₀)
    (q : PosShare TreeShare) (fs : Fin NB → Buf Val (m.view.loc c)) (f₀ : Buf Val (m.view.loc c)) :
    bigSep Finset.univ (fun b : Fin NB => (m.view.loc c ↦[(m.view.slice (Rect.unit (off b) size (inb b))).set]{q} fs b : sProp 𝕄))
      ⊢ iprop(∃ g, ⌜∀ b, ∀ i ∈ (m.view.slice (Rect.unit (off b) size (inb b))).set, g i = fs b i⌝ ∗ (m.view.loc c ↦{q} g)) := by
  have hd : ∀ b ∈ (Finset.univ : Finset (Fin NB)), ∀ b' ∈ (Finset.univ : Finset (Fin NB)), b ≠ b' →
      Disjoint (m.view.slice (Rect.unit (off b) size (inb b))).set (m.view.slice (Rect.unit (off b') size (inb b'))).set := by
    intro b _ b' _ h
    rw [View.set_slice, View.set_slice]
    exact (Finset.disjoint_map _).mpr (Ring.lead_disjoint a₀ R off size inb hoff₀ hsz₀ b b' h)
  have hc : (Finset.univ : Finset (Fin NB)).biUnion (fun b => ((m.view.slice (Rect.unit (off b) size (inb b))).set : Finset (Idx (m.view.loc c))))
      = (Finset.univ : Finset (Idx (m.view.loc c))) := by
    ext i
    simp only [Finset.mem_biUnion, Finset.mem_univ, true_and, iff_true]
    have hi : i ∈ m.view.set := hm.set_eq_univ ▸ Finset.mem_univ i
    rw [View.set, Finset.mem_map] at hi
    obtain ⟨x, -, rfl⟩ := hi
    have hx : x ∈ Finset.univ.biUnion (fun b => (Rect.unit (off b) size (inb b)).set) := by
      rw [Ring.lead_cover a₀ R off size inb hoff₀ hoff hsz₀ hsz hN]; exact Finset.mem_univ x
    obtain ⟨b, -, hb⟩ := Finset.mem_biUnion.mp hx
    exact ⟨b, by rw [View.set_slice]; exact Finset.mem_map_of_mem _ hb⟩
  refine (pointsTo_biUnion_join (Ix := Ix) (Name := Name) (U := U) (Lvl := Lvl) (Val := Val) (ℓ := m.view.loc c) (q := q) (Finset.univ : Finset (Fin NB))
    (fun b => ((m.view.slice (Rect.unit (off b) size (inb b))).set : Finset (Idx (m.view.loc c)))) fs f₀ hd).trans ?_
  rw [hc]
  iintro ⟨%g, %hg, H⟩
  iexists g
  isplitr
  · ipureintro; exact fun b i hi => hg b (Finset.mem_univ b) i hi
  · iexact H

/-- The credit of a transfer through a slice of a buffer does not depend on where the slice sits, -/
theorem credit_slice {κ : Kind} {sp : Space} {s : Shape} {e : EltTy} (M : Memref sig κ sp s e) {off off' size : Fin s.rank → ℕ}
    (inb : ∀ a, off a + size a ≤ s.size a) (inb' : ∀ a, off' a + size a ≤ s.size a) :
    (M.slice (Rect.unit off size inb) (fun _ => rfl)).view.dmaCredit = (M.slice (Rect.unit off' size inb') (fun _ => rfl)).view.dmaCredit := rfl

/-- nor does it through a squeezed slice. -/
theorem credit_squeeze_slice {κ : Kind} {sp : Space} {s s' : Shape} {e : EltTy} (M : Memref sig κ sp s e) {off off' size : Fin s.rank → ℕ}
    (inb : ∀ a, off a + size a ≤ s.size a) (inb' : ∀ a, off' a + size a ≤ s.size a) (h : (Rect.unit off size inb).shape.Squeezes s') (h' : (Rect.unit off' size inb').shape.Squeezes s') :
    ((M.slice (Rect.unit off size inb) (fun _ => rfl)).squeeze s' h).view.dmaCredit
      = ((M.slice (Rect.unit off' size inb') (fun _ => rfl)).squeeze s' h').view.dmaCredit := rfl

end GeneralJoin

/-! ## The communication steps

The schedule's tables at the cells a device signals, copies onto and waits on; then one lemma per kind of step. Every
remote copy of the body (the nine of the ring, the three of the exchanges) is one instance of `send_step`; every wait on
one of the device's own transfer cells is one instance of `own_wait`. -/

section Steps

open Cert.KernelIdeal.FD
open Cert.KernelIdeal.Mesh (zr zl zl_zr zr_zl p0 p1 p2 p0_p0 p1_p1 p2_p2)
open Idealize.ShloMosaic.Rounds

variable {F : FTy → Type} [FloatOps F]

local notation "𝕄" => MT nD τ sig Unit (Elt F) ℕ UU ℕ

variable (vo : Dev nD → S8x16x128.Idx → Elt F .f32) (vm vl : Dev nD → S8x16x1.Idx → Elt F .f32)
variable (vg : ℕ → S8x8x16x128.Idx → Elt F .f32) (kin vin : Dev nD → S1024x16x128.Idx → Elt F .f32)
variable (m : (ℓ : Loc nD τ sig) → Buf (Elt F) ℓ)

/-! ### One lemma per kind of step -/

variable {Λ : Labels} {defs : Defs nD τ sig (Elt F) Λ} (𝒱 : Variants)

/-- A signal to a neighbour's barrier semaphore pays one of the five duties of the neighbour's barrier cell: the signaller
    hands in the duty's token, what it promised the neighbour, and that the neighbour's cell stands at round 0, and owes one
    unit less. -/
theorem bar_signal {α : Type} {Q : α → sProp 𝕄} (c n : Dev nD) (d : Fin 5) (bd : Option 𝒱.V) {dev : Dev nD} (hdev : dev = n)
    {k : PUnit → Prog (TpuEff nD τ sig (Elt F) Λ (c : Thread nD τ).2) α} {κ : ℕ}
    {O₀ : CellTallies nD τ sig Unit} (O : CellTallies nD τ sig Unit) (hO : O₀ = O + tallyAt (barCell n) () 1)
    {W : Waits sig Unit} {Es : Set ℕ} (hr : τ.routes (c : Thread nD τ) (n : Thread nD τ) = true) :
    iprop(cellInv ER (Rd vo vm vl vg kin vin m) κ (barCell n) ∗ owes (c : Thread nD τ) O₀ W ∗ dutyTok ER (barCell n) 0 d
        ∗ barPay (F := F) n d ∗ reached ER (barCell n) 0)
      ⊢ iprop((owes (c : Thread nD τ) O W -∗ wp frame (wpE defs 𝒱 (c : Thread nD τ) bd) Es (k ⟨⟩) Q)
          -∗ wp frame (wpE defs 𝒱 (c : Thread nD τ) bd) Es (.op (.semSignal (dev : Thread nD τ) barS 1) k) Q) := by
  subst dev
  have hd : d ∈ (Rd vo vm vl vg kin vin m).duties ((n : Thread nD τ), .reg barS) 0 := by
    rw [duties_bar vo vm vl vg kin vin m n]; exact Finset.mem_univ d
  have hrule := Rounds.wp_signal (defs := defs) (Γ := .empty) (Q := Q) (k := k) (κ := κ) (W := W) (Es := Es) 𝒱 ER (Rd vo vm vl vg kin vin m) (c : Thread nD τ) bd
    (dst := (n : Thread nD τ)) (sem := barS) (r := 0) (d := d) (k' := 1) hd (amount_bar vo vm vl vg kin vin m n d) () O hO hr
  rw [payload_bar vo vm vl vg kin vin m n d] at hrule
  exact hrule

/-- The wait for the five neighbours: the device presents the five units of credit it was dealt, and comes back at round 1
    of its barrier cell with what the five neighbours promised. -/
theorem bar_wait {α : Type} {Q : α → sProp 𝕄} (c : Dev nD) (bd : Option 𝒱.V)
    {k : PUnit → Prog (TpuEff nD τ sig (Elt F) Λ (c : Thread nD τ).2) α} {κ : ℕ}
    {O : CellTallies nD τ sig Unit} {W : Waits sig Unit} {Es : Set ℕ} (hE : κ ∈ Es) :
    iprop(cellInv ER (Rd vo vm vl vg kin vin m) κ (barCell c) ∗ cred (tallyAt (barCell c) () 5) ∗ owes (c : Thread nD τ) O W
        ∗ MayWait (c : Thread nD τ) (.reg barS) () O ∗ atPos ER (barCell c) 0 ∅ 0)
      ⊢ iprop(((owes (c : Thread nD τ) O (insert (SemLoc.reg barS, ()) W)
              ∗ atPos ER (barCell c) (0 + 1) ∅ 0 ∗ reached ER (barCell c) (0 + 1)
              ∗ (barPay (F := F) c 0 ∗ barPay (F := F) c 1 ∗ barPay (F := F) c 2 ∗ barPay (F := F) c 3 ∗ barPay (F := F) c 4))
            -∗ wp frame (wpE defs 𝒱 (c : Thread nD τ) bd) Es (k ⟨⟩) Q)
          -∗ wp frame (wpE defs 𝒱 (c : Thread nD τ) bd) Es (.op (.semWait barS 5) k) Q) := by
  have hk : 0 + 5 = (Rd vo vm vl vg kin vin m).expect ((c : Thread nD τ), .reg barS) 0 := by
    rw [expect_bar vo vm vl vg kin vin m c]
  have hrule := Rounds.wp_wait_rest_token (defs := defs) (Q := Q) (k := k) (κ := κ) (O := O) (W := W) (R := 0) (m := 0) (T := ∅)
    𝒱 ER (Rd vo vm vl vg kin vin m) (c : Thread nD τ) bd (sm := .reg barS) (k' := 5)
    (wpE_semWait_eq (defs := defs) 𝒱 (c : Thread nD τ) bd Es) hE () hk
  rw [rest_bar vo vm vl vg kin vin m c] at hrule
  exact hrule

/-- A wait on one of the device's own transfer cells: the device presents the credit for the cell's one duty, and comes back
    at round 1 of the cell with what the transfer moved. -/
theorem own_wait {α : Type} {Q : α → sProp 𝕄} (c : Dev nD) (q : DmaSem sig) (hq : kindOf q ≠ .other) (bd : Option 𝒱.V)
    {sp' : Space} {s' S : Shape} {e' : EltTy} {src : Memref sig (c : Thread nD τ).2.kind sp' s' e'} {dst : Memref sig .tc .vmem S .f32}
    (hN : dst.view.dmaCredit = dmaAmt c (kindOf q)) {hsrc : src.view.WordExact} {hdst : dst.view.WordExact}
    {k : PUnit → Prog (TpuEff nD τ sig (Elt F) Λ (c : Thread nD τ).2) α} {κ : ℕ}
    {O : CellTallies nD τ sig Unit} {W : Waits sig Unit} {Es : Set ℕ} (hE : κ ∈ Es) :
    iprop(cellInv ER (Rd vo vm vl vg kin vin m) κ ((c : Thread nD τ), .dma q) ∗ cred (tallyAt ((c : Thread nD τ), .dma q) () (dmaAmt c (kindOf q)))
        ∗ owes (c : Thread nD τ) O W ∗ MayWait (c : Thread nD τ) (.dma q) () O ∗ atPos ER ((c : Thread nD τ), .dma q) 0 ∅ 0)
      ⊢ iprop(((owes (c : Thread nD τ) O (insert (SemLoc.dma q, ()) W)
              ∗ atPos ER ((c : Thread nD τ), .dma q) (0 + 1) ∅ 0 ∗ reached ER ((c : Thread nD τ), .dma q) (0 + 1)
              ∗ dmaPay vo vm vl vg kin vin m c (kindOf q))
            -∗ wp frame (wpE defs 𝒱 (c : Thread nD τ) bd) Es (k ⟨⟩) Q)
          -∗ wp frame (wpE defs 𝒱 (c : Thread nD τ) bd) Es (.op (.waitDma2 q src dst hsrc hdst) k) Q) := by
  have hk : 0 + dst.view.dmaCredit = (Rd vo vm vl vg kin vin m).expect ((c : Thread nD τ), .dma q) 0 := by
    rw [expect_dma vo vm vl vg kin vin m c q hq, Nat.zero_add, hN]
  have hrule := Rounds.wp_wait_rest_token (defs := defs) (Q := Q) (k := k) (κ := κ) (O := O) (W := W) (R := 0) (m := 0) (T := ∅)
    𝒱 ER (Rd vo vm vl vg kin vin m) (c : Thread nD τ) bd (sm := .dma q) (k' := dst.view.dmaCredit)
    (wpE_waitDma2_eq (defs := defs) (sem := q) (src := src) (dst := dst) (hsrc := hsrc) (hdst := hdst) 𝒱 (c : Thread nD τ) bd Es) hE () hk
  rw [rest_dma vo vm vl vg kin vin m c q hq, hN] at hrule
  exact hrule

/-- A remote copy from a view of the device's own buffer into the same-shaped view of a neighbour's: it pays the one duty of
    the device's send cell (the source comes back, as it was) and the one duty of the neighbour's receive cell (the destination,
    which the neighbour lent at entry, comes back to the neighbour holding what the source held). The device gets the send
    cell's credit and owes the receive cell's units no more. -/
theorem send_step {α : Type} {Q : α → sProp 𝕄} (c n : Dev nD) {S : Shape} (src dst : Memref sig .tc .vmem S .f32) (sS sR : DmaSem sig)
    (X : S.Idx → Elt F .f32) (N : ℕ) (hqS : kindOf sS ≠ .other) (hqR : kindOf sR ≠ .other)
    (hN : dst.view.dmaCredit = N) (hNS : dmaAmt c (kindOf sS) = N) (hNR : dmaAmt n (kindOf sR) = N)
    (hpS : dmaPay vo vm vl vg kin vin m c (kindOf sS) = holds c src X)
    (hpR : dmaPay vo vm vl vg kin vin m n (kindOf sR) = holds n dst X)
    (bd : Option 𝒱.V) {dev : Dev nD} (hdev : dev = n)
    {hsc : dst.view.ref.isScScratch = false} {hsrc : src.view.WordExact} {hdst : dst.view.WordExact}
    {hsem : DmaTarget.Typed .vmem (SemLoc.dma sR) (.remote (dev : Thread nD τ) dst (SemLoc.dma sS) hsc)}
    {k : PUnit → Prog (TpuEff nD τ sig (Elt F) Λ (c : Thread nD τ).2) α} {κ₁ κ₂ : ℕ}
    {O₀ : CellTallies nD τ sig Unit} (O : CellTallies nD τ sig Unit) (hO : O₀ = O + tallyAt ((n : Thread nD τ), SemLoc.dma sR) () N)
    {W : Waits sig Unit} {Es : Set ℕ} (hr : τ.routes (c : Thread nD τ) (n : Thread nD τ) = true) :
    iprop(cellInv ER (Rd vo vm vl vg kin vin m) κ₁ ((c : Thread nD τ), .dma sS) ∗ cellInv ER (Rd vo vm vl vg kin vin m) κ₂ ((n : Thread nD τ), .dma sR)
        ∗ holds c src X ∗ owned (F := F) n dst ∗ owes (c : Thread nD τ) O₀ W
        ∗ dutyTok ER ((c : Thread nD τ), .dma sS) 0 0 ∗ reached ER ((c : Thread nD τ), .dma sS) 0
        ∗ dutyTok ER ((n : Thread nD τ), .dma sR) 0 0 ∗ reached ER ((n : Thread nD τ), .dma sR) 0)
      ⊢ iprop(((cred (tallyAt ((c : Thread nD τ), .dma sS) () N) ∗ owes (c : Thread nD τ) O W)
            -∗ wp frame (wpE defs 𝒱 (c : Thread nD τ) bd) Es (k ⟨⟩) Q)
          -∗ wp frame (wpE defs 𝒱 (c : Thread nD τ) bd) Es
              (.op (.enqueueDma src (.remote (dev : Thread nD τ) dst (SemLoc.dma sS) hsc) (SemLoc.dma sR) hsrc hdst hsem) k) Q) := by
  subst dev
  have hd₁ : (0 : Fin 5) ∈ (Rd vo vm vl vg kin vin m).duties ((c : Thread nD τ), .dma sS) 0 := by
    rw [duties_dma vo vm vl vg kin vin m c sS hqS]; exact Finset.mem_singleton_self _
  have hd₂ : (0 : Fin 5) ∈ (Rd vo vm vl vg kin vin m).duties ((n : Thread nD τ), .dma sR) 0 := by
    rw [duties_dma vo vm vl vg kin vin m n sR hqR]; exact Finset.mem_singleton_self _
  have hk₁ : (Rd vo vm vl vg kin vin m).amount ((c : Thread nD τ), .dma sS) 0 0 = N := by rw [amount_dma, hNS]
  have hk₂ : (Rd vo vm vl vg kin vin m).amount ((n : Thread nD τ), .dma sR) 0 0 = N := by rw [amount_dma, hNR]
  unfold holds owned
  iintro ⟨HI1, HI2, Hs, Hd, HO, Ht1, Hr1, Ht2, Hr2⟩ Hk
  icases Hs with ⟨%fs, Hs, %hfs⟩
  icases Hd with ⟨%fd, Hd⟩
  have hpay₁ : (src.view.loc (c : Thread nD τ) ↦[src.view.set]{fullShare} fs : sProp 𝕄)
      ⊢ (Rd vo vm vl vg kin vin m).payload ((c : Thread nD τ), .dma sS) 0 0 := by
    rw [payload_dma, hpS]; unfold holds
    iintro H; iexists fs
    isplitl [H]; · iexact H
    ipureintro; exact hfs
  have hpay₂ : (dst.view.loc (n : Thread nD τ) ↦[dst.view.set]{fullShare} (dst.view.write (Elt F) fd (src.view.read (Elt F) fs) Finset.univ) : sProp 𝕄)
      ⊢ (Rd vo vm vl vg kin vin m).payload ((n : Thread nD τ), .dma sR) 0 0 := by
    rw [payload_dma, hpR]; unfold holds
    iintro H; iexists (dst.view.write (Elt F) fd (src.view.read (Elt F) fs) Finset.univ)
    isplitl [H]; · iexact H
    ipureintro; rw [View.read_write_univ]; exact hfs
  iapply (Rounds.wp_send_pointsTo (defs := defs) (Q := Q) (k := k) 𝒱 ER (Rd vo vm vl vg kin vin m) (c : Thread nD τ) bd
      (c' := (n : Thread nD τ)) (src := src) (dst := dst) (sS := SemLoc.dma sS) (sem := SemLoc.dma sR) (q := fullShare) (fs := fs) (fd := fd)
      (r₁ := 0) (r₂ := 0) (d₁ := 0) (d₂ := 0) (κ₁ := κ₁) (κ₂ := κ₂) (W := W) (Es := Es)
      hd₁ hd₂ () () N hN hk₁ hk₂ O hO hpay₁ hpay₂ hr) $$ [HI1 HI2 Hs Hd HO Ht1 Hr1 Ht2 Hr2]
  · isplitl [HI1]; · iexact HI1
    isplitl [HI2]; · iexact HI2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iexact Hk

/-! ### The credits of the transfers: one per buffer kind and one per exchange, wherever the slot or the rows sit -/

omit [FloatOps F] in
theorem oSlot_credit (j : Fin 4) : (oSlot j).view.dmaCredit = Nring 0 := by
  show (oSlot j).view.dmaCredit = (oSlot 0).view.dmaCredit
  fin_cases j
  · exact credit_squeeze_slice coM Gen.inb_S4x8x16x128_S1x8x16x128_0_0_0_0 Gen.inb_S4x8x16x128_S1x8x16x128_0_0_0_0 Gen.squeezes_S1x8x16x128_S8x16x128 Gen.squeezes_S1x8x16x128_S8x16x128
  · exact credit_squeeze_slice coM Gen.inb_S4x8x16x128_S1x8x16x128_1_0_0_0 Gen.inb_S4x8x16x128_S1x8x16x128_0_0_0_0 Gen.squeezes_S1x8x16x128_S8x16x128 Gen.squeezes_S1x8x16x128_S8x16x128
  · exact credit_squeeze_slice coM Gen.inb_S4x8x16x128_S1x8x16x128_2_0_0_0 Gen.inb_S4x8x16x128_S1x8x16x128_0_0_0_0 Gen.squeezes_S1x8x16x128_S8x16x128 Gen.squeezes_S1x8x16x128_S8x16x128
  · exact credit_squeeze_slice coM Gen.inb_S4x8x16x128_S1x8x16x128_3_0_0_0 Gen.inb_S4x8x16x128_S1x8x16x128_0_0_0_0 Gen.squeezes_S1x8x16x128_S8x16x128 Gen.squeezes_S1x8x16x128_S8x16x128
omit [FloatOps F] in
theorem cSlotM_credit (j : Fin 4) : (cSlot cmM j).view.dmaCredit = Nring 1 := by
  show (cSlot cmM j).view.dmaCredit = (cSlot cmM 0).view.dmaCredit
  fin_cases j
  · exact credit_squeeze_slice cmM Gen.inb_S4x8x16x1_S1x8x16x1_0_0_0_0 Gen.inb_S4x8x16x1_S1x8x16x1_0_0_0_0 Gen.squeezes_S1x8x16x1_S8x16x1 Gen.squeezes_S1x8x16x1_S8x16x1
  · exact credit_squeeze_slice cmM Gen.inb_S4x8x16x1_S1x8x16x1_1_0_0_0 Gen.inb_S4x8x16x1_S1x8x16x1_0_0_0_0 Gen.squeezes_S1x8x16x1_S8x16x1 Gen.squeezes_S1x8x16x1_S8x16x1
  · exact credit_squeeze_slice cmM Gen.inb_S4x8x16x1_S1x8x16x1_2_0_0_0 Gen.inb_S4x8x16x1_S1x8x16x1_0_0_0_0 Gen.squeezes_S1x8x16x1_S8x16x1 Gen.squeezes_S1x8x16x1_S8x16x1
  · exact credit_squeeze_slice cmM Gen.inb_S4x8x16x1_S1x8x16x1_3_0_0_0 Gen.inb_S4x8x16x1_S1x8x16x1_0_0_0_0 Gen.squeezes_S1x8x16x1_S8x16x1 Gen.squeezes_S1x8x16x1_S8x16x1
omit [FloatOps F] in
theorem cSlotL_credit (j : Fin 4) : (cSlot clM j).view.dmaCredit = Nring 2 := by
  show (cSlot clM j).view.dmaCredit = (cSlot clM 0).view.dmaCredit
  fin_cases j
  · exact credit_squeeze_slice clM Gen.inb_S4x8x16x1_S1x8x16x1_0_0_0_0 Gen.inb_S4x8x16x1_S1x8x16x1_0_0_0_0 Gen.squeezes_S1x8x16x1_S8x16x1 Gen.squeezes_S1x8x16x1_S8x16x1
  · exact credit_squeeze_slice clM Gen.inb_S4x8x16x1_S1x8x16x1_1_0_0_0 Gen.inb_S4x8x16x1_S1x8x16x1_0_0_0_0 Gen.squeezes_S1x8x16x1_S8x16x1 Gen.squeezes_S1x8x16x1_S8x16x1
  · exact credit_squeeze_slice clM Gen.inb_S4x8x16x1_S1x8x16x1_2_0_0_0 Gen.inb_S4x8x16x1_S1x8x16x1_0_0_0_0 Gen.squeezes_S1x8x16x1_S8x16x1 Gen.squeezes_S1x8x16x1_S8x16x1
  · exact credit_squeeze_slice clM Gen.inb_S4x8x16x1_S1x8x16x1_3_0_0_0 Gen.inb_S4x8x16x1_S1x8x16x1_0_0_0_0 Gen.squeezes_S1x8x16x1_S8x16x1 Gen.squeezes_S1x8x16x1_S8x16x1
omit [FloatOps F] in
theorem row1_credit (c d : Dev nD) : (row1 c).view.dmaCredit = Nrows d 0 := by
  show (row1 c).view.dmaCredit = (row1 d).view.dmaCredit
  exact credit_slice outM (Gen.k0_off19_inb c) (Gen.k0_off19_inb d)
omit [FloatOps F] in
theorem row2_credit (c d : Dev nD) : (row2 c).view.dmaCredit = Nrows d 1 := by
  show (row2 c).view.dmaCredit = (row2 d).view.dmaCredit
  exact credit_slice outM (Gen.k0_off20_inb c) (Gen.k0_off20_inb d)
omit [FloatOps F] in
theorem row4_credit (c d : Dev nD) : (row4 c).view.dmaCredit = Nrows d 2 := by
  show (row4 c).view.dmaCredit = (row4 d).view.dmaCredit
  exact credit_slice outM (Gen.k0_off21_inb c) (Gen.k0_off21_inb d)

/-! ### The ring's steps, per buffer kind, at any hop -/

omit [FloatOps F] in
theorem kind_rsend_ne (b h : Fin 3) : kindOf (sem3 (sendArr b) h) ≠ Kind.other := by rw [kind_rsend]; exact fun e => Kind.noConfusion e
omit [FloatOps F] in
theorem kind_rrecv_ne (b h : Fin 3) : kindOf (sem3 (recvArr b) h) ≠ Kind.other := by rw [kind_rrecv]; exact fun e => Kind.noConfusion e
omit [FloatOps F] in
theorem kind_gsend_ne (st : Fin 3) : kindOf (sem3 cc0_scratch12 st) ≠ Kind.other := by rw [kind_gsend]; exact fun e => Kind.noConfusion e
omit [FloatOps F] in
theorem kind_grecv_ne (st : Fin 3) : kindOf (sem3 cc0_scratch13 st) ≠ Kind.other := by rw [kind_grecv]; exact fun e => Kind.noConfusion e

/-- The ring transfer of the partial sums at hop `h`: slot `h` of the device into slot `h + 1` of the next device along z. -/
theorem ring_send_o {α : Type} {Q : α → sProp 𝕄} (c : Dev nD) (h : Fin 3) (bd : Option 𝒱.V) {dev : Dev nD} (hdev : dev = zr c)
    {hsc : (oSlot h.succ).view.ref.isScScratch = false} {hsrc : (oSlot h.castSucc).view.WordExact} {hdst : (oSlot h.succ).view.WordExact}
    {hsem : DmaTarget.Typed .vmem (SemLoc.dma (sem3 (recvArr 0) h)) (.remote (dev : Thread nD τ) (oSlot h.succ) (SemLoc.dma (sem3 (sendArr 0) h)) hsc)}
    {k : PUnit → Prog (TpuEff nD τ sig (Elt F) Λ (c : Thread nD τ).2) α} {κ₁ κ₂ : ℕ}
    {O₀ : CellTallies nD τ sig Unit} (O : CellTallies nD τ sig Unit) (hO : O₀ = O + tallyAt (rrecvCell (zr c) 0 h) () (Nring 0))
    {W : Waits sig Unit} {Es : Set ℕ} (hr : τ.routes (c : Thread nD τ) (zr c : Thread nD τ) = true) :
    iprop(cellInv ER (Rd vo vm vl vg kin vin m) κ₁ (rsendCell c 0 h) ∗ cellInv ER (Rd vo vm vl vg kin vin m) κ₂ (rrecvCell (zr c) 0 h)
        ∗ slotHolds vo vm vl c 0 h.castSucc ∗ slotOwned (F := F) (zr c) 0 h.succ ∗ owes (c : Thread nD τ) O₀ W
        ∗ dutyTok ER (rsendCell c 0 h) 0 0 ∗ reached ER (rsendCell c 0 h) 0
        ∗ dutyTok ER (rrecvCell (zr c) 0 h) 0 0 ∗ reached ER (rrecvCell (zr c) 0 h) 0)
      ⊢ iprop(((cred (tallyAt (rsendCell c 0 h) () (Nring 0)) ∗ owes (c : Thread nD τ) O W)
            -∗ wp frame (wpE defs 𝒱 (c : Thread nD τ) bd) Es (k ⟨⟩) Q)
          -∗ wp frame (wpE defs 𝒱 (c : Thread nD τ) bd) Es
              (.op (.enqueueDma (oSlot h.castSucc) (.remote (dev : Thread nD τ) (oSlot h.succ) (SemLoc.dma (sem3 (sendArr 0) h)) hsc)
                (SemLoc.dma (sem3 (recvArr 0) h)) hsrc hdst hsem) k) Q) := by
  have hN : (oSlot h.succ).view.dmaCredit = Nring 0 := oSlot_credit h.succ
  have hNS : dmaAmt c (kindOf (sem3 (sendArr 0) h)) = Nring 0 := by rw [kind_rsend]; rfl
  have hNR : dmaAmt (zr c) (kindOf (sem3 (recvArr 0) h)) = Nring 0 := by rw [kind_rrecv]; rfl
  have hpS : dmaPay vo vm vl vg kin vin m c (kindOf (sem3 (sendArr 0) h)) = holds c (oSlot h.castSucc) (vo (back h.val c)) := by
    rw [kind_rsend]; rfl
  have hpR : dmaPay vo vm vl vg kin vin m (zr c) (kindOf (sem3 (recvArr 0) h)) = holds (zr c) (oSlot h.succ) (vo (back h.val c)) := by
    rw [kind_rrecv]
    show holds (zr c) (oSlot h.succ) (vo (back h.val (zl (zr c)))) = _
    rw [zl_zr]
  exact send_step vo vm vl vg kin vin m 𝒱 c (zr c) (oSlot h.castSucc) (oSlot h.succ) (sem3 (sendArr 0) h) (sem3 (recvArr 0) h)
    (vo (back h.val c)) (Nring 0) (kind_rsend_ne 0 h) (kind_rrecv_ne 0 h) hN hNS hNR hpS hpR bd hdev O hO hr

/-- The ring transfer of the row maxima at hop `h`: slot `h` of the device into slot `h + 1` of the next device along z. -/
theorem ring_send_m {α : Type} {Q : α → sProp 𝕄} (c : Dev nD) (h : Fin 3) (bd : Option 𝒱.V) {dev : Dev nD} (hdev : dev = zr c)
    {hsc : (cSlot cmM h.succ).view.ref.isScScratch = false} {hsrc : (cSlot cmM h.castSucc).view.WordExact} {hdst : (cSlot cmM h.succ).view.WordExact}
    {hsem : DmaTarget.Typed .vmem (SemLoc.dma (sem3 (recvArr 1) h)) (.remote (dev : Thread nD τ) (cSlot cmM h.succ) (SemLoc.dma (sem3 (sendArr 1) h)) hsc)}
    {k : PUnit → Prog (TpuEff nD τ sig (Elt F) Λ (c : Thread nD τ).2) α} {κ₁ κ₂ : ℕ}
    {O₀ : CellTallies nD τ sig Unit} (O : CellTallies nD τ sig Unit) (hO : O₀ = O + tallyAt (rrecvCell (zr c) 1 h) () (Nring 1))
    {W : Waits sig Unit} {Es : Set ℕ} (hr : τ.routes (c : Thread nD τ) (zr c : Thread nD τ) = true) :
    iprop(cellInv ER (Rd vo vm vl vg kin vin m) κ₁ (rsendCell c 1 h) ∗ cellInv ER (Rd vo vm vl vg kin vin m) κ₂ (rrecvCell (zr c) 1 h)
        ∗ slotHolds vo vm vl c 1 h.castSucc ∗ slotOwned (F := F) (zr c) 1 h.succ ∗ owes (c : Thread nD τ) O₀ W
        ∗ dutyTok ER (rsendCell c 1 h) 0 0 ∗ reached ER (rsendCell c 1 h) 0
        ∗ dutyTok ER (rrecvCell (zr c) 1 h) 0 0 ∗ reached ER (rrecvCell (zr c) 1 h) 0)
      ⊢ iprop(((cred (tallyAt (rsendCell c 1 h) () (Nring 1)) ∗ owes (c : Thread nD τ) O W)
            -∗ wp frame (wpE defs 𝒱 (c : Thread nD τ) bd) Es (k ⟨⟩) Q)
          -∗ wp frame (wpE defs 𝒱 (c : Thread nD τ) bd) Es
              (.op (.enqueueDma (cSlot cmM h.castSucc) (.remote (dev : Thread nD τ) (cSlot cmM h.succ) (SemLoc.dma (sem3 (sendArr 1) h)) hsc)
                (SemLoc.dma (sem3 (recvArr 1) h)) hsrc hdst hsem) k) Q) := by
  have hN : (cSlot cmM h.succ).view.dmaCredit = Nring 1 := cSlotM_credit h.succ
  have hNS : dmaAmt c (kindOf (sem3 (sendArr 1) h)) = Nring 1 := by rw [kind_rsend]; rfl
  have hNR : dmaAmt (zr c) (kindOf (sem3 (recvArr 1) h)) = Nring 1 := by rw [kind_rrecv]; rfl
  have hpS : dmaPay vo vm vl vg kin vin m c (kindOf (sem3 (sendArr 1) h)) = holds c (cSlot cmM h.castSucc) (vm (back h.val c)) := by
    rw [kind_rsend]; rfl
  have hpR : dmaPay vo vm vl vg kin vin m (zr c) (kindOf (sem3 (recvArr 1) h)) = holds (zr c) (cSlot cmM h.succ) (vm (back h.val c)) := by
    rw [kind_rrecv]
    show holds (zr c) (cSlot cmM h.succ) (vm (back h.val (zl (zr c)))) = _
    rw [zl_zr]
  exact send_step vo vm vl vg kin vin m 𝒱 c (zr c) (cSlot cmM h.castSucc) (cSlot cmM h.succ) (sem3 (sendArr 1) h) (sem3 (recvArr 1) h)
    (vm (back h.val c)) (Nring 1) (kind_rsend_ne 1 h) (kind_rrecv_ne 1 h) hN hNS hNR hpS hpR bd hdev O hO hr

/-- The ring transfer of the row sums at hop `h`: slot `h` of the device into slot `h + 1` of the next device along z. -/
theorem ring_send_l {α : Type} {Q : α → sProp 𝕄} (c : Dev nD) (h : Fin 3) (bd : Option 𝒱.V) {dev : Dev nD} (hdev : dev = zr c)
    {hsc : (cSlot clM h.succ).view.ref.isScScratch = false} {hsrc : (cSlot clM h.castSucc).view.WordExact} {hdst : (cSlot clM h.succ).view.WordExact}
    {hsem : DmaTarget.Typed .vmem (SemLoc.dma (sem3 (recvArr 2) h)) (.remote (dev : Thread nD τ) (cSlot clM h.succ) (SemLoc.dma (sem3 (sendArr 2) h)) hsc)}
    {k : PUnit → Prog (TpuEff nD τ sig (Elt F) Λ (c : Thread nD τ).2) α} {κ₁ κ₂ : ℕ}
    {O₀ : CellTallies nD τ sig Unit} (O : CellTallies nD τ sig Unit) (hO : O₀ = O + tallyAt (rrecvCell (zr c) 2 h) () (Nring 2))
    {W : Waits sig Unit} {Es : Set ℕ} (hr : τ.routes (c : Thread nD τ) (zr c : Thread nD τ) = true) :
    iprop(cellInv ER (Rd vo vm vl vg kin vin m) κ₁ (rsendCell c 2 h) ∗ cellInv ER (Rd vo vm vl vg kin vin m) κ₂ (rrecvCell (zr c) 2 h)
        ∗ slotHolds vo vm vl c 2 h.castSucc ∗ slotOwned (F := F) (zr c) 2 h.succ ∗ owes (c : Thread nD τ) O₀ W
        ∗ dutyTok ER (rsendCell c 2 h) 0 0 ∗ reached ER (rsendCell c 2 h) 0
        ∗ dutyTok ER (rrecvCell (zr c) 2 h) 0 0 ∗ reached ER (rrecvCell (zr c) 2 h) 0)
      ⊢ iprop(((cred (tallyAt (rsendCell c 2 h) () (Nring 2)) ∗ owes (c : Thread nD τ) O W)
            -∗ wp frame (wpE defs 𝒱 (c : Thread nD τ) bd) Es (k ⟨⟩) Q)
          -∗ wp frame (wpE defs 𝒱 (c : Thread nD τ) bd) Es
              (.op (.enqueueDma (cSlot clM h.castSucc) (.remote (dev : Thread nD τ) (cSlot clM h.succ) (SemLoc.dma (sem3 (sendArr 2) h)) hsc)
                (SemLoc.dma (sem3 (recvArr 2) h)) hsrc hdst hsem) k) Q) := by
  have hN : (cSlot clM h.succ).view.dmaCredit = Nring 2 := cSlotL_credit h.succ
  have hNS : dmaAmt c (kindOf (sem3 (sendArr 2) h)) = Nring 2 := by rw [kind_rsend]; rfl
  have hNR : dmaAmt (zr c) (kindOf (sem3 (recvArr 2) h)) = Nring 2 := by rw [kind_rrecv]; rfl
  have hpS : dmaPay vo vm vl vg kin vin m c (kindOf (sem3 (sendArr 2) h)) = holds c (cSlot clM h.castSucc) (vl (back h.val c)) := by
    rw [kind_rsend]; rfl
  have hpR : dmaPay vo vm vl vg kin vin m (zr c) (kindOf (sem3 (recvArr 2) h)) = holds (zr c) (cSlot clM h.succ) (vl (back h.val c)) := by
    rw [kind_rrecv]
    show holds (zr c) (cSlot clM h.succ) (vl (back h.val (zl (zr c)))) = _
    rw [zl_zr]
  exact send_step vo vm vl vg kin vin m 𝒱 c (zr c) (cSlot clM h.castSucc) (cSlot clM h.succ) (sem3 (sendArr 2) h) (sem3 (recvArr 2) h)
    (vl (back h.val c)) (Nring 2) (kind_rsend_ne 2 h) (kind_rrecv_ne 2 h) hN hNS hNR hpS hpR bd hdev O hO hr

/-- The wait on the ring's send cell of `(b, h)`: the source slot comes back. -/
theorem ring_swait {α : Type} {Q : α → sProp 𝕄} (c : Dev nD) (b h : Fin 3) (bd : Option 𝒱.V)
    {sp' : Space} {s' S : Shape} {e' : EltTy} {src : Memref sig (c : Thread nD τ).2.kind sp' s' e'} {dst : Memref sig .tc .vmem S .f32}
    (hN : dst.view.dmaCredit = Nring b) {hsrc : src.view.WordExact} {hdst : dst.view.WordExact}
    {k : PUnit → Prog (TpuEff nD τ sig (Elt F) Λ (c : Thread nD τ).2) α} {κ : ℕ}
    {O : CellTallies nD τ sig Unit} {W : Waits sig Unit} {Es : Set ℕ} (hE : κ ∈ Es) :
    iprop(cellInv ER (Rd vo vm vl vg kin vin m) κ (rsendCell c b h) ∗ cred (tallyAt (rsendCell c b h) () (Nring b))
        ∗ owes (c : Thread nD τ) O W ∗ MayWait (c : Thread nD τ) (.dma (sem3 (sendArr b) h)) () O ∗ atPos ER (rsendCell c b h) 0 ∅ 0)
      ⊢ iprop(((owes (c : Thread nD τ) O (insert (SemLoc.dma (sem3 (sendArr b) h), ()) W)
              ∗ atPos ER (rsendCell c b h) (0 + 1) ∅ 0 ∗ reached ER (rsendCell c b h) (0 + 1)
              ∗ slotHolds vo vm vl c b h.castSucc)
            -∗ wp frame (wpE defs 𝒱 (c : Thread nD τ) bd) Es (k ⟨⟩) Q)
          -∗ wp frame (wpE defs 𝒱 (c : Thread nD τ) bd) Es (.op (.waitDma2 (sem3 (sendArr b) h) src dst hsrc hdst) k) Q) := by
  have hA : dmaAmt c (kindOf (sem3 (sendArr b) h)) = Nring b := by rw [kind_rsend]; rfl
  have hP : dmaPay vo vm vl vg kin vin m c (kindOf (sem3 (sendArr b) h)) = slotHolds vo vm vl c b h.castSucc := by rw [kind_rsend]; rfl
  have hrule := own_wait vo vm vl vg kin vin m 𝒱 (defs := defs) (Q := Q) (k := k) (κ := κ) (O := O) (W := W) c (sem3 (sendArr b) h) (kind_rsend_ne b h) bd
    (src := src) (dst := dst) (hsrc := hsrc) (hdst := hdst) (hN.trans hA.symm) hE
  rw [hA, hP] at hrule
  exact hrule

/-- The wait on the ring's receive cell of `(b, h)`: slot `h + 1` comes back holding what the previous device's slot `h` held. -/
theorem ring_rwait {α : Type} {Q : α → sProp 𝕄} (c : Dev nD) (b h : Fin 3) (bd : Option 𝒱.V)
    {sp' : Space} {s' S : Shape} {e' : EltTy} {src : Memref sig (c : Thread nD τ).2.kind sp' s' e'} {dst : Memref sig .tc .vmem S .f32}
    (hN : dst.view.dmaCredit = Nring b) {hsrc : src.view.WordExact} {hdst : dst.view.WordExact}
    {k : PUnit → Prog (TpuEff nD τ sig (Elt F) Λ (c : Thread nD τ).2) α} {κ : ℕ}
    {O : CellTallies nD τ sig Unit} {W : Waits sig Unit} {Es : Set ℕ} (hE : κ ∈ Es) :
    iprop(cellInv ER (Rd vo vm vl vg kin vin m) κ (rrecvCell c b h) ∗ cred (tallyAt (rrecvCell c b h) () (Nring b))
        ∗ owes (c : Thread nD τ) O W ∗ MayWait (c : Thread nD τ) (.dma (sem3 (recvArr b) h)) () O ∗ atPos ER (rrecvCell c b h) 0 ∅ 0)
      ⊢ iprop(((owes (c : Thread nD τ) O (insert (SemLoc.dma (sem3 (recvArr b) h), ()) W)
              ∗ atPos ER (rrecvCell c b h) (0 + 1) ∅ 0 ∗ reached ER (rrecvCell c b h) (0 + 1)
              ∗ slotHolds vo vm vl c b h.succ)
            -∗ wp frame (wpE defs 𝒱 (c : Thread nD τ) bd) Es (k ⟨⟩) Q)
          -∗ wp frame (wpE defs 𝒱 (c : Thread nD τ) bd) Es (.op (.waitDma2 (sem3 (recvArr b) h) src dst hsrc hdst) k) Q) := by
  have hA : dmaAmt c (kindOf (sem3 (recvArr b) h)) = Nring b := by rw [kind_rrecv]; rfl
  have hP : dmaPay vo vm vl vg kin vin m c (kindOf (sem3 (recvArr b) h)) = slotHolds vo vm vl c b h.succ := by rw [kind_rrecv]; rfl
  have hrule := own_wait vo vm vl vg kin vin m 𝒱 (defs := defs) (Q := Q) (k := k) (κ := κ) (O := O) (W := W) c (sem3 (recvArr b) h) (kind_rrecv_ne b h) bd
    (src := src) (dst := dst) (hsrc := hsrc) (hdst := hdst) (hN.trans hA.symm) hE
  rw [hA, hP] at hrule
  exact hrule

/-! ### The exchanges' steps, stage by stage -/

/-- The transfer of exchange 0: the device's row into the same rows of its partner's result staging buffer. -/
theorem gath_send_0 {α : Type} {Q : α → sProp 𝕄} (c : Dev nD) (bd : Option 𝒱.V) {dev : Dev nD} (hdev : dev = p0 c)
    {hsc : (row1 c).view.ref.isScScratch = false} {hsrc : (row1 c).view.WordExact} {hdst : (row1 c).view.WordExact}
    {hsem : DmaTarget.Typed .vmem (SemLoc.dma (sem3 cc0_scratch13 0)) (.remote (dev : Thread nD τ) (row1 c) (SemLoc.dma (sem3 cc0_scratch12 0)) hsc)}
    {k : PUnit → Prog (TpuEff nD τ sig (Elt F) Λ (c : Thread nD τ).2) α} {κ₁ κ₂ : ℕ}
    {O₀ : CellTallies nD τ sig Unit} (O : CellTallies nD τ sig Unit) (hO : O₀ = O + tallyAt (grecvCell (p0 c) 0) () (Nrows c 0))
    {W : Waits sig Unit} {Es : Set ℕ} (hr : τ.routes (c : Thread nD τ) (p0 c : Thread nD τ) = true) :
    iprop(cellInv ER (Rd vo vm vl vg kin vin m) κ₁ (gsendCell c 0) ∗ cellInv ER (Rd vo vm vl vg kin vin m) κ₂ (grecvCell (p0 c) 0)
        ∗ rowsHold vg c c 0 ∗ rowsOwned (F := F) (p0 c) c 0 ∗ owes (c : Thread nD τ) O₀ W
        ∗ dutyTok ER (gsendCell c 0) 0 0 ∗ reached ER (gsendCell c 0) 0
        ∗ dutyTok ER (grecvCell (p0 c) 0) 0 0 ∗ reached ER (grecvCell (p0 c) 0) 0)
      ⊢ iprop(((cred (tallyAt (gsendCell c 0) () (Nrows c 0)) ∗ owes (c : Thread nD τ) O W)
            -∗ wp frame (wpE defs 𝒱 (c : Thread nD τ) bd) Es (k ⟨⟩) Q)
          -∗ wp frame (wpE defs 𝒱 (c : Thread nD τ) bd) Es
              (.op (.enqueueDma (row1 c) (.remote (dev : Thread nD τ) (row1 c) (SemLoc.dma (sem3 cc0_scratch12 0)) hsc)
                (SemLoc.dma (sem3 cc0_scratch13 0)) hsrc hdst hsem) k) Q) := by
  have hNR : dmaAmt (p0 c) (kindOf (sem3 cc0_scratch13 0)) = Nrows c 0 := by
    rw [kind_grecv]
    show Nrows (p0 (p0 c)) 0 = _
    rw [p0_p0]
  have hpS : dmaPay vo vm vl vg kin vin m c (kindOf (sem3 cc0_scratch12 0)) = holds c (row1 c) ((row1 c).view.read (Elt F) (vg (c.val % 4))) := by
    rw [kind_gsend]; rfl
  have hpR : dmaPay vo vm vl vg kin vin m (p0 c) (kindOf (sem3 cc0_scratch13 0)) = holds (p0 c) (row1 c) ((row1 c).view.read (Elt F) (vg (c.val % 4))) := by
    rw [kind_grecv]
    show holds (p0 c) (row1 (p0 (p0 c))) ((row1 (p0 (p0 c))).view.read (Elt F) (vg ((p0 c).val % 4))) = _
    rw [p0_p0, z_p0]
  exact send_step vo vm vl vg kin vin m 𝒱 c (p0 c) (row1 c) (row1 c) (sem3 cc0_scratch12 0) (sem3 cc0_scratch13 0)
    ((row1 c).view.read (Elt F) (vg (c.val % 4))) (Nrows c 0) (kind_gsend_ne 0) (kind_grecv_ne 0) (row1_credit c c) (by rw [kind_gsend]; rfl) hNR hpS hpR bd hdev O hO hr

/-- The transfer of exchange 1: the device's pair of rows into the same rows of its partner's result staging buffer. -/
theorem gath_send_1 {α : Type} {Q : α → sProp 𝕄} (c : Dev nD) (bd : Option 𝒱.V) {dev : Dev nD} (hdev : dev = p1 c)
    {hsc : (row2 c).view.ref.isScScratch = false} {hsrc : (row2 c).view.WordExact} {hdst : (row2 c).view.WordExact}
    {hsem : DmaTarget.Typed .vmem (SemLoc.dma (sem3 cc0_scratch13 1)) (.remote (dev : Thread nD τ) (row2 c) (SemLoc.dma (sem3 cc0_scratch12 1)) hsc)}
    {k : PUnit → Prog (TpuEff nD τ sig (Elt F) Λ (c : Thread nD τ).2) α} {κ₁ κ₂ : ℕ}
    {O₀ : CellTallies nD τ sig Unit} (O : CellTallies nD τ sig Unit) (hO : O₀ = O + tallyAt (grecvCell (p1 c) 1) () (Nrows c 1))
    {W : Waits sig Unit} {Es : Set ℕ} (hr : τ.routes (c : Thread nD τ) (p1 c : Thread nD τ) = true) :
    iprop(cellInv ER (Rd vo vm vl vg kin vin m) κ₁ (gsendCell c 1) ∗ cellInv ER (Rd vo vm vl vg kin vin m) κ₂ (grecvCell (p1 c) 1)
        ∗ rowsHold vg c c 1 ∗ rowsOwned (F := F) (p1 c) c 1 ∗ owes (c : Thread nD τ) O₀ W
        ∗ dutyTok ER (gsendCell c 1) 0 0 ∗ reached ER (gsendCell c 1) 0
        ∗ dutyTok ER (grecvCell (p1 c) 1) 0 0 ∗ reached ER (grecvCell (p1 c) 1) 0)
      ⊢ iprop(((cred (tallyAt (gsendCell c 1) () (Nrows c 1)) ∗ owes (c : Thread nD τ) O W)
            -∗ wp frame (wpE defs 𝒱 (c : Thread nD τ) bd) Es (k ⟨⟩) Q)
          -∗ wp frame (wpE defs 𝒱 (c : Thread nD τ) bd) Es
              (.op (.enqueueDma (row2 c) (.remote (dev : Thread nD τ) (row2 c) (SemLoc.dma (sem3 cc0_scratch12 1)) hsc)
                (SemLoc.dma (sem3 cc0_scratch13 1)) hsrc hdst hsem) k) Q) := by
  have hNR : dmaAmt (p1 c) (kindOf (sem3 cc0_scratch13 1)) = Nrows c 1 := by
    rw [kind_grecv]
    show Nrows (p1 (p1 c)) 1 = _
    rw [p1_p1]
  have hpS : dmaPay vo vm vl vg kin vin m c (kindOf (sem3 cc0_scratch12 1)) = holds c (row2 c) ((row2 c).view.read (Elt F) (vg (c.val % 4))) := by
    rw [kind_gsend]; rfl
  have hpR : dmaPay vo vm vl vg kin vin m (p1 c) (kindOf (sem3 cc0_scratch13 1)) = holds (p1 c) (row2 c) ((row2 c).view.read (Elt F) (vg (c.val % 4))) := by
    rw [kind_grecv]
    show holds (p1 c) (row2 (p1 (p1 c))) ((row2 (p1 (p1 c))).view.read (Elt F) (vg ((p1 c).val % 4))) = _
    rw [p1_p1, z_p1]
  exact send_step vo vm vl vg kin vin m 𝒱 c (p1 c) (row2 c) (row2 c) (sem3 cc0_scratch12 1) (sem3 cc0_scratch13 1)
    ((row2 c).view.read (Elt F) (vg (c.val % 4))) (Nrows c 1) (kind_gsend_ne 1) (kind_grecv_ne 1) (row2_credit c c) (by rw [kind_gsend]; rfl) hNR hpS hpR bd hdev O hO hr

/-- The transfer of exchange 2: the device's quadruple of rows into the same rows of its partner's result staging buffer. -/
theorem gath_send_2 {α : Type} {Q : α → sProp 𝕄} (c : Dev nD) (bd : Option 𝒱.V) {dev : Dev nD} (hdev : dev = p2 c)
    {hsc : (row4 c).view.ref.isScScratch = false} {hsrc : (row4 c).view.WordExact} {hdst : (row4 c).view.WordExact}
    {hsem : DmaTarget.Typed .vmem (SemLoc.dma (sem3 cc0_scratch13 2)) (.remote (dev : Thread nD τ) (row4 c) (SemLoc.dma (sem3 cc0_scratch12 2)) hsc)}
    {k : PUnit → Prog (TpuEff nD τ sig (Elt F) Λ (c : Thread nD τ).2) α} {κ₁ κ₂ : ℕ}
    {O₀ : CellTallies nD τ sig Unit} (O : CellTallies nD τ sig Unit) (hO : O₀ = O + tallyAt (grecvCell (p2 c) 2) () (Nrows c 2))
    {W : Waits sig Unit} {Es : Set ℕ} (hr : τ.routes (c : Thread nD τ) (p2 c : Thread nD τ) = true) :
    iprop(cellInv ER (Rd vo vm vl vg kin vin m) κ₁ (gsendCell c 2) ∗ cellInv ER (Rd vo vm vl vg kin vin m) κ₂ (grecvCell (p2 c) 2)
        ∗ rowsHold vg c c 2 ∗ rowsOwned (F := F) (p2 c) c 2 ∗ owes (c : Thread nD τ) O₀ W
        ∗ dutyTok ER (gsendCell c 2) 0 0 ∗ reached ER (gsendCell c 2) 0
        ∗ dutyTok ER (grecvCell (p2 c) 2) 0 0 ∗ reached ER (grecvCell (p2 c) 2) 0)
      ⊢ iprop(((cred (tallyAt (gsendCell c 2) () (Nrows c 2)) ∗ owes (c : Thread nD τ) O W)
            -∗ wp frame (wpE defs 𝒱 (c : Thread nD τ) bd) Es (k ⟨⟩) Q)
          -∗ wp frame (wpE defs 𝒱 (c : Thread nD τ) bd) Es
              (.op (.enqueueDma (row4 c) (.remote (dev : Thread nD τ) (row4 c) (SemLoc.dma (sem3 cc0_scratch12 2)) hsc)
                (SemLoc.dma (sem3 cc0_scratch13 2)) hsrc hdst hsem) k) Q) := by
  have hNR : dmaAmt (p2 c) (kindOf (sem3 cc0_scratch13 2)) = Nrows c 2 := by
    rw [kind_grecv]
    show Nrows (p2 (p2 c)) 2 = _
    rw [p2_p2]
  have hpS : dmaPay vo vm vl vg kin vin m c (kindOf (sem3 cc0_scratch12 2)) = holds c (row4 c) ((row4 c).view.read (Elt F) (vg (c.val % 4))) := by
    rw [kind_gsend]; rfl
  have hpR : dmaPay vo vm vl vg kin vin m (p2 c) (kindOf (sem3 cc0_scratch13 2)) = holds (p2 c) (row4 c) ((row4 c).view.read (Elt F) (vg (c.val % 4))) := by
    rw [kind_grecv]
    show holds (p2 c) (row4 (p2 (p2 c))) ((row4 (p2 (p2 c))).view.read (Elt F) (vg ((p2 c).val % 4))) = _
    rw [p2_p2, z_p2]
  exact send_step vo vm vl vg kin vin m 𝒱 c (p2 c) (row4 c) (row4 c) (sem3 cc0_scratch12 2) (sem3 cc0_scratch13 2)
    ((row4 c).view.read (Elt F) (vg (c.val % 4))) (Nrows c 2) (kind_gsend_ne 2) (kind_grecv_ne 2) (row4_credit c c) (by rw [kind_gsend]; rfl) hNR hpS hpR bd hdev O hO hr

/-- The wait on the send cell of exchange `st`: the rows sent come back. -/
theorem gath_swait {α : Type} {Q : α → sProp 𝕄} (c : Dev nD) (st : Fin 3) (bd : Option 𝒱.V)
    {sp' : Space} {s' S : Shape} {e' : EltTy} {src : Memref sig (c : Thread nD τ).2.kind sp' s' e'} {dst : Memref sig .tc .vmem S .f32}
    (hN : dst.view.dmaCredit = Nrows c st) {hsrc : src.view.WordExact} {hdst : dst.view.WordExact}
    {k : PUnit → Prog (TpuEff nD τ sig (Elt F) Λ (c : Thread nD τ).2) α} {κ : ℕ}
    {O : CellTallies nD τ sig Unit} {W : Waits sig Unit} {Es : Set ℕ} (hE : κ ∈ Es) :
    iprop(cellInv ER (Rd vo vm vl vg kin vin m) κ (gsendCell c st) ∗ cred (tallyAt (gsendCell c st) () (Nrows c st))
        ∗ owes (c : Thread nD τ) O W ∗ MayWait (c : Thread nD τ) (.dma (sem3 cc0_scratch12 st)) () O ∗ atPos ER (gsendCell c st) 0 ∅ 0)
      ⊢ iprop(((owes (c : Thread nD τ) O (insert (SemLoc.dma (sem3 cc0_scratch12 st), ()) W)
              ∗ atPos ER (gsendCell c st) (0 + 1) ∅ 0 ∗ reached ER (gsendCell c st) (0 + 1)
              ∗ rowsHold vg c c st)
            -∗ wp frame (wpE defs 𝒱 (c : Thread nD τ) bd) Es (k ⟨⟩) Q)
          -∗ wp frame (wpE defs 𝒱 (c : Thread nD τ) bd) Es (.op (.waitDma2 (sem3 cc0_scratch12 st) src dst hsrc hdst) k) Q) := by
  have hA : dmaAmt c (kindOf (sem3 cc0_scratch12 st)) = Nrows c st := by rw [kind_gsend]; rfl
  have hP : dmaPay vo vm vl vg kin vin m c (kindOf (sem3 cc0_scratch12 st)) = rowsHold vg c c st := by rw [kind_gsend]; rfl
  have hrule := own_wait vo vm vl vg kin vin m 𝒱 (defs := defs) (Q := Q) (k := k) (κ := κ) (O := O) (W := W) c (sem3 cc0_scratch12 st) (kind_gsend_ne st) bd
    (src := src) (dst := dst) (hsrc := hsrc) (hdst := hdst) (hN.trans hA.symm) hE
  rw [hA, hP] at hrule
  exact hrule

/-- The wait on the receive cell of exchange `st`: the partner's rows have landed in the device's own result staging buffer. -/
theorem gath_rwait {α : Type} {Q : α → sProp 𝕄} (c : Dev nD) (st : Fin 3) (bd : Option 𝒱.V)
    {sp' : Space} {s' S : Shape} {e' : EltTy} {src : Memref sig (c : Thread nD τ).2.kind sp' s' e'} {dst : Memref sig .tc .vmem S .f32}
    (hN : dst.view.dmaCredit = Nrows (partner st c) st) {hsrc : src.view.WordExact} {hdst : dst.view.WordExact}
    {k : PUnit → Prog (TpuEff nD τ sig (Elt F) Λ (c : Thread nD τ).2) α} {κ : ℕ}
    {O : CellTallies nD τ sig Unit} {W : Waits sig Unit} {Es : Set ℕ} (hE : κ ∈ Es) :
    iprop(cellInv ER (Rd vo vm vl vg kin vin m) κ (grecvCell c st) ∗ cred (tallyAt (grecvCell c st) () (Nrows (partner st c) st))
        ∗ owes (c : Thread nD τ) O W ∗ MayWait (c : Thread nD τ) (.dma (sem3 cc0_scratch13 st)) () O ∗ atPos ER (grecvCell c st) 0 ∅ 0)
      ⊢ iprop(((owes (c : Thread nD τ) O (insert (SemLoc.dma (sem3 cc0_scratch13 st), ()) W)
              ∗ atPos ER (grecvCell c st) (0 + 1) ∅ 0 ∗ reached ER (grecvCell c st) (0 + 1)
              ∗ rowsHold vg c (partner st c) st)
            -∗ wp frame (wpE defs 𝒱 (c : Thread nD τ) bd) Es (k ⟨⟩) Q)
          -∗ wp frame (wpE defs 𝒱 (c : Thread nD τ) bd) Es (.op (.waitDma2 (sem3 cc0_scratch13 st) src dst hsrc hdst) k) Q) := by
  have hA : dmaAmt c (kindOf (sem3 cc0_scratch13 st)) = Nrows (partner st c) st := by rw [kind_grecv]; rfl
  have hP : dmaPay vo vm vl vg kin vin m c (kindOf (sem3 cc0_scratch13 st)) = rowsHold vg c (partner st c) st := by rw [kind_grecv]; rfl
  have hrule := own_wait vo vm vl vg kin vin m 𝒱 (defs := defs) (Q := Q) (k := k) (κ := κ) (O := O) (W := W) c (sem3 cc0_scratch13 st) (kind_grecv_ne st) bd
    (src := src) (dst := dst) (hsrc := hsrc) (hdst := hdst) (hN.trans hA.symm) hE
  rw [hA, hP] at hrule
  exact hrule

end Steps

/-! ### The rows of the result staging buffer, in the vocabulary of the protocol

A view that is owned and reads what it reads of contents `G` is held at `G`; so the joins of the rows are the joins of the
first part of this module, at the gathered result. -/

section Glue

open Cert.KernelIdeal.FD
open Cert.KernelIdeal.Mesh (p0 p1 p2)

variable {F : FTy → Type} [FloatOps F]

local notation "𝕄" => MT nD τ sig Unit (Elt F) ℕ UU ℕ

variable (vg : ℕ → S8x8x16x128.Idx → Elt F .f32)

omit [FloatOps F] in
/-- Owning a view at contents that read, through the view, as `G` does, is holding the view's elements at `G`. -/
theorem holds_read (c : Dev nD) {S : Shape} (M : Memref sig .tc .vmem S .f32) (G : Buf (Elt F) (M.view.loc (c : Thread nD τ))) :
    (holds c M (M.view.read (Elt F) G) : sProp 𝕄) = (M.view.loc (c : Thread nD τ) ↦[M.view.set]{fullShare} G) := by
  unfold holds
  have h₁ : iprop(∃ f : Buf (Elt F) (M.view.loc (c : Thread nD τ)),
        (M.view.loc (c : Thread nD τ) ↦[M.view.set]{fullShare} f) ∗ ⌜M.view.read (Elt F) f = M.view.read (Elt F) G⌝)
      ⊢ (M.view.loc (c : Thread nD τ) ↦[M.view.set]{fullShare} G : sProp 𝕄) := by
    iintro ⟨%f, H, %hf⟩
    have e : (M.view.loc (c : Thread nD τ) ↦[M.view.set]{fullShare} f : sProp 𝕄) = M.view.loc (c : Thread nD τ) ↦[M.view.set]{fullShare} G :=
      pointsTo_congr fun i hi => by
        rw [View.set, Finset.mem_map] at hi
        obtain ⟨x, -, rfl⟩ := hi
        have := congrFun hf x
        simp only [View.read] at this
        exact (cast_inj _).mp this
    rw [← e]; iexact H
  have h₂ : (M.view.loc (c : Thread nD τ) ↦[M.view.set]{fullShare} G : sProp 𝕄)
      ⊢ iprop(∃ f : Buf (Elt F) (M.view.loc (c : Thread nD τ)),
        (M.view.loc (c : Thread nD τ) ↦[M.view.set]{fullShare} f) ∗ ⌜M.view.read (Elt F) f = M.view.read (Elt F) G⌝) := by
    iintro H; iexists G
    isplitl [H]; · iexact H
    ipureintro; rfl
  exact BI.equiv_iff.mp ⟨h₁, h₂⟩

omit [FloatOps F] in
/-- The device's row and its first partner's row, both holding the gathered result's, are the device's pair holding it. -/
theorem rows_join_0 (c : Dev nD) : iprop(rowsHold vg c c 0 ∗ rowsHold vg c (partner 0 c) 0) ⊢ (rowsHold vg c c 1 : sProp 𝕄) := by
  show iprop(holds c (row1 c) ((row1 c).view.read (Elt F) (vg (c.val % 4))) ∗ holds c (row1 (p0 c)) ((row1 (p0 c)).view.read (Elt F) (vg (c.val % 4))))
    ⊢ (holds c (row2 c) ((row2 c).view.read (Elt F) (vg (c.val % 4))) : sProp 𝕄)
  rw [holds_read c (row1 c), holds_read c (row1 (p0 c)), holds_read c (row2 c)]
  exact (Entails.of_eq (out_pair c c outM fullShare (vg (c.val % 4))).symm)

omit [FloatOps F] in
/-- The device's pair and its second partner's pair are the device's quadruple. -/
theorem rows_join_1 (c : Dev nD) : iprop(rowsHold vg c c 1 ∗ rowsHold vg c (partner 1 c) 1) ⊢ (rowsHold vg c c 2 : sProp 𝕄) := by
  show iprop(holds c (row2 c) ((row2 c).view.read (Elt F) (vg (c.val % 4))) ∗ holds c (row2 (p1 c)) ((row2 (p1 c)).view.read (Elt F) (vg (c.val % 4))))
    ⊢ (holds c (row4 c) ((row4 c).view.read (Elt F) (vg (c.val % 4))) : sProp 𝕄)
  rw [holds_read c (row2 c), holds_read c (row2 (p1 c)), holds_read c (row4 c)]
  exact (Entails.of_eq (out_quad c c outM fullShare (vg (c.val % 4))).symm)

omit [FloatOps F] in
/-- The device's quadruple and its third partner's quadruple are the whole result staging buffer, holding the gathered result. -/
theorem rows_join_2 (c : Dev nD) :
    iprop(rowsHold vg c c 2 ∗ rowsHold vg c (partner 2 c) 2) ⊢ (outM.view.loc (c : Thread nD τ) ↦{fullShare} (vg (c.val % 4)) : sProp 𝕄) := by
  show iprop(holds c (row4 c) ((row4 c).view.read (Elt F) (vg (c.val % 4))) ∗ holds c (row4 (p2 c)) ((row4 (p2 c)).view.read (Elt F) (vg (c.val % 4))))
    ⊢ (outM.view.loc (c : Thread nD τ) ↦{fullShare} (vg (c.val % 4)) : sProp 𝕄)
  rw [holds_read c (row4 c), holds_read c (row4 (p2 c))]
  exact (Entails.of_eq (out_all c c outM (Memref.isWhole_whole _) fullShare (vg (c.val % 4))).symm)

end Glue

/-! ## The parts of the body that communicate, one lemma per part -/

section Parts

open Cert.KernelIdeal.FD
open Cert.KernelIdeal.Mesh (zr zl zl_zr zr_zl p0 p1 p2 dev1_eq dev2_eq dev3_eq dev4_eq dev5_eq dev6_eq dev7_eq dev8_eq dev9_eq dev10_eq dev11_eq dev12_eq dev13_eq dev14_eq dev15_eq dev16_eq dev17_eq)
open Idealize.ShloMosaic.Rounds

variable {F : FTy → Type} [FloatOps F]

local notation "𝕄" => MT nD τ sig Unit (Elt F) ℕ UU ℕ

variable (vo : Dev nD → S8x16x128.Idx → Elt F .f32) (vm vl : Dev nD → S8x16x1.Idx → Elt F .f32)
variable (vg : ℕ → S8x8x16x128.Idx → Elt F .f32) (kin vin : Dev nD → S1024x16x128.Idx → Elt F .f32)
variable (m : (ℓ : Loc nD τ sig) → Buf (Elt F) ℓ)
variable {defs : Defs nD τ sig (Elt F) Λ₀} (𝒱 : Variants)

/-! ### The entry handshake -/

/-- What the next device along z lent at entry, slot by slot: its slots 1, 2, 3 of the three ring buffers, and that it stands
    at round 0 of its nine ring receive cells. -/
theorem barPay0_elim (c : Dev nD) :
    barPay (F := F) c 0
      ⊢ iprop((slotOwned (F := F) (zr c) 0 (0 : Fin 3).succ ∗ slotOwned (F := F) (zr c) 0 (1 : Fin 3).succ ∗ slotOwned (F := F) (zr c) 0 (2 : Fin 3).succ
          ∗ slotOwned (F := F) (zr c) 1 (0 : Fin 3).succ ∗ slotOwned (F := F) (zr c) 1 (1 : Fin 3).succ ∗ slotOwned (F := F) (zr c) 1 (2 : Fin 3).succ
          ∗ slotOwned (F := F) (zr c) 2 (0 : Fin 3).succ ∗ slotOwned (F := F) (zr c) 2 (1 : Fin 3).succ ∗ slotOwned (F := F) (zr c) 2 (2 : Fin 3).succ)
        ∗ bigSep Finset.univ fun b : Fin 3 => bigSep Finset.univ fun h : Fin 3 => reached ER (rrecvCell (zr c) b h) 0) := by
  show iprop((bigSep Finset.univ fun b : Fin 3 => bigSep Finset.univ fun h : Fin 3 => slotOwned (F := F) (zr c) b h.succ)
        ∗ bigSep Finset.univ fun b : Fin 3 => bigSep Finset.univ fun h : Fin 3 => reached ER (rrecvCell (zr c) b h) 0) ⊢ _
  rw [Ring.bigSep_fin3 (fun b : Fin 3 => bigSep Finset.univ fun h : Fin 3 => slotOwned (F := F) (zr c) b h.succ)]
  simp only [Ring.bigSep_fin3 (fun h : Fin 3 => slotOwned (F := F) (zr c) _ h.succ)]
  iintro ⟨⟨⟨H01, H02, H03⟩, ⟨H11, H12, H13⟩, H21, H22, H23⟩, Hr⟩
  isplitr [Hr]
  · isplitl [H01]; · iexact H01
    isplitl [H02]; · iexact H02
    isplitl [H03]; · iexact H03
    isplitl [H11]; · iexact H11
    isplitl [H12]; · iexact H12
    isplitl [H13]; · iexact H13
    isplitl [H21]; · iexact H21
    isplitl [H22]; · iexact H22
    iexact H23
  · iexact Hr

set_option maxRecDepth 65536 in
/-- Part 17: the first four signals of the entry handshake, to the previous and the next device along z and to the first two
    partners. Each hands over what the device promised that neighbour. -/
theorem part17_run (c : Dev nD) (v2 v5 v8 v460 v462 w4 : BitVec 32) (κ : GSem nD τ sig → ℕ) (W : Waits sig Unit)
    (hrl : τ.routes (c : Thread nD τ) (zl c : Thread nD τ) = true) (hr : τ.routes (c : Thread nD τ) (zr c : Thread nD τ) = true)
    (hr0 : τ.routes (c : Thread nD τ) (p0 c : Thread nD τ) = true) (hr1 : τ.routes (c : Thread nD τ) (p1 c : Thread nD τ) = true) :
    iprop(cellInv ER (Rd vo vm vl vg kin vin m) (κ (barCell (zl c))) (barCell (zl c)) ∗ reached ER (barCell (zl c)) 0
        ∗ cellInv ER (Rd vo vm vl vg kin vin m) (κ (barCell (zr c))) (barCell (zr c)) ∗ reached ER (barCell (zr c)) 0
        ∗ cellInv ER (Rd vo vm vl vg kin vin m) (κ (barCell (p0 c))) (barCell (p0 c)) ∗ reached ER (barCell (p0 c)) 0
        ∗ cellInv ER (Rd vo vm vl vg kin vin m) (κ (barCell (p1 c))) (barCell (p1 c)) ∗ reached ER (barCell (p1 c)) 0
        ∗ owes (c : Thread nD τ) (owedAfter 0 c) W
        ∗ dutyTok ER (barCell (zl c)) 0 0 ∗ barPay (F := F) (zl c) 0
        ∗ dutyTok ER (barCell (zr c)) 0 1 ∗ barPay (F := F) (zr c) 1
        ∗ dutyTok ER (barCell (p0 c)) 0 2 ∗ barPay (F := F) (p0 c) 2
        ∗ dutyTok ER (barCell (p1 c)) 0 3 ∗ barPay (F := F) (p1 c) 3)
      ⊢ wp frame (wpE defs 𝒱 (c : Thread nD τ) none) Set.univ (k0_part17 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c v2 v5 v8 v460 v462 w4) (fun r =>
          iprop(⌜r = ⟨Scalar.xori v5 1#32, Scalar.xori v5 2#32, Scalar.xori v2 1#32, (SemArray.scalar (sig.barrier 0 rfl) : Sems sig S_), Scalar.muli (Scalar.xori v2 1#32) 16#32, 0#32⟩⌝
            ∗ owes (c : Thread nD τ) (owedAfter 4 c) W)) := by
  unfold k0_part17 semSignalWord
  iintro ⟨#HIl, #HRl, #HIr, #HRr, #HI0, #HR0, #HI1, #HR1, HO, Htl, Hpl, Htr, Hpr, Ht0, Hp0, Ht1, Hp1⟩
  iapply (bar_signal vo vm vl vg kin vin m 𝒱 c (zl c) 0 none (dev1_eq c) (owedAfter 1 c) (owedAfter_step c 0 (by decide)) hrl) $$ [HO Htl Hpl]
  · isplitr; · iexact HIl
    isplitl [HO]; · iexact HO
    isplitl [Htl]; · iexact Htl
    isplitl [Hpl]; · iexact Hpl
    iexact HRl
  iintro HO
  iapply (bar_signal vo vm vl vg kin vin m 𝒱 c (zr c) 1 none (dev2_eq c) (owedAfter 2 c) (owedAfter_step c 1 (by decide)) hr) $$ [HO Htr Hpr]
  · isplitr; · iexact HIr
    isplitl [HO]; · iexact HO
    isplitl [Htr]; · iexact Htr
    isplitl [Hpr]; · iexact Hpr
    iexact HRr
  iintro HO
  iapply (bar_signal vo vm vl vg kin vin m 𝒱 c (p0 c) 2 none (dev3_eq c) (owedAfter 3 c) (owedAfter_step c 2 (by decide)) hr0) $$ [HO Ht0 Hp0]
  · isplitr; · iexact HI0
    isplitl [HO]; · iexact HO
    isplitl [Ht0]; · iexact Ht0
    isplitl [Hp0]; · iexact Hp0
    iexact HR0
  iintro HO
  iapply (bar_signal vo vm vl vg kin vin m 𝒱 c (p1 c) 3 none (dev4_eq c) (owedAfter 4 c) (owedAfter_step c 3 (by decide)) hr1) $$ [HO Ht1 Hp1]
  · isplitr; · iexact HI1
    isplitl [HO]; · iexact HO
    isplitl [Ht1]; · iexact Ht1
    isplitl [Hp1]; · iexact Hp1
    iexact HR1
  iintro HO
  iapply (le_wp_ret _ _ _ _ _)
  isplitr
  · ipureintro; rfl
  iexact HO

set_option maxRecDepth 65536 in
/-- Part 18: the fifth signal, to the third partner; the wait for the five neighbours, which hands the device the next device's
    nine slots and the three partners' rows; and the first ring transfer, of the device's partial sums into the next device's slot 1. -/
theorem part18_run (c : Dev nD) (v2 v5 v8 v460 v492 w0 : BitVec 32) (κ : GSem nD τ sig → ℕ) (W : Waits sig Unit)
    (hr2 : τ.routes (c : Thread nD τ) (p2 c : Thread nD τ) = true) (hr : τ.routes (c : Thread nD τ) (zr c : Thread nD τ) = true) :
    iprop(cellInv ER (Rd vo vm vl vg kin vin m) (κ (barCell (p2 c))) (barCell (p2 c)) ∗ reached ER (barCell (p2 c)) 0
        ∗ cellInv ER (Rd vo vm vl vg kin vin m) (κ (barCell c)) (barCell c) ∗ MayWait (c : Thread nD τ) (.reg barS) () (owedAfter 5 c)
        ∗ cellInv ER (Rd vo vm vl vg kin vin m) (κ (rsendCell c 0 0)) (rsendCell c 0 0) ∗ reached ER (rsendCell c 0 0) 0
        ∗ cellInv ER (Rd vo vm vl vg kin vin m) (κ (rrecvCell (zr c) 0 0)) (rrecvCell (zr c) 0 0) ∗ reached ER (rrecvCell (zr c) 0 0) 0
        ∗ owes (c : Thread nD τ) (owedAfter 4 c) W
        ∗ dutyTok ER (barCell (p2 c)) 0 4 ∗ barPay (F := F) (p2 c) 4
        ∗ cred (tallyAt (barCell c) () 5) ∗ atPos ER (barCell c) 0 ∅ 0
        ∗ slotHolds vo vm vl c 0 0 ∗ dutyTok ER (rsendCell c 0 0) 0 0 ∗ dutyTok ER (rrecvCell (zr c) 0 0) 0 0)
      ⊢ wp frame (wpE defs 𝒱 (c : Thread nD τ) none) Set.univ (k0_part18 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c v2 v5 v8 v460 (SemArray.scalar (sig.barrier 0 rfl) : Sems sig S_) v492 w0) (fun _ =>
          iprop(owes (c : Thread nD τ) (owedAfter 6 c) (insert (SemLoc.reg barS, ()) W)
            ∗ atPos ER (barCell c) (0 + 1) ∅ 0
            ∗ cred (tallyAt (rsendCell c 0 0) () (Nring 0))
            ∗ (slotOwned (F := F) (zr c) 0 (1 : Fin 3).succ ∗ slotOwned (F := F) (zr c) 0 (2 : Fin 3).succ
              ∗ slotOwned (F := F) (zr c) 1 (0 : Fin 3).succ ∗ slotOwned (F := F) (zr c) 1 (1 : Fin 3).succ ∗ slotOwned (F := F) (zr c) 1 (2 : Fin 3).succ
              ∗ slotOwned (F := F) (zr c) 2 (0 : Fin 3).succ ∗ slotOwned (F := F) (zr c) 2 (1 : Fin 3).succ ∗ slotOwned (F := F) (zr c) 2 (2 : Fin 3).succ)
            ∗ (bigSep Finset.univ fun b : Fin 3 => bigSep Finset.univ fun h : Fin 3 => reached ER (rrecvCell (zr c) b h) 0)
            ∗ barPay (F := F) c 1 ∗ barPay (F := F) c 2 ∗ barPay (F := F) c 3 ∗ barPay (F := F) c 4)) := by
  unfold k0_part18 semSignalWord semWaitWord
  iintro ⟨#HI2, #HR2, #HIb, #HMb, #HIs, #HRs, #HIn, #HRn, HO, Ht2, Hp2, Hcb, Hatb, Hsl, Hts, Htn⟩
  iapply (bar_signal vo vm vl vg kin vin m 𝒱 c (p2 c) 4 none (dev5_eq c) (owedAfter 5 c) (owedAfter_step c 4 (by decide)) hr2) $$ [HO Ht2 Hp2]
  · isplitr; · iexact HI2
    isplitl [HO]; · iexact HO
    isplitl [Ht2]; · iexact Ht2
    isplitl [Hp2]; · iexact Hp2
    iexact HR2
  iintro HO
  iapply (bar_wait vo vm vl vg kin vin m 𝒱 c none (Set.mem_univ _)) $$ [Hcb HO Hatb]
  · isplitr; · iexact HIb
    isplitl [Hcb]; · iexact Hcb
    isplitl [HO]; · iexact HO
    isplitr; · iexact HMb
    iexact Hatb
  iintro ⟨HO, Hatb, -, Hb0, Hb1, Hb2, Hb3, Hb4⟩
  ihave Hb0' := (barPay0_elim (F := F) c) $$ Hb0
  icases Hb0' with ⟨⟨H01, H02, H03, H11, H12, H13, H21, H22, H23⟩, Hrr⟩
  iapply (ring_send_o vo vm vl vg kin vin m 𝒱 c 0 none (dev6_eq c) (owedAfter 6 c) (owedAfter_step c 5 (by decide)) hr) $$ [HO Hsl H01 Hts Htn]
  · isplitr; · iexact HIs
    isplitr; · iexact HIn
    isplitl [Hsl]; · iexact Hsl
    isplitl [H01]; · iexact H01
    isplitl [HO]; · iexact HO
    isplitl [Hts]; · iexact Hts
    isplitr; · iexact HRs
    isplitl [Htn]; · iexact Htn
    iexact HRn
  iintro ⟨Hcs, HO⟩
  iapply (le_wp_ret _ _ _ _ _)
  isplitl [HO]; · iexact HO
  isplitl [Hatb]; · iexact Hatb
  isplitl [Hcs]; · iexact Hcs
  isplitl [H02 H03 H11 H12 H13 H21 H22 H23]
  · isplitl [H02]; · iexact H02
    isplitl [H03]; · iexact H03
    isplitl [H11]; · iexact H11
    isplitl [H12]; · iexact H12
    isplitl [H13]; · iexact H13
    isplitl [H21]; · iexact H21
    isplitl [H22]; · iexact H22
    iexact H23
  isplitl [Hrr]; · iexact Hrr
  isplitl [Hb1]; · iexact Hb1
  isplitl [Hb2]; · iexact Hb2
  isplitl [Hb3]; · iexact Hb3
  iexact Hb4

set_option maxRecDepth 65536 in
/-- Part 19: the first hop's transfers of the row maxima and of the row sums, and the wait for the partial sums' send. -/
theorem part19_run (c : Dev nD) (v2 v5 v460 : BitVec 32) (κ : GSem nD τ sig → ℕ) (W : Waits sig Unit) (hr : τ.routes (c : Thread nD τ) (zr c : Thread nD τ) = true) :
    iprop(cellInv ER (Rd vo vm vl vg kin vin m) (κ (rsendCell c 1 0)) (rsendCell c 1 0)
        ∗ reached ER (rsendCell c 1 0) 0
        ∗ cellInv ER (Rd vo vm vl vg kin vin m) (κ (rrecvCell (zr c) 1 0)) (rrecvCell (zr c) 1 0)
        ∗ reached ER (rrecvCell (zr c) 1 0) 0
        ∗ cellInv ER (Rd vo vm vl vg kin vin m) (κ (rsendCell c 2 0)) (rsendCell c 2 0)
        ∗ reached ER (rsendCell c 2 0) 0
        ∗ cellInv ER (Rd vo vm vl vg kin vin m) (κ (rrecvCell (zr c) 2 0)) (rrecvCell (zr c) 2 0)
        ∗ reached ER (rrecvCell (zr c) 2 0) 0
        ∗ cellInv ER (Rd vo vm vl vg kin vin m) (κ (rsendCell c 0 0)) (rsendCell c 0 0)
        ∗ MayWait (c : Thread nD τ) (.dma (sem3 (sendArr 0) 0)) () (owedAfter 8 c)
        ∗ owes (c : Thread nD τ) (owedAfter 6 c) W
        ∗ slotHolds vo vm vl c 1 0
        ∗ slotOwned (F := F) (zr c) 1 1
        ∗ dutyTok ER (rsendCell c 1 0) 0 0
        ∗ dutyTok ER (rrecvCell (zr c) 1 0) 0 0
        ∗ slotHolds vo vm vl c 2 0
        ∗ slotOwned (F := F) (zr c) 2 1
        ∗ dutyTok ER (rsendCell c 2 0) 0 0
        ∗ dutyTok ER (rrecvCell (zr c) 2 0) 0 0
        ∗ cred (tallyAt (rsendCell c 0 0) () (Nring 0))
        ∗ atPos ER (rsendCell c 0 0) 0 ∅ 0)
      ⊢ wp frame (wpE defs 𝒱 (c : Thread nD τ) none) Set.univ (k0_part19 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c v2 v5 v460) (fun _ =>
          iprop(owes (c : Thread nD τ) (owedAfter 8 c) (insert (SemLoc.dma (sem3 (sendArr 0) 0), ()) W)
            ∗ cred (tallyAt (rsendCell c 1 0) () (Nring 1))
            ∗ cred (tallyAt (rsendCell c 2 0) () (Nring 2))
            ∗ atPos ER (rsendCell c 0 0) (0 + 1) ∅ 0
            ∗ slotHolds vo vm vl c 0 0)) := by
  unfold k0_part19
  iintro ⟨#HIs10, #HRs10, #HIn10, #HRn10, #HIs20, #HRs20, #HIn20, #HRn20, #HIs00, #HMs00, HO, Hsl10, Hnx10, Hts10, Htn10, Hsl20, Hnx20, Hts20, Htn20, Hcs00, Hats00⟩
  iapply (ring_send_m vo vm vl vg kin vin m 𝒱 c 0 none (dev7_eq c) (owedAfter 7 c) (owedAfter_step c 6 (by decide)) hr) $$ [HO Hsl10 Hnx10 Hts10 Htn10]
  · isplitr; · iexact HIs10
    isplitr; · iexact HIn10
    isplitl [Hsl10]; · iexact Hsl10
    isplitl [Hnx10]; · iexact Hnx10
    isplitl [HO]; · iexact HO
    isplitl [Hts10]; · iexact Hts10
    isplitr; · iexact HRs10
    isplitl [Htn10]; · iexact Htn10
    iexact HRn10
  iintro ⟨Hcs10, HO⟩
  iapply (ring_send_l vo vm vl vg kin vin m 𝒱 c 0 none (dev8_eq c) (owedAfter 8 c) (owedAfter_step c 7 (by decide)) hr) $$ [HO Hsl20 Hnx20 Hts20 Htn20]
  · isplitr; · iexact HIs20
    isplitr; · iexact HIn20
    isplitl [Hsl20]; · iexact Hsl20
    isplitl [Hnx20]; · iexact Hnx20
    isplitl [HO]; · iexact HO
    isplitl [Hts20]; · iexact Hts20
    isplitr; · iexact HRs20
    isplitl [Htn20]; · iexact Htn20
    iexact HRn20
  iintro ⟨Hcs20, HO⟩
  iapply (ring_swait vo vm vl vg kin vin m 𝒱 c 0 0 none (dst := oSlot 0) (oSlot_credit 0) (Set.mem_univ _)) $$ [Hcs00 HO Hats00]
  · isplitr; · iexact HIs00
    isplitl [Hcs00]; · iexact Hcs00
    isplitl [HO]; · iexact HO
    isplitr; · iexact HMs00
    iexact Hats00
  iintro ⟨HO, Hats00, -, Hsl00⟩
  iapply (le_wp_ret _ _ _ _ _)
  isplitl [HO]; · iexact HO
  isplitl [Hcs10]; · iexact Hcs10
  isplitl [Hcs20]; · iexact Hcs20
  isplitl [Hats00]; · iexact Hats00
  iexact Hsl00

set_option maxRecDepth 65536 in
/-- Part 20: the partial sums of the previous device land in slot 1; the row maxima's send is over. -/
theorem part20_run (c : Dev nD) (v2 v5 v460 : BitVec 32) (κ : GSem nD τ sig → ℕ) (W : Waits sig Unit) :
    iprop(cellInv ER (Rd vo vm vl vg kin vin m) (κ (rrecvCell c 0 0)) (rrecvCell c 0 0)
        ∗ MayWait (c : Thread nD τ) (.dma (sem3 (recvArr 0) 0)) () (owedAfter 8 c)
        ∗ cellInv ER (Rd vo vm vl vg kin vin m) (κ (rsendCell c 1 0)) (rsendCell c 1 0)
        ∗ MayWait (c : Thread nD τ) (.dma (sem3 (sendArr 1) 0)) () (owedAfter 8 c)
        ∗ owes (c : Thread nD τ) (owedAfter 8 c) W
        ∗ cred (tallyAt (rrecvCell c 0 0) () (Nring 0))
        ∗ atPos ER (rrecvCell c 0 0) 0 ∅ 0
        ∗ cred (tallyAt (rsendCell c 1 0) () (Nring 1))
        ∗ atPos ER (rsendCell c 1 0) 0 ∅ 0)
      ⊢ wp frame (wpE defs 𝒱 (c : Thread nD τ) none) Set.univ (k0_part20 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 v2 v5 v460) (fun _ =>
          iprop(owes (c : Thread nD τ) (owedAfter 8 c) (insert (SemLoc.dma (sem3 (sendArr 1) 0), ()) (insert (SemLoc.dma (sem3 (recvArr 0) 0), ()) W))
            ∗ atPos ER (rrecvCell c 0 0) (0 + 1) ∅ 0
            ∗ slotHolds vo vm vl c 0 1
            ∗ atPos ER (rsendCell c 1 0) (0 + 1) ∅ 0
            ∗ slotHolds vo vm vl c 1 0)) := by
  unfold k0_part20
  iintro ⟨#HIr00, #HMr00, #HIs10, #HMs10, HO, Hcr00, Hatr00, Hcs10, Hats10⟩
  iapply (ring_rwait vo vm vl vg kin vin m 𝒱 c 0 0 none (dst := oSlot 1) (oSlot_credit 1) (Set.mem_univ _)) $$ [Hcr00 HO Hatr00]
  · isplitr; · iexact HIr00
    isplitl [Hcr00]; · iexact Hcr00
    isplitl [HO]; · iexact HO
    isplitr; · iexact HMr00
    iexact Hatr00
  iintro ⟨HO, Hatr00, -, Hsl01⟩
  iapply (ring_swait vo vm vl vg kin vin m 𝒱 c 1 0 none (dst := cSlot cmM 0) (cSlotM_credit 0) (Set.mem_univ _)) $$ [Hcs10 HO Hats10]
  · isplitr; · iexact HIs10
    isplitl [Hcs10]; · iexact Hcs10
    isplitl [HO]; · iexact HO
    isplitr; · iexact HMs10
    iexact Hats10
  iintro ⟨HO, Hats10, -, Hsl10⟩
  iapply (le_wp_ret _ _ _ _ _)
  isplitl [HO]; · iexact HO
  isplitl [Hatr00]; · iexact Hatr00
  isplitl [Hsl01]; · iexact Hsl01
  isplitl [Hats10]; · iexact Hats10
  iexact Hsl10

set_option maxRecDepth 65536 in
/-- Part 21: the row maxima land in slot 1; the row sums' send is over; the row sums land in slot 1. -/
theorem part21_run (c : Dev nD) (v2 v5 v460 : BitVec 32) (κ : GSem nD τ sig → ℕ) (W : Waits sig Unit) :
    iprop(cellInv ER (Rd vo vm vl vg kin vin m) (κ (rrecvCell c 1 0)) (rrecvCell c 1 0)
        ∗ MayWait (c : Thread nD τ) (.dma (sem3 (recvArr 1) 0)) () (owedAfter 8 c)
        ∗ cellInv ER (Rd vo vm vl vg kin vin m) (κ (rsendCell c 2 0)) (rsendCell c 2 0)
        ∗ MayWait (c : Thread nD τ) (.dma (sem3 (sendArr 2) 0)) () (owedAfter 8 c)
        ∗ cellInv ER (Rd vo vm vl vg kin vin m) (κ (rrecvCell c 2 0)) (rrecvCell c 2 0)
        ∗ MayWait (c : Thread nD τ) (.dma (sem3 (recvArr 2) 0)) () (owedAfter 8 c)
        ∗ owes (c : Thread nD τ) (owedAfter 8 c) W
        ∗ cred (tallyAt (rrecvCell c 1 0) () (Nring 1))
        ∗ atPos ER (rrecvCell c 1 0) 0 ∅ 0
        ∗ cred (tallyAt (rsendCell c 2 0) () (Nring 2))
        ∗ atPos ER (rsendCell c 2 0) 0 ∅ 0
        ∗ cred (tallyAt (rrecvCell c 2 0) () (Nring 2))
        ∗ atPos ER (rrecvCell c 2 0) 0 ∅ 0)
      ⊢ wp frame (wpE defs 𝒱 (c : Thread nD τ) none) Set.univ (k0_part21 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 v2 v5 v460) (fun _ =>
          iprop(owes (c : Thread nD τ) (owedAfter 8 c) (insert (SemLoc.dma (sem3 (recvArr 2) 0), ()) (insert (SemLoc.dma (sem3 (sendArr 2) 0), ()) (insert (SemLoc.dma (sem3 (recvArr 1) 0), ()) W)))
            ∗ atPos ER (rrecvCell c 1 0) (0 + 1) ∅ 0
            ∗ slotHolds vo vm vl c 1 1
            ∗ atPos ER (rsendCell c 2 0) (0 + 1) ∅ 0
            ∗ slotHolds vo vm vl c 2 0
            ∗ atPos ER (rrecvCell c 2 0) (0 + 1) ∅ 0
            ∗ slotHolds vo vm vl c 2 1)) := by
  unfold k0_part21
  iintro ⟨#HIr10, #HMr10, #HIs20, #HMs20, #HIr20, #HMr20, HO, Hcr10, Hatr10, Hcs20, Hats20, Hcr20, Hatr20⟩
  iapply (ring_rwait vo vm vl vg kin vin m 𝒱 c 1 0 none (dst := cSlot cmM 1) (cSlotM_credit 1) (Set.mem_univ _)) $$ [Hcr10 HO Hatr10]
  · isplitr; · iexact HIr10
    isplitl [Hcr10]; · iexact Hcr10
    isplitl [HO]; · iexact HO
    isplitr; · iexact HMr10
    iexact Hatr10
  iintro ⟨HO, Hatr10, -, Hsl11⟩
  iapply (ring_swait vo vm vl vg kin vin m 𝒱 c 2 0 none (dst := cSlot clM 0) (cSlotL_credit 0) (Set.mem_univ _)) $$ [Hcs20 HO Hats20]
  · isplitr; · iexact HIs20
    isplitl [Hcs20]; · iexact Hcs20
    isplitl [HO]; · iexact HO
    isplitr; · iexact HMs20
    iexact Hats20
  iintro ⟨HO, Hats20, -, Hsl20⟩
  iapply (ring_rwait vo vm vl vg kin vin m 𝒱 c 2 0 none (dst := cSlot clM 1) (cSlotL_credit 1) (Set.mem_univ _)) $$ [Hcr20 HO Hatr20]
  · isplitr; · iexact HIr20
    isplitl [Hcr20]; · iexact Hcr20
    isplitl [HO]; · iexact HO
    isplitr; · iexact HMr20
    iexact Hatr20
  iintro ⟨HO, Hatr20, -, Hsl21⟩
  iapply (le_wp_ret _ _ _ _ _)
  isplitl [HO]; · iexact HO
  isplitl [Hatr10]; · iexact Hatr10
  isplitl [Hsl11]; · iexact Hsl11
  isplitl [Hats20]; · iexact Hats20
  isplitl [Hsl20]; · iexact Hsl20
  isplitl [Hatr20]; · iexact Hatr20
  iexact Hsl21

set_option maxRecDepth 65536 in
/-- Part 22: the second hop's transfers of the partial sums and of the row maxima, from slot 1 into the next device's slot 2. -/
theorem part22_run (c : Dev nD) (v2 v5 v460 v594 w0 : BitVec 32) (κ : GSem nD τ sig → ℕ) (W : Waits sig Unit) (hr : τ.routes (c : Thread nD τ) (zr c : Thread nD τ) = true) :
    iprop(cellInv ER (Rd vo vm vl vg kin vin m) (κ (rsendCell c 0 1)) (rsendCell c 0 1)
        ∗ reached ER (rsendCell c 0 1) 0
        ∗ cellInv ER (Rd vo vm vl vg kin vin m) (κ (rrecvCell (zr c) 0 1)) (rrecvCell (zr c) 0 1)
        ∗ reached ER (rrecvCell (zr c) 0 1) 0
        ∗ cellInv ER (Rd vo vm vl vg kin vin m) (κ (rsendCell c 1 1)) (rsendCell c 1 1)
        ∗ reached ER (rsendCell c 1 1) 0
        ∗ cellInv ER (Rd vo vm vl vg kin vin m) (κ (rrecvCell (zr c) 1 1)) (rrecvCell (zr c) 1 1)
        ∗ reached ER (rrecvCell (zr c) 1 1) 0
        ∗ owes (c : Thread nD τ) (owedAfter 8 c) W
        ∗ slotHolds vo vm vl c 0 1
        ∗ slotOwned (F := F) (zr c) 0 2
        ∗ dutyTok ER (rsendCell c 0 1) 0 0
        ∗ dutyTok ER (rrecvCell (zr c) 0 1) 0 0
        ∗ slotHolds vo vm vl c 1 1
        ∗ slotOwned (F := F) (zr c) 1 2
        ∗ dutyTok ER (rsendCell c 1 1) 0 0
        ∗ dutyTok ER (rrecvCell (zr c) 1 1) 0 0)
      ⊢ wp frame (wpE defs 𝒱 (c : Thread nD τ) none) Set.univ (k0_part22 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c v2 v5 v460 v594 w0) (fun _ =>
          iprop(owes (c : Thread nD τ) (owedAfter 10 c) W
            ∗ cred (tallyAt (rsendCell c 0 1) () (Nring 0))
            ∗ cred (tallyAt (rsendCell c 1 1) () (Nring 1)))) := by
  unfold k0_part22
  iintro ⟨#HIs01, #HRs01, #HIn01, #HRn01, #HIs11, #HRs11, #HIn11, #HRn11, HO, Hsl01, Hnx01, Hts01, Htn01, Hsl11, Hnx11, Hts11, Htn11⟩
  iapply (ring_send_o vo vm vl vg kin vin m 𝒱 c 1 none (dev9_eq c) (owedAfter 9 c) (owedAfter_step c 8 (by decide)) hr) $$ [HO Hsl01 Hnx01 Hts01 Htn01]
  · isplitr; · iexact HIs01
    isplitr; · iexact HIn01
    isplitl [Hsl01]; · iexact Hsl01
    isplitl [Hnx01]; · iexact Hnx01
    isplitl [HO]; · iexact HO
    isplitl [Hts01]; · iexact Hts01
    isplitr; · iexact HRs01
    isplitl [Htn01]; · iexact Htn01
    iexact HRn01
  iintro ⟨Hcs01, HO⟩
  iapply (ring_send_m vo vm vl vg kin vin m 𝒱 c 1 none (dev10_eq c) (owedAfter 10 c) (owedAfter_step c 9 (by decide)) hr) $$ [HO Hsl11 Hnx11 Hts11 Htn11]
  · isplitr; · iexact HIs11
    isplitr; · iexact HIn11
    isplitl [Hsl11]; · iexact Hsl11
    isplitl [Hnx11]; · iexact Hnx11
    isplitl [HO]; · iexact HO
    isplitl [Hts11]; · iexact Hts11
    isplitr; · iexact HRs11
    isplitl [Htn11]; · iexact Htn11
    iexact HRn11
  iintro ⟨Hcs11, HO⟩
  iapply (le_wp_ret _ _ _ _ _)
  isplitl [HO]; · iexact HO
  isplitl [Hcs01]; · iexact Hcs01
  iexact Hcs11

set_option maxRecDepth 65536 in
/-- Part 23: the second hop's transfer of the row sums, and the wait for the partial sums' send. -/
theorem part23_run (c : Dev nD) (v2 v5 v460 v623 w4 : BitVec 32) (κ : GSem nD τ sig → ℕ) (W : Waits sig Unit) (hr : τ.routes (c : Thread nD τ) (zr c : Thread nD τ) = true) :
    iprop(cellInv ER (Rd vo vm vl vg kin vin m) (κ (rsendCell c 2 1)) (rsendCell c 2 1)
        ∗ reached ER (rsendCell c 2 1) 0
        ∗ cellInv ER (Rd vo vm vl vg kin vin m) (κ (rrecvCell (zr c) 2 1)) (rrecvCell (zr c) 2 1)
        ∗ reached ER (rrecvCell (zr c) 2 1) 0
        ∗ cellInv ER (Rd vo vm vl vg kin vin m) (κ (rsendCell c 0 1)) (rsendCell c 0 1)
        ∗ MayWait (c : Thread nD τ) (.dma (sem3 (sendArr 0) 1)) () (owedAfter 11 c)
        ∗ owes (c : Thread nD τ) (owedAfter 10 c) W
        ∗ slotHolds vo vm vl c 2 1
        ∗ slotOwned (F := F) (zr c) 2 2
        ∗ dutyTok ER (rsendCell c 2 1) 0 0
        ∗ dutyTok ER (rrecvCell (zr c) 2 1) 0 0
        ∗ cred (tallyAt (rsendCell c 0 1) () (Nring 0))
        ∗ atPos ER (rsendCell c 0 1) 0 ∅ 0)
      ⊢ wp frame (wpE defs 𝒱 (c : Thread nD τ) none) Set.univ (k0_part23 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c v2 v5 v460 v623 w4) (fun _ =>
          iprop(owes (c : Thread nD τ) (owedAfter 11 c) (insert (SemLoc.dma (sem3 (sendArr 0) 1), ()) W)
            ∗ cred (tallyAt (rsendCell c 2 1) () (Nring 2))
            ∗ atPos ER (rsendCell c 0 1) (0 + 1) ∅ 0
            ∗ slotHolds vo vm vl c 0 1)) := by
  unfold k0_part23
  iintro ⟨#HIs21, #HRs21, #HIn21, #HRn21, #HIs01, #HMs01, HO, Hsl21, Hnx21, Hts21, Htn21, Hcs01, Hats01⟩
  iapply (ring_send_l vo vm vl vg kin vin m 𝒱 c 1 none (dev11_eq c) (owedAfter 11 c) (owedAfter_step c 10 (by decide)) hr) $$ [HO Hsl21 Hnx21 Hts21 Htn21]
  · isplitr; · iexact HIs21
    isplitr; · iexact HIn21
    isplitl [Hsl21]; · iexact Hsl21
    isplitl [Hnx21]; · iexact Hnx21
    isplitl [HO]; · iexact HO
    isplitl [Hts21]; · iexact Hts21
    isplitr; · iexact HRs21
    isplitl [Htn21]; · iexact Htn21
    iexact HRn21
  iintro ⟨Hcs21, HO⟩
  iapply (ring_swait vo vm vl vg kin vin m 𝒱 c 0 1 none (dst := oSlot 1) (oSlot_credit 1) (Set.mem_univ _)) $$ [Hcs01 HO Hats01]
  · isplitr; · iexact HIs01
    isplitl [Hcs01]; · iexact Hcs01
    isplitl [HO]; · iexact HO
    isplitr; · iexact HMs01
    iexact Hats01
  iintro ⟨HO, Hats01, -, Hsl01⟩
  iapply (le_wp_ret _ _ _ _ _)
  isplitl [HO]; · iexact HO
  isplitl [Hcs21]; · iexact Hcs21
  isplitl [Hats01]; · iexact Hats01
  iexact Hsl01

set_option maxRecDepth 65536 in
/-- Part 24: the second hop's partial sums land in slot 2; the row maxima's send is over; the row maxima land in slot 2. -/
theorem part24_run (c : Dev nD) (v2 v5 v460 : BitVec 32) (κ : GSem nD τ sig → ℕ) (W : Waits sig Unit) :
    iprop(cellInv ER (Rd vo vm vl vg kin vin m) (κ (rrecvCell c 0 1)) (rrecvCell c 0 1)
        ∗ MayWait (c : Thread nD τ) (.dma (sem3 (recvArr 0) 1)) () (owedAfter 11 c)
        ∗ cellInv ER (Rd vo vm vl vg kin vin m) (κ (rsendCell c 1 1)) (rsendCell c 1 1)
        ∗ MayWait (c : Thread nD τ) (.dma (sem3 (sendArr 1) 1)) () (owedAfter 11 c)
        ∗ cellInv ER (Rd vo vm vl vg kin vin m) (κ (rrecvCell c 1 1)) (rrecvCell c 1 1)
        ∗ MayWait (c : Thread nD τ) (.dma (sem3 (recvArr 1) 1)) () (owedAfter 11 c)
        ∗ owes (c : Thread nD τ) (owedAfter 11 c) W
        ∗ cred (tallyAt (rrecvCell c 0 1) () (Nring 0))
        ∗ atPos ER (rrecvCell c 0 1) 0 ∅ 0
        ∗ cred (tallyAt (rsendCell c 1 1) () (Nring 1))
        ∗ atPos ER (rsendCell c 1 1) 0 ∅ 0
        ∗ cred (tallyAt (rrecvCell c 1 1) () (Nring 1))
        ∗ atPos ER (rrecvCell c 1 1) 0 ∅ 0)
      ⊢ wp frame (wpE defs 𝒱 (c : Thread nD τ) none) Set.univ (k0_part24 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 v2 v5 v460) (fun _ =>
          iprop(owes (c : Thread nD τ) (owedAfter 11 c) (insert (SemLoc.dma (sem3 (recvArr 1) 1), ()) (insert (SemLoc.dma (sem3 (sendArr 1) 1), ()) (insert (SemLoc.dma (sem3 (recvArr 0) 1), ()) W)))
            ∗ atPos ER (rrecvCell c 0 1) (0 + 1) ∅ 0
            ∗ slotHolds vo vm vl c 0 2
            ∗ atPos ER (rsendCell c 1 1) (0 + 1) ∅ 0
            ∗ slotHolds vo vm vl c 1 1
            ∗ atPos ER (rrecvCell c 1 1) (0 + 1) ∅ 0
            ∗ slotHolds vo vm vl c 1 2)) := by
  unfold k0_part24
  iintro ⟨#HIr01, #HMr01, #HIs11, #HMs11, #HIr11, #HMr11, HO, Hcr01, Hatr01, Hcs11, Hats11, Hcr11, Hatr11⟩
  iapply (ring_rwait vo vm vl vg kin vin m 𝒱 c 0 1 none (dst := oSlot 2) (oSlot_credit 2) (Set.mem_univ _)) $$ [Hcr01 HO Hatr01]
  · isplitr; · iexact HIr01
    isplitl [Hcr01]; · iexact Hcr01
    isplitl [HO]; · iexact HO
    isplitr; · iexact HMr01
    iexact Hatr01
  iintro ⟨HO, Hatr01, -, Hsl02⟩
  iapply (ring_swait vo vm vl vg kin vin m 𝒱 c 1 1 none (dst := cSlot cmM 1) (cSlotM_credit 1) (Set.mem_univ _)) $$ [Hcs11 HO Hats11]
  · isplitr; · iexact HIs11
    isplitl [Hcs11]; · iexact Hcs11
    isplitl [HO]; · iexact HO
    isplitr; · iexact HMs11
    iexact Hats11
  iintro ⟨HO, Hats11, -, Hsl11⟩
  iapply (ring_rwait vo vm vl vg kin vin m 𝒱 c 1 1 none (dst := cSlot cmM 2) (cSlotM_credit 2) (Set.mem_univ _)) $$ [Hcr11 HO Hatr11]
  · isplitr; · iexact HIr11
    isplitl [Hcr11]; · iexact Hcr11
    isplitl [HO]; · iexact HO
    isplitr; · iexact HMr11
    iexact Hatr11
  iintro ⟨HO, Hatr11, -, Hsl12⟩
  iapply (le_wp_ret _ _ _ _ _)
  isplitl [HO]; · iexact HO
  isplitl [Hatr01]; · iexact Hatr01
  isplitl [Hsl02]; · iexact Hsl02
  isplitl [Hats11]; · iexact Hats11
  isplitl [Hsl11]; · iexact Hsl11
  isplitl [Hatr11]; · iexact Hatr11
  iexact Hsl12

set_option maxRecDepth 65536 in
/-- Part 25: the second hop's row sums: the send is over, and they land in slot 2. -/
theorem part25_run (c : Dev nD) (v2 v5 v460 : BitVec 32) (κ : GSem nD τ sig → ℕ) (W : Waits sig Unit) :
    iprop(cellInv ER (Rd vo vm vl vg kin vin m) (κ (rsendCell c 2 1)) (rsendCell c 2 1)
        ∗ MayWait (c : Thread nD τ) (.dma (sem3 (sendArr 2) 1)) () (owedAfter 11 c)
        ∗ cellInv ER (Rd vo vm vl vg kin vin m) (κ (rrecvCell c 2 1)) (rrecvCell c 2 1)
        ∗ MayWait (c : Thread nD τ) (.dma (sem3 (recvArr 2) 1)) () (owedAfter 11 c)
        ∗ owes (c : Thread nD τ) (owedAfter 11 c) W
        ∗ cred (tallyAt (rsendCell c 2 1) () (Nring 2))
        ∗ atPos ER (rsendCell c 2 1) 0 ∅ 0
        ∗ cred (tallyAt (rrecvCell c 2 1) () (Nring 2))
        ∗ atPos ER (rrecvCell c 2 1) 0 ∅ 0)
      ⊢ wp frame (wpE defs 𝒱 (c : Thread nD τ) none) Set.univ (k0_part25 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 v2 v5 v460) (fun _ =>
          iprop(owes (c : Thread nD τ) (owedAfter 11 c) (insert (SemLoc.dma (sem3 (recvArr 2) 1), ()) (insert (SemLoc.dma (sem3 (sendArr 2) 1), ()) W))
            ∗ atPos ER (rsendCell c 2 1) (0 + 1) ∅ 0
            ∗ slotHolds vo vm vl c 2 1
            ∗ atPos ER (rrecvCell c 2 1) (0 + 1) ∅ 0
            ∗ slotHolds vo vm vl c 2 2)) := by
  unfold k0_part25
  iintro ⟨#HIs21, #HMs21, #HIr21, #HMr21, HO, Hcs21, Hats21, Hcr21, Hatr21⟩
  iapply (ring_swait vo vm vl vg kin vin m 𝒱 c 2 1 none (dst := cSlot clM 1) (cSlotL_credit 1) (Set.mem_univ _)) $$ [Hcs21 HO Hats21]
  · isplitr; · iexact HIs21
    isplitl [Hcs21]; · iexact Hcs21
    isplitl [HO]; · iexact HO
    isplitr; · iexact HMs21
    iexact Hats21
  iintro ⟨HO, Hats21, -, Hsl21⟩
  iapply (ring_rwait vo vm vl vg kin vin m 𝒱 c 2 1 none (dst := cSlot clM 2) (cSlotL_credit 2) (Set.mem_univ _)) $$ [Hcr21 HO Hatr21]
  · isplitr; · iexact HIr21
    isplitl [Hcr21]; · iexact Hcr21
    isplitl [HO]; · iexact HO
    isplitr; · iexact HMr21
    iexact Hatr21
  iintro ⟨HO, Hatr21, -, Hsl22⟩
  iapply (le_wp_ret _ _ _ _ _)
  isplitl [HO]; · iexact HO
  isplitl [Hats21]; · iexact Hats21
  isplitl [Hsl21]; · iexact Hsl21
  isplitl [Hatr21]; · iexact Hatr21
  iexact Hsl22

set_option maxRecDepth 65536 in
/-- Part 26: the third hop's transfers of the partial sums and of the row maxima, from slot 2 into the next device's slot 3. -/
theorem part26_run (c : Dev nD) (v2 v5 v460 : BitVec 32) (κ : GSem nD τ sig → ℕ) (W : Waits sig Unit) (hr : τ.routes (c : Thread nD τ) (zr c : Thread nD τ) = true) :
    iprop(cellInv ER (Rd vo vm vl vg kin vin m) (κ (rsendCell c 0 2)) (rsendCell c 0 2)
        ∗ reached ER (rsendCell c 0 2) 0
        ∗ cellInv ER (Rd vo vm vl vg kin vin m) (κ (rrecvCell (zr c) 0 2)) (rrecvCell (zr c) 0 2)
        ∗ reached ER (rrecvCell (zr c) 0 2) 0
        ∗ cellInv ER (Rd vo vm vl vg kin vin m) (κ (rsendCell c 1 2)) (rsendCell c 1 2)
        ∗ reached ER (rsendCell c 1 2) 0
        ∗ cellInv ER (Rd vo vm vl vg kin vin m) (κ (rrecvCell (zr c) 1 2)) (rrecvCell (zr c) 1 2)
        ∗ reached ER (rrecvCell (zr c) 1 2) 0
        ∗ owes (c : Thread nD τ) (owedAfter 11 c) W
        ∗ slotHolds vo vm vl c 0 2
        ∗ slotOwned (F := F) (zr c) 0 3
        ∗ dutyTok ER (rsendCell c 0 2) 0 0
        ∗ dutyTok ER (rrecvCell (zr c) 0 2) 0 0
        ∗ slotHolds vo vm vl c 1 2
        ∗ slotOwned (F := F) (zr c) 1 3
        ∗ dutyTok ER (rsendCell c 1 2) 0 0
        ∗ dutyTok ER (rrecvCell (zr c) 1 2) 0 0)
      ⊢ wp frame (wpE defs 𝒱 (c : Thread nD τ) none) Set.univ (k0_part26 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c v2 v5 v460) (fun _ =>
          iprop(owes (c : Thread nD τ) (owedAfter 13 c) W
            ∗ cred (tallyAt (rsendCell c 0 2) () (Nring 0))
            ∗ cred (tallyAt (rsendCell c 1 2) () (Nring 1)))) := by
  unfold k0_part26
  iintro ⟨#HIs02, #HRs02, #HIn02, #HRn02, #HIs12, #HRs12, #HIn12, #HRn12, HO, Hsl02, Hnx02, Hts02, Htn02, Hsl12, Hnx12, Hts12, Htn12⟩
  iapply (ring_send_o vo vm vl vg kin vin m 𝒱 c 2 none (dev12_eq c) (owedAfter 12 c) (owedAfter_step c 11 (by decide)) hr) $$ [HO Hsl02 Hnx02 Hts02 Htn02]
  · isplitr; · iexact HIs02
    isplitr; · iexact HIn02
    isplitl [Hsl02]; · iexact Hsl02
    isplitl [Hnx02]; · iexact Hnx02
    isplitl [HO]; · iexact HO
    isplitl [Hts02]; · iexact Hts02
    isplitr; · iexact HRs02
    isplitl [Htn02]; · iexact Htn02
    iexact HRn02
  iintro ⟨Hcs02, HO⟩
  iapply (ring_send_m vo vm vl vg kin vin m 𝒱 c 2 none (dev13_eq c) (owedAfter 13 c) (owedAfter_step c 12 (by decide)) hr) $$ [HO Hsl12 Hnx12 Hts12 Htn12]
  · isplitr; · iexact HIs12
    isplitr; · iexact HIn12
    isplitl [Hsl12]; · iexact Hsl12
    isplitl [Hnx12]; · iexact Hnx12
    isplitl [HO]; · iexact HO
    isplitl [Hts12]; · iexact Hts12
    isplitr; · iexact HRs12
    isplitl [Htn12]; · iexact Htn12
    iexact HRn12
  iintro ⟨Hcs12, HO⟩
  iapply (le_wp_ret _ _ _ _ _)
  isplitl [HO]; · iexact HO
  isplitl [Hcs02]; · iexact Hcs02
  iexact Hcs12

set_option maxRecDepth 65536 in
/-- Part 27: the third hop's transfer of the row sums; the partial sums' send is over, and they land in slot 3. -/
theorem part27_run (c : Dev nD) (v2 v5 v460 : BitVec 32) (κ : GSem nD τ sig → ℕ) (W : Waits sig Unit) (hr : τ.routes (c : Thread nD τ) (zr c : Thread nD τ) = true) :
    iprop(cellInv ER (Rd vo vm vl vg kin vin m) (κ (rsendCell c 2 2)) (rsendCell c 2 2)
        ∗ reached ER (rsendCell c 2 2) 0
        ∗ cellInv ER (Rd vo vm vl vg kin vin m) (κ (rrecvCell (zr c) 2 2)) (rrecvCell (zr c) 2 2)
        ∗ reached ER (rrecvCell (zr c) 2 2) 0
        ∗ cellInv ER (Rd vo vm vl vg kin vin m) (κ (rsendCell c 0 2)) (rsendCell c 0 2)
        ∗ MayWait (c : Thread nD τ) (.dma (sem3 (sendArr 0) 2)) () (owedAfter 14 c)
        ∗ cellInv ER (Rd vo vm vl vg kin vin m) (κ (rrecvCell c 0 2)) (rrecvCell c 0 2)
        ∗ MayWait (c : Thread nD τ) (.dma (sem3 (recvArr 0) 2)) () (owedAfter 14 c)
        ∗ owes (c : Thread nD τ) (owedAfter 13 c) W
        ∗ slotHolds vo vm vl c 2 2
        ∗ slotOwned (F := F) (zr c) 2 3
        ∗ dutyTok ER (rsendCell c 2 2) 0 0
        ∗ dutyTok ER (rrecvCell (zr c) 2 2) 0 0
        ∗ cred (tallyAt (rsendCell c 0 2) () (Nring 0))
        ∗ atPos ER (rsendCell c 0 2) 0 ∅ 0
        ∗ cred (tallyAt (rrecvCell c 0 2) () (Nring 0))
        ∗ atPos ER (rrecvCell c 0 2) 0 ∅ 0)
      ⊢ wp frame (wpE defs 𝒱 (c : Thread nD τ) none) Set.univ (k0_part27 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c v2 v5 v460) (fun _ =>
          iprop(owes (c : Thread nD τ) (owedAfter 14 c) (insert (SemLoc.dma (sem3 (recvArr 0) 2), ()) (insert (SemLoc.dma (sem3 (sendArr 0) 2), ()) W))
            ∗ cred (tallyAt (rsendCell c 2 2) () (Nring 2))
            ∗ atPos ER (rsendCell c 0 2) (0 + 1) ∅ 0
            ∗ slotHolds vo vm vl c 0 2
            ∗ atPos ER (rrecvCell c 0 2) (0 + 1) ∅ 0
            ∗ slotHolds vo vm vl c 0 3)) := by
  unfold k0_part27
  iintro ⟨#HIs22, #HRs22, #HIn22, #HRn22, #HIs02, #HMs02, #HIr02, #HMr02, HO, Hsl22, Hnx22, Hts22, Htn22, Hcs02, Hats02, Hcr02, Hatr02⟩
  iapply (ring_send_l vo vm vl vg kin vin m 𝒱 c 2 none (dev14_eq c) (owedAfter 14 c) (owedAfter_step c 13 (by decide)) hr) $$ [HO Hsl22 Hnx22 Hts22 Htn22]
  · isplitr; · iexact HIs22
    isplitr; · iexact HIn22
    isplitl [Hsl22]; · iexact Hsl22
    isplitl [Hnx22]; · iexact Hnx22
    isplitl [HO]; · iexact HO
    isplitl [Hts22]; · iexact Hts22
    isplitr; · iexact HRs22
    isplitl [Htn22]; · iexact Htn22
    iexact HRn22
  iintro ⟨Hcs22, HO⟩
  iapply (ring_swait vo vm vl vg kin vin m 𝒱 c 0 2 none (dst := oSlot 2) (oSlot_credit 2) (Set.mem_univ _)) $$ [Hcs02 HO Hats02]
  · isplitr; · iexact HIs02
    isplitl [Hcs02]; · iexact Hcs02
    isplitl [HO]; · iexact HO
    isplitr; · iexact HMs02
    iexact Hats02
  iintro ⟨HO, Hats02, -, Hsl02⟩
  iapply (ring_rwait vo vm vl vg kin vin m 𝒱 c 0 2 none (dst := oSlot 3) (oSlot_credit 3) (Set.mem_univ _)) $$ [Hcr02 HO Hatr02]
  · isplitr; · iexact HIr02
    isplitl [Hcr02]; · iexact Hcr02
    isplitl [HO]; · iexact HO
    isplitr; · iexact HMr02
    iexact Hatr02
  iintro ⟨HO, Hatr02, -, Hsl03⟩
  iapply (le_wp_ret _ _ _ _ _)
  isplitl [HO]; · iexact HO
  isplitl [Hcs22]; · iexact Hcs22
  isplitl [Hats02]; · iexact Hats02
  isplitl [Hsl02]; · iexact Hsl02
  isplitl [Hatr02]; · iexact Hatr02
  iexact Hsl03

set_option maxRecDepth 65536 in
/-- Part 28: the third hop's row maxima: the send is over and they land in slot 3; the row sums' send is over. -/
theorem part28_run (c : Dev nD) (v2 v5 v460 : BitVec 32) (κ : GSem nD τ sig → ℕ) (W : Waits sig Unit) :
    iprop(cellInv ER (Rd vo vm vl vg kin vin m) (κ (rsendCell c 1 2)) (rsendCell c 1 2)
        ∗ MayWait (c : Thread nD τ) (.dma (sem3 (sendArr 1) 2)) () (owedAfter 14 c)
        ∗ cellInv ER (Rd vo vm vl vg kin vin m) (κ (rrecvCell c 1 2)) (rrecvCell c 1 2)
        ∗ MayWait (c : Thread nD τ) (.dma (sem3 (recvArr 1) 2)) () (owedAfter 14 c)
        ∗ cellInv ER (Rd vo vm vl vg kin vin m) (κ (rsendCell c 2 2)) (rsendCell c 2 2)
        ∗ MayWait (c : Thread nD τ) (.dma (sem3 (sendArr 2) 2)) () (owedAfter 14 c)
        ∗ owes (c : Thread nD τ) (owedAfter 14 c) W
        ∗ cred (tallyAt (rsendCell c 1 2) () (Nring 1))
        ∗ atPos ER (rsendCell c 1 2) 0 ∅ 0
        ∗ cred (tallyAt (rrecvCell c 1 2) () (Nring 1))
        ∗ atPos ER (rrecvCell c 1 2) 0 ∅ 0
        ∗ cred (tallyAt (rsendCell c 2 2) () (Nring 2))
        ∗ atPos ER (rsendCell c 2 2) 0 ∅ 0)
      ⊢ wp frame (wpE defs 𝒱 (c : Thread nD τ) none) Set.univ (k0_part28 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 v2 v5 v460) (fun _ =>
          iprop(owes (c : Thread nD τ) (owedAfter 14 c) (insert (SemLoc.dma (sem3 (sendArr 2) 2), ()) (insert (SemLoc.dma (sem3 (recvArr 1) 2), ()) (insert (SemLoc.dma (sem3 (sendArr 1) 2), ()) W)))
            ∗ atPos ER (rsendCell c 1 2) (0 + 1) ∅ 0
            ∗ slotHolds vo vm vl c 1 2
            ∗ atPos ER (rrecvCell c 1 2) (0 + 1) ∅ 0
            ∗ slotHolds vo vm vl c 1 3
            ∗ atPos ER (rsendCell c 2 2) (0 + 1) ∅ 0
            ∗ slotHolds vo vm vl c 2 2)) := by
  unfold k0_part28
  iintro ⟨#HIs12, #HMs12, #HIr12, #HMr12, #HIs22, #HMs22, HO, Hcs12, Hats12, Hcr12, Hatr12, Hcs22, Hats22⟩
  iapply (ring_swait vo vm vl vg kin vin m 𝒱 c 1 2 none (dst := cSlot cmM 2) (cSlotM_credit 2) (Set.mem_univ _)) $$ [Hcs12 HO Hats12]
  · isplitr; · iexact HIs12
    isplitl [Hcs12]; · iexact Hcs12
    isplitl [HO]; · iexact HO
    isplitr; · iexact HMs12
    iexact Hats12
  iintro ⟨HO, Hats12, -, Hsl12⟩
  iapply (ring_rwait vo vm vl vg kin vin m 𝒱 c 1 2 none (dst := cSlot cmM 3) (cSlotM_credit 3) (Set.mem_univ _)) $$ [Hcr12 HO Hatr12]
  · isplitr; · iexact HIr12
    isplitl [Hcr12]; · iexact Hcr12
    isplitl [HO]; · iexact HO
    isplitr; · iexact HMr12
    iexact Hatr12
  iintro ⟨HO, Hatr12, -, Hsl13⟩
  iapply (ring_swait vo vm vl vg kin vin m 𝒱 c 2 2 none (dst := cSlot clM 2) (cSlotL_credit 2) (Set.mem_univ _)) $$ [Hcs22 HO Hats22]
  · isplitr; · iexact HIs22
    isplitl [Hcs22]; · iexact Hcs22
    isplitl [HO]; · iexact HO
    isplitr; · iexact HMs22
    iexact Hats22
  iintro ⟨HO, Hats22, -, Hsl22⟩
  iapply (le_wp_ret _ _ _ _ _)
  isplitl [HO]; · iexact HO
  isplitl [Hats12]; · iexact Hats12
  isplitl [Hsl12]; · iexact Hsl12
  isplitl [Hatr12]; · iexact Hatr12
  isplitl [Hsl13]; · iexact Hsl13
  isplitl [Hats22]; · iexact Hats22
  iexact Hsl22

set_option maxRecDepth 65536 in
/-- The last wait of the ring: the third hop's row sums land in slot 3. -/
theorem seg29Wait_run (c : Dev nD) (κ : GSem nD τ sig → ℕ) (W : Waits sig Unit) :
    iprop(cellInv ER (Rd vo vm vl vg kin vin m) (κ (rrecvCell c 2 2)) (rrecvCell c 2 2)
        ∗ MayWait (c : Thread nD τ) (.dma (sem3 (recvArr 2) 2)) () (owedAfter 14 c)
        ∗ owes (c : Thread nD τ) (owedAfter 14 c) W
        ∗ cred (tallyAt (rrecvCell c 2 2) () (Nring 2))
        ∗ atPos ER (rrecvCell c 2 2) 0 ∅ 0)
      ⊢ wp frame (wpE defs 𝒱 (c : Thread nD τ) none) Set.univ (seg29Wait (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13) (fun _ =>
          iprop(owes (c : Thread nD τ) (owedAfter 14 c) (insert (SemLoc.dma (sem3 (recvArr 2) 2), ()) W)
            ∗ atPos ER (rrecvCell c 2 2) (0 + 1) ∅ 0
            ∗ slotHolds vo vm vl c 2 3)) := by
  unfold seg29Wait
  iintro ⟨#HIr22, #HMr22, HO, Hcr22, Hatr22⟩
  iapply (ring_rwait vo vm vl vg kin vin m 𝒱 c 2 2 none (dst := cSlot clM 3) (cSlotL_credit 3) (Set.mem_univ _)) $$ [Hcr22 HO Hatr22]
  · isplitr; · iexact HIr22
    isplitl [Hcr22]; · iexact Hcr22
    isplitl [HO]; · iexact HO
    isplitr; · iexact HMr22
    iexact Hatr22
  iintro ⟨HO, Hatr22, -, Hsl23⟩
  iapply (le_wp_ret _ _ _ _ _)
  isplitl [HO]; · iexact HO
  isplitl [Hatr22]; · iexact Hatr22
  iexact Hsl23

set_option maxRecDepth 65536 in
/-- Part 32: the first partner's row lands and makes, with the device's own, its pair of rows; the second exchange sends that pair. -/
theorem part32_run (c : Dev nD) (v2 v8 v464 v465 : BitVec 32) (κ : GSem nD τ sig → ℕ) (W : Waits sig Unit) (hr1 : τ.routes (c : Thread nD τ) (p1 c : Thread nD τ) = true) :
    iprop(cellInv ER (Rd vo vm vl vg kin vin m) (κ (grecvCell c 0)) (grecvCell c 0)
        ∗ MayWait (c : Thread nD τ) (.dma (sem3 cc0_scratch13 0)) () (owedAfter 15 c)
        ∗ cellInv ER (Rd vo vm vl vg kin vin m) (κ (gsendCell c 1)) (gsendCell c 1)
        ∗ reached ER (gsendCell c 1) 0
        ∗ cellInv ER (Rd vo vm vl vg kin vin m) (κ (grecvCell (p1 c) 1)) (grecvCell (p1 c) 1)
        ∗ reached ER (grecvCell (p1 c) 1) 0
        ∗ owes (c : Thread nD τ) (owedAfter 15 c) W
        ∗ cred (tallyAt (grecvCell c 0) () (Nrows (partner 0 c) 0))
        ∗ atPos ER (grecvCell c 0) 0 ∅ 0
        ∗ rowsHold vg c c 0
        ∗ rowsOwned (F := F) (p1 c) c 1
        ∗ dutyTok ER (gsendCell c 1) 0 0
        ∗ dutyTok ER (grecvCell (p1 c) 1) 0 0)
      ⊢ wp frame (wpE defs 𝒱 (c : Thread nD τ) none) Set.univ (k0_part32 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c v2 v8 v464 v465) (fun _ =>
          iprop(owes (c : Thread nD τ) (owedAfter 16 c) (insert (SemLoc.dma (sem3 cc0_scratch13 0), ()) W)
            ∗ atPos ER (grecvCell c 0) (0 + 1) ∅ 0
            ∗ cred (tallyAt (gsendCell c 1) () (Nrows c 1)))) := by
  unfold k0_part32
  iintro ⟨#HIgr0, #HMgr0, #HIgs1, #HRgs1, #HIgn1, #HRgn1, HO, Hcgr0, Hatgr0, Hrw0, Hpr1, Htgs1, Htgn1⟩
  iapply (gath_rwait vo vm vl vg kin vin m 𝒱 c 0 none (dst := row1 c) (row1_credit c (partner 0 c)) (Set.mem_univ _)) $$ [Hcgr0 HO Hatgr0]
  · isplitr; · iexact HIgr0
    isplitl [Hcgr0]; · iexact Hcgr0
    isplitl [HO]; · iexact HO
    isplitr; · iexact HMgr0
    iexact Hatgr0
  iintro ⟨HO, Hatgr0, -, Hrp0⟩
  ihave Hrw1 := (rows_join_0 vg c) $$ [Hrw0 Hrp0]
  · isplitl [Hrw0]; · iexact Hrw0
    iexact Hrp0
  iapply (gath_send_1 vo vm vl vg kin vin m 𝒱 c none (dev16_eq c) (owedAfter 16 c) (owedAfter_step c 15 (by decide)) hr1) $$ [HO Hrw1 Hpr1 Htgs1 Htgn1]
  · isplitr; · iexact HIgs1
    isplitr; · iexact HIgn1
    isplitl [Hrw1]; · iexact Hrw1
    isplitl [Hpr1]; · iexact Hpr1
    isplitl [HO]; · iexact HO
    isplitl [Htgs1]; · iexact Htgs1
    isplitr; · iexact HRgs1
    isplitl [Htgn1]; · iexact Htgn1
    iexact HRgn1
  iintro ⟨Hcgs1, HO⟩
  iapply (le_wp_ret _ _ _ _ _)
  isplitl [HO]; · iexact HO
  isplitl [Hatgr0]; · iexact Hatgr0
  iexact Hcgs1

set_option maxRecDepth 65536 in
/-- Part 33: the second exchange's send is over; the second partner's pair lands and makes, with the device's own, its quadruple of rows; the third exchange sends that quadruple. -/
theorem part33_run (c : Dev nD) (v2 v5 v8 v465 v466 : BitVec 32) (κ : GSem nD τ sig → ℕ) (W : Waits sig Unit) (hr2 : τ.routes (c : Thread nD τ) (p2 c : Thread nD τ) = true) :
    iprop(cellInv ER (Rd vo vm vl vg kin vin m) (κ (gsendCell c 1)) (gsendCell c 1)
        ∗ MayWait (c : Thread nD τ) (.dma (sem3 cc0_scratch12 1)) () (owedAfter 16 c)
        ∗ cellInv ER (Rd vo vm vl vg kin vin m) (κ (grecvCell c 1)) (grecvCell c 1)
        ∗ MayWait (c : Thread nD τ) (.dma (sem3 cc0_scratch13 1)) () (owedAfter 16 c)
        ∗ cellInv ER (Rd vo vm vl vg kin vin m) (κ (gsendCell c 2)) (gsendCell c 2)
        ∗ reached ER (gsendCell c 2) 0
        ∗ cellInv ER (Rd vo vm vl vg kin vin m) (κ (grecvCell (p2 c) 2)) (grecvCell (p2 c) 2)
        ∗ reached ER (grecvCell (p2 c) 2) 0
        ∗ owes (c : Thread nD τ) (owedAfter 16 c) W
        ∗ cred (tallyAt (gsendCell c 1) () (Nrows c 1))
        ∗ atPos ER (gsendCell c 1) 0 ∅ 0
        ∗ cred (tallyAt (grecvCell c 1) () (Nrows (partner 1 c) 1))
        ∗ atPos ER (grecvCell c 1) 0 ∅ 0
        ∗ rowsOwned (F := F) (p2 c) c 2
        ∗ dutyTok ER (gsendCell c 2) 0 0
        ∗ dutyTok ER (grecvCell (p2 c) 2) 0 0)
      ⊢ wp frame (wpE defs 𝒱 (c : Thread nD τ) none) Set.univ (k0_part33 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c v2 v5 v8 v465 v466) (fun _ =>
          iprop(owes (c : Thread nD τ) (owedAfter 17 c) (insert (SemLoc.dma (sem3 cc0_scratch13 1), ()) (insert (SemLoc.dma (sem3 cc0_scratch12 1), ()) W))
            ∗ atPos ER (gsendCell c 1) (0 + 1) ∅ 0
            ∗ atPos ER (grecvCell c 1) (0 + 1) ∅ 0
            ∗ cred (tallyAt (gsendCell c 2) () (Nrows c 2)))) := by
  unfold k0_part33
  iintro ⟨#HIgs1, #HMgs1, #HIgr1, #HMgr1, #HIgs2, #HRgs2, #HIgn2, #HRgn2, HO, Hcgs1, Hatgs1, Hcgr1, Hatgr1, Hpr2, Htgs2, Htgn2⟩
  iapply (gath_swait vo vm vl vg kin vin m 𝒱 c 1 none (dst := row2 c) (row2_credit c c) (Set.mem_univ _)) $$ [Hcgs1 HO Hatgs1]
  · isplitr; · iexact HIgs1
    isplitl [Hcgs1]; · iexact Hcgs1
    isplitl [HO]; · iexact HO
    isplitr; · iexact HMgs1
    iexact Hatgs1
  iintro ⟨HO, Hatgs1, -, Hrw1⟩
  iapply (gath_rwait vo vm vl vg kin vin m 𝒱 c 1 none (dst := row2 c) (row2_credit c (partner 1 c)) (Set.mem_univ _)) $$ [Hcgr1 HO Hatgr1]
  · isplitr; · iexact HIgr1
    isplitl [Hcgr1]; · iexact Hcgr1
    isplitl [HO]; · iexact HO
    isplitr; · iexact HMgr1
    iexact Hatgr1
  iintro ⟨HO, Hatgr1, -, Hrp1⟩
  ihave Hrw2 := (rows_join_1 vg c) $$ [Hrw1 Hrp1]
  · isplitl [Hrw1]; · iexact Hrw1
    iexact Hrp1
  iapply (gath_send_2 vo vm vl vg kin vin m 𝒱 c none (dev17_eq c) (owedAfter 17 c) (owedAfter_step c 16 (by decide)) hr2) $$ [HO Hrw2 Hpr2 Htgs2 Htgn2]
  · isplitr; · iexact HIgs2
    isplitr; · iexact HIgn2
    isplitl [Hrw2]; · iexact Hrw2
    isplitl [Hpr2]; · iexact Hpr2
    isplitl [HO]; · iexact HO
    isplitl [Htgs2]; · iexact Htgs2
    isplitr; · iexact HRgs2
    isplitl [Htgn2]; · iexact Htgn2
    iexact HRgn2
  iintro ⟨Hcgs2, HO⟩
  iapply (le_wp_ret _ _ _ _ _)
  isplitl [HO]; · iexact HO
  isplitl [Hatgs1]; · iexact Hatgs1
  isplitl [Hatgr1]; · iexact Hatgr1
  iexact Hcgs2

set_option maxRecDepth 65536 in
/-- The end of the body: the third exchange's send is over; the third partner's quadruple lands, and the result staging buffer is whole again, holding the gathered result. -/
theorem segExit_run (c : Dev nD) (κ : GSem nD τ sig → ℕ) (W : Waits sig Unit) :
    iprop(cellInv ER (Rd vo vm vl vg kin vin m) (κ (gsendCell c 2)) (gsendCell c 2)
        ∗ MayWait (c : Thread nD τ) (.dma (sem3 cc0_scratch12 2)) () (owedAfter 17 c)
        ∗ cellInv ER (Rd vo vm vl vg kin vin m) (κ (grecvCell c 2)) (grecvCell c 2)
        ∗ MayWait (c : Thread nD τ) (.dma (sem3 cc0_scratch13 2)) () (owedAfter 17 c)
        ∗ owes (c : Thread nD τ) (owedAfter 17 c) W
        ∗ cred (tallyAt (gsendCell c 2) () (Nrows c 2))
        ∗ atPos ER (gsendCell c 2) 0 ∅ 0
        ∗ cred (tallyAt (grecvCell c 2) () (Nrows (partner 2 c) 2))
        ∗ atPos ER (grecvCell c 2) 0 ∅ 0)
      ⊢ wp frame (wpE defs 𝒱 (c : Thread nD τ) none) Set.univ (segExit (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c) (fun _ =>
          iprop(owes (c : Thread nD τ) (owedAfter 17 c) (insert (SemLoc.dma (sem3 cc0_scratch13 2), ()) (insert (SemLoc.dma (sem3 cc0_scratch12 2), ()) W))
            ∗ atPos ER (gsendCell c 2) (0 + 1) ∅ 0
            ∗ atPos ER (grecvCell c 2) (0 + 1) ∅ 0
            ∗ (outM.view.loc (c : Thread nD τ) ↦{fullShare} (vg (c.val % 4))))) := by
  unfold segExit
  iintro ⟨#HIgs2, #HMgs2, #HIgr2, #HMgr2, HO, Hcgs2, Hatgs2, Hcgr2, Hatgr2⟩
  iapply (gath_swait vo vm vl vg kin vin m 𝒱 c 2 none (dst := row4 c) (row4_credit c c) (Set.mem_univ _)) $$ [Hcgs2 HO Hatgs2]
  · isplitr; · iexact HIgs2
    isplitl [Hcgs2]; · iexact Hcgs2
    isplitl [HO]; · iexact HO
    isplitr; · iexact HMgs2
    iexact Hatgs2
  iintro ⟨HO, Hatgs2, -, Hrw2⟩
  iapply (gath_rwait vo vm vl vg kin vin m 𝒱 c 2 none (dst := row4 c) (row4_credit c (partner 2 c)) (Set.mem_univ _)) $$ [Hcgr2 HO Hatgr2]
  · isplitr; · iexact HIgr2
    isplitl [Hcgr2]; · iexact Hcgr2
    isplitl [HO]; · iexact HO
    isplitr; · iexact HMgr2
    iexact Hatgr2
  iintro ⟨HO, Hatgr2, -, Hrp2⟩
  ihave Hrw3 := (rows_join_2 vg c) $$ [Hrw2 Hrp2]
  · isplitl [Hrw2]; · iexact Hrw2
    iexact Hrp2
  iapply (le_wp_ret _ _ _ _ _)
  isplitl [HO]; · iexact HO
  isplitl [Hatgs2]; · iexact Hatgs2
  isplitl [Hatgr2]; · iexact Hatgr2
  iexact Hrw3

end Parts

/-! ### The merged row is stored, and the first exchange starts -/

section Store

open Cert.KernelIdeal.FD
open Cert.KernelIdeal.Mesh (zr zl p0 p1 p2 off18_eq' off19_eq' dev15_eq)
open Idealize.ShloMosaic.Rounds

variable {F : FTy → Type} [FloatOps F]

local notation "𝕄" => MT nD τ sig Unit (Elt F) ℕ UU ℕ

variable (vo : Dev nD → S8x16x128.Idx → Elt F .f32) (vm vl : Dev nD → S8x16x1.Idx → Elt F .f32)
variable (vg : ℕ → S8x8x16x128.Idx → Elt F .f32) (kin vin : Dev nD → S1024x16x128.Idx → Elt F .f32)
variable (m : (ℓ : Loc nD τ sig) → Buf (Elt F) ℓ)
variable {Λ : Labels} {defs : Defs nD τ sig (Elt F) Λ} (𝒱 : Variants)

/-- A load through a rectangle of a buffer whose elements under that rectangle the device owns (named through a slice at
    offsets that are the load's): whatever is read, the elements stay owned. -/
theorem load_owned {α : Type} {Q : α → sProp 𝕄} (c : Dev nD) {s : Shape} (M : Memref sig .tc .vmem s .f32) {off off' size : Fin s.rank → ℕ} (h : off = off')
    (inb : ∀ a, off a + size a ≤ s.size a) (inb' : ∀ a, off' a + size a ≤ s.size a) (bd : Option 𝒱.V) {Es : Set ℕ}
    {hl : M.view.LoadsAt (Rect.unit off size inb).toLoadRect}
    {k : ((Rect.unit off size inb).shape.Idx → Elt F .f32) → Prog (TpuEff nD τ sig (Elt F) Λ (c : Thread nD τ).2) α} :
    owned (F := F) c (M.slice (Rect.unit off' size inb') (fun _ => rfl))
      ⊢ iprop((∀ v, owned (F := F) c (M.slice (Rect.unit off' size inb') (fun _ => rfl)) -∗ wp frame (wpE defs 𝒱 (c : Thread nD τ) bd) Es (k v) Q)
          -∗ wp frame (wpE defs 𝒱 (c : Thread nD τ) bd) Es (.op (.load M (Rect.unit off size inb).toLoadRect hl) k) Q) := by
  subst h
  unfold owned
  iintro ⟨%f, H⟩ Hk
  iapply (wp_load_rect (defs := defs) (Q := Q) (k := k) 𝒱 (c : Thread nD τ) bd Es (m := M) (r := Rect.unit off size inb)
    (S := (M.access (Rect.unit off size inb)).set) (q := fullShare) (f := f) subset_rfl) $$ H
  iintro H
  iapply Hk $$ %((M.access (Rect.unit off size inb)).read (Elt F) f)
  iexists f
  iexact H

/-- A store of `w` through a rectangle of a buffer whose elements under that rectangle the device owns: afterwards they hold `w`. -/
theorem store_owned {α : Type} {Q : α → sProp 𝕄} (c : Dev nD) {s : Shape} (M : Memref sig .tc .vmem s .f32) {off off' size : Fin s.rank → ℕ} (h : off = off')
    (inb : ∀ a, off a + size a ≤ s.size a) (inb' : ∀ a, off' a + size a ≤ s.size a) (bd : Option 𝒱.V) {Es : Set ℕ}
    (w : (Rect.unit off size inb).shape.Idx → Elt F .f32)
    {hx : (M.access (Rect.unit off size inb)).Stores Finset.univ} {hm : (Finset.univ : Finset (Rect.unit off size inb).shape.Idx) = Finset.univ ∨ ∀ a, (Rect.unit off size inb).stride a = 1}
    {k : PUnit → Prog (TpuEff nD τ sig (Elt F) Λ (c : Thread nD τ).2) α} :
    owned (F := F) c (M.slice (Rect.unit off' size inb') (fun _ => rfl))
      ⊢ iprop((holds c (M.slice (Rect.unit off' size inb') (fun _ => rfl)) w -∗ wp frame (wpE defs 𝒱 (c : Thread nD τ) bd) Es (k ⟨⟩) Q)
          -∗ wp frame (wpE defs 𝒱 (c : Thread nD τ) bd) Es (.op (.store M (Rect.unit off size inb) w Finset.univ hx hm) k) Q) := by
  subst h
  unfold owned holds
  iintro ⟨%f, H⟩ Hk
  iapply (wp_store (defs := defs) (Q := Q) (k := k) 𝒱 (c : Thread nD τ) bd Es (m := M) (r := Rect.unit off size inb) (w := w) (Mk := Finset.univ)
    (S := (M.access (Rect.unit off size inb)).set) (f := f) (by rw [View.setOn_univ])) $$ H
  iintro H
  iapply Hk
  iexists ((M.access (Rect.unit off size inb)).write (Elt F) f w Finset.univ)
  isplitl [H]; · iexact H
  ipureintro
  exact View.read_write_univ _ _

omit [FloatOps F] in
theorem off18_eq_off19 (c : Dev nD) : k0_off18 c = k0_off19 c := (off18_eq' c).trans (off19_eq' c).symm

set_option maxRecDepth 65536 in
/-- After the merge: the merged row `w`, which is the device's row of the gathered result, is stored into the device's own row of
    the result staging buffer; the first exchange sends it to the first partner, and its send is waited for. -/
theorem seg31Tail_run {defs : Defs nD τ sig (Elt F) Λ₀} (c : Dev nD) (w : FVec F S1x8x16x128 .f32)
    (hw : (row1 c).view.read (Elt F) (vg (c.val % 4)) = w)
    (κ : GSem nD τ sig → ℕ) (W : Waits sig Unit) (hr0 : τ.routes (c : Thread nD τ) (p0 c : Thread nD τ) = true) :
    iprop(cellInv ER (Rd vo vm vl vg kin vin m) (κ (gsendCell c 0)) (gsendCell c 0) ∗ reached ER (gsendCell c 0) 0
        ∗ cellInv ER (Rd vo vm vl vg kin vin m) (κ (grecvCell (p0 c) 0)) (grecvCell (p0 c) 0) ∗ reached ER (grecvCell (p0 c) 0) 0
        ∗ MayWait (c : Thread nD τ) (.dma (sem3 cc0_scratch12 0)) () (owedAfter 15 c)
        ∗ owes (c : Thread nD τ) (owedAfter 14 c) W
        ∗ owned (F := F) c (row1 c) ∗ rowsOwned (F := F) (p0 c) c 0
        ∗ dutyTok ER (gsendCell c 0) 0 0 ∗ dutyTok ER (grecvCell (p0 c) 0) 0 0
        ∗ atPos ER (gsendCell c 0) 0 ∅ 0)
      ⊢ wp frame (wpE defs 𝒱 (c : Thread nD τ) none) Set.univ (seg31Tail (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c w) (fun _ =>
          iprop(owes (c : Thread nD τ) (owedAfter 15 c) (insert (SemLoc.dma (sem3 cc0_scratch12 0), ()) W)
            ∗ atPos ER (gsendCell c 0) (0 + 1) ∅ 0
            ∗ rowsHold vg c c 0)) := by
  unfold seg31Tail
  iintro ⟨#HIgs, #HRgs, #HIgn, #HRgn, #HMgs, HO, Hrow, Hpr, Htgs, Htgn, Hatgs⟩
  iapply (load_owned 𝒱 c outM (off18_eq_off19 c) (Gen.k0_off18_inb c) (Gen.k0_off19_inb c) none) $$ Hrow
  iintro %v853 Hrow
  iapply (store_owned 𝒱 c outM (off18_eq_off19 c) (Gen.k0_off18_inb c) (Gen.k0_off19_inb c) none w) $$ Hrow
  iintro Hrow
  have e : (holds c (row1 c) w : sProp 𝕄) ⊢ rowsHold vg c c 0 :=
    Entails.of_eq (by rw [show (rowsHold vg c c 0 : sProp 𝕄) = holds c (row1 c) ((row1 c).view.read (Elt F) (vg (c.val % 4))) from rfl, hw])
  ihave Hrw := e $$ Hrow
  iapply (gath_send_0 vo vm vl vg kin vin m 𝒱 c none (dev15_eq c) (owedAfter 15 c) (owedAfter_step c 14 (by decide)) hr0) $$ [HO Hrw Hpr Htgs Htgn]
  · isplitr; · iexact HIgs
    isplitr; · iexact HIgn
    isplitl [Hrw]; · iexact Hrw
    isplitl [Hpr]; · iexact Hpr
    isplitl [HO]; · iexact HO
    isplitl [Htgs]; · iexact Htgs
    isplitr; · iexact HRgs
    isplitl [Htgn]; · iexact Htgn
    iexact HRgn
  iintro ⟨Hcgs, HO⟩
  iapply (gath_swait vo vm vl vg kin vin m 𝒱 c 0 none (dst := row1 c) (row1_credit c c) (Set.mem_univ _)) $$ [Hcgs HO Hatgs]
  · isplitr; · iexact HIgs
    isplitl [Hcgs]; · iexact Hcgs
    isplitl [HO]; · iexact HO
    isplitr; · iexact HMgs
    iexact Hatgs
  iintro ⟨HO, Hatgs, -, Hrw⟩
  iapply (le_wp_ret _ _ _ _ _)
  isplitl [HO]; · iexact HO
  isplitl [Hatgs]; · iexact Hatgs
  iexact Hrw

end Store

/-! ### Before the first signal: the buffers cut, and what each signal hands over put together -/

section Entry

open Cert.KernelIdeal.FD
open Cert.KernelIdeal.Mesh (zr zl zr_zl zl_zr p0 p1 p2 p0_p0 p1_p1 p2_p2)
open Idealize.ShloMosaic.Rounds

variable {F : FTy → Type} [FloatOps F]

local notation "𝕄" => MT nD τ sig Unit (Elt F) ℕ UU ℕ

omit [FloatOps F] in
/-- The result staging buffer held whole, at any contents, is the device's own row and the rows it lends its three partners. -/
theorem out_entry (c : Dev nD) (f : Buf (Elt F) (outM.view.loc (c : Thread nD τ))) :
    (outM.view.loc (c : Thread nD τ) ↦{fullShare} f : sProp 𝕄)
      ⊢ iprop(owned (F := F) c (row1 c) ∗ rowsOwned (F := F) c (p0 c) 0 ∗ rowsOwned (F := F) c (p1 c) 1 ∗ rowsOwned (F := F) c (p2 c) 2) := by
  have e1 : (rowsOwned (F := F) c (p0 c) 0 : sProp 𝕄) = owned c (row1 (p0 c)) := rfl
  have e2 : (rowsOwned (F := F) c (p1 c) 1 : sProp 𝕄) = owned c (row2 (p1 c)) := rfl
  have e3 : (rowsOwned (F := F) c (p2 c) 2 : sProp 𝕄) = owned c (row4 (p2 c)) := rfl
  rw [e1, e2, e3, out_cut c c outM (Memref.isWhole_whole _) fullShare f]
  unfold owned
  iintro ⟨H0, H1, H2, H3⟩
  isplitl [H0]; · iexists f; iexact H0
  isplitl [H1]; · iexists f; iexact H1
  isplitl [H2]; · iexists f; iexact H2
  iexists f; iexact H3

omit [FloatOps F] in
/-- What the device's first signal hands the previous device along z: the device's own slots 1, 2, 3 and that it stands at round 0
    of its nine ring receive cells. -/
theorem barPay_zl_intro (c : Dev nD) :
    iprop((slotOwned (F := F) c 0 (0 : Fin 3).succ ∗ slotOwned (F := F) c 0 (1 : Fin 3).succ ∗ slotOwned (F := F) c 0 (2 : Fin 3).succ
          ∗ slotOwned (F := F) c 1 (0 : Fin 3).succ ∗ slotOwned (F := F) c 1 (1 : Fin 3).succ ∗ slotOwned (F := F) c 1 (2 : Fin 3).succ
          ∗ slotOwned (F := F) c 2 (0 : Fin 3).succ ∗ slotOwned (F := F) c 2 (1 : Fin 3).succ ∗ slotOwned (F := F) c 2 (2 : Fin 3).succ)
        ∗ bigSep Finset.univ fun b : Fin 3 => bigSep Finset.univ fun h : Fin 3 => reached ER (rrecvCell c b h) 0)
      ⊢ barPay (F := F) (zl c) 0 := by
  show _ ⊢ iprop((bigSep Finset.univ fun b : Fin 3 => bigSep Finset.univ fun h : Fin 3 => slotOwned (F := F) (zr (zl c)) b h.succ)
        ∗ bigSep Finset.univ fun b : Fin 3 => bigSep Finset.univ fun h : Fin 3 => reached ER (rrecvCell (zr (zl c)) b h) 0)
  rw [zr_zl, Ring.bigSep_fin3 (fun b : Fin 3 => bigSep Finset.univ fun h : Fin 3 => slotOwned (F := F) c b h.succ)]
  simp only [Ring.bigSep_fin3 (fun h : Fin 3 => slotOwned (F := F) c _ h.succ)]
  iintro ⟨⟨H01, H02, H03, H11, H12, H13, H21, H22, H23⟩, Hr⟩
  isplitr [Hr]
  · isplitl [H01 H02 H03]
    · isplitl [H01]; · iexact H01
      isplitl [H02]; · iexact H02
      iexact H03
    isplitl [H11 H12 H13]
    · isplitl [H11]; · iexact H11
      isplitl [H12]; · iexact H12
      iexact H13
    isplitl [H21]; · iexact H21
    isplitl [H22]; · iexact H22
    iexact H23
  · iexact Hr

omit [FloatOps F] in
/-- What the device's signal to its partner of exchange 0, 1, 2 hands that partner: the rows of the device's own result staging
    buffer that the partner writes, and that the device stands at round 0 of that exchange's receive cell. -/
theorem barPay_p0_intro (c : Dev nD) : iprop(rowsOwned (F := F) c (p0 c) 0 ∗ reached ER (grecvCell c 0) 0) ⊢ barPay (F := F) (p0 c) 2 := by
  show _ ⊢ iprop(rowsOwned (F := F) (p0 (p0 c)) (p0 c) 0 ∗ reached ER (grecvCell (p0 (p0 c)) 0) 0)
  rw [p0_p0]
omit [FloatOps F] in
theorem barPay_p1_intro (c : Dev nD) : iprop(rowsOwned (F := F) c (p1 c) 1 ∗ reached ER (grecvCell c 1) 0) ⊢ barPay (F := F) (p1 c) 3 := by
  show _ ⊢ iprop(rowsOwned (F := F) (p1 (p1 c)) (p1 c) 1 ∗ reached ER (grecvCell (p1 (p1 c)) 1) 0)
  rw [p1_p1]
omit [FloatOps F] in
theorem barPay_p2_intro (c : Dev nD) : iprop(rowsOwned (F := F) c (p2 c) 2 ∗ reached ER (grecvCell c 2) 0) ⊢ barPay (F := F) (p2 c) 4 := by
  show _ ⊢ iprop(rowsOwned (F := F) (p2 (p2 c)) (p2 c) 2 ∗ reached ER (grecvCell (p2 (p2 c)) 2) 0)
  rw [p2_p2]
omit [FloatOps F] in
/-- The signal to the next device along z hands it nothing. -/
theorem barPay_zr_intro (c : Dev nD) : (emp : sProp 𝕄) ⊢ barPay (F := F) (zr c) 1 := .rfl

end Entry

/-! ### The ring buffers before the first signal and after the last hop -/

section RingEntry

open Cert.KernelIdeal.FD
open Cert.KernelIdeal.Facts₀ Cert.KernelIdeal.Facts

variable {F : FTy → Type} [FloatOps F]

local notation "𝕄" => MT nD τ sig Unit (Elt F) ℕ UU ℕ

variable (vo : Dev nD → S8x16x128.Idx → Elt F .f32) (vm vl : Dev nD → S8x16x1.Idx → Elt F .f32)

omit [FloatOps F] in
/-- The partial-sum buffer held whole, its slot 0 reading the device's own partial sums, is slot 0 holding them and slots 1, 2, 3 owned. -/
theorem ringO_entry (c : Dev nD) (f : Buf (Elt F) (coM.view.loc (c : Thread nD τ))) (h0 : (oSlot 0).view.read (Elt F) f = vo c) :
    (coM.view.loc (c : Thread nD τ) ↦{fullShare} f : sProp 𝕄)
      ⊢ iprop(slotHolds vo vm vl c 0 0 ∗ slotOwned (F := F) c 0 1 ∗ slotOwned (F := F) c 0 2 ∗ slotOwned (F := F) c 0 3) := by
  have e0 : (slotHolds vo vm vl c 0 0 : sProp 𝕄) = holds c (oSlot 0) (vo c) := rfl
  have e1 : (slotOwned (F := F) c 0 1 : sProp 𝕄) = owned c (oSlot 1) := rfl
  have e2 : (slotOwned (F := F) c 0 2 : sProp 𝕄) = owned c (oSlot 2) := rfl
  have e3 : (slotOwned (F := F) c 0 3 : sProp 𝕄) = owned c (oSlot 3) := rfl
  rw [e0, e1, e2, e3, ringO_slots c coM (Memref.isWhole_whole _) fullShare f]
  unfold holds owned
  iintro ⟨H0, H1, H2, H3⟩
  isplitl [H0]
  · iexists f
    isplitl [H0]; · iexact H0
    ipureintro; exact h0
  isplitl [H1]; · iexists f; iexact H1
  isplitl [H2]; · iexists f; iexact H2
  iexists f; iexact H3

omit [FloatOps F] in
/-- The row-maximum buffer held whole, its slot 0 reading the device's own row maxima, is slot 0 holding them and slots 1, 2, 3 owned. -/
theorem ringM_entry (c : Dev nD) (f : Buf (Elt F) (cmM.view.loc (c : Thread nD τ))) (h0 : (cSlot cmM 0).view.read (Elt F) f = vm c) :
    (cmM.view.loc (c : Thread nD τ) ↦{fullShare} f : sProp 𝕄)
      ⊢ iprop(slotHolds vo vm vl c 1 0 ∗ slotOwned (F := F) c 1 1 ∗ slotOwned (F := F) c 1 2 ∗ slotOwned (F := F) c 1 3) := by
  have e0 : (slotHolds vo vm vl c 1 0 : sProp 𝕄) = holds c (cSlot cmM 0) (vm c) := rfl
  have e1 : (slotOwned (F := F) c 1 1 : sProp 𝕄) = owned c (cSlot cmM 1) := rfl
  have e2 : (slotOwned (F := F) c 1 2 : sProp 𝕄) = owned c (cSlot cmM 2) := rfl
  have e3 : (slotOwned (F := F) c 1 3 : sProp 𝕄) = owned c (cSlot cmM 3) := rfl
  rw [e0, e1, e2, e3, ringM_slots c cmM (Memref.isWhole_whole _) fullShare f]
  unfold holds owned
  iintro ⟨H0, H1, H2, H3⟩
  isplitl [H0]
  · iexists f
    isplitl [H0]; · iexact H0
    ipureintro; exact h0
  isplitl [H1]; · iexists f; iexact H1
  isplitl [H2]; · iexists f; iexact H2
  iexists f; iexact H3

omit [FloatOps F] in
/-- The row-sum buffer held whole, its slot 0 reading the device's own row sums, is slot 0 holding them and slots 1, 2, 3 owned. -/
theorem ringL_entry (c : Dev nD) (f : Buf (Elt F) (clM.view.loc (c : Thread nD τ))) (h0 : (cSlot clM 0).view.read (Elt F) f = vl c) :
    (clM.view.loc (c : Thread nD τ) ↦{fullShare} f : sProp 𝕄)
      ⊢ iprop(slotHolds vo vm vl c 2 0 ∗ slotOwned (F := F) c 2 1 ∗ slotOwned (F := F) c 2 2 ∗ slotOwned (F := F) c 2 3) := by
  have e0 : (slotHolds vo vm vl c 2 0 : sProp 𝕄) = holds c (cSlot clM 0) (vl c) := rfl
  have e1 : (slotOwned (F := F) c 2 1 : sProp 𝕄) = owned c (cSlot clM 1) := rfl
  have e2 : (slotOwned (F := F) c 2 2 : sProp 𝕄) = owned c (cSlot clM 2) := rfl
  have e3 : (slotOwned (F := F) c 2 3 : sProp 𝕄) = owned c (cSlot clM 3) := rfl
  rw [e0, e1, e2, e3, ringM_slots c clM (Memref.isWhole_whole _) fullShare f]
  unfold holds owned
  iintro ⟨H0, H1, H2, H3⟩
  isplitl [H0]
  · iexists f
    isplitl [H0]; · iexact H0
    ipureintro; exact h0
  isplitl [H1]; · iexists f; iexact H1
  isplitl [H2]; · iexists f; iexact H2
  iexists f; iexact H3

end RingEntry

section RingExit

open Cert.KernelIdeal.FD
open Cert.KernelIdeal.Facts₀ Cert.KernelIdeal.Facts

variable {F : FTy → Type} [FloatOps F]

local notation "𝕄" => MT nD τ sig Unit (Elt F) ℕ UU ℕ

variable (vo : Dev nD → S8x16x128.Idx → Elt F .f32) (vm vl : Dev nD → S8x16x1.Idx → Elt F .f32)

omit [FloatOps F] in
/-- After the last hop the four slots of the partial-sum buffer join to the buffer held whole, each slot reading what it held. -/
theorem ringO_exit (c : Dev nD) :
    iprop(slotHolds vo vm vl c 0 0 ∗ slotHolds vo vm vl c 0 1 ∗ slotHolds vo vm vl c 0 2 ∗ slotHolds vo vm vl c 0 3)
      ⊢ iprop(∃ g : Buf (Elt F) (coM.view.loc (c : Thread nD τ)), (coM.view.loc (c : Thread nD τ) ↦{fullShare} g)
          ∗ ⌜(oSlot 0).view.read (Elt F) g = vo (back 0 c) ∧ (oSlot 1).view.read (Elt F) g = vo (back 1 c)
            ∧ (oSlot 2).view.read (Elt F) g = vo (back 2 c) ∧ (oSlot 3).view.read (Elt F) g = vo (back 3 c)⌝) := by
  have inb : ∀ (b : Fin 4) (a : Fin 4), (![b.val, 0, 0, 0] : Fin 4 → ℕ) a + S1x8x16x128.size a ≤ S4x8x16x128.size a := by decide
  have hs0 : (oSlot 0).view.set = (coM.view.slice (Rect.unit (s := S4x8x16x128) ![(0 : Fin 4).val, 0, 0, 0] S1x8x16x128.size (inb 0))).set := View.set_reshape _ _
  have hs1 : (oSlot 1).view.set = (coM.view.slice (Rect.unit (s := S4x8x16x128) ![(1 : Fin 4).val, 0, 0, 0] S1x8x16x128.size (inb 1))).set := View.set_reshape _ _
  have hs2 : (oSlot 2).view.set = (coM.view.slice (Rect.unit (s := S4x8x16x128) ![(2 : Fin 4).val, 0, 0, 0] S1x8x16x128.size (inb 2))).set := View.set_reshape _ _
  have hs3 : (oSlot 3).view.set = (coM.view.slice (Rect.unit (s := S4x8x16x128) ![(3 : Fin 4).val, 0, 0, 0] S1x8x16x128.size (inb 3))).set := View.set_reshape _ _
  have hj := whole_lead_join (Ix := Unit) (Name := ℕ) (U := UU) (Lvl := ℕ) (Val := Elt F) (c := (c : Thread nD τ)) coM (Memref.isWhole_whole _) (NB := 4) (0 : Fin 4) 1
    (fun b => ![b.val, 0, 0, 0]) S1x8x16x128.size inb (fun b => by simp) (fun b a ha => by fin_cases a <;> first | exact absurd rfl ha | rfl)
    rfl (fun a ha => by fin_cases a <;> first | exact absurd rfl ha | rfl) rfl fullShare
  have e0 : (slotHolds vo vm vl c 0 0 : sProp 𝕄) = holds c (oSlot 0) (vo (back 0 c)) := rfl
  have e1 : (slotHolds vo vm vl c 0 1 : sProp 𝕄) = holds c (oSlot 1) (vo (back 1 c)) := rfl
  have e2 : (slotHolds vo vm vl c 0 2 : sProp 𝕄) = holds c (oSlot 2) (vo (back 2 c)) := rfl
  have e3 : (slotHolds vo vm vl c 0 3 : sProp 𝕄) = holds c (oSlot 3) (vo (back 3 c)) := rfl
  rw [e0, e1, e2, e3]
  unfold holds
  iintro ⟨⟨%f0, H0, %h0⟩, ⟨%f1, H1, %h1⟩, ⟨%f2, H2, %h2⟩, %f3, H3, %h3⟩
  have hj' := hj ![f0, f1, f2, f3] f0
  rw [bigSep_fin4] at hj'
  rw [← hs0, ← hs1, ← hs2, ← hs3] at hj'
  ihave Hj := hj' $$ [H0 H1 H2 H3]
  · isplitl [H0]; · iexact H0
    isplitl [H1]; · iexact H1
    isplitl [H2]; · iexact H2
    iexact H3
  icases Hj with ⟨%g, %hg, Hg⟩
  iexists g
  isplitl [Hg]; · iexact Hg
  ipureintro
  refine ⟨?_, ?_, ?_, ?_⟩
  · exact (View.read_congr (v := (oSlot 0).view) fun i hi => hg 0 i (hs0 ▸ hi)).trans h0
  · exact (View.read_congr (v := (oSlot 1).view) fun i hi => hg 1 i (hs1 ▸ hi)).trans h1
  · exact (View.read_congr (v := (oSlot 2).view) fun i hi => hg 2 i (hs2 ▸ hi)).trans h2
  · exact (View.read_congr (v := (oSlot 3).view) fun i hi => hg 3 i (hs3 ▸ hi)).trans h3

omit [FloatOps F] in
/-- After the last hop the four slots of the row-maximum buffer join to the buffer held whole, each slot reading what it held. -/
theorem ringM_exit (c : Dev nD) :
    iprop(slotHolds vo vm vl c 1 0 ∗ slotHolds vo vm vl c 1 1 ∗ slotHolds vo vm vl c 1 2 ∗ slotHolds vo vm vl c 1 3)
      ⊢ iprop(∃ g : Buf (Elt F) (cmM.view.loc (c : Thread nD τ)), (cmM.view.loc (c : Thread nD τ) ↦{fullShare} g)
          ∗ ⌜(cSlot cmM 0).view.read (Elt F) g = vm (back 0 c) ∧ (cSlot cmM 1).view.read (Elt F) g = vm (back 1 c)
            ∧ (cSlot cmM 2).view.read (Elt F) g = vm (back 2 c) ∧ (cSlot cmM 3).view.read (Elt F) g = vm (back 3 c)⌝) := by
  have inb : ∀ (b : Fin 4) (a : Fin 4), (![b.val, 0, 0, 0] : Fin 4 → ℕ) a + S1x8x16x1.size a ≤ S4x8x16x1.size a := by decide
  have hs0 : (cSlot cmM 0).view.set = (cmM.view.slice (Rect.unit (s := S4x8x16x1) ![(0 : Fin 4).val, 0, 0, 0] S1x8x16x1.size (inb 0))).set := View.set_reshape _ _
  have hs1 : (cSlot cmM 1).view.set = (cmM.view.slice (Rect.unit (s := S4x8x16x1) ![(1 : Fin 4).val, 0, 0, 0] S1x8x16x1.size (inb 1))).set := View.set_reshape _ _
  have hs2 : (cSlot cmM 2).view.set = (cmM.view.slice (Rect.unit (s := S4x8x16x1) ![(2 : Fin 4).val, 0, 0, 0] S1x8x16x1.size (inb 2))).set := View.set_reshape _ _
  have hs3 : (cSlot cmM 3).view.set = (cmM.view.slice (Rect.unit (s := S4x8x16x1) ![(3 : Fin 4).val, 0, 0, 0] S1x8x16x1.size (inb 3))).set := View.set_reshape _ _
  have hj := whole_lead_join (Ix := Unit) (Name := ℕ) (U := UU) (Lvl := ℕ) (Val := Elt F) (c := (c : Thread nD τ)) cmM (Memref.isWhole_whole _) (NB := 4) (0 : Fin 4) 1
    (fun b => ![b.val, 0, 0, 0]) S1x8x16x1.size inb (fun b => by simp) (fun b a ha => by fin_cases a <;> first | exact absurd rfl ha | rfl)
    rfl (fun a ha => by fin_cases a <;> first | exact absurd rfl ha | rfl) rfl fullShare
  have e0 : (slotHolds vo vm vl c 1 0 : sProp 𝕄) = holds c (cSlot cmM 0) (vm (back 0 c)) := rfl
  have e1 : (slotHolds vo vm vl c 1 1 : sProp 𝕄) = holds c (cSlot cmM 1) (vm (back 1 c)) := rfl
  have e2 : (slotHolds vo vm vl c 1 2 : sProp 𝕄) = holds c (cSlot cmM 2) (vm (back 2 c)) := rfl
  have e3 : (slotHolds vo vm vl c 1 3 : sProp 𝕄) = holds c (cSlot cmM 3) (vm (back 3 c)) := rfl
  rw [e0, e1, e2, e3]
  unfold holds
  iintro ⟨⟨%f0, H0, %h0⟩, ⟨%f1, H1, %h1⟩, ⟨%f2, H2, %h2⟩, %f3, H3, %h3⟩
  have hj' := hj ![f0, f1, f2, f3] f0
  rw [bigSep_fin4] at hj'
  rw [← hs0, ← hs1, ← hs2, ← hs3] at hj'
  ihave Hj := hj' $$ [H0 H1 H2 H3]
  · isplitl [H0]; · iexact H0
    isplitl [H1]; · iexact H1
    isplitl [H2]; · iexact H2
    iexact H3
  icases Hj with ⟨%g, %hg, Hg⟩
  iexists g
  isplitl [Hg]; · iexact Hg
  ipureintro
  refine ⟨?_, ?_, ?_, ?_⟩
  · exact (View.read_congr (v := (cSlot cmM 0).view) fun i hi => hg 0 i (hs0 ▸ hi)).trans h0
  · exact (View.read_congr (v := (cSlot cmM 1).view) fun i hi => hg 1 i (hs1 ▸ hi)).trans h1
  · exact (View.read_congr (v := (cSlot cmM 2).view) fun i hi => hg 2 i (hs2 ▸ hi)).trans h2
  · exact (View.read_congr (v := (cSlot cmM 3).view) fun i hi => hg 3 i (hs3 ▸ hi)).trans h3

omit [FloatOps F] in
/-- After the last hop the four slots of the row-sum buffer join to the buffer held whole, each slot reading what it held. -/
theorem ringL_exit (c : Dev nD) :
    iprop(slotHolds vo vm vl c 2 0 ∗ slotHolds vo vm vl c 2 1 ∗ slotHolds vo vm vl c 2 2 ∗ slotHolds vo vm vl c 2 3)
      ⊢ iprop(∃ g : Buf (Elt F) (clM.view.loc (c : Thread nD τ)), (clM.view.loc (c : Thread nD τ) ↦{fullShare} g)
          ∗ ⌜(cSlot clM 0).view.read (Elt F) g = vl (back 0 c) ∧ (cSlot clM 1).view.read (Elt F) g = vl (back 1 c)
            ∧ (cSlot clM 2).view.read (Elt F) g = vl (back 2 c) ∧ (cSlot clM 3).view.read (Elt F) g = vl (back 3 c)⌝) := by
  have inb : ∀ (b : Fin 4) (a : Fin 4), (![b.val, 0, 0, 0] : Fin 4 → ℕ) a + S1x8x16x1.size a ≤ S4x8x16x1.size a := by decide
  have hs0 : (cSlot clM 0).view.set = (clM.view.slice (Rect.unit (s := S4x8x16x1) ![(0 : Fin 4).val, 0, 0, 0] S1x8x16x1.size (inb 0))).set := View.set_reshape _ _
  have hs1 : (cSlot clM 1).view.set = (clM.view.slice (Rect.unit (s := S4x8x16x1) ![(1 : Fin 4).val, 0, 0, 0] S1x8x16x1.size (inb 1))).set := View.set_reshape _ _
  have hs2 : (cSlot clM 2).view.set = (clM.view.slice (Rect.unit (s := S4x8x16x1) ![(2 : Fin 4).val, 0, 0, 0] S1x8x16x1.size (inb 2))).set := View.set_reshape _ _
  have hs3 : (cSlot clM 3).view.set = (clM.view.slice (Rect.unit (s := S4x8x16x1) ![(3 : Fin 4).val, 0, 0, 0] S1x8x16x1.size (inb 3))).set := View.set_reshape _ _
  have hj := whole_lead_join (Ix := Unit) (Name := ℕ) (U := UU) (Lvl := ℕ) (Val := Elt F) (c := (c : Thread nD τ)) clM (Memref.isWhole_whole _) (NB := 4) (0 : Fin 4) 1
    (fun b => ![b.val, 0, 0, 0]) S1x8x16x1.size inb (fun b => by simp) (fun b a ha => by fin_cases a <;> first | exact absurd rfl ha | rfl)
    rfl (fun a ha => by fin_cases a <;> first | exact absurd rfl ha | rfl) rfl fullShare
  have e0 : (slotHolds vo vm vl c 2 0 : sProp 𝕄) = holds c (cSlot clM 0) (vl (back 0 c)) := rfl
  have e1 : (slotHolds vo vm vl c 2 1 : sProp 𝕄) = holds c (cSlot clM 1) (vl (back 1 c)) := rfl
  have e2 : (slotHolds vo vm vl c 2 2 : sProp 𝕄) = holds c (cSlot clM 2) (vl (back 2 c)) := rfl
  have e3 : (slotHolds vo vm vl c 2 3 : sProp 𝕄) = holds c (cSlot clM 3) (vl (back 3 c)) := rfl
  rw [e0, e1, e2, e3]
  unfold holds
  iintro ⟨⟨%f0, H0, %h0⟩, ⟨%f1, H1, %h1⟩, ⟨%f2, H2, %h2⟩, %f3, H3, %h3⟩
  have hj' := hj ![f0, f1, f2, f3] f0
  rw [bigSep_fin4] at hj'
  rw [← hs0, ← hs1, ← hs2, ← hs3] at hj'
  ihave Hj := hj' $$ [H0 H1 H2 H3]
  · isplitl [H0]; · iexact H0
    isplitl [H1]; · iexact H1
    isplitl [H2]; · iexact H2
    iexact H3
  icases Hj with ⟨%g, %hg, Hg⟩
  iexists g
  isplitl [Hg]; · iexact Hg
  ipureintro
  refine ⟨?_, ?_, ?_, ?_⟩
  · exact (View.read_congr (v := (cSlot clM 0).view) fun i hi => hg 0 i (hs0 ▸ hi)).trans h0
  · exact (View.read_congr (v := (cSlot clM 1).view) fun i hi => hg 1 i (hs1 ▸ hi)).trans h1
  · exact (View.read_congr (v := (cSlot clM 2).view) fun i hi => hg 2 i (hs2 ▸ hi)).trans h2
  · exact (View.read_congr (v := (cSlot clM 3).view) fun i hi => hg 3 i (hs3 ▸ hi)).trans h3

end RingExit

/-! ### The evidence a wait presents: every cell still to be paid sits above the cell waited on -/

section Levels

open Cert.KernelIdeal.FD
open Cert.KernelIdeal.Mesh (zr zl p0 p1 p2)

variable {F : FTy → Type} [FloatOps F]

local notation "𝕄" => MT nD τ sig Unit (Elt F) ℕ UU ℕ

omit [FloatOps F] in
/-- A sum of one-cell tallies over a list of payments is positive only at the cell of one of the payments. -/
theorem foldr_tally_pos (l : List (GSem nD τ sig × ℕ)) (g : GSem nD τ sig) (i : Unit)
    (h : 0 < (l.foldr (fun p acc => acc + tallyAt p.1 () p.2) (0 : CellTallies nD τ sig Unit)) g i) : ∃ p ∈ l, g = p.1 := by
  induction l with
  | nil => exact absurd h (Nat.lt_irrefl 0)
  | cons p l ih =>
    simp only [List.foldr_cons] at h
    rcases Pipeline.add_pos_cases h with h1 | h2
    · obtain ⟨p', hp', e⟩ := ih h1
      exact ⟨p', List.mem_cons_of_mem _ hp', e⟩
    · exact ⟨p, List.mem_cons_self .., (Pipeline.tallyAt_pos h2).1⟩

omit [FloatOps F] in
/-- Having made its first `k` payments, a device may wait on its cell `sm` if every cell still to be paid is a TensorCore cell at a
    level above `sm`'s. -/
theorem mayWait_after (c : Dev nD) (k : ℕ) (sm : SemLoc sig)
    (hlev : ∀ p ∈ (payList c).drop k, p.1.1.2 = .tc ∧ lv ((c : Thread nD τ), sm) () < lv p.1 ()) :
    (levAts L lv : sProp 𝕄) ⊢ MayWait (c : Thread nD τ) sm () (owedAfter k c) := by
  refine Pipeline.mayWait_of_levAts (L := L) (lev := lv) (by rw [L_tc]; exact Finset.mem_singleton_self _) ?_
  intro g i hg
  obtain ⟨p, hp, rfl⟩ := foldr_tally_pos ((payList c).drop k) g i hg
  obtain ⟨h1, h2⟩ := hlev p hp
  refine ⟨?_, ?_⟩
  · unfold L; rw [if_pos h1]; exact Finset.mem_singleton_self _
  · cases i; exact h2

omit [FloatOps F] in
theorem lv_bar (c : Dev nD) : lv (barCell c) () = 1 := by unfold lv; exact if_pos rfl
omit [FloatOps F] in
theorem lv_rsend (c : Dev nD) (b h : Fin 3) : lv (rsendCell c b h) () = 0 := by
  show (match kindOf (sem3 (sendArr b) h) with | .rrecv _ h => 2 + h.val | .grecv st => 5 + st.val | _ => 0) = 0
  rw [kind_rsend]
omit [FloatOps F] in
theorem lv_rrecv (c : Dev nD) (b h : Fin 3) : lv (rrecvCell c b h) () = 2 + h.val := by
  show (match kindOf (sem3 (recvArr b) h) with | .rrecv _ h => 2 + h.val | .grecv st => 5 + st.val | _ => 0) = 2 + h.val
  rw [kind_rrecv]
omit [FloatOps F] in
theorem lv_gsend (c : Dev nD) (st : Fin 3) : lv (gsendCell c st) () = 0 := by
  show (match kindOf (sem3 cc0_scratch12 st) with | .rrecv _ h => 2 + h.val | .grecv st => 5 + st.val | _ => 0) = 0
  rw [kind_gsend]
omit [FloatOps F] in
theorem lv_grecv (c : Dev nD) (st : Fin 3) : lv (grecvCell c st) () = 5 + st.val := by
  show (match kindOf (sem3 cc0_scratch13 st) with | .rrecv _ h => 2 + h.val | .grecv st => 5 + st.val | _ => 0) = 5 + st.val
  rw [kind_grecv]

end Levels

/-- info: 'Cert.KernelIdeal.BodyProto.part18_run' depends on axioms: [propext, Classical.choice, Quot.sound] -/
#guard_msgs in #print axioms part18_run

/-- info: 'Cert.KernelIdeal.BodyProto.seg31Tail_run' depends on axioms: [propext, Classical.choice, Quot.sound] -/
#guard_msgs in #print axioms seg31Tail_run

/-- info: 'Cert.KernelIdeal.BodyProto.segExit_run' depends on axioms: [propext, Classical.choice, Quot.sound] -/
#guard_msgs in #print axioms segExit_run

/-- info: 'Cert.KernelIdeal.BodyProto.ringO_exit' depends on axioms: [propext, Classical.choice, Quot.sound] -/
#guard_msgs in #print axioms ringO_exit

end Cert.KernelIdeal.BodyProto
-- ==== Proof.Compute.lean ====
/-
  The local runs of the decode step's body: the sixteen heads and the merge.

  Each head takes eight query rows of the device's query block, scores them against the device's 1024 keys, and
  stores the unnormalised output `exp(s - max s) · V`, the row maxima `max s` and the row sums `Σ exp(s - max s)` at
  its place in slot 0 of the three partial-result buffers; the sixteen stores into a buffer tile its slot 0 exactly and
  touch nothing else, so after the heads slot 0 of each buffer is a function of the query, key and value blocks alone
  and slots 1, 2, 3 are what they were. The merge loads the four slots of the three buffers and combines them to the
  common row maximum; its value is a function of what the twelve slots read.

  Both runs are made once, at a symbolic device: the device enters only through the offsets of its query rows.
-/
import proofs.«900429_g7700000000000430_dist_flashdec_v7x_xyz2x4x4_z_b8_sq8_skv1024_h16_d128_f32_1_alg».proof.Proof.Segments
import proofs.«900429_g7700000000000430_dist_flashdec_v7x_xyz2x4x4_z_b8_sq8_skv1024_h16_d128_f32_1_alg».proof.Proof.Proto
import Idealize.ShloMosaic.Lib.ValueLayout

set_option synthInstance.maxSize 4096

noncomputable section

namespace Cert.KernelIdeal.FD

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-- Memref `M`'s buffer on device `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## The geometry of the sixteen stores

Head `h` stores a [1,8,1,128] block at `[0, 0, h, 0]` of the [4,8,16,128] buffer and a [1,8,1,1] block at the same
place of each [4,8,16,1] buffer. Together the sixteen blocks are exactly slot 0; nothing touches slots 1, 2, 3. -/

section Geometry

variable {Val : EltTy → Type}

theorem inbO (h : Fin 16) : ∀ a, (![0, 0, h.val, 0] : Fin 4 → ℕ) a + S1x8x1x128.size a ≤ S4x8x16x128.size a := by
  intro a
  match a with
  | ⟨0, _⟩ => show 0 + 1 ≤ 4; omega
  | ⟨1, _⟩ => show 0 + 8 ≤ 8; omega
  | ⟨2, _⟩ => show h.val + 1 ≤ 16; omega
  | ⟨3, _⟩ => show 0 + 128 ≤ 128; omega

theorem inbC (h : Fin 16) : ∀ a, (![0, 0, h.val, 0] : Fin 4 → ℕ) a + S1x8x1x1.size a ≤ S4x8x16x1.size a := by
  intro a
  match a with
  | ⟨0, _⟩ => show 0 + 1 ≤ 4; omega
  | ⟨1, _⟩ => show 0 + 8 ≤ 8; omega
  | ⟨2, _⟩ => show h.val + 1 ≤ 16; omega
  | ⟨3, _⟩ => show 0 + 1 ≤ 1; omega

/-- Head `h`'s block of the [4,8,16,128] buffer. -/
def rO (h : Fin 16) : Rect S4x8x16x128 := Rect.unit ![0, 0, h.val, 0] S1x8x1x128.size (inbO h)
/-- Head `h`'s block of a [4,8,16,1] buffer. -/
def rC (h : Fin 16) : Rect S4x8x16x1 := Rect.unit ![0, 0, h.val, 0] S1x8x1x1.size (inbC h)

/-- Row `a`, lane `d` of head `h`'s block sits at `(0, a, h, d)`. -/
theorem emb_rO (h : Fin 16) (j : (rO h).shape.Idx) : (rO h).emb j = ix4 (0 : Fin 4) (j 1) h (j 3) := by
  have h0 : (j 0).val < 1 := (j 0).isLt
  have h2 : (j 2).val < 1 := (j 2).isLt
  funext a
  apply Fin.ext
  rw [Rect.emb_apply]
  match a with
  | ⟨0, _⟩ => show 0 + 1 * (j 0).val = 0; omega
  | ⟨1, _⟩ => show 0 + 1 * (j 1).val = (j 1).val; omega
  | ⟨2, _⟩ => show h.val + 1 * (j 2).val = h.val; omega
  | ⟨3, _⟩ => show 0 + 1 * (j 3).val = (j 3).val; omega

theorem emb_rC (h : Fin 16) (j : (rC h).shape.Idx) : (rC h).emb j = ix4 (0 : Fin 4) (j 1) h (j 3) := by
  have h0 : (j 0).val < 1 := (j 0).isLt
  have h2 : (j 2).val < 1 := (j 2).isLt
  funext a
  apply Fin.ext
  rw [Rect.emb_apply]
  match a with
  | ⟨0, _⟩ => show 0 + 1 * (j 0).val = 0; omega
  | ⟨1, _⟩ => show 0 + 1 * (j 1).val = (j 1).val; omega
  | ⟨2, _⟩ => show h.val + 1 * (j 2).val = h.val; omega
  | ⟨3, _⟩ => show 0 + 1 * (j 3).val = (j 3).val; omega

/-- An index of a head's block is its row and its lane. -/
theorem idxO_eq (j : S1x8x1x128.Idx) : j = ix4 (0 : Fin 1) (j 1) (0 : Fin 1) (j 3) := by
  have h0 : (j 0).val < 1 := (j 0).isLt
  have h2 : (j 2).val < 1 := (j 2).isLt
  funext a
  apply Fin.ext
  match a with
  | ⟨0, _⟩ => show (j 0).val = 0; omega
  | ⟨1, _⟩ => rfl
  | ⟨2, _⟩ => show (j 2).val = 0; omega
  | ⟨3, _⟩ => rfl

theorem idxC_eq (j : S1x8x1x1.Idx) : j = ix4 (0 : Fin 1) (j 1) (0 : Fin 1) (j 3) := by
  have h0 : (j 0).val < 1 := (j 0).isLt
  have h2 : (j 2).val < 1 := (j 2).isLt
  funext a
  apply Fin.ext
  match a with
  | ⟨0, _⟩ => show (j 0).val = 0; omega
  | ⟨1, _⟩ => rfl
  | ⟨2, _⟩ => show (j 2).val = 0; omega
  | ⟨3, _⟩ => rfl

/-- The sixteen stores into the [4,8,16,128] buffer, the last one first, head `h` storing `hd h`. -/
def piecesO (hd : Fin 16 → S1x8x1x128.Idx → Val .f32) : List (View.Piece Val S4x8x16x128 .f32) :=
  (List.ofFn fun h : Fin 16 => (⟨rO h, hd h⟩ : View.Piece Val S4x8x16x128 .f32)).reverse
/-- The sixteen stores into a [4,8,16,1] buffer, the last one first. -/
def piecesC (hd : Fin 16 → S1x8x1x1.Idx → Val .f32) : List (View.Piece Val S4x8x16x1 .f32) :=
  (List.ofFn fun h : Fin 16 => (⟨rC h, hd h⟩ : View.Piece Val S4x8x16x1 .f32)).reverse

theorem mem_piecesO {hd : Fin 16 → S1x8x1x128.Idx → Val .f32} {p : View.Piece Val S4x8x16x128 .f32} :
    p ∈ piecesO hd ↔ ∃ h, (⟨rO h, hd h⟩ : View.Piece Val S4x8x16x128 .f32) = p := by
  unfold piecesO; rw [List.mem_reverse, List.mem_ofFn]
theorem mem_piecesC {hd : Fin 16 → S1x8x1x1.Idx → Val .f32} {p : View.Piece Val S4x8x16x1 .f32} :
    p ∈ piecesC hd ↔ ∃ h, (⟨rC h, hd h⟩ : View.Piece Val S4x8x16x1 .f32) = p := by
  unfold piecesC; rw [List.mem_reverse, List.mem_ofFn]

theorem mem_rO {h : Fin 16} {y : S4x8x16x128.Idx} : y ∈ (rO h).set ↔ (y 0).val = 0 ∧ (y 2).val = h.val := by
  unfold rO
  rw [Rect.mem_set_unit]
  constructor
  · intro H
    have H0 := H 0
    have H2 := H 2
    change 0 ≤ (y 0).val ∧ (y 0).val < 0 + 1 at H0
    change h.val ≤ (y 2).val ∧ (y 2).val < h.val + 1 at H2
    omega
  · rintro ⟨e0, e2⟩ a
    match a with
    | ⟨0, _⟩ => show 0 ≤ (y 0).val ∧ (y 0).val < 0 + 1; omega
    | ⟨1, _⟩ => show 0 ≤ (y 1).val ∧ (y 1).val < 0 + 8; have := (y 1).isLt; change (y 1).val < 8 at this; omega
    | ⟨2, _⟩ => show h.val ≤ (y 2).val ∧ (y 2).val < h.val + 1; omega
    | ⟨3, _⟩ => show 0 ≤ (y 3).val ∧ (y 3).val < 0 + 128; have := (y 3).isLt; change (y 3).val < 128 at this; omega

theorem mem_rC {h : Fin 16} {y : S4x8x16x1.Idx} : y ∈ (rC h).set ↔ (y 0).val = 0 ∧ (y 2).val = h.val := by
  unfold rC
  rw [Rect.mem_set_unit]
  constructor
  · intro H
    have H0 := H 0
    have H2 := H 2
    change 0 ≤ (y 0).val ∧ (y 0).val < 0 + 1 at H0
    change h.val ≤ (y 2).val ∧ (y 2).val < h.val + 1 at H2
    omega
  · rintro ⟨e0, e2⟩ a
    match a with
    | ⟨0, _⟩ => show 0 ≤ (y 0).val ∧ (y 0).val < 0 + 1; omega
    | ⟨1, _⟩ => show 0 ≤ (y 1).val ∧ (y 1).val < 0 + 8; have := (y 1).isLt; change (y 1).val < 8 at this; omega
    | ⟨2, _⟩ => show h.val ≤ (y 2).val ∧ (y 2).val < h.val + 1; omega
    | ⟨3, _⟩ => show 0 ≤ (y 3).val ∧ (y 3).val < 0 + 1; have := (y 3).isLt; change (y 3).val < 1 at this; omega

variable {sg : RefSig} {κ : Idealize.ShloMosaic.Kind} {sp : Space}

/-- After the sixteen stores, slot 0 reads head by head what was stored, whatever the buffer held. -/
theorem read_piecesO_slot0 (v : View sg κ sp S4x8x16x128 .f32) (f : v.ty.Contents Val) (hd : Fin 16 → S1x8x1x128.Idx → Val .f32)
    (a : Fin 8) (h : Fin 16) (d : Fin 128) :
    v.read Val (v.writes Val f (piecesO hd)) (ix4 (0 : Fin 4) a h d) = hd h (ix4 (0 : Fin 1) a (0 : Fin 1) d) := by
  refine View.read_writes_apply_of_pieces v f (fun y => hd (y 2) (ix4 (0 : Fin 1) (y 1) (0 : Fin 1) (y 3))) (piecesO hd) ?_ _ ?_
  · intro p hp x
    obtain ⟨h', rfl⟩ := mem_piecesO.mp hp
    show hd h' x = hd ((rO h').emb x 2) (ix4 (0 : Fin 1) ((rO h').emb x 1) (0 : Fin 1) ((rO h').emb x 3))
    rw [emb_rO]
    exact congrArg (hd h') (idxO_eq x)
  · exact ⟨⟨rO h, hd h⟩, mem_piecesO.mpr ⟨h, rfl⟩, mem_rO.mpr ⟨rfl, rfl⟩⟩

/-- Slots 1, 2, 3 read what they read before. -/
theorem read_piecesO_rest (v : View sg κ sp S4x8x16x128 .f32) (f : v.ty.Contents Val) (hd : Fin 16 → S1x8x1x128.Idx → Val .f32)
    (y : S4x8x16x128.Idx) (hy : (y 0).val ≠ 0) :
    v.read Val (v.writes Val f (piecesO hd)) y = v.read Val f y := by
  refine View.read_writes_apply_of_forall_not_mem v f y (piecesO hd) fun p hp hm => ?_
  obtain ⟨h', rfl⟩ := mem_piecesO.mp hp
  exact hy (mem_rO.mp hm).1

theorem read_piecesC_slot0 (v : View sg κ sp S4x8x16x1 .f32) (f : v.ty.Contents Val) (hd : Fin 16 → S1x8x1x1.Idx → Val .f32)
    (a : Fin 8) (h : Fin 16) (d : Fin 1) :
    v.read Val (v.writes Val f (piecesC hd)) (ix4 (0 : Fin 4) a h d) = hd h (ix4 (0 : Fin 1) a (0 : Fin 1) d) := by
  refine View.read_writes_apply_of_pieces v f (fun y => hd (y 2) (ix4 (0 : Fin 1) (y 1) (0 : Fin 1) (y 3))) (piecesC hd) ?_ _ ?_
  · intro p hp x
    obtain ⟨h', rfl⟩ := mem_piecesC.mp hp
    show hd h' x = hd ((rC h').emb x 2) (ix4 (0 : Fin 1) ((rC h').emb x 1) (0 : Fin 1) ((rC h').emb x 3))
    rw [emb_rC]
    exact congrArg (hd h') (idxC_eq x)
  · exact ⟨⟨rC h, hd h⟩, mem_piecesC.mpr ⟨h, rfl⟩, mem_rC.mpr ⟨rfl, rfl⟩⟩

theorem read_piecesC_rest (v : View sg κ sp S4x8x16x1 .f32) (f : v.ty.Contents Val) (hd : Fin 16 → S1x8x1x1.Idx → Val .f32)
    (y : S4x8x16x1.Idx) (hy : (y 0).val ≠ 0) :
    v.read Val (v.writes Val f (piecesC hd)) y = v.read Val f y := by
  refine View.read_writes_apply_of_forall_not_mem v f y (piecesC hd) fun p hp hm => ?_
  obtain ⟨h', rfl⟩ := mem_piecesC.mp hp
  exact hy (mem_rC.mp hm).1

end Geometry

/-! ## A slot's view reads the whole buffer at the slot's place -/

section SlotRead

variable {Val : EltTy → Type} {sg : RefSig} {κ : Idealize.ShloMosaic.Kind} {sp : Space}

theorem inbS3 (j : Fin 4) : ∀ a, (![j.val, 0, 0, 0] : Fin 4 → ℕ) a + S1x8x16x128.size a ≤ S4x8x16x128.size a := by
  intro a
  match a with
  | ⟨0, _⟩ => show j.val + 1 ≤ 4; omega
  | ⟨1, _⟩ => show 0 + 8 ≤ 8; omega
  | ⟨2, _⟩ => show 0 + 16 ≤ 16; omega
  | ⟨3, _⟩ => show 0 + 128 ≤ 128; omega

theorem inbS1 (j : Fin 4) : ∀ a, (![j.val, 0, 0, 0] : Fin 4 → ℕ) a + S1x8x16x1.size a ≤ S4x8x16x1.size a := by
  intro a
  match a with
  | ⟨0, _⟩ => show j.val + 1 ≤ 4; omega
  | ⟨1, _⟩ => show 0 + 8 ≤ 8; omega
  | ⟨2, _⟩ => show 0 + 16 ≤ 16; omega
  | ⟨3, _⟩ => show 0 + 1 ≤ 1; omega

/-- Slot `j` of a [4,8,16,128] buffer, sliced out and squeezed to [8,16,128], reads the buffer at `(j, ·, ·, ·)`. -/
theorem slot3_read (v : View sg κ sp S4x8x16x128 .f32) (j : Fin 4)
    (inb : ∀ a, (![j.val, 0, 0, 0] : Fin 4 → ℕ) a + S1x8x16x128.size a ≤ S4x8x16x128.size a)
    (hn : S8x16x128.numel = S1x8x16x128.numel) (g : v.ty.Contents Val) (x : S8x16x128.Idx) :
    ((v.slice (Rect.unit (s := S4x8x16x128) ![j.val, 0, 0, 0] S1x8x16x128.size inb)).reshape S8x16x128 hn).read Val g x
      = v.read Val g (ix4 j (x 0) (x 1) (x 2)) := by
  obtain ⟨x0, x1, x2, rfl⟩ : ∃ a b c, x = ix3 a b c := ⟨x 0, x 1, x 2, eq_ix3 x⟩
  have e : ((v.slice (Rect.unit (s := S4x8x16x128) ![j.val, 0, 0, 0] S1x8x16x128.size inb)).reshape S8x16x128 hn).emb (ix3 x0 x1 x2)
      = v.emb (ix4 j x0 x1 x2) := by
    show v.emb ((Rect.unit (s := S4x8x16x128) ![j.val, 0, 0, 0] S1x8x16x128.size inb).emb (Shape.reshapeEquiv hn (ix3 x0 x1 x2))) = _
    rw [reshapeEquiv_ix3_1abc]
    congr 1
    funext a
    apply Fin.ext
    rw [Rect.emb_apply]
    match a with
    | ⟨0, _⟩ => show j.val + 1 * 0 = j.val; omega
    | ⟨1, _⟩ => show 0 + 1 * x0.val = x0.val; omega
    | ⟨2, _⟩ => show 0 + 1 * x1.val = x1.val; omega
    | ⟨3, _⟩ => show 0 + 1 * x2.val = x2.val; omega
  rw [View.read_apply, View.read_apply, e]

/-- Slot `j` of a [4,8,16,1] buffer, sliced out and squeezed to [8,16,1], reads the buffer at `(j, ·, ·, ·)`. -/
theorem slot1_read (v : View sg κ sp S4x8x16x1 .f32) (j : Fin 4)
    (inb : ∀ a, (![j.val, 0, 0, 0] : Fin 4 → ℕ) a + S1x8x16x1.size a ≤ S4x8x16x1.size a)
    (hn : S8x16x1.numel = S1x8x16x1.numel) (g : v.ty.Contents Val) (x : S8x16x1.Idx) :
    ((v.slice (Rect.unit (s := S4x8x16x1) ![j.val, 0, 0, 0] S1x8x16x1.size inb)).reshape S8x16x1 hn).read Val g x
      = v.read Val g (ix4 j (x 0) (x 1) (x 2)) := by
  obtain ⟨x0, x1, x2, rfl⟩ : ∃ a b c, x = ix3 a b c := ⟨x 0, x 1, x 2, eq_ix3 x⟩
  have e : ((v.slice (Rect.unit (s := S4x8x16x1) ![j.val, 0, 0, 0] S1x8x16x1.size inb)).reshape S8x16x1 hn).emb (ix3 x0 x1 x2)
      = v.emb (ix4 j x0 x1 x2) := by
    show v.emb ((Rect.unit (s := S4x8x16x1) ![j.val, 0, 0, 0] S1x8x16x1.size inb).emb (Shape.reshapeEquiv hn (ix3 x0 x1 x2))) = _
    rw [reshapeEquiv_ix3_1abc]
    congr 1
    funext a
    apply Fin.ext
    rw [Rect.emb_apply]
    match a with
    | ⟨0, _⟩ => show j.val + 1 * 0 = j.val; omega
    | ⟨1, _⟩ => show 0 + 1 * x0.val = x0.val; omega
    | ⟨2, _⟩ => show 0 + 1 * x1.val = x1.val; omega
    | ⟨3, _⟩ => show 0 + 1 * x2.val = x2.val; omega
  rw [View.read_apply, View.read_apply, e]

end SlotRead

/-! ## The two local runs

Both start from the device's buffers held whole and end with them held whole. The heads read the query, key and
value buffers and write slot 0 of the three partial-result buffers; the merge only reads. -/

set_option maxHeartbeats 4000000 in
noncomputable def computeRun (c : Dev nD) (v28 : Vec F S1x8x1x128 .f32)
    (fq : Bf (F := F) c qM) (fk : Bf (F := F) c kM) (fv : Bf (F := F) c vM)
    (f6 : Bf (F := F) c coM) (f7 : Bf (F := F) c cmM) (f8 : Bf (F := F) c clM) :
    { W : Bf (F := F) c coM × Bf (F := F) c cmM × Bf (F := F) c clM //
      ∀ (v8 v10 : BitVec 32) (E : Set ℕ) (Q : (Σ' (v460 : BitVec 32) (v462 : BitVec 32), BitVec 32) → sProp 𝕄),
        iprop(pt c qM fq ∗ pt c kM fk ∗ pt c vM fv ∗ pt c coM f6 ∗ pt c cmM f7 ∗ pt c clM f8
          ∗ (iprop(pt c qM fq ∗ pt c kM fk ∗ pt c vM fv ∗ pt c coM W.1 ∗ pt c cmM W.2.1 ∗ pt c clM W.2.2)
              -∗ Q ⟨Scalar.remsi (Scalar.addi v8 1#32) 4#32, Scalar.subi (Scalar.addi v8 4#32) 1#32, 4#32⟩))
        ⊢ wp frame (wpE (defs₀ (F := F)) Variants.none c none) E
            (segCompute qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c v8 v10 v28) Q } := by
  refine ⟨⟨?_, ?_, ?_⟩, fun v8 v10 E Q => ?run⟩
  case run =>
    iintro ⟨Hq, Hk, Hv, H6, H7, H8, Hc⟩
    unfold segCompute
    sl_exec_parts
    sl_step
    unfold computeRun.sl.v460 computeRun.sl.v462 computeRun.sl.v459 computeRun.sl.v461
    iapply Hc
    isplitl [Hq]; · iexact Hq
    isplitl [Hk]; · iexact Hk
    isplitl [Hv]; · iexact Hv
    isplitl [H6]; · iexact H6
    isplitl [H7]; · iexact H7
    iexact H8

set_option maxHeartbeats 4000000 in
noncomputable def mergeRun (c : Dev nD)
    (g6 : Bf (F := F) c coM) (g7 : Bf (F := F) c cmM) (g8 : Bf (F := F) c clM) :
    { w : FVec F S1x8x16x128 .f32 //
      ∀ (E : Set ℕ) (Q : FVec F S1x8x16x128 .f32 → sProp 𝕄),
        iprop(pt c coM g6 ∗ pt c cmM g7 ∗ pt c clM g8
          ∗ (iprop(pt c coM g6 ∗ pt c cmM g7 ∗ pt c clM g8) -∗ Q w))
        ⊢ wp frame (wpE (defs₀ (F := F)) Variants.none c none) E
            (segMerge qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13) Q } := by
  refine ⟨?_, fun E Q => ?run⟩
  case run =>
    iintro ⟨H6, H7, H8, Hc⟩
    unfold segMerge
    sl_exec
    sl_step
    iapply Hc
    isplitl [H6]; · iexact H6
    isplitl [H7]; · iexact H7
    iexact H8

/-! ## What the sixteen heads store -/

/-- The rows of the query staging buffer a head loads: the [1,8,1,128] block at `off`. -/
abbrev qAt (c : Dev nD) (fq : Bf (F := F) c qM) (off : Fin 4 → ℕ) (inb : ∀ a, off a + S1x8x1x128.size a ≤ S8x8x16x128.size a) :
    Vec F S1x8x1x128 .f32 :=
  qM.view.readAt (Elt F) (Rect.unit (s := S8x8x16x128) off S1x8x1x128.size inb).toLoadRect fq
/-- A head's column of the key block: the [1024,1,128] block at `off`. -/
abbrev kAt (c : Dev nD) (fk : Bf (F := F) c kM) (off : Fin 3 → ℕ) (inb : ∀ a, off a + S1024x1x128.size a ≤ S1024x16x128.size a) :
    Vec F S1024x1x128 .f32 :=
  kM.view.readAt (Elt F) (Rect.unit (s := S1024x16x128) off S1024x1x128.size inb).toLoadRect fk
/-- A head's column of the value block. -/
abbrev vAt (c : Dev nD) (fv : Bf (F := F) c vM) (off : Fin 3 → ℕ) (inb : ∀ a, off a + S1024x1x128.size a ≤ S1024x16x128.size a) :
    Vec F S1024x1x128 .f32 :=
  vM.view.readAt (Elt F) (Rect.unit (s := S1024x16x128) off S1024x1x128.size inb).toLoadRect fv

/-- Head 0's rows of the query block, as the entry part loads them. -/
abbrev q0At (c : Dev nD) (fq : Bf (F := F) c qM) : Vec F S1x8x1x128 .f32 := qAt c fq (k0_off2 c) (k0_off2_inb c)

/-- The unnormalised output rows head `h` stores: `exp(s - max s) · V` for the scores `s = q · Kᵀ / √128` of the head's
    eight query rows against the device's 1024 keys, through the generated payload terms. `q0` is head 0's query rows. -/
abbrev stO (c : Dev nD) (q0 : Vec F S1x8x1x128 .f32) (fq : Bf (F := F) c qM) (fk : Bf (F := F) c kM) (fv : Bf (F := F) c vM) :
    Fin 16 → FVec F S1x8x1x128 .f32
  | ⟨0, _⟩ => k0_pay4 q0 (kAt c fk ![0, 0, 0] inb_S1024x16x128_S1024x1x128_0_0_0) (vAt c fv ![0, 0, 0] inb_S1024x16x128_S1024x1x128_0_0_0)
  | ⟨1, _⟩ => k0_pay11 (k0_pay7 (qAt c fq (k0_off3 c) (k0_off3_inb c))) (kAt c fk ![0, 1, 0] inb_S1024x16x128_S1024x1x128_0_1_0) (vAt c fv ![0, 1, 0] inb_S1024x16x128_S1024x1x128_0_1_0)
  | ⟨2, _⟩ => k0_pay19 (k0_pay14 (qAt c fq (k0_off4 c) (k0_off4_inb c))) (k0_pay15 (kAt c fk ![0, 2, 0] inb_S1024x16x128_S1024x1x128_0_2_0)) (vAt c fv ![0, 2, 0] inb_S1024x16x128_S1024x1x128_0_2_0)
  | ⟨3, _⟩ => k0_pay28 (k0_pay22 (qAt c fq (k0_off5 c) (k0_off5_inb c))) (k0_pay23 (kAt c fk ![0, 3, 0] inb_S1024x16x128_S1024x1x128_0_3_0)) (k0_pay24 (vAt c fv ![0, 3, 0] inb_S1024x16x128_S1024x1x128_0_3_0)) (constant S8x1024 .f32 0x00000000#32)
  | ⟨4, _⟩ => k0_pay35 (k0_pay31 (vAt c fv ![0, 4, 0] inb_S1024x16x128_S1024x1x128_0_4_0)) (k0_pay32 (qAt c fq (k0_off6 c) (k0_off6_inb c)) (kAt c fk ![0, 4, 0] inb_S1024x16x128_S1024x1x128_0_4_0))
  | ⟨5, _⟩ => k0_pay43 (k0_pay38 (vAt c fv ![0, 5, 0] inb_S1024x16x128_S1024x1x128_0_5_0)) (k0_pay39 (qAt c fq (k0_off7 c) (k0_off7_inb c)) (kAt c fk ![0, 5, 0] inb_S1024x16x128_S1024x1x128_0_5_0)) (k0_pay41 (qAt c fq (k0_off7 c) (k0_off7_inb c)) (kAt c fk ![0, 5, 0] inb_S1024x16x128_S1024x1x128_0_5_0))
  | ⟨6, _⟩ => k0_pay51 (k0_pay46 (vAt c fv ![0, 6, 0] inb_S1024x16x128_S1024x1x128_0_6_0)) (k0_pay49 (qAt c fq (k0_off8 c) (k0_off8_inb c)) (kAt c fk ![0, 6, 0] inb_S1024x16x128_S1024x1x128_0_6_0))
  | ⟨7, _⟩ => k0_pay59 (k0_pay58 (qAt c fq (k0_off9 c) (k0_off9_inb c)) (kAt c fk ![0, 7, 0] inb_S1024x16x128_S1024x1x128_0_7_0) (vAt c fv ![0, 7, 0] inb_S1024x16x128_S1024x1x128_0_7_0))
  | ⟨8, _⟩ => k0_pay67 (k0_pay66 (qAt c fq (k0_off10 c) (k0_off10_inb c)) (kAt c fk ![0, 8, 0] inb_S1024x16x128_S1024x1x128_0_8_0) (vAt c fv ![0, 8, 0] inb_S1024x16x128_S1024x1x128_0_8_0))
  | ⟨9, _⟩ => k0_pay74 (qAt c fq (k0_off11 c) (k0_off11_inb c)) (kAt c fk ![0, 9, 0] inb_S1024x16x128_S1024x1x128_0_9_0) (vAt c fv ![0, 9, 0] inb_S1024x16x128_S1024x1x128_0_9_0)
  | ⟨10, _⟩ => k0_pay81 (qAt c fq (k0_off12 c) (k0_off12_inb c)) (kAt c fk ![0, 10, 0] inb_S1024x16x128_S1024x1x128_0_10_0) (vAt c fv ![0, 10, 0] inb_S1024x16x128_S1024x1x128_0_10_0)
  | ⟨11, _⟩ => k0_pay88 (qAt c fq (k0_off13 c) (k0_off13_inb c)) (kAt c fk ![0, 11, 0] inb_S1024x16x128_S1024x1x128_0_11_0) (vAt c fv ![0, 11, 0] inb_S1024x16x128_S1024x1x128_0_11_0)
  | ⟨12, _⟩ => k0_pay95 (qAt c fq (k0_off14 c) (k0_off14_inb c)) (kAt c fk ![0, 12, 0] inb_S1024x16x128_S1024x1x128_0_12_0) (vAt c fv ![0, 12, 0] inb_S1024x16x128_S1024x1x128_0_12_0)
  | ⟨13, _⟩ => k0_pay101 (qAt c fq (k0_off15 c) (k0_off15_inb c)) (kAt c fk ![0, 13, 0] inb_S1024x16x128_S1024x1x128_0_13_0) (vAt c fv ![0, 13, 0] inb_S1024x16x128_S1024x1x128_0_13_0)
  | ⟨14, _⟩ => k0_pay107 (qAt c fq (k0_off16 c) (k0_off16_inb c)) (kAt c fk ![0, 14, 0] inb_S1024x16x128_S1024x1x128_0_14_0) (vAt c fv ![0, 14, 0] inb_S1024x16x128_S1024x1x128_0_14_0)
  | ⟨15, _⟩ => k0_pay113 (qAt c fq (k0_off17 c) (k0_off17_inb c)) (kAt c fk ![0, 15, 0] inb_S1024x16x128_S1024x1x128_0_15_0) (vAt c fv ![0, 15, 0] inb_S1024x16x128_S1024x1x128_0_15_0)
  | ⟨n + 16, hn⟩ => absurd hn (by omega)

/-- The row maxima head `h` stores. -/
abbrev stM (c : Dev nD) (q0 : Vec F S1x8x1x128 .f32) (fq : Bf (F := F) c qM) (fk : Bf (F := F) c kM) :
    Fin 16 → FVec F S1x8x1x1 .f32
  | ⟨0, _⟩ => k0_pay5 q0 (kAt c fk ![0, 0, 0] inb_S1024x16x128_S1024x1x128_0_0_0)
  | ⟨1, _⟩ => k0_pay12 (k0_pay7 (qAt c fq (k0_off3 c) (k0_off3_inb c))) (kAt c fk ![0, 1, 0] inb_S1024x16x128_S1024x1x128_0_1_0)
  | ⟨2, _⟩ => k0_pay20 (k0_pay14 (qAt c fq (k0_off4 c) (k0_off4_inb c))) (k0_pay15 (kAt c fk ![0, 2, 0] inb_S1024x16x128_S1024x1x128_0_2_0))
  | ⟨3, _⟩ => k0_pay29 (k0_pay22 (qAt c fq (k0_off5 c) (k0_off5_inb c))) (k0_pay23 (kAt c fk ![0, 3, 0] inb_S1024x16x128_S1024x1x128_0_3_0)) (constant S8x1024 .f32 0x00000000#32)
  | ⟨4, _⟩ => k0_pay36 (k0_pay32 (qAt c fq (k0_off6 c) (k0_off6_inb c)) (kAt c fk ![0, 4, 0] inb_S1024x16x128_S1024x1x128_0_4_0))
  | ⟨5, _⟩ => k0_pay44 (k0_pay40 (qAt c fq (k0_off7 c) (k0_off7_inb c)) (kAt c fk ![0, 5, 0] inb_S1024x16x128_S1024x1x128_0_5_0))
  | ⟨6, _⟩ => k0_pay52 (k0_pay48 (qAt c fq (k0_off8 c) (k0_off8_inb c)) (kAt c fk ![0, 6, 0] inb_S1024x16x128_S1024x1x128_0_6_0))
  | ⟨7, _⟩ => k0_pay60 (k0_pay55 (qAt c fq (k0_off9 c) (k0_off9_inb c)) (kAt c fk ![0, 7, 0] inb_S1024x16x128_S1024x1x128_0_7_0))
  | ⟨8, _⟩ => k0_pay68 (k0_pay63 (qAt c fq (k0_off10 c) (k0_off10_inb c)) (kAt c fk ![0, 8, 0] inb_S1024x16x128_S1024x1x128_0_8_0))
  | ⟨9, _⟩ => k0_pay75 (k0_pay71 (qAt c fq (k0_off11 c) (k0_off11_inb c)) (kAt c fk ![0, 9, 0] inb_S1024x16x128_S1024x1x128_0_9_0))
  | ⟨10, _⟩ => k0_pay82 (k0_pay78 (qAt c fq (k0_off12 c) (k0_off12_inb c)) (kAt c fk ![0, 10, 0] inb_S1024x16x128_S1024x1x128_0_10_0))
  | ⟨11, _⟩ => k0_pay89 (qAt c fq (k0_off13 c) (k0_off13_inb c)) (kAt c fk ![0, 11, 0] inb_S1024x16x128_S1024x1x128_0_11_0)
  | ⟨12, _⟩ => k0_pay96 (qAt c fq (k0_off14 c) (k0_off14_inb c)) (kAt c fk ![0, 12, 0] inb_S1024x16x128_S1024x1x128_0_12_0)
  | ⟨13, _⟩ => k0_pay102 (qAt c fq (k0_off15 c) (k0_off15_inb c)) (kAt c fk ![0, 13, 0] inb_S1024x16x128_S1024x1x128_0_13_0)
  | ⟨14, _⟩ => k0_pay108 (qAt c fq (k0_off16 c) (k0_off16_inb c)) (kAt c fk ![0, 14, 0] inb_S1024x16x128_S1024x1x128_0_14_0)
  | ⟨15, _⟩ => k0_pay114 (qAt c fq (k0_off17 c) (k0_off17_inb c)) (kAt c fk ![0, 15, 0] inb_S1024x16x128_S1024x1x128_0_15_0)
  | ⟨n + 16, hn⟩ => absurd hn (by omega)

/-- The row sums head `h` stores. -/
abbrev stL (c : Dev nD) (q0 : Vec F S1x8x1x128 .f32) (fq : Bf (F := F) c qM) (fk : Bf (F := F) c kM) :
    Fin 16 → FVec F S1x8x1x1 .f32
  | ⟨0, _⟩ => k0_pay6 q0 (kAt c fk ![0, 0, 0] inb_S1024x16x128_S1024x1x128_0_0_0)
  | ⟨1, _⟩ => k0_pay13 (k0_pay7 (qAt c fq (k0_off3 c) (k0_off3_inb c))) (kAt c fk ![0, 1, 0] inb_S1024x16x128_S1024x1x128_0_1_0)
  | ⟨2, _⟩ => k0_pay21 (k0_pay14 (qAt c fq (k0_off4 c) (k0_off4_inb c))) (k0_pay15 (kAt c fk ![0, 2, 0] inb_S1024x16x128_S1024x1x128_0_2_0))
  | ⟨3, _⟩ => k0_pay30 (k0_pay22 (qAt c fq (k0_off5 c) (k0_off5_inb c))) (k0_pay23 (kAt c fk ![0, 3, 0] inb_S1024x16x128_S1024x1x128_0_3_0)) (constant S8x1024 .f32 0x00000000#32)
  | ⟨4, _⟩ => k0_pay37 (k0_pay32 (qAt c fq (k0_off6 c) (k0_off6_inb c)) (kAt c fk ![0, 4, 0] inb_S1024x16x128_S1024x1x128_0_4_0))
  | ⟨5, _⟩ => k0_pay45 (k0_pay39 (qAt c fq (k0_off7 c) (k0_off7_inb c)) (kAt c fk ![0, 5, 0] inb_S1024x16x128_S1024x1x128_0_5_0)) (k0_pay41 (qAt c fq (k0_off7 c) (k0_off7_inb c)) (kAt c fk ![0, 5, 0] inb_S1024x16x128_S1024x1x128_0_5_0))
  | ⟨6, _⟩ => k0_pay53 (k0_pay50 (qAt c fq (k0_off8 c) (k0_off8_inb c)) (kAt c fk ![0, 6, 0] inb_S1024x16x128_S1024x1x128_0_6_0))
  | ⟨7, _⟩ => k0_pay61 (k0_pay57 (qAt c fq (k0_off9 c) (k0_off9_inb c)) (kAt c fk ![0, 7, 0] inb_S1024x16x128_S1024x1x128_0_7_0))
  | ⟨8, _⟩ => k0_pay69 (k0_pay65 (qAt c fq (k0_off10 c) (k0_off10_inb c)) (kAt c fk ![0, 8, 0] inb_S1024x16x128_S1024x1x128_0_8_0))
  | ⟨9, _⟩ => k0_pay76 (k0_pay73 (qAt c fq (k0_off11 c) (k0_off11_inb c)) (kAt c fk ![0, 9, 0] inb_S1024x16x128_S1024x1x128_0_9_0))
  | ⟨10, _⟩ => k0_pay83 (k0_pay80 (qAt c fq (k0_off12 c) (k0_off12_inb c)) (kAt c fk ![0, 10, 0] inb_S1024x16x128_S1024x1x128_0_10_0))
  | ⟨11, _⟩ => k0_pay90 (k0_pay87 (qAt c fq (k0_off13 c) (k0_off13_inb c)) (kAt c fk ![0, 11, 0] inb_S1024x16x128_S1024x1x128_0_11_0))
  | ⟨12, _⟩ => k0_pay97 (k0_pay94 (qAt c fq (k0_off14 c) (k0_off14_inb c)) (kAt c fk ![0, 12, 0] inb_S1024x16x128_S1024x1x128_0_12_0))
  | ⟨13, _⟩ => k0_pay103 (qAt c fq (k0_off15 c) (k0_off15_inb c)) (kAt c fk ![0, 13, 0] inb_S1024x16x128_S1024x1x128_0_13_0)
  | ⟨14, _⟩ => k0_pay109 (qAt c fq (k0_off16 c) (k0_off16_inb c)) (kAt c fk ![0, 14, 0] inb_S1024x16x128_S1024x1x128_0_14_0)
  | ⟨15, _⟩ => k0_pay115 (qAt c fq (k0_off17 c) (k0_off17_inb c)) (kAt c fk ![0, 15, 0] inb_S1024x16x128_S1024x1x128_0_15_0)
  | ⟨n + 16, hn⟩ => absurd hn (by omega)

/-- Slot 0 of the partial-sum buffer after the heads: row `a` of head `h`, lane `d`. -/
def computeOq (c : Dev nD) (q0 : Vec F S1x8x1x128 .f32) (fq : Bf (F := F) c qM) (fk : Bf (F := F) c kM) (fv : Bf (F := F) c vM) :
    S8x16x128.Idx → Elt F .f32 :=
  fun x => stO c q0 fq fk fv (x 1) (ix4 (0 : Fin 1) (x 0) (0 : Fin 1) (x 2))
/-- Slot 0 of the maxima buffer after the heads. -/
def computeMq (c : Dev nD) (q0 : Vec F S1x8x1x128 .f32) (fq : Bf (F := F) c qM) (fk : Bf (F := F) c kM) :
    S8x16x1.Idx → Elt F .f32 :=
  fun x => stM c q0 fq fk (x 1) (ix4 (0 : Fin 1) (x 0) (0 : Fin 1) (x 2))
/-- Slot 0 of the row-sum buffer after the heads. -/
def computeLq (c : Dev nD) (q0 : Vec F S1x8x1x128 .f32) (fq : Bf (F := F) c qM) (fk : Bf (F := F) c kM) :
    S8x16x1.Idx → Elt F .f32 :=
  fun x => stL c q0 fq fk (x 1) (ix4 (0 : Fin 1) (x 0) (0 : Fin 1) (x 2))

/-- The three at head 0's own rows of the query block: what slot 0 of each buffer holds after the heads, a function of
    the device's query, key and value blocks only. -/
def computeO (c : Dev nD) (fq : Bf (F := F) c qM) (fk : Bf (F := F) c kM) (fv : Bf (F := F) c vM) : S8x16x128.Idx → Elt F .f32 :=
  computeOq c (q0At c fq) fq fk fv
def computeM (c : Dev nD) (fq : Bf (F := F) c qM) (fk : Bf (F := F) c kM) : S8x16x1.Idx → Elt F .f32 :=
  computeMq c (q0At c fq) fq fk
def computeL (c : Dev nD) (fq : Bf (F := F) c qM) (fk : Bf (F := F) c kM) : S8x16x1.Idx → Elt F .f32 :=
  computeLq c (q0At c fq) fq fk

/-! ## What the run leaves in the three buffers -/

set_option maxRecDepth 65536 in
/-- The run's witnesses are the sixteen stores, head by head, over what the buffers held: both sides unfold to the
    same list of writes. -/
theorem computeRun_W1 (c : Dev nD) (v28 : Vec F S1x8x1x128 .f32) (fq : Bf (F := F) c qM) (fk : Bf (F := F) c kM) (fv : Bf (F := F) c vM)
    (f6 : Bf (F := F) c coM) (f7 : Bf (F := F) c cmM) (f8 : Bf (F := F) c clM) :
    (computeRun c v28 fq fk fv f6 f7 f8).1.1 = coM.view.writes (Elt F) f6 (piecesO (stO c v28 fq fk fv)) := by sl_kernel_rfl
set_option maxRecDepth 65536 in
theorem computeRun_W2 (c : Dev nD) (v28 : Vec F S1x8x1x128 .f32) (fq : Bf (F := F) c qM) (fk : Bf (F := F) c kM) (fv : Bf (F := F) c vM)
    (f6 : Bf (F := F) c coM) (f7 : Bf (F := F) c cmM) (f8 : Bf (F := F) c clM) :
    (computeRun c v28 fq fk fv f6 f7 f8).1.2.1 = cmM.view.writes (Elt F) f7 (piecesC (stM c v28 fq fk)) := by sl_kernel_rfl
set_option maxRecDepth 65536 in
theorem computeRun_W3 (c : Dev nD) (v28 : Vec F S1x8x1x128 .f32) (fq : Bf (F := F) c qM) (fk : Bf (F := F) c kM) (fv : Bf (F := F) c vM)
    (f6 : Bf (F := F) c coM) (f7 : Bf (F := F) c cmM) (f8 : Bf (F := F) c clM) :
    (computeRun c v28 fq fk fv f6 f7 f8).1.2.2 = clM.view.writes (Elt F) f8 (piecesC (stL c v28 fq fk)) := by sl_kernel_rfl

/-- Slot 0 of the partial-sum buffer after the run: a function of the query, key and value blocks only. -/
theorem computeRun_o0 (c : Dev nD) (v28 : Vec F S1x8x1x128 .f32) (fq : Bf (F := F) c qM) (fk : Bf (F := F) c kM) (fv : Bf (F := F) c vM)
    (f6 : Bf (F := F) c coM) (f7 : Bf (F := F) c cmM) (f8 : Bf (F := F) c clM) :
    (oSlot 0).view.read (Elt F) (computeRun c v28 fq fk fv f6 f7 f8).1.1 = computeOq c v28 fq fk fv := by
  funext x
  refine (slot3_read coM.view 0 _ _ _ x).trans ?_
  rw [computeRun_W1]
  exact read_piecesO_slot0 coM.view f6 _ (x 0) (x 1) (x 2)
theorem computeRun_m0 (c : Dev nD) (v28 : Vec F S1x8x1x128 .f32) (fq : Bf (F := F) c qM) (fk : Bf (F := F) c kM) (fv : Bf (F := F) c vM)
    (f6 : Bf (F := F) c coM) (f7 : Bf (F := F) c cmM) (f8 : Bf (F := F) c clM) :
    (cSlot cmM 0).view.read (Elt F) (computeRun c v28 fq fk fv f6 f7 f8).1.2.1 = computeMq c v28 fq fk := by
  funext x
  refine (slot1_read cmM.view 0 _ _ _ x).trans ?_
  rw [computeRun_W2]
  exact read_piecesC_slot0 cmM.view f7 _ (x 0) (x 1) (x 2)
theorem computeRun_l0 (c : Dev nD) (v28 : Vec F S1x8x1x128 .f32) (fq : Bf (F := F) c qM) (fk : Bf (F := F) c kM) (fv : Bf (F := F) c vM)
    (f6 : Bf (F := F) c coM) (f7 : Bf (F := F) c cmM) (f8 : Bf (F := F) c clM) :
    (cSlot clM 0).view.read (Elt F) (computeRun c v28 fq fk fv f6 f7 f8).1.2.2 = computeLq c v28 fq fk := by
  funext x
  refine (slot1_read clM.view 0 _ _ _ x).trans ?_
  rw [computeRun_W3]
  exact read_piecesC_slot0 clM.view f8 _ (x 0) (x 1) (x 2)

/-- Slots 1, 2, 3 read after the run what they read before it. -/
theorem computeRun_o_rest (c : Dev nD) (v28 : Vec F S1x8x1x128 .f32) (fq : Bf (F := F) c qM) (fk : Bf (F := F) c kM) (fv : Bf (F := F) c vM)
    (f6 : Bf (F := F) c coM) (f7 : Bf (F := F) c cmM) (f8 : Bf (F := F) c clM) :
    (oSlot 1).view.read (Elt F) (computeRun c v28 fq fk fv f6 f7 f8).1.1 = (oSlot 1).view.read (Elt F) f6
    ∧ (oSlot 2).view.read (Elt F) (computeRun c v28 fq fk fv f6 f7 f8).1.1 = (oSlot 2).view.read (Elt F) f6
    ∧ (oSlot 3).view.read (Elt F) (computeRun c v28 fq fk fv f6 f7 f8).1.1 = (oSlot 3).view.read (Elt F) f6 := by
  rw [computeRun_W1]
  refine ⟨funext fun x => ?_, funext fun x => ?_, funext fun x => ?_⟩
  · exact (slot3_read coM.view 1 _ _ _ x).trans ((read_piecesO_rest coM.view f6 _ _ (by show ((1 : Fin 4) : ℕ) ≠ 0; decide)).trans (slot3_read coM.view 1 _ _ _ x).symm)
  · exact (slot3_read coM.view 2 _ _ _ x).trans ((read_piecesO_rest coM.view f6 _ _ (by show ((2 : Fin 4) : ℕ) ≠ 0; decide)).trans (slot3_read coM.view 2 _ _ _ x).symm)
  · exact (slot3_read coM.view 3 _ _ _ x).trans ((read_piecesO_rest coM.view f6 _ _ (by show ((3 : Fin 4) : ℕ) ≠ 0; decide)).trans (slot3_read coM.view 3 _ _ _ x).symm)
theorem computeRun_m_rest (c : Dev nD) (v28 : Vec F S1x8x1x128 .f32) (fq : Bf (F := F) c qM) (fk : Bf (F := F) c kM) (fv : Bf (F := F) c vM)
    (f6 : Bf (F := F) c coM) (f7 : Bf (F := F) c cmM) (f8 : Bf (F := F) c clM) :
    (cSlot cmM 1).view.read (Elt F) (computeRun c v28 fq fk fv f6 f7 f8).1.2.1 = (cSlot cmM 1).view.read (Elt F) f7
    ∧ (cSlot cmM 2).view.read (Elt F) (computeRun c v28 fq fk fv f6 f7 f8).1.2.1 = (cSlot cmM 2).view.read (Elt F) f7
    ∧ (cSlot cmM 3).view.read (Elt F) (computeRun c v28 fq fk fv f6 f7 f8).1.2.1 = (cSlot cmM 3).view.read (Elt F) f7 := by
  rw [computeRun_W2]
  refine ⟨funext fun x => ?_, funext fun x => ?_, funext fun x => ?_⟩
  · exact (slot1_read cmM.view 1 _ _ _ x).trans ((read_piecesC_rest cmM.view f7 _ _ (by show ((1 : Fin 4) : ℕ) ≠ 0; decide)).trans (slot1_read cmM.view 1 _ _ _ x).symm)
  · exact (slot1_read cmM.view 2 _ _ _ x).trans ((read_piecesC_rest cmM.view f7 _ _ (by show ((2 : Fin 4) : ℕ) ≠ 0; decide)).trans (slot1_read cmM.view 2 _ _ _ x).symm)
  · exact (slot1_read cmM.view 3 _ _ _ x).trans ((read_piecesC_rest cmM.view f7 _ _ (by show ((3 : Fin 4) : ℕ) ≠ 0; decide)).trans (slot1_read cmM.view 3 _ _ _ x).symm)
theorem computeRun_l_rest (c : Dev nD) (v28 : Vec F S1x8x1x128 .f32) (fq : Bf (F := F) c qM) (fk : Bf (F := F) c kM) (fv : Bf (F := F) c vM)
    (f6 : Bf (F := F) c coM) (f7 : Bf (F := F) c cmM) (f8 : Bf (F := F) c clM) :
    (cSlot clM 1).view.read (Elt F) (computeRun c v28 fq fk fv f6 f7 f8).1.2.2 = (cSlot clM 1).view.read (Elt F) f8
    ∧ (cSlot clM 2).view.read (Elt F) (computeRun c v28 fq fk fv f6 f7 f8).1.2.2 = (cSlot clM 2).view.read (Elt F) f8
    ∧ (cSlot clM 3).view.read (Elt F) (computeRun c v28 fq fk fv f6 f7 f8).1.2.2 = (cSlot clM 3).view.read (Elt F) f8 := by
  rw [computeRun_W3]
  refine ⟨funext fun x => ?_, funext fun x => ?_, funext fun x => ?_⟩
  · exact (slot1_read clM.view 1 _ _ _ x).trans ((read_piecesC_rest clM.view f8 _ _ (by show ((1 : Fin 4) : ℕ) ≠ 0; decide)).trans (slot1_read clM.view 1 _ _ _ x).symm)
  · exact (slot1_read clM.view 2 _ _ _ x).trans ((read_piecesC_rest clM.view f8 _ _ (by show ((2 : Fin 4) : ℕ) ≠ 0; decide)).trans (slot1_read clM.view 2 _ _ _ x).symm)
  · exact (slot1_read clM.view 3 _ _ _ x).trans ((read_piecesC_rest clM.view f8 _ _ (by show ((3 : Fin 4) : ℕ) ≠ 0; decide)).trans (slot1_read clM.view 3 _ _ _ x).symm)

/-! ## The merge of the four slots -/

/-- A slot's contents as the body loads them: with the leading unit axis. -/
def unsq3 {α : Type} (x : S8x16x128.Idx → α) : S1x8x16x128.Idx → α := fun i => x (ix3 (i 1) (i 2) (i 3))
def unsq1 {α : Type} (x : S8x16x1.Idx → α) : S1x8x16x1.Idx → α := fun i => x (ix3 (i 1) (i 2) (i 3))

/-- The merged and normalised rows, from the four slots' partial sums `o`, row maxima `m` and row sums `l` as
    loaded: slots 0 and 1 are combined first (to the common maximum `max m₀ m₁`), then slots 2 and 3 are folded in,
    and the sum is divided by the merged row sum — through the generated payload terms. -/
def mergeRow (o : Fin 4 → Vec F S1x8x16x128 .f32) (m l : Fin 4 → Vec F S1x8x16x1 .f32) : FVec F S1x8x16x128 .f32 :=
  k0_pay133
    (k0_pay130 (k0_pay118 (m 0) (m 1)) (m 2) (m 3))
    (k0_pay131 (k0_pay118 (m 0) (m 1)) (k0_pay121 (m 0) (o 0) (m 1) (o 1)) (m 2) (o 2) (m 3) (o 3))
    (k0_pay132 (k0_pay118 (m 0) (m 1)) (k0_pay120 (m 0) (m 1)) (k0_pay122 (m 0) (l 0) (m 1)) (l 1) (m 2) (l 2) (m 3))
    (l 3)

/-- The same over the slots' contents `xo j`, `xm j`, `xl j` as the slot views read them. -/
def mergeOf (xo : Fin 4 → S8x16x128.Idx → Elt F .f32) (xm xl : Fin 4 → S8x16x1.Idx → Elt F .f32) : FVec F S1x8x16x128 .f32 :=
  mergeRow (fun j => unsq3 (xo j)) (fun j => unsq1 (xm j)) (fun j => unsq1 (xl j))

/-- Slot `j` of the partial-sum buffer as the merge loads it. -/
abbrev oLoad (c : Dev nD) (g6 : Bf (F := F) c coM) (j : Fin 4) : Vec F S1x8x16x128 .f32 :=
  coM.view.readAt (Elt F) (Rect.unit (s := S4x8x16x128) ![j.val, 0, 0, 0] S1x8x16x128.size (inbS3 j)).toLoadRect g6
/-- Slot `j` of a column buffer as the merge loads it. -/
abbrev cLoad (c : Dev nD) (M : Memref sig .tc .vmem S4x8x16x1 .f32) (g : Bf (F := F) c M) (j : Fin 4) : Vec F S1x8x16x1 .f32 :=
  M.view.readAt (Elt F) (Rect.unit (s := S4x8x16x1) ![j.val, 0, 0, 0] S1x8x16x1.size (inbS1 j)).toLoadRect g

set_option maxRecDepth 65536 in
/-- The run's value is the merge of the twelve loaded slots. -/
theorem mergeRun_val (c : Dev nD) (g6 : Bf (F := F) c coM) (g7 : Bf (F := F) c cmM) (g8 : Bf (F := F) c clM) :
    (mergeRun c g6 g7 g8).1 = mergeRow (oLoad c g6) (cLoad c cmM g7) (cLoad c clM g8) := rfl

omit [FloatOps F] in
theorem oLoad_eq (c : Dev nD) (g6 : Bf (F := F) c coM) (j : Fin 4) (inb : ∀ a, (![j.val, 0, 0, 0] : Fin 4 → ℕ) a + S1x8x16x128.size a ≤ S4x8x16x128.size a)
    (hn : S8x16x128.numel = S1x8x16x128.numel) :
    oLoad c g6 j = unsq3 (((coM.view.slice (Rect.unit (s := S4x8x16x128) ![j.val, 0, 0, 0] S1x8x16x128.size inb)).reshape S8x16x128 hn).read (Elt F) g6) := by
  funext i
  have h0 : (i 0).val < 1 := (i 0).isLt
  show coM.view.read (Elt F) g6 ((Rect.unit (s := S4x8x16x128) ![j.val, 0, 0, 0] S1x8x16x128.size (inbS3 j)).toLoadRect.idx i) = _
  rw [unsq3, slot3_read]
  congr 1
  funext a
  apply Fin.ext
  rw [LoadRect.idx_apply]
  match a with
  | ⟨0, _⟩ => show j.val + 1 * (i 0).val = j.val; omega
  | ⟨1, _⟩ => show 0 + 1 * (i 1).val = (i 1).val; omega
  | ⟨2, _⟩ => show 0 + 1 * (i 2).val = (i 2).val; omega
  | ⟨3, _⟩ => show 0 + 1 * (i 3).val = (i 3).val; omega

omit [FloatOps F] in
theorem cLoad_eq (c : Dev nD) (M : Memref sig .tc .vmem S4x8x16x1 .f32) (g : Bf (F := F) c M) (j : Fin 4)
    (inb : ∀ a, (![j.val, 0, 0, 0] : Fin 4 → ℕ) a + S1x8x16x1.size a ≤ S4x8x16x1.size a)
    (hn : S8x16x1.numel = S1x8x16x1.numel) :
    cLoad c M g j = unsq1 (((M.view.slice (Rect.unit (s := S4x8x16x1) ![j.val, 0, 0, 0] S1x8x16x1.size inb)).reshape S8x16x1 hn).read (Elt F) g) := by
  funext i
  have h0 : (i 0).val < 1 := (i 0).isLt
  show M.view.read (Elt F) g ((Rect.unit (s := S4x8x16x1) ![j.val, 0, 0, 0] S1x8x16x1.size (inbS1 j)).toLoadRect.idx i) = _
  rw [unsq1, slot1_read]
  congr 1
  funext a
  apply Fin.ext
  rw [LoadRect.idx_apply]
  match a with
  | ⟨0, _⟩ => show j.val + 1 * (i 0).val = j.val; omega
  | ⟨1, _⟩ => show 0 + 1 * (i 1).val = (i 1).val; omega
  | ⟨2, _⟩ => show 0 + 1 * (i 2).val = (i 2).val; omega
  | ⟨3, _⟩ => show 0 + 1 * (i 3).val = (i 3).val; omega

/-- What the four slots of the partial-sum buffer read. -/
def slotsO (c : Dev nD) (g6 : Bf (F := F) c coM) : Fin 4 → S8x16x128.Idx → Elt F .f32
  | 0 => (oSlot 0).view.read (Elt F) g6
  | 1 => (oSlot 1).view.read (Elt F) g6
  | 2 => (oSlot 2).view.read (Elt F) g6
  | 3 => (oSlot 3).view.read (Elt F) g6
/-- What the four slots of a column buffer read. -/
def slotsC (c : Dev nD) (M : Memref sig .tc .vmem S4x8x16x1 .f32) (g : Bf (F := F) c M) : Fin 4 → S8x16x1.Idx → Elt F .f32
  | 0 => (cSlot M 0).view.read (Elt F) g
  | 1 => (cSlot M 1).view.read (Elt F) g
  | 2 => (cSlot M 2).view.read (Elt F) g
  | 3 => (cSlot M 3).view.read (Elt F) g

/-- The run's value from what the four slots of each buffer read. -/
theorem mergeRun_slots (c : Dev nD) (g6 : Bf (F := F) c coM) (g7 : Bf (F := F) c cmM) (g8 : Bf (F := F) c clM) :
    (mergeRun c g6 g7 g8).1 = mergeOf (slotsO c g6) (slotsC c cmM g7) (slotsC c clM g8) := by
  rw [mergeRun_val, mergeOf]
  congr 1
  · funext j
    match j with
    | 0 => exact oLoad_eq c g6 0 _ _
    | 1 => exact oLoad_eq c g6 1 _ _
    | 2 => exact oLoad_eq c g6 2 _ _
    | 3 => exact oLoad_eq c g6 3 _ _
  · funext j
    match j with
    | 0 => exact cLoad_eq c cmM g7 0 _ _
    | 1 => exact cLoad_eq c cmM g7 1 _ _
    | 2 => exact cLoad_eq c cmM g7 2 _ _
    | 3 => exact cLoad_eq c cmM g7 3 _ _
  · funext j
    match j with
    | 0 => exact cLoad_eq c clM g8 0 _ _
    | 1 => exact cLoad_eq c clM g8 1 _ _
    | 2 => exact cLoad_eq c clM g8 2 _ _
    | 3 => exact cLoad_eq c clM g8 3 _ _

/-- info: 'Cert.KernelIdeal.FD.computeRun' depends on axioms: [propext, Classical.choice, Quot.sound] -/
#guard_msgs in #print axioms computeRun
/-- info: 'Cert.KernelIdeal.FD.computeRun_o0' depends on axioms: [propext, Classical.choice, Quot.sound] -/
#guard_msgs in #print axioms computeRun_o0
/-- info: 'Cert.KernelIdeal.FD.computeRun_o_rest' depends on axioms: [propext, Classical.choice, Quot.sound] -/
#guard_msgs in #print axioms computeRun_o_rest
/-- info: 'Cert.KernelIdeal.FD.mergeRun' depends on axioms: [propext, Classical.choice, Quot.sound] -/
#guard_msgs in #print axioms mergeRun
/-- info: 'Cert.KernelIdeal.FD.mergeRun_slots' depends on axioms: [propext, Classical.choice, Quot.sound] -/
#guard_msgs in #print axioms mergeRun_slots

end Cert.KernelIdeal.FD

end
-- ==== Proof.Data.lean ====
/-
  The values of the protocol, from the memory the kernel is launched on. Device c copies row r(c) of its block of the
  keys and of the values into scratch; from them and the queries it computes, head by head, its partial results; the
  merged row of a device is the merge of its own partial results with those of the three devices before it along z;
  the gathered result of a z-plane has, as row b, the merged row of the plane's device that serves b.
-/
import proofs.«900429_g7700000000000430_dist_flashdec_v7x_xyz2x4x4_z_b8_sq8_skv1024_h16_d128_f32_1_alg».proof.Proof.State
import proofs.«900429_g7700000000000430_dist_flashdec_v7x_xyz2x4x4_z_b8_sq8_skv1024_h16_d128_f32_1_alg».proof.Proof.Compute

noncomputable section

namespace Cert.KernelIdeal.FD

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

variable (m : (ℓ : Loc nD τ sig) → Buf (Elt F) ℓ)

/-- The row of keys (values) device `c` serves: row r(c) of its block of the key (value) array. -/
def kinD (c : Dev nD) : S1024x16x128.Idx → Elt F .f32 := (kSrc c).view.read (Elt F) (m ((kSrc c).view.loc (c : Thread nD τ)))
def vinD (c : Dev nD) : S1024x16x128.Idx → Elt F .f32 := (vSrc c).view.read (Elt F) (m ((vSrc c).view.loc (c : Thread nD τ)))

/-- The partial results device `c` computes from its own key block: the unnormalised outputs, the row maxima, the row sums. -/
def voD (c : Dev nD) : S8x16x128.Idx → Elt F .f32 :=
  computeO c (qstg m c : Bf (F := F) c qM) (kinD m c : Bf (F := F) c kM) (vinD m c : Bf (F := F) c vM)
def vmD (c : Dev nD) : S8x16x1.Idx → Elt F .f32 := computeM c (qstg m c : Bf (F := F) c qM) (kinD m c : Bf (F := F) c kM)
def vlD (c : Dev nD) : S8x16x1.Idx → Elt F .f32 := computeL c (qstg m c : Bf (F := F) c qM) (kinD m c : Bf (F := F) c kM)

/-- The merged row of device `c`: its own partial results merged with those of the three devices before it along z. -/
def vrD (c : Dev nD) : S1x8x16x128.Idx → Elt F .f32 :=
  mergeOf (fun j => voD m (back j.val c)) (fun j => vmD m (back j.val c)) (fun j => vlD m (back j.val c))

/-- The device of plane `z` that serves row `b`. -/
def atRow (z b : ℕ) : Dev nD := ⟨(16 * (b / 4) + 4 * (b % 4) + z % 4) % 32, Nat.mod_lt _ (by decide)⟩

theorem atRow_self (c : Dev nD) : atRow (c.val % 4) (row c) = c := by revert c; decide

/-- The gathered result of plane `z`: row `b` is the merged row of the plane's device serving `b`. -/
def vgD (z : ℕ) : S8x8x16x128.Idx → Elt F .f32 :=
  fun i => vrD m (atRow z (i 0).val) (ix4 (0 : Fin 1) (i 1) (i 2) (i 3))

/-! ## The facts the body's composition needs -/

/-- A device's own row of the gathered result of its plane is its merged row. -/
theorem row1_vgD (c : Dev nD) :
    (row1 c).view.read (Elt F) (vgD m (c.val % 4) : Bf (F := F) c outM) = vrD m c := by
  funext i
  have hi0 : (i 0).val < 1 := (i 0).isLt
  have h0 : k0_off19 c 0 = row c := by rw [off19_eq']; rfl
  have h1 : k0_off19 c 1 = 0 := by rw [off19_eq']; rfl
  have h2 : k0_off19 c 2 = 0 := by rw [off19_eq']; rfl
  have h3 : k0_off19 c 3 = 0 := by rw [off19_eq']; rfl
  show vgD m (c.val % 4) ((Rect.unit (s := S8x8x16x128) (k0_off19 c) S1x8x16x128.size (k0_off19_inb c)).emb i) = vrD m c i
  unfold vgD
  have e0 : ((Rect.unit (s := S8x8x16x128) (k0_off19 c) S1x8x16x128.size (k0_off19_inb c)).emb i 0).val = row c := by
    rw [Rect.emb_apply]; show k0_off19 c 0 + 1 * (i 0).val = row c; omega
  rw [e0, atRow_self]
  congr 1
  funext a
  apply Fin.ext
  match a with
  | ⟨0, _⟩ => show (0 : ℕ) = (i 0).val; omega
  | ⟨1, _⟩ => show ((Rect.unit (s := S8x8x16x128) (k0_off19 c) S1x8x16x128.size (k0_off19_inb c)).emb i 1).val = (i 1).val
              rw [Rect.emb_apply]; show k0_off19 c 1 + 1 * (i 1).val = (i 1).val; omega
  | ⟨2, _⟩ => show ((Rect.unit (s := S8x8x16x128) (k0_off19 c) S1x8x16x128.size (k0_off19_inb c)).emb i 2).val = (i 2).val
              rw [Rect.emb_apply]; show k0_off19 c 2 + 1 * (i 2).val = (i 2).val; omega
  | ⟨3, _⟩ => show ((Rect.unit (s := S8x8x16x128) (k0_off19 c) S1x8x16x128.size (k0_off19_inb c)).emb i 3).val = (i 3).val
              rw [Rect.emb_apply]; show k0_off19 c 3 + 1 * (i 3).val = (i 3).val; omega

/-- The merge at device `c`, run from buffers whose slot `j` reads the partial results of the `j`-th device before `c`,
    returns the merged row of `c`. -/
theorem mergeRun_vrD (c : Dev nD) (g6 : Bf (F := F) c coM) (g7 : Bf (F := F) c cmM) (g8 : Bf (F := F) c clM)
    (ho : ∀ j : Fin 4, slotsO c g6 j = voD m (back j.val c))
    (hm : ∀ j : Fin 4, slotsC c cmM g7 j = vmD m (back j.val c))
    (hl : ∀ j : Fin 4, slotsC c clM g8 j = vlD m (back j.val c)) :
    (mergeRun c g6 g7 g8).1 = vrD m c := by
  rw [mergeRun_slots, vrD]
  congr 1
  · exact funext ho
  · exact funext hm
  · exact funext hl

/-- The same from the twelve slot facts, slot by slot. -/
theorem mergeRun_vrD' (c : Dev nD) (g6 : Bf (F := F) c coM) (g7 : Bf (F := F) c cmM) (g8 : Bf (F := F) c clM)
    (ho0 : (oSlot 0).view.read (Elt F) g6 = voD m (back 0 c)) (ho1 : (oSlot 1).view.read (Elt F) g6 = voD m (back 1 c))
    (ho2 : (oSlot 2).view.read (Elt F) g6 = voD m (back 2 c)) (ho3 : (oSlot 3).view.read (Elt F) g6 = voD m (back 3 c))
    (hm0 : (cSlot cmM 0).view.read (Elt F) g7 = vmD m (back 0 c)) (hm1 : (cSlot cmM 1).view.read (Elt F) g7 = vmD m (back 1 c))
    (hm2 : (cSlot cmM 2).view.read (Elt F) g7 = vmD m (back 2 c)) (hm3 : (cSlot cmM 3).view.read (Elt F) g7 = vmD m (back 3 c))
    (hl0 : (cSlot clM 0).view.read (Elt F) g8 = vlD m (back 0 c)) (hl1 : (cSlot clM 1).view.read (Elt F) g8 = vlD m (back 1 c))
    (hl2 : (cSlot clM 2).view.read (Elt F) g8 = vlD m (back 2 c)) (hl3 : (cSlot clM 3).view.read (Elt F) g8 = vlD m (back 3 c)) :
    (mergeRun c g6 g7 g8).1 = vrD m c :=
  mergeRun_vrD m c g6 g7 g8
    (fun j => match j with | 0 => ho0 | 1 => ho1 | 2 => ho2 | 3 => ho3)
    (fun j => match j with | 0 => hm0 | 1 => hm1 | 2 => hm2 | 3 => hm3)
    (fun j => match j with | 0 => hl0 | 1 => hl1 | 2 => hl2 | 3 => hl3)

/-- The heads at device `c`, run from the staged queries and from scratch buffers holding the device's key and value
    rows, leave in slot 0 of the three buffers the partial results of `c`. -/
theorem computeRun_slot0 (c : Dev nD) (fk : Bf (F := F) c kM) (fv : Bf (F := F) c vM)
    (hk : kM.view.read (Elt F) fk = kinD m c) (hv : vM.view.read (Elt F) fv = vinD m c)
    (f6 : Bf (F := F) c coM) (f7 : Bf (F := F) c cmM) (f8 : Bf (F := F) c clM) :
    (oSlot 0).view.read (Elt F) (computeRun c (q0At c (qstg m c : Bf (F := F) c qM)) (qstg m c : Bf (F := F) c qM) fk fv f6 f7 f8).1.1 = voD m c
    ∧ (cSlot cmM 0).view.read (Elt F) (computeRun c (q0At c (qstg m c : Bf (F := F) c qM)) (qstg m c : Bf (F := F) c qM) fk fv f6 f7 f8).1.2.1 = vmD m c
    ∧ (cSlot clM 0).view.read (Elt F) (computeRun c (q0At c (qstg m c : Bf (F := F) c qM)) (qstg m c : Bf (F := F) c qM) fk fv f6 f7 f8).1.2.2 = vlD m c := by
  obtain rfl : fk = (kinD m c : Bf (F := F) c kM) := hk
  obtain rfl : fv = (vinD m c : Bf (F := F) c vM) := hv
  exact ⟨computeRun_o0 c _ _ _ _ f6 f7 f8, computeRun_m0 c _ _ _ _ f6 f7 f8, computeRun_l0 c _ _ _ _ f6 f7 f8⟩

/-- info: 'Cert.KernelIdeal.FD.row1_vgD' depends on axioms: [propext, Classical.choice, Quot.sound] -/
#guard_msgs in #print axioms row1_vgD
/-- info: 'Cert.KernelIdeal.FD.mergeRun_vrD' depends on axioms: [propext, Classical.choice, Quot.sound] -/
#guard_msgs in #print axioms mergeRun_vrD
/-- info: 'Cert.KernelIdeal.FD.computeRun_slot0' depends on axioms: [propext, Classical.choice, Quot.sound] -/
#guard_msgs in #print axioms computeRun_slot0

end Cert.KernelIdeal.FD

end
-- ==== Proof.Part1.lean ====
/-
  The entry part of the body at one device: the device copies the row of keys and the row of values it serves from
  the key and value arrays into its two scratch buffers, waits for both copies, and loads head 0's rows of the staged
  query block. Each copy pays the one duty of its load cell; the wait on that cell hands the scratch buffer back
  holding the row, with the row of the array the copy had borrowed.
-/
import proofs.«900429_g7700000000000430_dist_flashdec_v7x_xyz2x4x4_z_b8_sq8_skv1024_h16_d128_f32_1_alg».proof.Proof.BodyState
import proofs.«900429_g7700000000000430_dist_flashdec_v7x_xyz2x4x4_z_b8_sq8_skv1024_h16_d128_f32_1_alg».proof.Proof.BodyProto
import proofs.«900429_g7700000000000430_dist_flashdec_v7x_xyz2x4x4_z_b8_sq8_skv1024_h16_d128_f32_1_alg».proof.Proof.BodySteps
import proofs.«900429_g7700000000000430_dist_flashdec_v7x_xyz2x4x4_z_b8_sq8_skv1024_h16_d128_f32_1_alg».proof.Proof.Segments
import proofs.«900429_g7700000000000430_dist_flashdec_v7x_xyz2x4x4_z_b8_sq8_skv1024_h16_d128_f32_1_alg».proof.Proof.State
import proofs.«900429_g7700000000000430_dist_flashdec_v7x_xyz2x4x4_z_b8_sq8_skv1024_h16_d128_f32_1_alg».proof.Proof.Data

set_option synthInstance.maxSize 4096

noncomputable section

namespace Cert.KernelIdeal.FD

open Cert.KernelIdeal Cert.KernelIdeal.Gen Cert.KernelIdeal.Mesh

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.BodyProto (own_wait)

variable {F : FTy → Type} [FloatOps F]

local notation "𝕄" => MT nD τ sig Unit (Elt F) ℕ UU ℕ

variable (vo : Dev nD → S8x16x128.Idx → Elt F .f32) (vm vl : Dev nD → S8x16x1.Idx → Elt F .f32)
variable (vg : ℕ → S8x8x16x128.Idx → Elt F .f32)
variable (kin vin : Dev nD → S1024x16x128.Idx → Elt F .f32)
variable (m : (ℓ : Loc nD τ sig) → Buf (Elt F) ℓ)

local notation "RD" => Rd vo vm vl vg kin vin m

omit [FloatOps F] in
theorem kind_load_ne (i : Fin 2) : kindOf (sem2 cc0_scratch5 i) ≠ Kind.other := by rw [kind_load]; exact fun e => Kind.noConfusion e

omit [FloatOps F] in
/-- The one duty of a load cell. -/
theorem load_duty (c : Dev nD) (i : Fin 2) : (0 : Fin 5) ∈ (RD).duties (loadCell c i) 0 := by
  show (0 : Fin 5) ∈ (RD).duties ((c : Thread nD τ), .dma (sem2 cc0_scratch5 i)) 0
  rw [duties_dma vo vm vl vg kin vin m c _ (kind_load_ne i)]; exact Finset.mem_singleton_self _

omit [FloatOps F] in
theorem load_amount (c : Dev nD) (i : Fin 2) : (RD).amount (loadCell c i) 0 0 = Nkv := by
  show (RD).amount ((c : Thread nD τ), .dma (sem2 cc0_scratch5 i)) 0 0 = Nkv
  rw [amount_dma, kind_load]; rfl

omit [FloatOps F] in
theorem load_payload (c : Dev nD) (i : Fin 2) :
    (RD).payload (loadCell c i) 0 0 = dmaPay vo vm vl vg kin vin m c (.load i) := by
  show (RD).payload ((c : Thread nD τ), .dma (sem2 cc0_scratch5 i)) 0 0 = _
  rw [payload_dma, kind_load]

omit [FloatOps F] in
/-- What the landing of the key copy hands over: the scratch buffer holding the row's keys, and the row of the array back. -/
theorem load_pay0 (c : Dev nD) (hkin : kin c = (kSrc c).view.read (Elt F) (m ((kSrc c).view.loc (c : Thread nD τ))))
    (fd : Buf (Elt F) (kM.view.loc (c : Thread nD τ))) :
    iprop((kM.view.loc (c : Thread nD τ) ↦[kM.view.set]{fullShare}
            (kM.view.write (Elt F) fd ((kSrc c).view.read (Elt F) (m ((kSrc c).view.loc (c : Thread nD τ)))) Finset.univ))
        ∗ ((kSrc c).view.loc (c : Thread nD τ) ↦[(kSrc c).view.set]{fullShare} m ((kSrc c).view.loc (c : Thread nD τ))))
      ⊢ (RD).payload (loadCell c 0) 0 0 := by
  rw [load_payload]
  show _ ⊢ iprop(holds c kM (kin c) ∗ hbmRow m c 0)
  iintro ⟨Hd, Hs⟩
  isplitl [Hd]
  · unfold holds
    iexists _
    isplitl [Hd]; · iexact Hd
    ipureintro
    rw [View.read_write_univ, hkin]
  · unfold hbmRow
    iexact Hs

omit [FloatOps F] in
theorem load_pay1 (c : Dev nD) (hvin : vin c = (vSrc c).view.read (Elt F) (m ((vSrc c).view.loc (c : Thread nD τ))))
    (fd : Buf (Elt F) (vM.view.loc (c : Thread nD τ))) :
    iprop((vM.view.loc (c : Thread nD τ) ↦[vM.view.set]{fullShare}
            (vM.view.write (Elt F) fd ((vSrc c).view.read (Elt F) (m ((vSrc c).view.loc (c : Thread nD τ)))) Finset.univ))
        ∗ ((vSrc c).view.loc (c : Thread nD τ) ↦[(vSrc c).view.set]{fullShare} m ((vSrc c).view.loc (c : Thread nD τ))))
      ⊢ (RD).payload (loadCell c 1) 0 0 := by
  rw [load_payload]
  show _ ⊢ iprop(holds c vM (vin c) ∗ hbmRow m c 1)
  iintro ⟨Hd, Hs⟩
  isplitl [Hd]
  · unfold holds
    iexists _
    isplitl [Hd]; · iexact Hd
    ipureintro
    rw [View.read_write_univ, hvin]
  · unfold hbmRow
    iexact Hs

omit [FloatOps F] in
theorem dmaPay_load0 (c : Dev nD) :
    dmaPay vo vm vl vg kin vin m c (kindOf (sem2 cc0_scratch5 0)) = iprop(holds c kM (kin c) ∗ hbmRow m c 0) := by
  rw [kind_load]; rfl
omit [FloatOps F] in
theorem dmaPay_load1 (c : Dev nD) :
    dmaPay vo vm vl vg kin vin m c (kindOf (sem2 cc0_scratch5 1)) = iprop(holds c vM (vin c) ∗ hbmRow m c 1) := by
  rw [kind_load]; rfl

omit [FloatOps F] in
theorem dmaPay_load0_le (c : Dev nD) :
    dmaPay vo vm vl vg kin vin m c (kindOf (sem2 cc0_scratch5 0)) ⊢ iprop(holds c kM (kin c) ∗ hbmRow m c 0) :=
  Entails.of_eq (dmaPay_load0 vo vm vl vg kin vin m c)
omit [FloatOps F] in
theorem dmaPay_load1_le (c : Dev nD) :
    dmaPay vo vm vl vg kin vin m c (kindOf (sem2 cc0_scratch5 1)) ⊢ iprop(holds c vM (vin c) ∗ hbmRow m c 1) :=
  Entails.of_eq (dmaPay_load1 vo vm vl vg kin vin m c)

omit [FloatOps F] in
/-- A whole scratch buffer held by its view's elements is held whole. -/
theorem kM_whole (c : Dev nD) (f : Bf (F := F) c kM) :
    (kM.view.loc (c : Thread nD τ) ↦[kM.view.set]{fullShare} f : sProp 𝕄) ⊢ pt c kM f :=
  Entails.of_eq (by simp only [Memref.view_whole, View.set_whole])
omit [FloatOps F] in
theorem vM_whole (c : Dev nD) (f : Bf (F := F) c vM) :
    (vM.view.loc (c : Thread nD τ) ↦[vM.view.set]{fullShare} f : sProp 𝕄) ⊢ pt c vM f :=
  Entails.of_eq (by simp only [Memref.view_whole, View.set_whole])

set_option maxRecDepth 65536 in
set_option maxHeartbeats 1600000 in
/-- The entry part at device `c`. -/
theorem part1_run (c : Dev nD) (κ : GSem nD τ sig → ℕ) (O : CellTallies nD τ sig Unit) (W : Waits sig Unit)
    (hkin : kin c = (kSrc c).view.read (Elt F) (m ((kSrc c).view.loc (c : Thread nD τ))))
    (hvin : vin c = (vSrc c).view.read (Elt F) (m ((vSrc c).view.loc (c : Thread nD τ))))
    (Q : (Σ' (d0 : Dev nD) (v2 : BitVec 32) (v5 : BitVec 32) (v8 : BitVec 32) (v10 : BitVec 32), Vec F S1x8x1x128 .f32) → sProp 𝕄) :
    iprop(cellRec vo vm vl vg kin vin m κ (loadCell c 0) ∗ cellRec vo vm vl vg kin vin m κ (loadCell c 1)
        ∗ MayWait (c : Thread nD τ) (.dma (sem2 cc0_scratch5 0)) () O ∗ MayWait (c : Thread nD τ) (.dma (sem2 cc0_scratch5 1)) () O
        ∗ loadToks (F := F) c ∗ kvPts m c ∗ owned (F := F) c kM ∗ owned (F := F) c vM ∗ pt c qM (qstg m c : Bf (F := F) c qM)
        ∗ owes (c : Thread nD τ) O W
        ∗ (iprop(loadDone (F := F) c ∗ kvPts m c
              ∗ (∃ fk : Bf (F := F) c kM, pt c kM fk ∗ ⌜kM.view.read (Elt F) fk = kin c⌝)
              ∗ (∃ fv : Bf (F := F) c vM, pt c vM fv ∗ ⌜vM.view.read (Elt F) fv = vin c⌝)
              ∗ pt c qM (qstg m c : Bf (F := F) c qM)
              ∗ owes (c : Thread nD τ) O (insert (SemLoc.dma (sem2 cc0_scratch5 1), ()) (insert (SemLoc.dma (sem2 cc0_scratch5 0), ()) W)))
            -∗ Q ⟨c, Scalar.remsi (Scalar.divsi (Dev.word c) 16#32) 2#32, Scalar.remsi (Scalar.divsi (Dev.word c) 4#32) 4#32,
                  Scalar.remsi (Scalar.divsi (Dev.word c) 1#32) 4#32,
                  Scalar.addi (Scalar.muli (Scalar.remsi (Scalar.divsi (Dev.word c) 16#32) 2#32) 4#32) (Scalar.remsi (Scalar.divsi (Dev.word c) 4#32) 4#32),
                  q0At c (qstg m c : Bf (F := F) c qM)⟩))
      ⊢ wp frame (wpE (defs₀ (F := F)) 𝒱₀ (c : Thread nD τ) none) Set.univ
          (k0_part1 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13) Q := by
  rw [k0_part1_eq_skeleton]
  unfold k0_part1_skel
  iintro ⟨#HI0, #HI1, #HM0, #HM1, Htoks, Hkv, HkM, HvM, Hq, HO, Hk⟩
  unfold cellRec
  icases HI0 with ⟨#Hinv0, #Hr0⟩
  icases HI1 with ⟨#Hinv1, #Hr1⟩
  unfold loadToks
  icases Htoks with ⟨Ht0, Ht1, Hat0, Hat1⟩
  unfold kvPts
  icases Hkv with ⟨HK, HV⟩
  unfold owned
  icases HkM with ⟨%fk0, HkM⟩
  icases HvM with ⟨%fv0, HvM⟩
  simp only [Prog.lift, Prog.bind_op, Prog.bind_ret, Prog.pure_eq_ret, wp_deviceId]
  ihave HK' := (pointsTo_split_subset (q := fullShare) (f := m ((kSrc c).view.loc (c : Thread nD τ))) (Finset.subset_univ ((kSrc c).view.set))).1 $$ HK
  icases HK' with ⟨Hrow0, Hrest0⟩
  ihave HV' := (pointsTo_split_subset (q := fullShare) (f := m ((vSrc c).view.loc (c : Thread nD τ))) (Finset.subset_univ ((vSrc c).view.set))).1 $$ HV
  icases HV' with ⟨Hrow1, Hrest1⟩
  iapply (Rounds.wp_copy_pointsTo 𝒱₀ ER RD (c : Thread nD τ) none (src := kSrc c) (dst := kM) (sem := .dma (sem2 cc0_scratch5 0))
      (q := fullShare) (fs := m ((kSrc c).view.loc (c : Thread nD τ))) (fd := fk0) (r := 0) (d := 0) (κ := κ (loadCell c 0))
      (load_duty vo vm vl vg kin vin m c 0) () Nkv (by rw [Nkv_eq]) (load_amount vo vm vl vg kin vin m c 0)
      (load_pay0 vo vm vl vg kin vin m c hkin fk0)) $$ [Hrow0 HkM Ht0]
  · isplitr; · iexact Hinv0
    isplitl [Hrow0]; · iexact Hrow0
    isplitl [HkM]; · iexact HkM
    isplitl [Ht0]; · iexact Ht0
    iexact Hr0
  iintro Hc0
  iapply (Rounds.wp_copy_pointsTo 𝒱₀ ER RD (c : Thread nD τ) none (src := vSrc c) (dst := vM) (sem := .dma (sem2 cc0_scratch5 1))
      (q := fullShare) (fs := m ((vSrc c).view.loc (c : Thread nD τ))) (fd := fv0) (r := 0) (d := 0) (κ := κ (loadCell c 1))
      (load_duty vo vm vl vg kin vin m c 1) () Nkv (by rw [Nkv_eq]) (load_amount vo vm vl vg kin vin m c 1)
      (load_pay1 vo vm vl vg kin vin m c hvin fv0)) $$ [Hrow1 HvM Ht1]
  · isplitr; · iexact Hinv1
    isplitl [Hrow1]; · iexact Hrow1
    isplitl [HvM]; · iexact HvM
    isplitl [Ht1]; · iexact Ht1
    iexact Hr1
  iintro Hc1
  iapply (own_wait vo vm vl vg kin vin m 𝒱₀ c (sem2 cc0_scratch5 0) (kind_load_ne 0) none (dst := kM)
      (by rw [kind_load]; exact Nkv_eq.symm) (Set.mem_univ _)) $$ [Hc0 HO Hat0]
  · isplitr; · iexact Hinv0
    isplitl [Hc0]; · iexact Hc0
    isplitl [HO]; · iexact HO
    isplitr; · iexact HM0
    iexact Hat0
  iintro ⟨HO, Hat0, -, Hpay0⟩
  iapply (own_wait vo vm vl vg kin vin m 𝒱₀ c (sem2 cc0_scratch5 1) (kind_load_ne 1) none (dst := vM)
      (by rw [kind_load]; exact Nkv_eq.symm) (Set.mem_univ _)) $$ [Hc1 HO Hat1]
  · isplitr; · iexact Hinv1
    isplitl [Hc1]; · iexact Hc1
    isplitl [HO]; · iexact HO
    isplitr; · iexact HM1
    iexact Hat1
  iintro ⟨HO, Hat1, -, Hpay1⟩
  ihave Hpay0' := (dmaPay_load0_le vo vm vl vg kin vin m c) $$ Hpay0
  ihave Hpay1' := (dmaPay_load1_le vo vm vl vg kin vin m c) $$ Hpay1
  icases Hpay0' with ⟨HkM, Hrow0⟩
  icases Hpay1' with ⟨HvM, Hrow1⟩
  unfold holds hbmRow
  icases HkM with ⟨%fk, HkM, %hfk⟩
  icases HvM with ⟨%fv, HvM, %hfv⟩
  ihave HK := (pointsTo_split_subset (q := fullShare) (f := m ((kSrc c).view.loc (c : Thread nD τ))) (Finset.subset_univ ((kSrc c).view.set))).2 $$ [Hrow0 Hrest0]
  · isplitl [Hrow0]; · iexact Hrow0
    iexact Hrest0
  ihave HV := (pointsTo_split_subset (q := fullShare) (f := m ((vSrc c).view.loc (c : Thread nD τ))) (Finset.subset_univ ((vSrc c).view.set))).2 $$ [Hrow1 Hrest1]
  · isplitl [Hrow1]; · iexact Hrow1
    iexact Hrest1
  sl_step
  sl_step
  iapply Hk
  isplitl [Hat0 Hat1]
  · unfold loadDone
    isplitl [Hat0]; · iexact Hat0
    iexact Hat1
  isplitl [HK HV]
  · isplitl [HK]; · iexact HK
    iexact HV
  isplitl [HkM]
  · iexists fk
    isplitl [HkM]
    · iapply (kM_whole c fk); iexact HkM
    ipureintro; exact hfk
  isplitl [HvM]
  · iexists fv
    isplitl [HvM]
    · iapply (vM_whole c fv); iexact HvM
    ipureintro; exact hfv
  isplitl [Hq]; · iexact Hq
  iexact HO

/-- info: 'Cert.KernelIdeal.FD.part1_run' depends on axioms: [propext, Classical.choice, Quot.sound] -/
#guard_msgs in #print axioms part1_run

end Cert.KernelIdeal.FD

end
-- ==== Proof.BodyFront.lean ====
/-
  The front of the body's first half, and the first half from its pieces.

  From the body's precondition the entry part copies the device's rows of keys and values into its two scratch buffers
  and loads the first rows of the query; the sixteen heads then leave in slot 0 of the three ring buffers the device's
  own partial results and touch nothing else. Cut slot by slot and row by row, that is the state before the first
  signal. The handshake and the ring follow in two stretches; what the front carried past them — the loads waited for,
  the key and value arrays, the two scratch buffers of the loads, the staged query — joins what they leave to make the
  state between the halves.
-/
import proofs.«900429_g7700000000000430_dist_flashdec_v7x_xyz2x4x4_z_b8_sq8_skv1024_h16_d128_f32_1_alg».proof.Proof.BodyA
import proofs.«900429_g7700000000000430_dist_flashdec_v7x_xyz2x4x4_z_b8_sq8_skv1024_h16_d128_f32_1_alg».proof.Proof.RingHalf
import proofs.«900429_g7700000000000430_dist_flashdec_v7x_xyz2x4x4_z_b8_sq8_skv1024_h16_d128_f32_1_alg».proof.Proof.Part1
import proofs.«900429_g7700000000000430_dist_flashdec_v7x_xyz2x4x4_z_b8_sq8_skv1024_h16_d128_f32_1_alg».proof.Proof.Compute
import proofs.«900429_g7700000000000430_dist_flashdec_v7x_xyz2x4x4_z_b8_sq8_skv1024_h16_d128_f32_1_alg».proof.Proof.Data
import proofs.«900429_g7700000000000430_dist_flashdec_v7x_xyz2x4x4_z_b8_sq8_skv1024_h16_d128_f32_1_alg».proof.Proof.BodySteps
import proofs.«900429_g7700000000000430_dist_flashdec_v7x_xyz2x4x4_z_b8_sq8_skv1024_h16_d128_f32_1_alg».proof.Proof.BodyGlue
import proofs.«900429_g7700000000000430_dist_flashdec_v7x_xyz2x4x4_z_b8_sq8_skv1024_h16_d128_f32_1_alg».proof.Proof.Launch

noncomputable section

namespace Cert.KernelIdeal.FD

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The entry part and the heads, followed by anything -/

set_option maxRecDepth 65536 in
/-- The entry part and the heads, followed by `k2`, which is handed the device and the words computed so far. -/
noncomputable def frontWith (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3)
    (k2 : Dev nD → BitVec 32 → BitVec 32 → BitVec 32 → BitVec 32 → BitVec 32 → BitVec 32 → Prog (TpuEff nD τ sig (Elt F) Λ₀ .tc) PUnit) :
    Prog (TpuEff nD τ sig (Elt F) Λ₀ .tc) PUnit := do
  let ⟨d0, v2, v5, v8, v10, v28⟩ : Σ' (d0 : Dev nD) (v2 : BitVec 32) (v5 : BitVec 32) (v8 : BitVec 32) (v10 : BitVec 32), Vec F S1x8x1x128 .f32 ← k0_part1 arg0 harg0 arg1 harg1 arg2 harg2 arg3 harg3 arg4 harg4 arg5 harg5 arg6 harg6 arg7 harg7 arg8 harg8 arg9 arg10 arg11 arg12 arg13 arg14 arg15 arg16 arg17
  let ⟨v460, v462, c4_i32_421⟩ : Σ' (v460 : BitVec 32) (v462 : BitVec 32), BitVec 32 ← segCompute arg0 harg0 arg1 harg1 arg2 harg2 arg3 harg3 arg4 harg4 arg5 harg5 arg6 harg6 arg7 harg7 arg8 harg8 arg9 arg10 arg11 arg12 arg13 arg14 arg15 arg16 arg17 d0 v8 v10 v28
  k2 d0 v2 v5 v8 v460 v462 c4_i32_421

set_option maxRecDepth 65536 in
/-- The first half is the front followed by the two stretches of the ring. -/
theorem bodyWith_eq_front (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3)
    (rest : Dev nD → BitVec 32 → BitVec 32 → BitVec 32 → BitVec 32 → BitVec 32 → BitVec 32 → Prog (TpuEff nD τ sig (Elt F) Λ₀ .tc) PUnit) :
    bodyWith (F := F) arg0 harg0 arg1 harg1 arg2 harg2 arg3 harg3 arg4 harg4 arg5 harg5 arg6 harg6 arg7 harg7 arg8 harg8 arg9 arg10 arg11 arg12 arg13 arg14 arg15 arg16 arg17 rest = frontWith arg0 harg0 arg1 harg1 arg2 harg2 arg3 harg3 arg4 harg4 arg5 harg5 arg6 harg6 arg7 harg7 arg8 harg8 arg9 arg10 arg11 arg12 arg13 arg14 arg15 arg16 arg17
      (fun d0 v2 v5 v8 v460 v462 c4 => ringHead arg0 harg0 arg1 harg1 arg2 harg2 arg3 harg3 arg4 harg4 arg5 harg5 arg6 harg6 arg7 harg7 arg8 harg8 arg9 arg10 arg11 arg12 arg13 arg14 arg15 arg16 arg17 d0 v2 v5 v8 v460 v462 c4 fun v464 v465 v466 v623 w4 =>
        ringTail arg0 harg0 arg1 harg1 arg2 harg2 arg3 harg3 arg4 harg4 arg5 harg5 arg6 harg6 arg7 harg7 arg8 harg8 arg9 arg10 arg11 arg12 arg13 arg14 arg15 arg16 arg17 d0 v2 v5 v460 v623 w4 (rest d0 v2 v5 v8 v464 v465 v466)) := rfl

section Recs

variable (vo : Dev nD → S8x16x128.Idx → Elt F .f32) (vm vl : Dev nD → S8x16x1.Idx → Elt F .f32)
variable (vg : ℕ → S8x8x16x128.Idx → Elt F .f32)
variable (kin vin : Dev nD → S1024x16x128.Idx → Elt F .f32)
variable (m : (ℓ : Loc nD τ sig) → Buf (Elt F) ℓ)

omit [FloatOps F] in
instance front_commRecs_persistent (κ : GSem nD τ sig → ℕ) (c : Dev nD) : BI.Persistent (commRecs vo vm vl vg kin vin m κ c) := by
  unfold commRecs; infer_instance

omit [FloatOps F] in
theorem front_lev (κ : GSem nD τ sig → ℕ) (c : Dev nD) : commRecs vo vm vl vg kin vin m κ c ⊢ (levAts L lv : sProp 𝕄) := by
  unfold commRecs; iintro ⟨H, -⟩; iexact H
omit [FloatOps F] in
theorem front_load0 (κ : GSem nD τ sig → ℕ) (c : Dev nD) : commRecs vo vm vl vg kin vin m κ c ⊢ cellRec vo vm vl vg kin vin m κ (loadCell c 0) := by
  unfold commRecs; iintro ⟨-, -, -, -, -, -, -, -, -, H, -⟩; iexact H
omit [FloatOps F] in
theorem front_load1 (κ : GSem nD τ sig → ℕ) (c : Dev nD) : commRecs vo vm vl vg kin vin m κ c ⊢ cellRec vo vm vl vg kin vin m κ (loadCell c 1) := by
  unfold commRecs; iintro ⟨-, -, -, -, -, -, -, -, -, -, H⟩; iexact H

end Recs

section FrontProof

variable (m : (ℓ : Loc nD τ sig) → Buf (Elt F) ℓ)

open Cert.KernelIdeal.BodyProto (ringO_entry ringM_entry ringL_entry out_entry mayWait_after)

/-- After the heads, before the first signal. -/
def FrontPost (K : Dev nD × Fin 27 → ℕ) (c : Dev nD) : sProp 𝕄 :=
  iprop(commRecs (voD m) (vmD m) (vlD m) (vgD m) (kinD m) (vinD m) m (κOf K) c ∗ commEntry (voD m) (vmD m) (vlD m) c ∗ loadDone c ∗ kvPts m c ∗ owned c kM ∗ owned c vM
    ∗ stg c cc0_stg0_0 (qstg m c))

omit [FloatOps F] in
theorem lv_load (c : Dev nD) (i : Fin 2) : lv ((c : Thread nD τ), .dma (sem2 cc0_scratch5 i)) () = 0 := by
  fin_cases i <;> rfl

omit [FloatOps F] in
/-- A wait on a load cell sits below everything the device owes at launch. -/
theorem mayWait_load (c : Dev nD) (i : Fin 2) :
    (levAts L lv : sProp 𝕄) ⊢ MayWait (c : Thread nD τ) (.dma (sem2 cc0_scratch5 i)) () (owedAfter 0 c) :=
  mayWait_after c 0 _ fun p hp => by
    have h := List.forall_iff_forall_mem.1 (pay_levels c) p hp
    refine ⟨?_, by rw [lv_load]; exact h.2⟩
    by_contra hne
    have h1 := h.1
    rw [L_of_ne _ hne] at h1
    exact absurd h1 (Finset.notMem_empty _)

/-- The front of the first half: from the body's precondition, the entry part and the sixteen heads leave the device
    ready for its first signal. -/
theorem body_front (K : Dev nD × Fin 27 → ℕ) (c : Dev nD)
    (k2 : Dev nD → BitVec 32 → BitVec 32 → BitVec 32 → BitVec 32 → BitVec 32 → BitVec 32 → Prog (TpuEff nD τ sig (Elt F) Λ₀ .tc) PUnit) (Q : PUnit → sProp 𝕄) :
    iprop(bodyPre (voD m) (vmD m) (vlD m) (vgD m) (kinD m) (vinD m) m K c
        ∗ (∀ v2, ∀ v5, ∀ v8, ∀ v460, ∀ v462, ∀ c4, FrontPost m K c -∗ wp frame (wpE (defs₀ (F := F)) 𝒱₀ c none) Set.univ (k2 c v2 v5 v8 v460 v462 c4) Q))
      ⊢ wp frame (wpE (defs₀ (F := F)) 𝒱₀ c none) Set.univ (frontWith (Memref.whole cc0_stg0_0) (Memref.isWhole_whole _) (Memref.whole main_arg1) (Memref.isWhole_whole _)
      (Memref.whole main_arg2) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _)
      cc0_scratch5 cc0_scratch6 cc0_scratch7 cc0_scratch8 cc0_scratch9 cc0_scratch10 cc0_scratch11 cc0_scratch12 cc0_scratch13 k2) Q := by
  unfold frontWith
  rw [wp_bind]
  iintro ⟨Hpre, Hk⟩
  ihave H := (open_pre (voD m) (vmD m) (vlD m) (vgD m) (kinD m) (vinD m) m K c) $$ Hpre
  icases H with ⟨#Hrecs, Ho, Hbt, Hbp, Hring, Hgath, Hlt, Hkv, HkM, HvM, Hco, Hcm, Hcl, Hx, ⟨%fo, Hout⟩⟩
  unfold owesAt
  icases Ho with ⟨%W, HO⟩
  icases Hx with ⟨%fq, %hfq, Hq⟩
  subst hfq
  iapply (part1_run (voD m) (vmD m) (vlD m) (vgD m) (kinD m) (vinD m) m c (κOf K) (owedAfter 0 c) W rfl rfl _)
  isplitr; · iapply (front_load0 (voD m) (vmD m) (vlD m) (vgD m) (kinD m) (vinD m) m (κOf K) c); iexact Hrecs
  isplitr; · iapply (front_load1 (voD m) (vmD m) (vlD m) (vgD m) (kinD m) (vinD m) m (κOf K) c); iexact Hrecs
  isplitr; · iapply (mayWait_load (F := F) c 0); iapply (front_lev (voD m) (vmD m) (vlD m) (vgD m) (kinD m) (vinD m) m (κOf K) c); iexact Hrecs
  isplitr; · iapply (mayWait_load (F := F) c 1); iapply (front_lev (voD m) (vmD m) (vlD m) (vgD m) (kinD m) (vinD m) m (κOf K) c); iexact Hrecs
  isplitl [Hlt]; · iexact Hlt
  isplitl [Hkv]; · iexact Hkv
  isplitl [HkM]; · iexact HkM
  isplitl [HvM]; · iexact HvM
  isplitl [Hq]; · iexact Hq
  isplitl [HO]; · iexact HO
  iintro ⟨Hld, Hkv, ⟨%fk, Hfk, %hfk⟩, ⟨%fv, Hfv, %hfv⟩, Hq, HO⟩
  dsimp only
  rw [wp_bind]
  ihave H6 := (Entails.of_eq (owned_coM (F := F) c)) $$ Hco
  icases H6 with ⟨%f6, H6⟩
  ihave H7 := (Entails.of_eq (owned_cmM (F := F) c)) $$ Hcm
  icases H7 with ⟨%f7, H7⟩
  ihave H8 := (Entails.of_eq (owned_clM (F := F) c)) $$ Hcl
  icases H8 with ⟨%f8, H8⟩
  iapply ((computeRun c (q0At c (qstg m c : Bf (F := F) c qM)) (qstg m c : Bf (F := F) c qM) fk fv f6 f7 f8).2 _ _ Set.univ _)
  isplitl [Hq]; · iexact Hq
  isplitl [Hfk]; · iexact Hfk
  isplitl [Hfv]; · iexact Hfv
  isplitl [H6]; · iexact H6
  isplitl [H7]; · iexact H7
  isplitl [H8]; · iexact H8
  iintro ⟨Hq, Hfk, Hfv, H6, H7, H8⟩
  dsimp only
  iapply Hk
  unfold FrontPost commEntry
  isplitr; · iexact Hrecs
  isplitl [HO Hbt Hbp Hring Hgath H6 H7 H8 Hout]
  · isplitl [HO]; · unfold owesAt; iexists _; iexact HO
    isplitl [Hbt]; · iexact Hbt
    isplitl [Hbp]; · iexact Hbp
    isplitl [Hring]; · iexact Hring
    isplitl [Hgath]; · iexact Hgath
    isplitl [H6 H7 H8]
    · rw [bigSep_fin3]
      isplitl [H6]; · iapply (ringO_entry (voD m) (vmD m) (vlD m) c _ (computeRun_slot0 m c fk fv hfk hfv f6 f7 f8).1); iexact H6
      isplitl [H7]; · iapply (ringM_entry (voD m) (vmD m) (vlD m) c _ (computeRun_slot0 m c fk fv hfk hfv f6 f7 f8).2.1); iexact H7
      iapply (ringL_entry (voD m) (vmD m) (vlD m) c _ (computeRun_slot0 m c fk fv hfk hfv f6 f7 f8).2.2); iexact H8
    iapply (out_entry (F := F) c fo); iexact Hout
  isplitl [Hld]; · iexact Hld
  isplitl [Hkv]; · iexact Hkv
  isplitl [Hfk]; · iapply (Entails.of_eq (owned_kM (F := F) c).symm); iexists fk; iexact Hfk
  isplitl [Hfv]; · iapply (Entails.of_eq (owned_vM (F := F) c).symm); iexists fv; iexact Hfv
  iexists (qstg m c); isplitr; · ipureintro; rfl
  iexact Hq

/-- The first half of the body, from the two stretches of the ring. -/
theorem first_half (h1 : RingFirst (voD m) (vmD m) (vlD m) (vgD m) (kinD m) (vinD m) m) (h2 : RingSecond (voD m) (vmD m) (vlD m) (vgD m) (kinD m) (vinD m) m) : FirstHalf (voD m) (vmD m) (vlD m) (vgD m) (kinD m) (vinD m) m := by
  intro K c rest Q
  rw [bodyWith_eq_front]
  iintro ⟨Hpre, Hk⟩
  iapply (body_front m K c (fun d0 v2 v5 v8 v460 v462 c4 => ringHead (Memref.whole cc0_stg0_0) (Memref.isWhole_whole _) (Memref.whole main_arg1) (Memref.isWhole_whole _)
      (Memref.whole main_arg2) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _)
      cc0_scratch5 cc0_scratch6 cc0_scratch7 cc0_scratch8 cc0_scratch9 cc0_scratch10 cc0_scratch11 cc0_scratch12 cc0_scratch13 d0 v2 v5 v8 v460 v462 c4 fun v464 v465 v466 v623 w4 =>
        ringTail (Memref.whole cc0_stg0_0) (Memref.isWhole_whole _) (Memref.whole main_arg1) (Memref.isWhole_whole _)
      (Memref.whole main_arg2) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _)
      cc0_scratch5 cc0_scratch6 cc0_scratch7 cc0_scratch8 cc0_scratch9 cc0_scratch10 cc0_scratch11 cc0_scratch12 cc0_scratch13 d0 v2 v5 v460 v623 w4 (rest d0 v2 v5 v8 v464 v465 v466)) Q)
  isplitl [Hpre]; · iexact Hpre
  iintro %v2 %v5 %v8 %v460 %v462 %c4 HF
  unfold FrontPost
  icases HF with ⟨#Hrecs, Hce, Hld, Hkv, HkM, HvM, Hq⟩
  iapply (h1 (κOf K) c v2 v5 v8 v460 v462 c4 _ Q)
  isplitr; · iexact Hrecs
  isplitl [Hce]; · iexact Hce
  iintro %v464 %v465 %v466 %v623 %w HH
  iapply (h2 (κOf K) c v2 v5 v460 v623 w _ Q)
  isplitr; · iexact Hrecs
  isplitl [HH]; · iexact HH
  iintro HE
  iapply Hk
  unfold Mid
  isplitr; · iexact Hrecs
  isplitl [HE]; · iexact HE
  isplitl [Hld]; · iexact Hld
  isplitl [Hkv]; · iexact Hkv
  isplitl [HkM]; · iexact HkM
  isplitl [HvM]; · iexact HvM
  iexact Hq

end FrontProof

/-- info: 'Cert.KernelIdeal.FD.body_front' depends on axioms: [propext, Classical.choice, Quot.sound] -/
#guard_msgs in #print axioms body_front
/-- info: 'Cert.KernelIdeal.FD.first_half' depends on axioms: [propext, Classical.choice, Quot.sound] -/
#guard_msgs in #print axioms first_half

end Cert.KernelIdeal.FD

end
-- ==== Proof.BodyB.lean ====
/-
  The second half of the body: from the end of the ring to the end of the body.

  After the last hop the four slots of the three ring buffers hold the partial results of the device and of the three devices
  before it along z. The buffers are joined whole again, the merge computes the device's row of the result, the row is stored
  and the three exchanges gather the eight rows; then every own cell closes. This module runs that stretch as one lemma.
-/
import proofs.«900429_g7700000000000430_dist_flashdec_v7x_xyz2x4x4_z_b8_sq8_skv1024_h16_d128_f32_1_alg».proof.Proof.BodySteps
import proofs.«900429_g7700000000000430_dist_flashdec_v7x_xyz2x4x4_z_b8_sq8_skv1024_h16_d128_f32_1_alg».proof.Proof.BodyGlue
import proofs.«900429_g7700000000000430_dist_flashdec_v7x_xyz2x4x4_z_b8_sq8_skv1024_h16_d128_f32_1_alg».proof.Proof.Data
import proofs.«900429_g7700000000000430_dist_flashdec_v7x_xyz2x4x4_z_b8_sq8_skv1024_h16_d128_f32_1_alg».proof.Proof.BodyA

noncomputable section

namespace Cert.KernelIdeal.BodyProto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ### The evidence a wait presents, through the index of the payment

Along the list of payments the levels never decrease: the five barrier cells at 1, the ring's receive cells of hop `h` at `2 + h`,
the exchanges' of stage `st` at `5 + st`. So a wait on a cell at level `ℓ` after `k` payments is allowed as soon as `ℓ` is below the
level of payment `k`. -/

section LevelsIdx

open Cert.KernelIdeal.FD
open Cert.KernelIdeal.Mesh (zr zl p0 p1 p2)

variable {F : FTy → Type} [FloatOps F]

local notation "𝕄" => MT nD τ sig Unit (Elt F) ℕ UU ℕ

/-- The level of the cell payment `j` goes to. -/
def lvIdx (j : ℕ) : ℕ := if j < 5 then 1 else if j < 14 then 2 + (j - 5) / 3 else 5 + (j - 14)

theorem lvIdx_mono : ∀ j, j < 17 → ∀ j', j' < 17 → j ≤ j' → lvIdx j ≤ lvIdx j' := by decide

omit [FloatOps F] in
/-- Payment `j` goes to a TensorCore cell at level `lvIdx j`. -/
theorem payList_level (c : Dev nD) (j : ℕ) (hj : j < 17) :
    ((payList c)[j]'(by simpa [payList] using hj)).1.1.2 = .tc ∧ lv ((payList c)[j]'(by simpa [payList] using hj)).1 () = lvIdx j := by
  have : j ∈ Finset.range 17 := Finset.mem_range.mpr hj
  fin_cases this
  · exact ⟨rfl, lv_bar (zl c)⟩
  · exact ⟨rfl, lv_bar (zr c)⟩
  · exact ⟨rfl, lv_bar (p0 c)⟩
  · exact ⟨rfl, lv_bar (p1 c)⟩
  · exact ⟨rfl, lv_bar (p2 c)⟩
  · exact ⟨rfl, lv_rrecv (zr c) 0 0⟩
  · exact ⟨rfl, lv_rrecv (zr c) 1 0⟩
  · exact ⟨rfl, lv_rrecv (zr c) 2 0⟩
  · exact ⟨rfl, lv_rrecv (zr c) 0 1⟩
  · exact ⟨rfl, lv_rrecv (zr c) 1 1⟩
  · exact ⟨rfl, lv_rrecv (zr c) 2 1⟩
  · exact ⟨rfl, lv_rrecv (zr c) 0 2⟩
  · exact ⟨rfl, lv_rrecv (zr c) 1 2⟩
  · exact ⟨rfl, lv_rrecv (zr c) 2 2⟩
  · exact ⟨rfl, lv_grecv (p0 c) 0⟩
  · exact ⟨rfl, lv_grecv (p1 c) 1⟩
  · exact ⟨rfl, lv_grecv (p2 c) 2⟩

omit [FloatOps F] in
/-- What is owed after `k` payments is positive only at the cell of a payment from `k` on. -/
theorem owedAfter_pos (c : Dev nD) (g : GSem nD τ sig) (i : Unit) :
    ∀ n k, k + n = 17 → 0 < owedAfter k c g i →
      ∃ j, k ≤ j ∧ ∃ hj : j < 17, g = ((payList c)[j]'(by simpa [payList] using hj)).1 := by
  intro n
  induction n with
  | zero =>
    intro k hk h
    have hk' : k = 17 := by omega
    subst hk'
    rw [owedAfter_all] at h
    exact absurd h (Nat.lt_irrefl 0)
  | succ n ih =>
    intro k hk h
    have hk' : k < 17 := by omega
    rw [owedAfter_step c k hk'] at h
    rcases Pipeline.add_pos_cases h with h1 | h2
    · obtain ⟨j, hkj, hj, e⟩ := ih (k + 1) (by omega) h1
      exact ⟨j, by omega, hj, e⟩
    · exact ⟨k, le_rfl, hk', (Pipeline.tallyAt_pos h2).1⟩

omit [FloatOps F] in
/-- After `k` payments a device may wait on its cell `sm` at level `ℓ` if `ℓ` is below the level of every payment from `k` on;
    the levels not decreasing, below that of payment `k`. -/
theorem mayWait_idx (c : Dev nD) (k : ℕ) (sm : SemLoc sig) (ℓ : ℕ) (hℓ : lv ((c : Thread nD τ), sm) () = ℓ)
    (hk : k = 17 ∨ (k < 17 ∧ ℓ < lvIdx k)) :
    (levAts L lv : sProp 𝕄) ⊢ MayWait (c : Thread nD τ) sm () (owedAfter k c) := by
  refine Pipeline.mayWait_of_levAts (L := L) (lev := lv) (by rw [L_tc]; exact Finset.mem_singleton_self _) ?_
  intro g i hg
  rcases hk with rfl | ⟨hk17, hlt⟩
  · rw [owedAfter_all] at hg; exact absurd hg (Nat.lt_irrefl 0)
  · obtain ⟨j, hkj, hj, rfl⟩ := owedAfter_pos c g i (17 - k) k (by omega) hg
    obtain ⟨h1, h2⟩ := payList_level c j hj
    refine ⟨?_, ?_⟩
    · unfold L; rw [if_pos h1]; exact Finset.mem_singleton_self _
    · cases i
      rw [hℓ, h2]
      exact Nat.lt_of_lt_of_le hlt (lvIdx_mono k hk17 j hj hkj)

end LevelsIdx

/-! ## From the end of the ring to the end of the body -/

section Second

open Cert.KernelIdeal.FD
open Cert.KernelIdeal.Mesh (zr zl p0 p1 p2)
open Idealize.ShloMosaic.Rounds

variable {F : FTy → Type} [FloatOps F]

local notation "𝕄" => MT nD τ sig Unit (Elt F) ℕ UU ℕ

variable (m : (ℓ : Loc nD τ sig) → Buf (Elt F) ℓ)

/-- The records hold the levels, -/
theorem commRecs_lev (κ : GSem nD τ sig → ℕ) (c : Dev nD) : commRecs (voD m) (vmD m) (vlD m) (vgD m) (kinD m) (vinD m) m κ c ⊢ (levAts L lv : sProp 𝕄) := by
  unfold commRecs
  iintro ⟨H, -⟩
  iexact H

/-- and the records of the three cells of each exchange. -/
theorem commRecs_gath (κ : GSem nD τ sig → ℕ) (c : Dev nD) (st : Fin 3) :
    commRecs (voD m) (vmD m) (vlD m) (vgD m) (kinD m) (vinD m) m κ c
      ⊢ iprop(cellRec (voD m) (vmD m) (vlD m) (vgD m) (kinD m) (vinD m) m κ (gsendCell c st) ∗ cellRec (voD m) (vmD m) (vlD m) (vgD m) (kinD m) (vinD m) m κ (grecvCell c st) ∗ cellRec (voD m) (vmD m) (vlD m) (vgD m) (kinD m) (vinD m) m κ (grecvCell (partner st c) st)) :=
  (show commRecs (voD m) (vmD m) (vlD m) (vgD m) (kinD m) (vinD m) m κ c ⊢ (bigSep Finset.univ fun st : Fin 3 =>
      (iprop(cellRec (voD m) (vmD m) (vlD m) (vgD m) (kinD m) (vinD m) m κ (gsendCell c st) ∗ cellRec (voD m) (vmD m) (vlD m) (vgD m) (kinD m) (vinD m) m κ (grecvCell c st) ∗ cellRec (voD m) (vmD m) (vlD m) (vgD m) (kinD m) (vinD m) m κ (grecvCell (partner st c) st)) : sProp 𝕄)) from by
    unfold commRecs
    iintro ⟨-, -, -, -, -, -, -, -, H, -⟩
    iexact H).trans (bigSep_elim (Finset.mem_univ st))

instance commRecs_persistent (κ : GSem nD τ sig → ℕ) (c : Dev nD) : BI.Persistent (commRecs (voD m) (vmD m) (vlD m) (vgD m) (kinD m) (vinD m) m κ c) := by
  unfold commRecs; infer_instance

omit [FloatOps F] in
theorem routes_p0 (c : Dev nD) : τ.routes (c : Thread nD τ) (p0 c : Thread nD τ) = true := by revert c; decide
omit [FloatOps F] in
theorem routes_p1 (c : Dev nD) : τ.routes (c : Thread nD τ) (p1 c : Thread nD τ) = true := by revert c; decide
omit [FloatOps F] in
theorem routes_p2 (c : Dev nD) : τ.routes (c : Thread nD τ) (p2 c : Thread nD τ) = true := by revert c; decide

set_option maxRecDepth 65536 in
/-- From the state after the ring's last wait, the rest of the body — the merge, the store of the device's row, the three
    exchanges — runs to the body's postcondition. -/
theorem body_second (K : Dev nD × Fin 27 → ℕ) (c : Dev nD) (v2 v5 v8 v464 v465 v466 : BitVec 32) (Kt : PUnit → sProp 𝕄) :
    iprop(Mid (voD m) (vmD m) (vlD m) (vgD m) (kinD m) (vinD m) m K c ∗ (bodyPost (voD m) (vmD m) (vlD m) (vgD m) (kinD m) (vinD m) m c -∗ Kt ⟨⟩))
      ⊢ wp frame (wpE (defs₀ (F := F)) 𝒱₀ (c : Thread nD τ) none) Set.univ
          (do
            let w : FVec F S1x8x16x128 .f32 ← segMerge (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13
            seg31Tail (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c w
            k0_part32 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c v2 v8 v464 v465
            k0_part33 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c v2 v5 v8 v465 v466
            segExit (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c) Kt := by
  unfold Mid ringExit gathToks gathPos owesAt
  iintro ⟨⟨#HC, ⟨⟨%W, HO⟩, Hatb, Hrd, Hg, Hsl, Hrow, Hp0, Hp1, Hp2, #Hq0, #Hq1, #Hq2⟩, HLD, Hkv, HkM, HvM, Hq⟩, HK⟩
  -- the persistent records this stretch uses
  ihave #Hlev := (commRecs_lev m (κOf K) c) $$ HC
  ihave #G0 := (commRecs_gath m (κOf K) c 0) $$ HC
  ihave #G1 := (commRecs_gath m (κOf K) c 1) $$ HC
  ihave #G2 := (commRecs_gath m (κOf K) c 2) $$ HC
  unfold cellRec
  icases G0 with ⟨⟨#Igs0, #Rgs0⟩, ⟨#Igr0, -⟩, #Ign0, -⟩
  icases G1 with ⟨⟨#Igs1, #Rgs1⟩, ⟨#Igr1, -⟩, #Ign1, -⟩
  icases G2 with ⟨⟨#Igs2, #Rgs2⟩, ⟨#Igr2, -⟩, #Ign2, -⟩
  ihave #M31 := (mayWait_idx (F := F) c 15 (.dma (sem3 cc0_scratch12 0)) 0 (lv_gsend c 0) (Or.inr ⟨by decide, by decide⟩)) $$ Hlev
  ihave #M32 := (mayWait_idx (F := F) c 15 (.dma (sem3 cc0_scratch13 0)) (5 + (0 : Fin 3).val) (lv_grecv c 0) (Or.inr ⟨by decide, by decide⟩)) $$ Hlev
  ihave #M33s := (mayWait_idx (F := F) c 16 (.dma (sem3 cc0_scratch12 1)) 0 (lv_gsend c 1) (Or.inr ⟨by decide, by decide⟩)) $$ Hlev
  ihave #M33r := (mayWait_idx (F := F) c 16 (.dma (sem3 cc0_scratch13 1)) (5 + (1 : Fin 3).val) (lv_grecv c 1) (Or.inr ⟨by decide, by decide⟩)) $$ Hlev
  ihave #MXs := (mayWait_idx (F := F) c 17 (.dma (sem3 cc0_scratch12 2)) 0 (lv_gsend c 2) (Or.inl rfl)) $$ Hlev
  ihave #MXr := (mayWait_idx (F := F) c 17 (.dma (sem3 cc0_scratch13 2)) (5 + (2 : Fin 3).val) (lv_grecv c 2) (Or.inl rfl)) $$ Hlev
  -- the tokens, positions and credits of the three exchanges
  ihave Hg' := (Entails.of_eq (Ring.bigSep_fin3 _)) $$ Hg
  icases Hg' with ⟨⟨⟨Tgs0, Tgn0⟩, Ags0, Agr0, Cgr0⟩, ⟨⟨Tgs1, Tgn1⟩, Ags1, Agr1, Cgr1⟩, ⟨Tgs2, Tgn2⟩, Ags2, Agr2, Cgr2⟩
  -- the twelve slots, and the three buffers whole again
  ihave Hsl' := (Entails.of_eq (Ring.bigSep_fin3 _)) $$ Hsl
  icases Hsl' with ⟨So, Sm, Sl⟩
  ihave So' := (Entails.of_eq (bigSep_fin4 _)) $$ So
  icases So' with ⟨So0, So1, So2, So3⟩
  ihave Sm' := (Entails.of_eq (bigSep_fin4 _)) $$ Sm
  icases Sm' with ⟨Sm0, Sm1, Sm2, Sm3⟩
  ihave Sl' := (Entails.of_eq (bigSep_fin4 _)) $$ Sl
  icases Sl' with ⟨Sl0, Sl1, Sl2, Sl3⟩
  ihave E6 := (ringO_exit (voD m) (vmD m) (vlD m) c) $$ [So0 So1 So2 So3]
  · isplitl [So0]; · iexact So0
    isplitl [So1]; · iexact So1
    isplitl [So2]; · iexact So2
    iexact So3
  icases E6 with ⟨%g6, H6, %ho⟩
  ihave E7 := (ringM_exit (voD m) (vmD m) (vlD m) c) $$ [Sm0 Sm1 Sm2 Sm3]
  · isplitl [Sm0]; · iexact Sm0
    isplitl [Sm1]; · iexact Sm1
    isplitl [Sm2]; · iexact Sm2
    iexact Sm3
  icases E7 with ⟨%g7, H7, %hm⟩
  ihave E8 := (ringL_exit (voD m) (vmD m) (vlD m) c) $$ [Sl0 Sl1 Sl2 Sl3]
  · isplitl [Sl0]; · iexact Sl0
    isplitl [Sl1]; · iexact Sl1
    isplitl [Sl2]; · iexact Sl2
    iexact Sl3
  icases E8 with ⟨%g8, H8, %hl⟩
  have hwv : (mergeRun c g6 g7 g8).1 = vrD m c :=
    mergeRun_vrD' m c g6 g7 g8 ho.1 ho.2.1 ho.2.2.1 ho.2.2.2 hm.1 hm.2.1 hm.2.2.1 hm.2.2.2 hl.1 hl.2.1 hl.2.2.1 hl.2.2.2
  have hw : (row1 c).view.read (Elt F) (vgD m (c.val % 4)) = (mergeRun c g6 g7 g8).1 := (row1_vgD m c).trans hwv.symm
  -- the update that closes the cells is absorbed at the end
  iapply (wp_fupd _ _ _ _ _)
  -- the merge
  rw [wp_bind]
  iapply ((mergeRun c g6 g7 g8).2 Set.univ _)
  isplitl [H6]; · iexact H6
  isplitl [H7]; · iexact H7
  isplitl [H8]; · iexact H8
  iintro ⟨H6, H7, H8⟩
  -- the row stored, the first exchange sent
  rw [wp_bind]
  iapply (wp_wand_r _ _ _)
  isplitl [HO Hrow Hp0 Tgs0 Tgn0 Ags0]
  · iapply (seg31Tail_run (voD m) (vmD m) (vlD m) (vgD m) (kinD m) (vinD m) m 𝒱₀ c (mergeRun c g6 g7 g8).1 hw (κOf K) W (routes_p0 c))
    isplitr; · iexact Igs0
    isplitr; · iexact Rgs0
    isplitr; · iexact Ign0
    isplitr; · iexact Hq0
    isplitr; · iexact M31
    isplitl [HO]; · iexact HO
    isplitl [Hrow]; · iexact Hrow
    isplitl [Hp0]; · iexact Hp0
    isplitl [Tgs0]; · iexact Tgs0
    isplitl [Tgn0]; · iexact Tgn0
    iexact Ags0
  iintro %r1 ⟨HO, Ags0, Hrw0⟩
  -- the first partner's row lands; the second exchange sent
  rw [wp_bind]
  iapply (wp_wand_r _ _ _)
  isplitl [HO Cgr0 Agr0 Hrw0 Hp1 Tgs1 Tgn1]
  · iapply (part32_run (voD m) (vmD m) (vlD m) (vgD m) (kinD m) (vinD m) m 𝒱₀ c v2 v8 v464 v465 (κOf K) _ (routes_p1 c))
    isplitr; · iexact Igr0
    isplitr; · iexact M32
    isplitr; · iexact Igs1
    isplitr; · iexact Rgs1
    isplitr; · iexact Ign1
    isplitr; · iexact Hq1
    isplitl [HO]; · iexact HO
    isplitl [Cgr0]; · iexact Cgr0
    isplitl [Agr0]; · iexact Agr0
    isplitl [Hrw0]; · iexact Hrw0
    isplitl [Hp1]; · iexact Hp1
    isplitl [Tgs1]; · iexact Tgs1
    iexact Tgn1
  iintro %r2 ⟨HO, Agr0, Ccs1⟩
  -- the second partner's pair lands; the third exchange sent
  rw [wp_bind]
  iapply (wp_wand_r _ _ _)
  isplitl [HO Ccs1 Ags1 Cgr1 Agr1 Hp2 Tgs2 Tgn2]
  · iapply (part33_run (voD m) (vmD m) (vlD m) (vgD m) (kinD m) (vinD m) m 𝒱₀ c v2 v5 v8 v465 v466 (κOf K) _ (routes_p2 c))
    isplitr; · iexact Igs1
    isplitr; · iexact M33s
    isplitr; · iexact Igr1
    isplitr; · iexact M33r
    isplitr; · iexact Igs2
    isplitr; · iexact Rgs2
    isplitr; · iexact Ign2
    isplitr; · iexact Hq2
    isplitl [HO]; · iexact HO
    isplitl [Ccs1]; · iexact Ccs1
    isplitl [Ags1]; · iexact Ags1
    isplitl [Cgr1]; · iexact Cgr1
    isplitl [Agr1]; · iexact Agr1
    isplitl [Hp2]; · iexact Hp2
    isplitl [Tgs2]; · iexact Tgs2
    iexact Tgn2
  iintro %r3 ⟨HO, Ags1, Agr1, Ccs2⟩
  -- the last exchange's waits, and the result staging buffer whole again
  iapply (wp_wand_r _ _ _)
  isplitl [HO Ccs2 Ags2 Cgr2 Agr2]
  · iapply (segExit_run (voD m) (vmD m) (vlD m) (vgD m) (kinD m) (vinD m) m 𝒱₀ c (κOf K) _)
    isplitr; · iexact Igs2
    isplitr; · iexact MXs
    isplitr; · iexact Igr2
    isplitr; · iexact MXr
    isplitl [HO]; · iexact HO
    isplitl [Ccs2]; · iexact Ccs2
    isplitl [Ags2]; · iexact Ags2
    isplitl [Cgr2]; · iexact Cgr2
    iexact Agr2
  iintro %r4 ⟨HO, Ags2, Agr2, Hout⟩
  -- every own cell closes
  imod (close_post (voD m) (vmD m) (vlD m) (vgD m) (kinD m) (vinD m) m K c) $$ [HO Hatb Hrd Ags0 Agr0 Ags1 Agr1 Ags2 Agr2 HLD Hkv HkM HvM H6 H7 H8 Hq Hout] with Hpost
  · isplitr; · iexact HC
    isplitl [HO]; · unfold owesAt; iexists _; iexact HO
    isplitl [Hatb]; · iexact Hatb
    isplitl [Hrd]; · iexact Hrd
    isplitl [Ags0 Agr0 Ags1 Agr1 Ags2 Agr2]
    · iapply (Entails.of_eq (Ring.bigSep_fin3 (fun st : Fin 3 => gathDone (F := F) c st)).symm)
      unfold gathDone
      isplitl [Ags0 Agr0]; · isplitl [Ags0]; · iexact Ags0
                             iexact Agr0
      isplitl [Ags1 Agr1]; · isplitl [Ags1]; · iexact Ags1
                             iexact Agr1
      isplitl [Ags2]; · iexact Ags2
      iexact Agr2
    isplitl [HLD]; · iexact HLD
    isplitl [Hkv]; · iexact Hkv
    isplitl [HkM]; · iexact HkM
    isplitl [HvM]; · iexact HvM
    isplitl [H6]; · unfold owned; iexists g6; rw [show coM.view.set = Finset.univ from View.set_whole _]; iexact H6
    isplitl [H7]; · unfold owned; iexists g7; rw [show cmM.view.set = Finset.univ from View.set_whole _]; iexact H7
    isplitl [H8]; · unfold owned; iexists g8; rw [show clM.view.set = Finset.univ from View.set_whole _]; iexact H8
    isplitl [Hq]; · iexact Hq
    iexists (vgD m (c.val % 4))
    isplitr; · ipureintro; rfl
    iexact Hout
  imodintro
  iapply HK
  iexact Hpost

/-- The second half of the body, at the values the devices compute. -/
theorem second_half : SecondHalf (voD m) (vmD m) (vlD m) (vgD m) (kinD m) (vinD m) m := by
  intro K c v2 v5 v8 v464 v465 v466 Q
  unfold bodyTail
  exact body_second m K c v2 v5 v8 v464 v465 v466 Q

/-- info: 'Cert.KernelIdeal.BodyProto.second_half' depends on axioms: [propext, Classical.choice, Quot.sound] -/
#guard_msgs in #print axioms second_half

end Second

end Cert.KernelIdeal.BodyProto
-- ==== Proof.RingSecond.lean ====
/-
  The second stretch of the ring's chain: the rest of the second hop, the third hop, and the wait for its last transfer.
-/
import proofs.«900429_g7700000000000430_dist_flashdec_v7x_xyz2x4x4_z_b8_sq8_skv1024_h16_d128_f32_1_alg».proof.Proof.RingHalf
import proofs.«900429_g7700000000000430_dist_flashdec_v7x_xyz2x4x4_z_b8_sq8_skv1024_h16_d128_f32_1_alg».proof.Proof.BodyB

noncomputable section

namespace Cert.KernelIdeal.FD

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.BodyProto (part23_run part24_run part25_run part26_run part27_run part28_run seg29Wait_run bigSep_fin4)

variable {F : FTy → Type} [FloatOps F]

local notation "𝕄" => MT nD τ sig Unit (Elt F) ℕ UU ℕ

section Stretch

variable (vo : Dev nD → S8x16x128.Idx → Elt F .f32) (vm vl : Dev nD → S8x16x1.Idx → Elt F .f32)
variable (vg : ℕ → S8x8x16x128.Idx → Elt F .f32)
variable (kin vin : Dev nD → S1024x16x128.Idx → Elt F .f32)
variable (m : (ℓ : Loc nD τ sig) → Buf (Elt F) ℓ)

omit [FloatOps F] in
instance commRecs_persistent (κ : GSem nD τ sig → ℕ) (c : Dev nD) : BI.Persistent (commRecs vo vm vl vg kin vin m κ c) := by
  unfold commRecs; infer_instance

omit [FloatOps F] in
/-- The records hold the levels, -/
theorem commRecs_levAts (κ : GSem nD τ sig → ℕ) (c : Dev nD) : commRecs vo vm vl vg kin vin m κ c ⊢ (levAts L lv : sProp 𝕄) := by
  unfold commRecs
  iintro ⟨H, -⟩
  iexact H

omit [FloatOps F] in
/-- and the records of the three cells of each ring transfer. -/
theorem commRecs_ring (κ : GSem nD τ sig → ℕ) (c : Dev nD) (b h : Fin 3) :
    commRecs vo vm vl vg kin vin m κ c
      ⊢ iprop(cellRec vo vm vl vg kin vin m κ (rsendCell c b h) ∗ cellRec vo vm vl vg kin vin m κ (rrecvCell c b h) ∗ cellRec vo vm vl vg kin vin m κ (rrecvCell (zr c) b h)) :=
  ((show commRecs vo vm vl vg kin vin m κ c ⊢ (bigSep Finset.univ fun b : Fin 3 => bigSep Finset.univ fun h : Fin 3 =>
      (iprop(cellRec vo vm vl vg kin vin m κ (rsendCell c b h) ∗ cellRec vo vm vl vg kin vin m κ (rrecvCell c b h) ∗ cellRec vo vm vl vg kin vin m κ (rrecvCell (zr c) b h)) : sProp 𝕄)) from by
    unfold commRecs
    iintro ⟨-, -, -, -, -, -, -, H, -⟩
    iexact H).trans (bigSep_elim (Finset.mem_univ b))).trans (bigSep_elim (Finset.mem_univ h))

omit [FloatOps F] in
theorem routes_zr (c : Dev nD) : τ.routes (c : Thread nD τ) (zr c : Thread nD τ) = true := by revert c; decide

set_option maxHeartbeats 4000000 in
set_option maxRecDepth 65536 in
/-- The second stretch of the ring's chain. -/
theorem ring_second : RingSecond vo vm vl vg kin vin m := by
  intro κ c v2 v5 v460 v623 w4 rest Q
  unfold ringTail ringHalf ringExit ringToks ringPos ringDone owesAt
  rw [Ring.bigSep_fin3 (fun b : Fin 3 => bigSep Finset.univ fun h : Fin 3 => iprop(atPos ER (rsendCell c b h) (0 + 1) ∅ 0 ∗ atPos ER (rrecvCell c b h) (0 + 1) ∅ 0)),
    Ring.bigSep_fin3 (fun b : Fin 3 => bigSep Finset.univ fun j : Fin 4 => slotHolds vo vm vl c b j)]
  simp only [Ring.bigSep_fin3 (fun h : Fin 3 => iprop(atPos ER (rsendCell c _ h) (0 + 1) ∅ 0 ∗ atPos ER (rrecvCell c _ h) (0 + 1) ∅ 0)),
    bigSep_fin4 (fun j : Fin 4 => slotHolds vo vm vl c _ j)]
  iintro ⟨#HC, ⟨⟨%W, HO⟩, Hatb, ⟨Zs00, Zr00⟩, ⟨Zs10, Zr10⟩, ⟨Zs20, Zr20⟩, Hsl00, Hsl10, Hsl20, Hsl21, Hcs01, Hcs11, ⟨Hts21, Htn21⟩, ⟨Hats01, Hatr01, Hcr01⟩, ⟨Hats11, Hatr11, Hcr11⟩, ⟨Hats21, Hatr21, Hcr21⟩, ⟨Hts02, Htn02⟩, ⟨Hts12, Htn12⟩, ⟨Hts22, Htn22⟩, ⟨Hats02, Hatr02, Hcr02⟩, ⟨Hats12, Hatr12, Hcr12⟩, ⟨Hats22, Hatr22, Hcr22⟩, Hnx21, Hnx02, Hnx12, Hnx22, Hgath, Hrow, Hp0, Hp1, Hp2, #Hq0, #Hq1, #Hq2⟩, HK⟩
  -- the records and the levels
  ihave #Hlev := (commRecs_levAts vo vm vl vg kin vin m κ c) $$ HC
  ihave #R01 := (commRecs_ring vo vm vl vg kin vin m κ c 0 1) $$ HC
  ihave #R11 := (commRecs_ring vo vm vl vg kin vin m κ c 1 1) $$ HC
  ihave #R21 := (commRecs_ring vo vm vl vg kin vin m κ c 2 1) $$ HC
  ihave #R02 := (commRecs_ring vo vm vl vg kin vin m κ c 0 2) $$ HC
  ihave #R12 := (commRecs_ring vo vm vl vg kin vin m κ c 1 2) $$ HC
  ihave #R22 := (commRecs_ring vo vm vl vg kin vin m κ c 2 2) $$ HC
  unfold cellRec
  icases R01 with ⟨⟨#HIs01, #HRs01⟩, ⟨#HIr01, -⟩, #HIn01, #HRn01⟩
  icases R11 with ⟨⟨#HIs11, #HRs11⟩, ⟨#HIr11, -⟩, #HIn11, #HRn11⟩
  icases R21 with ⟨⟨#HIs21, #HRs21⟩, ⟨#HIr21, -⟩, #HIn21, #HRn21⟩
  icases R02 with ⟨⟨#HIs02, #HRs02⟩, ⟨#HIr02, -⟩, #HIn02, #HRn02⟩
  icases R12 with ⟨⟨#HIs12, #HRs12⟩, ⟨#HIr12, -⟩, #HIn12, #HRn12⟩
  icases R22 with ⟨⟨#HIs22, #HRs22⟩, ⟨#HIr22, -⟩, #HIn22, #HRn22⟩
  ihave #HMs01 := (BodyProto.mayWait_idx (F := F) c 11 (.dma (sem3 (sendArr 0) 1)) 0 (BodyProto.lv_rsend c 0 1) (Or.inr ⟨by decide, by decide⟩)) $$ Hlev
  ihave #HMr01 := (BodyProto.mayWait_idx (F := F) c 11 (.dma (sem3 (recvArr 0) 1)) (2 + (1 : Fin 3).val) (BodyProto.lv_rrecv c 0 1) (Or.inr ⟨by decide, by decide⟩)) $$ Hlev
  ihave #HMs11 := (BodyProto.mayWait_idx (F := F) c 11 (.dma (sem3 (sendArr 1) 1)) 0 (BodyProto.lv_rsend c 1 1) (Or.inr ⟨by decide, by decide⟩)) $$ Hlev
  ihave #HMr11 := (BodyProto.mayWait_idx (F := F) c 11 (.dma (sem3 (recvArr 1) 1)) (2 + (1 : Fin 3).val) (BodyProto.lv_rrecv c 1 1) (Or.inr ⟨by decide, by decide⟩)) $$ Hlev
  ihave #HMs21 := (BodyProto.mayWait_idx (F := F) c 11 (.dma (sem3 (sendArr 2) 1)) 0 (BodyProto.lv_rsend c 2 1) (Or.inr ⟨by decide, by decide⟩)) $$ Hlev
  ihave #HMr21 := (BodyProto.mayWait_idx (F := F) c 11 (.dma (sem3 (recvArr 2) 1)) (2 + (1 : Fin 3).val) (BodyProto.lv_rrecv c 2 1) (Or.inr ⟨by decide, by decide⟩)) $$ Hlev
  ihave #HMs02 := (BodyProto.mayWait_idx (F := F) c 14 (.dma (sem3 (sendArr 0) 2)) 0 (BodyProto.lv_rsend c 0 2) (Or.inr ⟨by decide, by decide⟩)) $$ Hlev
  ihave #HMr02 := (BodyProto.mayWait_idx (F := F) c 14 (.dma (sem3 (recvArr 0) 2)) (2 + (2 : Fin 3).val) (BodyProto.lv_rrecv c 0 2) (Or.inr ⟨by decide, by decide⟩)) $$ Hlev
  ihave #HMs12 := (BodyProto.mayWait_idx (F := F) c 14 (.dma (sem3 (sendArr 1) 2)) 0 (BodyProto.lv_rsend c 1 2) (Or.inr ⟨by decide, by decide⟩)) $$ Hlev
  ihave #HMr12 := (BodyProto.mayWait_idx (F := F) c 14 (.dma (sem3 (recvArr 1) 2)) (2 + (2 : Fin 3).val) (BodyProto.lv_rrecv c 1 2) (Or.inr ⟨by decide, by decide⟩)) $$ Hlev
  ihave #HMs22 := (BodyProto.mayWait_idx (F := F) c 14 (.dma (sem3 (sendArr 2) 2)) 0 (BodyProto.lv_rsend c 2 2) (Or.inr ⟨by decide, by decide⟩)) $$ Hlev
  ihave #HMr22 := (BodyProto.mayWait_idx (F := F) c 14 (.dma (sem3 (recvArr 2) 2)) (2 + (2 : Fin 3).val) (BodyProto.lv_rrecv c 2 2) (Or.inr ⟨by decide, by decide⟩)) $$ Hlev
  -- the second hop's transfer of the row sums, and the wait for the partial sums' send
  rw [wp_bind]
  iapply (wp_wand_r _ _ _)
  isplitl [HO Hsl21 Hnx21 Hts21 Htn21 Hcs01 Hats01]
  · iapply (part23_run vo vm vl vg kin vin m 𝒱₀ c v2 v5 v460 v623 w4 κ _ (routes_zr c))
    isplitr; · iexact HIs21
    isplitr; · iexact HRs21
    isplitr; · iexact HIn21
    isplitr; · iexact HRn21
    isplitr; · iexact HIs01
    isplitr; · iexact HMs01
    isplitl [HO]; · iexact HO
    isplitl [Hsl21]; · iexact Hsl21
    isplitl [Hnx21]; · iexact Hnx21
    isplitl [Hts21]; · iexact Hts21
    isplitl [Htn21]; · iexact Htn21
    isplitl [Hcs01]; · iexact Hcs01
    iexact Hats01
  iintro %r_part23 ⟨HO, Hcs21, Hats01, Hsl01⟩
  -- the second hop's partial sums land in slot 2; the row maxima's send is over; the row maxima land in slot 2
  rw [wp_bind]
  iapply (wp_wand_r _ _ _)
  isplitl [HO Hcr01 Hatr01 Hcs11 Hats11 Hcr11 Hatr11]
  · iapply (part24_run vo vm vl vg kin vin m 𝒱₀ c v2 v5 v460 κ _)
    isplitr; · iexact HIr01
    isplitr; · iexact HMr01
    isplitr; · iexact HIs11
    isplitr; · iexact HMs11
    isplitr; · iexact HIr11
    isplitr; · iexact HMr11
    isplitl [HO]; · iexact HO
    isplitl [Hcr01]; · iexact Hcr01
    isplitl [Hatr01]; · iexact Hatr01
    isplitl [Hcs11]; · iexact Hcs11
    isplitl [Hats11]; · iexact Hats11
    isplitl [Hcr11]; · iexact Hcr11
    iexact Hatr11
  iintro %r_part24 ⟨HO, Hatr01, Hsl02, Hats11, Hsl11, Hatr11, Hsl12⟩
  -- the second hop's row sums: the send is over, and they land in slot 2
  rw [wp_bind]
  iapply (wp_wand_r _ _ _)
  isplitl [HO Hcs21 Hats21 Hcr21 Hatr21]
  · iapply (part25_run vo vm vl vg kin vin m 𝒱₀ c v2 v5 v460 κ _)
    isplitr; · iexact HIs21
    isplitr; · iexact HMs21
    isplitr; · iexact HIr21
    isplitr; · iexact HMr21
    isplitl [HO]; · iexact HO
    isplitl [Hcs21]; · iexact Hcs21
    isplitl [Hats21]; · iexact Hats21
    isplitl [Hcr21]; · iexact Hcr21
    iexact Hatr21
  iintro %r_part25 ⟨HO, Hats21, Hsl21, Hatr21, Hsl22⟩
  -- the third hop's transfers of the partial sums and of the row maxima, from slot 2 into the next device's slot 3
  rw [wp_bind]
  iapply (wp_wand_r _ _ _)
  isplitl [HO Hsl02 Hnx02 Hts02 Htn02 Hsl12 Hnx12 Hts12 Htn12]
  · iapply (part26_run vo vm vl vg kin vin m 𝒱₀ c v2 v5 v460 κ _ (routes_zr c))
    isplitr; · iexact HIs02
    isplitr; · iexact HRs02
    isplitr; · iexact HIn02
    isplitr; · iexact HRn02
    isplitr; · iexact HIs12
    isplitr; · iexact HRs12
    isplitr; · iexact HIn12
    isplitr; · iexact HRn12
    isplitl [HO]; · iexact HO
    isplitl [Hsl02]; · iexact Hsl02
    isplitl [Hnx02]; · iexact Hnx02
    isplitl [Hts02]; · iexact Hts02
    isplitl [Htn02]; · iexact Htn02
    isplitl [Hsl12]; · iexact Hsl12
    isplitl [Hnx12]; · iexact Hnx12
    isplitl [Hts12]; · iexact Hts12
    iexact Htn12
  iintro %r_part26 ⟨HO, Hcs02, Hcs12⟩
  -- the third hop's transfer of the row sums; the partial sums' send is over, and they land in slot 3
  rw [wp_bind]
  iapply (wp_wand_r _ _ _)
  isplitl [HO Hsl22 Hnx22 Hts22 Htn22 Hcs02 Hats02 Hcr02 Hatr02]
  · iapply (part27_run vo vm vl vg kin vin m 𝒱₀ c v2 v5 v460 κ _ (routes_zr c))
    isplitr; · iexact HIs22
    isplitr; · iexact HRs22
    isplitr; · iexact HIn22
    isplitr; · iexact HRn22
    isplitr; · iexact HIs02
    isplitr; · iexact HMs02
    isplitr; · iexact HIr02
    isplitr; · iexact HMr02
    isplitl [HO]; · iexact HO
    isplitl [Hsl22]; · iexact Hsl22
    isplitl [Hnx22]; · iexact Hnx22
    isplitl [Hts22]; · iexact Hts22
    isplitl [Htn22]; · iexact Htn22
    isplitl [Hcs02]; · iexact Hcs02
    isplitl [Hats02]; · iexact Hats02
    isplitl [Hcr02]; · iexact Hcr02
    iexact Hatr02
  iintro %r_part27 ⟨HO, Hcs22, Hats02, Hsl02, Hatr02, Hsl03⟩
  -- the third hop's row maxima: the send is over and they land in slot 3; the row sums' send is over
  rw [wp_bind]
  iapply (wp_wand_r _ _ _)
  isplitl [HO Hcs12 Hats12 Hcr12 Hatr12 Hcs22 Hats22]
  · iapply (part28_run vo vm vl vg kin vin m 𝒱₀ c v2 v5 v460 κ _)
    isplitr; · iexact HIs12
    isplitr; · iexact HMs12
    isplitr; · iexact HIr12
    isplitr; · iexact HMr12
    isplitr; · iexact HIs22
    isplitr; · iexact HMs22
    isplitl [HO]; · iexact HO
    isplitl [Hcs12]; · iexact Hcs12
    isplitl [Hats12]; · iexact Hats12
    isplitl [Hcr12]; · iexact Hcr12
    isplitl [Hatr12]; · iexact Hatr12
    isplitl [Hcs22]; · iexact Hcs22
    iexact Hats22
  iintro %r_part28 ⟨HO, Hats12, Hsl12, Hatr12, Hsl13, Hats22, Hsl22⟩
  obtain ⟨v775, v776⟩ := r_part28
  -- last wait of the ring: the third hop's row sums land in slot 3
  rw [wp_bind]
  iapply (wp_wand_r _ _ _)
  isplitl [HO Hcr22 Hatr22]
  · iapply (seg29Wait_run vo vm vl vg kin vin m 𝒱₀ c κ _)
    isplitr; · iexact HIr22
    isplitr; · iexact HMr22
    isplitl [HO]; · iexact HO
    isplitl [Hcr22]; · iexact Hcr22
    iexact Hatr22
  iintro %r_seg29Wait ⟨HO, Hatr22, Hsl23⟩
  -- the state after the ring's last wait
  iapply HK
  isplitl [HO]; · iexists _; iexact HO
  isplitl [Hatb]; · iexact Hatb
  isplitl [Zs00 Zr00 Hats01 Hatr01 Hats02 Hatr02 Zs10 Zr10 Hats11 Hatr11 Hats12 Hatr12 Zs20 Zr20 Hats21 Hatr21 Hats22 Hatr22]
  · isplitl [Zs00 Zr00 Hats01 Hatr01 Hats02 Hatr02]
    · isplitl [Zs00 Zr00]; · isplitl [Zs00]; · iexact Zs00
                             iexact Zr00
      isplitl [Hats01 Hatr01]; · isplitl [Hats01]; · iexact Hats01
                                 iexact Hatr01
      isplitl [Hats02]; · iexact Hats02
      iexact Hatr02
    isplitl [Zs10 Zr10 Hats11 Hatr11 Hats12 Hatr12]
    · isplitl [Zs10 Zr10]; · isplitl [Zs10]; · iexact Zs10
                             iexact Zr10
      isplitl [Hats11 Hatr11]; · isplitl [Hats11]; · iexact Hats11
                                 iexact Hatr11
      isplitl [Hats12]; · iexact Hats12
      iexact Hatr12
    isplitl [Zs20 Zr20]; · isplitl [Zs20]; · iexact Zs20
                           iexact Zr20
    isplitl [Hats21 Hatr21]; · isplitl [Hats21]; · iexact Hats21
                               iexact Hatr21
    isplitl [Hats22]; · iexact Hats22
    iexact Hatr22
  isplitl [Hgath]; · iexact Hgath
  isplitl [Hsl00 Hsl01 Hsl02 Hsl03 Hsl10 Hsl11 Hsl12 Hsl13 Hsl20 Hsl21 Hsl22 Hsl23]
  · isplitl [Hsl00 Hsl01 Hsl02 Hsl03]
    · isplitl [Hsl00]; · iexact Hsl00
      isplitl [Hsl01]; · iexact Hsl01
      isplitl [Hsl02]; · iexact Hsl02
      iexact Hsl03
    isplitl [Hsl10 Hsl11 Hsl12 Hsl13]
    · isplitl [Hsl10]; · iexact Hsl10
      isplitl [Hsl11]; · iexact Hsl11
      isplitl [Hsl12]; · iexact Hsl12
      iexact Hsl13
    isplitl [Hsl20]; · iexact Hsl20
    isplitl [Hsl21]; · iexact Hsl21
    isplitl [Hsl22]; · iexact Hsl22
    iexact Hsl23
  isplitl [Hrow]; · iexact Hrow
  isplitl [Hp0]; · iexact Hp0
  isplitl [Hp1]; · iexact Hp1
  isplitl [Hp2]; · iexact Hp2
  isplitr; · iexact Hq0
  isplitr; · iexact Hq1
  iexact Hq2

/-- info: 'Cert.KernelIdeal.FD.ring_second' depends on axioms: [propext, Classical.choice, Quot.sound] -/
#guard_msgs in #print axioms ring_second

end Stretch

end Cert.KernelIdeal.FD

end
-- ==== Proof.RingFirst.lean ====
/-
  The first stretch of the ring's chain: the entry handshake, the first hop, and the second hop's first two transfers.
-/
import proofs.«900429_g7700000000000430_dist_flashdec_v7x_xyz2x4x4_z_b8_sq8_skv1024_h16_d128_f32_1_alg».proof.Proof.RingSecond

noncomputable section

namespace Cert.KernelIdeal.FD

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.BodyProto (part17_run part18_run part19_run part20_run part21_run part22_run bigSep_fin4 barPay_zl_intro barPay_zr_intro barPay_p0_intro barPay_p1_intro barPay_p2_intro)

variable {F : FTy → Type} [FloatOps F]

local notation "𝕄" => MT nD τ sig Unit (Elt F) ℕ UU ℕ

section Stretch

variable (vo : Dev nD → S8x16x128.Idx → Elt F .f32) (vm vl : Dev nD → S8x16x1.Idx → Elt F .f32)
variable (vg : ℕ → S8x8x16x128.Idx → Elt F .f32)
variable (kin vin : Dev nD → S1024x16x128.Idx → Elt F .f32)
variable (m : (ℓ : Loc nD τ sig) → Buf (Elt F) ℓ)

omit [FloatOps F] in
/-- The records of the six barrier cells a device works with, -/
theorem commRecs_bars (κ : GSem nD τ sig → ℕ) (c : Dev nD) :
    commRecs vo vm vl vg kin vin m κ c
      ⊢ iprop(cellRec vo vm vl vg kin vin m κ (barCell c) ∗ cellRec vo vm vl vg kin vin m κ (barCell (zl c)) ∗ cellRec vo vm vl vg kin vin m κ (barCell (zr c))
          ∗ cellRec vo vm vl vg kin vin m κ (barCell (p0 c)) ∗ cellRec vo vm vl vg kin vin m κ (barCell (p1 c)) ∗ cellRec vo vm vl vg kin vin m κ (barCell (p2 c))) := by
  unfold commRecs
  iintro ⟨-, #H0, #H1, #H2, #H3, #H4, #H5, -⟩
  isplitr; · iexact H0
  isplitr; · iexact H1
  isplitr; · iexact H2
  isplitr; · iexact H3
  isplitr; · iexact H4
  iexact H5

omit [FloatOps F] in
/-- that round 0 of each of its own nine ring receive cells is reached, -/
theorem commRecs_reached_rrecv (κ : GSem nD τ sig → ℕ) (c : Dev nD) :
    commRecs vo vm vl vg kin vin m κ c ⊢ (bigSep Finset.univ fun b : Fin 3 => bigSep Finset.univ fun h : Fin 3 => (reached ER (rrecvCell c b h) 0 : sProp 𝕄)) := by
  have hin : ∀ b h : Fin 3, (iprop(cellRec vo vm vl vg kin vin m κ (rsendCell c b h) ∗ cellRec vo vm vl vg kin vin m κ (rrecvCell c b h) ∗ cellRec vo vm vl vg kin vin m κ (rrecvCell (zr c) b h)) : sProp 𝕄)
      ⊢ reached ER (rrecvCell c b h) 0 := by
    intro b h
    unfold cellRec
    iintro ⟨-, ⟨-, H⟩, -⟩
    iexact H
  have hall : commRecs vo vm vl vg kin vin m κ c ⊢ (bigSep Finset.univ fun b : Fin 3 => bigSep Finset.univ fun h : Fin 3 =>
      (iprop(cellRec vo vm vl vg kin vin m κ (rsendCell c b h) ∗ cellRec vo vm vl vg kin vin m κ (rrecvCell c b h) ∗ cellRec vo vm vl vg kin vin m κ (rrecvCell (zr c) b h)) : sProp 𝕄)) := by
    unfold commRecs
    iintro ⟨-, -, -, -, -, -, -, H, -⟩
    iexact H
  exact hall.trans (bigSep_mono fun b _ => bigSep_mono fun h _ => hin b h)

omit [FloatOps F] in
/-- and the records of the three cells of each exchange. -/
theorem commRecs_gath' (κ : GSem nD τ sig → ℕ) (c : Dev nD) (st : Fin 3) :
    commRecs vo vm vl vg kin vin m κ c
      ⊢ iprop(cellRec vo vm vl vg kin vin m κ (gsendCell c st) ∗ cellRec vo vm vl vg kin vin m κ (grecvCell c st) ∗ cellRec vo vm vl vg kin vin m κ (grecvCell (partner st c) st)) :=
  (show commRecs vo vm vl vg kin vin m κ c ⊢ (bigSep Finset.univ fun st : Fin 3 =>
      (iprop(cellRec vo vm vl vg kin vin m κ (gsendCell c st) ∗ cellRec vo vm vl vg kin vin m κ (grecvCell c st) ∗ cellRec vo vm vl vg kin vin m κ (grecvCell (partner st c) st)) : sProp 𝕄)) from by
    unfold commRecs
    iintro ⟨-, -, -, -, -, -, -, -, H, -⟩
    iexact H).trans (bigSep_elim (Finset.mem_univ st))

omit [FloatOps F] in
theorem routes_zl (c : Dev nD) : τ.routes (c : Thread nD τ) (zl c : Thread nD τ) = true := by revert c; decide

set_option maxHeartbeats 4000000 in
set_option maxRecDepth 65536 in
/-- The first stretch of the ring's chain. -/
theorem ring_first : RingFirst vo vm vl vg kin vin m := by
  intro κ c v2 v5 v8 v460 v462 w4 k Q
  unfold ringHead commEntry ringHalf barToks barPos ringToks ringPos ringDone owesAt
  rw [Ring.bigSep_fin3 (fun b : Fin 3 => bigSep Finset.univ fun h : Fin 3 =>
        iprop((dutyTok ER (rsendCell c b h) 0 0 ∗ dutyTok ER (rrecvCell (zr c) b h) 0 0)
          ∗ atPos ER (rsendCell c b h) 0 ∅ 0 ∗ atPos ER (rrecvCell c b h) 0 ∅ 0 ∗ cred (tallyAt (rrecvCell c b h) () (Nring b)))),
    Ring.bigSep_fin3 (fun b : Fin 3 => iprop(slotHolds vo vm vl c b 0 ∗ slotOwned (F := F) c b 1 ∗ slotOwned (F := F) c b 2 ∗ slotOwned (F := F) c b 3))]
  simp only [Ring.bigSep_fin3 (fun h : Fin 3 =>
        iprop((dutyTok ER (rsendCell c _ h) 0 0 ∗ dutyTok ER (rrecvCell (zr c) _ h) 0 0)
          ∗ atPos ER (rsendCell c _ h) 0 ∅ 0 ∗ atPos ER (rrecvCell c _ h) 0 ∅ 0 ∗ cred (tallyAt (rrecvCell c _ h) () (Nring _))))]
  iintro ⟨#HC, ⟨⟨%W, HO⟩, ⟨Tbl, Tbr, Tb0, Tb1, Tb2⟩, ⟨Hatb, Hcb⟩, ⟨⟨⟨⟨Hts00, Htn00⟩, Hats00, Hatr00, Hcr00⟩, ⟨⟨Hts01, Htn01⟩, Hats01, Hatr01, Hcr01⟩, ⟨⟨Hts02, Htn02⟩, Hats02, Hatr02, Hcr02⟩⟩, ⟨⟨⟨Hts10, Htn10⟩, Hats10, Hatr10, Hcr10⟩, ⟨⟨Hts11, Htn11⟩, Hats11, Hatr11, Hcr11⟩, ⟨⟨Hts12, Htn12⟩, Hats12, Hatr12, Hcr12⟩⟩, ⟨⟨⟨Hts20, Htn20⟩, Hats20, Hatr20, Hcr20⟩, ⟨⟨Hts21, Htn21⟩, Hats21, Hatr21, Hcr21⟩, ⟨⟨Hts22, Htn22⟩, Hats22, Hatr22, Hcr22⟩⟩⟩, Hgath, ⟨⟨Hsl00, Own01, Own02, Own03⟩, ⟨Hsl10, Own11, Own12, Own13⟩, ⟨Hsl20, Own21, Own22, Own23⟩⟩, Hrow, Lp0, Lp1, Lp2⟩, HK⟩
  -- the records and the levels
  ihave #Hlev := (commRecs_levAts vo vm vl vg kin vin m κ c) $$ HC
  ihave #Bars := (commRecs_bars vo vm vl vg kin vin m κ c) $$ HC
  ihave #Hrr := (commRecs_reached_rrecv vo vm vl vg kin vin m κ c) $$ HC
  ihave #G0 := (commRecs_gath' vo vm vl vg kin vin m κ c 0) $$ HC
  ihave #G1 := (commRecs_gath' vo vm vl vg kin vin m κ c 1) $$ HC
  ihave #G2 := (commRecs_gath' vo vm vl vg kin vin m κ c 2) $$ HC
  ihave #R00 := (commRecs_ring vo vm vl vg kin vin m κ c 0 0) $$ HC
  ihave #R10 := (commRecs_ring vo vm vl vg kin vin m κ c 1 0) $$ HC
  ihave #R20 := (commRecs_ring vo vm vl vg kin vin m κ c 2 0) $$ HC
  ihave #R01 := (commRecs_ring vo vm vl vg kin vin m κ c 0 1) $$ HC
  ihave #R11 := (commRecs_ring vo vm vl vg kin vin m κ c 1 1) $$ HC
  unfold cellRec
  icases Bars with ⟨⟨#HIb, -⟩, ⟨#HIbl, #HRbl⟩, ⟨#HIbr, #HRbr⟩, ⟨#HIb0, #HRb0⟩, ⟨#HIb1, #HRb1⟩, #HIb2, #HRb2⟩
  icases G0 with ⟨-, ⟨-, #Rg0⟩, -⟩
  icases G1 with ⟨-, ⟨-, #Rg1⟩, -⟩
  icases G2 with ⟨-, ⟨-, #Rg2⟩, -⟩
  icases R00 with ⟨⟨#HIs00, #HRs00⟩, ⟨#HIr00, -⟩, #HIn00, #HRn00⟩
  icases R10 with ⟨⟨#HIs10, #HRs10⟩, ⟨#HIr10, -⟩, #HIn10, #HRn10⟩
  icases R20 with ⟨⟨#HIs20, #HRs20⟩, ⟨#HIr20, -⟩, #HIn20, #HRn20⟩
  icases R01 with ⟨⟨#HIs01, #HRs01⟩, ⟨#HIr01, -⟩, #HIn01, #HRn01⟩
  icases R11 with ⟨⟨#HIs11, #HRs11⟩, ⟨#HIr11, -⟩, #HIn11, #HRn11⟩
  ihave #HMb := (BodyProto.mayWait_idx (F := F) c 5 (.reg barS) 1 (BodyProto.lv_bar c) (Or.inr ⟨by decide, by decide⟩)) $$ Hlev
  ihave #HMs00 := (BodyProto.mayWait_idx (F := F) c 8 (.dma (sem3 (sendArr 0) 0)) 0 (BodyProto.lv_rsend c 0 0) (Or.inr ⟨by decide, by decide⟩)) $$ Hlev
  ihave #HMr00 := (BodyProto.mayWait_idx (F := F) c 8 (.dma (sem3 (recvArr 0) 0)) (2 + (0 : Fin 3).val) (BodyProto.lv_rrecv c 0 0) (Or.inr ⟨by decide, by decide⟩)) $$ Hlev
  ihave #HMs10 := (BodyProto.mayWait_idx (F := F) c 8 (.dma (sem3 (sendArr 1) 0)) 0 (BodyProto.lv_rsend c 1 0) (Or.inr ⟨by decide, by decide⟩)) $$ Hlev
  ihave #HMr10 := (BodyProto.mayWait_idx (F := F) c 8 (.dma (sem3 (recvArr 1) 0)) (2 + (0 : Fin 3).val) (BodyProto.lv_rrecv c 1 0) (Or.inr ⟨by decide, by decide⟩)) $$ Hlev
  ihave #HMs20 := (BodyProto.mayWait_idx (F := F) c 8 (.dma (sem3 (sendArr 2) 0)) 0 (BodyProto.lv_rsend c 2 0) (Or.inr ⟨by decide, by decide⟩)) $$ Hlev
  ihave #HMr20 := (BodyProto.mayWait_idx (F := F) c 8 (.dma (sem3 (recvArr 2) 0)) (2 + (0 : Fin 3).val) (BodyProto.lv_rrecv c 2 0) (Or.inr ⟨by decide, by decide⟩)) $$ Hlev
  -- what the five signals hand over
  ihave Pzl := (barPay_zl_intro (F := F) c) $$ [Own01 Own02 Own03 Own11 Own12 Own13 Own21 Own22 Own23]
  · isplitr []
    · isplitl [Own01]; · iexact Own01
      isplitl [Own02]; · iexact Own02
      isplitl [Own03]; · iexact Own03
      isplitl [Own11]; · iexact Own11
      isplitl [Own12]; · iexact Own12
      isplitl [Own13]; · iexact Own13
      isplitl [Own21]; · iexact Own21
      isplitl [Own22]; · iexact Own22
      iexact Own23
    · iexact Hrr
  ihave Pp0 := (barPay_p0_intro (F := F) c) $$ [Lp0]
  · isplitl [Lp0]; · iexact Lp0
    iexact Rg0
  ihave Pp1 := (barPay_p1_intro (F := F) c) $$ [Lp1]
  · isplitl [Lp1]; · iexact Lp1
    iexact Rg1
  ihave Pp2 := (barPay_p2_intro (F := F) c) $$ [Lp2]
  · isplitl [Lp2]; · iexact Lp2
    iexact Rg2
  -- the first four signals
  rw [wp_bind]
  iapply (wp_wand_r _ _ _)
  isplitl [HO Tbl Pzl Tbr Tb0 Pp0 Tb1 Pp1]
  · iapply (part17_run vo vm vl vg kin vin m 𝒱₀ c v2 v5 v8 v460 v462 w4 κ W (routes_zl c) (routes_zr c) (BodyProto.routes_p0 c) (BodyProto.routes_p1 c))
    isplitr; · iexact HIbl
    isplitr; · iexact HRbl
    isplitr; · iexact HIbr
    isplitr; · iexact HRbr
    isplitr; · iexact HIb0
    isplitr; · iexact HRb0
    isplitr; · iexact HIb1
    isplitr; · iexact HRb1
    isplitl [HO]; · iexact HO
    isplitl [Tbl]; · iexact Tbl
    isplitl [Pzl]; · iexact Pzl
    isplitl [Tbr]; · iexact Tbr
    isplitl []; · iapply (barPay_zr_intro (F := F) c); iempintro
    isplitl [Tb0]; · iexact Tb0
    isplitl [Pp0]; · iexact Pp0
    isplitl [Tb1]; · iexact Tb1
    iexact Pp1
  iintro %r17 ⟨%hr17, HO⟩
  subst hr17
  -- the fifth signal, the wait for the five neighbours, the first ring transfer
  rw [wp_bind]
  iapply (wp_wand_r _ _ _)
  isplitl [HO Tb2 Pp2 Hcb Hatb Hsl00 Hts00 Htn00]
  · iapply (part18_run vo vm vl vg kin vin m 𝒱₀ c v2 v5 v8 v460 _ _ κ W (BodyProto.routes_p2 c) (routes_zr c))
    isplitr; · iexact HIb2
    isplitr; · iexact HRb2
    isplitr; · iexact HIb
    isplitr; · iexact HMb
    isplitr; · iexact HIs00
    isplitr; · iexact HRs00
    isplitr; · iexact HIn00
    isplitr; · iexact HRn00
    isplitl [HO]; · iexact HO
    isplitl [Tb2]; · iexact Tb2
    isplitl [Pp2]; · iexact Pp2
    isplitl [Hcb]; · iexact Hcb
    isplitl [Hatb]; · iexact Hatb
    isplitl [Hsl00]; · iexact Hsl00
    isplitl [Hts00]; · iexact Hts00
    iexact Htn00
  iintro %r18 ⟨HO, Hatb, Hcs00, ⟨Hnx01, Hnx02, Hnx10, Hnx11, Hnx12, Hnx20, Hnx21, Hnx22⟩, -, Hb1, Hb2, Hb3, Hb4⟩
  ihave Hb2' := (Entails.of_eq (show (barPay (F := F) c 2 : sProp 𝕄) = iprop(rowsOwned (F := F) (p0 c) c 0 ∗ reached ER (grecvCell (p0 c) 0) 0) from rfl)) $$ Hb2
  ihave Hb3' := (Entails.of_eq (show (barPay (F := F) c 3 : sProp 𝕄) = iprop(rowsOwned (F := F) (p1 c) c 1 ∗ reached ER (grecvCell (p1 c) 1) 0) from rfl)) $$ Hb3
  ihave Hb4' := (Entails.of_eq (show (barPay (F := F) c 4 : sProp 𝕄) = iprop(rowsOwned (F := F) (p2 c) c 2 ∗ reached ER (grecvCell (p2 c) 2) 0) from rfl)) $$ Hb4
  icases Hb2' with ⟨Hp0, #Hq0⟩
  icases Hb3' with ⟨Hp1, #Hq1⟩
  icases Hb4' with ⟨Hp2, #Hq2⟩
  ihave Hb1' := (Entails.of_eq (show (barPay (F := F) c 1 : sProp 𝕄) = (iprop(emp) : sProp 𝕄) from rfl)) $$ Hb1
  icases Hb1' with -
  -- the first hop's transfers of the row maxima and of the row sums, and the wait for the partial sums' send
  rw [wp_bind]
  iapply (wp_wand_r _ _ _)
  isplitl [HO Hsl10 Hnx10 Hts10 Htn10 Hsl20 Hnx20 Hts20 Htn20 Hcs00 Hats00]
  · iapply (part19_run vo vm vl vg kin vin m 𝒱₀ c v2 v5 v460 κ _ (routes_zr c))
    isplitr; · iexact HIs10
    isplitr; · iexact HRs10
    isplitr; · iexact HIn10
    isplitr; · iexact HRn10
    isplitr; · iexact HIs20
    isplitr; · iexact HRs20
    isplitr; · iexact HIn20
    isplitr; · iexact HRn20
    isplitr; · iexact HIs00
    isplitr; · iexact HMs00
    isplitl [HO]; · iexact HO
    isplitl [Hsl10]; · iexact Hsl10
    isplitl [Hnx10]; · iexact Hnx10
    isplitl [Hts10]; · iexact Hts10
    isplitl [Htn10]; · iexact Htn10
    isplitl [Hsl20]; · iexact Hsl20
    isplitl [Hnx20]; · iexact Hnx20
    isplitl [Hts20]; · iexact Hts20
    isplitl [Htn20]; · iexact Htn20
    isplitl [Hcs00]; · iexact Hcs00
    iexact Hats00
  iintro %r_part19 ⟨HO, Hcs10, Hcs20, Hats00, Hsl00⟩
  -- the partial sums of the previous device land in slot 1; the row maxima's send is over
  rw [wp_bind]
  iapply (wp_wand_r _ _ _)
  isplitl [HO Hcr00 Hatr00 Hcs10 Hats10]
  · iapply (part20_run vo vm vl vg kin vin m 𝒱₀ c v2 v5 v460 κ _)
    isplitr; · iexact HIr00
    isplitr; · iexact HMr00
    isplitr; · iexact HIs10
    isplitr; · iexact HMs10
    isplitl [HO]; · iexact HO
    isplitl [Hcr00]; · iexact Hcr00
    isplitl [Hatr00]; · iexact Hatr00
    isplitl [Hcs10]; · iexact Hcs10
    iexact Hats10
  iintro %r_part20 ⟨HO, Hatr00, Hsl01, Hats10, Hsl10⟩
  -- the row maxima land in slot 1; the row sums' send is over; the row sums land in slot 1
  rw [wp_bind]
  iapply (wp_wand_r _ _ _)
  isplitl [HO Hcr10 Hatr10 Hcs20 Hats20 Hcr20 Hatr20]
  · iapply (part21_run vo vm vl vg kin vin m 𝒱₀ c v2 v5 v460 κ _)
    isplitr; · iexact HIr10
    isplitr; · iexact HMr10
    isplitr; · iexact HIs20
    isplitr; · iexact HMs20
    isplitr; · iexact HIr20
    isplitr; · iexact HMr20
    isplitl [HO]; · iexact HO
    isplitl [Hcr10]; · iexact Hcr10
    isplitl [Hatr10]; · iexact Hatr10
    isplitl [Hcs20]; · iexact Hcs20
    isplitl [Hats20]; · iexact Hats20
    isplitl [Hcr20]; · iexact Hcr20
    iexact Hatr20
  iintro %r_part21 ⟨HO, Hatr10, Hsl11, Hats20, Hsl20, Hatr20, Hsl21⟩
  obtain ⟨v594, c0⟩ := r_part21
  -- the second hop's transfers of the partial sums and of the row maxima, from slot 1 into the next device's slot 2
  rw [wp_bind]
  iapply (wp_wand_r _ _ _)
  isplitl [HO Hsl01 Hnx01 Hts01 Htn01 Hsl11 Hnx11 Hts11 Htn11]
  · iapply (part22_run vo vm vl vg kin vin m 𝒱₀ c v2 v5 v460 v594 c0 κ _ (routes_zr c))
    isplitr; · iexact HIs01
    isplitr; · iexact HRs01
    isplitr; · iexact HIn01
    isplitr; · iexact HRn01
    isplitr; · iexact HIs11
    isplitr; · iexact HRs11
    isplitr; · iexact HIn11
    isplitr; · iexact HRn11
    isplitl [HO]; · iexact HO
    isplitl [Hsl01]; · iexact Hsl01
    isplitl [Hnx01]; · iexact Hnx01
    isplitl [Hts01]; · iexact Hts01
    isplitl [Htn01]; · iexact Htn01
    isplitl [Hsl11]; · iexact Hsl11
    isplitl [Hnx11]; · iexact Hnx11
    isplitl [Hts11]; · iexact Hts11
    iexact Htn11
  iintro %r_part22 ⟨HO, Hcs01, Hcs11⟩
  obtain ⟨v623, c4⟩ := r_part22
  -- the meeting state
  iapply HK $$ %(Scalar.xori v5 1#32) %(Scalar.xori v5 2#32) %(Scalar.xori v2 1#32) %v623 %c4
  isplitl [HO]; · iexists _; iexact HO
  isplitl [Hatb]; · iexact Hatb
  isplitl [Hats00 Hatr00]
  · isplitl [Hats00]; · iexact Hats00
    iexact Hatr00
  isplitl [Hats10 Hatr10]
  · isplitl [Hats10]; · iexact Hats10
    iexact Hatr10
  isplitl [Hats20 Hatr20]
  · isplitl [Hats20]; · iexact Hats20
    iexact Hatr20
  isplitl [Hsl00]; · iexact Hsl00
  isplitl [Hsl10]; · iexact Hsl10
  isplitl [Hsl20]; · iexact Hsl20
  isplitl [Hsl21]; · iexact Hsl21
  isplitl [Hcs01]; · iexact Hcs01
  isplitl [Hcs11]; · iexact Hcs11
  isplitl [Hts21 Htn21]
  · isplitl [Hts21]; · iexact Hts21
    iexact Htn21
  isplitl [Hats01 Hatr01 Hcr01]
  · isplitl [Hats01]; · iexact Hats01
    isplitl [Hatr01]; · iexact Hatr01
    iexact Hcr01
  isplitl [Hats11 Hatr11 Hcr11]
  · isplitl [Hats11]; · iexact Hats11
    isplitl [Hatr11]; · iexact Hatr11
    iexact Hcr11
  isplitl [Hats21 Hatr21 Hcr21]
  · isplitl [Hats21]; · iexact Hats21
    isplitl [Hatr21]; · iexact Hatr21
    iexact Hcr21
  isplitl [Hts02 Htn02]
  · isplitl [Hts02]; · iexact Hts02
    iexact Htn02
  isplitl [Hts12 Htn12]
  · isplitl [Hts12]; · iexact Hts12
    iexact Htn12
  isplitl [Hts22 Htn22]
  · isplitl [Hts22]; · iexact Hts22
    iexact Htn22
  isplitl [Hats02 Hatr02 Hcr02]
  · isplitl [Hats02]; · iexact Hats02
    isplitl [Hatr02]; · iexact Hatr02
    iexact Hcr02
  isplitl [Hats12 Hatr12 Hcr12]
  · isplitl [Hats12]; · iexact Hats12
    isplitl [Hatr12]; · iexact Hatr12
    iexact Hcr12
  isplitl [Hats22 Hatr22 Hcr22]
  · isplitl [Hats22]; · iexact Hats22
    isplitl [Hatr22]; · iexact Hatr22
    iexact Hcr22
  isplitl [Hnx21]; · iexact Hnx21
  isplitl [Hnx02]; · iexact Hnx02
  isplitl [Hnx12]; · iexact Hnx12
  isplitl [Hnx22]; · iexact Hnx22
  isplitl [Hgath]; · iexact Hgath
  isplitl [Hrow]; · iexact Hrow
  isplitl [Hp0]; · iexact Hp0
  isplitl [Hp1]; · iexact Hp1
  isplitl [Hp2]; · iexact Hp2
  isplitr; · iexact Hq0
  isplitr; · iexact Hq1
  iexact Hq2

/-- info: 'Cert.KernelIdeal.FD.ring_first' depends on axioms: [propext, Classical.choice, Quot.sound] -/
#guard_msgs in #print axioms ring_first

end Stretch

end Cert.KernelIdeal.FD

end
-- ==== Proof.Body.lean ====
/-
  The body of the kernel on one device, whole: from what the launch hands a device to what it hands back, through the
  loads, the sixteen heads, the barrier, the three hops of the ring, the merge and the three row exchanges. The two
  halves meet after the last wait of the ring.
-/
import proofs.«900429_g7700000000000430_dist_flashdec_v7x_xyz2x4x4_z_b8_sq8_skv1024_h16_d128_f32_1_alg».proof.Proof.BodyFront
import proofs.«900429_g7700000000000430_dist_flashdec_v7x_xyz2x4x4_z_b8_sq8_skv1024_h16_d128_f32_1_alg».proof.Proof.RingFirst
import proofs.«900429_g7700000000000430_dist_flashdec_v7x_xyz2x4x4_z_b8_sq8_skv1024_h16_d128_f32_1_alg».proof.Proof.RingSecond
import proofs.«900429_g7700000000000430_dist_flashdec_v7x_xyz2x4x4_z_b8_sq8_skv1024_h16_d128_f32_1_alg».proof.Proof.BodyB

noncomputable section

namespace Cert.KernelIdeal.FD

open Cert.KernelIdeal Cert.KernelIdeal.Gen Idealize.ShloMosaic

variable {F : FTy → Type} [FloatOps F]

/-- The body lemma at the values the devices really compute. -/
theorem sound_body (m : (ℓ : Loc nD τ sig) → Buf (Elt F) ℓ) :
    SoundBody (voD m) (vmD m) (vlD m) (vgD m) (kinD m) (vinD m) m :=
  sound_body_of_halves _ _ _ _ _ _ _
    (first_half m (ring_first _ _ _ _ _ _ _) (ring_second _ _ _ _ _ _ _))
    (Cert.KernelIdeal.BodyProto.second_half m)

end Cert.KernelIdeal.FD

end
-- ==== Proof.SegmentsW.lean ====
/-
  The body of the decode step, cut where its local computation meets its communication.

  The printed body is one sequence: the entry part (the two local transfers of the device's key and value blocks and
  the first load of the query block), sixteen heads of attention against the device's own key block, the ring that
  passes the three partial results along z, the merge of the four partial results, and the three exchanges of the
  merged rows. The heads (`segCompute`) and the merge (`segMerge`) touch only the device's own buffers; every
  other piece signals, copies to another device or waits for one. This module names those pieces and proves that the
  body is their sequence, so that each piece can be run on its own and the runs composed along the sequence.
-/
import proofs.«900429_g7700000000000430_dist_flashdec_v7x_xyz2x4x4_z_b8_sq8_skv1024_h16_d128_f32_1_alg».proof.Proof.Gen.Kernel.Skeleton

set_option synthInstance.maxSize 4096

noncomputable section

namespace Cert.Kernel.FD

open Cert.Kernel Cert.Kernel.Gen

open Idealize.ShloMosaic Idealize.SL.Sem

variable {F : FTy → Type} [FloatOps F]

/-- The sixteen heads: each loads its rows of the query block (head 0's are loaded by the entry part and handed in
    as `v28`), its column of the key and of the value block, and stores the unnormalised output, the row maxima and
    the row sums at its place in slot 0 of the three partial-result buffers. It ends with the two neighbour
    coordinates along z, computed from the device's own coordinate `v8`. -/
noncomputable def segCompute (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3) (d0 : Dev nD) (v8 : BitVec 32) (v10 : BitVec 32) (v28 : Vec F S1x8x1x128 .f32) :
    Prog (TpuEff nD τ sig (Elt F) Λ₀ .tc) (Σ' (v460 : BitVec 32) (v462 : BitVec 32), BitVec 32) := do
  let v56 : FVec F S8x128 .f32 ← k0_part2 arg0 harg0 arg1 harg1 arg2 harg2 arg3 harg3 arg4 harg4 arg5 harg5 arg6 harg6 arg7 harg7 arg8 harg8 arg9 arg10 arg11 arg12 arg13 arg14 arg15 arg16 arg17 d0 v10 v28
  let ⟨v83, v85⟩ : Σ' (v83 : FVec F S8x128 .f32), FVec F S1024x128 .f32 ← k0_part3 arg0 harg0 arg1 harg1 arg2 harg2 arg3 harg3 arg4 harg4 arg5 harg5 arg6 harg6 arg7 harg7 arg8 harg8 arg9 arg10 arg11 arg12 arg13 arg14 arg15 arg16 arg17 d0 v10 v56
  let ⟨v110, v112, v114, cst_100⟩ : Σ' (v110 : FVec F S8x128 .f32) (v112 : FVec F S1024x128 .f32) (v114 : FVec F S1024x128 .f32), FVec F S8x1024 .f32 ← k0_part4 arg0 harg0 arg1 harg1 arg2 harg2 arg3 harg3 arg4 harg4 arg5 harg5 arg6 harg6 arg7 harg7 arg8 harg8 arg9 arg10 arg11 arg12 arg13 arg14 arg15 arg16 arg17 d0 v10 v83 v85
  let ⟨v141, v144⟩ : Σ' (v141 : FVec F S1024x128 .f32), FVec F S8x1024 .f32 ← k0_part5 arg0 harg0 arg1 harg1 arg2 harg2 arg3 harg3 arg4 harg4 arg5 harg5 arg6 harg6 arg7 harg7 arg8 harg8 arg9 arg10 arg11 arg12 arg13 arg14 arg15 arg16 arg17 d0 v10 v110 v112 v114 cst_100
  let ⟨v168, v171, v173, v174⟩ : Σ' (v168 : FVec F S1024x128 .f32) (v171 : FVec F S8x1024 .f32) (v173 : FVec F S8x1 .f32), FVec F S8x1024 .f32 ← k0_part6 arg0 harg0 arg1 harg1 arg2 harg2 arg3 harg3 arg4 harg4 arg5 harg5 arg6 harg6 arg7 harg7 arg8 harg8 arg9 arg10 arg11 arg12 arg13 arg14 arg15 arg16 arg17 d0 v10 v141 v144
  let ⟨v195, v200, v203, v204⟩ : Σ' (v195 : FVec F S1024x128 .f32) (v200 : FVec F S8x1 .f32) (v203 : FVec F S8x1024 .f32), FVec F S8 .f32 ← k0_part7 arg0 harg0 arg1 harg1 arg2 harg2 arg3 harg3 arg4 harg4 arg5 harg5 arg6 harg6 arg7 harg7 arg8 harg8 arg9 arg10 arg11 arg12 arg13 arg14 arg15 arg16 arg17 d0 v10 v168 v171 v173 v174
  let ⟨v227, v232, v233⟩ : Σ' (v227 : FVec F S8x1 .f32) (v232 : FVec F S8x1 .f32), FVec F S8x128 .f32 ← k0_part8 arg0 harg0 arg1 harg1 arg2 harg2 arg3 harg3 arg4 harg4 arg5 harg5 arg6 harg6 arg7 harg7 arg8 harg8 arg9 arg10 arg11 arg12 arg13 arg14 arg15 arg16 arg17 d0 v10 v195 v200 v203 v204
  let ⟨v254, v259, v260, v261⟩ : Σ' (v254 : FVec F S8x1 .f32) (v259 : FVec F S8x1 .f32) (v260 : FVec F S8x128 .f32), Vec F S1x8x1x128 .f32 ← k0_part9 arg0 harg0 arg1 harg1 arg2 harg2 arg3 harg3 arg4 harg4 arg5 harg5 arg6 harg6 arg7 harg7 arg8 harg8 arg9 arg10 arg11 arg12 arg13 arg14 arg15 arg16 arg17 d0 v10 v227 v232 v233
  let ⟨v281, v286⟩ : Σ' (v281 : FVec F S8x1 .f32), FVec F S8x1 .f32 ← k0_part10 arg0 harg0 arg1 harg1 arg2 harg2 arg3 harg3 arg4 harg4 arg5 harg5 arg6 harg6 arg7 harg7 arg8 harg8 arg9 arg10 arg11 arg12 arg13 arg14 arg15 arg16 arg17 d0 v10 v254 v259 v260 v261
  let ⟨v308, v313, v318⟩ : Σ' (v308 : FVec F S8x1 .f32) (v313 : FVec F S8x1 .f32), Vec F S1x8x1x1 .f32 ← k0_part11 arg0 harg0 arg1 harg1 arg2 harg2 arg3 harg3 arg4 harg4 arg5 harg5 arg6 harg6 arg7 harg7 arg8 harg8 arg9 arg10 arg11 arg12 arg13 arg14 arg15 arg16 arg17 d0 v10 v281 v286
  let v340 : FVec F S8x1 .f32 ← k0_part12 arg0 harg0 arg1 harg1 arg2 harg2 arg3 harg3 arg4 harg4 arg5 harg5 arg6 harg6 arg7 harg7 arg8 harg8 arg9 arg10 arg11 arg12 arg13 arg14 arg15 arg16 arg17 d0 v10 v308 v313 v318
  let ⟨v367, v375⟩ : Σ' (v367 : FVec F S8x1 .f32), Vec F S1x8x1x1 .f32 ← k0_part13 arg0 harg0 arg1 harg1 arg2 harg2 arg3 harg3 arg4 harg4 arg5 harg5 arg6 harg6 arg7 harg7 arg8 harg8 arg9 arg10 arg11 arg12 arg13 arg14 arg15 arg16 arg17 d0 v10 v340
  k0_part14 arg0 harg0 arg1 harg1 arg2 harg2 arg3 harg3 arg4 harg4 arg5 harg5 arg6 harg6 arg7 harg7 arg8 harg8 arg9 arg10 arg11 arg12 arg13 arg14 arg15 arg16 arg17 d0 v10 v367 v375
  let v433 : Vec F S1x8x1x128 .f32 ← k0_part15 arg0 harg0 arg1 harg1 arg2 harg2 arg3 harg3 arg4 harg4 arg5 harg5 arg6 harg6 arg7 harg7 arg8 harg8 arg9 arg10 arg11 arg12 arg13 arg14 arg15 arg16 arg17 d0 v10
  k0_part16 arg0 harg0 arg1 harg1 arg2 harg2 arg3 harg3 arg4 harg4 arg5 harg5 arg6 harg6 arg7 harg7 arg8 harg8 arg9 arg10 arg11 arg12 arg13 arg14 arg15 arg16 arg17 v8 v433

/-- The wait for the last ring hop's row sums: the one communication step of the merge's first part. -/
noncomputable def seg29Wait (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3) :
    Prog (TpuEff nD τ sig (Elt F) Λ₀ .tc) PUnit := do
  let v780 : DmaSems sig S1 := arg15.slice (Rect.unit (s := S3) ![2] S1.size inb_S3_S1_2)
  let v781 : DmaSems sig S_ := v780.squeeze S_ squeezes_S1_S_
  let v782 : Memref sig .tc .vmem S1x8x16x1 .f32 := arg8.slice (Rect.unit (s := S4x8x16x1) ![3, 0, 0, 0] S1x8x16x1.size inb_S4x8x16x1_S1x8x16x1_3_0_0_0) (fun _ => rfl)
  let v783 : Memref sig .tc .vmem S8x16x1 .f32 := v782.squeeze S8x16x1 squeezes_S1x8x16x1_S8x16x1
  let v784 : Memref sig .tc .vmem S1x8x16x1 .f32 := arg8.slice (Rect.unit (s := S4x8x16x1) ![2, 0, 0, 0] S1x8x16x1.size inb_S4x8x16x1_S1x8x16x1_2_0_0_0) (fun _ => rfl)
  let v785 : Memref sig .tc .vmem S8x16x1 .f32 := v784.squeeze S8x16x1 squeezes_S1x8x16x1_S8x16x1
  Prog.lift (.waitDma2 v781.sem v785 v783 ((View.wordExact_bits rfl).reshape _ _) ((View.wordExact_bits rfl).reshape _ _))

/-- The merge of the four slots: it loads slot after slot of the three partial-result buffers, rescales each to the
    common row maximum, and returns the merged and normalised rows. -/
noncomputable def segMerge (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3) :
    Prog (TpuEff nD τ sig (Elt F) Λ₀ .tc) (FVec F S1x8x16x128 .f32) := do
  let v786 : Vec F S1x8x16x1 .f32 ← Prog.lift (.load arg7 (Rect.unit (s := S4x8x16x1) ![0, 0, 0, 0] S1x8x16x1.size inb_S4x8x16x1_S1x8x16x1_0_0_0_0).toLoadRect (View.loadsAt_vmem h_S1x8x16x1))
  let v788 : Vec F S1x8x16x1 .f32 ← Prog.lift (.load arg8 (Rect.unit (s := S4x8x16x1) ![0, 0, 0, 0] S1x8x16x1.size inb_S4x8x16x1_S1x8x16x1_0_0_0_0).toLoadRect (View.loadsAt_vmem h_S1x8x16x1))
  let v790 : Vec F S1x8x16x128 .f32 ← Prog.lift (.load arg6 (Rect.unit (s := S4x8x16x128) ![0, 0, 0, 0] S1x8x16x128.size inb_S4x8x16x128_S1x8x16x128_0_0_0_0).toLoadRect (View.loadsAt_vmem h_S1x8x16x128))
  let v792 : Vec F S1x8x16x1 .f32 ← Prog.lift (.load arg7 (Rect.unit (s := S4x8x16x1) ![1, 0, 0, 0] S1x8x16x1.size inb_S4x8x16x1_S1x8x16x1_1_0_0_0).toLoadRect (View.loadsAt_vmem h_S1x8x16x1))
  let v801 : Vec F S1x8x16x128 .f32 ← Prog.lift (.load arg6 (Rect.unit (s := S4x8x16x128) ![1, 0, 0, 0] S1x8x16x128.size inb_S4x8x16x128_S1x8x16x128_1_0_0_0).toLoadRect (View.loadsAt_vmem h_S1x8x16x128))
  let ⟨v836, v843, v844⟩ : Σ' (v836 : FVec F S8x16x1 .f32) (v843 : FVec F S8x16x128 .f32), FVec F S8x16x1 .f32 ← k0_part30 arg0 harg0 arg1 harg1 arg2 harg2 arg3 harg3 arg4 harg4 arg5 harg5 arg6 harg6 arg7 harg7 arg8 harg8 arg9 arg10 arg11 arg12 arg13 arg14 arg15 arg16 arg17 (k0_pay118 v786 v792) (k0_pay120 v786 v792) (k0_pay121 v786 v790 v792 v801) (k0_pay122 v786 v788 v792)
  let v845 : Vec F S1x8x16x1 .f32 ← Prog.lift (.load arg8 (Rect.unit (s := S4x8x16x1) ![3, 0, 0, 0] S1x8x16x1.size inb_S4x8x16x1_S1x8x16x1_3_0_0_0).toLoadRect (View.loadsAt_vmem h_S1x8x16x1))
  pure (k0_pay133 v836 v843 v844 v845)

/-- After the merge: the merged rows `w` are stored into the device's own row of the result's staging buffer, and the
    first exchange sends that row to the partner and waits for the send. -/
noncomputable def seg31Tail (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3) (d0 : Dev nD) (w : FVec F S1x8x16x128 .f32) :
    Prog (TpuEff nD τ sig (Elt F) Λ₀ .tc) PUnit := do
  let v853 : Vec F S1x8x16x128 .f32 ← Prog.lift (.load arg3 (Rect.unit (s := S8x8x16x128) (k0_off18 d0) S1x8x16x128.size (k0_off18_inb d0)).toLoadRect (View.loadsAt_vmem h_S1x8x16x128))
  Prog.lift (.store arg3 (Rect.unit (s := S8x8x16x128) (k0_off18 d0) S1x8x16x128.size (k0_off18_inb d0)) w Finset.univ (View.stores_vmem_bits_univ h_S1x8x16x128 rfl) (.inl rfl))
  let v862 : DmaSems sig S1 := arg16.slice (Rect.unit (s := S3) ![0] S1.size inb_S3_S1_0)
  let v863 : DmaSems sig S_ := v862.squeeze S_ squeezes_S1_S_
  let v864 : DmaSems sig S1 := arg17.slice (Rect.unit (s := S3) ![0] S1.size inb_S3_S1_0)
  let v865 : DmaSems sig S_ := v864.squeeze S_ squeezes_S1_S_
  let v866 : Memref sig .tc .vmem S1x8x16x128 .f32 := arg3.slice (Rect.unit (s := S8x8x16x128) (k0_off19 d0) S1x8x16x128.size (k0_off19_inb d0)) (fun _ => rfl)
  let v867 : Memref sig .tc .vmem S1x8x16x128 .f32 := arg3.slice (Rect.unit (s := S8x8x16x128) (k0_off19 d0) S1x8x16x128.size (k0_off19_inb d0)) (fun _ => rfl)
  Prog.lift (.enqueueDma v867 (.remote (Dev.tc (⟨k0_dev15 d0, k0_dev15_lt d0⟩ : Dev nD)) v866 (.dma v863.sem)) (.dma v865.sem) (View.wordExact_bits rfl) (View.wordExact_bits rfl) ⟨⟨rfl, Or.inl rfl⟩, trivial⟩)
  let v868 : DmaSems sig S1 := arg16.slice (Rect.unit (s := S3) ![0] S1.size inb_S3_S1_0)
  let v869 : DmaSems sig S_ := v868.squeeze S_ squeezes_S1_S_
  let v870 : Memref sig .tc .vmem S1x8x16x128 .f32 := arg3.slice (Rect.unit (s := S8x8x16x128) (k0_off19 d0) S1x8x16x128.size (k0_off19_inb d0)) (fun _ => rfl)
  let v871 : Memref sig .tc .vmem S1x8x16x128 .f32 := arg3.slice (Rect.unit (s := S8x8x16x128) (k0_off19 d0) S1x8x16x128.size (k0_off19_inb d0)) (fun _ => rfl)
  Prog.lift (.waitDma2 v869.sem v871 v870 (View.wordExact_bits rfl) (View.wordExact_bits rfl))
  pure ⟨⟩

/-- The end of the body: the two waits of the last exchange. -/
noncomputable def segExit (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3) (d0 : Dev nD) :
    Prog (TpuEff nD τ sig (Elt F) Λ₀ .tc) PUnit := do
  let v923 : Memref sig .tc .vmem S4x8x16x128 .f32 := arg3.slice (Rect.unit (s := S8x8x16x128) (k0_off21 d0) S4x8x16x128.size (k0_off21_inb d0)) (fun _ => rfl)
  let v920 : DmaSems sig S1 := arg16.slice (Rect.unit (s := S3) ![2] S1.size inb_S3_S1_2)
  let v921 : DmaSems sig S_ := v920.squeeze S_ squeezes_S1_S_
  let v922 : Memref sig .tc .vmem S4x8x16x128 .f32 := arg3.slice (Rect.unit (s := S8x8x16x128) (k0_off21 d0) S4x8x16x128.size (k0_off21_inb d0)) (fun _ => rfl)
  Prog.lift (.waitDma2 v921.sem v923 v922 (View.wordExact_bits rfl) (View.wordExact_bits rfl))
  let v930 : DmaSems sig S1 := arg17.slice (Rect.unit (s := S3) ![2] S1.size inb_S3_S1_2)
  let v931 : DmaSems sig S_ := v930.squeeze S_ squeezes_S1_S_
  let v932 : Memref sig .tc .vmem S4x8x16x128 .f32 := arg3.slice (Rect.unit (s := S8x8x16x128) (k0_off21 d0) S4x8x16x128.size (k0_off21_inb d0)) (fun _ => rfl)
  let v933 : Memref sig .tc .vmem S4x8x16x128 .f32 := arg3.slice (Rect.unit (s := S8x8x16x128) (k0_off21 d0) S4x8x16x128.size (k0_off21_inb d0)) (fun _ => rfl)
  Prog.lift (.waitDma2 v931.sem v933 v932 (View.wordExact_bits rfl) (View.wordExact_bits rfl))
  pure ⟨⟩

set_option maxRecDepth 65536 in

/-- The body as the sequence of its pieces. -/
noncomputable def bodySegs (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3) :
    Prog (TpuEff nD τ sig (Elt F) Λ₀ .tc) PUnit := do
  let ⟨d0, v2, v5, v8, v10, v28⟩ : Σ' (d0 : Dev nD) (v2 : BitVec 32) (v5 : BitVec 32) (v8 : BitVec 32) (v10 : BitVec 32), Vec F S1x8x1x128 .f32 ← k0_part1 arg0 harg0 arg1 harg1 arg2 harg2 arg3 harg3 arg4 harg4 arg5 harg5 arg6 harg6 arg7 harg7 arg8 harg8 arg9 arg10 arg11 arg12 arg13 arg14 arg15 arg16 arg17
  let ⟨v460, v462, c4_i32_421⟩ : Σ' (v460 : BitVec 32) (v462 : BitVec 32), BitVec 32 ← segCompute arg0 harg0 arg1 harg1 arg2 harg2 arg3 harg3 arg4 harg4 arg5 harg5 arg6 harg6 arg7 harg7 arg8 harg8 arg9 arg10 arg11 arg12 arg13 arg14 arg15 arg16 arg17 d0 v8 v10 v28
  let ⟨v464, v465, v466, v467, v492, c0_i32_447⟩ : Σ' (v464 : BitVec 32) (v465 : BitVec 32) (v466 : BitVec 32) (v467 : Sems sig S_) (v492 : BitVec 32), BitVec 32 ← k0_part17 arg0 harg0 arg1 harg1 arg2 harg2 arg3 harg3 arg4 harg4 arg5 harg5 arg6 harg6 arg7 harg7 arg8 harg8 arg9 arg10 arg11 arg12 arg13 arg14 arg15 arg16 arg17 d0 v2 v5 v8 v460 v462 c4_i32_421
  k0_part18 arg0 harg0 arg1 harg1 arg2 harg2 arg3 harg3 arg4 harg4 arg5 harg5 arg6 harg6 arg7 harg7 arg8 harg8 arg9 arg10 arg11 arg12 arg13 arg14 arg15 arg16 arg17 d0 v2 v5 v8 v460 v467 v492 c0_i32_447
  k0_part19 arg0 harg0 arg1 harg1 arg2 harg2 arg3 harg3 arg4 harg4 arg5 harg5 arg6 harg6 arg7 harg7 arg8 harg8 arg9 arg10 arg11 arg12 arg13 arg14 arg15 arg16 arg17 d0 v2 v5 v460
  k0_part20 arg0 harg0 arg1 harg1 arg2 harg2 arg3 harg3 arg4 harg4 arg5 harg5 arg6 harg6 arg7 harg7 arg8 harg8 arg9 arg10 arg11 arg12 arg13 arg14 arg15 arg16 arg17 v2 v5 v460
  let ⟨v594, c0_i32_572⟩ : Σ' (v594 : BitVec 32), BitVec 32 ← k0_part21 arg0 harg0 arg1 harg1 arg2 harg2 arg3 harg3 arg4 harg4 arg5 harg5 arg6 harg6 arg7 harg7 arg8 harg8 arg9 arg10 arg11 arg12 arg13 arg14 arg15 arg16 arg17 v2 v5 v460
  let ⟨v623, c4_i32_601⟩ : Σ' (v623 : BitVec 32), BitVec 32 ← k0_part22 arg0 harg0 arg1 harg1 arg2 harg2 arg3 harg3 arg4 harg4 arg5 harg5 arg6 harg6 arg7 harg7 arg8 harg8 arg9 arg10 arg11 arg12 arg13 arg14 arg15 arg16 arg17 d0 v2 v5 v460 v594 c0_i32_572
  k0_part23 arg0 harg0 arg1 harg1 arg2 harg2 arg3 harg3 arg4 harg4 arg5 harg5 arg6 harg6 arg7 harg7 arg8 harg8 arg9 arg10 arg11 arg12 arg13 arg14 arg15 arg16 arg17 d0 v2 v5 v460 v623 c4_i32_601
  k0_part24 arg0 harg0 arg1 harg1 arg2 harg2 arg3 harg3 arg4 harg4 arg5 harg5 arg6 harg6 arg7 harg7 arg8 harg8 arg9 arg10 arg11 arg12 arg13 arg14 arg15 arg16 arg17 v2 v5 v460
  k0_part25 arg0 harg0 arg1 harg1 arg2 harg2 arg3 harg3 arg4 harg4 arg5 harg5 arg6 harg6 arg7 harg7 arg8 harg8 arg9 arg10 arg11 arg12 arg13 arg14 arg15 arg16 arg17 v2 v5 v460
  k0_part26 arg0 harg0 arg1 harg1 arg2 harg2 arg3 harg3 arg4 harg4 arg5 harg5 arg6 harg6 arg7 harg7 arg8 harg8 arg9 arg10 arg11 arg12 arg13 arg14 arg15 arg16 arg17 d0 v2 v5 v460
  k0_part27 arg0 harg0 arg1 harg1 arg2 harg2 arg3 harg3 arg4 harg4 arg5 harg5 arg6 harg6 arg7 harg7 arg8 harg8 arg9 arg10 arg11 arg12 arg13 arg14 arg15 arg16 arg17 d0 v2 v5 v460
  let ⟨v775, v776⟩ : Σ' (v775 : BitVec 32), BitVec 32 ← k0_part28 arg0 harg0 arg1 harg1 arg2 harg2 arg3 harg3 arg4 harg4 arg5 harg5 arg6 harg6 arg7 harg7 arg8 harg8 arg9 arg10 arg11 arg12 arg13 arg14 arg15 arg16 arg17 v2 v5 v460
  seg29Wait arg0 harg0 arg1 harg1 arg2 harg2 arg3 harg3 arg4 harg4 arg5 harg5 arg6 harg6 arg7 harg7 arg8 harg8 arg9 arg10 arg11 arg12 arg13 arg14 arg15 arg16 arg17
  let w : FVec F S1x8x16x128 .f32 ← segMerge arg0 harg0 arg1 harg1 arg2 harg2 arg3 harg3 arg4 harg4 arg5 harg5 arg6 harg6 arg7 harg7 arg8 harg8 arg9 arg10 arg11 arg12 arg13 arg14 arg15 arg16 arg17
  seg31Tail arg0 harg0 arg1 harg1 arg2 harg2 arg3 harg3 arg4 harg4 arg5 harg5 arg6 harg6 arg7 harg7 arg8 harg8 arg9 arg10 arg11 arg12 arg13 arg14 arg15 arg16 arg17 d0 w
  k0_part32 arg0 harg0 arg1 harg1 arg2 harg2 arg3 harg3 arg4 harg4 arg5 harg5 arg6 harg6 arg7 harg7 arg8 harg8 arg9 arg10 arg11 arg12 arg13 arg14 arg15 arg16 arg17 d0 v2 v8 v464 v465
  k0_part33 arg0 harg0 arg1 harg1 arg2 harg2 arg3 harg3 arg4 harg4 arg5 harg5 arg6 harg6 arg7 harg7 arg8 harg8 arg9 arg10 arg11 arg12 arg13 arg14 arg15 arg16 arg17 d0 v2 v5 v8 v465 v466
  segExit arg0 harg0 arg1 harg1 arg2 harg2 arg3 harg3 arg4 harg4 arg5 harg5 arg6 harg6 arg7 harg7 arg8 harg8 arg9 arg10 arg11 arg12 arg13 arg14 arg15 arg16 arg17 d0

set_option maxRecDepth 65536 in
/-- The body's skeleton is the sequence of its pieces: both sides unfold to the same sequence of operations. -/
theorem k0_part34_skel_eq_segs : k0_part34_skel (F := F) = bodySegs (F := F) := rfl

/-- The printed root part is the sequence of its pieces. -/
theorem k0_part34_eq_segs : k0_part34 (F := F) = bodySegs (F := F) :=
  k0_part34_eq_skeleton.trans k0_part34_skel_eq_segs

/-- The printed body is the sequence of its pieces, then the return. -/
theorem cc0_body_eq_segs (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3) :
    cc0_body (F := F) arg0 harg0 arg1 harg1 arg2 harg2 arg3 harg3 arg4 harg4 arg5 harg5 arg6 harg6 arg7 harg7 arg8 harg8 arg9 arg10 arg11 arg12 arg13 arg14 arg15 arg16 arg17 = (do bodySegs arg0 harg0 arg1 harg1 arg2 harg2 arg3 harg3 arg4 harg4 arg5 harg5 arg6 harg6 arg7 harg7 arg8 harg8 arg9 arg10 arg11 arg12 arg13 arg14 arg15 arg16 arg17; pure ⟨⟩) := by
  rw [cc0_body_eq_skeleton, cc0_body_skel, k0_part34_eq_segs]

end Cert.Kernel.FD

end
-- ==== Proof.BodyStateW.lean ====
/-
  The state of one device between the communication steps of the body.

  A device `c` works with: its own barrier cell and its five neighbours'; per ring buffer kind `b` and hop `h` its own send
  cell, its own receive cell and the next device's receive cell; per exchange `st` its own send cell, its own receive cell
  and the partner's receive cell. What it holds of each of these changes step by step: a token for each duty it still has to
  pay, its position and its credit on each cell it still has to wait on, the slots and rows it owns at the moment. This module
  names those holdings one by one, and then the states at the places where the communication steps meet the local ones.
-/
import proofs.«900429_g7700000000000430_dist_flashdec_v7x_xyz2x4x4_z_b8_sq8_skv1024_h16_d128_f32_1_alg».proof.Proof.ProtoW

noncomputable section

namespace Cert.Kernel.FD

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section State

variable (vo : Dev nD → S8x16x128.Idx → Elt F .f32) (vm vl : Dev nD → S8x16x1.Idx → Elt F .f32)
variable (vg : ℕ → S8x8x16x128.Idx → Elt F .f32)
variable (kin vin : Dev nD → S1024x16x128.Idx → Elt F .f32)
variable (m : (ℓ : Loc nD τ sig) → Buf (Elt F) ℓ)

local notation "RD" => Rd vo vm vl vg kin vin m

/-! ## What never changes: the cells' invariants, their round 0 reached, the levels -/

/-- Cell `g`'s invariant sits at the name `κ g`, and round 0 of `g` is reached. -/
def cellRec (κ : GSem nD τ sig → ℕ) (g : GSem nD τ sig) : sProp 𝕄 := iprop(cellInv ER RD (κ g) g ∗ reached ER g 0)

omit [FloatOps F] in
instance cellRec_persistent (κ : GSem nD τ sig → ℕ) (g : GSem nD τ sig) : BI.Persistent (cellRec vo vm vl vg kin vin m κ g) := by
  unfold cellRec; infer_instance

/-- The records of every cell device `c` signals, copies onto or waits on, and the levels of all cells. -/
def commRecs (κ : GSem nD τ sig → ℕ) (c : Dev nD) : sProp 𝕄 :=
  iprop(levAts L lv
    ∗ cellRec vo vm vl vg kin vin m κ (barCell c) ∗ cellRec vo vm vl vg kin vin m κ (barCell (zl c)) ∗ cellRec vo vm vl vg kin vin m κ (barCell (zr c))
    ∗ cellRec vo vm vl vg kin vin m κ (barCell (p0 c)) ∗ cellRec vo vm vl vg kin vin m κ (barCell (p1 c)) ∗ cellRec vo vm vl vg kin vin m κ (barCell (p2 c))
    ∗ (bigSep Finset.univ fun b : Fin 3 => bigSep Finset.univ fun h : Fin 3 =>
        iprop(cellRec vo vm vl vg kin vin m κ (rsendCell c b h) ∗ cellRec vo vm vl vg kin vin m κ (rrecvCell c b h) ∗ cellRec vo vm vl vg kin vin m κ (rrecvCell (zr c) b h)))
    ∗ (bigSep Finset.univ fun st : Fin 3 =>
        iprop(cellRec vo vm vl vg kin vin m κ (gsendCell c st) ∗ cellRec vo vm vl vg kin vin m κ (grecvCell c st) ∗ cellRec vo vm vl vg kin vin m κ (grecvCell (partner st c) st)))
    ∗ cellRec vo vm vl vg kin vin m κ (loadCell c 0) ∗ cellRec vo vm vl vg kin vin m κ (loadCell c 1))

/-! ## What a device holds of its cells -/

/-- The device owes what is left after its first `k` payments, whatever waits it has recorded. -/
def owesAt (k : ℕ) (c : Dev nD) : sProp 𝕄 := iprop(∃ W, owes (c : Thread nD τ) (owedAfter k c) W)

/-- The five tokens the device's five signals pay with: one duty of each neighbour's barrier cell. -/
def barToks (c : Dev nD) : sProp 𝕄 :=
  iprop(dutyTok ER (barCell (zl c)) 0 0 ∗ dutyTok ER (barCell (zr c)) 0 1 ∗ dutyTok ER (barCell (p0 c)) 0 2
    ∗ dutyTok ER (barCell (p1 c)) 0 3 ∗ dutyTok ER (barCell (p2 c)) 0 4)

/-- The device's position at round 0 of its own barrier cell and the five units of credit it was dealt for it. -/
def barPos (c : Dev nD) : sProp 𝕄 := iprop(atPos ER (barCell c) 0 ∅ 0 ∗ cred (tallyAt (barCell c) () 5))

/-- The two tokens the ring transfer of buffer kind `b` at hop `h` pays with: the duty of the device's own send cell and the duty
    of the next device's receive cell. -/
def ringToks (c : Dev nD) (b h : Fin 3) : sProp 𝕄 :=
  iprop(dutyTok ER (rsendCell c b h) 0 0 ∗ dutyTok ER (rrecvCell (zr c) b h) 0 0)

/-- The device's positions at round 0 of its send and receive cells of `(b, h)`, and the credit it was dealt for the receive cell. -/
def ringPos (c : Dev nD) (b h : Fin 3) : sProp 𝕄 :=
  iprop(atPos ER (rsendCell c b h) 0 ∅ 0 ∗ atPos ER (rrecvCell c b h) 0 ∅ 0 ∗ cred (tallyAt (rrecvCell c b h) () (Nring b)))

/-- Both cells of `(b, h)` waited for: the device stands at round 1 of each, where no duty is left. -/
def ringDone (c : Dev nD) (b h : Fin 3) : sProp 𝕄 :=
  iprop(atPos ER (rsendCell c b h) (0 + 1) ∅ 0 ∗ atPos ER (rrecvCell c b h) (0 + 1) ∅ 0)

/-- The same three for the exchange `st`. -/
def gathToks (c : Dev nD) (st : Fin 3) : sProp 𝕄 :=
  iprop(dutyTok ER (gsendCell c st) 0 0 ∗ dutyTok ER (grecvCell (partner st c) st) 0 0)
def gathPos (c : Dev nD) (st : Fin 3) : sProp 𝕄 :=
  iprop(atPos ER (gsendCell c st) 0 ∅ 0 ∗ atPos ER (grecvCell c st) 0 ∅ 0 ∗ cred (tallyAt (grecvCell c st) () (Nrows (partner st c) st)))
def gathDone (c : Dev nD) (st : Fin 3) : sProp 𝕄 :=
  iprop(atPos ER (gsendCell c st) (0 + 1) ∅ 0 ∗ atPos ER (grecvCell c st) (0 + 1) ∅ 0)

/-- The two loads of the keys and the values: tokens and positions before, positions after. -/
def loadToks (c : Dev nD) : sProp 𝕄 :=
  iprop(dutyTok ER (loadCell c 0) 0 0 ∗ dutyTok ER (loadCell c 1) 0 0 ∗ atPos ER (loadCell c 0) 0 ∅ 0 ∗ atPos ER (loadCell c 1) 0 ∅ 0)
def loadDone (c : Dev nD) : sProp 𝕄 := iprop(atPos ER (loadCell c 0) (0 + 1) ∅ 0 ∗ atPos ER (loadCell c 1) (0 + 1) ∅ 0)

/-! ## The states where the communication steps meet the local ones

`commEntry`: after the sixteen heads, before the first signal. The device has paid nothing yet; slot 0 of its three ring buffers
holds its own partial results and it still owns slots 1, 2, 3 (which its first signal lends to the previous device along z) and
all eight rows of its result staging buffer (seven of which its three signals to the partners lend to them).
`ringExit`: after the last wait of the ring. All four slots of the three ring buffers hold the partial results of the device and of
the three devices before it along z; the five barrier units and the nine ring transfers are paid; the device owns its own row of
the result staging buffer and the rows of its partners' staging buffers it will write.
`gathEntry`: after the merged row is stored. As `ringExit`, the ring buffers apart, the device's own row holding its row of the result.
`commExit`: after the last wait. Everything is paid and waited for; the result staging buffer is whole again and holds the gathered result. -/

def commEntry (c : Dev nD) : sProp 𝕄 :=
  iprop(owesAt 0 c ∗ barToks (F := F) c ∗ barPos (F := F) c
    ∗ (bigSep Finset.univ fun b : Fin 3 => bigSep Finset.univ fun h : Fin 3 => iprop(ringToks (F := F) c b h ∗ ringPos (F := F) c b h))
    ∗ (bigSep Finset.univ fun st : Fin 3 => iprop(gathToks (F := F) c st ∗ gathPos (F := F) c st))
    ∗ (bigSep Finset.univ fun b : Fin 3 => iprop(slotHolds vo vm vl c b 0 ∗ slotOwned (F := F) c b 1 ∗ slotOwned (F := F) c b 2 ∗ slotOwned (F := F) c b 3))
    ∗ owned (F := F) c (row1 c) ∗ rowsOwned (F := F) c (p0 c) 0 ∗ rowsOwned (F := F) c (p1 c) 1 ∗ rowsOwned (F := F) c (p2 c) 2)

def ringExit (c : Dev nD) : sProp 𝕄 :=
  iprop(owesAt 14 c ∗ atPos ER (barCell c) (0 + 1) ∅ 0
    ∗ (bigSep Finset.univ fun b : Fin 3 => bigSep Finset.univ fun h : Fin 3 => ringDone (F := F) c b h)
    ∗ (bigSep Finset.univ fun st : Fin 3 => iprop(gathToks (F := F) c st ∗ gathPos (F := F) c st))
    ∗ (bigSep Finset.univ fun b : Fin 3 => bigSep Finset.univ fun j : Fin 4 => slotHolds vo vm vl c b j)
    ∗ owned (F := F) c (row1 c) ∗ rowsOwned (F := F) (p0 c) c 0 ∗ rowsOwned (F := F) (p1 c) c 1 ∗ rowsOwned (F := F) (p2 c) c 2
    ∗ reached ER (grecvCell (p0 c) 0) 0 ∗ reached ER (grecvCell (p1 c) 1) 0 ∗ reached ER (grecvCell (p2 c) 2) 0)

def gathEntry (c : Dev nD) : sProp 𝕄 :=
  iprop(owesAt 14 c
    ∗ (bigSep Finset.univ fun st : Fin 3 => iprop(gathToks (F := F) c st ∗ gathPos (F := F) c st))
    ∗ rowsHold vg c c 0 ∗ rowsOwned (F := F) (p0 c) c 0 ∗ rowsOwned (F := F) (p1 c) c 1 ∗ rowsOwned (F := F) (p2 c) c 2
    ∗ reached ER (grecvCell (p0 c) 0) 0 ∗ reached ER (grecvCell (p1 c) 1) 0 ∗ reached ER (grecvCell (p2 c) 2) 0)

def commExit (c : Dev nD) : sProp 𝕄 :=
  iprop(owesAt 17 c
    ∗ (bigSep Finset.univ fun st : Fin 3 => gathDone (F := F) c st)
    ∗ (outM.view.loc (c : Thread nD τ) ↦{fullShare} (vg (c.val % 4))))

end State

end Cert.Kernel.FD

end
-- ==== Proof.BodyGlueW.lean ====
/-
  The two ends of the body's composition.

  At its entry the body holds the shared records of all cells, what stays with the device, its credit, the level facts
  and its buffers. Read cell by cell under the cells' names, that is the records of the cells the device signals, copies
  onto or waits on, and per communication step the tokens it pays with, its positions and its credit. At its exit the
  device has paid everything and stands at round 1 of each of its own 26 cells, where no duty is left: each cell closes
  and gives its counter back at zero, which is what the pipeline's invariant after the point asks for.
-/
import proofs.«900429_g7700000000000430_dist_flashdec_v7x_xyz2x4x4_z_b8_sq8_skv1024_h16_d128_f32_1_alg».proof.Proof.StateW
import proofs.«900429_g7700000000000430_dist_flashdec_v7x_xyz2x4x4_z_b8_sq8_skv1024_h16_d128_f32_1_alg».proof.Proof.BodyStateW

noncomputable section

namespace Cert.Kernel.FD

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The name of a cell's invariant, cell by cell, from the names by table entry. -/
def κOf (K : Dev nD × Fin 27 → ℕ) : GSem nD τ sig → ℕ := fun g => K (Function.invFun kcell g)

theorem κOf_kcell (K : Dev nD × Fin 27 → ℕ) (ck : Dev nD × Fin 27) : κOf K (kcell ck) = K ck := by
  unfold κOf; rw [Function.leftInverse_invFun kcell_injective ck]

section Glue

variable (vo : Dev nD → S8x16x128.Idx → Elt F .f32) (vm vl : Dev nD → S8x16x1.Idx → Elt F .f32)
variable (vg : ℕ → S8x8x16x128.Idx → Elt F .f32)
variable (kin vin : Dev nD → S1024x16x128.Idx → Elt F .f32)
variable (m : (ℓ : Loc nD τ sig) → Buf (Elt F) ℓ)

/-! ## The records, cell by cell -/

theorem cellRec_of (K : Dev nD × Fin 27 → ℕ) (ck : Dev nD × Fin 27) :
    records (Rd vo vm vl vg kin vin m) K ⊢ cellRec vo vm vl vg kin vin m (κOf K) (kcell ck) := by
  unfold cellRec
  rw [κOf_kcell]
  iintro #H
  isplitr
  · iapply (inv_at (Rd vo vm vl vg kin vin m) K ck); iexact H
  · iapply (reached_at (Rd vo vm vl vg kin vin m) K ck); iexact H

theorem rec_bar (K : Dev nD × Fin 27 → ℕ) (d : Dev nD) : records (Rd vo vm vl vg kin vin m) K ⊢ cellRec vo vm vl vg kin vin m (κOf K) (barCell d) :=
  cellRec_of vo vm vl vg kin vin m K (d, 0)
theorem rec_load (K : Dev nD × Fin 27 → ℕ) (d : Dev nD) (i : Fin 2) : records (Rd vo vm vl vg kin vin m) K ⊢ cellRec vo vm vl vg kin vin m (κOf K) (loadCell d i) := by
  rw [loadCell_eq]; exact cellRec_of vo vm vl vg kin vin m K (d, kLoad i)
theorem rec_rsend (K : Dev nD × Fin 27 → ℕ) (d : Dev nD) (b h : Fin 3) : records (Rd vo vm vl vg kin vin m) K ⊢ cellRec vo vm vl vg kin vin m (κOf K) (rsendCell d b h) := by
  rw [rsendCell_eq]; exact cellRec_of vo vm vl vg kin vin m K (d, kRsend b h)
theorem rec_rrecv (K : Dev nD × Fin 27 → ℕ) (d : Dev nD) (b h : Fin 3) : records (Rd vo vm vl vg kin vin m) K ⊢ cellRec vo vm vl vg kin vin m (κOf K) (rrecvCell d b h) := by
  rw [rrecvCell_eq]; exact cellRec_of vo vm vl vg kin vin m K (d, kRrecv b h)
theorem rec_gsend (K : Dev nD × Fin 27 → ℕ) (d : Dev nD) (st : Fin 3) : records (Rd vo vm vl vg kin vin m) K ⊢ cellRec vo vm vl vg kin vin m (κOf K) (gsendCell d st) := by
  rw [gsendCell_eq]; exact cellRec_of vo vm vl vg kin vin m K (d, kGsend st)
theorem rec_grecv (K : Dev nD × Fin 27 → ℕ) (d : Dev nD) (st : Fin 3) : records (Rd vo vm vl vg kin vin m) K ⊢ cellRec vo vm vl vg kin vin m (κOf K) (grecvCell d st) := by
  rw [grecvCell_eq]; exact cellRec_of vo vm vl vg kin vin m K (d, kGrecv st)

theorem ringRecs (K : Dev nD × Fin 27 → ℕ) (c : Dev nD) :
    records (Rd vo vm vl vg kin vin m) K ⊢ bigSep Finset.univ fun b : Fin 3 => bigSep Finset.univ fun h : Fin 3 =>
      iprop(cellRec vo vm vl vg kin vin m (κOf K) (rsendCell c b h) ∗ cellRec vo vm vl vg kin vin m (κOf K) (rrecvCell c b h) ∗ cellRec vo vm vl vg kin vin m (κOf K) (rrecvCell (zr c) b h)) :=
  BI.bigSep_intro_persistent fun b _ => BI.bigSep_intro_persistent fun h _ => by
    iintro #H
    isplitr; · iapply (rec_rsend vo vm vl vg kin vin m K c b h); iexact H
    isplitr; · iapply (rec_rrecv vo vm vl vg kin vin m K c b h); iexact H
    iapply (rec_rrecv vo vm vl vg kin vin m K (zr c) b h); iexact H

theorem gathRecs (K : Dev nD × Fin 27 → ℕ) (c : Dev nD) :
    records (Rd vo vm vl vg kin vin m) K ⊢ bigSep Finset.univ fun st : Fin 3 =>
      iprop(cellRec vo vm vl vg kin vin m (κOf K) (gsendCell c st) ∗ cellRec vo vm vl vg kin vin m (κOf K) (grecvCell c st) ∗ cellRec vo vm vl vg kin vin m (κOf K) (grecvCell (partner st c) st)) :=
  BI.bigSep_intro_persistent fun st _ => by
    iintro #H
    isplitr; · iapply (rec_gsend vo vm vl vg kin vin m K c st); iexact H
    isplitr; · iapply (rec_grecv vo vm vl vg kin vin m K c st); iexact H
    iapply (rec_grecv vo vm vl vg kin vin m K (partner st c) st); iexact H

/-- The records of the cells device `c` works with, from the records of all cells and the level facts. -/
theorem commRecs_intro (K : Dev nD × Fin 27 → ℕ) (c : Dev nD) :
    iprop(records (Rd vo vm vl vg kin vin m) K ∗ levAts L lv) ⊢ commRecs vo vm vl vg kin vin m (κOf K) c := by
  unfold commRecs
  iintro ⟨#HR, Hlev⟩
  isplitl [Hlev]; · iexact Hlev
  isplitr; · iapply (rec_bar vo vm vl vg kin vin m K c); iexact HR
  isplitr; · iapply (rec_bar vo vm vl vg kin vin m K (zl c)); iexact HR
  isplitr; · iapply (rec_bar vo vm vl vg kin vin m K (zr c)); iexact HR
  isplitr; · iapply (rec_bar vo vm vl vg kin vin m K (p0 c)); iexact HR
  isplitr; · iapply (rec_bar vo vm vl vg kin vin m K (p1 c)); iexact HR
  isplitr; · iapply (rec_bar vo vm vl vg kin vin m K (p2 c)); iexact HR
  isplitr; · iapply (ringRecs vo vm vl vg kin vin m K c); iexact HR
  isplitr; · iapply (gathRecs vo vm vl vg kin vin m K c); iexact HR
  isplitr; · iapply (rec_load vo vm vl vg kin vin m K c 0); iexact HR
  iapply (rec_load vo vm vl vg kin vin m K c 1); iexact HR

/-! ## What the device owes, at the two ends -/

theorem owes_open (c : Dev nD) : (dats vo vm vl vg kin vin m 0 c).owesAt () t₀.castSucc ⊢ owesAt (F := F) 0 c := by
  unfold Dat.owesAt Pipeline.owesWithin owesAt
  iintro ⟨%W, -, H⟩
  iexists W; iexact H

theorem owes_close (c : Dev nD) : owesAt (F := F) 17 c ⊢ (dats vo vm vl vg kin vin m 0 c).owesAt () t₀.succ := by
  unfold Dat.owesAt Pipeline.owesWithin owesAt
  rw [owedAfter_all]
  iintro ⟨%W, H⟩
  iexists W
  isplitr; · ipureintro; exact fun x _ => Or.inl trivial
  iexact H

/-! ## The staged query as the body finds it -/

theorem fetch_q : (cfg0.win (0 : Fin 2)).fetch t₀ = true := by decide

theorem before_q (c : Dev nD) (d) : (dats vo vm vl vg kin vin m 0 c).before (0 : Fin 2) t₀ d = qstg m c := by
  unfold Dat.before; rw [if_pos fetch_q]; rfl

/-! ## The entry -/

/-- The body's precondition read cell by cell. -/
theorem open_pre (K : Dev nD × Fin 27 → ℕ) (c : Dev nD) :
    bodyPre vo vm vl vg kin vin m K c ⊢ iprop(commRecs vo vm vl vg kin vin m (κOf K) c
      ∗ owesAt 0 c ∗ barToks c ∗ barPos c
      ∗ (bigSep Finset.univ fun b : Fin 3 => bigSep Finset.univ fun h : Fin 3 => iprop(ringToks c b h ∗ ringPos c b h))
      ∗ (bigSep Finset.univ fun st : Fin 3 => iprop(gathToks c st ∗ gathPos c st))
      ∗ loadToks c ∗ kvPts m c ∗ owned c kM ∗ owned c vM ∗ owned c coM ∗ owned c cmM ∗ owned c clM
      ∗ stg c cc0_stg0_0 (qstg m c)
      ∗ (∃ f, (outM.view.loc (c : Thread nD τ) ↦{fullShare} f))) := by
  unfold bodyPre ghost creds
  rw [lin_open]
  unfold barToks barPos ringToks ringPos gathToks gathPos loadToks
  simp only [bigSep_fin3]
  iintro ⟨⟨⟨#HR, ⟨A0, A1, A2, A3, A4, A5, A6, A7, A8, A9, A10, A11, A12, A13, A14, A15, A16, A17, A18, A19, A20, A21, A22, A23, A24, A25, A26⟩, T0, T1, T2, T3, T4, T5, T6, T7, T8, T9, T10, T11, T12, T13, T14, T15, T16, T17, T18, T19, T20, T21, T22, T23, T24, T25, T26, T27, T28, T29, T30⟩, ⟨C0, C1, C2, C3, C4, C5, C6, C7, C8, C9, C10, C11, C12⟩, Hlev, Hkv, Hk, Hv, Hco, Hcm, Hcl⟩, Ho, ⟨%d0, %f0, %hx0, Hx⟩, ⟨%d1, %f1, -, Hout⟩⟩
  isplitl [Hlev]
  · iapply (commRecs_intro vo vm vl vg kin vin m K c)
    isplitr; · iexact HR
    iexact Hlev
  isplitl [Ho]
  · iapply (owes_open vo vm vl vg kin vin m c); iexact Ho
  isplitl [T0 T1 T2 T3 T4]
  · isplitl [T0]
    · iexact T0
    isplitl [T1]
    · iexact T1
    isplitl [T2]
    · iexact T2
    isplitl [T3]
    · iexact T3
    iexact T4
  isplitl [A0 C0]
  · isplitl [A0]
    · iexact A0
    iexact C0
  isplitl [T7 T10 A3 A6 C1 T8 T11 A4 A7 C4 T9 T12 A5 A8 C7 T13 T16 A9 A12 C2 T14 T17 A10 A13 C5 T15 T18 A11 A14 C8 T19 T22 A15 A18 C3 T20 T23 A16 A19 C6 T21 T24 A17 A20 C9]
  · isplitl [T7 T10 A3 A6 C1 T8 T11 A4 A7 C4 T9 T12 A5 A8 C7]
    · isplitl [T7 T10 A3 A6 C1]
      · isplitl [T7 T10]
        · isplitl [T7]
          · iexact T7
          iexact T10
        isplitl [A3]
        · iexact A3
        isplitl [A6]
        · iexact A6
        iexact C1
      isplitl [T8 T11 A4 A7 C4]
      · isplitl [T8 T11]
        · isplitl [T8]
          · iexact T8
          iexact T11
        isplitl [A4]
        · iexact A4
        isplitl [A7]
        · iexact A7
        iexact C4
      isplitl [T9 T12]
      · isplitl [T9]
        · iexact T9
        iexact T12
      isplitl [A5]
      · iexact A5
      isplitl [A8]
      · iexact A8
      iexact C7
    isplitl [T13 T16 A9 A12 C2 T14 T17 A10 A13 C5 T15 T18 A11 A14 C8]
    · isplitl [T13 T16 A9 A12 C2]
      · isplitl [T13 T16]
        · isplitl [T13]
          · iexact T13
          iexact T16
        isplitl [A9]
        · iexact A9
        isplitl [A12]
        · iexact A12
        iexact C2
      isplitl [T14 T17 A10 A13 C5]
      · isplitl [T14 T17]
        · isplitl [T14]
          · iexact T14
          iexact T17
        isplitl [A10]
        · iexact A10
        isplitl [A13]
        · iexact A13
        iexact C5
      isplitl [T15 T18]
      · isplitl [T15]
        · iexact T15
        iexact T18
      isplitl [A11]
      · iexact A11
      isplitl [A14]
      · iexact A14
      iexact C8
    isplitl [T19 T22 A15 A18 C3]
    · isplitl [T19 T22]
      · isplitl [T19]
        · iexact T19
        iexact T22
      isplitl [A15]
      · iexact A15
      isplitl [A18]
      · iexact A18
      iexact C3
    isplitl [T20 T23 A16 A19 C6]
    · isplitl [T20 T23]
      · isplitl [T20]
        · iexact T20
        iexact T23
      isplitl [A16]
      · iexact A16
      isplitl [A19]
      · iexact A19
      iexact C6
    isplitl [T21 T24]
    · isplitl [T21]
      · iexact T21
      iexact T24
    isplitl [A17]
    · iexact A17
    isplitl [A20]
    · iexact A20
    iexact C9
  isplitl [T25 T28 A21 A24 C10 T26 T29 A22 A25 C11 T27 T30 A23 A26 C12]
  · isplitl [T25 T28 A21 A24 C10]
    · isplitl [T25 T28]
      · isplitl [T25]
        · iexact T25
        iexact T28
      isplitl [A21]
      · iexact A21
      isplitl [A24]
      · iexact A24
      iexact C10
    isplitl [T26 T29 A22 A25 C11]
    · isplitl [T26 T29]
      · isplitl [T26]
        · iexact T26
        iexact T29
      isplitl [A22]
      · iexact A22
      isplitl [A25]
      · iexact A25
      iexact C11
    isplitl [T27 T30]
    · isplitl [T27]
      · iexact T27
      iexact T30
    isplitl [A23]
    · iexact A23
    isplitl [A26]
    · iexact A26
    iexact C12
  isplitl [T5 T6 A1 A2]
  · isplitl [T5]
    · iexact T5
    isplitl [T6]
    · iexact T6
    isplitl [A1]
    · iexact A1
    iexact A2
  isplitl [Hkv]
  · iexact Hkv
  isplitl [Hk]
  · iexact Hk
  isplitl [Hv]
  · iexact Hv
  isplitl [Hco]
  · iexact Hco
  isplitl [Hcm]
  · iexact Hcm
  isplitl [Hcl]
  · iexact Hcl
  isplitl [Hx]
  · rw [before_q vo vm vl vg kin vin m c d0] at hx0
    iexists f0; isplitr; · ipureintro; exact hx0
    iexact Hx
  iexists f1; iexact Hout

/-! ## The exit -/

/-- From the state after the last wait — everything paid, the device at round 1 of each of its own cells — the body's
    postcondition: each own cell closes and gives its counter back at zero. -/
theorem close_post (K : Dev nD × Fin 27 → ℕ) (c : Dev nD) :
    iprop(commRecs vo vm vl vg kin vin m (κOf K) c ∗ owesAt 17 c ∗ atPos ER (barCell c) (0 + 1) ∅ 0
      ∗ (bigSep Finset.univ fun b : Fin 3 => bigSep Finset.univ fun h : Fin 3 => ringDone c b h)
      ∗ (bigSep Finset.univ fun st : Fin 3 => gathDone c st)
      ∗ loadDone c ∗ kvPts m c ∗ owned c kM ∗ owned c vM ∗ owned c coM ∗ owned c cmM ∗ owned c clM
      ∗ stg c cc0_stg0_0 (qstg m c) ∗ stg c cc0_stg1_0 (outAt vg c))
      ⊢ |={Set.univ}=> bodyPost vo vm vl vg kin vin m c := by
  unfold commRecs cellRec ringDone gathDone loadDone bodyPost Φ₁
  rw [ownZero_open]
  simp only [bigSep_fin3]
  iintro ⟨⟨-, -, -, -, -, -, -, ⟨⟨⟨⟨#IS00, -⟩, ⟨#IR00, -⟩, -⟩, ⟨⟨#IS01, -⟩, ⟨#IR01, -⟩, -⟩, ⟨⟨#IS02, -⟩, ⟨#IR02, -⟩, -⟩⟩, ⟨⟨⟨#IS10, -⟩, ⟨#IR10, -⟩, -⟩, ⟨⟨#IS11, -⟩, ⟨#IR11, -⟩, -⟩, ⟨⟨#IS12, -⟩, ⟨#IR12, -⟩, -⟩⟩, ⟨⟨⟨#IS20, -⟩, ⟨#IR20, -⟩, -⟩, ⟨⟨#IS21, -⟩, ⟨#IR21, -⟩, -⟩, ⟨⟨#IS22, -⟩, ⟨#IR22, -⟩, -⟩⟩⟩, ⟨⟨⟨#JS0, -⟩, ⟨#JR0, -⟩, -⟩, ⟨⟨#JS1, -⟩, ⟨#JR1, -⟩, -⟩, ⟨⟨#JS2, -⟩, ⟨#JR2, -⟩, -⟩⟩, ⟨#IL0, -⟩, ⟨#IL1, -⟩⟩, Ho, -, ⟨⟨⟨DS00, DR00⟩, ⟨DS01, DR01⟩, ⟨DS02, DR02⟩⟩, ⟨⟨DS10, DR10⟩, ⟨DS11, DR11⟩, ⟨DS12, DR12⟩⟩, ⟨⟨DS20, DR20⟩, ⟨DS21, DR21⟩, ⟨DS22, DR22⟩⟩⟩, ⟨⟨ES0, ER0⟩, ⟨ES1, ER1⟩, ⟨ES2, ER2⟩⟩, ⟨DL0, DL1⟩, Hkv, Hk, Hv, Hco, Hcm, Hcl, Hx, Hout⟩
  imod (Rounds.cell_close ER (Rd vo vm vl vg kin vin m) (g := loadCell c 0) (κ := κOf K (loadCell c 0)) (Es := Set.univ) (Set.mem_univ _) (fun h => h)
      (R := 0 + 1) (fun r hr => duties_later vo vm vl vg kin vin m (loadCell c 0) r hr)) $$ [DL0] with Z0
  · isplitr; · iexact IL0
    iexact DL0
  imod (Rounds.cell_close ER (Rd vo vm vl vg kin vin m) (g := loadCell c 1) (κ := κOf K (loadCell c 1)) (Es := Set.univ) (Set.mem_univ _) (fun h => h)
      (R := 0 + 1) (fun r hr => duties_later vo vm vl vg kin vin m (loadCell c 1) r hr)) $$ [DL1] with Z1
  · isplitr; · iexact IL1
    iexact DL1
  imod (Rounds.cell_close ER (Rd vo vm vl vg kin vin m) (g := rsendCell c 0 0) (κ := κOf K (rsendCell c 0 0)) (Es := Set.univ) (Set.mem_univ _) (fun h => h)
      (R := 0 + 1) (fun r hr => duties_later vo vm vl vg kin vin m (rsendCell c 0 0) r hr)) $$ [DS00] with Z2
  · isplitr; · iexact IS00
    iexact DS00
  imod (Rounds.cell_close ER (Rd vo vm vl vg kin vin m) (g := rsendCell c 0 1) (κ := κOf K (rsendCell c 0 1)) (Es := Set.univ) (Set.mem_univ _) (fun h => h)
      (R := 0 + 1) (fun r hr => duties_later vo vm vl vg kin vin m (rsendCell c 0 1) r hr)) $$ [DS01] with Z3
  · isplitr; · iexact IS01
    iexact DS01
  imod (Rounds.cell_close ER (Rd vo vm vl vg kin vin m) (g := rsendCell c 0 2) (κ := κOf K (rsendCell c 0 2)) (Es := Set.univ) (Set.mem_univ _) (fun h => h)
      (R := 0 + 1) (fun r hr => duties_later vo vm vl vg kin vin m (rsendCell c 0 2) r hr)) $$ [DS02] with Z4
  · isplitr; · iexact IS02
    iexact DS02
  imod (Rounds.cell_close ER (Rd vo vm vl vg kin vin m) (g := rrecvCell c 0 0) (κ := κOf K (rrecvCell c 0 0)) (Es := Set.univ) (Set.mem_univ _) (fun h => h)
      (R := 0 + 1) (fun r hr => duties_later vo vm vl vg kin vin m (rrecvCell c 0 0) r hr)) $$ [DR00] with Z5
  · isplitr; · iexact IR00
    iexact DR00
  imod (Rounds.cell_close ER (Rd vo vm vl vg kin vin m) (g := rrecvCell c 0 1) (κ := κOf K (rrecvCell c 0 1)) (Es := Set.univ) (Set.mem_univ _) (fun h => h)
      (R := 0 + 1) (fun r hr => duties_later vo vm vl vg kin vin m (rrecvCell c 0 1) r hr)) $$ [DR01] with Z6
  · isplitr; · iexact IR01
    iexact DR01
  imod (Rounds.cell_close ER (Rd vo vm vl vg kin vin m) (g := rrecvCell c 0 2) (κ := κOf K (rrecvCell c 0 2)) (Es := Set.univ) (Set.mem_univ _) (fun h => h)
      (R := 0 + 1) (fun r hr => duties_later vo vm vl vg kin vin m (rrecvCell c 0 2) r hr)) $$ [DR02] with Z7
  · isplitr; · iexact IR02
    iexact DR02
  imod (Rounds.cell_close ER (Rd vo vm vl vg kin vin m) (g := rsendCell c 1 0) (κ := κOf K (rsendCell c 1 0)) (Es := Set.univ) (Set.mem_univ _) (fun h => h)
      (R := 0 + 1) (fun r hr => duties_later vo vm vl vg kin vin m (rsendCell c 1 0) r hr)) $$ [DS10] with Z8
  · isplitr; · iexact IS10
    iexact DS10
  imod (Rounds.cell_close ER (Rd vo vm vl vg kin vin m) (g := rsendCell c 1 1) (κ := κOf K (rsendCell c 1 1)) (Es := Set.univ) (Set.mem_univ _) (fun h => h)
      (R := 0 + 1) (fun r hr => duties_later vo vm vl vg kin vin m (rsendCell c 1 1) r hr)) $$ [DS11] with Z9
  · isplitr; · iexact IS11
    iexact DS11
  imod (Rounds.cell_close ER (Rd vo vm vl vg kin vin m) (g := rsendCell c 1 2) (κ := κOf K (rsendCell c 1 2)) (Es := Set.univ) (Set.mem_univ _) (fun h => h)
      (R := 0 + 1) (fun r hr => duties_later vo vm vl vg kin vin m (rsendCell c 1 2) r hr)) $$ [DS12] with Z10
  · isplitr; · iexact IS12
    iexact DS12
  imod (Rounds.cell_close ER (Rd vo vm vl vg kin vin m) (g := rrecvCell c 1 0) (κ := κOf K (rrecvCell c 1 0)) (Es := Set.univ) (Set.mem_univ _) (fun h => h)
      (R := 0 + 1) (fun r hr => duties_later vo vm vl vg kin vin m (rrecvCell c 1 0) r hr)) $$ [DR10] with Z11
  · isplitr; · iexact IR10
    iexact DR10
  imod (Rounds.cell_close ER (Rd vo vm vl vg kin vin m) (g := rrecvCell c 1 1) (κ := κOf K (rrecvCell c 1 1)) (Es := Set.univ) (Set.mem_univ _) (fun h => h)
      (R := 0 + 1) (fun r hr => duties_later vo vm vl vg kin vin m (rrecvCell c 1 1) r hr)) $$ [DR11] with Z12
  · isplitr; · iexact IR11
    iexact DR11
  imod (Rounds.cell_close ER (Rd vo vm vl vg kin vin m) (g := rrecvCell c 1 2) (κ := κOf K (rrecvCell c 1 2)) (Es := Set.univ) (Set.mem_univ _) (fun h => h)
      (R := 0 + 1) (fun r hr => duties_later vo vm vl vg kin vin m (rrecvCell c 1 2) r hr)) $$ [DR12] with Z13
  · isplitr; · iexact IR12
    iexact DR12
  imod (Rounds.cell_close ER (Rd vo vm vl vg kin vin m) (g := rsendCell c 2 0) (κ := κOf K (rsendCell c 2 0)) (Es := Set.univ) (Set.mem_univ _) (fun h => h)
      (R := 0 + 1) (fun r hr => duties_later vo vm vl vg kin vin m (rsendCell c 2 0) r hr)) $$ [DS20] with Z14
  · isplitr; · iexact IS20
    iexact DS20
  imod (Rounds.cell_close ER (Rd vo vm vl vg kin vin m) (g := rsendCell c 2 1) (κ := κOf K (rsendCell c 2 1)) (Es := Set.univ) (Set.mem_univ _) (fun h => h)
      (R := 0 + 1) (fun r hr => duties_later vo vm vl vg kin vin m (rsendCell c 2 1) r hr)) $$ [DS21] with Z15
  · isplitr; · iexact IS21
    iexact DS21
  imod (Rounds.cell_close ER (Rd vo vm vl vg kin vin m) (g := rsendCell c 2 2) (κ := κOf K (rsendCell c 2 2)) (Es := Set.univ) (Set.mem_univ _) (fun h => h)
      (R := 0 + 1) (fun r hr => duties_later vo vm vl vg kin vin m (rsendCell c 2 2) r hr)) $$ [DS22] with Z16
  · isplitr; · iexact IS22
    iexact DS22
  imod (Rounds.cell_close ER (Rd vo vm vl vg kin vin m) (g := rrecvCell c 2 0) (κ := κOf K (rrecvCell c 2 0)) (Es := Set.univ) (Set.mem_univ _) (fun h => h)
      (R := 0 + 1) (fun r hr => duties_later vo vm vl vg kin vin m (rrecvCell c 2 0) r hr)) $$ [DR20] with Z17
  · isplitr; · iexact IR20
    iexact DR20
  imod (Rounds.cell_close ER (Rd vo vm vl vg kin vin m) (g := rrecvCell c 2 1) (κ := κOf K (rrecvCell c 2 1)) (Es := Set.univ) (Set.mem_univ _) (fun h => h)
      (R := 0 + 1) (fun r hr => duties_later vo vm vl vg kin vin m (rrecvCell c 2 1) r hr)) $$ [DR21] with Z18
  · isplitr; · iexact IR21
    iexact DR21
  imod (Rounds.cell_close ER (Rd vo vm vl vg kin vin m) (g := rrecvCell c 2 2) (κ := κOf K (rrecvCell c 2 2)) (Es := Set.univ) (Set.mem_univ _) (fun h => h)
      (R := 0 + 1) (fun r hr => duties_later vo vm vl vg kin vin m (rrecvCell c 2 2) r hr)) $$ [DR22] with Z19
  · isplitr; · iexact IR22
    iexact DR22
  imod (Rounds.cell_close ER (Rd vo vm vl vg kin vin m) (g := gsendCell c 0) (κ := κOf K (gsendCell c 0)) (Es := Set.univ) (Set.mem_univ _) (fun h => h)
      (R := 0 + 1) (fun r hr => duties_later vo vm vl vg kin vin m (gsendCell c 0) r hr)) $$ [ES0] with Z20
  · isplitr; · iexact JS0
    iexact ES0
  imod (Rounds.cell_close ER (Rd vo vm vl vg kin vin m) (g := gsendCell c 1) (κ := κOf K (gsendCell c 1)) (Es := Set.univ) (Set.mem_univ _) (fun h => h)
      (R := 0 + 1) (fun r hr => duties_later vo vm vl vg kin vin m (gsendCell c 1) r hr)) $$ [ES1] with Z21
  · isplitr; · iexact JS1
    iexact ES1
  imod (Rounds.cell_close ER (Rd vo vm vl vg kin vin m) (g := gsendCell c 2) (κ := κOf K (gsendCell c 2)) (Es := Set.univ) (Set.mem_univ _) (fun h => h)
      (R := 0 + 1) (fun r hr => duties_later vo vm vl vg kin vin m (gsendCell c 2) r hr)) $$ [ES2] with Z22
  · isplitr; · iexact JS2
    iexact ES2
  imod (Rounds.cell_close ER (Rd vo vm vl vg kin vin m) (g := grecvCell c 0) (κ := κOf K (grecvCell c 0)) (Es := Set.univ) (Set.mem_univ _) (fun h => h)
      (R := 0 + 1) (fun r hr => duties_later vo vm vl vg kin vin m (grecvCell c 0) r hr)) $$ [ER0] with Z23
  · isplitr; · iexact JR0
    iexact ER0
  imod (Rounds.cell_close ER (Rd vo vm vl vg kin vin m) (g := grecvCell c 1) (κ := κOf K (grecvCell c 1)) (Es := Set.univ) (Set.mem_univ _) (fun h => h)
      (R := 0 + 1) (fun r hr => duties_later vo vm vl vg kin vin m (grecvCell c 1) r hr)) $$ [ER1] with Z24
  · isplitr; · iexact JR1
    iexact ER1
  imod (Rounds.cell_close ER (Rd vo vm vl vg kin vin m) (g := grecvCell c 2) (κ := κOf K (grecvCell c 2)) (Es := Set.univ) (Set.mem_univ _) (fun h => h)
      (R := 0 + 1) (fun r hr => duties_later vo vm vl vg kin vin m (grecvCell c 2) r hr)) $$ [ER2] with Z25
  · isplitr; · iexact JR2
    iexact ER2
  imodintro
  isplitl [Hkv Hk Hv Hco Hcm Hcl Z0 Z1 Z2 Z3 Z4 Z5 Z6 Z7 Z8 Z9 Z10 Z11 Z12 Z13 Z14 Z15 Z16 Z17 Z18 Z19 Z20 Z21 Z22 Z23 Z24 Z25]
  · isplitl [Hkv]
    · iexact Hkv
    isplitl [Hk]
    · iexact Hk
    isplitl [Hv]
    · iexact Hv
    isplitl [Hco]
    · iexact Hco
    isplitl [Hcm]
    · iexact Hcm
    isplitl [Hcl]
    · iexact Hcl
    isplitl [Z0]
    · iexact Z0
    isplitl [Z1]
    · iexact Z1
    isplitl [Z2]
    · iexact Z2
    isplitl [Z3]
    · iexact Z3
    isplitl [Z4]
    · iexact Z4
    isplitl [Z5]
    · iexact Z5
    isplitl [Z6]
    · iexact Z6
    isplitl [Z7]
    · iexact Z7
    isplitl [Z8]
    · iexact Z8
    isplitl [Z9]
    · iexact Z9
    isplitl [Z10]
    · iexact Z10
    isplitl [Z11]
    · iexact Z11
    isplitl [Z12]
    · iexact Z12
    isplitl [Z13]
    · iexact Z13
    isplitl [Z14]
    · iexact Z14
    isplitl [Z15]
    · iexact Z15
    isplitl [Z16]
    · iexact Z16
    isplitl [Z17]
    · iexact Z17
    isplitl [Z18]
    · iexact Z18
    isplitl [Z19]
    · iexact Z19
    isplitl [Z20]
    · iexact Z20
    isplitl [Z21]
    · iexact Z21
    isplitl [Z22]
    · iexact Z22
    isplitl [Z23]
    · iexact Z23
    isplitl [Z24]
    · iexact Z24
    iexact Z25
  isplitl [Ho]
  · iapply (owes_close vo vm vl vg kin vin m c); iexact Ho
  isplitl [Hx]
  · iexact Hx
  iexact Hout

end Glue

/-- info: 'Cert.Kernel.FD.open_pre' depends on axioms: [propext, Classical.choice, Quot.sound] -/
#guard_msgs in #print axioms open_pre
/-- info: 'Cert.Kernel.FD.close_post' depends on axioms: [propext, Classical.choice, Quot.sound] -/
#guard_msgs in #print axioms close_post

end Cert.Kernel.FD

end
-- ==== Proof.BodyAW.lean ====
/-
  The body as its first half followed by whatever comes after it, and the body lemma from the two halves.

  The first half is the entry part, the sixteen heads, the entry handshake and the ring, up to the wait for the last
  hop's row sums. What it hands on is the device and six words the later parts compute addresses from. The second half
  is the merge, the store of the merged row, the three exchanges and the last waits.
-/
import proofs.«900429_g7700000000000430_dist_flashdec_v7x_xyz2x4x4_z_b8_sq8_skv1024_h16_d128_f32_1_alg».proof.Proof.SegmentsW
import proofs.«900429_g7700000000000430_dist_flashdec_v7x_xyz2x4x4_z_b8_sq8_skv1024_h16_d128_f32_1_alg».proof.Proof.StateW
import proofs.«900429_g7700000000000430_dist_flashdec_v7x_xyz2x4x4_z_b8_sq8_skv1024_h16_d128_f32_1_alg».proof.Proof.BodyStateW
import proofs.«900429_g7700000000000430_dist_flashdec_v7x_xyz2x4x4_z_b8_sq8_skv1024_h16_d128_f32_1_alg».proof.Proof.BodyGlueW

noncomputable section

namespace Cert.Kernel.FD

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The body with its tail abstracted -/

set_option maxRecDepth 65536 in
/-- The body's first half followed by `rest`, which is handed the device and the six words the later parts use. -/
noncomputable def bodyWith (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3)
    (rest : Dev nD → BitVec 32 → BitVec 32 → BitVec 32 → BitVec 32 → BitVec 32 → BitVec 32 → Prog (TpuEff nD τ sig (Elt F) Λ₀ .tc) PUnit) :
    Prog (TpuEff nD τ sig (Elt F) Λ₀ .tc) PUnit := do
  let ⟨d0, v2, v5, v8, v10, v28⟩ : Σ' (d0 : Dev nD) (v2 : BitVec 32) (v5 : BitVec 32) (v8 : BitVec 32) (v10 : BitVec 32), Vec F S1x8x1x128 .f32 ← k0_part1 arg0 harg0 arg1 harg1 arg2 harg2 arg3 harg3 arg4 harg4 arg5 harg5 arg6 harg6 arg7 harg7 arg8 harg8 arg9 arg10 arg11 arg12 arg13 arg14 arg15 arg16 arg17
  let ⟨v460, v462, c4_i32_421⟩ : Σ' (v460 : BitVec 32) (v462 : BitVec 32), BitVec 32 ← segCompute arg0 harg0 arg1 harg1 arg2 harg2 arg3 harg3 arg4 harg4 arg5 harg5 arg6 harg6 arg7 harg7 arg8 harg8 arg9 arg10 arg11 arg12 arg13 arg14 arg15 arg16 arg17 d0 v8 v10 v28
  let ⟨v464, v465, v466, v467, v492, c0_i32_447⟩ : Σ' (v464 : BitVec 32) (v465 : BitVec 32) (v466 : BitVec 32) (v467 : Sems sig S_) (v492 : BitVec 32), BitVec 32 ← k0_part17 arg0 harg0 arg1 harg1 arg2 harg2 arg3 harg3 arg4 harg4 arg5 harg5 arg6 harg6 arg7 harg7 arg8 harg8 arg9 arg10 arg11 arg12 arg13 arg14 arg15 arg16 arg17 d0 v2 v5 v8 v460 v462 c4_i32_421
  k0_part18 arg0 harg0 arg1 harg1 arg2 harg2 arg3 harg3 arg4 harg4 arg5 harg5 arg6 harg6 arg7 harg7 arg8 harg8 arg9 arg10 arg11 arg12 arg13 arg14 arg15 arg16 arg17 d0 v2 v5 v8 v460 v467 v492 c0_i32_447
  k0_part19 arg0 harg0 arg1 harg1 arg2 harg2 arg3 harg3 arg4 harg4 arg5 harg5 arg6 harg6 arg7 harg7 arg8 harg8 arg9 arg10 arg11 arg12 arg13 arg14 arg15 arg16 arg17 d0 v2 v5 v460
  k0_part20 arg0 harg0 arg1 harg1 arg2 harg2 arg3 harg3 arg4 harg4 arg5 harg5 arg6 harg6 arg7 harg7 arg8 harg8 arg9 arg10 arg11 arg12 arg13 arg14 arg15 arg16 arg17 v2 v5 v460
  let ⟨v594, c0_i32_572⟩ : Σ' (v594 : BitVec 32), BitVec 32 ← k0_part21 arg0 harg0 arg1 harg1 arg2 harg2 arg3 harg3 arg4 harg4 arg5 harg5 arg6 harg6 arg7 harg7 arg8 harg8 arg9 arg10 arg11 arg12 arg13 arg14 arg15 arg16 arg17 v2 v5 v460
  let ⟨v623, c4_i32_601⟩ : Σ' (v623 : BitVec 32), BitVec 32 ← k0_part22 arg0 harg0 arg1 harg1 arg2 harg2 arg3 harg3 arg4 harg4 arg5 harg5 arg6 harg6 arg7 harg7 arg8 harg8 arg9 arg10 arg11 arg12 arg13 arg14 arg15 arg16 arg17 d0 v2 v5 v460 v594 c0_i32_572
  k0_part23 arg0 harg0 arg1 harg1 arg2 harg2 arg3 harg3 arg4 harg4 arg5 harg5 arg6 harg6 arg7 harg7 arg8 harg8 arg9 arg10 arg11 arg12 arg13 arg14 arg15 arg16 arg17 d0 v2 v5 v460 v623 c4_i32_601
  k0_part24 arg0 harg0 arg1 harg1 arg2 harg2 arg3 harg3 arg4 harg4 arg5 harg5 arg6 harg6 arg7 harg7 arg8 harg8 arg9 arg10 arg11 arg12 arg13 arg14 arg15 arg16 arg17 v2 v5 v460
  k0_part25 arg0 harg0 arg1 harg1 arg2 harg2 arg3 harg3 arg4 harg4 arg5 harg5 arg6 harg6 arg7 harg7 arg8 harg8 arg9 arg10 arg11 arg12 arg13 arg14 arg15 arg16 arg17 v2 v5 v460
  k0_part26 arg0 harg0 arg1 harg1 arg2 harg2 arg3 harg3 arg4 harg4 arg5 harg5 arg6 harg6 arg7 harg7 arg8 harg8 arg9 arg10 arg11 arg12 arg13 arg14 arg15 arg16 arg17 d0 v2 v5 v460
  k0_part27 arg0 harg0 arg1 harg1 arg2 harg2 arg3 harg3 arg4 harg4 arg5 harg5 arg6 harg6 arg7 harg7 arg8 harg8 arg9 arg10 arg11 arg12 arg13 arg14 arg15 arg16 arg17 d0 v2 v5 v460
  let ⟨v775, v776⟩ : Σ' (v775 : BitVec 32), BitVec 32 ← k0_part28 arg0 harg0 arg1 harg1 arg2 harg2 arg3 harg3 arg4 harg4 arg5 harg5 arg6 harg6 arg7 harg7 arg8 harg8 arg9 arg10 arg11 arg12 arg13 arg14 arg15 arg16 arg17 v2 v5 v460
  seg29Wait arg0 harg0 arg1 harg1 arg2 harg2 arg3 harg3 arg4 harg4 arg5 harg5 arg6 harg6 arg7 harg7 arg8 harg8 arg9 arg10 arg11 arg12 arg13 arg14 arg15 arg16 arg17
  rest d0 v2 v5 v8 v464 v465 v466

/-- The second half: the merge, the store of the merged row, the three exchanges, the last waits. -/
noncomputable def bodyTail (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3)
    (d0 : Dev nD) (v2 v5 v8 v464 v465 v466 : BitVec 32) : Prog (TpuEff nD τ sig (Elt F) Λ₀ .tc) PUnit := do
  let w : FVec F S1x8x16x128 .f32 ← segMerge arg0 harg0 arg1 harg1 arg2 harg2 arg3 harg3 arg4 harg4 arg5 harg5 arg6 harg6 arg7 harg7 arg8 harg8 arg9 arg10 arg11 arg12 arg13 arg14 arg15 arg16 arg17
  seg31Tail arg0 harg0 arg1 harg1 arg2 harg2 arg3 harg3 arg4 harg4 arg5 harg5 arg6 harg6 arg7 harg7 arg8 harg8 arg9 arg10 arg11 arg12 arg13 arg14 arg15 arg16 arg17 d0 w
  k0_part32 arg0 harg0 arg1 harg1 arg2 harg2 arg3 harg3 arg4 harg4 arg5 harg5 arg6 harg6 arg7 harg7 arg8 harg8 arg9 arg10 arg11 arg12 arg13 arg14 arg15 arg16 arg17 d0 v2 v8 v464 v465
  k0_part33 arg0 harg0 arg1 harg1 arg2 harg2 arg3 harg3 arg4 harg4 arg5 harg5 arg6 harg6 arg7 harg7 arg8 harg8 arg9 arg10 arg11 arg12 arg13 arg14 arg15 arg16 arg17 d0 v2 v5 v8 v465 v466
  segExit arg0 harg0 arg1 harg1 arg2 harg2 arg3 harg3 arg4 harg4 arg5 harg5 arg6 harg6 arg7 harg7 arg8 harg8 arg9 arg10 arg11 arg12 arg13 arg14 arg15 arg16 arg17 d0

set_option maxRecDepth 65536 in
/-- The body is its first half followed by its second. -/
theorem bodySegs_eq_with (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3) :
    bodySegs (F := F) arg0 harg0 arg1 harg1 arg2 harg2 arg3 harg3 arg4 harg4 arg5 harg5 arg6 harg6 arg7 harg7 arg8 harg8 arg9 arg10 arg11 arg12 arg13 arg14 arg15 arg16 arg17 = bodyWith arg0 harg0 arg1 harg1 arg2 harg2 arg3 harg3 arg4 harg4 arg5 harg5 arg6 harg6 arg7 harg7 arg8 harg8 arg9 arg10 arg11 arg12 arg13 arg14 arg15 arg16 arg17 (bodyTail arg0 harg0 arg1 harg1 arg2 harg2 arg3 harg3 arg4 harg4 arg5 harg5 arg6 harg6 arg7 harg7 arg8 harg8 arg9 arg10 arg11 arg12 arg13 arg14 arg15 arg16 arg17) := rfl

/-! ## The body lemma from its two halves -/

section Halves

variable (vo : Dev nD → S8x16x128.Idx → Elt F .f32) (vm vl : Dev nD → S8x16x1.Idx → Elt F .f32)
variable (vg : ℕ → S8x8x16x128.Idx → Elt F .f32)
variable (kin vin : Dev nD → S1024x16x128.Idx → Elt F .f32)
variable (m : (ℓ : Loc nD τ sig) → Buf (Elt F) ℓ)

/-- Between the halves: the records, the ring finished (all four slots of the three buffers hold the partial results
    of the device and of the three devices before it; the barrier and the ring paid and waited for), the two loads
    waited for, the key and value arrays, the two scratch buffers of the loads, the staged query. -/
def Mid (K : Dev nD × Fin 27 → ℕ) (c : Dev nD) : sProp 𝕄 :=
  iprop(commRecs vo vm vl vg kin vin m (κOf K) c ∗ ringExit vo vm vl c ∗ loadDone c ∗ kvPts m c ∗ owned c kM ∗ owned c vM
    ∗ stg c cc0_stg0_0 (qstg m c))

/-- The first half, run against any continuation. -/
def FirstHalf : Prop :=
  ∀ (K : Dev nD × Fin 27 → ℕ) (c : Dev nD) (rest : Dev nD → BitVec 32 → BitVec 32 → BitVec 32 → BitVec 32 → BitVec 32 → BitVec 32 → Prog (TpuEff nD τ sig (Elt F) Λ₀ .tc) PUnit) (Q : PUnit → sProp 𝕄),
    iprop(bodyPre vo vm vl vg kin vin m K c
        ∗ (∀ v2, ∀ v5, ∀ v8, ∀ v464, ∀ v465, ∀ v466, Mid vo vm vl vg kin vin m K c -∗ wp frame (wpE (defs₀ (F := F)) 𝒱₀ c none) Set.univ (rest c v2 v5 v8 v464 v465 v466) Q))
      ⊢ wp frame (wpE (defs₀ (F := F)) 𝒱₀ c none) Set.univ (bodyWith (Memref.whole cc0_stg0_0) (Memref.isWhole_whole _) (Memref.whole main_arg1) (Memref.isWhole_whole _)
      (Memref.whole main_arg2) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _)
      cc0_scratch5 cc0_scratch6 cc0_scratch7 cc0_scratch8 cc0_scratch9 cc0_scratch10 cc0_scratch11 cc0_scratch12 cc0_scratch13 rest) Q

/-- The second half, from the state between the halves to the body's postcondition. -/
def SecondHalf : Prop :=
  ∀ (K : Dev nD × Fin 27 → ℕ) (c : Dev nD) (v2 v5 v8 v464 v465 v466 : BitVec 32) (Q : PUnit → sProp 𝕄),
    iprop(Mid vo vm vl vg kin vin m K c ∗ (bodyPost vo vm vl vg kin vin m c -∗ Q ⟨⟩))
      ⊢ wp frame (wpE (defs₀ (F := F)) 𝒱₀ c none) Set.univ (bodyTail (Memref.whole cc0_stg0_0) (Memref.isWhole_whole _) (Memref.whole main_arg1) (Memref.isWhole_whole _)
      (Memref.whole main_arg2) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _)
      cc0_scratch5 cc0_scratch6 cc0_scratch7 cc0_scratch8 cc0_scratch9 cc0_scratch10 cc0_scratch11 cc0_scratch12 cc0_scratch13 c v2 v5 v8 v464 v465 v466) Q

/-- The body lemma from its two halves. -/
theorem sound_body_of_halves (h1 : FirstHalf vo vm vl vg kin vin m) (h2 : SecondHalf vo vm vl vg kin vin m) : SoundBody vo vm vl vg kin vin m := by
  intro K c Kt
  rw [cc0_body_eq_segs, wp_bind, bodySegs_eq_with]
  iintro ⟨Hpre, Hk⟩
  iapply (h1 K c (bodyTail (Memref.whole cc0_stg0_0) (Memref.isWhole_whole _) (Memref.whole main_arg1) (Memref.isWhole_whole _)
      (Memref.whole main_arg2) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _)
      cc0_scratch5 cc0_scratch6 cc0_scratch7 cc0_scratch8 cc0_scratch9 cc0_scratch10 cc0_scratch11 cc0_scratch12 cc0_scratch13) (fun _ => wp frame (wpE (defs₀ (F := F)) 𝒱₀ c none) Set.univ (pure ⟨⟩) Kt))
  isplitl [Hpre]; · iexact Hpre
  iintro %v2 %v5 %v8 %v464 %v465 %v466 HM
  iapply (h2 K c v2 v5 v8 v464 v465 v466 (fun _ => wp frame (wpE (defs₀ (F := F)) 𝒱₀ c none) Set.univ (pure ⟨⟩) Kt))
  isplitl [HM]; · iexact HM
  iintro HP
  iapply (le_wp_ret frame (wpE (defs₀ (F := F)) 𝒱₀ c none) Set.univ ⟨⟩ Kt)
  iapply Hk; iexact HP

end Halves

end Cert.Kernel.FD

end
-- ==== Proof.RingHalfW.lean ====
/-
  Where the two stretches of the ring's chain meet: after the second hop's first two transfers.

  The entry handshake and the first hop are over: the device stands at round 1 of its barrier cell and of the six cells of hop 0;
  slot 0 of its three ring buffers is back and slot 1 holds the previous device's partial results; the partial sums and the row
  maxima of slot 1 are on their way to the next device's slot 2 (their send credits in hand), the row sums of slot 1 still to
  send; the third hop and the three exchanges are untouched. This module names that state, cuts the chain's program there, and
  states the two stretches.
-/
import proofs.«900429_g7700000000000430_dist_flashdec_v7x_xyz2x4x4_z_b8_sq8_skv1024_h16_d128_f32_1_alg».proof.Proof.BodyAW

noncomputable section

namespace Cert.Kernel.FD

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The chain's program, cut after part 22 -/

set_option maxRecDepth 65536 in
/-- The entry handshake, the first hop and the second hop's first two transfers, followed by `k`, which is handed the three words
    the exchanges use and the two words part 23 takes. -/
noncomputable def ringHead (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3)
    (d0 : Dev nD) (v2 v5 v8 v460 v462 w4 : BitVec 32)
    (k : BitVec 32 → BitVec 32 → BitVec 32 → BitVec 32 → BitVec 32 → Prog (TpuEff nD τ sig (Elt F) Λ₀ .tc) PUnit) :
    Prog (TpuEff nD τ sig (Elt F) Λ₀ .tc) PUnit := do
  let ⟨v464, v465, v466, v467, v492, c0_i32_447⟩ : Σ' (v464 : BitVec 32) (v465 : BitVec 32) (v466 : BitVec 32) (v467 : Sems sig S_) (v492 : BitVec 32), BitVec 32 ← k0_part17 arg0 harg0 arg1 harg1 arg2 harg2 arg3 harg3 arg4 harg4 arg5 harg5 arg6 harg6 arg7 harg7 arg8 harg8 arg9 arg10 arg11 arg12 arg13 arg14 arg15 arg16 arg17 d0 v2 v5 v8 v460 v462 w4
  k0_part18 arg0 harg0 arg1 harg1 arg2 harg2 arg3 harg3 arg4 harg4 arg5 harg5 arg6 harg6 arg7 harg7 arg8 harg8 arg9 arg10 arg11 arg12 arg13 arg14 arg15 arg16 arg17 d0 v2 v5 v8 v460 v467 v492 c0_i32_447
  k0_part19 arg0 harg0 arg1 harg1 arg2 harg2 arg3 harg3 arg4 harg4 arg5 harg5 arg6 harg6 arg7 harg7 arg8 harg8 arg9 arg10 arg11 arg12 arg13 arg14 arg15 arg16 arg17 d0 v2 v5 v460
  k0_part20 arg0 harg0 arg1 harg1 arg2 harg2 arg3 harg3 arg4 harg4 arg5 harg5 arg6 harg6 arg7 harg7 arg8 harg8 arg9 arg10 arg11 arg12 arg13 arg14 arg15 arg16 arg17 v2 v5 v460
  let ⟨v594, c0_i32_572⟩ : Σ' (v594 : BitVec 32), BitVec 32 ← k0_part21 arg0 harg0 arg1 harg1 arg2 harg2 arg3 harg3 arg4 harg4 arg5 harg5 arg6 harg6 arg7 harg7 arg8 harg8 arg9 arg10 arg11 arg12 arg13 arg14 arg15 arg16 arg17 v2 v5 v460
  let ⟨v623, c4_i32_601⟩ : Σ' (v623 : BitVec 32), BitVec 32 ← k0_part22 arg0 harg0 arg1 harg1 arg2 harg2 arg3 harg3 arg4 harg4 arg5 harg5 arg6 harg6 arg7 harg7 arg8 harg8 arg9 arg10 arg11 arg12 arg13 arg14 arg15 arg16 arg17 d0 v2 v5 v460 v594 c0_i32_572
  k v464 v465 v466 v623 c4_i32_601

set_option maxRecDepth 65536 in
/-- The rest of the second hop, the third hop and the wait for its last transfer, followed by `rest`. -/
noncomputable def ringTail (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3)
    (d0 : Dev nD) (v2 v5 v460 v623 w4 : BitVec 32) (rest : Prog (TpuEff nD τ sig (Elt F) Λ₀ .tc) PUnit) :
    Prog (TpuEff nD τ sig (Elt F) Λ₀ .tc) PUnit := do
  k0_part23 arg0 harg0 arg1 harg1 arg2 harg2 arg3 harg3 arg4 harg4 arg5 harg5 arg6 harg6 arg7 harg7 arg8 harg8 arg9 arg10 arg11 arg12 arg13 arg14 arg15 arg16 arg17 d0 v2 v5 v460 v623 w4
  k0_part24 arg0 harg0 arg1 harg1 arg2 harg2 arg3 harg3 arg4 harg4 arg5 harg5 arg6 harg6 arg7 harg7 arg8 harg8 arg9 arg10 arg11 arg12 arg13 arg14 arg15 arg16 arg17 v2 v5 v460
  k0_part25 arg0 harg0 arg1 harg1 arg2 harg2 arg3 harg3 arg4 harg4 arg5 harg5 arg6 harg6 arg7 harg7 arg8 harg8 arg9 arg10 arg11 arg12 arg13 arg14 arg15 arg16 arg17 v2 v5 v460
  k0_part26 arg0 harg0 arg1 harg1 arg2 harg2 arg3 harg3 arg4 harg4 arg5 harg5 arg6 harg6 arg7 harg7 arg8 harg8 arg9 arg10 arg11 arg12 arg13 arg14 arg15 arg16 arg17 d0 v2 v5 v460
  k0_part27 arg0 harg0 arg1 harg1 arg2 harg2 arg3 harg3 arg4 harg4 arg5 harg5 arg6 harg6 arg7 harg7 arg8 harg8 arg9 arg10 arg11 arg12 arg13 arg14 arg15 arg16 arg17 d0 v2 v5 v460
  let ⟨v775, v776⟩ : Σ' (v775 : BitVec 32), BitVec 32 ← k0_part28 arg0 harg0 arg1 harg1 arg2 harg2 arg3 harg3 arg4 harg4 arg5 harg5 arg6 harg6 arg7 harg7 arg8 harg8 arg9 arg10 arg11 arg12 arg13 arg14 arg15 arg16 arg17 v2 v5 v460
  seg29Wait arg0 harg0 arg1 harg1 arg2 harg2 arg3 harg3 arg4 harg4 arg5 harg5 arg6 harg6 arg7 harg7 arg8 harg8 arg9 arg10 arg11 arg12 arg13 arg14 arg15 arg16 arg17
  rest

set_option maxRecDepth 65536 in
/-- The body's first half is the entry part, the sixteen heads, and the chain's two stretches. -/
theorem bodyWith_eq_ring (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3)
    (rest : Dev nD → BitVec 32 → BitVec 32 → BitVec 32 → BitVec 32 → BitVec 32 → BitVec 32 → Prog (TpuEff nD τ sig (Elt F) Λ₀ .tc) PUnit) :
    bodyWith (F := F) arg0 harg0 arg1 harg1 arg2 harg2 arg3 harg3 arg4 harg4 arg5 harg5 arg6 harg6 arg7 harg7 arg8 harg8 arg9 arg10 arg11 arg12 arg13 arg14 arg15 arg16 arg17 rest = (do
      let ⟨d0, v2, v5, v8, v10, v28⟩ : Σ' (d0 : Dev nD) (v2 : BitVec 32) (v5 : BitVec 32) (v8 : BitVec 32) (v10 : BitVec 32), Vec F S1x8x1x128 .f32 ← k0_part1 arg0 harg0 arg1 harg1 arg2 harg2 arg3 harg3 arg4 harg4 arg5 harg5 arg6 harg6 arg7 harg7 arg8 harg8 arg9 arg10 arg11 arg12 arg13 arg14 arg15 arg16 arg17
      let ⟨v460, v462, c4_i32_421⟩ : Σ' (v460 : BitVec 32) (v462 : BitVec 32), BitVec 32 ← segCompute arg0 harg0 arg1 harg1 arg2 harg2 arg3 harg3 arg4 harg4 arg5 harg5 arg6 harg6 arg7 harg7 arg8 harg8 arg9 arg10 arg11 arg12 arg13 arg14 arg15 arg16 arg17 d0 v8 v10 v28
      ringHead arg0 harg0 arg1 harg1 arg2 harg2 arg3 harg3 arg4 harg4 arg5 harg5 arg6 harg6 arg7 harg7 arg8 harg8 arg9 arg10 arg11 arg12 arg13 arg14 arg15 arg16 arg17 d0 v2 v5 v8 v460 v462 c4_i32_421 fun v464 v465 v466 v623 w4 =>
        ringTail arg0 harg0 arg1 harg1 arg2 harg2 arg3 harg3 arg4 harg4 arg5 harg5 arg6 harg6 arg7 harg7 arg8 harg8 arg9 arg10 arg11 arg12 arg13 arg14 arg15 arg16 arg17 d0 v2 v5 v460 v623 w4 (rest d0 v2 v5 v8 v464 v465 v466)) := rfl

section Half

variable (vo : Dev nD → S8x16x128.Idx → Elt F .f32) (vm vl : Dev nD → S8x16x1.Idx → Elt F .f32)
variable (vg : ℕ → S8x8x16x128.Idx → Elt F .f32)
variable (kin vin : Dev nD → S1024x16x128.Idx → Elt F .f32)
variable (m : (ℓ : Loc nD τ sig) → Buf (Elt F) ℓ)

/-! ## The state where the two stretches meet -/

/-- After part 22. -/
def ringHalf (c : Dev nD) : sProp 𝕄 :=
  iprop(owesAt 10 c ∗ atPos ER (barCell c) (0 + 1) ∅ 0
    ∗ ringDone (F := F) c 0 0 ∗ ringDone (F := F) c 1 0 ∗ ringDone (F := F) c 2 0
    ∗ slotHolds vo vm vl c 0 0 ∗ slotHolds vo vm vl c 1 0 ∗ slotHolds vo vm vl c 2 0 ∗ slotHolds vo vm vl c 2 1
    ∗ cred (tallyAt (rsendCell c 0 1) () (Nring 0)) ∗ cred (tallyAt (rsendCell c 1 1) () (Nring 1))
    ∗ ringToks (F := F) c 2 1
    ∗ ringPos (F := F) c 0 1 ∗ ringPos (F := F) c 1 1 ∗ ringPos (F := F) c 2 1
    ∗ ringToks (F := F) c 0 2 ∗ ringToks (F := F) c 1 2 ∗ ringToks (F := F) c 2 2
    ∗ ringPos (F := F) c 0 2 ∗ ringPos (F := F) c 1 2 ∗ ringPos (F := F) c 2 2
    ∗ slotOwned (F := F) (zr c) 2 2 ∗ slotOwned (F := F) (zr c) 0 3 ∗ slotOwned (F := F) (zr c) 1 3 ∗ slotOwned (F := F) (zr c) 2 3
    ∗ (bigSep Finset.univ fun st : Fin 3 => iprop(gathToks (F := F) c st ∗ gathPos (F := F) c st))
    ∗ owned (F := F) c (row1 c) ∗ rowsOwned (F := F) (p0 c) c 0 ∗ rowsOwned (F := F) (p1 c) c 1 ∗ rowsOwned (F := F) (p2 c) c 2
    ∗ reached ER (grecvCell (p0 c) 0) 0 ∗ reached ER (grecvCell (p1 c) 1) 0 ∗ reached ER (grecvCell (p2 c) 2) 0)

/-! ## The two stretches -/

/-- From the state before the first signal to the meeting state, against any continuation. -/
def RingFirst : Prop :=
  ∀ (κ : GSem nD τ sig → ℕ) (c : Dev nD) (v2 v5 v8 v460 v462 w4 : BitVec 32)
    (k : BitVec 32 → BitVec 32 → BitVec 32 → BitVec 32 → BitVec 32 → Prog (TpuEff nD τ sig (Elt F) Λ₀ .tc) PUnit) (Q : PUnit → sProp 𝕄),
    iprop(commRecs vo vm vl vg kin vin m κ c ∗ commEntry vo vm vl c
        ∗ (∀ v464, ∀ v465, ∀ v466, ∀ v623, ∀ w, ringHalf vo vm vl c -∗ wp frame (wpE (defs₀ (F := F)) 𝒱₀ c none) Set.univ (k v464 v465 v466 v623 w) Q))
      ⊢ wp frame (wpE (defs₀ (F := F)) 𝒱₀ c none) Set.univ (ringHead (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 c v2 v5 v8 v460 v462 w4 k) Q

/-- From the meeting state to the state after the ring's last wait, against any continuation. -/
def RingSecond : Prop :=
  ∀ (κ : GSem nD τ sig → ℕ) (c : Dev nD) (v2 v5 v460 v623 w4 : BitVec 32)
    (rest : Prog (TpuEff nD τ sig (Elt F) Λ₀ .tc) PUnit) (Q : PUnit → sProp 𝕄),
    iprop(commRecs vo vm vl vg kin vin m κ c ∗ ringHalf vo vm vl c
        ∗ (ringExit vo vm vl c -∗ wp frame (wpE (defs₀ (F := F)) 𝒱₀ c none) Set.univ rest Q))
      ⊢ wp frame (wpE (defs₀ (F := F)) 𝒱₀ c none) Set.univ (ringTail (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 c v2 v5 v460 v623 w4 rest) Q

end Half

end Cert.Kernel.FD

end
-- ==== Proof.BodyProtoW.lean ====
/-
  The communication steps of the kernel body.

  First part: how the buffers the devices exchange are held piece by piece. A ring buffer of four slots held whole is
  its four slots, each held by its own elements; the result staging buffer of eight rows held whole is the device's own
  row, its first partner's row, its second partner's pair of rows and its third partner's quadruple of rows, and the
  three joins row + row = pair, pair + pair = quadruple, quadruple + quadruple = all eight rows put it together again
  as the three exchanges deliver the partners' rows.
-/
import proofs.«900429_g7700000000000430_dist_flashdec_v7x_xyz2x4x4_z_b8_sq8_skv1024_h16_d128_f32_1_alg».proof.Proof.Gen.Kernel
import proofs.«900429_g7700000000000430_dist_flashdec_v7x_xyz2x4x4_z_b8_sq8_skv1024_h16_d128_f32_1_alg».proof.Proof.MeshIdealW
import Idealize.ShloMosaic.Lib.Ring
import Idealize.ShloMosaic.Lib.Memref
import Idealize.ShloMosaic.Lib.Rounds

noncomputable section

namespace Cert.Kernel.BodyProto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## A buffer cut along its leading axis, over any signature -/

section General

variable {nD : Nat} {τ : Topo} {sig : RefSig}
variable {Ix : Type} [DecidableEq Ix] {Val : EltTy → Type} {Name : Type} [DecidableEq Name]
variable {U : Type} [URA U] {Lvl : Type}

local notation "𝕄" => MT nD τ sig Ix Val Name U Lvl

/-- Four summands of an iterated separating conjunction over `Fin 4`, written out. -/
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} from by decide,
    bigSep_insert (by decide), bigSep_insert (by decide), bigSep_insert (by decide), bigSep_singleton]
  rfl

/-- A buffer held whole through a memref that is the whole buffer is held block by block, for the blocks that
    differ only in their offset along one axis `a₀` (block `b` at `R * b` there, `R` long, whole on the other axes). -/
theorem whole_lead {c : Thread nD τ} {sp : Space} {s : Shape} {e : EltTy} (m : Memref sig c.2.kind sp s e) (hm : m.IsWhole)
    {NB : ℕ} (a₀ : Fin s.rank) (R : ℕ) (off : Fin NB → Fin s.rank → ℕ) (size : Fin s.rank → ℕ)
    (inb : ∀ b a, off b a + size a ≤ s.size a)
    (hoff₀ : ∀ b, off b a₀ = R * b.val) (hoff : ∀ b a, a ≠ a₀ → off b a = 0)
    (hsz₀ : size a₀ = R) (hsz : ∀ a, a ≠ a₀ → size a = s.size a) (hN : NB * R = s.size a₀)
    (q : PosShare TreeShare) (f : Buf Val (m.view.loc c)) :
    (m.view.loc c ↦{q} f : sProp 𝕄)
      = bigSep Finset.univ fun b : Fin NB => m.view.loc c ↦[(m.view.slice (Rect.unit (off b) size (inb b))).set]{q} f := by
  refine Ring.pointsTo_blocks (ℓ := m.view.loc c) (fun b => (m.view.slice (Rect.unit (off b) size (inb b))).set) ?_ ?_ f
  · intro b b' h
    rw [View.set_slice, View.set_slice]
    exact (Finset.disjoint_map _).mpr (Ring.lead_disjoint a₀ R off size inb hoff₀ hsz₀ b b' h)
  · ext i
    simp only [Finset.mem_biUnion, Finset.mem_univ, true_and, iff_true]
    have hi : i ∈ m.view.set := hm.set_eq_univ ▸ Finset.mem_univ i
    rw [View.set, Finset.mem_map] at hi
    obtain ⟨x, -, rfl⟩ := hi
    have hx : x ∈ Finset.univ.biUnion (fun b => (Rect.unit (off b) size (inb b)).set) := by
      rw [Ring.lead_cover a₀ R off size inb hoff₀ hoff hsz₀ hsz hN]; exact Finset.mem_univ x
    obtain ⟨b, -, hb⟩ := Finset.mem_biUnion.mp hx
    exact ⟨b, by rw [View.set_slice]; exact Finset.mem_map_of_mem _ hb⟩

/-- The elements under a squeezed slice are the slice's. -/
theorem set_squeeze_slice {κ : Kind} {sp : Space} {s s' : Shape} {e : EltTy} (m : Memref sig κ sp s e) (r : Rect s)
    (hr : ∀ a, r.stride a = 1) (h : r.shape.Squeezes s') :
    ((m.slice r hr).squeeze s' h).view.set = (m.view.slice r).set :=
  View.set_reshape (v := m.view.slice r) h.numel_eq

/-- A scratch buffer of four slots `[4, d1, d2, d3]`, held whole, is its four slots `[j]`, each held by its own
    elements through the squeezed slice the program names it by; and back. -/
theorem whole_slots4 {c : Thread nD τ} {sp : Space} {e : EltTy} (d1 d2 d3 : ℕ) {s' : Shape}
    (m : Memref sig c.2.kind sp ⟨4, ![4, d1, d2, d3]⟩ e) (hm : m.IsWhole)
    (i0 : ∀ a, (![0, 0, 0, 0] : Fin 4 → ℕ) a + (![1, d1, d2, d3] : Fin 4 → ℕ) a ≤ (⟨4, ![4, d1, d2, d3]⟩ : Shape).size a)
    (i1 : ∀ a, (![1, 0, 0, 0] : Fin 4 → ℕ) a + (![1, d1, d2, d3] : Fin 4 → ℕ) a ≤ (⟨4, ![4, d1, d2, d3]⟩ : Shape).size a)
    (i2 : ∀ a, (![2, 0, 0, 0] : Fin 4 → ℕ) a + (![1, d1, d2, d3] : Fin 4 → ℕ) a ≤ (⟨4, ![4, d1, d2, d3]⟩ : Shape).size a)
    (i3 : ∀ a, (![3, 0, 0, 0] : Fin 4 → ℕ) a + (![1, d1, d2, d3] : Fin 4 → ℕ) a ≤ (⟨4, ![4, d1, d2, d3]⟩ : Shape).size a)
    (hsq : (⟨4, ![1, d1, d2, d3]⟩ : Shape).Squeezes s')
    (q : PosShare TreeShare) (f : Buf Val (m.view.loc c)) :
    (m.view.loc c ↦{q} f : sProp 𝕄)
      = iprop((((m.slice (Rect.unit (s := ⟨4, ![4, d1, d2, d3]⟩) ![0, 0, 0, 0] ![1, d1, d2, d3] i0) (fun _ => rfl)).squeeze s' hsq).view.loc c
            ↦[((m.slice (Rect.unit (s := ⟨4, ![4, d1, d2, d3]⟩) ![0, 0, 0, 0] ![1, d1, d2, d3] i0) (fun _ => rfl)).squeeze s' hsq).view.set]{q} f)
        ∗ (((m.slice (Rect.unit (s := ⟨4, ![4, d1, d2, d3]⟩) ![1, 0, 0, 0] ![1, d1, d2, d3] i1) (fun _ => rfl)).squeeze s' hsq).view.loc c
            ↦[((m.slice (Rect.unit (s := ⟨4, ![4, d1, d2, d3]⟩) ![1, 0, 0, 0] ![1, d1, d2, d3] i1) (fun _ => rfl)).squeeze s' hsq).view.set]{q} f)
        ∗ (((m.slice (Rect.unit (s := ⟨4, ![4, d1, d2, d3]⟩) ![2, 0, 0, 0] ![1, d1, d2, d3] i2) (fun _ => rfl)).squeeze s' hsq).view.loc c
            ↦[((m.slice (Rect.unit (s := ⟨4, ![4, d1, d2, d3]⟩) ![2, 0, 0, 0] ![1, d1, d2, d3] i2) (fun _ => rfl)).squeeze s' hsq).view.set]{q} f)
        ∗ (((m.slice (Rect.unit (s := ⟨4, ![4, d1, d2, d3]⟩) ![3, 0, 0, 0] ![1, d1, d2, d3] i3) (fun _ => rfl)).squeeze s' hsq).view.loc c
            ↦[((m.slice (Rect.unit (s := ⟨4, ![4, d1, d2, d3]⟩) ![3, 0, 0, 0] ![1, d1, d2, d3] i3) (fun _ => rfl)).squeeze s' hsq).view.set]{q} f)) := by
  have inb : ∀ (b : Fin 4) (a : Fin 4), (![b.val, 0, 0, 0] : Fin 4 → ℕ) a + (![1, d1, d2, d3] : Fin 4 → ℕ) a ≤ (⟨4, ![4, d1, d2, d3]⟩ : Shape).size a := by
    intro b a; have hb := b.isLt
    fin_cases a <;> simp <;> omega
  have h := whole_lead (Ix := Ix) (Name := Name) (U := U) (Lvl := Lvl) m hm (NB := 4) (0 : Fin 4) 1 (fun b => ![b.val, 0, 0, 0]) ![1, d1, d2, d3] inb
    (fun b => by simp) (fun b a ha => by fin_cases a <;> first | exact absurd rfl ha | rfl)
    rfl (fun a ha => by fin_cases a <;> first | exact absurd rfl ha | rfl) rfl q f
  rw [h, bigSep_fin4]
  simp only [View.set_reshape]
  rfl

/-! ## A buffer of rows cut into blocks of rows, over any signature

Blocks of rows of an `[N, d1, d2, d3]` buffer: the block of `k` rows from row `a` is the unit rectangle at `![a, 0, 0, 0]`
of sizes `![k, d1, d2, d3]`. An element lies in it exactly when its row does. Two blocks of `k` rows that sit side by
side tile the block of `2 k` rows they sit in. -/

/-- Membership in a block of rows is membership of the row. -/
theorem mem_rows {N d1 d2 d3 a k : ℕ} {off : Fin 4 → ℕ} (ho : off = ![a, 0, 0, 0])
    (inb : ∀ x, off x + (![k, d1, d2, d3] : Fin 4 → ℕ) x ≤ (⟨4, ![N, d1, d2, d3]⟩ : Shape).size x)
    (i : (⟨4, ![N, d1, d2, d3]⟩ : Shape).Idx) :
    i ∈ (Rect.unit (s := ⟨4, ![N, d1, d2, d3]⟩) off ![k, d1, d2, d3] inb).set ↔ a ≤ (i 0).val ∧ (i 0).val < a + k := by
  subst ho
  rw [Rect.mem_set_unit]
  constructor
  · intro h; exact h 0
  · intro h x
    have h1 := (i 1).isLt
    have h2 := (i 2).isLt
    have h3 := (i 3).isLt
    fin_cases x
    · exact h
    · exact ⟨Nat.zero_le _, by simpa using h1⟩
    · exact ⟨Nat.zero_le _, by simpa using h2⟩
    · exact ⟨Nat.zero_le _, by simpa using h3⟩

/-- Two blocks of `k` rows at `a` and `b` sit side by side in the block of `k2 = 2 k` rows at `o`. -/
def Tiles (k a b o : ℕ) : Prop := (a = o ∧ b = o + k) ∨ (b = o ∧ a = o + k)

/-- Side-by-side blocks of rows are disjoint and make up the block they sit in. -/
theorem rows_tile {N d1 d2 d3 k k2 a b o : ℕ} (hk : k2 = k + k) (ht : Tiles k a b o) {offa offb offo : Fin 4 → ℕ}
    (ha : offa = ![a, 0, 0, 0]) (hb : offb = ![b, 0, 0, 0]) (ho : offo = ![o, 0, 0, 0])
    (inba : ∀ x, offa x + (![k, d1, d2, d3] : Fin 4 → ℕ) x ≤ (⟨4, ![N, d1, d2, d3]⟩ : Shape).size x)
    (inbb : ∀ x, offb x + (![k, d1, d2, d3] : Fin 4 → ℕ) x ≤ (⟨4, ![N, d1, d2, d3]⟩ : Shape).size x)
    (inbo : ∀ x, offo x + (![k2, d1, d2, d3] : Fin 4 → ℕ) x ≤ (⟨4, ![N, d1, d2, d3]⟩ : Shape).size x) :
    Disjoint (Rect.unit (s := ⟨4, ![N, d1, d2, d3]⟩) offa ![k, d1, d2, d3] inba).set (Rect.unit (s := ⟨4, ![N, d1, d2, d3]⟩) offb ![k, d1, d2, d3] inbb).set
      ∧ (Rect.unit (s := ⟨4, ![N, d1, d2, d3]⟩) offa ![k, d1, d2, d3] inba).set ∪ (Rect.unit (s := ⟨4, ![N, d1, d2, d3]⟩) offb ![k, d1, d2, d3] inbb).set
          = (Rect.unit (s := ⟨4, ![N, d1, d2, d3]⟩) offo ![k2, d1, d2, d3] inbo).set := by
  constructor
  · rw [Finset.disjoint_left]
    intro i hi hi'
    rw [mem_rows ha] at hi; rw [mem_rows hb] at hi'
    rcases ht with ⟨rfl, rfl⟩ | ⟨rfl, rfl⟩ <;> omega
  · ext i
    rw [Finset.mem_union, mem_rows ha, mem_rows hb, mem_rows ho]
    rcases ht with ⟨rfl, rfl⟩ | ⟨rfl, rfl⟩ <;> omega

/-- The block of all `N` rows from row 0 is the whole shape. -/
theorem rows_all {N d1 d2 d3 : ℕ} {off : Fin 4 → ℕ} (ho : off = ![0, 0, 0, 0])
    (inb : ∀ x, off x + (![N, d1, d2, d3] : Fin 4 → ℕ) x ≤ (⟨4, ![N, d1, d2, d3]⟩ : Shape).size x) :
    (Rect.unit (s := ⟨4, ![N, d1, d2, d3]⟩) off ![N, d1, d2, d3] inb).set = Finset.univ := by
  ext i
  rw [mem_rows ho]
  have h0 := (i 0).isLt
  simp only [Finset.mem_univ, iff_true]
  exact ⟨Nat.zero_le _, by simpa using h0⟩

/-- Held by the elements of a block of `2 k` rows is held by the elements of its two halves, at the same contents. -/
theorem pointsTo_rows_tile {c : Thread nD τ} {sp : Space} {e : EltTy} {N d1 d2 d3 k k2 a b o : ℕ}
    (m : Memref sig c.2.kind sp ⟨4, ![N, d1, d2, d3]⟩ e) (hk : k2 = k + k) (ht : Tiles k a b o) {offa offb offo : Fin 4 → ℕ}
    (ha : offa = ![a, 0, 0, 0]) (hb : offb = ![b, 0, 0, 0]) (ho : offo = ![o, 0, 0, 0])
    (inba : ∀ x, offa x + (![k, d1, d2, d3] : Fin 4 → ℕ) x ≤ (⟨4, ![N, d1, d2, d3]⟩ : Shape).size x)
    (inbb : ∀ x, offb x + (![k, d1, d2, d3] : Fin 4 → ℕ) x ≤ (⟨4, ![N, d1, d2, d3]⟩ : Shape).size x)
    (inbo : ∀ x, offo x + (![k2, d1, d2, d3] : Fin 4 → ℕ) x ≤ (⟨4, ![N, d1, d2, d3]⟩ : Shape).size x)
    (q : PosShare TreeShare) (f : Buf Val (m.view.loc c)) :
    (m.view.loc c ↦[(m.view.slice (Rect.unit (s := ⟨4, ![N, d1, d2, d3]⟩) offo ![k2, d1, d2, d3] inbo)).set]{q} f : sProp 𝕄)
      = iprop((m.view.loc c ↦[(m.view.slice (Rect.unit (s := ⟨4, ![N, d1, d2, d3]⟩) offa ![k, d1, d2, d3] inba)).set]{q} f)
          ∗ (m.view.loc c ↦[(m.view.slice (Rect.unit (s := ⟨4, ![N, d1, d2, d3]⟩) offb ![k, d1, d2, d3] inbb)).set]{q} f)) := by
  obtain ⟨hd, hu⟩ := rows_tile (N := N) (d1 := d1) (d2 := d2) (d3 := d3) hk ht ha hb ho inba inbb inbo
  have hd' : Disjoint (m.view.slice (Rect.unit (s := ⟨4, ![N, d1, d2, d3]⟩) offa ![k, d1, d2, d3] inba)).set
      (m.view.slice (Rect.unit (s := ⟨4, ![N, d1, d2, d3]⟩) offb ![k, d1, d2, d3] inbb)).set := by
    rw [View.set_slice, View.set_slice]; exact (Finset.disjoint_map _).mpr hd
  have hu' : (m.view.slice (Rect.unit (s := ⟨4, ![N, d1, d2, d3]⟩) offo ![k2, d1, d2, d3] inbo)).set
      = (m.view.slice (Rect.unit (s := ⟨4, ![N, d1, d2, d3]⟩) offa ![k, d1, d2, d3] inba)).set
        ∪ (m.view.slice (Rect.unit (s := ⟨4, ![N, d1, d2, d3]⟩) offb ![k, d1, d2, d3] inbb)).set := by
    rw [View.set_slice, View.set_slice, View.set_slice, ← hu, Finset.map_union]
  rw [hu']
  have h := pointsTo_union (Ix := Ix) (Name := Name) (U := U) (Lvl := Lvl) (Val := Val) (ℓ := m.view.loc c) (q := q) (f := f) hd'
  exact BI.equiv_iff.mp ⟨h.1, h.2⟩

/-- Two halves held at contents of their own join to the block of `2 k` rows, held at the contents that are the
    second's on the second half and the first's elsewhere. -/
theorem pointsTo_rows_join {c : Thread nD τ} {sp : Space} {e : EltTy} {N d1 d2 d3 k k2 a b o : ℕ}
    (m : Memref sig c.2.kind sp ⟨4, ![N, d1, d2, d3]⟩ e) (hk : k2 = k + k) (ht : Tiles k a b o) {offa offb offo : Fin 4 → ℕ}
    (ha : offa = ![a, 0, 0, 0]) (hb : offb = ![b, 0, 0, 0]) (ho : offo = ![o, 0, 0, 0])
    (inba : ∀ x, offa x + (![k, d1, d2, d3] : Fin 4 → ℕ) x ≤ (⟨4, ![N, d1, d2, d3]⟩ : Shape).size x)
    (inbb : ∀ x, offb x + (![k, d1, d2, d3] : Fin 4 → ℕ) x ≤ (⟨4, ![N, d1, d2, d3]⟩ : Shape).size x)
    (inbo : ∀ x, offo x + (![k2, d1, d2, d3] : Fin 4 → ℕ) x ≤ (⟨4, ![N, d1, d2, d3]⟩ : Shape).size x)
    (q : PosShare TreeShare) (f g : Buf Val (m.view.loc c)) :
    iprop((m.view.loc c ↦[(m.view.slice (Rect.unit (s := ⟨4, ![N, d1, d2, d3]⟩) offa ![k, d1, d2, d3] inba)).set]{q} f)
          ∗ (m.view.loc c ↦[(m.view.slice (Rect.unit (s := ⟨4, ![N, d1, d2, d3]⟩) offb ![k, d1, d2, d3] inbb)).set]{q} g))
      ⊢ (m.view.loc c ↦[(m.view.slice (Rect.unit (s := ⟨4, ![N, d1, d2, d3]⟩) offo ![k2, d1, d2, d3] inbo)).set]{q}
            ((m.view.slice (Rect.unit (s := ⟨4, ![N, d1, d2, d3]⟩) offb ![k, d1, d2, d3] inbb)).set.piecewise g f) : sProp 𝕄) := by
  obtain ⟨hd, hu⟩ := rows_tile (N := N) (d1 := d1) (d2 := d2) (d3 := d3) hk ht ha hb ho inba inbb inbo
  have hd' : Disjoint (m.view.slice (Rect.unit (s := ⟨4, ![N, d1, d2, d3]⟩) offa ![k, d1, d2, d3] inba)).set
      (m.view.slice (Rect.unit (s := ⟨4, ![N, d1, d2, d3]⟩) offb ![k, d1, d2, d3] inbb)).set := by
    rw [View.set_slice, View.set_slice]; exact (Finset.disjoint_map _).mpr hd
  have hu' : (m.view.slice (Rect.unit (s := ⟨4, ![N, d1, d2, d3]⟩) offo ![k2, d1, d2, d3] inbo)).set
      = (m.view.slice (Rect.unit (s := ⟨4, ![N, d1, d2, d3]⟩) offa ![k, d1, d2, d3] inba)).set
        ∪ (m.view.slice (Rect.unit (s := ⟨4, ![N, d1, d2, d3]⟩) offb ![k, d1, d2, d3] inbb)).set := by
    rw [View.set_slice, View.set_slice, View.set_slice, ← hu, Finset.map_union]
  rw [hu']
  exact pointsTo_join (Ix := Ix) (Name := Name) (U := U) (Lvl := Lvl) (Val := Val) (ℓ := m.view.loc c) (q := q) (f := f) (g := g) hd'

/-- A buffer held whole through a memref that is the whole buffer is held by the elements of the block of all its rows. -/
theorem pointsTo_rows_all {c : Thread nD τ} {sp : Space} {e : EltTy} {N d1 d2 d3 : ℕ}
    (m : Memref sig c.2.kind sp ⟨4, ![N, d1, d2, d3]⟩ e) (hm : m.IsWhole) {off : Fin 4 → ℕ} (ho : off = ![0, 0, 0, 0])
    (inb : ∀ x, off x + (![N, d1, d2, d3] : Fin 4 → ℕ) x ≤ (⟨4, ![N, d1, d2, d3]⟩ : Shape).size x)
    (q : PosShare TreeShare) (f : Buf Val (m.view.loc c)) :
    (m.view.loc c ↦{q} f : sProp 𝕄)
      = (m.view.loc c ↦[(m.view.slice (Rect.unit (s := ⟨4, ![N, d1, d2, d3]⟩) off ![N, d1, d2, d3] inb)).set]{q} f) := by
  rw [View.set_slice, rows_all ho, ← View.set, hm.set_eq_univ]

/-- Four separating conjuncts, reassociated. -/
theorem sep_assoc4 (A B C D : sProp 𝕄) : (iprop(((A ∗ B) ∗ C) ∗ D) : sProp 𝕄) = iprop(A ∗ B ∗ C ∗ D) := by
  have h₁ : iprop(((A ∗ B) ∗ C) ∗ D) ⊢ (iprop(A ∗ B ∗ C ∗ D) : sProp 𝕄) := by
    iintro ⟨⟨⟨H1, H2⟩, H3⟩, H4⟩
    isplitl [H1]; · iexact H1
    isplitl [H2]; · iexact H2
    isplitl [H3]; · iexact H3
    iexact H4
  have h₂ : (iprop(A ∗ B ∗ C ∗ D) : sProp 𝕄) ⊢ iprop(((A ∗ B) ∗ C) ∗ D) := by
    iintro ⟨H1, H2, H3, H4⟩
    isplitr [H4]
    · isplitr [H3]
      · isplitl [H1]; · iexact H1
        iexact H2
      · iexact H3
    · iexact H4
  exact BI.equiv_iff.mp ⟨h₁, h₂⟩

end General

/-! ## The kernel's three ring buffers and its result staging buffer -/

section Concrete

open Cert.Kernel.Facts₀ Cert.Kernel.Facts
open Cert.Kernel.Mesh (row row_lt p0 p1 p2 row_p0 row_p1 row_p2 off19_eq' off20_eq off21_eq)

variable {Ix : Type} [DecidableEq Ix] {Val : EltTy → Type} {Name : Type} [DecidableEq Name]
variable {U : Type} [URA U] {Lvl : Type}

local notation "𝕄" => MT nD τ sig Ix Val Name U Lvl

/-- Slot `j` of a `[4, 8, 16, 128]` ring buffer, as the program names it. -/
abbrev slotO (m : Memref sig .tc .vmem S4x8x16x128 .f32) (j : ℕ)
    (inb : ∀ a, (![j, 0, 0, 0] : Fin 4 → ℕ) a + S1x8x16x128.size a ≤ S4x8x16x128.size a) : Memref sig .tc .vmem S8x16x128 .f32 :=
  (m.slice (Rect.unit (s := S4x8x16x128) ![j, 0, 0, 0] S1x8x16x128.size inb) (fun _ => rfl)).squeeze S8x16x128 squeezes_S1x8x16x128_S8x16x128

/-- Slot `j` of a `[4, 8, 16, 1]` ring buffer, as the program names it. -/
abbrev slotM (m : Memref sig .tc .vmem S4x8x16x1 .f32) (j : ℕ)
    (inb : ∀ a, (![j, 0, 0, 0] : Fin 4 → ℕ) a + S1x8x16x1.size a ≤ S4x8x16x1.size a) : Memref sig .tc .vmem S8x16x1 .f32 :=
  (m.slice (Rect.unit (s := S4x8x16x1) ![j, 0, 0, 0] S1x8x16x1.size inb) (fun _ => rfl)).squeeze S8x16x1 squeezes_S1x8x16x1_S8x16x1

/-- A `[4, 8, 16, 128]` ring buffer held whole is its four slots, and back. -/
theorem ringO_slots (d : Dev nD) (m : Memref sig .tc .vmem S4x8x16x128 .f32) (hm : m.IsWhole) (q : PosShare TreeShare)
    (f : Buf Val (m.view.loc (d.tc : Thread nD τ))) :
    (m.view.loc (d.tc : Thread nD τ) ↦{q} f : sProp 𝕄)
      = iprop(((slotO m 0 inb_S4x8x16x128_S1x8x16x128_0_0_0_0).view.loc (d.tc : Thread nD τ) ↦[(slotO m 0 inb_S4x8x16x128_S1x8x16x128_0_0_0_0).view.set]{q} f)
        ∗ ((slotO m 1 inb_S4x8x16x128_S1x8x16x128_1_0_0_0).view.loc (d.tc : Thread nD τ) ↦[(slotO m 1 inb_S4x8x16x128_S1x8x16x128_1_0_0_0).view.set]{q} f)
        ∗ ((slotO m 2 inb_S4x8x16x128_S1x8x16x128_2_0_0_0).view.loc (d.tc : Thread nD τ) ↦[(slotO m 2 inb_S4x8x16x128_S1x8x16x128_2_0_0_0).view.set]{q} f)
        ∗ ((slotO m 3 inb_S4x8x16x128_S1x8x16x128_3_0_0_0).view.loc (d.tc : Thread nD τ) ↦[(slotO m 3 inb_S4x8x16x128_S1x8x16x128_3_0_0_0).view.set]{q} f)) :=
  whole_slots4 (c := (d.tc : Thread nD τ)) 8 16 128 m hm inb_S4x8x16x128_S1x8x16x128_0_0_0_0 inb_S4x8x16x128_S1x8x16x128_1_0_0_0
    inb_S4x8x16x128_S1x8x16x128_2_0_0_0 inb_S4x8x16x128_S1x8x16x128_3_0_0_0 squeezes_S1x8x16x128_S8x16x128 q f

/-- A `[4, 8, 16, 1]` ring buffer held whole is its four slots, and back. -/
theorem ringM_slots (d : Dev nD) (m : Memref sig .tc .vmem S4x8x16x1 .f32) (hm : m.IsWhole) (q : PosShare TreeShare)
    (f : Buf Val (m.view.loc (d.tc : Thread nD τ))) :
    (m.view.loc (d.tc : Thread nD τ) ↦{q} f : sProp 𝕄)
      = iprop(((slotM m 0 inb_S4x8x16x1_S1x8x16x1_0_0_0_0).view.loc (d.tc : Thread nD τ) ↦[(slotM m 0 inb_S4x8x16x1_S1x8x16x1_0_0_0_0).view.set]{q} f)
        ∗ ((slotM m 1 inb_S4x8x16x1_S1x8x16x1_1_0_0_0).view.loc (d.tc : Thread nD τ) ↦[(slotM m 1 inb_S4x8x16x1_S1x8x16x1_1_0_0_0).view.set]{q} f)
        ∗ ((slotM m 2 inb_S4x8x16x1_S1x8x16x1_2_0_0_0).view.loc (d.tc : Thread nD τ) ↦[(slotM m 2 inb_S4x8x16x1_S1x8x16x1_2_0_0_0).view.set]{q} f)
        ∗ ((slotM m 3 inb_S4x8x16x1_S1x8x16x1_3_0_0_0).view.loc (d.tc : Thread nD τ) ↦[(slotM m 3 inb_S4x8x16x1_S1x8x16x1_3_0_0_0).view.set]{q} f)) :=
  whole_slots4 (c := (d.tc : Thread nD τ)) 8 16 1 m hm inb_S4x8x16x1_S1x8x16x1_0_0_0_0 inb_S4x8x16x1_S1x8x16x1_1_0_0_0
    inb_S4x8x16x1_S1x8x16x1_2_0_0_0 inb_S4x8x16x1_S1x8x16x1_3_0_0_0 squeezes_S1x8x16x1_S8x16x1 q f

/-! ### The eight rows of the result staging buffer

A device serves row `r`. Its row and the row `r xor 1` make up the aligned pair of rows that holds `r`; that pair and the pair that
holds `r xor 2` make up the aligned quadruple that holds `r`; that quadruple and the one that holds `r xor 4` are all eight rows. -/

theorem tiles_row : ∀ r, r < 8 → Tiles 1 r (r ^^^ 1) (r / 2 * 2) := by
  unfold Tiles; decide
theorem tiles_pair : ∀ r, r < 8 → Tiles 2 (r / 2 * 2) ((r ^^^ 2) / 2 * 2) (r / 4 * 4) := by
  unfold Tiles; decide
theorem tiles_quad : ∀ r, r < 8 → Tiles 4 (r / 4 * 4) ((r ^^^ 4) / 4 * 4) 0 := by
  unfold Tiles; decide

theorem off19_p0 (c : Dev nD) : k0_off19 (p0 c) = ![row c ^^^ 1, 0, 0, 0] := by rw [off19_eq', row_p0]
theorem off20_p1 (c : Dev nD) : k0_off20 (p1 c) = ![(row c ^^^ 2) / 2 * 2, 0, 0, 0] := by rw [off20_eq, row_p1]
theorem off21_p2 (c : Dev nD) : k0_off21 (p2 c) = ![(row c ^^^ 4) / 4 * 4, 0, 0, 0] := by rw [off21_eq, row_p2]

/-- The aligned pair of rows of device `c` (in the staging buffer of any device `d`) is `c`'s row and its first partner's. -/
theorem out_pair (c d : Dev nD) (m : Memref sig .tc .vmem S8x8x16x128 .f32) (q : PosShare TreeShare)
    (f : Buf Val (m.view.loc (d.tc : Thread nD τ))) :
    (((m.slice (Rect.unit (s := S8x8x16x128) (k0_off20 c) S2x8x16x128.size (k0_off20_inb c)) (fun _ => rfl)).view.loc (d.tc : Thread nD τ) ↦[(m.slice (Rect.unit (s := S8x8x16x128) (k0_off20 c) S2x8x16x128.size (k0_off20_inb c)) (fun _ => rfl)).view.set]{q} f) : sProp 𝕄)
      = iprop(((m.slice (Rect.unit (s := S8x8x16x128) (k0_off19 c) S1x8x16x128.size (k0_off19_inb c)) (fun _ => rfl)).view.loc (d.tc : Thread nD τ) ↦[(m.slice (Rect.unit (s := S8x8x16x128) (k0_off19 c) S1x8x16x128.size (k0_off19_inb c)) (fun _ => rfl)).view.set]{q} f)
          ∗ ((m.slice (Rect.unit (s := S8x8x16x128) (k0_off19 (p0 c)) S1x8x16x128.size (k0_off19_inb (p0 c))) (fun _ => rfl)).view.loc (d.tc : Thread nD τ) ↦[(m.slice (Rect.unit (s := S8x8x16x128) (k0_off19 (p0 c)) S1x8x16x128.size (k0_off19_inb (p0 c))) (fun _ => rfl)).view.set]{q} f)) :=
  pointsTo_rows_tile (c := (d.tc : Thread nD τ)) (N := 8) (d1 := 8) (d2 := 16) (d3 := 128) (k := 1) (k2 := 2) m rfl
    (tiles_row (row c) (row_lt c)) (off19_eq' c) (off19_p0 c) (off20_eq c) (k0_off19_inb c) (k0_off19_inb (p0 c)) (k0_off20_inb c) q f

/-- The aligned quadruple of rows of device `c` is `c`'s pair and its second partner's. -/
theorem out_quad (c d : Dev nD) (m : Memref sig .tc .vmem S8x8x16x128 .f32) (q : PosShare TreeShare)
    (f : Buf Val (m.view.loc (d.tc : Thread nD τ))) :
    (((m.slice (Rect.unit (s := S8x8x16x128) (k0_off21 c) S4x8x16x128.size (k0_off21_inb c)) (fun _ => rfl)).view.loc (d.tc : Thread nD τ) ↦[(m.slice (Rect.unit (s := S8x8x16x128) (k0_off21 c) S4x8x16x128.size (k0_off21_inb c)) (fun _ => rfl)).view.set]{q} f) : sProp 𝕄)
      = iprop(((m.slice (Rect.unit (s := S8x8x16x128) (k0_off20 c) S2x8x16x128.size (k0_off20_inb c)) (fun _ => rfl)).view.loc (d.tc : Thread nD τ) ↦[(m.slice (Rect.unit (s := S8x8x16x128) (k0_off20 c) S2x8x16x128.size (k0_off20_inb c)) (fun _ => rfl)).view.set]{q} f)
          ∗ ((m.slice (Rect.unit (s := S8x8x16x128) (k0_off20 (p1 c)) S2x8x16x128.size (k0_off20_inb (p1 c))) (fun _ => rfl)).view.loc (d.tc : Thread nD τ) ↦[(m.slice (Rect.unit (s := S8x8x16x128) (k0_off20 (p1 c)) S2x8x16x128.size (k0_off20_inb (p1 c))) (fun _ => rfl)).view.set]{q} f)) :=
  pointsTo_rows_tile (c := (d.tc : Thread nD τ)) (N := 8) (d1 := 8) (d2 := 16) (d3 := 128) (k := 2) (k2 := 4) m rfl
    (tiles_pair (row c) (row_lt c)) (off20_eq c) (off20_p1 c) (off21_eq c) (k0_off20_inb c) (k0_off20_inb (p1 c)) (k0_off21_inb c) q f

/-- All eight rows are `c`'s quadruple and its third partner's. -/
theorem out_all (c d : Dev nD) (m : Memref sig .tc .vmem S8x8x16x128 .f32) (hm : m.IsWhole) (q : PosShare TreeShare)
    (f : Buf Val (m.view.loc (d.tc : Thread nD τ))) :
    (m.view.loc (d.tc : Thread nD τ) ↦{q} f : sProp 𝕄)
      = iprop(((m.slice (Rect.unit (s := S8x8x16x128) (k0_off21 c) S4x8x16x128.size (k0_off21_inb c)) (fun _ => rfl)).view.loc (d.tc : Thread nD τ) ↦[(m.slice (Rect.unit (s := S8x8x16x128) (k0_off21 c) S4x8x16x128.size (k0_off21_inb c)) (fun _ => rfl)).view.set]{q} f)
          ∗ ((m.slice (Rect.unit (s := S8x8x16x128) (k0_off21 (p2 c)) S4x8x16x128.size (k0_off21_inb (p2 c))) (fun _ => rfl)).view.loc (d.tc : Thread nD τ) ↦[(m.slice (Rect.unit (s := S8x8x16x128) (k0_off21 (p2 c)) S4x8x16x128.size (k0_off21_inb (p2 c))) (fun _ => rfl)).view.set]{q} f)) := by
  have inb0 : ∀ x, (![0, 0, 0, 0] : Fin 4 → ℕ) x + (![8, 8, 16, 128] : Fin 4 → ℕ) x ≤ S8x8x16x128.size x := by decide
  rw [pointsTo_rows_all (c := (d.tc : Thread nD τ)) (N := 8) (d1 := 8) (d2 := 16) (d3 := 128) m hm rfl inb0 q f]
  exact pointsTo_rows_tile (c := (d.tc : Thread nD τ)) (N := 8) (d1 := 8) (d2 := 16) (d3 := 128) (k := 4) (k2 := 8) m rfl
    (tiles_quad (row c) (row_lt c)) (off21_eq c) (off21_p2 c) rfl (k0_off21_inb c) (k0_off21_inb (p2 c)) inb0 q f

/-- The staging buffer held whole is: `c`'s own row, its first partner's row, its second partner's pair, its third partner's quadruple. -/
theorem out_cut (c d : Dev nD) (m : Memref sig .tc .vmem S8x8x16x128 .f32) (hm : m.IsWhole) (q : PosShare TreeShare)
    (f : Buf Val (m.view.loc (d.tc : Thread nD τ))) :
    (m.view.loc (d.tc : Thread nD τ) ↦{q} f : sProp 𝕄)
      = iprop(((m.slice (Rect.unit (s := S8x8x16x128) (k0_off19 c) S1x8x16x128.size (k0_off19_inb c)) (fun _ => rfl)).view.loc (d.tc : Thread nD τ) ↦[(m.slice (Rect.unit (s := S8x8x16x128) (k0_off19 c) S1x8x16x128.size (k0_off19_inb c)) (fun _ => rfl)).view.set]{q} f)
          ∗ ((m.slice (Rect.unit (s := S8x8x16x128) (k0_off19 (p0 c)) S1x8x16x128.size (k0_off19_inb (p0 c))) (fun _ => rfl)).view.loc (d.tc : Thread nD τ) ↦[(m.slice (Rect.unit (s := S8x8x16x128) (k0_off19 (p0 c)) S1x8x16x128.size (k0_off19_inb (p0 c))) (fun _ => rfl)).view.set]{q} f)
          ∗ ((m.slice (Rect.unit (s := S8x8x16x128) (k0_off20 (p1 c)) S2x8x16x128.size (k0_off20_inb (p1 c))) (fun _ => rfl)).view.loc (d.tc : Thread nD τ) ↦[(m.slice (Rect.unit (s := S8x8x16x128) (k0_off20 (p1 c)) S2x8x16x128.size (k0_off20_inb (p1 c))) (fun _ => rfl)).view.set]{q} f)
          ∗ ((m.slice (Rect.unit (s := S8x8x16x128) (k0_off21 (p2 c)) S4x8x16x128.size (k0_off21_inb (p2 c))) (fun _ => rfl)).view.loc (d.tc : Thread nD τ) ↦[(m.slice (Rect.unit (s := S8x8x16x128) (k0_off21 (p2 c)) S4x8x16x128.size (k0_off21_inb (p2 c))) (fun _ => rfl)).view.set]{q} f)) := by
  rw [out_all c d m hm q f, out_quad c d m q f, out_pair c d m q f]
  exact sep_assoc4 _ _ _ _

/-- `c`'s row at `f` and its first partner's row at `g` join to `c`'s pair. -/
theorem out_pair_join (c d : Dev nD) (m : Memref sig .tc .vmem S8x8x16x128 .f32) (q : PosShare TreeShare)
    (f g : Buf Val (m.view.loc (d.tc : Thread nD τ))) :
    iprop(((m.slice (Rect.unit (s := S8x8x16x128) (k0_off19 c) S1x8x16x128.size (k0_off19_inb c)) (fun _ => rfl)).view.loc (d.tc : Thread nD τ) ↦[(m.slice (Rect.unit (s := S8x8x16x128) (k0_off19 c) S1x8x16x128.size (k0_off19_inb c)) (fun _ => rfl)).view.set]{q} f)
          ∗ ((m.slice (Rect.unit (s := S8x8x16x128) (k0_off19 (p0 c)) S1x8x16x128.size (k0_off19_inb (p0 c))) (fun _ => rfl)).view.loc (d.tc : Thread nD τ) ↦[(m.slice (Rect.unit (s := S8x8x16x128) (k0_off19 (p0 c)) S1x8x16x128.size (k0_off19_inb (p0 c))) (fun _ => rfl)).view.set]{q} g))
      ⊢ ((m.slice (Rect.unit (s := S8x8x16x128) (k0_off20 c) S2x8x16x128.size (k0_off20_inb c)) (fun _ => rfl)).view.loc (d.tc : Thread nD τ) ↦[(m.slice (Rect.unit (s := S8x8x16x128) (k0_off20 c) S2x8x16x128.size (k0_off20_inb c)) (fun _ => rfl)).view.set]{q}
            ((m.slice (Rect.unit (s := S8x8x16x128) (k0_off19 (p0 c)) S1x8x16x128.size (k0_off19_inb (p0 c))) (fun _ => rfl)).view.set.piecewise g f) : sProp 𝕄) :=
  pointsTo_rows_join (c := (d.tc : Thread nD τ)) (N := 8) (d1 := 8) (d2 := 16) (d3 := 128) (k := 1) (k2 := 2) m rfl
    (tiles_row (row c) (row_lt c)) (off19_eq' c) (off19_p0 c) (off20_eq c) (k0_off19_inb c) (k0_off19_inb (p0 c)) (k0_off20_inb c) q f g

/-- `c`'s pair at `f` and its second partner's pair at `g` join to `c`'s quadruple. -/
theorem out_quad_join (c d : Dev nD) (m : Memref sig .tc .vmem S8x8x16x128 .f32) (q : PosShare TreeShare)
    (f g : Buf Val (m.view.loc (d.tc : Thread nD τ))) :
    iprop(((m.slice (Rect.unit (s := S8x8x16x128) (k0_off20 c) S2x8x16x128.size (k0_off20_inb c)) (fun _ => rfl)).view.loc (d.tc : Thread nD τ) ↦[(m.slice (Rect.unit (s := S8x8x16x128) (k0_off20 c) S2x8x16x128.size (k0_off20_inb c)) (fun _ => rfl)).view.set]{q} f)
          ∗ ((m.slice (Rect.unit (s := S8x8x16x128) (k0_off20 (p1 c)) S2x8x16x128.size (k0_off20_inb (p1 c))) (fun _ => rfl)).view.loc (d.tc : Thread nD τ) ↦[(m.slice (Rect.unit (s := S8x8x16x128) (k0_off20 (p1 c)) S2x8x16x128.size (k0_off20_inb (p1 c))) (fun _ => rfl)).view.set]{q} g))
      ⊢ ((m.slice (Rect.unit (s := S8x8x16x128) (k0_off21 c) S4x8x16x128.size (k0_off21_inb c)) (fun _ => rfl)).view.loc (d.tc : Thread nD τ) ↦[(m.slice (Rect.unit (s := S8x8x16x128) (k0_off21 c) S4x8x16x128.size (k0_off21_inb c)) (fun _ => rfl)).view.set]{q}
            ((m.slice (Rect.unit (s := S8x8x16x128) (k0_off20 (p1 c)) S2x8x16x128.size (k0_off20_inb (p1 c))) (fun _ => rfl)).view.set.piecewise g f) : sProp 𝕄) :=
  pointsTo_rows_join (c := (d.tc : Thread nD τ)) (N := 8) (d1 := 8) (d2 := 16) (d3 := 128) (k := 2) (k2 := 4) m rfl
    (tiles_pair (row c) (row_lt c)) (off20_eq c) (off20_p1 c) (off21_eq c) (k0_off20_inb c) (k0_off20_inb (p1 c)) (k0_off21_inb c) q f g

/-- `c`'s quadruple at `f` and its third partner's quadruple at `g` join to the whole staging buffer. -/
theorem out_all_join (c d : Dev nD) (m : Memref sig .tc .vmem S8x8x16x128 .f32) (hm : m.IsWhole) (q : PosShare TreeShare)
    (f g : Buf Val (m.view.loc (d.tc : Thread nD τ))) :
    iprop(((m.slice (Rect.unit (s := S8x8x16x128) (k0_off21 c) S4x8x16x128.size (k0_off21_inb c)) (fun _ => rfl)).view.loc (d.tc : Thread nD τ) ↦[(m.slice (Rect.unit (s := S8x8x16x128) (k0_off21 c) S4x8x16x128.size (k0_off21_inb c)) (fun _ => rfl)).view.set]{q} f)
          ∗ ((m.slice (Rect.unit (s := S8x8x16x128) (k0_off21 (p2 c)) S4x8x16x128.size (k0_off21_inb (p2 c))) (fun _ => rfl)).view.loc (d.tc : Thread nD τ) ↦[(m.slice (Rect.unit (s := S8x8x16x128) (k0_off21 (p2 c)) S4x8x16x128.size (k0_off21_inb (p2 c))) (fun _ => rfl)).view.set]{q} g))
      ⊢ (m.view.loc (d.tc : Thread nD τ) ↦{q} ((m.slice (Rect.unit (s := S8x8x16x128) (k0_off21 (p2 c)) S4x8x16x128.size (k0_off21_inb (p2 c))) (fun _ => rfl)).view.set.piecewise g f) : sProp 𝕄) := by
  have inb0 : ∀ x, (![0, 0, 0, 0] : Fin 4 → ℕ) x + (![8, 8, 16, 128] : Fin 4 → ℕ) x ≤ S8x8x16x128.size x := by decide
  rw [pointsTo_rows_all (c := (d.tc : Thread nD τ)) (N := 8) (d1 := 8) (d2 := 16) (d3 := 128) m hm rfl inb0 q]
  exact pointsTo_rows_join (c := (d.tc : Thread nD τ)) (N := 8) (d1 := 8) (d2 := 16) (d3 := 128) (k := 4) (k2 := 8) m rfl
    (tiles_quad (row c) (row_lt c)) (off21_eq c) (off21_p2 c) rfl (k0_off21_inb c) (k0_off21_inb (p2 c)) inb0 q f g

/-- info: 'Cert.Kernel.BodyProto.out_cut' depends on axioms: [propext, Classical.choice, Quot.sound] -/
#guard_msgs in #print axioms out_cut

end Concrete

end Cert.Kernel.BodyProto
-- ==== Proof.BodyStepsW.lean ====
/-
  The communication steps of the kernel body, second part: the steps themselves.

  A signal to a neighbour's barrier semaphore, the wait for the five neighbours, a remote copy into a neighbour's buffer, and a
  wait on one of the device's own transfer cells are each one lemma, stated once for every place the body takes that kind of
  step; then each part of the body that communicates is run as the chain of its steps. Around them: how the buffers are cut
  before the first signal and joined again after the last hop and after the last exchange, what each signal hands over put
  together, and the evidence a wait presents from the levels of the cells still to be paid.
-/
import proofs.«900429_g7700000000000430_dist_flashdec_v7x_xyz2x4x4_z_b8_sq8_skv1024_h16_d128_f32_1_alg».proof.Proof.BodyProtoW
import proofs.«900429_g7700000000000430_dist_flashdec_v7x_xyz2x4x4_z_b8_sq8_skv1024_h16_d128_f32_1_alg».proof.Proof.ProtoW
import proofs.«900429_g7700000000000430_dist_flashdec_v7x_xyz2x4x4_z_b8_sq8_skv1024_h16_d128_f32_1_alg».proof.Proof.SegmentsW
import Idealize.ShloMosaic.Lib.Ring
import Idealize.ShloMosaic.Lib.Memref
import Idealize.ShloMosaic.Lib.Rounds

noncomputable section

namespace Cert.Kernel.BodyProto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## Blocks held at contents of their own, joined -/

section GeneralJoin

variable {nD : Nat} {τ : Topo} {sig : RefSig}
variable {Ix : Type} [DecidableEq Ix] {Val : EltTy → Type} {Name : Type} [DecidableEq Name]
variable {U : Type} [URA U] {Lvl : Type}

local notation "𝕄" => MT nD τ sig Ix Val Name U Lvl

/-- Blocks along one axis held at contents of their own join to the buffer held whole, at contents that agree with each block's
    on that block's elements. -/
theorem whole_lead_join {c : Thread nD τ} {sp : Space} {s : Shape} {e : EltTy} (m : Memref sig c.2.kind sp s e) (hm : m.IsWhole)
    {NB : ℕ} (a₀ : Fin s.rank) (R : ℕ) (off : Fin NB → Fin s.rank → ℕ) (size : Fin s.rank → ℕ)
    (inb : ∀ b a, off b a + size a ≤ s.size a)
    (hoff₀ : ∀ b, off b a₀ = R * b.val) (hoff : ∀ b a, a ≠ a₀ → off b a = 0)
    (hsz₀ : size a₀ = R) (hsz : ∀ a, a ≠ a₀ → size a = s.size a) (hN : NB * R = s.size a₀)
    (q : PosShare TreeShare) (fs : Fin NB → Buf Val (m.view.loc c)) (f₀ : Buf Val (m.view.loc c)) :
    bigSep Finset.univ (fun b : Fin NB => (m.view.loc c ↦[(m.view.slice (Rect.unit (off b) size (inb b))).set]{q} fs b : sProp 𝕄))
      ⊢ iprop(∃ g, ⌜∀ b, ∀ i ∈ (m.view.slice (Rect.unit (off b) size (inb b))).set, g i = fs b i⌝ ∗ (m.view.loc c ↦{q} g)) := by
  have hd : ∀ b ∈ (Finset.univ : Finset (Fin NB)), ∀ b' ∈ (Finset.univ : Finset (Fin NB)), b ≠ b' →
      Disjoint (m.view.slice (Rect.unit (off b) size (inb b))).set (m.view.slice (Rect.unit (off b') size (inb b'))).set := by
    intro b _ b' _ h
    rw [View.set_slice, View.set_slice]
    exact (Finset.disjoint_map _).mpr (Ring.lead_disjoint a₀ R off size inb hoff₀ hsz₀ b b' h)
  have hc : (Finset.univ : Finset (Fin NB)).biUnion (fun b => ((m.view.slice (Rect.unit (off b) size (inb b))).set : Finset (Idx (m.view.loc c))))
      = (Finset.univ : Finset (Idx (m.view.loc c))) := by
    ext i
    simp only [Finset.mem_biUnion, Finset.mem_univ, true_and, iff_true]
    have hi : i ∈ m.view.set := hm.set_eq_univ ▸ Finset.mem_univ i
    rw [View.set, Finset.mem_map] at hi
    obtain ⟨x, -, rfl⟩ := hi
    have hx : x ∈ Finset.univ.biUnion (fun b => (Rect.unit (off b) size (inb b)).set) := by
      rw [Ring.lead_cover a₀ R off size inb hoff₀ hoff hsz₀ hsz hN]; exact Finset.mem_univ x
    obtain ⟨b, -, hb⟩ := Finset.mem_biUnion.mp hx
    exact ⟨b, by rw [View.set_slice]; exact Finset.mem_map_of_mem _ hb⟩
  refine (pointsTo_biUnion_join (Ix := Ix) (Name := Name) (U := U) (Lvl := Lvl) (Val := Val) (ℓ := m.view.loc c) (q := q) (Finset.univ : Finset (Fin NB))
    (fun b => ((m.view.slice (Rect.unit (off b) size (inb b))).set : Finset (Idx (m.view.loc c)))) fs f₀ hd).trans ?_
  rw [hc]
  iintro ⟨%g, %hg, H⟩
  iexists g
  isplitr
  · ipureintro; exact fun b i hi => hg b (Finset.mem_univ b) i hi
  · iexact H

/-- The credit of a transfer through a slice of a buffer does not depend on where the slice sits, -/
theorem credit_slice {κ : Kind} {sp : Space} {s : Shape} {e : EltTy} (M : Memref sig κ sp s e) {off off' size : Fin s.rank → ℕ}
    (inb : ∀ a, off a + size a ≤ s.size a) (inb' : ∀ a, off' a + size a ≤ s.size a) :
    (M.slice (Rect.unit off size inb) (fun _ => rfl)).view.dmaCredit = (M.slice (Rect.unit off' size inb') (fun _ => rfl)).view.dmaCredit := rfl

/-- nor does it through a squeezed slice. -/
theorem credit_squeeze_slice {κ : Kind} {sp : Space} {s s' : Shape} {e : EltTy} (M : Memref sig κ sp s e) {off off' size : Fin s.rank → ℕ}
    (inb : ∀ a, off a + size a ≤ s.size a) (inb' : ∀ a, off' a + size a ≤ s.size a) (h : (Rect.unit off size inb).shape.Squeezes s') (h' : (Rect.unit off' size inb').shape.Squeezes s') :
    ((M.slice (Rect.unit off size inb) (fun _ => rfl)).squeeze s' h).view.dmaCredit
      = ((M.slice (Rect.unit off' size inb') (fun _ => rfl)).squeeze s' h').view.dmaCredit := rfl

end GeneralJoin

/-! ## The communication steps

The schedule's tables at the cells a device signals, copies onto and waits on; then one lemma per kind of step. Every
remote copy of the body (the nine of the ring, the three of the exchanges) is one instance of `send_step`; every wait on
one of the device's own transfer cells is one instance of `own_wait`. -/

section Steps

open Cert.Kernel.FD
open Cert.Kernel.Mesh (zr zl zl_zr zr_zl p0 p1 p2 p0_p0 p1_p1 p2_p2)
open Idealize.ShloMosaic.Rounds

variable {F : FTy → Type} [FloatOps F]

local notation "𝕄" => MT nD τ sig Unit (Elt F) ℕ UU ℕ

variable (vo : Dev nD → S8x16x128.Idx → Elt F .f32) (vm vl : Dev nD → S8x16x1.Idx → Elt F .f32)
variable (vg : ℕ → S8x8x16x128.Idx → Elt F .f32) (kin vin : Dev nD → S1024x16x128.Idx → Elt F .f32)
variable (m : (ℓ : Loc nD τ sig) → Buf (Elt F) ℓ)

/-! ### One lemma per kind of step -/

variable {Λ : Labels} {defs : Defs nD τ sig (Elt F) Λ} (𝒱 : Variants)

/-- A signal to a neighbour's barrier semaphore pays one of the five duties of the neighbour's barrier cell: the signaller
    hands in the duty's token, what it promised the neighbour, and that the neighbour's cell stands at round 0, and owes one
    unit less. -/
theorem bar_signal {α : Type} {Q : α → sProp 𝕄} (c n : Dev nD) (d : Fin 5) (bd : Option 𝒱.V) {dev : Dev nD} (hdev : dev = n)
    {k : PUnit → Prog (TpuEff nD τ sig (Elt F) Λ (c : Thread nD τ).2) α} {κ : ℕ}
    {O₀ : CellTallies nD τ sig Unit} (O : CellTallies nD τ sig Unit) (hO : O₀ = O + tallyAt (barCell n) () 1)
    {W : Waits sig Unit} {Es : Set ℕ} (hr : τ.routes (c : Thread nD τ) (n : Thread nD τ) = true) :
    iprop(cellInv ER (Rd vo vm vl vg kin vin m) κ (barCell n) ∗ owes (c : Thread nD τ) O₀ W ∗ dutyTok ER (barCell n) 0 d
        ∗ barPay (F := F) n d ∗ reached ER (barCell n) 0)
      ⊢ iprop((owes (c : Thread nD τ) O W -∗ wp frame (wpE defs 𝒱 (c : Thread nD τ) bd) Es (k ⟨⟩) Q)
          -∗ wp frame (wpE defs 𝒱 (c : Thread nD τ) bd) Es (.op (.semSignal (dev : Thread nD τ) barS 1) k) Q) := by
  subst dev
  have hd : d ∈ (Rd vo vm vl vg kin vin m).duties ((n : Thread nD τ), .reg barS) 0 := by
    rw [duties_bar vo vm vl vg kin vin m n]; exact Finset.mem_univ d
  have hrule := Rounds.wp_signal (defs := defs) (Γ := .empty) (Q := Q) (k := k) (κ := κ) (W := W) (Es := Es) 𝒱 ER (Rd vo vm vl vg kin vin m) (c : Thread nD τ) bd
    (dst := (n : Thread nD τ)) (sem := barS) (r := 0) (d := d) (k' := 1) hd (amount_bar vo vm vl vg kin vin m n d) () O hO hr
  rw [payload_bar vo vm vl vg kin vin m n d] at hrule
  exact hrule

/-- The wait for the five neighbours: the device presents the five units of credit it was dealt, and comes back at round 1
    of its barrier cell with what the five neighbours promised. -/
theorem bar_wait {α : Type} {Q : α → sProp 𝕄} (c : Dev nD) (bd : Option 𝒱.V)
    {k : PUnit → Prog (TpuEff nD τ sig (Elt F) Λ (c : Thread nD τ).2) α} {κ : ℕ}
    {O : CellTallies nD τ sig Unit} {W : Waits sig Unit} {Es : Set ℕ} (hE : κ ∈ Es) :
    iprop(cellInv ER (Rd vo vm vl vg kin vin m) κ (barCell c) ∗ cred (tallyAt (barCell c) () 5) ∗ owes (c : Thread nD τ) O W
        ∗ MayWait (c : Thread nD τ) (.reg barS) () O ∗ atPos ER (barCell c) 0 ∅ 0)
      ⊢ iprop(((owes (c : Thread nD τ) O (insert (SemLoc.reg barS, ()) W)
              ∗ atPos ER (barCell c) (0 + 1) ∅ 0 ∗ reached ER (barCell c) (0 + 1)
              ∗ (barPay (F := F) c 0 ∗ barPay (F := F) c 1 ∗ barPay (F := F) c 2 ∗ barPay (F := F) c 3 ∗ barPay (F := F) c 4))
            -∗ wp frame (wpE defs 𝒱 (c : Thread nD τ) bd) Es (k ⟨⟩) Q)
          -∗ wp frame (wpE defs 𝒱 (c : Thread nD τ) bd) Es (.op (.semWait barS 5) k) Q) := by
  have hk : 0 + 5 = (Rd vo vm vl vg kin vin m).expect ((c : Thread nD τ), .reg barS) 0 := by
    rw [expect_bar vo vm vl vg kin vin m c]
  have hrule := Rounds.wp_wait_rest_token (defs := defs) (Q := Q) (k := k) (κ := κ) (O := O) (W := W) (R := 0) (m := 0) (T := ∅)
    𝒱 ER (Rd vo vm vl vg kin vin m) (c : Thread nD τ) bd (sm := .reg barS) (k' := 5)
    (wpE_semWait_eq (defs := defs) 𝒱 (c : Thread nD τ) bd Es) hE () hk
  rw [rest_bar vo vm vl vg kin vin m c] at hrule
  exact hrule

/-- A wait on one of the device's own transfer cells: the device presents the credit for the cell's one duty, and comes back
    at round 1 of the cell with what the transfer moved. -/
theorem own_wait {α : Type} {Q : α → sProp 𝕄} (c : Dev nD) (q : DmaSem sig) (hq : kindOf q ≠ .other) (bd : Option 𝒱.V)
    {sp' : Space} {s' S : Shape} {e' : EltTy} {src : Memref sig (c : Thread nD τ).2.kind sp' s' e'} {dst : Memref sig .tc .vmem S .f32}
    (hN : dst.view.dmaCredit = dmaAmt c (kindOf q)) {hsrc : src.view.WordExact} {hdst : dst.view.WordExact}
    {k : PUnit → Prog (TpuEff nD τ sig (Elt F) Λ (c : Thread nD τ).2) α} {κ : ℕ}
    {O : CellTallies nD τ sig Unit} {W : Waits sig Unit} {Es : Set ℕ} (hE : κ ∈ Es) :
    iprop(cellInv ER (Rd vo vm vl vg kin vin m) κ ((c : Thread nD τ), .dma q) ∗ cred (tallyAt ((c : Thread nD τ), .dma q) () (dmaAmt c (kindOf q)))
        ∗ owes (c : Thread nD τ) O W ∗ MayWait (c : Thread nD τ) (.dma q) () O ∗ atPos ER ((c : Thread nD τ), .dma q) 0 ∅ 0)
      ⊢ iprop(((owes (c : Thread nD τ) O (insert (SemLoc.dma q, ()) W)
              ∗ atPos ER ((c : Thread nD τ), .dma q) (0 + 1) ∅ 0 ∗ reached ER ((c : Thread nD τ), .dma q) (0 + 1)
              ∗ dmaPay vo vm vl vg kin vin m c (kindOf q))
            -∗ wp frame (wpE defs 𝒱 (c : Thread nD τ) bd) Es (k ⟨⟩) Q)
          -∗ wp frame (wpE defs 𝒱 (c : Thread nD τ) bd) Es (.op (.waitDma2 q src dst hsrc hdst) k) Q) := by
  have hk : 0 + dst.view.dmaCredit = (Rd vo vm vl vg kin vin m).expect ((c : Thread nD τ), .dma q) 0 := by
    rw [expect_dma vo vm vl vg kin vin m c q hq, Nat.zero_add, hN]
  have hrule := Rounds.wp_wait_rest_token (defs := defs) (Q := Q) (k := k) (κ := κ) (O := O) (W := W) (R := 0) (m := 0) (T := ∅)
    𝒱 ER (Rd vo vm vl vg kin vin m) (c : Thread nD τ) bd (sm := .dma q) (k' := dst.view.dmaCredit)
    (wpE_waitDma2_eq (defs := defs) (sem := q) (src := src) (dst := dst) (hsrc := hsrc) (hdst := hdst) 𝒱 (c : Thread nD τ) bd Es) hE () hk
  rw [rest_dma vo vm vl vg kin vin m c q hq, hN] at hrule
  exact hrule

/-- A remote copy from a view of the device's own buffer into the same-shaped view of a neighbour's: it pays the one duty of
    the device's send cell (the source comes back, as it was) and the one duty of the neighbour's receive cell (the destination,
    which the neighbour lent at entry, comes back to the neighbour holding what the source held). The device gets the send
    cell's credit and owes the receive cell's units no more. -/
theorem send_step {α : Type} {Q : α → sProp 𝕄} (c n : Dev nD) {S : Shape} (src dst : Memref sig .tc .vmem S .f32) (sS sR : DmaSem sig)
    (X : S.Idx → Elt F .f32) (N : ℕ) (hqS : kindOf sS ≠ .other) (hqR : kindOf sR ≠ .other)
    (hN : dst.view.dmaCredit = N) (hNS : dmaAmt c (kindOf sS) = N) (hNR : dmaAmt n (kindOf sR) = N)
    (hpS : dmaPay vo vm vl vg kin vin m c (kindOf sS) = holds c src X)
    (hpR : dmaPay vo vm vl vg kin vin m n (kindOf sR) = holds n dst X)
    (bd : Option 𝒱.V) {dev : Dev nD} (hdev : dev = n)
    {hsc : dst.view.ref.isScScratch = false} {hsrc : src.view.WordExact} {hdst : dst.view.WordExact}
    {hsem : DmaTarget.Typed .vmem (SemLoc.dma sR) (.remote (dev : Thread nD τ) dst (SemLoc.dma sS) hsc)}
    {k : PUnit → Prog (TpuEff nD τ sig (Elt F) Λ (c : Thread nD τ).2) α} {κ₁ κ₂ : ℕ}
    {O₀ : CellTallies nD τ sig Unit} (O : CellTallies nD τ sig Unit) (hO : O₀ = O + tallyAt ((n : Thread nD τ), SemLoc.dma sR) () N)
    {W : Waits sig Unit} {Es : Set ℕ} (hr : τ.routes (c : Thread nD τ) (n : Thread nD τ) = true) :
    iprop(cellInv ER (Rd vo vm vl vg kin vin m) κ₁ ((c : Thread nD τ), .dma sS) ∗ cellInv ER (Rd vo vm vl vg kin vin m) κ₂ ((n : Thread nD τ), .dma sR)
        ∗ holds c src X ∗ owned (F := F) n dst ∗ owes (c : Thread nD τ) O₀ W
        ∗ dutyTok ER ((c : Thread nD τ), .dma sS) 0 0 ∗ reached ER ((c : Thread nD τ), .dma sS) 0
        ∗ dutyTok ER ((n : Thread nD τ), .dma sR) 0 0 ∗ reached ER ((n : Thread nD τ), .dma sR) 0)
      ⊢ iprop(((cred (tallyAt ((c : Thread nD τ), .dma sS) () N) ∗ owes (c : Thread nD τ) O W)
            -∗ wp frame (wpE defs 𝒱 (c : Thread nD τ) bd) Es (k ⟨⟩) Q)
          -∗ wp frame (wpE defs 𝒱 (c : Thread nD τ) bd) Es
              (.op (.enqueueDma src (.remote (dev : Thread nD τ) dst (SemLoc.dma sS) hsc) (SemLoc.dma sR) hsrc hdst hsem) k) Q) := by
  subst dev
  have hd₁ : (0 : Fin 5) ∈ (Rd vo vm vl vg kin vin m).duties ((c : Thread nD τ), .dma sS) 0 := by
    rw [duties_dma vo vm vl vg kin vin m c sS hqS]; exact Finset.mem_singleton_self _
  have hd₂ : (0 : Fin 5) ∈ (Rd vo vm vl vg kin vin m).duties ((n : Thread nD τ), .dma sR) 0 := by
    rw [duties_dma vo vm vl vg kin vin m n sR hqR]; exact Finset.mem_singleton_self _
  have hk₁ : (Rd vo vm vl vg kin vin m).amount ((c : Thread nD τ), .dma sS) 0 0 = N := by rw [amount_dma, hNS]
  have hk₂ : (Rd vo vm vl vg kin vin m).amount ((n : Thread nD τ), .dma sR) 0 0 = N := by rw [amount_dma, hNR]
  unfold holds owned
  iintro ⟨HI1, HI2, Hs, Hd, HO, Ht1, Hr1, Ht2, Hr2⟩ Hk
  icases Hs with ⟨%fs, Hs, %hfs⟩
  icases Hd with ⟨%fd, Hd⟩
  have hpay₁ : (src.view.loc (c : Thread nD τ) ↦[src.view.set]{fullShare} fs : sProp 𝕄)
      ⊢ (Rd vo vm vl vg kin vin m).payload ((c : Thread nD τ), .dma sS) 0 0 := by
    rw [payload_dma, hpS]; unfold holds
    iintro H; iexists fs
    isplitl [H]; · iexact H
    ipureintro; exact hfs
  have hpay₂ : (dst.view.loc (n : Thread nD τ) ↦[dst.view.set]{fullShare} (dst.view.write (Elt F) fd (src.view.read (Elt F) fs) Finset.univ) : sProp 𝕄)
      ⊢ (Rd vo vm vl vg kin vin m).payload ((n : Thread nD τ), .dma sR) 0 0 := by
    rw [payload_dma, hpR]; unfold holds
    iintro H; iexists (dst.view.write (Elt F) fd (src.view.read (Elt F) fs) Finset.univ)
    isplitl [H]; · iexact H
    ipureintro; rw [View.read_write_univ]; exact hfs
  iapply (Rounds.wp_send_pointsTo (defs := defs) (Q := Q) (k := k) 𝒱 ER (Rd vo vm vl vg kin vin m) (c : Thread nD τ) bd
      (c' := (n : Thread nD τ)) (src := src) (dst := dst) (sS := SemLoc.dma sS) (sem := SemLoc.dma sR) (q := fullShare) (fs := fs) (fd := fd)
      (r₁ := 0) (r₂ := 0) (d₁ := 0) (d₂ := 0) (κ₁ := κ₁) (κ₂ := κ₂) (W := W) (Es := Es)
      hd₁ hd₂ () () N hN hk₁ hk₂ O hO hpay₁ hpay₂ hr) $$ [HI1 HI2 Hs Hd HO Ht1 Hr1 Ht2 Hr2]
  · isplitl [HI1]; · iexact HI1
    isplitl [HI2]; · iexact HI2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iexact Hk

/-! ### The credits of the transfers: one per buffer kind and one per exchange, wherever the slot or the rows sit -/

omit [FloatOps F] in
theorem oSlot_credit (j : Fin 4) : (oSlot j).view.dmaCredit = Nring 0 := by
  show (oSlot j).view.dmaCredit = (oSlot 0).view.dmaCredit
  fin_cases j
  · exact credit_squeeze_slice coM Gen.inb_S4x8x16x128_S1x8x16x128_0_0_0_0 Gen.inb_S4x8x16x128_S1x8x16x128_0_0_0_0 Gen.squeezes_S1x8x16x128_S8x16x128 Gen.squeezes_S1x8x16x128_S8x16x128
  · exact credit_squeeze_slice coM Gen.inb_S4x8x16x128_S1x8x16x128_1_0_0_0 Gen.inb_S4x8x16x128_S1x8x16x128_0_0_0_0 Gen.squeezes_S1x8x16x128_S8x16x128 Gen.squeezes_S1x8x16x128_S8x16x128
  · exact credit_squeeze_slice coM Gen.inb_S4x8x16x128_S1x8x16x128_2_0_0_0 Gen.inb_S4x8x16x128_S1x8x16x128_0_0_0_0 Gen.squeezes_S1x8x16x128_S8x16x128 Gen.squeezes_S1x8x16x128_S8x16x128
  · exact credit_squeeze_slice coM Gen.inb_S4x8x16x128_S1x8x16x128_3_0_0_0 Gen.inb_S4x8x16x128_S1x8x16x128_0_0_0_0 Gen.squeezes_S1x8x16x128_S8x16x128 Gen.squeezes_S1x8x16x128_S8x16x128
omit [FloatOps F] in
theorem cSlotM_credit (j : Fin 4) : (cSlot cmM j).view.dmaCredit = Nring 1 := by
  show (cSlot cmM j).view.dmaCredit = (cSlot cmM 0).view.dmaCredit
  fin_cases j
  · exact credit_squeeze_slice cmM Gen.inb_S4x8x16x1_S1x8x16x1_0_0_0_0 Gen.inb_S4x8x16x1_S1x8x16x1_0_0_0_0 Gen.squeezes_S1x8x16x1_S8x16x1 Gen.squeezes_S1x8x16x1_S8x16x1
  · exact credit_squeeze_slice cmM Gen.inb_S4x8x16x1_S1x8x16x1_1_0_0_0 Gen.inb_S4x8x16x1_S1x8x16x1_0_0_0_0 Gen.squeezes_S1x8x16x1_S8x16x1 Gen.squeezes_S1x8x16x1_S8x16x1
  · exact credit_squeeze_slice cmM Gen.inb_S4x8x16x1_S1x8x16x1_2_0_0_0 Gen.inb_S4x8x16x1_S1x8x16x1_0_0_0_0 Gen.squeezes_S1x8x16x1_S8x16x1 Gen.squeezes_S1x8x16x1_S8x16x1
  · exact credit_squeeze_slice cmM Gen.inb_S4x8x16x1_S1x8x16x1_3_0_0_0 Gen.inb_S4x8x16x1_S1x8x16x1_0_0_0_0 Gen.squeezes_S1x8x16x1_S8x16x1 Gen.squeezes_S1x8x16x1_S8x16x1
omit [FloatOps F] in
theorem cSlotL_credit (j : Fin 4) : (cSlot clM j).view.dmaCredit = Nring 2 := by
  show (cSlot clM j).view.dmaCredit = (cSlot clM 0).view.dmaCredit
  fin_cases j
  · exact credit_squeeze_slice clM Gen.inb_S4x8x16x1_S1x8x16x1_0_0_0_0 Gen.inb_S4x8x16x1_S1x8x16x1_0_0_0_0 Gen.squeezes_S1x8x16x1_S8x16x1 Gen.squeezes_S1x8x16x1_S8x16x1
  · exact credit_squeeze_slice clM Gen.inb_S4x8x16x1_S1x8x16x1_1_0_0_0 Gen.inb_S4x8x16x1_S1x8x16x1_0_0_0_0 Gen.squeezes_S1x8x16x1_S8x16x1 Gen.squeezes_S1x8x16x1_S8x16x1
  · exact credit_squeeze_slice clM Gen.inb_S4x8x16x1_S1x8x16x1_2_0_0_0 Gen.inb_S4x8x16x1_S1x8x16x1_0_0_0_0 Gen.squeezes_S1x8x16x1_S8x16x1 Gen.squeezes_S1x8x16x1_S8x16x1
  · exact credit_squeeze_slice clM Gen.inb_S4x8x16x1_S1x8x16x1_3_0_0_0 Gen.inb_S4x8x16x1_S1x8x16x1_0_0_0_0 Gen.squeezes_S1x8x16x1_S8x16x1 Gen.squeezes_S1x8x16x1_S8x16x1
omit [FloatOps F] in
theorem row1_credit (c d : Dev nD) : (row1 c).view.dmaCredit = Nrows d 0 := by
  show (row1 c).view.dmaCredit = (row1 d).view.dmaCredit
  exact credit_slice outM (Gen.k0_off19_inb c) (Gen.k0_off19_inb d)
omit [FloatOps F] in
theorem row2_credit (c d : Dev nD) : (row2 c).view.dmaCredit = Nrows d 1 := by
  show (row2 c).view.dmaCredit = (row2 d).view.dmaCredit
  exact credit_slice outM (Gen.k0_off20_inb c) (Gen.k0_off20_inb d)
omit [FloatOps F] in
theorem row4_credit (c d : Dev nD) : (row4 c).view.dmaCredit = Nrows d 2 := by
  show (row4 c).view.dmaCredit = (row4 d).view.dmaCredit
  exact credit_slice outM (Gen.k0_off21_inb c) (Gen.k0_off21_inb d)

/-! ### The ring's steps, per buffer kind, at any hop -/

omit [FloatOps F] in
theorem kind_rsend_ne (b h : Fin 3) : kindOf (sem3 (sendArr b) h) ≠ Kind.other := by rw [kind_rsend]; exact fun e => Kind.noConfusion e
omit [FloatOps F] in
theorem kind_rrecv_ne (b h : Fin 3) : kindOf (sem3 (recvArr b) h) ≠ Kind.other := by rw [kind_rrecv]; exact fun e => Kind.noConfusion e
omit [FloatOps F] in
theorem kind_gsend_ne (st : Fin 3) : kindOf (sem3 cc0_scratch12 st) ≠ Kind.other := by rw [kind_gsend]; exact fun e => Kind.noConfusion e
omit [FloatOps F] in
theorem kind_grecv_ne (st : Fin 3) : kindOf (sem3 cc0_scratch13 st) ≠ Kind.other := by rw [kind_grecv]; exact fun e => Kind.noConfusion e

/-- The ring transfer of the partial sums at hop `h`: slot `h` of the device into slot `h + 1` of the next device along z. -/
theorem ring_send_o {α : Type} {Q : α → sProp 𝕄} (c : Dev nD) (h : Fin 3) (bd : Option 𝒱.V) {dev : Dev nD} (hdev : dev = zr c)
    {hsc : (oSlot h.succ).view.ref.isScScratch = false} {hsrc : (oSlot h.castSucc).view.WordExact} {hdst : (oSlot h.succ).view.WordExact}
    {hsem : DmaTarget.Typed .vmem (SemLoc.dma (sem3 (recvArr 0) h)) (.remote (dev : Thread nD τ) (oSlot h.succ) (SemLoc.dma (sem3 (sendArr 0) h)) hsc)}
    {k : PUnit → Prog (TpuEff nD τ sig (Elt F) Λ (c : Thread nD τ).2) α} {κ₁ κ₂ : ℕ}
    {O₀ : CellTallies nD τ sig Unit} (O : CellTallies nD τ sig Unit) (hO : O₀ = O + tallyAt (rrecvCell (zr c) 0 h) () (Nring 0))
    {W : Waits sig Unit} {Es : Set ℕ} (hr : τ.routes (c : Thread nD τ) (zr c : Thread nD τ) = true) :
    iprop(cellInv ER (Rd vo vm vl vg kin vin m) κ₁ (rsendCell c 0 h) ∗ cellInv ER (Rd vo vm vl vg kin vin m) κ₂ (rrecvCell (zr c) 0 h)
        ∗ slotHolds vo vm vl c 0 h.castSucc ∗ slotOwned (F := F) (zr c) 0 h.succ ∗ owes (c : Thread nD τ) O₀ W
        ∗ dutyTok ER (rsendCell c 0 h) 0 0 ∗ reached ER (rsendCell c 0 h) 0
        ∗ dutyTok ER (rrecvCell (zr c) 0 h) 0 0 ∗ reached ER (rrecvCell (zr c) 0 h) 0)
      ⊢ iprop(((cred (tallyAt (rsendCell c 0 h) () (Nring 0)) ∗ owes (c : Thread nD τ) O W)
            -∗ wp frame (wpE defs 𝒱 (c : Thread nD τ) bd) Es (k ⟨⟩) Q)
          -∗ wp frame (wpE defs 𝒱 (c : Thread nD τ) bd) Es
              (.op (.enqueueDma (oSlot h.castSucc) (.remote (dev : Thread nD τ) (oSlot h.succ) (SemLoc.dma (sem3 (sendArr 0) h)) hsc)
                (SemLoc.dma (sem3 (recvArr 0) h)) hsrc hdst hsem) k) Q) := by
  have hN : (oSlot h.succ).view.dmaCredit = Nring 0 := oSlot_credit h.succ
  have hNS : dmaAmt c (kindOf (sem3 (sendArr 0) h)) = Nring 0 := by rw [kind_rsend]; rfl
  have hNR : dmaAmt (zr c) (kindOf (sem3 (recvArr 0) h)) = Nring 0 := by rw [kind_rrecv]; rfl
  have hpS : dmaPay vo vm vl vg kin vin m c (kindOf (sem3 (sendArr 0) h)) = holds c (oSlot h.castSucc) (vo (back h.val c)) := by
    rw [kind_rsend]; rfl
  have hpR : dmaPay vo vm vl vg kin vin m (zr c) (kindOf (sem3 (recvArr 0) h)) = holds (zr c) (oSlot h.succ) (vo (back h.val c)) := by
    rw [kind_rrecv]
    show holds (zr c) (oSlot h.succ) (vo (back h.val (zl (zr c)))) = _
    rw [zl_zr]
  exact send_step vo vm vl vg kin vin m 𝒱 c (zr c) (oSlot h.castSucc) (oSlot h.succ) (sem3 (sendArr 0) h) (sem3 (recvArr 0) h)
    (vo (back h.val c)) (Nring 0) (kind_rsend_ne 0 h) (kind_rrecv_ne 0 h) hN hNS hNR hpS hpR bd hdev O hO hr

/-- The ring transfer of the row maxima at hop `h`: slot `h` of the device into slot `h + 1` of the next device along z. -/
theorem ring_send_m {α : Type} {Q : α → sProp 𝕄} (c : Dev nD) (h : Fin 3) (bd : Option 𝒱.V) {dev : Dev nD} (hdev : dev = zr c)
    {hsc : (cSlot cmM h.succ).view.ref.isScScratch = false} {hsrc : (cSlot cmM h.castSucc).view.WordExact} {hdst : (cSlot cmM h.succ).view.WordExact}
    {hsem : DmaTarget.Typed .vmem (SemLoc.dma (sem3 (recvArr 1) h)) (.remote (dev : Thread nD τ) (cSlot cmM h.succ) (SemLoc.dma (sem3 (sendArr 1) h)) hsc)}
    {k : PUnit → Prog (TpuEff nD τ sig (Elt F) Λ (c : Thread nD τ).2) α} {κ₁ κ₂ : ℕ}
    {O₀ : CellTallies nD τ sig Unit} (O : CellTallies nD τ sig Unit) (hO : O₀ = O + tallyAt (rrecvCell (zr c) 1 h) () (Nring 1))
    {W : Waits sig Unit} {Es : Set ℕ} (hr : τ.routes (c : Thread nD τ) (zr c : Thread nD τ) = true) :
    iprop(cellInv ER (Rd vo vm vl vg kin vin m) κ₁ (rsendCell c 1 h) ∗ cellInv ER (Rd vo vm vl vg kin vin m) κ₂ (rrecvCell (zr c) 1 h)
        ∗ slotHolds vo vm vl c 1 h.castSucc ∗ slotOwned (F := F) (zr c) 1 h.succ ∗ owes (c : Thread nD τ) O₀ W
        ∗ dutyTok ER (rsendCell c 1 h) 0 0 ∗ reached ER (rsendCell c 1 h) 0
        ∗ dutyTok ER (rrecvCell (zr c) 1 h) 0 0 ∗ reached ER (rrecvCell (zr c) 1 h) 0)
      ⊢ iprop(((cred (tallyAt (rsendCell c 1 h) () (Nring 1)) ∗ owes (c : Thread nD τ) O W)
            -∗ wp frame (wpE defs 𝒱 (c : Thread nD τ) bd) Es (k ⟨⟩) Q)
          -∗ wp frame (wpE defs 𝒱 (c : Thread nD τ) bd) Es
              (.op (.enqueueDma (cSlot cmM h.castSucc) (.remote (dev : Thread nD τ) (cSlot cmM h.succ) (SemLoc.dma (sem3 (sendArr 1) h)) hsc)
                (SemLoc.dma (sem3 (recvArr 1) h)) hsrc hdst hsem) k) Q) := by
  have hN : (cSlot cmM h.succ).view.dmaCredit = Nring 1 := cSlotM_credit h.succ
  have hNS : dmaAmt c (kindOf (sem3 (sendArr 1) h)) = Nring 1 := by rw [kind_rsend]; rfl
  have hNR : dmaAmt (zr c) (kindOf (sem3 (recvArr 1) h)) = Nring 1 := by rw [kind_rrecv]; rfl
  have hpS : dmaPay vo vm vl vg kin vin m c (kindOf (sem3 (sendArr 1) h)) = holds c (cSlot cmM h.castSucc) (vm (back h.val c)) := by
    rw [kind_rsend]; rfl
  have hpR : dmaPay vo vm vl vg kin vin m (zr c) (kindOf (sem3 (recvArr 1) h)) = holds (zr c) (cSlot cmM h.succ) (vm (back h.val c)) := by
    rw [kind_rrecv]
    show holds (zr c) (cSlot cmM h.succ) (vm (back h.val (zl (zr c)))) = _
    rw [zl_zr]
  exact send_step vo vm vl vg kin vin m 𝒱 c (zr c) (cSlot cmM h.castSucc) (cSlot cmM h.succ) (sem3 (sendArr 1) h) (sem3 (recvArr 1) h)
    (vm (back h.val c)) (Nring 1) (kind_rsend_ne 1 h) (kind_rrecv_ne 1 h) hN hNS hNR hpS hpR bd hdev O hO hr

/-- The ring transfer of the row sums at hop `h`: slot `h` of the device into slot `h + 1` of the next device along z. -/
theorem ring_send_l {α : Type} {Q : α → sProp 𝕄} (c : Dev nD) (h : Fin 3) (bd : Option 𝒱.V) {dev : Dev nD} (hdev : dev = zr c)
    {hsc : (cSlot clM h.succ).view.ref.isScScratch = false} {hsrc : (cSlot clM h.castSucc).view.WordExact} {hdst : (cSlot clM h.succ).view.WordExact}
    {hsem : DmaTarget.Typed .vmem (SemLoc.dma (sem3 (recvArr 2) h)) (.remote (dev : Thread nD τ) (cSlot clM h.succ) (SemLoc.dma (sem3 (sendArr 2) h)) hsc)}
    {k : PUnit → Prog (TpuEff nD τ sig (Elt F) Λ (c : Thread nD τ).2) α} {κ₁ κ₂ : ℕ}
    {O₀ : CellTallies nD τ sig Unit} (O : CellTallies nD τ sig Unit) (hO : O₀ = O + tallyAt (rrecvCell (zr c) 2 h) () (Nring 2))
    {W : Waits sig Unit} {Es : Set ℕ} (hr : τ.routes (c : Thread nD τ) (zr c : Thread nD τ) = true) :
    iprop(cellInv ER (Rd vo vm vl vg kin vin m) κ₁ (rsendCell c 2 h) ∗ cellInv ER (Rd vo vm vl vg kin vin m) κ₂ (rrecvCell (zr c) 2 h)
        ∗ slotHolds vo vm vl c 2 h.castSucc ∗ slotOwned (F := F) (zr c) 2 h.succ ∗ owes (c : Thread nD τ) O₀ W
        ∗ dutyTok ER (rsendCell c 2 h) 0 0 ∗ reached ER (rsendCell c 2 h) 0
        ∗ dutyTok ER (rrecvCell (zr c) 2 h) 0 0 ∗ reached ER (rrecvCell (zr c) 2 h) 0)
      ⊢ iprop(((cred (tallyAt (rsendCell c 2 h) () (Nring 2)) ∗ owes (c : Thread nD τ) O W)
            -∗ wp frame (wpE defs 𝒱 (c : Thread nD τ) bd) Es (k ⟨⟩) Q)
          -∗ wp frame (wpE defs 𝒱 (c : Thread nD τ) bd) Es
              (.op (.enqueueDma (cSlot clM h.castSucc) (.remote (dev : Thread nD τ) (cSlot clM h.succ) (SemLoc.dma (sem3 (sendArr 2) h)) hsc)
                (SemLoc.dma (sem3 (recvArr 2) h)) hsrc hdst hsem) k) Q) := by
  have hN : (cSlot clM h.succ).view.dmaCredit = Nring 2 := cSlotL_credit h.succ
  have hNS : dmaAmt c (kindOf (sem3 (sendArr 2) h)) = Nring 2 := by rw [kind_rsend]; rfl
  have hNR : dmaAmt (zr c) (kindOf (sem3 (recvArr 2) h)) = Nring 2 := by rw [kind_rrecv]; rfl
  have hpS : dmaPay vo vm vl vg kin vin m c (kindOf (sem3 (sendArr 2) h)) = holds c (cSlot clM h.castSucc) (vl (back h.val c)) := by
    rw [kind_rsend]; rfl
  have hpR : dmaPay vo vm vl vg kin vin m (zr c) (kindOf (sem3 (recvArr 2) h)) = holds (zr c) (cSlot clM h.succ) (vl (back h.val c)) := by
    rw [kind_rrecv]
    show holds (zr c) (cSlot clM h.succ) (vl (back h.val (zl (zr c)))) = _
    rw [zl_zr]
  exact send_step vo vm vl vg kin vin m 𝒱 c (zr c) (cSlot clM h.castSucc) (cSlot clM h.succ) (sem3 (sendArr 2) h) (sem3 (recvArr 2) h)
    (vl (back h.val c)) (Nring 2) (kind_rsend_ne 2 h) (kind_rrecv_ne 2 h) hN hNS hNR hpS hpR bd hdev O hO hr

/-- The wait on the ring's send cell of `(b, h)`: the source slot comes back. -/
theorem ring_swait {α : Type} {Q : α → sProp 𝕄} (c : Dev nD) (b h : Fin 3) (bd : Option 𝒱.V)
    {sp' : Space} {s' S : Shape} {e' : EltTy} {src : Memref sig (c : Thread nD τ).2.kind sp' s' e'} {dst : Memref sig .tc .vmem S .f32}
    (hN : dst.view.dmaCredit = Nring b) {hsrc : src.view.WordExact} {hdst : dst.view.WordExact}
    {k : PUnit → Prog (TpuEff nD τ sig (Elt F) Λ (c : Thread nD τ).2) α} {κ : ℕ}
    {O : CellTallies nD τ sig Unit} {W : Waits sig Unit} {Es : Set ℕ} (hE : κ ∈ Es) :
    iprop(cellInv ER (Rd vo vm vl vg kin vin m) κ (rsendCell c b h) ∗ cred (tallyAt (rsendCell c b h) () (Nring b))
        ∗ owes (c : Thread nD τ) O W ∗ MayWait (c : Thread nD τ) (.dma (sem3 (sendArr b) h)) () O ∗ atPos ER (rsendCell c b h) 0 ∅ 0)
      ⊢ iprop(((owes (c : Thread nD τ) O (insert (SemLoc.dma (sem3 (sendArr b) h), ()) W)
              ∗ atPos ER (rsendCell c b h) (0 + 1) ∅ 0 ∗ reached ER (rsendCell c b h) (0 + 1)
              ∗ slotHolds vo vm vl c b h.castSucc)
            -∗ wp frame (wpE defs 𝒱 (c : Thread nD τ) bd) Es (k ⟨⟩) Q)
          -∗ wp frame (wpE defs 𝒱 (c : Thread nD τ) bd) Es (.op (.waitDma2 (sem3 (sendArr b) h) src dst hsrc hdst) k) Q) := by
  have hA : dmaAmt c (kindOf (sem3 (sendArr b) h)) = Nring b := by rw [kind_rsend]; rfl
  have hP : dmaPay vo vm vl vg kin vin m c (kindOf (sem3 (sendArr b) h)) = slotHolds vo vm vl c b h.castSucc := by rw [kind_rsend]; rfl
  have hrule := own_wait vo vm vl vg kin vin m 𝒱 (defs := defs) (Q := Q) (k := k) (κ := κ) (O := O) (W := W) c (sem3 (sendArr b) h) (kind_rsend_ne b h) bd
    (src := src) (dst := dst) (hsrc := hsrc) (hdst := hdst) (hN.trans hA.symm) hE
  rw [hA, hP] at hrule
  exact hrule

/-- The wait on the ring's receive cell of `(b, h)`: slot `h + 1` comes back holding what the previous device's slot `h` held. -/
theorem ring_rwait {α : Type} {Q : α → sProp 𝕄} (c : Dev nD) (b h : Fin 3) (bd : Option 𝒱.V)
    {sp' : Space} {s' S : Shape} {e' : EltTy} {src : Memref sig (c : Thread nD τ).2.kind sp' s' e'} {dst : Memref sig .tc .vmem S .f32}
    (hN : dst.view.dmaCredit = Nring b) {hsrc : src.view.WordExact} {hdst : dst.view.WordExact}
    {k : PUnit → Prog (TpuEff nD τ sig (Elt F) Λ (c : Thread nD τ).2) α} {κ : ℕ}
    {O : CellTallies nD τ sig Unit} {W : Waits sig Unit} {Es : Set ℕ} (hE : κ ∈ Es) :
    iprop(cellInv ER (Rd vo vm vl vg kin vin m) κ (rrecvCell c b h) ∗ cred (tallyAt (rrecvCell c b h) () (Nring b))
        ∗ owes (c : Thread nD τ) O W ∗ MayWait (c : Thread nD τ) (.dma (sem3 (recvArr b) h)) () O ∗ atPos ER (rrecvCell c b h) 0 ∅ 0)
      ⊢ iprop(((owes (c : Thread nD τ) O (insert (SemLoc.dma (sem3 (recvArr b) h), ()) W)
              ∗ atPos ER (rrecvCell c b h) (0 + 1) ∅ 0 ∗ reached ER (rrecvCell c b h) (0 + 1)
              ∗ slotHolds vo vm vl c b h.succ)
            -∗ wp frame (wpE defs 𝒱 (c : Thread nD τ) bd) Es (k ⟨⟩) Q)
          -∗ wp frame (wpE defs 𝒱 (c : Thread nD τ) bd) Es (.op (.waitDma2 (sem3 (recvArr b) h) src dst hsrc hdst) k) Q) := by
  have hA : dmaAmt c (kindOf (sem3 (recvArr b) h)) = Nring b := by rw [kind_rrecv]; rfl
  have hP : dmaPay vo vm vl vg kin vin m c (kindOf (sem3 (recvArr b) h)) = slotHolds vo vm vl c b h.succ := by rw [kind_rrecv]; rfl
  have hrule := own_wait vo vm vl vg kin vin m 𝒱 (defs := defs) (Q := Q) (k := k) (κ := κ) (O := O) (W := W) c (sem3 (recvArr b) h) (kind_rrecv_ne b h) bd
    (src := src) (dst := dst) (hsrc := hsrc) (hdst := hdst) (hN.trans hA.symm) hE
  rw [hA, hP] at hrule
  exact hrule

/-! ### The exchanges' steps, stage by stage -/

/-- The transfer of exchange 0: the device's row into the same rows of its partner's result staging buffer. -/
theorem gath_send_0 {α : Type} {Q : α → sProp 𝕄} (c : Dev nD) (bd : Option 𝒱.V) {dev : Dev nD} (hdev : dev = p0 c)
    {hsc : (row1 c).view.ref.isScScratch = false} {hsrc : (row1 c).view.WordExact} {hdst : (row1 c).view.WordExact}
    {hsem : DmaTarget.Typed .vmem (SemLoc.dma (sem3 cc0_scratch13 0)) (.remote (dev : Thread nD τ) (row1 c) (SemLoc.dma (sem3 cc0_scratch12 0)) hsc)}
    {k : PUnit → Prog (TpuEff nD τ sig (Elt F) Λ (c : Thread nD τ).2) α} {κ₁ κ₂ : ℕ}
    {O₀ : CellTallies nD τ sig Unit} (O : CellTallies nD τ sig Unit) (hO : O₀ = O + tallyAt (grecvCell (p0 c) 0) () (Nrows c 0))
    {W : Waits sig Unit} {Es : Set ℕ} (hr : τ.routes (c : Thread nD τ) (p0 c : Thread nD τ) = true) :
    iprop(cellInv ER (Rd vo vm vl vg kin vin m) κ₁ (gsendCell c 0) ∗ cellInv ER (Rd vo vm vl vg kin vin m) κ₂ (grecvCell (p0 c) 0)
        ∗ rowsHold vg c c 0 ∗ rowsOwned (F := F) (p0 c) c 0 ∗ owes (c : Thread nD τ) O₀ W
        ∗ dutyTok ER (gsendCell c 0) 0 0 ∗ reached ER (gsendCell c 0) 0
        ∗ dutyTok ER (grecvCell (p0 c) 0) 0 0 ∗ reached ER (grecvCell (p0 c) 0) 0)
      ⊢ iprop(((cred (tallyAt (gsendCell c 0) () (Nrows c 0)) ∗ owes (c : Thread nD τ) O W)
            -∗ wp frame (wpE defs 𝒱 (c : Thread nD τ) bd) Es (k ⟨⟩) Q)
          -∗ wp frame (wpE defs 𝒱 (c : Thread nD τ) bd) Es
              (.op (.enqueueDma (row1 c) (.remote (dev : Thread nD τ) (row1 c) (SemLoc.dma (sem3 cc0_scratch12 0)) hsc)
                (SemLoc.dma (sem3 cc0_scratch13 0)) hsrc hdst hsem) k) Q) := by
  have hNR : dmaAmt (p0 c) (kindOf (sem3 cc0_scratch13 0)) = Nrows c 0 := by
    rw [kind_grecv]
    show Nrows (p0 (p0 c)) 0 = _
    rw [p0_p0]
  have hpS : dmaPay vo vm vl vg kin vin m c (kindOf (sem3 cc0_scratch12 0)) = holds c (row1 c) ((row1 c).view.read (Elt F) (vg (c.val % 4))) := by
    rw [kind_gsend]; rfl
  have hpR : dmaPay vo vm vl vg kin vin m (p0 c) (kindOf (sem3 cc0_scratch13 0)) = holds (p0 c) (row1 c) ((row1 c).view.read (Elt F) (vg (c.val % 4))) := by
    rw [kind_grecv]
    show holds (p0 c) (row1 (p0 (p0 c))) ((row1 (p0 (p0 c))).view.read (Elt F) (vg ((p0 c).val % 4))) = _
    rw [p0_p0, z_p0]
  exact send_step vo vm vl vg kin vin m 𝒱 c (p0 c) (row1 c) (row1 c) (sem3 cc0_scratch12 0) (sem3 cc0_scratch13 0)
    ((row1 c).view.read (Elt F) (vg (c.val % 4))) (Nrows c 0) (kind_gsend_ne 0) (kind_grecv_ne 0) (row1_credit c c) (by rw [kind_gsend]; rfl) hNR hpS hpR bd hdev O hO hr

/-- The transfer of exchange 1: the device's pair of rows into the same rows of its partner's result staging buffer. -/
theorem gath_send_1 {α : Type} {Q : α → sProp 𝕄} (c : Dev nD) (bd : Option 𝒱.V) {dev : Dev nD} (hdev : dev = p1 c)
    {hsc : (row2 c).view.ref.isScScratch = false} {hsrc : (row2 c).view.WordExact} {hdst : (row2 c).view.WordExact}
    {hsem : DmaTarget.Typed .vmem (SemLoc.dma (sem3 cc0_scratch13 1)) (.remote (dev : Thread nD τ) (row2 c) (SemLoc.dma (sem3 cc0_scratch12 1)) hsc)}
    {k : PUnit → Prog (TpuEff nD τ sig (Elt F) Λ (c : Thread nD τ).2) α} {κ₁ κ₂ : ℕ}
    {O₀ : CellTallies nD τ sig Unit} (O : CellTallies nD τ sig Unit) (hO : O₀ = O + tallyAt (grecvCell (p1 c) 1) () (Nrows c 1))
    {W : Waits sig Unit} {Es : Set ℕ} (hr : τ.routes (c : Thread nD τ) (p1 c : Thread nD τ) = true) :
    iprop(cellInv ER (Rd vo vm vl vg kin vin m) κ₁ (gsendCell c 1) ∗ cellInv ER (Rd vo vm vl vg kin vin m) κ₂ (grecvCell (p1 c) 1)
        ∗ rowsHold vg c c 1 ∗ rowsOwned (F := F) (p1 c) c 1 ∗ owes (c : Thread nD τ) O₀ W
        ∗ dutyTok ER (gsendCell c 1) 0 0 ∗ reached ER (gsendCell c 1) 0
        ∗ dutyTok ER (grecvCell (p1 c) 1) 0 0 ∗ reached ER (grecvCell (p1 c) 1) 0)
      ⊢ iprop(((cred (tallyAt (gsendCell c 1) () (Nrows c 1)) ∗ owes (c : Thread nD τ) O W)
            -∗ wp frame (wpE defs 𝒱 (c : Thread nD τ) bd) Es (k ⟨⟩) Q)
          -∗ wp frame (wpE defs 𝒱 (c : Thread nD τ) bd) Es
              (.op (.enqueueDma (row2 c) (.remote (dev : Thread nD τ) (row2 c) (SemLoc.dma (sem3 cc0_scratch12 1)) hsc)
                (SemLoc.dma (sem3 cc0_scratch13 1)) hsrc hdst hsem) k) Q) := by
  have hNR : dmaAmt (p1 c) (kindOf (sem3 cc0_scratch13 1)) = Nrows c 1 := by
    rw [kind_grecv]
    show Nrows (p1 (p1 c)) 1 = _
    rw [p1_p1]
  have hpS : dmaPay vo vm vl vg kin vin m c (kindOf (sem3 cc0_scratch12 1)) = holds c (row2 c) ((row2 c).view.read (Elt F) (vg (c.val % 4))) := by
    rw [kind_gsend]; rfl
  have hpR : dmaPay vo vm vl vg kin vin m (p1 c) (kindOf (sem3 cc0_scratch13 1)) = holds (p1 c) (row2 c) ((row2 c).view.read (Elt F) (vg (c.val % 4))) := by
    rw [kind_grecv]
    show holds (p1 c) (row2 (p1 (p1 c))) ((row2 (p1 (p1 c))).view.read (Elt F) (vg ((p1 c).val % 4))) = _
    rw [p1_p1, z_p1]
  exact send_step vo vm vl vg kin vin m 𝒱 c (p1 c) (row2 c) (row2 c) (sem3 cc0_scratch12 1) (sem3 cc0_scratch13 1)
    ((row2 c).view.read (Elt F) (vg (c.val % 4))) (Nrows c 1) (kind_gsend_ne 1) (kind_grecv_ne 1) (row2_credit c c) (by rw [kind_gsend]; rfl) hNR hpS hpR bd hdev O hO hr

/-- The transfer of exchange 2: the device's quadruple of rows into the same rows of its partner's result staging buffer. -/
theorem gath_send_2 {α : Type} {Q : α → sProp 𝕄} (c : Dev nD) (bd : Option 𝒱.V) {dev : Dev nD} (hdev : dev = p2 c)
    {hsc : (row4 c).view.ref.isScScratch = false} {hsrc : (row4 c).view.WordExact} {hdst : (row4 c).view.WordExact}
    {hsem : DmaTarget.Typed .vmem (SemLoc.dma (sem3 cc0_scratch13 2)) (.remote (dev : Thread nD τ) (row4 c) (SemLoc.dma (sem3 cc0_scratch12 2)) hsc)}
    {k : PUnit → Prog (TpuEff nD τ sig (Elt F) Λ (c : Thread nD τ).2) α} {κ₁ κ₂ : ℕ}
    {O₀ : CellTallies nD τ sig Unit} (O : CellTallies nD τ sig Unit) (hO : O₀ = O + tallyAt (grecvCell (p2 c) 2) () (Nrows c 2))
    {W : Waits sig Unit} {Es : Set ℕ} (hr : τ.routes (c : Thread nD τ) (p2 c : Thread nD τ) = true) :
    iprop(cellInv ER (Rd vo vm vl vg kin vin m) κ₁ (gsendCell c 2) ∗ cellInv ER (Rd vo vm vl vg kin vin m) κ₂ (grecvCell (p2 c) 2)
        ∗ rowsHold vg c c 2 ∗ rowsOwned (F := F) (p2 c) c 2 ∗ owes (c : Thread nD τ) O₀ W
        ∗ dutyTok ER (gsendCell c 2) 0 0 ∗ reached ER (gsendCell c 2) 0
        ∗ dutyTok ER (grecvCell (p2 c) 2) 0 0 ∗ reached ER (grecvCell (p2 c) 2) 0)
      ⊢ iprop(((cred (tallyAt (gsendCell c 2) () (Nrows c 2)) ∗ owes (c : Thread nD τ) O W)
            -∗ wp frame (wpE defs 𝒱 (c : Thread nD τ) bd) Es (k ⟨⟩) Q)
          -∗ wp frame (wpE defs 𝒱 (c : Thread nD τ) bd) Es
              (.op (.enqueueDma (row4 c) (.remote (dev : Thread nD τ) (row4 c) (SemLoc.dma (sem3 cc0_scratch12 2)) hsc)
                (SemLoc.dma (sem3 cc0_scratch13 2)) hsrc hdst hsem) k) Q) := by
  have hNR : dmaAmt (p2 c) (kindOf (sem3 cc0_scratch13 2)) = Nrows c 2 := by
    rw [kind_grecv]
    show Nrows (p2 (p2 c)) 2 = _
    rw [p2_p2]
  have hpS : dmaPay vo vm vl vg kin vin m c (kindOf (sem3 cc0_scratch12 2)) = holds c (row4 c) ((row4 c).view.read (Elt F) (vg (c.val % 4))) := by
    rw [kind_gsend]; rfl
  have hpR : dmaPay vo vm vl vg kin vin m (p2 c) (kindOf (sem3 cc0_scratch13 2)) = holds (p2 c) (row4 c) ((row4 c).view.read (Elt F) (vg (c.val % 4))) := by
    rw [kind_grecv]
    show holds (p2 c) (row4 (p2 (p2 c))) ((row4 (p2 (p2 c))).view.read (Elt F) (vg ((p2 c).val % 4))) = _
    rw [p2_p2, z_p2]
  exact send_step vo vm vl vg kin vin m 𝒱 c (p2 c) (row4 c) (row4 c) (sem3 cc0_scratch12 2) (sem3 cc0_scratch13 2)
    ((row4 c).view.read (Elt F) (vg (c.val % 4))) (Nrows c 2) (kind_gsend_ne 2) (kind_grecv_ne 2) (row4_credit c c) (by rw [kind_gsend]; rfl) hNR hpS hpR bd hdev O hO hr

/-- The wait on the send cell of exchange `st`: the rows sent come back. -/
theorem gath_swait {α : Type} {Q : α → sProp 𝕄} (c : Dev nD) (st : Fin 3) (bd : Option 𝒱.V)
    {sp' : Space} {s' S : Shape} {e' : EltTy} {src : Memref sig (c : Thread nD τ).2.kind sp' s' e'} {dst : Memref sig .tc .vmem S .f32}
    (hN : dst.view.dmaCredit = Nrows c st) {hsrc : src.view.WordExact} {hdst : dst.view.WordExact}
    {k : PUnit → Prog (TpuEff nD τ sig (Elt F) Λ (c : Thread nD τ).2) α} {κ : ℕ}
    {O : CellTallies nD τ sig Unit} {W : Waits sig Unit} {Es : Set ℕ} (hE : κ ∈ Es) :
    iprop(cellInv ER (Rd vo vm vl vg kin vin m) κ (gsendCell c st) ∗ cred (tallyAt (gsendCell c st) () (Nrows c st))
        ∗ owes (c : Thread nD τ) O W ∗ MayWait (c : Thread nD τ) (.dma (sem3 cc0_scratch12 st)) () O ∗ atPos ER (gsendCell c st) 0 ∅ 0)
      ⊢ iprop(((owes (c : Thread nD τ) O (insert (SemLoc.dma (sem3 cc0_scratch12 st), ()) W)
              ∗ atPos ER (gsendCell c st) (0 + 1) ∅ 0 ∗ reached ER (gsendCell c st) (0 + 1)
              ∗ rowsHold vg c c st)
            -∗ wp frame (wpE defs 𝒱 (c : Thread nD τ) bd) Es (k ⟨⟩) Q)
          -∗ wp frame (wpE defs 𝒱 (c : Thread nD τ) bd) Es (.op (.waitDma2 (sem3 cc0_scratch12 st) src dst hsrc hdst) k) Q) := by
  have hA : dmaAmt c (kindOf (sem3 cc0_scratch12 st)) = Nrows c st := by rw [kind_gsend]; rfl
  have hP : dmaPay vo vm vl vg kin vin m c (kindOf (sem3 cc0_scratch12 st)) = rowsHold vg c c st := by rw [kind_gsend]; rfl
  have hrule := own_wait vo vm vl vg kin vin m 𝒱 (defs := defs) (Q := Q) (k := k) (κ := κ) (O := O) (W := W) c (sem3 cc0_scratch12 st) (kind_gsend_ne st) bd
    (src := src) (dst := dst) (hsrc := hsrc) (hdst := hdst) (hN.trans hA.symm) hE
  rw [hA, hP] at hrule
  exact hrule

/-- The wait on the receive cell of exchange `st`: the partner's rows have landed in the device's own result staging buffer. -/
theorem gath_rwait {α : Type} {Q : α → sProp 𝕄} (c : Dev nD) (st : Fin 3) (bd : Option 𝒱.V)
    {sp' : Space} {s' S : Shape} {e' : EltTy} {src : Memref sig (c : Thread nD τ).2.kind sp' s' e'} {dst : Memref sig .tc .vmem S .f32}
    (hN : dst.view.dmaCredit = Nrows (partner st c) st) {hsrc : src.view.WordExact} {hdst : dst.view.WordExact}
    {k : PUnit → Prog (TpuEff nD τ sig (Elt F) Λ (c : Thread nD τ).2) α} {κ : ℕ}
    {O : CellTallies nD τ sig Unit} {W : Waits sig Unit} {Es : Set ℕ} (hE : κ ∈ Es) :
    iprop(cellInv ER (Rd vo vm vl vg kin vin m) κ (grecvCell c st) ∗ cred (tallyAt (grecvCell c st) () (Nrows (partner st c) st))
        ∗ owes (c : Thread nD τ) O W ∗ MayWait (c : Thread nD τ) (.dma (sem3 cc0_scratch13 st)) () O ∗ atPos ER (grecvCell c st) 0 ∅ 0)
      ⊢ iprop(((owes (c : Thread nD τ) O (insert (SemLoc.dma (sem3 cc0_scratch13 st), ()) W)
              ∗ atPos ER (grecvCell c st) (0 + 1) ∅ 0 ∗ reached ER (grecvCell c st) (0 + 1)
              ∗ rowsHold vg c (partner st c) st)
            -∗ wp frame (wpE defs 𝒱 (c : Thread nD τ) bd) Es (k ⟨⟩) Q)
          -∗ wp frame (wpE defs 𝒱 (c : Thread nD τ) bd) Es (.op (.waitDma2 (sem3 cc0_scratch13 st) src dst hsrc hdst) k) Q) := by
  have hA : dmaAmt c (kindOf (sem3 cc0_scratch13 st)) = Nrows (partner st c) st := by rw [kind_grecv]; rfl
  have hP : dmaPay vo vm vl vg kin vin m c (kindOf (sem3 cc0_scratch13 st)) = rowsHold vg c (partner st c) st := by rw [kind_grecv]; rfl
  have hrule := own_wait vo vm vl vg kin vin m 𝒱 (defs := defs) (Q := Q) (k := k) (κ := κ) (O := O) (W := W) c (sem3 cc0_scratch13 st) (kind_grecv_ne st) bd
    (src := src) (dst := dst) (hsrc := hsrc) (hdst := hdst) (hN.trans hA.symm) hE
  rw [hA, hP] at hrule
  exact hrule

end Steps

/-! ### The rows of the result staging buffer, in the vocabulary of the protocol

A view that is owned and reads what it reads of contents `G` is held at `G`; so the joins of the rows are the joins of the
first part of this module, at the gathered result. -/

section Glue

open Cert.Kernel.FD
open Cert.Kernel.Mesh (p0 p1 p2)

variable {F : FTy → Type} [FloatOps F]

local notation "𝕄" => MT nD τ sig Unit (Elt F) ℕ UU ℕ

variable (vg : ℕ → S8x8x16x128.Idx → Elt F .f32)

omit [FloatOps F] in
/-- Owning a view at contents that read, through the view, as `G` does, is holding the view's elements at `G`. -/
theorem holds_read (c : Dev nD) {S : Shape} (M : Memref sig .tc .vmem S .f32) (G : Buf (Elt F) (M.view.loc (c : Thread nD τ))) :
    (holds c M (M.view.read (Elt F) G) : sProp 𝕄) = (M.view.loc (c : Thread nD τ) ↦[M.view.set]{fullShare} G) := by
  unfold holds
  have h₁ : iprop(∃ f : Buf (Elt F) (M.view.loc (c : Thread nD τ)),
        (M.view.loc (c : Thread nD τ) ↦[M.view.set]{fullShare} f) ∗ ⌜M.view.read (Elt F) f = M.view.read (Elt F) G⌝)
      ⊢ (M.view.loc (c : Thread nD τ) ↦[M.view.set]{fullShare} G : sProp 𝕄) := by
    iintro ⟨%f, H, %hf⟩
    have e : (M.view.loc (c : Thread nD τ) ↦[M.view.set]{fullShare} f : sProp 𝕄) = M.view.loc (c : Thread nD τ) ↦[M.view.set]{fullShare} G :=
      pointsTo_congr fun i hi => by
        rw [View.set, Finset.mem_map] at hi
        obtain ⟨x, -, rfl⟩ := hi
        have := congrFun hf x
        simp only [View.read] at this
        exact (cast_inj _).mp this
    rw [← e]; iexact H
  have h₂ : (M.view.loc (c : Thread nD τ) ↦[M.view.set]{fullShare} G : sProp 𝕄)
      ⊢ iprop(∃ f : Buf (Elt F) (M.view.loc (c : Thread nD τ)),
        (M.view.loc (c : Thread nD τ) ↦[M.view.set]{fullShare} f) ∗ ⌜M.view.read (Elt F) f = M.view.read (Elt F) G⌝) := by
    iintro H; iexists G
    isplitl [H]; · iexact H
    ipureintro; rfl
  exact BI.equiv_iff.mp ⟨h₁, h₂⟩

omit [FloatOps F] in
/-- The device's row and its first partner's row, both holding the gathered result's, are the device's pair holding it. -/
theorem rows_join_0 (c : Dev nD) : iprop(rowsHold vg c c 0 ∗ rowsHold vg c (partner 0 c) 0) ⊢ (rowsHold vg c c 1 : sProp 𝕄) := by
  show iprop(holds c (row1 c) ((row1 c).view.read (Elt F) (vg (c.val % 4))) ∗ holds c (row1 (p0 c)) ((row1 (p0 c)).view.read (Elt F) (vg (c.val % 4))))
    ⊢ (holds c (row2 c) ((row2 c).view.read (Elt F) (vg (c.val % 4))) : sProp 𝕄)
  rw [holds_read c (row1 c), holds_read c (row1 (p0 c)), holds_read c (row2 c)]
  exact (Entails.of_eq (out_pair c c outM fullShare (vg (c.val % 4))).symm)

omit [FloatOps F] in
/-- The device's pair and its second partner's pair are the device's quadruple. -/
theorem rows_join_1 (c : Dev nD) : iprop(rowsHold vg c c 1 ∗ rowsHold vg c (partner 1 c) 1) ⊢ (rowsHold vg c c 2 : sProp 𝕄) := by
  show iprop(holds c (row2 c) ((row2 c).view.read (Elt F) (vg (c.val % 4))) ∗ holds c (row2 (p1 c)) ((row2 (p1 c)).view.read (Elt F) (vg (c.val % 4))))
    ⊢ (holds c (row4 c) ((row4 c).view.read (Elt F) (vg (c.val % 4))) : sProp 𝕄)
  rw [holds_read c (row2 c), holds_read c (row2 (p1 c)), holds_read c (row4 c)]
  exact (Entails.of_eq (out_quad c c outM fullShare (vg (c.val % 4))).symm)

omit [FloatOps F] in
/-- The device's quadruple and its third partner's quadruple are the whole result staging buffer, holding the gathered result. -/
theorem rows_join_2 (c : Dev nD) :
    iprop(rowsHold vg c c 2 ∗ rowsHold vg c (partner 2 c) 2) ⊢ (outM.view.loc (c : Thread nD τ) ↦{fullShare} (vg (c.val % 4)) : sProp 𝕄) := by
  show iprop(holds c (row4 c) ((row4 c).view.read (Elt F) (vg (c.val % 4))) ∗ holds c (row4 (p2 c)) ((row4 (p2 c)).view.read (Elt F) (vg (c.val % 4))))
    ⊢ (outM.view.loc (c : Thread nD τ) ↦{fullShare} (vg (c.val % 4)) : sProp 𝕄)
  rw [holds_read c (row4 c), holds_read c (row4 (p2 c))]
  exact (Entails.of_eq (out_all c c outM (Memref.isWhole_whole _) fullShare (vg (c.val % 4))).symm)

end Glue

/-! ## The parts of the body that communicate, one lemma per part -/

section Parts

open Cert.Kernel.FD
open Cert.Kernel.Mesh (zr zl zl_zr zr_zl p0 p1 p2 dev1_eq dev2_eq dev3_eq dev4_eq dev5_eq dev6_eq dev7_eq dev8_eq dev9_eq dev10_eq dev11_eq dev12_eq dev13_eq dev14_eq dev15_eq dev16_eq dev17_eq)
open Idealize.ShloMosaic.Rounds

variable {F : FTy → Type} [FloatOps F]

local notation "𝕄" => MT nD τ sig Unit (Elt F) ℕ UU ℕ

variable (vo : Dev nD → S8x16x128.Idx → Elt F .f32) (vm vl : Dev nD → S8x16x1.Idx → Elt F .f32)
variable (vg : ℕ → S8x8x16x128.Idx → Elt F .f32) (kin vin : Dev nD → S1024x16x128.Idx → Elt F .f32)
variable (m : (ℓ : Loc nD τ sig) → Buf (Elt F) ℓ)
variable {defs : Defs nD τ sig (Elt F) Λ₀} (𝒱 : Variants)

/-! ### The entry handshake -/

/-- What the next device along z lent at entry, slot by slot: its slots 1, 2, 3 of the three ring buffers, and that it stands
    at round 0 of its nine ring receive cells. -/
theorem barPay0_elim (c : Dev nD) :
    barPay (F := F) c 0
      ⊢ iprop((slotOwned (F := F) (zr c) 0 (0 : Fin 3).succ ∗ slotOwned (F := F) (zr c) 0 (1 : Fin 3).succ ∗ slotOwned (F := F) (zr c) 0 (2 : Fin 3).succ
          ∗ slotOwned (F := F) (zr c) 1 (0 : Fin 3).succ ∗ slotOwned (F := F) (zr c) 1 (1 : Fin 3).succ ∗ slotOwned (F := F) (zr c) 1 (2 : Fin 3).succ
          ∗ slotOwned (F := F) (zr c) 2 (0 : Fin 3).succ ∗ slotOwned (F := F) (zr c) 2 (1 : Fin 3).succ ∗ slotOwned (F := F) (zr c) 2 (2 : Fin 3).succ)
        ∗ bigSep Finset.univ fun b : Fin 3 => bigSep Finset.univ fun h : Fin 3 => reached ER (rrecvCell (zr c) b h) 0) := by
  show iprop((bigSep Finset.univ fun b : Fin 3 => bigSep Finset.univ fun h : Fin 3 => slotOwned (F := F) (zr c) b h.succ)
        ∗ bigSep Finset.univ fun b : Fin 3 => bigSep Finset.univ fun h : Fin 3 => reached ER (rrecvCell (zr c) b h) 0) ⊢ _
  rw [Ring.bigSep_fin3 (fun b : Fin 3 => bigSep Finset.univ fun h : Fin 3 => slotOwned (F := F) (zr c) b h.succ)]
  simp only [Ring.bigSep_fin3 (fun h : Fin 3 => slotOwned (F := F) (zr c) _ h.succ)]
  iintro ⟨⟨⟨H01, H02, H03⟩, ⟨H11, H12, H13⟩, H21, H22, H23⟩, Hr⟩
  isplitr [Hr]
  · isplitl [H01]; · iexact H01
    isplitl [H02]; · iexact H02
    isplitl [H03]; · iexact H03
    isplitl [H11]; · iexact H11
    isplitl [H12]; · iexact H12
    isplitl [H13]; · iexact H13
    isplitl [H21]; · iexact H21
    isplitl [H22]; · iexact H22
    iexact H23
  · iexact Hr

set_option maxRecDepth 65536 in
/-- Part 17: the first four signals of the entry handshake, to the previous and the next device along z and to the first two
    partners. Each hands over what the device promised that neighbour. -/
theorem part17_run (c : Dev nD) (v2 v5 v8 v460 v462 w4 : BitVec 32) (κ : GSem nD τ sig → ℕ) (W : Waits sig Unit)
    (hrl : τ.routes (c : Thread nD τ) (zl c : Thread nD τ) = true) (hr : τ.routes (c : Thread nD τ) (zr c : Thread nD τ) = true)
    (hr0 : τ.routes (c : Thread nD τ) (p0 c : Thread nD τ) = true) (hr1 : τ.routes (c : Thread nD τ) (p1 c : Thread nD τ) = true) :
    iprop(cellInv ER (Rd vo vm vl vg kin vin m) (κ (barCell (zl c))) (barCell (zl c)) ∗ reached ER (barCell (zl c)) 0
        ∗ cellInv ER (Rd vo vm vl vg kin vin m) (κ (barCell (zr c))) (barCell (zr c)) ∗ reached ER (barCell (zr c)) 0
        ∗ cellInv ER (Rd vo vm vl vg kin vin m) (κ (barCell (p0 c))) (barCell (p0 c)) ∗ reached ER (barCell (p0 c)) 0
        ∗ cellInv ER (Rd vo vm vl vg kin vin m) (κ (barCell (p1 c))) (barCell (p1 c)) ∗ reached ER (barCell (p1 c)) 0
        ∗ owes (c : Thread nD τ) (owedAfter 0 c) W
        ∗ dutyTok ER (barCell (zl c)) 0 0 ∗ barPay (F := F) (zl c) 0
        ∗ dutyTok ER (barCell (zr c)) 0 1 ∗ barPay (F := F) (zr c) 1
        ∗ dutyTok ER (barCell (p0 c)) 0 2 ∗ barPay (F := F) (p0 c) 2
        ∗ dutyTok ER (barCell (p1 c)) 0 3 ∗ barPay (F := F) (p1 c) 3)
      ⊢ wp frame (wpE defs 𝒱 (c : Thread nD τ) none) Set.univ (k0_part17 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c v2 v5 v8 v460 v462 w4) (fun r =>
          iprop(⌜r = ⟨Scalar.xori v5 1#32, Scalar.xori v5 2#32, Scalar.xori v2 1#32, (SemArray.scalar (sig.barrier 0 rfl) : Sems sig S_), Scalar.muli (Scalar.xori v2 1#32) 16#32, 0#32⟩⌝
            ∗ owes (c : Thread nD τ) (owedAfter 4 c) W)) := by
  unfold k0_part17 semSignalWord
  iintro ⟨#HIl, #HRl, #HIr, #HRr, #HI0, #HR0, #HI1, #HR1, HO, Htl, Hpl, Htr, Hpr, Ht0, Hp0, Ht1, Hp1⟩
  iapply (bar_signal vo vm vl vg kin vin m 𝒱 c (zl c) 0 none (dev1_eq c) (owedAfter 1 c) (owedAfter_step c 0 (by decide)) hrl) $$ [HO Htl Hpl]
  · isplitr; · iexact HIl
    isplitl [HO]; · iexact HO
    isplitl [Htl]; · iexact Htl
    isplitl [Hpl]; · iexact Hpl
    iexact HRl
  iintro HO
  iapply (bar_signal vo vm vl vg kin vin m 𝒱 c (zr c) 1 none (dev2_eq c) (owedAfter 2 c) (owedAfter_step c 1 (by decide)) hr) $$ [HO Htr Hpr]
  · isplitr; · iexact HIr
    isplitl [HO]; · iexact HO
    isplitl [Htr]; · iexact Htr
    isplitl [Hpr]; · iexact Hpr
    iexact HRr
  iintro HO
  iapply (bar_signal vo vm vl vg kin vin m 𝒱 c (p0 c) 2 none (dev3_eq c) (owedAfter 3 c) (owedAfter_step c 2 (by decide)) hr0) $$ [HO Ht0 Hp0]
  · isplitr; · iexact HI0
    isplitl [HO]; · iexact HO
    isplitl [Ht0]; · iexact Ht0
    isplitl [Hp0]; · iexact Hp0
    iexact HR0
  iintro HO
  iapply (bar_signal vo vm vl vg kin vin m 𝒱 c (p1 c) 3 none (dev4_eq c) (owedAfter 4 c) (owedAfter_step c 3 (by decide)) hr1) $$ [HO Ht1 Hp1]
  · isplitr; · iexact HI1
    isplitl [HO]; · iexact HO
    isplitl [Ht1]; · iexact Ht1
    isplitl [Hp1]; · iexact Hp1
    iexact HR1
  iintro HO
  iapply (le_wp_ret _ _ _ _ _)
  isplitr
  · ipureintro; rfl
  iexact HO

set_option maxRecDepth 65536 in
/-- Part 18: the fifth signal, to the third partner; the wait for the five neighbours, which hands the device the next device's
    nine slots and the three partners' rows; and the first ring transfer, of the device's partial sums into the next device's slot 1. -/
theorem part18_run (c : Dev nD) (v2 v5 v8 v460 v492 w0 : BitVec 32) (κ : GSem nD τ sig → ℕ) (W : Waits sig Unit)
    (hr2 : τ.routes (c : Thread nD τ) (p2 c : Thread nD τ) = true) (hr : τ.routes (c : Thread nD τ) (zr c : Thread nD τ) = true) :
    iprop(cellInv ER (Rd vo vm vl vg kin vin m) (κ (barCell (p2 c))) (barCell (p2 c)) ∗ reached ER (barCell (p2 c)) 0
        ∗ cellInv ER (Rd vo vm vl vg kin vin m) (κ (barCell c)) (barCell c) ∗ MayWait (c : Thread nD τ) (.reg barS) () (owedAfter 5 c)
        ∗ cellInv ER (Rd vo vm vl vg kin vin m) (κ (rsendCell c 0 0)) (rsendCell c 0 0) ∗ reached ER (rsendCell c 0 0) 0
        ∗ cellInv ER (Rd vo vm vl vg kin vin m) (κ (rrecvCell (zr c) 0 0)) (rrecvCell (zr c) 0 0) ∗ reached ER (rrecvCell (zr c) 0 0) 0
        ∗ owes (c : Thread nD τ) (owedAfter 4 c) W
        ∗ dutyTok ER (barCell (p2 c)) 0 4 ∗ barPay (F := F) (p2 c) 4
        ∗ cred (tallyAt (barCell c) () 5) ∗ atPos ER (barCell c) 0 ∅ 0
        ∗ slotHolds vo vm vl c 0 0 ∗ dutyTok ER (rsendCell c 0 0) 0 0 ∗ dutyTok ER (rrecvCell (zr c) 0 0) 0 0)
      ⊢ wp frame (wpE defs 𝒱 (c : Thread nD τ) none) Set.univ (k0_part18 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c v2 v5 v8 v460 (SemArray.scalar (sig.barrier 0 rfl) : Sems sig S_) v492 w0) (fun _ =>
          iprop(owes (c : Thread nD τ) (owedAfter 6 c) (insert (SemLoc.reg barS, ()) W)
            ∗ atPos ER (barCell c) (0 + 1) ∅ 0
            ∗ cred (tallyAt (rsendCell c 0 0) () (Nring 0))
            ∗ (slotOwned (F := F) (zr c) 0 (1 : Fin 3).succ ∗ slotOwned (F := F) (zr c) 0 (2 : Fin 3).succ
              ∗ slotOwned (F := F) (zr c) 1 (0 : Fin 3).succ ∗ slotOwned (F := F) (zr c) 1 (1 : Fin 3).succ ∗ slotOwned (F := F) (zr c) 1 (2 : Fin 3).succ
              ∗ slotOwned (F := F) (zr c) 2 (0 : Fin 3).succ ∗ slotOwned (F := F) (zr c) 2 (1 : Fin 3).succ ∗ slotOwned (F := F) (zr c) 2 (2 : Fin 3).succ)
            ∗ (bigSep Finset.univ fun b : Fin 3 => bigSep Finset.univ fun h : Fin 3 => reached ER (rrecvCell (zr c) b h) 0)
            ∗ barPay (F := F) c 1 ∗ barPay (F := F) c 2 ∗ barPay (F := F) c 3 ∗ barPay (F := F) c 4)) := by
  unfold k0_part18 semSignalWord semWaitWord
  iintro ⟨#HI2, #HR2, #HIb, #HMb, #HIs, #HRs, #HIn, #HRn, HO, Ht2, Hp2, Hcb, Hatb, Hsl, Hts, Htn⟩
  iapply (bar_signal vo vm vl vg kin vin m 𝒱 c (p2 c) 4 none (dev5_eq c) (owedAfter 5 c) (owedAfter_step c 4 (by decide)) hr2) $$ [HO Ht2 Hp2]
  · isplitr; · iexact HI2
    isplitl [HO]; · iexact HO
    isplitl [Ht2]; · iexact Ht2
    isplitl [Hp2]; · iexact Hp2
    iexact HR2
  iintro HO
  iapply (bar_wait vo vm vl vg kin vin m 𝒱 c none (Set.mem_univ _)) $$ [Hcb HO Hatb]
  · isplitr; · iexact HIb
    isplitl [Hcb]; · iexact Hcb
    isplitl [HO]; · iexact HO
    isplitr; · iexact HMb
    iexact Hatb
  iintro ⟨HO, Hatb, -, Hb0, Hb1, Hb2, Hb3, Hb4⟩
  ihave Hb0' := (barPay0_elim (F := F) c) $$ Hb0
  icases Hb0' with ⟨⟨H01, H02, H03, H11, H12, H13, H21, H22, H23⟩, Hrr⟩
  iapply (ring_send_o vo vm vl vg kin vin m 𝒱 c 0 none (dev6_eq c) (owedAfter 6 c) (owedAfter_step c 5 (by decide)) hr) $$ [HO Hsl H01 Hts Htn]
  · isplitr; · iexact HIs
    isplitr; · iexact HIn
    isplitl [Hsl]; · iexact Hsl
    isplitl [H01]; · iexact H01
    isplitl [HO]; · iexact HO
    isplitl [Hts]; · iexact Hts
    isplitr; · iexact HRs
    isplitl [Htn]; · iexact Htn
    iexact HRn
  iintro ⟨Hcs, HO⟩
  iapply (le_wp_ret _ _ _ _ _)
  isplitl [HO]; · iexact HO
  isplitl [Hatb]; · iexact Hatb
  isplitl [Hcs]; · iexact Hcs
  isplitl [H02 H03 H11 H12 H13 H21 H22 H23]
  · isplitl [H02]; · iexact H02
    isplitl [H03]; · iexact H03
    isplitl [H11]; · iexact H11
    isplitl [H12]; · iexact H12
    isplitl [H13]; · iexact H13
    isplitl [H21]; · iexact H21
    isplitl [H22]; · iexact H22
    iexact H23
  isplitl [Hrr]; · iexact Hrr
  isplitl [Hb1]; · iexact Hb1
  isplitl [Hb2]; · iexact Hb2
  isplitl [Hb3]; · iexact Hb3
  iexact Hb4

set_option maxRecDepth 65536 in
/-- Part 19: the first hop's transfers of the row maxima and of the row sums, and the wait for the partial sums' send. -/
theorem part19_run (c : Dev nD) (v2 v5 v460 : BitVec 32) (κ : GSem nD τ sig → ℕ) (W : Waits sig Unit) (hr : τ.routes (c : Thread nD τ) (zr c : Thread nD τ) = true) :
    iprop(cellInv ER (Rd vo vm vl vg kin vin m) (κ (rsendCell c 1 0)) (rsendCell c 1 0)
        ∗ reached ER (rsendCell c 1 0) 0
        ∗ cellInv ER (Rd vo vm vl vg kin vin m) (κ (rrecvCell (zr c) 1 0)) (rrecvCell (zr c) 1 0)
        ∗ reached ER (rrecvCell (zr c) 1 0) 0
        ∗ cellInv ER (Rd vo vm vl vg kin vin m) (κ (rsendCell c 2 0)) (rsendCell c 2 0)
        ∗ reached ER (rsendCell c 2 0) 0
        ∗ cellInv ER (Rd vo vm vl vg kin vin m) (κ (rrecvCell (zr c) 2 0)) (rrecvCell (zr c) 2 0)
        ∗ reached ER (rrecvCell (zr c) 2 0) 0
        ∗ cellInv ER (Rd vo vm vl vg kin vin m) (κ (rsendCell c 0 0)) (rsendCell c 0 0)
        ∗ MayWait (c : Thread nD τ) (.dma (sem3 (sendArr 0) 0)) () (owedAfter 8 c)
        ∗ owes (c : Thread nD τ) (owedAfter 6 c) W
        ∗ slotHolds vo vm vl c 1 0
        ∗ slotOwned (F := F) (zr c) 1 1
        ∗ dutyTok ER (rsendCell c 1 0) 0 0
        ∗ dutyTok ER (rrecvCell (zr c) 1 0) 0 0
        ∗ slotHolds vo vm vl c 2 0
        ∗ slotOwned (F := F) (zr c) 2 1
        ∗ dutyTok ER (rsendCell c 2 0) 0 0
        ∗ dutyTok ER (rrecvCell (zr c) 2 0) 0 0
        ∗ cred (tallyAt (rsendCell c 0 0) () (Nring 0))
        ∗ atPos ER (rsendCell c 0 0) 0 ∅ 0)
      ⊢ wp frame (wpE defs 𝒱 (c : Thread nD τ) none) Set.univ (k0_part19 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c v2 v5 v460) (fun _ =>
          iprop(owes (c : Thread nD τ) (owedAfter 8 c) (insert (SemLoc.dma (sem3 (sendArr 0) 0), ()) W)
            ∗ cred (tallyAt (rsendCell c 1 0) () (Nring 1))
            ∗ cred (tallyAt (rsendCell c 2 0) () (Nring 2))
            ∗ atPos ER (rsendCell c 0 0) (0 + 1) ∅ 0
            ∗ slotHolds vo vm vl c 0 0)) := by
  unfold k0_part19
  iintro ⟨#HIs10, #HRs10, #HIn10, #HRn10, #HIs20, #HRs20, #HIn20, #HRn20, #HIs00, #HMs00, HO, Hsl10, Hnx10, Hts10, Htn10, Hsl20, Hnx20, Hts20, Htn20, Hcs00, Hats00⟩
  iapply (ring_send_m vo vm vl vg kin vin m 𝒱 c 0 none (dev7_eq c) (owedAfter 7 c) (owedAfter_step c 6 (by decide)) hr) $$ [HO Hsl10 Hnx10 Hts10 Htn10]
  · isplitr; · iexact HIs10
    isplitr; · iexact HIn10
    isplitl [Hsl10]; · iexact Hsl10
    isplitl [Hnx10]; · iexact Hnx10
    isplitl [HO]; · iexact HO
    isplitl [Hts10]; · iexact Hts10
    isplitr; · iexact HRs10
    isplitl [Htn10]; · iexact Htn10
    iexact HRn10
  iintro ⟨Hcs10, HO⟩
  iapply (ring_send_l vo vm vl vg kin vin m 𝒱 c 0 none (dev8_eq c) (owedAfter 8 c) (owedAfter_step c 7 (by decide)) hr) $$ [HO Hsl20 Hnx20 Hts20 Htn20]
  · isplitr; · iexact HIs20
    isplitr; · iexact HIn20
    isplitl [Hsl20]; · iexact Hsl20
    isplitl [Hnx20]; · iexact Hnx20
    isplitl [HO]; · iexact HO
    isplitl [Hts20]; · iexact Hts20
    isplitr; · iexact HRs20
    isplitl [Htn20]; · iexact Htn20
    iexact HRn20
  iintro ⟨Hcs20, HO⟩
  iapply (ring_swait vo vm vl vg kin vin m 𝒱 c 0 0 none (dst := oSlot 0) (oSlot_credit 0) (Set.mem_univ _)) $$ [Hcs00 HO Hats00]
  · isplitr; · iexact HIs00
    isplitl [Hcs00]; · iexact Hcs00
    isplitl [HO]; · iexact HO
    isplitr; · iexact HMs00
    iexact Hats00
  iintro ⟨HO, Hats00, -, Hsl00⟩
  iapply (le_wp_ret _ _ _ _ _)
  isplitl [HO]; · iexact HO
  isplitl [Hcs10]; · iexact Hcs10
  isplitl [Hcs20]; · iexact Hcs20
  isplitl [Hats00]; · iexact Hats00
  iexact Hsl00

set_option maxRecDepth 65536 in
/-- Part 20: the partial sums of the previous device land in slot 1; the row maxima's send is over. -/
theorem part20_run (c : Dev nD) (v2 v5 v460 : BitVec 32) (κ : GSem nD τ sig → ℕ) (W : Waits sig Unit) :
    iprop(cellInv ER (Rd vo vm vl vg kin vin m) (κ (rrecvCell c 0 0)) (rrecvCell c 0 0)
        ∗ MayWait (c : Thread nD τ) (.dma (sem3 (recvArr 0) 0)) () (owedAfter 8 c)
        ∗ cellInv ER (Rd vo vm vl vg kin vin m) (κ (rsendCell c 1 0)) (rsendCell c 1 0)
        ∗ MayWait (c : Thread nD τ) (.dma (sem3 (sendArr 1) 0)) () (owedAfter 8 c)
        ∗ owes (c : Thread nD τ) (owedAfter 8 c) W
        ∗ cred (tallyAt (rrecvCell c 0 0) () (Nring 0))
        ∗ atPos ER (rrecvCell c 0 0) 0 ∅ 0
        ∗ cred (tallyAt (rsendCell c 1 0) () (Nring 1))
        ∗ atPos ER (rsendCell c 1 0) 0 ∅ 0)
      ⊢ wp frame (wpE defs 𝒱 (c : Thread nD τ) none) Set.univ (k0_part20 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 v2 v5 v460) (fun _ =>
          iprop(owes (c : Thread nD τ) (owedAfter 8 c) (insert (SemLoc.dma (sem3 (sendArr 1) 0), ()) (insert (SemLoc.dma (sem3 (recvArr 0) 0), ()) W))
            ∗ atPos ER (rrecvCell c 0 0) (0 + 1) ∅ 0
            ∗ slotHolds vo vm vl c 0 1
            ∗ atPos ER (rsendCell c 1 0) (0 + 1) ∅ 0
            ∗ slotHolds vo vm vl c 1 0)) := by
  unfold k0_part20
  iintro ⟨#HIr00, #HMr00, #HIs10, #HMs10, HO, Hcr00, Hatr00, Hcs10, Hats10⟩
  iapply (ring_rwait vo vm vl vg kin vin m 𝒱 c 0 0 none (dst := oSlot 1) (oSlot_credit 1) (Set.mem_univ _)) $$ [Hcr00 HO Hatr00]
  · isplitr; · iexact HIr00
    isplitl [Hcr00]; · iexact Hcr00
    isplitl [HO]; · iexact HO
    isplitr; · iexact HMr00
    iexact Hatr00
  iintro ⟨HO, Hatr00, -, Hsl01⟩
  iapply (ring_swait vo vm vl vg kin vin m 𝒱 c 1 0 none (dst := cSlot cmM 0) (cSlotM_credit 0) (Set.mem_univ _)) $$ [Hcs10 HO Hats10]
  · isplitr; · iexact HIs10
    isplitl [Hcs10]; · iexact Hcs10
    isplitl [HO]; · iexact HO
    isplitr; · iexact HMs10
    iexact Hats10
  iintro ⟨HO, Hats10, -, Hsl10⟩
  iapply (le_wp_ret _ _ _ _ _)
  isplitl [HO]; · iexact HO
  isplitl [Hatr00]; · iexact Hatr00
  isplitl [Hsl01]; · iexact Hsl01
  isplitl [Hats10]; · iexact Hats10
  iexact Hsl10

set_option maxRecDepth 65536 in
/-- Part 21: the row maxima land in slot 1; the row sums' send is over; the row sums land in slot 1. -/
theorem part21_run (c : Dev nD) (v2 v5 v460 : BitVec 32) (κ : GSem nD τ sig → ℕ) (W : Waits sig Unit) :
    iprop(cellInv ER (Rd vo vm vl vg kin vin m) (κ (rrecvCell c 1 0)) (rrecvCell c 1 0)
        ∗ MayWait (c : Thread nD τ) (.dma (sem3 (recvArr 1) 0)) () (owedAfter 8 c)
        ∗ cellInv ER (Rd vo vm vl vg kin vin m) (κ (rsendCell c 2 0)) (rsendCell c 2 0)
        ∗ MayWait (c : Thread nD τ) (.dma (sem3 (sendArr 2) 0)) () (owedAfter 8 c)
        ∗ cellInv ER (Rd vo vm vl vg kin vin m) (κ (rrecvCell c 2 0)) (rrecvCell c 2 0)
        ∗ MayWait (c : Thread nD τ) (.dma (sem3 (recvArr 2) 0)) () (owedAfter 8 c)
        ∗ owes (c : Thread nD τ) (owedAfter 8 c) W
        ∗ cred (tallyAt (rrecvCell c 1 0) () (Nring 1))
        ∗ atPos ER (rrecvCell c 1 0) 0 ∅ 0
        ∗ cred (tallyAt (rsendCell c 2 0) () (Nring 2))
        ∗ atPos ER (rsendCell c 2 0) 0 ∅ 0
        ∗ cred (tallyAt (rrecvCell c 2 0) () (Nring 2))
        ∗ atPos ER (rrecvCell c 2 0) 0 ∅ 0)
      ⊢ wp frame (wpE defs 𝒱 (c : Thread nD τ) none) Set.univ (k0_part21 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 v2 v5 v460) (fun _ =>
          iprop(owes (c : Thread nD τ) (owedAfter 8 c) (insert (SemLoc.dma (sem3 (recvArr 2) 0), ()) (insert (SemLoc.dma (sem3 (sendArr 2) 0), ()) (insert (SemLoc.dma (sem3 (recvArr 1) 0), ()) W)))
            ∗ atPos ER (rrecvCell c 1 0) (0 + 1) ∅ 0
            ∗ slotHolds vo vm vl c 1 1
            ∗ atPos ER (rsendCell c 2 0) (0 + 1) ∅ 0
            ∗ slotHolds vo vm vl c 2 0
            ∗ atPos ER (rrecvCell c 2 0) (0 + 1) ∅ 0
            ∗ slotHolds vo vm vl c 2 1)) := by
  unfold k0_part21
  iintro ⟨#HIr10, #HMr10, #HIs20, #HMs20, #HIr20, #HMr20, HO, Hcr10, Hatr10, Hcs20, Hats20, Hcr20, Hatr20⟩
  iapply (ring_rwait vo vm vl vg kin vin m 𝒱 c 1 0 none (dst := cSlot cmM 1) (cSlotM_credit 1) (Set.mem_univ _)) $$ [Hcr10 HO Hatr10]
  · isplitr; · iexact HIr10
    isplitl [Hcr10]; · iexact Hcr10
    isplitl [HO]; · iexact HO
    isplitr; · iexact HMr10
    iexact Hatr10
  iintro ⟨HO, Hatr10, -, Hsl11⟩
  iapply (ring_swait vo vm vl vg kin vin m 𝒱 c 2 0 none (dst := cSlot clM 0) (cSlotL_credit 0) (Set.mem_univ _)) $$ [Hcs20 HO Hats20]
  · isplitr; · iexact HIs20
    isplitl [Hcs20]; · iexact Hcs20
    isplitl [HO]; · iexact HO
    isplitr; · iexact HMs20
    iexact Hats20
  iintro ⟨HO, Hats20, -, Hsl20⟩
  iapply (ring_rwait vo vm vl vg kin vin m 𝒱 c 2 0 none (dst := cSlot clM 1) (cSlotL_credit 1) (Set.mem_univ _)) $$ [Hcr20 HO Hatr20]
  · isplitr; · iexact HIr20
    isplitl [Hcr20]; · iexact Hcr20
    isplitl [HO]; · iexact HO
    isplitr; · iexact HMr20
    iexact Hatr20
  iintro ⟨HO, Hatr20, -, Hsl21⟩
  iapply (le_wp_ret _ _ _ _ _)
  isplitl [HO]; · iexact HO
  isplitl [Hatr10]; · iexact Hatr10
  isplitl [Hsl11]; · iexact Hsl11
  isplitl [Hats20]; · iexact Hats20
  isplitl [Hsl20]; · iexact Hsl20
  isplitl [Hatr20]; · iexact Hatr20
  iexact Hsl21

set_option maxRecDepth 65536 in
/-- Part 22: the second hop's transfers of the partial sums and of the row maxima, from slot 1 into the next device's slot 2. -/
theorem part22_run (c : Dev nD) (v2 v5 v460 v594 w0 : BitVec 32) (κ : GSem nD τ sig → ℕ) (W : Waits sig Unit) (hr : τ.routes (c : Thread nD τ) (zr c : Thread nD τ) = true) :
    iprop(cellInv ER (Rd vo vm vl vg kin vin m) (κ (rsendCell c 0 1)) (rsendCell c 0 1)
        ∗ reached ER (rsendCell c 0 1) 0
        ∗ cellInv ER (Rd vo vm vl vg kin vin m) (κ (rrecvCell (zr c) 0 1)) (rrecvCell (zr c) 0 1)
        ∗ reached ER (rrecvCell (zr c) 0 1) 0
        ∗ cellInv ER (Rd vo vm vl vg kin vin m) (κ (rsendCell c 1 1)) (rsendCell c 1 1)
        ∗ reached ER (rsendCell c 1 1) 0
        ∗ cellInv ER (Rd vo vm vl vg kin vin m) (κ (rrecvCell (zr c) 1 1)) (rrecvCell (zr c) 1 1)
        ∗ reached ER (rrecvCell (zr c) 1 1) 0
        ∗ owes (c : Thread nD τ) (owedAfter 8 c) W
        ∗ slotHolds vo vm vl c 0 1
        ∗ slotOwned (F := F) (zr c) 0 2
        ∗ dutyTok ER (rsendCell c 0 1) 0 0
        ∗ dutyTok ER (rrecvCell (zr c) 0 1) 0 0
        ∗ slotHolds vo vm vl c 1 1
        ∗ slotOwned (F := F) (zr c) 1 2
        ∗ dutyTok ER (rsendCell c 1 1) 0 0
        ∗ dutyTok ER (rrecvCell (zr c) 1 1) 0 0)
      ⊢ wp frame (wpE defs 𝒱 (c : Thread nD τ) none) Set.univ (k0_part22 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c v2 v5 v460 v594 w0) (fun _ =>
          iprop(owes (c : Thread nD τ) (owedAfter 10 c) W
            ∗ cred (tallyAt (rsendCell c 0 1) () (Nring 0))
            ∗ cred (tallyAt (rsendCell c 1 1) () (Nring 1)))) := by
  unfold k0_part22
  iintro ⟨#HIs01, #HRs01, #HIn01, #HRn01, #HIs11, #HRs11, #HIn11, #HRn11, HO, Hsl01, Hnx01, Hts01, Htn01, Hsl11, Hnx11, Hts11, Htn11⟩
  iapply (ring_send_o vo vm vl vg kin vin m 𝒱 c 1 none (dev9_eq c) (owedAfter 9 c) (owedAfter_step c 8 (by decide)) hr) $$ [HO Hsl01 Hnx01 Hts01 Htn01]
  · isplitr; · iexact HIs01
    isplitr; · iexact HIn01
    isplitl [Hsl01]; · iexact Hsl01
    isplitl [Hnx01]; · iexact Hnx01
    isplitl [HO]; · iexact HO
    isplitl [Hts01]; · iexact Hts01
    isplitr; · iexact HRs01
    isplitl [Htn01]; · iexact Htn01
    iexact HRn01
  iintro ⟨Hcs01, HO⟩
  iapply (ring_send_m vo vm vl vg kin vin m 𝒱 c 1 none (dev10_eq c) (owedAfter 10 c) (owedAfter_step c 9 (by decide)) hr) $$ [HO Hsl11 Hnx11 Hts11 Htn11]
  · isplitr; · iexact HIs11
    isplitr; · iexact HIn11
    isplitl [Hsl11]; · iexact Hsl11
    isplitl [Hnx11]; · iexact Hnx11
    isplitl [HO]; · iexact HO
    isplitl [Hts11]; · iexact Hts11
    isplitr; · iexact HRs11
    isplitl [Htn11]; · iexact Htn11
    iexact HRn11
  iintro ⟨Hcs11, HO⟩
  iapply (le_wp_ret _ _ _ _ _)
  isplitl [HO]; · iexact HO
  isplitl [Hcs01]; · iexact Hcs01
  iexact Hcs11

set_option maxRecDepth 65536 in
/-- Part 23: the second hop's transfer of the row sums, and the wait for the partial sums' send. -/
theorem part23_run (c : Dev nD) (v2 v5 v460 v623 w4 : BitVec 32) (κ : GSem nD τ sig → ℕ) (W : Waits sig Unit) (hr : τ.routes (c : Thread nD τ) (zr c : Thread nD τ) = true) :
    iprop(cellInv ER (Rd vo vm vl vg kin vin m) (κ (rsendCell c 2 1)) (rsendCell c 2 1)
        ∗ reached ER (rsendCell c 2 1) 0
        ∗ cellInv ER (Rd vo vm vl vg kin vin m) (κ (rrecvCell (zr c) 2 1)) (rrecvCell (zr c) 2 1)
        ∗ reached ER (rrecvCell (zr c) 2 1) 0
        ∗ cellInv ER (Rd vo vm vl vg kin vin m) (κ (rsendCell c 0 1)) (rsendCell c 0 1)
        ∗ MayWait (c : Thread nD τ) (.dma (sem3 (sendArr 0) 1)) () (owedAfter 11 c)
        ∗ owes (c : Thread nD τ) (owedAfter 10 c) W
        ∗ slotHolds vo vm vl c 2 1
        ∗ slotOwned (F := F) (zr c) 2 2
        ∗ dutyTok ER (rsendCell c 2 1) 0 0
        ∗ dutyTok ER (rrecvCell (zr c) 2 1) 0 0
        ∗ cred (tallyAt (rsendCell c 0 1) () (Nring 0))
        ∗ atPos ER (rsendCell c 0 1) 0 ∅ 0)
      ⊢ wp frame (wpE defs 𝒱 (c : Thread nD τ) none) Set.univ (k0_part23 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c v2 v5 v460 v623 w4) (fun _ =>
          iprop(owes (c : Thread nD τ) (owedAfter 11 c) (insert (SemLoc.dma (sem3 (sendArr 0) 1), ()) W)
            ∗ cred (tallyAt (rsendCell c 2 1) () (Nring 2))
            ∗ atPos ER (rsendCell c 0 1) (0 + 1) ∅ 0
            ∗ slotHolds vo vm vl c 0 1)) := by
  unfold k0_part23
  iintro ⟨#HIs21, #HRs21, #HIn21, #HRn21, #HIs01, #HMs01, HO, Hsl21, Hnx21, Hts21, Htn21, Hcs01, Hats01⟩
  iapply (ring_send_l vo vm vl vg kin vin m 𝒱 c 1 none (dev11_eq c) (owedAfter 11 c) (owedAfter_step c 10 (by decide)) hr) $$ [HO Hsl21 Hnx21 Hts21 Htn21]
  · isplitr; · iexact HIs21
    isplitr; · iexact HIn21
    isplitl [Hsl21]; · iexact Hsl21
    isplitl [Hnx21]; · iexact Hnx21
    isplitl [HO]; · iexact HO
    isplitl [Hts21]; · iexact Hts21
    isplitr; · iexact HRs21
    isplitl [Htn21]; · iexact Htn21
    iexact HRn21
  iintro ⟨Hcs21, HO⟩
  iapply (ring_swait vo vm vl vg kin vin m 𝒱 c 0 1 none (dst := oSlot 1) (oSlot_credit 1) (Set.mem_univ _)) $$ [Hcs01 HO Hats01]
  · isplitr; · iexact HIs01
    isplitl [Hcs01]; · iexact Hcs01
    isplitl [HO]; · iexact HO
    isplitr; · iexact HMs01
    iexact Hats01
  iintro ⟨HO, Hats01, -, Hsl01⟩
  iapply (le_wp_ret _ _ _ _ _)
  isplitl [HO]; · iexact HO
  isplitl [Hcs21]; · iexact Hcs21
  isplitl [Hats01]; · iexact Hats01
  iexact Hsl01

set_option maxRecDepth 65536 in
/-- Part 24: the second hop's partial sums land in slot 2; the row maxima's send is over; the row maxima land in slot 2. -/
theorem part24_run (c : Dev nD) (v2 v5 v460 : BitVec 32) (κ : GSem nD τ sig → ℕ) (W : Waits sig Unit) :
    iprop(cellInv ER (Rd vo vm vl vg kin vin m) (κ (rrecvCell c 0 1)) (rrecvCell c 0 1)
        ∗ MayWait (c : Thread nD τ) (.dma (sem3 (recvArr 0) 1)) () (owedAfter 11 c)
        ∗ cellInv ER (Rd vo vm vl vg kin vin m) (κ (rsendCell c 1 1)) (rsendCell c 1 1)
        ∗ MayWait (c : Thread nD τ) (.dma (sem3 (sendArr 1) 1)) () (owedAfter 11 c)
        ∗ cellInv ER (Rd vo vm vl vg kin vin m) (κ (rrecvCell c 1 1)) (rrecvCell c 1 1)
        ∗ MayWait (c : Thread nD τ) (.dma (sem3 (recvArr 1) 1)) () (owedAfter 11 c)
        ∗ owes (c : Thread nD τ) (owedAfter 11 c) W
        ∗ cred (tallyAt (rrecvCell c 0 1) () (Nring 0))
        ∗ atPos ER (rrecvCell c 0 1) 0 ∅ 0
        ∗ cred (tallyAt (rsendCell c 1 1) () (Nring 1))
        ∗ atPos ER (rsendCell c 1 1) 0 ∅ 0
        ∗ cred (tallyAt (rrecvCell c 1 1) () (Nring 1))
        ∗ atPos ER (rrecvCell c 1 1) 0 ∅ 0)
      ⊢ wp frame (wpE defs 𝒱 (c : Thread nD τ) none) Set.univ (k0_part24 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 v2 v5 v460) (fun _ =>
          iprop(owes (c : Thread nD τ) (owedAfter 11 c) (insert (SemLoc.dma (sem3 (recvArr 1) 1), ()) (insert (SemLoc.dma (sem3 (sendArr 1) 1), ()) (insert (SemLoc.dma (sem3 (recvArr 0) 1), ()) W)))
            ∗ atPos ER (rrecvCell c 0 1) (0 + 1) ∅ 0
            ∗ slotHolds vo vm vl c 0 2
            ∗ atPos ER (rsendCell c 1 1) (0 + 1) ∅ 0
            ∗ slotHolds vo vm vl c 1 1
            ∗ atPos ER (rrecvCell c 1 1) (0 + 1) ∅ 0
            ∗ slotHolds vo vm vl c 1 2)) := by
  unfold k0_part24
  iintro ⟨#HIr01, #HMr01, #HIs11, #HMs11, #HIr11, #HMr11, HO, Hcr01, Hatr01, Hcs11, Hats11, Hcr11, Hatr11⟩
  iapply (ring_rwait vo vm vl vg kin vin m 𝒱 c 0 1 none (dst := oSlot 2) (oSlot_credit 2) (Set.mem_univ _)) $$ [Hcr01 HO Hatr01]
  · isplitr; · iexact HIr01
    isplitl [Hcr01]; · iexact Hcr01
    isplitl [HO]; · iexact HO
    isplitr; · iexact HMr01
    iexact Hatr01
  iintro ⟨HO, Hatr01, -, Hsl02⟩
  iapply (ring_swait vo vm vl vg kin vin m 𝒱 c 1 1 none (dst := cSlot cmM 1) (cSlotM_credit 1) (Set.mem_univ _)) $$ [Hcs11 HO Hats11]
  · isplitr; · iexact HIs11
    isplitl [Hcs11]; · iexact Hcs11
    isplitl [HO]; · iexact HO
    isplitr; · iexact HMs11
    iexact Hats11
  iintro ⟨HO, Hats11, -, Hsl11⟩
  iapply (ring_rwait vo vm vl vg kin vin m 𝒱 c 1 1 none (dst := cSlot cmM 2) (cSlotM_credit 2) (Set.mem_univ _)) $$ [Hcr11 HO Hatr11]
  · isplitr; · iexact HIr11
    isplitl [Hcr11]; · iexact Hcr11
    isplitl [HO]; · iexact HO
    isplitr; · iexact HMr11
    iexact Hatr11
  iintro ⟨HO, Hatr11, -, Hsl12⟩
  iapply (le_wp_ret _ _ _ _ _)
  isplitl [HO]; · iexact HO
  isplitl [Hatr01]; · iexact Hatr01
  isplitl [Hsl02]; · iexact Hsl02
  isplitl [Hats11]; · iexact Hats11
  isplitl [Hsl11]; · iexact Hsl11
  isplitl [Hatr11]; · iexact Hatr11
  iexact Hsl12

set_option maxRecDepth 65536 in
/-- Part 25: the second hop's row sums: the send is over, and they land in slot 2. -/
theorem part25_run (c : Dev nD) (v2 v5 v460 : BitVec 32) (κ : GSem nD τ sig → ℕ) (W : Waits sig Unit) :
    iprop(cellInv ER (Rd vo vm vl vg kin vin m) (κ (rsendCell c 2 1)) (rsendCell c 2 1)
        ∗ MayWait (c : Thread nD τ) (.dma (sem3 (sendArr 2) 1)) () (owedAfter 11 c)
        ∗ cellInv ER (Rd vo vm vl vg kin vin m) (κ (rrecvCell c 2 1)) (rrecvCell c 2 1)
        ∗ MayWait (c : Thread nD τ) (.dma (sem3 (recvArr 2) 1)) () (owedAfter 11 c)
        ∗ owes (c : Thread nD τ) (owedAfter 11 c) W
        ∗ cred (tallyAt (rsendCell c 2 1) () (Nring 2))
        ∗ atPos ER (rsendCell c 2 1) 0 ∅ 0
        ∗ cred (tallyAt (rrecvCell c 2 1) () (Nring 2))
        ∗ atPos ER (rrecvCell c 2 1) 0 ∅ 0)
      ⊢ wp frame (wpE defs 𝒱 (c : Thread nD τ) none) Set.univ (k0_part25 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 v2 v5 v460) (fun _ =>
          iprop(owes (c : Thread nD τ) (owedAfter 11 c) (insert (SemLoc.dma (sem3 (recvArr 2) 1), ()) (insert (SemLoc.dma (sem3 (sendArr 2) 1), ()) W))
            ∗ atPos ER (rsendCell c 2 1) (0 + 1) ∅ 0
            ∗ slotHolds vo vm vl c 2 1
            ∗ atPos ER (rrecvCell c 2 1) (0 + 1) ∅ 0
            ∗ slotHolds vo vm vl c 2 2)) := by
  unfold k0_part25
  iintro ⟨#HIs21, #HMs21, #HIr21, #HMr21, HO, Hcs21, Hats21, Hcr21, Hatr21⟩
  iapply (ring_swait vo vm vl vg kin vin m 𝒱 c 2 1 none (dst := cSlot clM 1) (cSlotL_credit 1) (Set.mem_univ _)) $$ [Hcs21 HO Hats21]
  · isplitr; · iexact HIs21
    isplitl [Hcs21]; · iexact Hcs21
    isplitl [HO]; · iexact HO
    isplitr; · iexact HMs21
    iexact Hats21
  iintro ⟨HO, Hats21, -, Hsl21⟩
  iapply (ring_rwait vo vm vl vg kin vin m 𝒱 c 2 1 none (dst := cSlot clM 2) (cSlotL_credit 2) (Set.mem_univ _)) $$ [Hcr21 HO Hatr21]
  · isplitr; · iexact HIr21
    isplitl [Hcr21]; · iexact Hcr21
    isplitl [HO]; · iexact HO
    isplitr; · iexact HMr21
    iexact Hatr21
  iintro ⟨HO, Hatr21, -, Hsl22⟩
  iapply (le_wp_ret _ _ _ _ _)
  isplitl [HO]; · iexact HO
  isplitl [Hats21]; · iexact Hats21
  isplitl [Hsl21]; · iexact Hsl21
  isplitl [Hatr21]; · iexact Hatr21
  iexact Hsl22

set_option maxRecDepth 65536 in
/-- Part 26: the third hop's transfers of the partial sums and of the row maxima, from slot 2 into the next device's slot 3. -/
theorem part26_run (c : Dev nD) (v2 v5 v460 : BitVec 32) (κ : GSem nD τ sig → ℕ) (W : Waits sig Unit) (hr : τ.routes (c : Thread nD τ) (zr c : Thread nD τ) = true) :
    iprop(cellInv ER (Rd vo vm vl vg kin vin m) (κ (rsendCell c 0 2)) (rsendCell c 0 2)
        ∗ reached ER (rsendCell c 0 2) 0
        ∗ cellInv ER (Rd vo vm vl vg kin vin m) (κ (rrecvCell (zr c) 0 2)) (rrecvCell (zr c) 0 2)
        ∗ reached ER (rrecvCell (zr c) 0 2) 0
        ∗ cellInv ER (Rd vo vm vl vg kin vin m) (κ (rsendCell c 1 2)) (rsendCell c 1 2)
        ∗ reached ER (rsendCell c 1 2) 0
        ∗ cellInv ER (Rd vo vm vl vg kin vin m) (κ (rrecvCell (zr c) 1 2)) (rrecvCell (zr c) 1 2)
        ∗ reached ER (rrecvCell (zr c) 1 2) 0
        ∗ owes (c : Thread nD τ) (owedAfter 11 c) W
        ∗ slotHolds vo vm vl c 0 2
        ∗ slotOwned (F := F) (zr c) 0 3
        ∗ dutyTok ER (rsendCell c 0 2) 0 0
        ∗ dutyTok ER (rrecvCell (zr c) 0 2) 0 0
        ∗ slotHolds vo vm vl c 1 2
        ∗ slotOwned (F := F) (zr c) 1 3
        ∗ dutyTok ER (rsendCell c 1 2) 0 0
        ∗ dutyTok ER (rrecvCell (zr c) 1 2) 0 0)
      ⊢ wp frame (wpE defs 𝒱 (c : Thread nD τ) none) Set.univ (k0_part26 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c v2 v5 v460) (fun _ =>
          iprop(owes (c : Thread nD τ) (owedAfter 13 c) W
            ∗ cred (tallyAt (rsendCell c 0 2) () (Nring 0))
            ∗ cred (tallyAt (rsendCell c 1 2) () (Nring 1)))) := by
  unfold k0_part26
  iintro ⟨#HIs02, #HRs02, #HIn02, #HRn02, #HIs12, #HRs12, #HIn12, #HRn12, HO, Hsl02, Hnx02, Hts02, Htn02, Hsl12, Hnx12, Hts12, Htn12⟩
  iapply (ring_send_o vo vm vl vg kin vin m 𝒱 c 2 none (dev12_eq c) (owedAfter 12 c) (owedAfter_step c 11 (by decide)) hr) $$ [HO Hsl02 Hnx02 Hts02 Htn02]
  · isplitr; · iexact HIs02
    isplitr; · iexact HIn02
    isplitl [Hsl02]; · iexact Hsl02
    isplitl [Hnx02]; · iexact Hnx02
    isplitl [HO]; · iexact HO
    isplitl [Hts02]; · iexact Hts02
    isplitr; · iexact HRs02
    isplitl [Htn02]; · iexact Htn02
    iexact HRn02
  iintro ⟨Hcs02, HO⟩
  iapply (ring_send_m vo vm vl vg kin vin m 𝒱 c 2 none (dev13_eq c) (owedAfter 13 c) (owedAfter_step c 12 (by decide)) hr) $$ [HO Hsl12 Hnx12 Hts12 Htn12]
  · isplitr; · iexact HIs12
    isplitr; · iexact HIn12
    isplitl [Hsl12]; · iexact Hsl12
    isplitl [Hnx12]; · iexact Hnx12
    isplitl [HO]; · iexact HO
    isplitl [Hts12]; · iexact Hts12
    isplitr; · iexact HRs12
    isplitl [Htn12]; · iexact Htn12
    iexact HRn12
  iintro ⟨Hcs12, HO⟩
  iapply (le_wp_ret _ _ _ _ _)
  isplitl [HO]; · iexact HO
  isplitl [Hcs02]; · iexact Hcs02
  iexact Hcs12

set_option maxRecDepth 65536 in
/-- Part 27: the third hop's transfer of the row sums; the partial sums' send is over, and they land in slot 3. -/
theorem part27_run (c : Dev nD) (v2 v5 v460 : BitVec 32) (κ : GSem nD τ sig → ℕ) (W : Waits sig Unit) (hr : τ.routes (c : Thread nD τ) (zr c : Thread nD τ) = true) :
    iprop(cellInv ER (Rd vo vm vl vg kin vin m) (κ (rsendCell c 2 2)) (rsendCell c 2 2)
        ∗ reached ER (rsendCell c 2 2) 0
        ∗ cellInv ER (Rd vo vm vl vg kin vin m) (κ (rrecvCell (zr c) 2 2)) (rrecvCell (zr c) 2 2)
        ∗ reached ER (rrecvCell (zr c) 2 2) 0
        ∗ cellInv ER (Rd vo vm vl vg kin vin m) (κ (rsendCell c 0 2)) (rsendCell c 0 2)
        ∗ MayWait (c : Thread nD τ) (.dma (sem3 (sendArr 0) 2)) () (owedAfter 14 c)
        ∗ cellInv ER (Rd vo vm vl vg kin vin m) (κ (rrecvCell c 0 2)) (rrecvCell c 0 2)
        ∗ MayWait (c : Thread nD τ) (.dma (sem3 (recvArr 0) 2)) () (owedAfter 14 c)
        ∗ owes (c : Thread nD τ) (owedAfter 13 c) W
        ∗ slotHolds vo vm vl c 2 2
        ∗ slotOwned (F := F) (zr c) 2 3
        ∗ dutyTok ER (rsendCell c 2 2) 0 0
        ∗ dutyTok ER (rrecvCell (zr c) 2 2) 0 0
        ∗ cred (tallyAt (rsendCell c 0 2) () (Nring 0))
        ∗ atPos ER (rsendCell c 0 2) 0 ∅ 0
        ∗ cred (tallyAt (rrecvCell c 0 2) () (Nring 0))
        ∗ atPos ER (rrecvCell c 0 2) 0 ∅ 0)
      ⊢ wp frame (wpE defs 𝒱 (c : Thread nD τ) none) Set.univ (k0_part27 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c v2 v5 v460) (fun _ =>
          iprop(owes (c : Thread nD τ) (owedAfter 14 c) (insert (SemLoc.dma (sem3 (recvArr 0) 2), ()) (insert (SemLoc.dma (sem3 (sendArr 0) 2), ()) W))
            ∗ cred (tallyAt (rsendCell c 2 2) () (Nring 2))
            ∗ atPos ER (rsendCell c 0 2) (0 + 1) ∅ 0
            ∗ slotHolds vo vm vl c 0 2
            ∗ atPos ER (rrecvCell c 0 2) (0 + 1) ∅ 0
            ∗ slotHolds vo vm vl c 0 3)) := by
  unfold k0_part27
  iintro ⟨#HIs22, #HRs22, #HIn22, #HRn22, #HIs02, #HMs02, #HIr02, #HMr02, HO, Hsl22, Hnx22, Hts22, Htn22, Hcs02, Hats02, Hcr02, Hatr02⟩
  iapply (ring_send_l vo vm vl vg kin vin m 𝒱 c 2 none (dev14_eq c) (owedAfter 14 c) (owedAfter_step c 13 (by decide)) hr) $$ [HO Hsl22 Hnx22 Hts22 Htn22]
  · isplitr; · iexact HIs22
    isplitr; · iexact HIn22
    isplitl [Hsl22]; · iexact Hsl22
    isplitl [Hnx22]; · iexact Hnx22
    isplitl [HO]; · iexact HO
    isplitl [Hts22]; · iexact Hts22
    isplitr; · iexact HRs22
    isplitl [Htn22]; · iexact Htn22
    iexact HRn22
  iintro ⟨Hcs22, HO⟩
  iapply (ring_swait vo vm vl vg kin vin m 𝒱 c 0 2 none (dst := oSlot 2) (oSlot_credit 2) (Set.mem_univ _)) $$ [Hcs02 HO Hats02]
  · isplitr; · iexact HIs02
    isplitl [Hcs02]; · iexact Hcs02
    isplitl [HO]; · iexact HO
    isplitr; · iexact HMs02
    iexact Hats02
  iintro ⟨HO, Hats02, -, Hsl02⟩
  iapply (ring_rwait vo vm vl vg kin vin m 𝒱 c 0 2 none (dst := oSlot 3) (oSlot_credit 3) (Set.mem_univ _)) $$ [Hcr02 HO Hatr02]
  · isplitr; · iexact HIr02
    isplitl [Hcr02]; · iexact Hcr02
    isplitl [HO]; · iexact HO
    isplitr; · iexact HMr02
    iexact Hatr02
  iintro ⟨HO, Hatr02, -, Hsl03⟩
  iapply (le_wp_ret _ _ _ _ _)
  isplitl [HO]; · iexact HO
  isplitl [Hcs22]; · iexact Hcs22
  isplitl [Hats02]; · iexact Hats02
  isplitl [Hsl02]; · iexact Hsl02
  isplitl [Hatr02]; · iexact Hatr02
  iexact Hsl03

set_option maxRecDepth 65536 in
/-- Part 28: the third hop's row maxima: the send is over and they land in slot 3; the row sums' send is over. -/
theorem part28_run (c : Dev nD) (v2 v5 v460 : BitVec 32) (κ : GSem nD τ sig → ℕ) (W : Waits sig Unit) :
    iprop(cellInv ER (Rd vo vm vl vg kin vin m) (κ (rsendCell c 1 2)) (rsendCell c 1 2)
        ∗ MayWait (c : Thread nD τ) (.dma (sem3 (sendArr 1) 2)) () (owedAfter 14 c)
        ∗ cellInv ER (Rd vo vm vl vg kin vin m) (κ (rrecvCell c 1 2)) (rrecvCell c 1 2)
        ∗ MayWait (c : Thread nD τ) (.dma (sem3 (recvArr 1) 2)) () (owedAfter 14 c)
        ∗ cellInv ER (Rd vo vm vl vg kin vin m) (κ (rsendCell c 2 2)) (rsendCell c 2 2)
        ∗ MayWait (c : Thread nD τ) (.dma (sem3 (sendArr 2) 2)) () (owedAfter 14 c)
        ∗ owes (c : Thread nD τ) (owedAfter 14 c) W
        ∗ cred (tallyAt (rsendCell c 1 2) () (Nring 1))
        ∗ atPos ER (rsendCell c 1 2) 0 ∅ 0
        ∗ cred (tallyAt (rrecvCell c 1 2) () (Nring 1))
        ∗ atPos ER (rrecvCell c 1 2) 0 ∅ 0
        ∗ cred (tallyAt (rsendCell c 2 2) () (Nring 2))
        ∗ atPos ER (rsendCell c 2 2) 0 ∅ 0)
      ⊢ wp frame (wpE defs 𝒱 (c : Thread nD τ) none) Set.univ (k0_part28 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 v2 v5 v460) (fun _ =>
          iprop(owes (c : Thread nD τ) (owedAfter 14 c) (insert (SemLoc.dma (sem3 (sendArr 2) 2), ()) (insert (SemLoc.dma (sem3 (recvArr 1) 2), ()) (insert (SemLoc.dma (sem3 (sendArr 1) 2), ()) W)))
            ∗ atPos ER (rsendCell c 1 2) (0 + 1) ∅ 0
            ∗ slotHolds vo vm vl c 1 2
            ∗ atPos ER (rrecvCell c 1 2) (0 + 1) ∅ 0
            ∗ slotHolds vo vm vl c 1 3
            ∗ atPos ER (rsendCell c 2 2) (0 + 1) ∅ 0
            ∗ slotHolds vo vm vl c 2 2)) := by
  unfold k0_part28
  iintro ⟨#HIs12, #HMs12, #HIr12, #HMr12, #HIs22, #HMs22, HO, Hcs12, Hats12, Hcr12, Hatr12, Hcs22, Hats22⟩
  iapply (ring_swait vo vm vl vg kin vin m 𝒱 c 1 2 none (dst := cSlot cmM 2) (cSlotM_credit 2) (Set.mem_univ _)) $$ [Hcs12 HO Hats12]
  · isplitr; · iexact HIs12
    isplitl [Hcs12]; · iexact Hcs12
    isplitl [HO]; · iexact HO
    isplitr; · iexact HMs12
    iexact Hats12
  iintro ⟨HO, Hats12, -, Hsl12⟩
  iapply (ring_rwait vo vm vl vg kin vin m 𝒱 c 1 2 none (dst := cSlot cmM 3) (cSlotM_credit 3) (Set.mem_univ _)) $$ [Hcr12 HO Hatr12]
  · isplitr; · iexact HIr12
    isplitl [Hcr12]; · iexact Hcr12
    isplitl [HO]; · iexact HO
    isplitr; · iexact HMr12
    iexact Hatr12
  iintro ⟨HO, Hatr12, -, Hsl13⟩
  iapply (ring_swait vo vm vl vg kin vin m 𝒱 c 2 2 none (dst := cSlot clM 2) (cSlotL_credit 2) (Set.mem_univ _)) $$ [Hcs22 HO Hats22]
  · isplitr; · iexact HIs22
    isplitl [Hcs22]; · iexact Hcs22
    isplitl [HO]; · iexact HO
    isplitr; · iexact HMs22
    iexact Hats22
  iintro ⟨HO, Hats22, -, Hsl22⟩
  iapply (le_wp_ret _ _ _ _ _)
  isplitl [HO]; · iexact HO
  isplitl [Hats12]; · iexact Hats12
  isplitl [Hsl12]; · iexact Hsl12
  isplitl [Hatr12]; · iexact Hatr12
  isplitl [Hsl13]; · iexact Hsl13
  isplitl [Hats22]; · iexact Hats22
  iexact Hsl22

set_option maxRecDepth 65536 in
/-- The last wait of the ring: the third hop's row sums land in slot 3. -/
theorem seg29Wait_run (c : Dev nD) (κ : GSem nD τ sig → ℕ) (W : Waits sig Unit) :
    iprop(cellInv ER (Rd vo vm vl vg kin vin m) (κ (rrecvCell c 2 2)) (rrecvCell c 2 2)
        ∗ MayWait (c : Thread nD τ) (.dma (sem3 (recvArr 2) 2)) () (owedAfter 14 c)
        ∗ owes (c : Thread nD τ) (owedAfter 14 c) W
        ∗ cred (tallyAt (rrecvCell c 2 2) () (Nring 2))
        ∗ atPos ER (rrecvCell c 2 2) 0 ∅ 0)
      ⊢ wp frame (wpE defs 𝒱 (c : Thread nD τ) none) Set.univ (seg29Wait (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13) (fun _ =>
          iprop(owes (c : Thread nD τ) (owedAfter 14 c) (insert (SemLoc.dma (sem3 (recvArr 2) 2), ()) W)
            ∗ atPos ER (rrecvCell c 2 2) (0 + 1) ∅ 0
            ∗ slotHolds vo vm vl c 2 3)) := by
  unfold seg29Wait
  iintro ⟨#HIr22, #HMr22, HO, Hcr22, Hatr22⟩
  iapply (ring_rwait vo vm vl vg kin vin m 𝒱 c 2 2 none (dst := cSlot clM 3) (cSlotL_credit 3) (Set.mem_univ _)) $$ [Hcr22 HO Hatr22]
  · isplitr; · iexact HIr22
    isplitl [Hcr22]; · iexact Hcr22
    isplitl [HO]; · iexact HO
    isplitr; · iexact HMr22
    iexact Hatr22
  iintro ⟨HO, Hatr22, -, Hsl23⟩
  iapply (le_wp_ret _ _ _ _ _)
  isplitl [HO]; · iexact HO
  isplitl [Hatr22]; · iexact Hatr22
  iexact Hsl23

set_option maxRecDepth 65536 in
/-- Part 32: the first partner's row lands and makes, with the device's own, its pair of rows; the second exchange sends that pair. -/
theorem part32_run (c : Dev nD) (v2 v8 v464 v465 : BitVec 32) (κ : GSem nD τ sig → ℕ) (W : Waits sig Unit) (hr1 : τ.routes (c : Thread nD τ) (p1 c : Thread nD τ) = true) :
    iprop(cellInv ER (Rd vo vm vl vg kin vin m) (κ (grecvCell c 0)) (grecvCell c 0)
        ∗ MayWait (c : Thread nD τ) (.dma (sem3 cc0_scratch13 0)) () (owedAfter 15 c)
        ∗ cellInv ER (Rd vo vm vl vg kin vin m) (κ (gsendCell c 1)) (gsendCell c 1)
        ∗ reached ER (gsendCell c 1) 0
        ∗ cellInv ER (Rd vo vm vl vg kin vin m) (κ (grecvCell (p1 c) 1)) (grecvCell (p1 c) 1)
        ∗ reached ER (grecvCell (p1 c) 1) 0
        ∗ owes (c : Thread nD τ) (owedAfter 15 c) W
        ∗ cred (tallyAt (grecvCell c 0) () (Nrows (partner 0 c) 0))
        ∗ atPos ER (grecvCell c 0) 0 ∅ 0
        ∗ rowsHold vg c c 0
        ∗ rowsOwned (F := F) (p1 c) c 1
        ∗ dutyTok ER (gsendCell c 1) 0 0
        ∗ dutyTok ER (grecvCell (p1 c) 1) 0 0)
      ⊢ wp frame (wpE defs 𝒱 (c : Thread nD τ) none) Set.univ (k0_part32 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c v2 v8 v464 v465) (fun _ =>
          iprop(owes (c : Thread nD τ) (owedAfter 16 c) (insert (SemLoc.dma (sem3 cc0_scratch13 0), ()) W)
            ∗ atPos ER (grecvCell c 0) (0 + 1) ∅ 0
            ∗ cred (tallyAt (gsendCell c 1) () (Nrows c 1)))) := by
  unfold k0_part32
  iintro ⟨#HIgr0, #HMgr0, #HIgs1, #HRgs1, #HIgn1, #HRgn1, HO, Hcgr0, Hatgr0, Hrw0, Hpr1, Htgs1, Htgn1⟩
  iapply (gath_rwait vo vm vl vg kin vin m 𝒱 c 0 none (dst := row1 c) (row1_credit c (partner 0 c)) (Set.mem_univ _)) $$ [Hcgr0 HO Hatgr0]
  · isplitr; · iexact HIgr0
    isplitl [Hcgr0]; · iexact Hcgr0
    isplitl [HO]; · iexact HO
    isplitr; · iexact HMgr0
    iexact Hatgr0
  iintro ⟨HO, Hatgr0, -, Hrp0⟩
  ihave Hrw1 := (rows_join_0 vg c) $$ [Hrw0 Hrp0]
  · isplitl [Hrw0]; · iexact Hrw0
    iexact Hrp0
  iapply (gath_send_1 vo vm vl vg kin vin m 𝒱 c none (dev16_eq c) (owedAfter 16 c) (owedAfter_step c 15 (by decide)) hr1) $$ [HO Hrw1 Hpr1 Htgs1 Htgn1]
  · isplitr; · iexact HIgs1
    isplitr; · iexact HIgn1
    isplitl [Hrw1]; · iexact Hrw1
    isplitl [Hpr1]; · iexact Hpr1
    isplitl [HO]; · iexact HO
    isplitl [Htgs1]; · iexact Htgs1
    isplitr; · iexact HRgs1
    isplitl [Htgn1]; · iexact Htgn1
    iexact HRgn1
  iintro ⟨Hcgs1, HO⟩
  iapply (le_wp_ret _ _ _ _ _)
  isplitl [HO]; · iexact HO
  isplitl [Hatgr0]; · iexact Hatgr0
  iexact Hcgs1

set_option maxRecDepth 65536 in
/-- Part 33: the second exchange's send is over; the second partner's pair lands and makes, with the device's own, its quadruple of rows; the third exchange sends that quadruple. -/
theorem part33_run (c : Dev nD) (v2 v5 v8 v465 v466 : BitVec 32) (κ : GSem nD τ sig → ℕ) (W : Waits sig Unit) (hr2 : τ.routes (c : Thread nD τ) (p2 c : Thread nD τ) = true) :
    iprop(cellInv ER (Rd vo vm vl vg kin vin m) (κ (gsendCell c 1)) (gsendCell c 1)
        ∗ MayWait (c : Thread nD τ) (.dma (sem3 cc0_scratch12 1)) () (owedAfter 16 c)
        ∗ cellInv ER (Rd vo vm vl vg kin vin m) (κ (grecvCell c 1)) (grecvCell c 1)
        ∗ MayWait (c : Thread nD τ) (.dma (sem3 cc0_scratch13 1)) () (owedAfter 16 c)
        ∗ cellInv ER (Rd vo vm vl vg kin vin m) (κ (gsendCell c 2)) (gsendCell c 2)
        ∗ reached ER (gsendCell c 2) 0
        ∗ cellInv ER (Rd vo vm vl vg kin vin m) (κ (grecvCell (p2 c) 2)) (grecvCell (p2 c) 2)
        ∗ reached ER (grecvCell (p2 c) 2) 0
        ∗ owes (c : Thread nD τ) (owedAfter 16 c) W
        ∗ cred (tallyAt (gsendCell c 1) () (Nrows c 1))
        ∗ atPos ER (gsendCell c 1) 0 ∅ 0
        ∗ cred (tallyAt (grecvCell c 1) () (Nrows (partner 1 c) 1))
        ∗ atPos ER (grecvCell c 1) 0 ∅ 0
        ∗ rowsOwned (F := F) (p2 c) c 2
        ∗ dutyTok ER (gsendCell c 2) 0 0
        ∗ dutyTok ER (grecvCell (p2 c) 2) 0 0)
      ⊢ wp frame (wpE defs 𝒱 (c : Thread nD τ) none) Set.univ (k0_part33 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c v2 v5 v8 v465 v466) (fun _ =>
          iprop(owes (c : Thread nD τ) (owedAfter 17 c) (insert (SemLoc.dma (sem3 cc0_scratch13 1), ()) (insert (SemLoc.dma (sem3 cc0_scratch12 1), ()) W))
            ∗ atPos ER (gsendCell c 1) (0 + 1) ∅ 0
            ∗ atPos ER (grecvCell c 1) (0 + 1) ∅ 0
            ∗ cred (tallyAt (gsendCell c 2) () (Nrows c 2)))) := by
  unfold k0_part33
  iintro ⟨#HIgs1, #HMgs1, #HIgr1, #HMgr1, #HIgs2, #HRgs2, #HIgn2, #HRgn2, HO, Hcgs1, Hatgs1, Hcgr1, Hatgr1, Hpr2, Htgs2, Htgn2⟩
  iapply (gath_swait vo vm vl vg kin vin m 𝒱 c 1 none (dst := row2 c) (row2_credit c c) (Set.mem_univ _)) $$ [Hcgs1 HO Hatgs1]
  · isplitr; · iexact HIgs1
    isplitl [Hcgs1]; · iexact Hcgs1
    isplitl [HO]; · iexact HO
    isplitr; · iexact HMgs1
    iexact Hatgs1
  iintro ⟨HO, Hatgs1, -, Hrw1⟩
  iapply (gath_rwait vo vm vl vg kin vin m 𝒱 c 1 none (dst := row2 c) (row2_credit c (partner 1 c)) (Set.mem_univ _)) $$ [Hcgr1 HO Hatgr1]
  · isplitr; · iexact HIgr1
    isplitl [Hcgr1]; · iexact Hcgr1
    isplitl [HO]; · iexact HO
    isplitr; · iexact HMgr1
    iexact Hatgr1
  iintro ⟨HO, Hatgr1, -, Hrp1⟩
  ihave Hrw2 := (rows_join_1 vg c) $$ [Hrw1 Hrp1]
  · isplitl [Hrw1]; · iexact Hrw1
    iexact Hrp1
  iapply (gath_send_2 vo vm vl vg kin vin m 𝒱 c none (dev17_eq c) (owedAfter 17 c) (owedAfter_step c 16 (by decide)) hr2) $$ [HO Hrw2 Hpr2 Htgs2 Htgn2]
  · isplitr; · iexact HIgs2
    isplitr; · iexact HIgn2
    isplitl [Hrw2]; · iexact Hrw2
    isplitl [Hpr2]; · iexact Hpr2
    isplitl [HO]; · iexact HO
    isplitl [Htgs2]; · iexact Htgs2
    isplitr; · iexact HRgs2
    isplitl [Htgn2]; · iexact Htgn2
    iexact HRgn2
  iintro ⟨Hcgs2, HO⟩
  iapply (le_wp_ret _ _ _ _ _)
  isplitl [HO]; · iexact HO
  isplitl [Hatgs1]; · iexact Hatgs1
  isplitl [Hatgr1]; · iexact Hatgr1
  iexact Hcgs2

set_option maxRecDepth 65536 in
/-- The end of the body: the third exchange's send is over; the third partner's quadruple lands, and the result staging buffer is whole again, holding the gathered result. -/
theorem segExit_run (c : Dev nD) (κ : GSem nD τ sig → ℕ) (W : Waits sig Unit) :
    iprop(cellInv ER (Rd vo vm vl vg kin vin m) (κ (gsendCell c 2)) (gsendCell c 2)
        ∗ MayWait (c : Thread nD τ) (.dma (sem3 cc0_scratch12 2)) () (owedAfter 17 c)
        ∗ cellInv ER (Rd vo vm vl vg kin vin m) (κ (grecvCell c 2)) (grecvCell c 2)
        ∗ MayWait (c : Thread nD τ) (.dma (sem3 cc0_scratch13 2)) () (owedAfter 17 c)
        ∗ owes (c : Thread nD τ) (owedAfter 17 c) W
        ∗ cred (tallyAt (gsendCell c 2) () (Nrows c 2))
        ∗ atPos ER (gsendCell c 2) 0 ∅ 0
        ∗ cred (tallyAt (grecvCell c 2) () (Nrows (partner 2 c) 2))
        ∗ atPos ER (grecvCell c 2) 0 ∅ 0)
      ⊢ wp frame (wpE defs 𝒱 (c : Thread nD τ) none) Set.univ (segExit (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c) (fun _ =>
          iprop(owes (c : Thread nD τ) (owedAfter 17 c) (insert (SemLoc.dma (sem3 cc0_scratch13 2), ()) (insert (SemLoc.dma (sem3 cc0_scratch12 2), ()) W))
            ∗ atPos ER (gsendCell c 2) (0 + 1) ∅ 0
            ∗ atPos ER (grecvCell c 2) (0 + 1) ∅ 0
            ∗ (outM.view.loc (c : Thread nD τ) ↦{fullShare} (vg (c.val % 4))))) := by
  unfold segExit
  iintro ⟨#HIgs2, #HMgs2, #HIgr2, #HMgr2, HO, Hcgs2, Hatgs2, Hcgr2, Hatgr2⟩
  iapply (gath_swait vo vm vl vg kin vin m 𝒱 c 2 none (dst := row4 c) (row4_credit c c) (Set.mem_univ _)) $$ [Hcgs2 HO Hatgs2]
  · isplitr; · iexact HIgs2
    isplitl [Hcgs2]; · iexact Hcgs2
    isplitl [HO]; · iexact HO
    isplitr; · iexact HMgs2
    iexact Hatgs2
  iintro ⟨HO, Hatgs2, -, Hrw2⟩
  iapply (gath_rwait vo vm vl vg kin vin m 𝒱 c 2 none (dst := row4 c) (row4_credit c (partner 2 c)) (Set.mem_univ _)) $$ [Hcgr2 HO Hatgr2]
  · isplitr; · iexact HIgr2
    isplitl [Hcgr2]; · iexact Hcgr2
    isplitl [HO]; · iexact HO
    isplitr; · iexact HMgr2
    iexact Hatgr2
  iintro ⟨HO, Hatgr2, -, Hrp2⟩
  ihave Hrw3 := (rows_join_2 vg c) $$ [Hrw2 Hrp2]
  · isplitl [Hrw2]; · iexact Hrw2
    iexact Hrp2
  iapply (le_wp_ret _ _ _ _ _)
  isplitl [HO]; · iexact HO
  isplitl [Hatgs2]; · iexact Hatgs2
  isplitl [Hatgr2]; · iexact Hatgr2
  iexact Hrw3

end Parts

/-! ### The merged row is stored, and the first exchange starts -/

section Store

open Cert.Kernel.FD
open Cert.Kernel.Mesh (zr zl p0 p1 p2 off18_eq' off19_eq' dev15_eq)
open Idealize.ShloMosaic.Rounds

variable {F : FTy → Type} [FloatOps F]

local notation "𝕄" => MT nD τ sig Unit (Elt F) ℕ UU ℕ

variable (vo : Dev nD → S8x16x128.Idx → Elt F .f32) (vm vl : Dev nD → S8x16x1.Idx → Elt F .f32)
variable (vg : ℕ → S8x8x16x128.Idx → Elt F .f32) (kin vin : Dev nD → S1024x16x128.Idx → Elt F .f32)
variable (m : (ℓ : Loc nD τ sig) → Buf (Elt F) ℓ)
variable {Λ : Labels} {defs : Defs nD τ sig (Elt F) Λ} (𝒱 : Variants)

/-- A load through a rectangle of a buffer whose elements under that rectangle the device owns (named through a slice at
    offsets that are the load's): whatever is read, the elements stay owned. -/
theorem load_owned {α : Type} {Q : α → sProp 𝕄} (c : Dev nD) {s : Shape} (M : Memref sig .tc .vmem s .f32) {off off' size : Fin s.rank → ℕ} (h : off = off')
    (inb : ∀ a, off a + size a ≤ s.size a) (inb' : ∀ a, off' a + size a ≤ s.size a) (bd : Option 𝒱.V) {Es : Set ℕ}
    {hl : M.view.LoadsAt (Rect.unit off size inb).toLoadRect}
    {k : ((Rect.unit off size inb).shape.Idx → Elt F .f32) → Prog (TpuEff nD τ sig (Elt F) Λ (c : Thread nD τ).2) α} :
    owned (F := F) c (M.slice (Rect.unit off' size inb') (fun _ => rfl))
      ⊢ iprop((∀ v, owned (F := F) c (M.slice (Rect.unit off' size inb') (fun _ => rfl)) -∗ wp frame (wpE defs 𝒱 (c : Thread nD τ) bd) Es (k v) Q)
          -∗ wp frame (wpE defs 𝒱 (c : Thread nD τ) bd) Es (.op (.load M (Rect.unit off size inb).toLoadRect hl) k) Q) := by
  subst h
  unfold owned
  iintro ⟨%f, H⟩ Hk
  iapply (wp_load_rect (defs := defs) (Q := Q) (k := k) 𝒱 (c : Thread nD τ) bd Es (m := M) (r := Rect.unit off size inb)
    (S := (M.access (Rect.unit off size inb)).set) (q := fullShare) (f := f) subset_rfl) $$ H
  iintro H
  iapply Hk $$ %((M.access (Rect.unit off size inb)).read (Elt F) f)
  iexists f
  iexact H

/-- A store of `w` through a rectangle of a buffer whose elements under that rectangle the device owns: afterwards they hold `w`. -/
theorem store_owned {α : Type} {Q : α → sProp 𝕄} (c : Dev nD) {s : Shape} (M : Memref sig .tc .vmem s .f32) {off off' size : Fin s.rank → ℕ} (h : off = off')
    (inb : ∀ a, off a + size a ≤ s.size a) (inb' : ∀ a, off' a + size a ≤ s.size a) (bd : Option 𝒱.V) {Es : Set ℕ}
    (w : (Rect.unit off size inb).shape.Idx → Elt F .f32)
    {hx : (M.access (Rect.unit off size inb)).Stores Finset.univ} {hm : (Finset.univ : Finset (Rect.unit off size inb).shape.Idx) = Finset.univ ∨ ∀ a, (Rect.unit off size inb).stride a = 1}
    {k : PUnit → Prog (TpuEff nD τ sig (Elt F) Λ (c : Thread nD τ).2) α} :
    owned (F := F) c (M.slice (Rect.unit off' size inb') (fun _ => rfl))
      ⊢ iprop((holds c (M.slice (Rect.unit off' size inb') (fun _ => rfl)) w -∗ wp frame (wpE defs 𝒱 (c : Thread nD τ) bd) Es (k ⟨⟩) Q)
          -∗ wp frame (wpE defs 𝒱 (c : Thread nD τ) bd) Es (.op (.store M (Rect.unit off size inb) w Finset.univ hx hm) k) Q) := by
  subst h
  unfold owned holds
  iintro ⟨%f, H⟩ Hk
  iapply (wp_store (defs := defs) (Q := Q) (k := k) 𝒱 (c : Thread nD τ) bd Es (m := M) (r := Rect.unit off size inb) (w := w) (Mk := Finset.univ)
    (S := (M.access (Rect.unit off size inb)).set) (f := f) (by rw [View.setOn_univ])) $$ H
  iintro H
  iapply Hk
  iexists ((M.access (Rect.unit off size inb)).write (Elt F) f w Finset.univ)
  isplitl [H]; · iexact H
  ipureintro
  exact View.read_write_univ _ _

omit [FloatOps F] in
theorem off18_eq_off19 (c : Dev nD) : k0_off18 c = k0_off19 c := (off18_eq' c).trans (off19_eq' c).symm

set_option maxRecDepth 65536 in
/-- After the merge: the merged row `w`, which is the device's row of the gathered result, is stored into the device's own row of
    the result staging buffer; the first exchange sends it to the first partner, and its send is waited for. -/
theorem seg31Tail_run {defs : Defs nD τ sig (Elt F) Λ₀} (c : Dev nD) (w : FVec F S1x8x16x128 .f32)
    (hw : (row1 c).view.read (Elt F) (vg (c.val % 4)) = w)
    (κ : GSem nD τ sig → ℕ) (W : Waits sig Unit) (hr0 : τ.routes (c : Thread nD τ) (p0 c : Thread nD τ) = true) :
    iprop(cellInv ER (Rd vo vm vl vg kin vin m) (κ (gsendCell c 0)) (gsendCell c 0) ∗ reached ER (gsendCell c 0) 0
        ∗ cellInv ER (Rd vo vm vl vg kin vin m) (κ (grecvCell (p0 c) 0)) (grecvCell (p0 c) 0) ∗ reached ER (grecvCell (p0 c) 0) 0
        ∗ MayWait (c : Thread nD τ) (.dma (sem3 cc0_scratch12 0)) () (owedAfter 15 c)
        ∗ owes (c : Thread nD τ) (owedAfter 14 c) W
        ∗ owned (F := F) c (row1 c) ∗ rowsOwned (F := F) (p0 c) c 0
        ∗ dutyTok ER (gsendCell c 0) 0 0 ∗ dutyTok ER (grecvCell (p0 c) 0) 0 0
        ∗ atPos ER (gsendCell c 0) 0 ∅ 0)
      ⊢ wp frame (wpE defs 𝒱 (c : Thread nD τ) none) Set.univ (seg31Tail (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c w) (fun _ =>
          iprop(owes (c : Thread nD τ) (owedAfter 15 c) (insert (SemLoc.dma (sem3 cc0_scratch12 0), ()) W)
            ∗ atPos ER (gsendCell c 0) (0 + 1) ∅ 0
            ∗ rowsHold vg c c 0)) := by
  unfold seg31Tail
  iintro ⟨#HIgs, #HRgs, #HIgn, #HRgn, #HMgs, HO, Hrow, Hpr, Htgs, Htgn, Hatgs⟩
  iapply (load_owned 𝒱 c outM (off18_eq_off19 c) (Gen.k0_off18_inb c) (Gen.k0_off19_inb c) none) $$ Hrow
  iintro %v853 Hrow
  iapply (store_owned 𝒱 c outM (off18_eq_off19 c) (Gen.k0_off18_inb c) (Gen.k0_off19_inb c) none w) $$ Hrow
  iintro Hrow
  have e : (holds c (row1 c) w : sProp 𝕄) ⊢ rowsHold vg c c 0 :=
    Entails.of_eq (by rw [show (rowsHold vg c c 0 : sProp 𝕄) = holds c (row1 c) ((row1 c).view.read (Elt F) (vg (c.val % 4))) from rfl, hw])
  ihave Hrw := e $$ Hrow
  iapply (gath_send_0 vo vm vl vg kin vin m 𝒱 c none (dev15_eq c) (owedAfter 15 c) (owedAfter_step c 14 (by decide)) hr0) $$ [HO Hrw Hpr Htgs Htgn]
  · isplitr; · iexact HIgs
    isplitr; · iexact HIgn
    isplitl [Hrw]; · iexact Hrw
    isplitl [Hpr]; · iexact Hpr
    isplitl [HO]; · iexact HO
    isplitl [Htgs]; · iexact Htgs
    isplitr; · iexact HRgs
    isplitl [Htgn]; · iexact Htgn
    iexact HRgn
  iintro ⟨Hcgs, HO⟩
  iapply (gath_swait vo vm vl vg kin vin m 𝒱 c 0 none (dst := row1 c) (row1_credit c c) (Set.mem_univ _)) $$ [Hcgs HO Hatgs]
  · isplitr; · iexact HIgs
    isplitl [Hcgs]; · iexact Hcgs
    isplitl [HO]; · iexact HO
    isplitr; · iexact HMgs
    iexact Hatgs
  iintro ⟨HO, Hatgs, -, Hrw⟩
  iapply (le_wp_ret _ _ _ _ _)
  isplitl [HO]; · iexact HO
  isplitl [Hatgs]; · iexact Hatgs
  iexact Hrw

end Store

/-! ### Before the first signal: the buffers cut, and what each signal hands over put together -/

section Entry

open Cert.Kernel.FD
open Cert.Kernel.Mesh (zr zl zr_zl zl_zr p0 p1 p2 p0_p0 p1_p1 p2_p2)
open Idealize.ShloMosaic.Rounds

variable {F : FTy → Type} [FloatOps F]

local notation "𝕄" => MT nD τ sig Unit (Elt F) ℕ UU ℕ

omit [FloatOps F] in
/-- The result staging buffer held whole, at any contents, is the device's own row and the rows it lends its three partners. -/
theorem out_entry (c : Dev nD) (f : Buf (Elt F) (outM.view.loc (c : Thread nD τ))) :
    (outM.view.loc (c : Thread nD τ) ↦{fullShare} f : sProp 𝕄)
      ⊢ iprop(owned (F := F) c (row1 c) ∗ rowsOwned (F := F) c (p0 c) 0 ∗ rowsOwned (F := F) c (p1 c) 1 ∗ rowsOwned (F := F) c (p2 c) 2) := by
  have e1 : (rowsOwned (F := F) c (p0 c) 0 : sProp 𝕄) = owned c (row1 (p0 c)) := rfl
  have e2 : (rowsOwned (F := F) c (p1 c) 1 : sProp 𝕄) = owned c (row2 (p1 c)) := rfl
  have e3 : (rowsOwned (F := F) c (p2 c) 2 : sProp 𝕄) = owned c (row4 (p2 c)) := rfl
  rw [e1, e2, e3, out_cut c c outM (Memref.isWhole_whole _) fullShare f]
  unfold owned
  iintro ⟨H0, H1, H2, H3⟩
  isplitl [H0]; · iexists f; iexact H0
  isplitl [H1]; · iexists f; iexact H1
  isplitl [H2]; · iexists f; iexact H2
  iexists f; iexact H3

omit [FloatOps F] in
/-- What the device's first signal hands the previous device along z: the device's own slots 1, 2, 3 and that it stands at round 0
    of its nine ring receive cells. -/
theorem barPay_zl_intro (c : Dev nD) :
    iprop((slotOwned (F := F) c 0 (0 : Fin 3).succ ∗ slotOwned (F := F) c 0 (1 : Fin 3).succ ∗ slotOwned (F := F) c 0 (2 : Fin 3).succ
          ∗ slotOwned (F := F) c 1 (0 : Fin 3).succ ∗ slotOwned (F := F) c 1 (1 : Fin 3).succ ∗ slotOwned (F := F) c 1 (2 : Fin 3).succ
          ∗ slotOwned (F := F) c 2 (0 : Fin 3).succ ∗ slotOwned (F := F) c 2 (1 : Fin 3).succ ∗ slotOwned (F := F) c 2 (2 : Fin 3).succ)
        ∗ bigSep Finset.univ fun b : Fin 3 => bigSep Finset.univ fun h : Fin 3 => reached ER (rrecvCell c b h) 0)
      ⊢ barPay (F := F) (zl c) 0 := by
  show _ ⊢ iprop((bigSep Finset.univ fun b : Fin 3 => bigSep Finset.univ fun h : Fin 3 => slotOwned (F := F) (zr (zl c)) b h.succ)
        ∗ bigSep Finset.univ fun b : Fin 3 => bigSep Finset.univ fun h : Fin 3 => reached ER (rrecvCell (zr (zl c)) b h) 0)
  rw [zr_zl, Ring.bigSep_fin3 (fun b : Fin 3 => bigSep Finset.univ fun h : Fin 3 => slotOwned (F := F) c b h.succ)]
  simp only [Ring.bigSep_fin3 (fun h : Fin 3 => slotOwned (F := F) c _ h.succ)]
  iintro ⟨⟨H01, H02, H03, H11, H12, H13, H21, H22, H23⟩, Hr⟩
  isplitr [Hr]
  · isplitl [H01 H02 H03]
    · isplitl [H01]; · iexact H01
      isplitl [H02]; · iexact H02
      iexact H03
    isplitl [H11 H12 H13]
    · isplitl [H11]; · iexact H11
      isplitl [H12]; · iexact H12
      iexact H13
    isplitl [H21]; · iexact H21
    isplitl [H22]; · iexact H22
    iexact H23
  · iexact Hr

omit [FloatOps F] in
/-- What the device's signal to its partner of exchange 0, 1, 2 hands that partner: the rows of the device's own result staging
    buffer that the partner writes, and that the device stands at round 0 of that exchange's receive cell. -/
theorem barPay_p0_intro (c : Dev nD) : iprop(rowsOwned (F := F) c (p0 c) 0 ∗ reached ER (grecvCell c 0) 0) ⊢ barPay (F := F) (p0 c) 2 := by
  show _ ⊢ iprop(rowsOwned (F := F) (p0 (p0 c)) (p0 c) 0 ∗ reached ER (grecvCell (p0 (p0 c)) 0) 0)
  rw [p0_p0]
omit [FloatOps F] in
theorem barPay_p1_intro (c : Dev nD) : iprop(rowsOwned (F := F) c (p1 c) 1 ∗ reached ER (grecvCell c 1) 0) ⊢ barPay (F := F) (p1 c) 3 := by
  show _ ⊢ iprop(rowsOwned (F := F) (p1 (p1 c)) (p1 c) 1 ∗ reached ER (grecvCell (p1 (p1 c)) 1) 0)
  rw [p1_p1]
omit [FloatOps F] in
theorem barPay_p2_intro (c : Dev nD) : iprop(rowsOwned (F := F) c (p2 c) 2 ∗ reached ER (grecvCell c 2) 0) ⊢ barPay (F := F) (p2 c) 4 := by
  show _ ⊢ iprop(rowsOwned (F := F) (p2 (p2 c)) (p2 c) 2 ∗ reached ER (grecvCell (p2 (p2 c)) 2) 0)
  rw [p2_p2]
omit [FloatOps F] in
/-- The signal to the next device along z hands it nothing. -/
theorem barPay_zr_intro (c : Dev nD) : (emp : sProp 𝕄) ⊢ barPay (F := F) (zr c) 1 := .rfl

end Entry

/-! ### The ring buffers before the first signal and after the last hop -/

section RingEntry

open Cert.Kernel.FD
open Cert.Kernel.Facts₀ Cert.Kernel.Facts

variable {F : FTy → Type} [FloatOps F]

local notation "𝕄" => MT nD τ sig Unit (Elt F) ℕ UU ℕ

variable (vo : Dev nD → S8x16x128.Idx → Elt F .f32) (vm vl : Dev nD → S8x16x1.Idx → Elt F .f32)

omit [FloatOps F] in
/-- The partial-sum buffer held whole, its slot 0 reading the device's own partial sums, is slot 0 holding them and slots 1, 2, 3 owned. -/
theorem ringO_entry (c : Dev nD) (f : Buf (Elt F) (coM.view.loc (c : Thread nD τ))) (h0 : (oSlot 0).view.read (Elt F) f = vo c) :
    (coM.view.loc (c : Thread nD τ) ↦{fullShare} f : sProp 𝕄)
      ⊢ iprop(slotHolds vo vm vl c 0 0 ∗ slotOwned (F := F) c 0 1 ∗ slotOwned (F := F) c 0 2 ∗ slotOwned (F := F) c 0 3) := by
  have e0 : (slotHolds vo vm vl c 0 0 : sProp 𝕄) = holds c (oSlot 0) (vo c) := rfl
  have e1 : (slotOwned (F := F) c 0 1 : sProp 𝕄) = owned c (oSlot 1) := rfl
  have e2 : (slotOwned (F := F) c 0 2 : sProp 𝕄) = owned c (oSlot 2) := rfl
  have e3 : (slotOwned (F := F) c 0 3 : sProp 𝕄) = owned c (oSlot 3) := rfl
  rw [e0, e1, e2, e3, ringO_slots c coM (Memref.isWhole_whole _) fullShare f]
  unfold holds owned
  iintro ⟨H0, H1, H2, H3⟩
  isplitl [H0]
  · iexists f
    isplitl [H0]; · iexact H0
    ipureintro; exact h0
  isplitl [H1]; · iexists f; iexact H1
  isplitl [H2]; · iexists f; iexact H2
  iexists f; iexact H3

omit [FloatOps F] in
/-- The row-maximum buffer held whole, its slot 0 reading the device's own row maxima, is slot 0 holding them and slots 1, 2, 3 owned. -/
theorem ringM_entry (c : Dev nD) (f : Buf (Elt F) (cmM.view.loc (c : Thread nD τ))) (h0 : (cSlot cmM 0).view.read (Elt F) f = vm c) :
    (cmM.view.loc (c : Thread nD τ) ↦{fullShare} f : sProp 𝕄)
      ⊢ iprop(slotHolds vo vm vl c 1 0 ∗ slotOwned (F := F) c 1 1 ∗ slotOwned (F := F) c 1 2 ∗ slotOwned (F := F) c 1 3) := by
  have e0 : (slotHolds vo vm vl c 1 0 : sProp 𝕄) = holds c (cSlot cmM 0) (vm c) := rfl
  have e1 : (slotOwned (F := F) c 1 1 : sProp 𝕄) = owned c (cSlot cmM 1) := rfl
  have e2 : (slotOwned (F := F) c 1 2 : sProp 𝕄) = owned c (cSlot cmM 2) := rfl
  have e3 : (slotOwned (F := F) c 1 3 : sProp 𝕄) = owned c (cSlot cmM 3) := rfl
  rw [e0, e1, e2, e3, ringM_slots c cmM (Memref.isWhole_whole _) fullShare f]
  unfold holds owned
  iintro ⟨H0, H1, H2, H3⟩
  isplitl [H0]
  · iexists f
    isplitl [H0]; · iexact H0
    ipureintro; exact h0
  isplitl [H1]; · iexists f; iexact H1
  isplitl [H2]; · iexists f; iexact H2
  iexists f; iexact H3

omit [FloatOps F] in
/-- The row-sum buffer held whole, its slot 0 reading the device's own row sums, is slot 0 holding them and slots 1, 2, 3 owned. -/
theorem ringL_entry (c : Dev nD) (f : Buf (Elt F) (clM.view.loc (c : Thread nD τ))) (h0 : (cSlot clM 0).view.read (Elt F) f = vl c) :
    (clM.view.loc (c : Thread nD τ) ↦{fullShare} f : sProp 𝕄)
      ⊢ iprop(slotHolds vo vm vl c 2 0 ∗ slotOwned (F := F) c 2 1 ∗ slotOwned (F := F) c 2 2 ∗ slotOwned (F := F) c 2 3) := by
  have e0 : (slotHolds vo vm vl c 2 0 : sProp 𝕄) = holds c (cSlot clM 0) (vl c) := rfl
  have e1 : (slotOwned (F := F) c 2 1 : sProp 𝕄) = owned c (cSlot clM 1) := rfl
  have e2 : (slotOwned (F := F) c 2 2 : sProp 𝕄) = owned c (cSlot clM 2) := rfl
  have e3 : (slotOwned (F := F) c 2 3 : sProp 𝕄) = owned c (cSlot clM 3) := rfl
  rw [e0, e1, e2, e3, ringM_slots c clM (Memref.isWhole_whole _) fullShare f]
  unfold holds owned
  iintro ⟨H0, H1, H2, H3⟩
  isplitl [H0]
  · iexists f
    isplitl [H0]; · iexact H0
    ipureintro; exact h0
  isplitl [H1]; · iexists f; iexact H1
  isplitl [H2]; · iexists f; iexact H2
  iexists f; iexact H3

end RingEntry

section RingExit

open Cert.Kernel.FD
open Cert.Kernel.Facts₀ Cert.Kernel.Facts

variable {F : FTy → Type} [FloatOps F]

local notation "𝕄" => MT nD τ sig Unit (Elt F) ℕ UU ℕ

variable (vo : Dev nD → S8x16x128.Idx → Elt F .f32) (vm vl : Dev nD → S8x16x1.Idx → Elt F .f32)

omit [FloatOps F] in
/-- After the last hop the four slots of the partial-sum buffer join to the buffer held whole, each slot reading what it held. -/
theorem ringO_exit (c : Dev nD) :
    iprop(slotHolds vo vm vl c 0 0 ∗ slotHolds vo vm vl c 0 1 ∗ slotHolds vo vm vl c 0 2 ∗ slotHolds vo vm vl c 0 3)
      ⊢ iprop(∃ g : Buf (Elt F) (coM.view.loc (c : Thread nD τ)), (coM.view.loc (c : Thread nD τ) ↦{fullShare} g)
          ∗ ⌜(oSlot 0).view.read (Elt F) g = vo (back 0 c) ∧ (oSlot 1).view.read (Elt F) g = vo (back 1 c)
            ∧ (oSlot 2).view.read (Elt F) g = vo (back 2 c) ∧ (oSlot 3).view.read (Elt F) g = vo (back 3 c)⌝) := by
  have inb : ∀ (b : Fin 4) (a : Fin 4), (![b.val, 0, 0, 0] : Fin 4 → ℕ) a + S1x8x16x128.size a ≤ S4x8x16x128.size a := by decide
  have hs0 : (oSlot 0).view.set = (coM.view.slice (Rect.unit (s := S4x8x16x128) ![(0 : Fin 4).val, 0, 0, 0] S1x8x16x128.size (inb 0))).set := View.set_reshape _ _
  have hs1 : (oSlot 1).view.set = (coM.view.slice (Rect.unit (s := S4x8x16x128) ![(1 : Fin 4).val, 0, 0, 0] S1x8x16x128.size (inb 1))).set := View.set_reshape _ _
  have hs2 : (oSlot 2).view.set = (coM.view.slice (Rect.unit (s := S4x8x16x128) ![(2 : Fin 4).val, 0, 0, 0] S1x8x16x128.size (inb 2))).set := View.set_reshape _ _
  have hs3 : (oSlot 3).view.set = (coM.view.slice (Rect.unit (s := S4x8x16x128) ![(3 : Fin 4).val, 0, 0, 0] S1x8x16x128.size (inb 3))).set := View.set_reshape _ _
  have hj := whole_lead_join (Ix := Unit) (Name := ℕ) (U := UU) (Lvl := ℕ) (Val := Elt F) (c := (c : Thread nD τ)) coM (Memref.isWhole_whole _) (NB := 4) (0 : Fin 4) 1
    (fun b => ![b.val, 0, 0, 0]) S1x8x16x128.size inb (fun b => by simp) (fun b a ha => by fin_cases a <;> first | exact absurd rfl ha | rfl)
    rfl (fun a ha => by fin_cases a <;> first | exact absurd rfl ha | rfl) rfl fullShare
  have e0 : (slotHolds vo vm vl c 0 0 : sProp 𝕄) = holds c (oSlot 0) (vo (back 0 c)) := rfl
  have e1 : (slotHolds vo vm vl c 0 1 : sProp 𝕄) = holds c (oSlot 1) (vo (back 1 c)) := rfl
  have e2 : (slotHolds vo vm vl c 0 2 : sProp 𝕄) = holds c (oSlot 2) (vo (back 2 c)) := rfl
  have e3 : (slotHolds vo vm vl c 0 3 : sProp 𝕄) = holds c (oSlot 3) (vo (back 3 c)) := rfl
  rw [e0, e1, e2, e3]
  unfold holds
  iintro ⟨⟨%f0, H0, %h0⟩, ⟨%f1, H1, %h1⟩, ⟨%f2, H2, %h2⟩, %f3, H3, %h3⟩
  have hj' := hj ![f0, f1, f2, f3] f0
  rw [bigSep_fin4] at hj'
  rw [← hs0, ← hs1, ← hs2, ← hs3] at hj'
  ihave Hj := hj' $$ [H0 H1 H2 H3]
  · isplitl [H0]; · iexact H0
    isplitl [H1]; · iexact H1
    isplitl [H2]; · iexact H2
    iexact H3
  icases Hj with ⟨%g, %hg, Hg⟩
  iexists g
  isplitl [Hg]; · iexact Hg
  ipureintro
  refine ⟨?_, ?_, ?_, ?_⟩
  · exact (View.read_congr (v := (oSlot 0).view) fun i hi => hg 0 i (hs0 ▸ hi)).trans h0
  · exact (View.read_congr (v := (oSlot 1).view) fun i hi => hg 1 i (hs1 ▸ hi)).trans h1
  · exact (View.read_congr (v := (oSlot 2).view) fun i hi => hg 2 i (hs2 ▸ hi)).trans h2
  · exact (View.read_congr (v := (oSlot 3).view) fun i hi => hg 3 i (hs3 ▸ hi)).trans h3

omit [FloatOps F] in
/-- After the last hop the four slots of the row-maximum buffer join to the buffer held whole, each slot reading what it held. -/
theorem ringM_exit (c : Dev nD) :
    iprop(slotHolds vo vm vl c 1 0 ∗ slotHolds vo vm vl c 1 1 ∗ slotHolds vo vm vl c 1 2 ∗ slotHolds vo vm vl c 1 3)
      ⊢ iprop(∃ g : Buf (Elt F) (cmM.view.loc (c : Thread nD τ)), (cmM.view.loc (c : Thread nD τ) ↦{fullShare} g)
          ∗ ⌜(cSlot cmM 0).view.read (Elt F) g = vm (back 0 c) ∧ (cSlot cmM 1).view.read (Elt F) g = vm (back 1 c)
            ∧ (cSlot cmM 2).view.read (Elt F) g = vm (back 2 c) ∧ (cSlot cmM 3).view.read (Elt F) g = vm (back 3 c)⌝) := by
  have inb : ∀ (b : Fin 4) (a : Fin 4), (![b.val, 0, 0, 0] : Fin 4 → ℕ) a + S1x8x16x1.size a ≤ S4x8x16x1.size a := by decide
  have hs0 : (cSlot cmM 0).view.set = (cmM.view.slice (Rect.unit (s := S4x8x16x1) ![(0 : Fin 4).val, 0, 0, 0] S1x8x16x1.size (inb 0))).set := View.set_reshape _ _
  have hs1 : (cSlot cmM 1).view.set = (cmM.view.slice (Rect.unit (s := S4x8x16x1) ![(1 : Fin 4).val, 0, 0, 0] S1x8x16x1.size (inb 1))).set := View.set_reshape _ _
  have hs2 : (cSlot cmM 2).view.set = (cmM.view.slice (Rect.unit (s := S4x8x16x1) ![(2 : Fin 4).val, 0, 0, 0] S1x8x16x1.size (inb 2))).set := View.set_reshape _ _
  have hs3 : (cSlot cmM 3).view.set = (cmM.view.slice (Rect.unit (s := S4x8x16x1) ![(3 : Fin 4).val, 0, 0, 0] S1x8x16x1.size (inb 3))).set := View.set_reshape _ _
  have hj := whole_lead_join (Ix := Unit) (Name := ℕ) (U := UU) (Lvl := ℕ) (Val := Elt F) (c := (c : Thread nD τ)) cmM (Memref.isWhole_whole _) (NB := 4) (0 : Fin 4) 1
    (fun b => ![b.val, 0, 0, 0]) S1x8x16x1.size inb (fun b => by simp) (fun b a ha => by fin_cases a <;> first | exact absurd rfl ha | rfl)
    rfl (fun a ha => by fin_cases a <;> first | exact absurd rfl ha | rfl) rfl fullShare
  have e0 : (slotHolds vo vm vl c 1 0 : sProp 𝕄) = holds c (cSlot cmM 0) (vm (back 0 c)) := rfl
  have e1 : (slotHolds vo vm vl c 1 1 : sProp 𝕄) = holds c (cSlot cmM 1) (vm (back 1 c)) := rfl
  have e2 : (slotHolds vo vm vl c 1 2 : sProp 𝕄) = holds c (cSlot cmM 2) (vm (back 2 c)) := rfl
  have e3 : (slotHolds vo vm vl c 1 3 : sProp 𝕄) = holds c (cSlot cmM 3) (vm (back 3 c)) := rfl
  rw [e0, e1, e2, e3]
  unfold holds
  iintro ⟨⟨%f0, H0, %h0⟩, ⟨%f1, H1, %h1⟩, ⟨%f2, H2, %h2⟩, %f3, H3, %h3⟩
  have hj' := hj ![f0, f1, f2, f3] f0
  rw [bigSep_fin4] at hj'
  rw [← hs0, ← hs1, ← hs2, ← hs3] at hj'
  ihave Hj := hj' $$ [H0 H1 H2 H3]
  · isplitl [H0]; · iexact H0
    isplitl [H1]; · iexact H1
    isplitl [H2]; · iexact H2
    iexact H3
  icases Hj with ⟨%g, %hg, Hg⟩
  iexists g
  isplitl [Hg]; · iexact Hg
  ipureintro
  refine ⟨?_, ?_, ?_, ?_⟩
  · exact (View.read_congr (v := (cSlot cmM 0).view) fun i hi => hg 0 i (hs0 ▸ hi)).trans h0
  · exact (View.read_congr (v := (cSlot cmM 1).view) fun i hi => hg 1 i (hs1 ▸ hi)).trans h1
  · exact (View.read_congr (v := (cSlot cmM 2).view) fun i hi => hg 2 i (hs2 ▸ hi)).trans h2
  · exact (View.read_congr (v := (cSlot cmM 3).view) fun i hi => hg 3 i (hs3 ▸ hi)).trans h3

omit [FloatOps F] in
/-- After the last hop the four slots of the row-sum buffer join to the buffer held whole, each slot reading what it held. -/
theorem ringL_exit (c : Dev nD) :
    iprop(slotHolds vo vm vl c 2 0 ∗ slotHolds vo vm vl c 2 1 ∗ slotHolds vo vm vl c 2 2 ∗ slotHolds vo vm vl c 2 3)
      ⊢ iprop(∃ g : Buf (Elt F) (clM.view.loc (c : Thread nD τ)), (clM.view.loc (c : Thread nD τ) ↦{fullShare} g)
          ∗ ⌜(cSlot clM 0).view.read (Elt F) g = vl (back 0 c) ∧ (cSlot clM 1).view.read (Elt F) g = vl (back 1 c)
            ∧ (cSlot clM 2).view.read (Elt F) g = vl (back 2 c) ∧ (cSlot clM 3).view.read (Elt F) g = vl (back 3 c)⌝) := by
  have inb : ∀ (b : Fin 4) (a : Fin 4), (![b.val, 0, 0, 0] : Fin 4 → ℕ) a + S1x8x16x1.size a ≤ S4x8x16x1.size a := by decide
  have hs0 : (cSlot clM 0).view.set = (clM.view.slice (Rect.unit (s := S4x8x16x1) ![(0 : Fin 4).val, 0, 0, 0] S1x8x16x1.size (inb 0))).set := View.set_reshape _ _
  have hs1 : (cSlot clM 1).view.set = (clM.view.slice (Rect.unit (s := S4x8x16x1) ![(1 : Fin 4).val, 0, 0, 0] S1x8x16x1.size (inb 1))).set := View.set_reshape _ _
  have hs2 : (cSlot clM 2).view.set = (clM.view.slice (Rect.unit (s := S4x8x16x1) ![(2 : Fin 4).val, 0, 0, 0] S1x8x16x1.size (inb 2))).set := View.set_reshape _ _
  have hs3 : (cSlot clM 3).view.set = (clM.view.slice (Rect.unit (s := S4x8x16x1) ![(3 : Fin 4).val, 0, 0, 0] S1x8x16x1.size (inb 3))).set := View.set_reshape _ _
  have hj := whole_lead_join (Ix := Unit) (Name := ℕ) (U := UU) (Lvl := ℕ) (Val := Elt F) (c := (c : Thread nD τ)) clM (Memref.isWhole_whole _) (NB := 4) (0 : Fin 4) 1
    (fun b => ![b.val, 0, 0, 0]) S1x8x16x1.size inb (fun b => by simp) (fun b a ha => by fin_cases a <;> first | exact absurd rfl ha | rfl)
    rfl (fun a ha => by fin_cases a <;> first | exact absurd rfl ha | rfl) rfl fullShare
  have e0 : (slotHolds vo vm vl c 2 0 : sProp 𝕄) = holds c (cSlot clM 0) (vl (back 0 c)) := rfl
  have e1 : (slotHolds vo vm vl c 2 1 : sProp 𝕄) = holds c (cSlot clM 1) (vl (back 1 c)) := rfl
  have e2 : (slotHolds vo vm vl c 2 2 : sProp 𝕄) = holds c (cSlot clM 2) (vl (back 2 c)) := rfl
  have e3 : (slotHolds vo vm vl c 2 3 : sProp 𝕄) = holds c (cSlot clM 3) (vl (back 3 c)) := rfl
  rw [e0, e1, e2, e3]
  unfold holds
  iintro ⟨⟨%f0, H0, %h0⟩, ⟨%f1, H1, %h1⟩, ⟨%f2, H2, %h2⟩, %f3, H3, %h3⟩
  have hj' := hj ![f0, f1, f2, f3] f0
  rw [bigSep_fin4] at hj'
  rw [← hs0, ← hs1, ← hs2, ← hs3] at hj'
  ihave Hj := hj' $$ [H0 H1 H2 H3]
  · isplitl [H0]; · iexact H0
    isplitl [H1]; · iexact H1
    isplitl [H2]; · iexact H2
    iexact H3
  icases Hj with ⟨%g, %hg, Hg⟩
  iexists g
  isplitl [Hg]; · iexact Hg
  ipureintro
  refine ⟨?_, ?_, ?_, ?_⟩
  · exact (View.read_congr (v := (cSlot clM 0).view) fun i hi => hg 0 i (hs0 ▸ hi)).trans h0
  · exact (View.read_congr (v := (cSlot clM 1).view) fun i hi => hg 1 i (hs1 ▸ hi)).trans h1
  · exact (View.read_congr (v := (cSlot clM 2).view) fun i hi => hg 2 i (hs2 ▸ hi)).trans h2
  · exact (View.read_congr (v := (cSlot clM 3).view) fun i hi => hg 3 i (hs3 ▸ hi)).trans h3

end RingExit

/-! ### The evidence a wait presents: every cell still to be paid sits above the cell waited on -/

section Levels

open Cert.Kernel.FD
open Cert.Kernel.Mesh (zr zl p0 p1 p2)

variable {F : FTy → Type} [FloatOps F]

local notation "𝕄" => MT nD τ sig Unit (Elt F) ℕ UU ℕ

omit [FloatOps F] in
/-- A sum of one-cell tallies over a list of payments is positive only at the cell of one of the payments. -/
theorem foldr_tally_pos (l : List (GSem nD τ sig × ℕ)) (g : GSem nD τ sig) (i : Unit)
    (h : 0 < (l.foldr (fun p acc => acc + tallyAt p.1 () p.2) (0 : CellTallies nD τ sig Unit)) g i) : ∃ p ∈ l, g = p.1 := by
  induction l with
  | nil => exact absurd h (Nat.lt_irrefl 0)
  | cons p l ih =>
    simp only [List.foldr_cons] at h
    rcases Pipeline.add_pos_cases h with h1 | h2
    · obtain ⟨p', hp', e⟩ := ih h1
      exact ⟨p', List.mem_cons_of_mem _ hp', e⟩
    · exact ⟨p, List.mem_cons_self .., (Pipeline.tallyAt_pos h2).1⟩

omit [FloatOps F] in
/-- Having made its first `k` payments, a device may wait on its cell `sm` if every cell still to be paid is a TensorCore cell at a
    level above `sm`'s. -/
theorem mayWait_after (c : Dev nD) (k : ℕ) (sm : SemLoc sig)
    (hlev : ∀ p ∈ (payList c).drop k, p.1.1.2 = .tc ∧ lv ((c : Thread nD τ), sm) () < lv p.1 ()) :
    (levAts L lv : sProp 𝕄) ⊢ MayWait (c : Thread nD τ) sm () (owedAfter k c) := by
  refine Pipeline.mayWait_of_levAts (L := L) (lev := lv) (by rw [L_tc]; exact Finset.mem_singleton_self _) ?_
  intro g i hg
  obtain ⟨p, hp, rfl⟩ := foldr_tally_pos ((payList c).drop k) g i hg
  obtain ⟨h1, h2⟩ := hlev p hp
  refine ⟨?_, ?_⟩
  · unfold L; rw [if_pos h1]; exact Finset.mem_singleton_self _
  · cases i; exact h2

omit [FloatOps F] in
theorem lv_bar (c : Dev nD) : lv (barCell c) () = 1 := by unfold lv; exact if_pos rfl
omit [FloatOps F] in
theorem lv_rsend (c : Dev nD) (b h : Fin 3) : lv (rsendCell c b h) () = 0 := by
  show (match kindOf (sem3 (sendArr b) h) with | .rrecv _ h => 2 + h.val | .grecv st => 5 + st.val | _ => 0) = 0
  rw [kind_rsend]
omit [FloatOps F] in
theorem lv_rrecv (c : Dev nD) (b h : Fin 3) : lv (rrecvCell c b h) () = 2 + h.val := by
  show (match kindOf (sem3 (recvArr b) h) with | .rrecv _ h => 2 + h.val | .grecv st => 5 + st.val | _ => 0) = 2 + h.val
  rw [kind_rrecv]
omit [FloatOps F] in
theorem lv_gsend (c : Dev nD) (st : Fin 3) : lv (gsendCell c st) () = 0 := by
  show (match kindOf (sem3 cc0_scratch12 st) with | .rrecv _ h => 2 + h.val | .grecv st => 5 + st.val | _ => 0) = 0
  rw [kind_gsend]
omit [FloatOps F] in
theorem lv_grecv (c : Dev nD) (st : Fin 3) : lv (grecvCell c st) () = 5 + st.val := by
  show (match kindOf (sem3 cc0_scratch13 st) with | .rrecv _ h => 2 + h.val | .grecv st => 5 + st.val | _ => 0) = 5 + st.val
  rw [kind_grecv]

end Levels

/-- info: 'Cert.Kernel.BodyProto.part18_run' depends on axioms: [propext, Classical.choice, Quot.sound] -/
#guard_msgs in #print axioms part18_run

/-- info: 'Cert.Kernel.BodyProto.seg31Tail_run' depends on axioms: [propext, Classical.choice, Quot.sound] -/
#guard_msgs in #print axioms seg31Tail_run

/-- info: 'Cert.Kernel.BodyProto.segExit_run' depends on axioms: [propext, Classical.choice, Quot.sound] -/
#guard_msgs in #print axioms segExit_run

/-- info: 'Cert.Kernel.BodyProto.ringO_exit' depends on axioms: [propext, Classical.choice, Quot.sound] -/
#guard_msgs in #print axioms ringO_exit

end Cert.Kernel.BodyProto
-- ==== Proof.ComputeW.lean ====
/-
  The local runs of the decode step's body: the sixteen heads and the merge.

  Each head takes eight query rows of the device's query block, scores them against the device's 1024 keys, and
  stores the unnormalised output `exp(s - max s) · V`, the row maxima `max s` and the row sums `Σ exp(s - max s)` at
  its place in slot 0 of the three partial-result buffers; the sixteen stores into a buffer tile its slot 0 exactly and
  touch nothing else, so after the heads slot 0 of each buffer is a function of the query, key and value blocks alone
  and slots 1, 2, 3 are what they were. The merge loads the four slots of the three buffers and combines them to the
  common row maximum; its value is a function of what the twelve slots read.

  Both runs are made once, at a symbolic device: the device enters only through the offsets of its query rows.
-/
import proofs.«900429_g7700000000000430_dist_flashdec_v7x_xyz2x4x4_z_b8_sq8_skv1024_h16_d128_f32_1_alg».proof.Proof.SegmentsW
import proofs.«900429_g7700000000000430_dist_flashdec_v7x_xyz2x4x4_z_b8_sq8_skv1024_h16_d128_f32_1_alg».proof.Proof.ProtoW
import Idealize.ShloMosaic.Lib.ValueLayout

set_option synthInstance.maxSize 4096

noncomputable section

namespace Cert.Kernel.FD

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-- Memref `M`'s buffer on device `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## The geometry of the sixteen stores

Head `h` stores a [1,8,1,128] block at `[0, 0, h, 0]` of the [4,8,16,128] buffer and a [1,8,1,1] block at the same
place of each [4,8,16,1] buffer. Together the sixteen blocks are exactly slot 0; nothing touches slots 1, 2, 3. -/

section Geometry

variable {Val : EltTy → Type}

theorem inbO (h : Fin 16) : ∀ a, (![0, 0, h.val, 0] : Fin 4 → ℕ) a + S1x8x1x128.size a ≤ S4x8x16x128.size a := by
  intro a
  match a with
  | ⟨0, _⟩ => show 0 + 1 ≤ 4; omega
  | ⟨1, _⟩ => show 0 + 8 ≤ 8; omega
  | ⟨2, _⟩ => show h.val + 1 ≤ 16; omega
  | ⟨3, _⟩ => show 0 + 128 ≤ 128; omega

theorem inbC (h : Fin 16) : ∀ a, (![0, 0, h.val, 0] : Fin 4 → ℕ) a + S1x8x1x1.size a ≤ S4x8x16x1.size a := by
  intro a
  match a with
  | ⟨0, _⟩ => show 0 + 1 ≤ 4; omega
  | ⟨1, _⟩ => show 0 + 8 ≤ 8; omega
  | ⟨2, _⟩ => show h.val + 1 ≤ 16; omega
  | ⟨3, _⟩ => show 0 + 1 ≤ 1; omega

/-- Head `h`'s block of the [4,8,16,128] buffer. -/
def rO (h : Fin 16) : Rect S4x8x16x128 := Rect.unit ![0, 0, h.val, 0] S1x8x1x128.size (inbO h)
/-- Head `h`'s block of a [4,8,16,1] buffer. -/
def rC (h : Fin 16) : Rect S4x8x16x1 := Rect.unit ![0, 0, h.val, 0] S1x8x1x1.size (inbC h)

/-- Row `a`, lane `d` of head `h`'s block sits at `(0, a, h, d)`. -/
theorem emb_rO (h : Fin 16) (j : (rO h).shape.Idx) : (rO h).emb j = ix4 (0 : Fin 4) (j 1) h (j 3) := by
  have h0 : (j 0).val < 1 := (j 0).isLt
  have h2 : (j 2).val < 1 := (j 2).isLt
  funext a
  apply Fin.ext
  rw [Rect.emb_apply]
  match a with
  | ⟨0, _⟩ => show 0 + 1 * (j 0).val = 0; omega
  | ⟨1, _⟩ => show 0 + 1 * (j 1).val = (j 1).val; omega
  | ⟨2, _⟩ => show h.val + 1 * (j 2).val = h.val; omega
  | ⟨3, _⟩ => show 0 + 1 * (j 3).val = (j 3).val; omega

theorem emb_rC (h : Fin 16) (j : (rC h).shape.Idx) : (rC h).emb j = ix4 (0 : Fin 4) (j 1) h (j 3) := by
  have h0 : (j 0).val < 1 := (j 0).isLt
  have h2 : (j 2).val < 1 := (j 2).isLt
  funext a
  apply Fin.ext
  rw [Rect.emb_apply]
  match a with
  | ⟨0, _⟩ => show 0 + 1 * (j 0).val = 0; omega
  | ⟨1, _⟩ => show 0 + 1 * (j 1).val = (j 1).val; omega
  | ⟨2, _⟩ => show h.val + 1 * (j 2).val = h.val; omega
  | ⟨3, _⟩ => show 0 + 1 * (j 3).val = (j 3).val; omega

/-- An index of a head's block is its row and its lane. -/
theorem idxO_eq (j : S1x8x1x128.Idx) : j = ix4 (0 : Fin 1) (j 1) (0 : Fin 1) (j 3) := by
  have h0 : (j 0).val < 1 := (j 0).isLt
  have h2 : (j 2).val < 1 := (j 2).isLt
  funext a
  apply Fin.ext
  match a with
  | ⟨0, _⟩ => show (j 0).val = 0; omega
  | ⟨1, _⟩ => rfl
  | ⟨2, _⟩ => show (j 2).val = 0; omega
  | ⟨3, _⟩ => rfl

theorem idxC_eq (j : S1x8x1x1.Idx) : j = ix4 (0 : Fin 1) (j 1) (0 : Fin 1) (j 3) := by
  have h0 : (j 0).val < 1 := (j 0).isLt
  have h2 : (j 2).val < 1 := (j 2).isLt
  funext a
  apply Fin.ext
  match a with
  | ⟨0, _⟩ => show (j 0).val = 0; omega
  | ⟨1, _⟩ => rfl
  | ⟨2, _⟩ => show (j 2).val = 0; omega
  | ⟨3, _⟩ => rfl

/-- The sixteen stores into the [4,8,16,128] buffer, the last one first, head `h` storing `hd h`. -/
def piecesO (hd : Fin 16 → S1x8x1x128.Idx → Val .f32) : List (View.Piece Val S4x8x16x128 .f32) :=
  (List.ofFn fun h : Fin 16 => (⟨rO h, hd h⟩ : View.Piece Val S4x8x16x128 .f32)).reverse
/-- The sixteen stores into a [4,8,16,1] buffer, the last one first. -/
def piecesC (hd : Fin 16 → S1x8x1x1.Idx → Val .f32) : List (View.Piece Val S4x8x16x1 .f32) :=
  (List.ofFn fun h : Fin 16 => (⟨rC h, hd h⟩ : View.Piece Val S4x8x16x1 .f32)).reverse

theorem mem_piecesO {hd : Fin 16 → S1x8x1x128.Idx → Val .f32} {p : View.Piece Val S4x8x16x128 .f32} :
    p ∈ piecesO hd ↔ ∃ h, (⟨rO h, hd h⟩ : View.Piece Val S4x8x16x128 .f32) = p := by
  unfold piecesO; rw [List.mem_reverse, List.mem_ofFn]
theorem mem_piecesC {hd : Fin 16 → S1x8x1x1.Idx → Val .f32} {p : View.Piece Val S4x8x16x1 .f32} :
    p ∈ piecesC hd ↔ ∃ h, (⟨rC h, hd h⟩ : View.Piece Val S4x8x16x1 .f32) = p := by
  unfold piecesC; rw [List.mem_reverse, List.mem_ofFn]

theorem mem_rO {h : Fin 16} {y : S4x8x16x128.Idx} : y ∈ (rO h).set ↔ (y 0).val = 0 ∧ (y 2).val = h.val := by
  unfold rO
  rw [Rect.mem_set_unit]
  constructor
  · intro H
    have H0 := H 0
    have H2 := H 2
    change 0 ≤ (y 0).val ∧ (y 0).val < 0 + 1 at H0
    change h.val ≤ (y 2).val ∧ (y 2).val < h.val + 1 at H2
    omega
  · rintro ⟨e0, e2⟩ a
    match a with
    | ⟨0, _⟩ => show 0 ≤ (y 0).val ∧ (y 0).val < 0 + 1; omega
    | ⟨1, _⟩ => show 0 ≤ (y 1).val ∧ (y 1).val < 0 + 8; have := (y 1).isLt; change (y 1).val < 8 at this; omega
    | ⟨2, _⟩ => show h.val ≤ (y 2).val ∧ (y 2).val < h.val + 1; omega
    | ⟨3, _⟩ => show 0 ≤ (y 3).val ∧ (y 3).val < 0 + 128; have := (y 3).isLt; change (y 3).val < 128 at this; omega

theorem mem_rC {h : Fin 16} {y : S4x8x16x1.Idx} : y ∈ (rC h).set ↔ (y 0).val = 0 ∧ (y 2).val = h.val := by
  unfold rC
  rw [Rect.mem_set_unit]
  constructor
  · intro H
    have H0 := H 0
    have H2 := H 2
    change 0 ≤ (y 0).val ∧ (y 0).val < 0 + 1 at H0
    change h.val ≤ (y 2).val ∧ (y 2).val < h.val + 1 at H2
    omega
  · rintro ⟨e0, e2⟩ a
    match a with
    | ⟨0, _⟩ => show 0 ≤ (y 0).val ∧ (y 0).val < 0 + 1; omega
    | ⟨1, _⟩ => show 0 ≤ (y 1).val ∧ (y 1).val < 0 + 8; have := (y 1).isLt; change (y 1).val < 8 at this; omega
    | ⟨2, _⟩ => show h.val ≤ (y 2).val ∧ (y 2).val < h.val + 1; omega
    | ⟨3, _⟩ => show 0 ≤ (y 3).val ∧ (y 3).val < 0 + 1; have := (y 3).isLt; change (y 3).val < 1 at this; omega

variable {sg : RefSig} {κ : Idealize.ShloMosaic.Kind} {sp : Space}

/-- After the sixteen stores, slot 0 reads head by head what was stored, whatever the buffer held. -/
theorem read_piecesO_slot0 (v : View sg κ sp S4x8x16x128 .f32) (f : v.ty.Contents Val) (hd : Fin 16 → S1x8x1x128.Idx → Val .f32)
    (a : Fin 8) (h : Fin 16) (d : Fin 128) :
    v.read Val (v.writes Val f (piecesO hd)) (ix4 (0 : Fin 4) a h d) = hd h (ix4 (0 : Fin 1) a (0 : Fin 1) d) := by
  refine View.read_writes_apply_of_pieces v f (fun y => hd (y 2) (ix4 (0 : Fin 1) (y 1) (0 : Fin 1) (y 3))) (piecesO hd) ?_ _ ?_
  · intro p hp x
    obtain ⟨h', rfl⟩ := mem_piecesO.mp hp
    show hd h' x = hd ((rO h').emb x 2) (ix4 (0 : Fin 1) ((rO h').emb x 1) (0 : Fin 1) ((rO h').emb x 3))
    rw [emb_rO]
    exact congrArg (hd h') (idxO_eq x)
  · exact ⟨⟨rO h, hd h⟩, mem_piecesO.mpr ⟨h, rfl⟩, mem_rO.mpr ⟨rfl, rfl⟩⟩

/-- Slots 1, 2, 3 read what they read before. -/
theorem read_piecesO_rest (v : View sg κ sp S4x8x16x128 .f32) (f : v.ty.Contents Val) (hd : Fin 16 → S1x8x1x128.Idx → Val .f32)
    (y : S4x8x16x128.Idx) (hy : (y 0).val ≠ 0) :
    v.read Val (v.writes Val f (piecesO hd)) y = v.read Val f y := by
  refine View.read_writes_apply_of_forall_not_mem v f y (piecesO hd) fun p hp hm => ?_
  obtain ⟨h', rfl⟩ := mem_piecesO.mp hp
  exact hy (mem_rO.mp hm).1

theorem read_piecesC_slot0 (v : View sg κ sp S4x8x16x1 .f32) (f : v.ty.Contents Val) (hd : Fin 16 → S1x8x1x1.Idx → Val .f32)
    (a : Fin 8) (h : Fin 16) (d : Fin 1) :
    v.read Val (v.writes Val f (piecesC hd)) (ix4 (0 : Fin 4) a h d) = hd h (ix4 (0 : Fin 1) a (0 : Fin 1) d) := by
  refine View.read_writes_apply_of_pieces v f (fun y => hd (y 2) (ix4 (0 : Fin 1) (y 1) (0 : Fin 1) (y 3))) (piecesC hd) ?_ _ ?_
  · intro p hp x
    obtain ⟨h', rfl⟩ := mem_piecesC.mp hp
    show hd h' x = hd ((rC h').emb x 2) (ix4 (0 : Fin 1) ((rC h').emb x 1) (0 : Fin 1) ((rC h').emb x 3))
    rw [emb_rC]
    exact congrArg (hd h') (idxC_eq x)
  · exact ⟨⟨rC h, hd h⟩, mem_piecesC.mpr ⟨h, rfl⟩, mem_rC.mpr ⟨rfl, rfl⟩⟩

theorem read_piecesC_rest (v : View sg κ sp S4x8x16x1 .f32) (f : v.ty.Contents Val) (hd : Fin 16 → S1x8x1x1.Idx → Val .f32)
    (y : S4x8x16x1.Idx) (hy : (y 0).val ≠ 0) :
    v.read Val (v.writes Val f (piecesC hd)) y = v.read Val f y := by
  refine View.read_writes_apply_of_forall_not_mem v f y (piecesC hd) fun p hp hm => ?_
  obtain ⟨h', rfl⟩ := mem_piecesC.mp hp
  exact hy (mem_rC.mp hm).1

end Geometry

/-! ## A slot's view reads the whole buffer at the slot's place -/

section SlotRead

variable {Val : EltTy → Type} {sg : RefSig} {κ : Idealize.ShloMosaic.Kind} {sp : Space}

theorem inbS3 (j : Fin 4) : ∀ a, (![j.val, 0, 0, 0] : Fin 4 → ℕ) a + S1x8x16x128.size a ≤ S4x8x16x128.size a := by
  intro a
  match a with
  | ⟨0, _⟩ => show j.val + 1 ≤ 4; omega
  | ⟨1, _⟩ => show 0 + 8 ≤ 8; omega
  | ⟨2, _⟩ => show 0 + 16 ≤ 16; omega
  | ⟨3, _⟩ => show 0 + 128 ≤ 128; omega

theorem inbS1 (j : Fin 4) : ∀ a, (![j.val, 0, 0, 0] : Fin 4 → ℕ) a + S1x8x16x1.size a ≤ S4x8x16x1.size a := by
  intro a
  match a with
  | ⟨0, _⟩ => show j.val + 1 ≤ 4; omega
  | ⟨1, _⟩ => show 0 + 8 ≤ 8; omega
  | ⟨2, _⟩ => show 0 + 16 ≤ 16; omega
  | ⟨3, _⟩ => show 0 + 1 ≤ 1; omega

/-- Slot `j` of a [4,8,16,128] buffer, sliced out and squeezed to [8,16,128], reads the buffer at `(j, ·, ·, ·)`. -/
theorem slot3_read (v : View sg κ sp S4x8x16x128 .f32) (j : Fin 4)
    (inb : ∀ a, (![j.val, 0, 0, 0] : Fin 4 → ℕ) a + S1x8x16x128.size a ≤ S4x8x16x128.size a)
    (hn : S8x16x128.numel = S1x8x16x128.numel) (g : v.ty.Contents Val) (x : S8x16x128.Idx) :
    ((v.slice (Rect.unit (s := S4x8x16x128) ![j.val, 0, 0, 0] S1x8x16x128.size inb)).reshape S8x16x128 hn).read Val g x
      = v.read Val g (ix4 j (x 0) (x 1) (x 2)) := by
  obtain ⟨x0, x1, x2, rfl⟩ : ∃ a b c, x = ix3 a b c := ⟨x 0, x 1, x 2, eq_ix3 x⟩
  have e : ((v.slice (Rect.unit (s := S4x8x16x128) ![j.val, 0, 0, 0] S1x8x16x128.size inb)).reshape S8x16x128 hn).emb (ix3 x0 x1 x2)
      = v.emb (ix4 j x0 x1 x2) := by
    show v.emb ((Rect.unit (s := S4x8x16x128) ![j.val, 0, 0, 0] S1x8x16x128.size inb).emb (Shape.reshapeEquiv hn (ix3 x0 x1 x2))) = _
    rw [reshapeEquiv_ix3_1abc]
    congr 1
    funext a
    apply Fin.ext
    rw [Rect.emb_apply]
    match a with
    | ⟨0, _⟩ => show j.val + 1 * 0 = j.val; omega
    | ⟨1, _⟩ => show 0 + 1 * x0.val = x0.val; omega
    | ⟨2, _⟩ => show 0 + 1 * x1.val = x1.val; omega
    | ⟨3, _⟩ => show 0 + 1 * x2.val = x2.val; omega
  rw [View.read_apply, View.read_apply, e]

/-- Slot `j` of a [4,8,16,1] buffer, sliced out and squeezed to [8,16,1], reads the buffer at `(j, ·, ·, ·)`. -/
theorem slot1_read (v : View sg κ sp S4x8x16x1 .f32) (j : Fin 4)
    (inb : ∀ a, (![j.val, 0, 0, 0] : Fin 4 → ℕ) a + S1x8x16x1.size a ≤ S4x8x16x1.size a)
    (hn : S8x16x1.numel = S1x8x16x1.numel) (g : v.ty.Contents Val) (x : S8x16x1.Idx) :
    ((v.slice (Rect.unit (s := S4x8x16x1) ![j.val, 0, 0, 0] S1x8x16x1.size inb)).reshape S8x16x1 hn).read Val g x
      = v.read Val g (ix4 j (x 0) (x 1) (x 2)) := by
  obtain ⟨x0, x1, x2, rfl⟩ : ∃ a b c, x = ix3 a b c := ⟨x 0, x 1, x 2, eq_ix3 x⟩
  have e : ((v.slice (Rect.unit (s := S4x8x16x1) ![j.val, 0, 0, 0] S1x8x16x1.size inb)).reshape S8x16x1 hn).emb (ix3 x0 x1 x2)
      = v.emb (ix4 j x0 x1 x2) := by
    show v.emb ((Rect.unit (s := S4x8x16x1) ![j.val, 0, 0, 0] S1x8x16x1.size inb).emb (Shape.reshapeEquiv hn (ix3 x0 x1 x2))) = _
    rw [reshapeEquiv_ix3_1abc]
    congr 1
    funext a
    apply Fin.ext
    rw [Rect.emb_apply]
    match a with
    | ⟨0, _⟩ => show j.val + 1 * 0 = j.val; omega
    | ⟨1, _⟩ => show 0 + 1 * x0.val = x0.val; omega
    | ⟨2, _⟩ => show 0 + 1 * x1.val = x1.val; omega
    | ⟨3, _⟩ => show 0 + 1 * x2.val = x2.val; omega
  rw [View.read_apply, View.read_apply, e]

end SlotRead

/-! ## The two local runs

Both start from the device's buffers held whole and end with them held whole. The heads read the query, key and
value buffers and write slot 0 of the three partial-result buffers; the merge only reads. -/

set_option maxHeartbeats 4000000 in
noncomputable def computeRun (c : Dev nD) (v28 : Vec F S1x8x1x128 .f32)
    (fq : Bf (F := F) c qM) (fk : Bf (F := F) c kM) (fv : Bf (F := F) c vM)
    (f6 : Bf (F := F) c coM) (f7 : Bf (F := F) c cmM) (f8 : Bf (F := F) c clM) :
    { W : Bf (F := F) c coM × Bf (F := F) c cmM × Bf (F := F) c clM //
      ∀ (v8 v10 : BitVec 32) (E : Set ℕ) (Q : (Σ' (v460 : BitVec 32) (v462 : BitVec 32), BitVec 32) → sProp 𝕄),
        iprop(pt c qM fq ∗ pt c kM fk ∗ pt c vM fv ∗ pt c coM f6 ∗ pt c cmM f7 ∗ pt c clM f8
          ∗ (iprop(pt c qM fq ∗ pt c kM fk ∗ pt c vM fv ∗ pt c coM W.1 ∗ pt c cmM W.2.1 ∗ pt c clM W.2.2)
              -∗ Q ⟨Scalar.remsi (Scalar.addi v8 1#32) 4#32, Scalar.subi (Scalar.addi v8 4#32) 1#32, 4#32⟩))
        ⊢ wp frame (wpE (defs₀ (F := F)) Variants.none c none) E
            (segCompute qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c v8 v10 v28) Q } := by
  refine ⟨⟨?_, ?_, ?_⟩, fun v8 v10 E Q => ?run⟩
  case run =>
    iintro ⟨Hq, Hk, Hv, H6, H7, H8, Hc⟩
    unfold segCompute
    sl_exec_parts
    sl_step
    unfold computeRun.sl.v460 computeRun.sl.v462 computeRun.sl.v459 computeRun.sl.v461
    iapply Hc
    isplitl [Hq]; · iexact Hq
    isplitl [Hk]; · iexact Hk
    isplitl [Hv]; · iexact Hv
    isplitl [H6]; · iexact H6
    isplitl [H7]; · iexact H7
    iexact H8

set_option maxHeartbeats 4000000 in
noncomputable def mergeRun (c : Dev nD)
    (g6 : Bf (F := F) c coM) (g7 : Bf (F := F) c cmM) (g8 : Bf (F := F) c clM) :
    { w : FVec F S1x8x16x128 .f32 //
      ∀ (E : Set ℕ) (Q : FVec F S1x8x16x128 .f32 → sProp 𝕄),
        iprop(pt c coM g6 ∗ pt c cmM g7 ∗ pt c clM g8
          ∗ (iprop(pt c coM g6 ∗ pt c cmM g7 ∗ pt c clM g8) -∗ Q w))
        ⊢ wp frame (wpE (defs₀ (F := F)) Variants.none c none) E
            (segMerge qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13) Q } := by
  refine ⟨?_, fun E Q => ?run⟩
  case run =>
    iintro ⟨H6, H7, H8, Hc⟩
    unfold segMerge
    sl_exec
    sl_step
    iapply Hc
    isplitl [H6]; · iexact H6
    isplitl [H7]; · iexact H7
    iexact H8

/-! ## What the sixteen heads store -/

/-- The rows of the query staging buffer a head loads: the [1,8,1,128] block at `off`. -/
abbrev qAt (c : Dev nD) (fq : Bf (F := F) c qM) (off : Fin 4 → ℕ) (inb : ∀ a, off a + S1x8x1x128.size a ≤ S8x8x16x128.size a) :
    Vec F S1x8x1x128 .f32 :=
  qM.view.readAt (Elt F) (Rect.unit (s := S8x8x16x128) off S1x8x1x128.size inb).toLoadRect fq
/-- A head's column of the key block: the [1024,1,128] block at `off`. -/
abbrev kAt (c : Dev nD) (fk : Bf (F := F) c kM) (off : Fin 3 → ℕ) (inb : ∀ a, off a + S1024x1x128.size a ≤ S1024x16x128.size a) :
    Vec F S1024x1x128 .f32 :=
  kM.view.readAt (Elt F) (Rect.unit (s := S1024x16x128) off S1024x1x128.size inb).toLoadRect fk
/-- A head's column of the value block. -/
abbrev vAt (c : Dev nD) (fv : Bf (F := F) c vM) (off : Fin 3 → ℕ) (inb : ∀ a, off a + S1024x1x128.size a ≤ S1024x16x128.size a) :
    Vec F S1024x1x128 .f32 :=
  vM.view.readAt (Elt F) (Rect.unit (s := S1024x16x128) off S1024x1x128.size inb).toLoadRect fv

/-- Head 0's rows of the query block, as the entry part loads them. -/
abbrev q0At (c : Dev nD) (fq : Bf (F := F) c qM) : Vec F S1x8x1x128 .f32 := qAt c fq (k0_off2 c) (k0_off2_inb c)

/-- The unnormalised output rows head `h` stores: `exp(s - max s) · V` for the scores `s = q · Kᵀ / √128` of the head's
    eight query rows against the device's 1024 keys, through the generated payload terms. `q0` is head 0's query rows. -/
abbrev stO (c : Dev nD) (q0 : Vec F S1x8x1x128 .f32) (fq : Bf (F := F) c qM) (fk : Bf (F := F) c kM) (fv : Bf (F := F) c vM) :
    Fin 16 → FVec F S1x8x1x128 .f32
  | ⟨0, _⟩ => k0_pay4 q0 (kAt c fk ![0, 0, 0] inb_S1024x16x128_S1024x1x128_0_0_0) (vAt c fv ![0, 0, 0] inb_S1024x16x128_S1024x1x128_0_0_0)
  | ⟨1, _⟩ => k0_pay11 (k0_pay7 (qAt c fq (k0_off3 c) (k0_off3_inb c))) (kAt c fk ![0, 1, 0] inb_S1024x16x128_S1024x1x128_0_1_0) (vAt c fv ![0, 1, 0] inb_S1024x16x128_S1024x1x128_0_1_0)
  | ⟨2, _⟩ => k0_pay19 (k0_pay14 (qAt c fq (k0_off4 c) (k0_off4_inb c))) (k0_pay15 (kAt c fk ![0, 2, 0] inb_S1024x16x128_S1024x1x128_0_2_0)) (vAt c fv ![0, 2, 0] inb_S1024x16x128_S1024x1x128_0_2_0)
  | ⟨3, _⟩ => k0_pay28 (k0_pay22 (qAt c fq (k0_off5 c) (k0_off5_inb c))) (k0_pay23 (kAt c fk ![0, 3, 0] inb_S1024x16x128_S1024x1x128_0_3_0)) (k0_pay24 (vAt c fv ![0, 3, 0] inb_S1024x16x128_S1024x1x128_0_3_0)) (constant S8x1024 .f32 0x00000000#32)
  | ⟨4, _⟩ => k0_pay35 (k0_pay31 (vAt c fv ![0, 4, 0] inb_S1024x16x128_S1024x1x128_0_4_0)) (k0_pay32 (qAt c fq (k0_off6 c) (k0_off6_inb c)) (kAt c fk ![0, 4, 0] inb_S1024x16x128_S1024x1x128_0_4_0))
  | ⟨5, _⟩ => k0_pay43 (k0_pay38 (vAt c fv ![0, 5, 0] inb_S1024x16x128_S1024x1x128_0_5_0)) (k0_pay39 (qAt c fq (k0_off7 c) (k0_off7_inb c)) (kAt c fk ![0, 5, 0] inb_S1024x16x128_S1024x1x128_0_5_0)) (k0_pay41 (qAt c fq (k0_off7 c) (k0_off7_inb c)) (kAt c fk ![0, 5, 0] inb_S1024x16x128_S1024x1x128_0_5_0))
  | ⟨6, _⟩ => k0_pay51 (k0_pay46 (vAt c fv ![0, 6, 0] inb_S1024x16x128_S1024x1x128_0_6_0)) (k0_pay49 (qAt c fq (k0_off8 c) (k0_off8_inb c)) (kAt c fk ![0, 6, 0] inb_S1024x16x128_S1024x1x128_0_6_0))
  | ⟨7, _⟩ => k0_pay59 (k0_pay58 (qAt c fq (k0_off9 c) (k0_off9_inb c)) (kAt c fk ![0, 7, 0] inb_S1024x16x128_S1024x1x128_0_7_0) (vAt c fv ![0, 7, 0] inb_S1024x16x128_S1024x1x128_0_7_0))
  | ⟨8, _⟩ => k0_pay67 (k0_pay66 (qAt c fq (k0_off10 c) (k0_off10_inb c)) (kAt c fk ![0, 8, 0] inb_S1024x16x128_S1024x1x128_0_8_0) (vAt c fv ![0, 8, 0] inb_S1024x16x128_S1024x1x128_0_8_0))
  | ⟨9, _⟩ => k0_pay74 (qAt c fq (k0_off11 c) (k0_off11_inb c)) (kAt c fk ![0, 9, 0] inb_S1024x16x128_S1024x1x128_0_9_0) (vAt c fv ![0, 9, 0] inb_S1024x16x128_S1024x1x128_0_9_0)
  | ⟨10, _⟩ => k0_pay81 (qAt c fq (k0_off12 c) (k0_off12_inb c)) (kAt c fk ![0, 10, 0] inb_S1024x16x128_S1024x1x128_0_10_0) (vAt c fv ![0, 10, 0] inb_S1024x16x128_S1024x1x128_0_10_0)
  | ⟨11, _⟩ => k0_pay88 (qAt c fq (k0_off13 c) (k0_off13_inb c)) (kAt c fk ![0, 11, 0] inb_S1024x16x128_S1024x1x128_0_11_0) (vAt c fv ![0, 11, 0] inb_S1024x16x128_S1024x1x128_0_11_0)
  | ⟨12, _⟩ => k0_pay95 (qAt c fq (k0_off14 c) (k0_off14_inb c)) (kAt c fk ![0, 12, 0] inb_S1024x16x128_S1024x1x128_0_12_0) (vAt c fv ![0, 12, 0] inb_S1024x16x128_S1024x1x128_0_12_0)
  | ⟨13, _⟩ => k0_pay101 (qAt c fq (k0_off15 c) (k0_off15_inb c)) (kAt c fk ![0, 13, 0] inb_S1024x16x128_S1024x1x128_0_13_0) (vAt c fv ![0, 13, 0] inb_S1024x16x128_S1024x1x128_0_13_0)
  | ⟨14, _⟩ => k0_pay107 (qAt c fq (k0_off16 c) (k0_off16_inb c)) (kAt c fk ![0, 14, 0] inb_S1024x16x128_S1024x1x128_0_14_0) (vAt c fv ![0, 14, 0] inb_S1024x16x128_S1024x1x128_0_14_0)
  | ⟨15, _⟩ => k0_pay113 (qAt c fq (k0_off17 c) (k0_off17_inb c)) (kAt c fk ![0, 15, 0] inb_S1024x16x128_S1024x1x128_0_15_0) (vAt c fv ![0, 15, 0] inb_S1024x16x128_S1024x1x128_0_15_0)
  | ⟨n + 16, hn⟩ => absurd hn (by omega)

/-- The row maxima head `h` stores. -/
abbrev stM (c : Dev nD) (q0 : Vec F S1x8x1x128 .f32) (fq : Bf (F := F) c qM) (fk : Bf (F := F) c kM) :
    Fin 16 → FVec F S1x8x1x1 .f32
  | ⟨0, _⟩ => k0_pay5 q0 (kAt c fk ![0, 0, 0] inb_S1024x16x128_S1024x1x128_0_0_0)
  | ⟨1, _⟩ => k0_pay12 (k0_pay7 (qAt c fq (k0_off3 c) (k0_off3_inb c))) (kAt c fk ![0, 1, 0] inb_S1024x16x128_S1024x1x128_0_1_0)
  | ⟨2, _⟩ => k0_pay20 (k0_pay14 (qAt c fq (k0_off4 c) (k0_off4_inb c))) (k0_pay15 (kAt c fk ![0, 2, 0] inb_S1024x16x128_S1024x1x128_0_2_0))
  | ⟨3, _⟩ => k0_pay29 (k0_pay22 (qAt c fq (k0_off5 c) (k0_off5_inb c))) (k0_pay23 (kAt c fk ![0, 3, 0] inb_S1024x16x128_S1024x1x128_0_3_0)) (constant S8x1024 .f32 0x00000000#32)
  | ⟨4, _⟩ => k0_pay36 (k0_pay32 (qAt c fq (k0_off6 c) (k0_off6_inb c)) (kAt c fk ![0, 4, 0] inb_S1024x16x128_S1024x1x128_0_4_0))
  | ⟨5, _⟩ => k0_pay44 (k0_pay40 (qAt c fq (k0_off7 c) (k0_off7_inb c)) (kAt c fk ![0, 5, 0] inb_S1024x16x128_S1024x1x128_0_5_0))
  | ⟨6, _⟩ => k0_pay52 (k0_pay48 (qAt c fq (k0_off8 c) (k0_off8_inb c)) (kAt c fk ![0, 6, 0] inb_S1024x16x128_S1024x1x128_0_6_0))
  | ⟨7, _⟩ => k0_pay60 (k0_pay55 (qAt c fq (k0_off9 c) (k0_off9_inb c)) (kAt c fk ![0, 7, 0] inb_S1024x16x128_S1024x1x128_0_7_0))
  | ⟨8, _⟩ => k0_pay68 (k0_pay63 (qAt c fq (k0_off10 c) (k0_off10_inb c)) (kAt c fk ![0, 8, 0] inb_S1024x16x128_S1024x1x128_0_8_0))
  | ⟨9, _⟩ => k0_pay75 (k0_pay71 (qAt c fq (k0_off11 c) (k0_off11_inb c)) (kAt c fk ![0, 9, 0] inb_S1024x16x128_S1024x1x128_0_9_0))
  | ⟨10, _⟩ => k0_pay82 (k0_pay78 (qAt c fq (k0_off12 c) (k0_off12_inb c)) (kAt c fk ![0, 10, 0] inb_S1024x16x128_S1024x1x128_0_10_0))
  | ⟨11, _⟩ => k0_pay89 (qAt c fq (k0_off13 c) (k0_off13_inb c)) (kAt c fk ![0, 11, 0] inb_S1024x16x128_S1024x1x128_0_11_0)
  | ⟨12, _⟩ => k0_pay96 (qAt c fq (k0_off14 c) (k0_off14_inb c)) (kAt c fk ![0, 12, 0] inb_S1024x16x128_S1024x1x128_0_12_0)
  | ⟨13, _⟩ => k0_pay102 (qAt c fq (k0_off15 c) (k0_off15_inb c)) (kAt c fk ![0, 13, 0] inb_S1024x16x128_S1024x1x128_0_13_0)
  | ⟨14, _⟩ => k0_pay108 (qAt c fq (k0_off16 c) (k0_off16_inb c)) (kAt c fk ![0, 14, 0] inb_S1024x16x128_S1024x1x128_0_14_0)
  | ⟨15, _⟩ => k0_pay114 (qAt c fq (k0_off17 c) (k0_off17_inb c)) (kAt c fk ![0, 15, 0] inb_S1024x16x128_S1024x1x128_0_15_0)
  | ⟨n + 16, hn⟩ => absurd hn (by omega)

/-- The row sums head `h` stores. -/
abbrev stL (c : Dev nD) (q0 : Vec F S1x8x1x128 .f32) (fq : Bf (F := F) c qM) (fk : Bf (F := F) c kM) :
    Fin 16 → FVec F S1x8x1x1 .f32
  | ⟨0, _⟩ => k0_pay6 q0 (kAt c fk ![0, 0, 0] inb_S1024x16x128_S1024x1x128_0_0_0)
  | ⟨1, _⟩ => k0_pay13 (k0_pay7 (qAt c fq (k0_off3 c) (k0_off3_inb c))) (kAt c fk ![0, 1, 0] inb_S1024x16x128_S1024x1x128_0_1_0)
  | ⟨2, _⟩ => k0_pay21 (k0_pay14 (qAt c fq (k0_off4 c) (k0_off4_inb c))) (k0_pay15 (kAt c fk ![0, 2, 0] inb_S1024x16x128_S1024x1x128_0_2_0))
  | ⟨3, _⟩ => k0_pay30 (k0_pay22 (qAt c fq (k0_off5 c) (k0_off5_inb c))) (k0_pay23 (kAt c fk ![0, 3, 0] inb_S1024x16x128_S1024x1x128_0_3_0)) (constant S8x1024 .f32 0x00000000#32)
  | ⟨4, _⟩ => k0_pay37 (k0_pay32 (qAt c fq (k0_off6 c) (k0_off6_inb c)) (kAt c fk ![0, 4, 0] inb_S1024x16x128_S1024x1x128_0_4_0))
  | ⟨5, _⟩ => k0_pay45 (k0_pay39 (qAt c fq (k0_off7 c) (k0_off7_inb c)) (kAt c fk ![0, 5, 0] inb_S1024x16x128_S1024x1x128_0_5_0)) (k0_pay41 (qAt c fq (k0_off7 c) (k0_off7_inb c)) (kAt c fk ![0, 5, 0] inb_S1024x16x128_S1024x1x128_0_5_0))
  | ⟨6, _⟩ => k0_pay53 (k0_pay50 (qAt c fq (k0_off8 c) (k0_off8_inb c)) (kAt c fk ![0, 6, 0] inb_S1024x16x128_S1024x1x128_0_6_0))
  | ⟨7, _⟩ => k0_pay61 (k0_pay57 (qAt c fq (k0_off9 c) (k0_off9_inb c)) (kAt c fk ![0, 7, 0] inb_S1024x16x128_S1024x1x128_0_7_0))
  | ⟨8, _⟩ => k0_pay69 (k0_pay65 (qAt c fq (k0_off10 c) (k0_off10_inb c)) (kAt c fk ![0, 8, 0] inb_S1024x16x128_S1024x1x128_0_8_0))
  | ⟨9, _⟩ => k0_pay76 (k0_pay73 (qAt c fq (k0_off11 c) (k0_off11_inb c)) (kAt c fk ![0, 9, 0] inb_S1024x16x128_S1024x1x128_0_9_0))
  | ⟨10, _⟩ => k0_pay83 (k0_pay80 (qAt c fq (k0_off12 c) (k0_off12_inb c)) (kAt c fk ![0, 10, 0] inb_S1024x16x128_S1024x1x128_0_10_0))
  | ⟨11, _⟩ => k0_pay90 (k0_pay87 (qAt c fq (k0_off13 c) (k0_off13_inb c)) (kAt c fk ![0, 11, 0] inb_S1024x16x128_S1024x1x128_0_11_0))
  | ⟨12, _⟩ => k0_pay97 (k0_pay94 (qAt c fq (k0_off14 c) (k0_off14_inb c)) (kAt c fk ![0, 12, 0] inb_S1024x16x128_S1024x1x128_0_12_0))
  | ⟨13, _⟩ => k0_pay103 (qAt c fq (k0_off15 c) (k0_off15_inb c)) (kAt c fk ![0, 13, 0] inb_S1024x16x128_S1024x1x128_0_13_0)
  | ⟨14, _⟩ => k0_pay109 (qAt c fq (k0_off16 c) (k0_off16_inb c)) (kAt c fk ![0, 14, 0] inb_S1024x16x128_S1024x1x128_0_14_0)
  | ⟨15, _⟩ => k0_pay115 (qAt c fq (k0_off17 c) (k0_off17_inb c)) (kAt c fk ![0, 15, 0] inb_S1024x16x128_S1024x1x128_0_15_0)
  | ⟨n + 16, hn⟩ => absurd hn (by omega)

/-- Slot 0 of the partial-sum buffer after the heads: row `a` of head `h`, lane `d`. -/
def computeOq (c : Dev nD) (q0 : Vec F S1x8x1x128 .f32) (fq : Bf (F := F) c qM) (fk : Bf (F := F) c kM) (fv : Bf (F := F) c vM) :
    S8x16x128.Idx → Elt F .f32 :=
  fun x => stO c q0 fq fk fv (x 1) (ix4 (0 : Fin 1) (x 0) (0 : Fin 1) (x 2))
/-- Slot 0 of the maxima buffer after the heads. -/
def computeMq (c : Dev nD) (q0 : Vec F S1x8x1x128 .f32) (fq : Bf (F := F) c qM) (fk : Bf (F := F) c kM) :
    S8x16x1.Idx → Elt F .f32 :=
  fun x => stM c q0 fq fk (x 1) (ix4 (0 : Fin 1) (x 0) (0 : Fin 1) (x 2))
/-- Slot 0 of the row-sum buffer after the heads. -/
def computeLq (c : Dev nD) (q0 : Vec F S1x8x1x128 .f32) (fq : Bf (F := F) c qM) (fk : Bf (F := F) c kM) :
    S8x16x1.Idx → Elt F .f32 :=
  fun x => stL c q0 fq fk (x 1) (ix4 (0 : Fin 1) (x 0) (0 : Fin 1) (x 2))

/-- The three at head 0's own rows of the query block: what slot 0 of each buffer holds after the heads, a function of
    the device's query, key and value blocks only. -/
def computeO (c : Dev nD) (fq : Bf (F := F) c qM) (fk : Bf (F := F) c kM) (fv : Bf (F := F) c vM) : S8x16x128.Idx → Elt F .f32 :=
  computeOq c (q0At c fq) fq fk fv
def computeM (c : Dev nD) (fq : Bf (F := F) c qM) (fk : Bf (F := F) c kM) : S8x16x1.Idx → Elt F .f32 :=
  computeMq c (q0At c fq) fq fk
def computeL (c : Dev nD) (fq : Bf (F := F) c qM) (fk : Bf (F := F) c kM) : S8x16x1.Idx → Elt F .f32 :=
  computeLq c (q0At c fq) fq fk

/-! ## What the run leaves in the three buffers -/

set_option maxRecDepth 65536 in
/-- The run's witnesses are the sixteen stores, head by head, over what the buffers held: both sides unfold to the
    same list of writes. -/
theorem computeRun_W1 (c : Dev nD) (v28 : Vec F S1x8x1x128 .f32) (fq : Bf (F := F) c qM) (fk : Bf (F := F) c kM) (fv : Bf (F := F) c vM)
    (f6 : Bf (F := F) c coM) (f7 : Bf (F := F) c cmM) (f8 : Bf (F := F) c clM) :
    (computeRun c v28 fq fk fv f6 f7 f8).1.1 = coM.view.writes (Elt F) f6 (piecesO (stO c v28 fq fk fv)) := by sl_kernel_rfl
set_option maxRecDepth 65536 in
theorem computeRun_W2 (c : Dev nD) (v28 : Vec F S1x8x1x128 .f32) (fq : Bf (F := F) c qM) (fk : Bf (F := F) c kM) (fv : Bf (F := F) c vM)
    (f6 : Bf (F := F) c coM) (f7 : Bf (F := F) c cmM) (f8 : Bf (F := F) c clM) :
    (computeRun c v28 fq fk fv f6 f7 f8).1.2.1 = cmM.view.writes (Elt F) f7 (piecesC (stM c v28 fq fk)) := by sl_kernel_rfl
set_option maxRecDepth 65536 in
theorem computeRun_W3 (c : Dev nD) (v28 : Vec F S1x8x1x128 .f32) (fq : Bf (F := F) c qM) (fk : Bf (F := F) c kM) (fv : Bf (F := F) c vM)
    (f6 : Bf (F := F) c coM) (f7 : Bf (F := F) c cmM) (f8 : Bf (F := F) c clM) :
    (computeRun c v28 fq fk fv f6 f7 f8).1.2.2 = clM.view.writes (Elt F) f8 (piecesC (stL c v28 fq fk)) := by sl_kernel_rfl

/-- Slot 0 of the partial-sum buffer after the run: a function of the query, key and value blocks only. -/
theorem computeRun_o0 (c : Dev nD) (v28 : Vec F S1x8x1x128 .f32) (fq : Bf (F := F) c qM) (fk : Bf (F := F) c kM) (fv : Bf (F := F) c vM)
    (f6 : Bf (F := F) c coM) (f7 : Bf (F := F) c cmM) (f8 : Bf (F := F) c clM) :
    (oSlot 0).view.read (Elt F) (computeRun c v28 fq fk fv f6 f7 f8).1.1 = computeOq c v28 fq fk fv := by
  funext x
  refine (slot3_read coM.view 0 _ _ _ x).trans ?_
  rw [computeRun_W1]
  exact read_piecesO_slot0 coM.view f6 _ (x 0) (x 1) (x 2)
theorem computeRun_m0 (c : Dev nD) (v28 : Vec F S1x8x1x128 .f32) (fq : Bf (F := F) c qM) (fk : Bf (F := F) c kM) (fv : Bf (F := F) c vM)
    (f6 : Bf (F := F) c coM) (f7 : Bf (F := F) c cmM) (f8 : Bf (F := F) c clM) :
    (cSlot cmM 0).view.read (Elt F) (computeRun c v28 fq fk fv f6 f7 f8).1.2.1 = computeMq c v28 fq fk := by
  funext x
  refine (slot1_read cmM.view 0 _ _ _ x).trans ?_
  rw [computeRun_W2]
  exact read_piecesC_slot0 cmM.view f7 _ (x 0) (x 1) (x 2)
theorem computeRun_l0 (c : Dev nD) (v28 : Vec F S1x8x1x128 .f32) (fq : Bf (F := F) c qM) (fk : Bf (F := F) c kM) (fv : Bf (F := F) c vM)
    (f6 : Bf (F := F) c coM) (f7 : Bf (F := F) c cmM) (f8 : Bf (F := F) c clM) :
    (cSlot clM 0).view.read (Elt F) (computeRun c v28 fq fk fv f6 f7 f8).1.2.2 = computeLq c v28 fq fk := by
  funext x
  refine (slot1_read clM.view 0 _ _ _ x).trans ?_
  rw [computeRun_W3]
  exact read_piecesC_slot0 clM.view f8 _ (x 0) (x 1) (x 2)

/-- Slots 1, 2, 3 read after the run what they read before it. -/
theorem computeRun_o_rest (c : Dev nD) (v28 : Vec F S1x8x1x128 .f32) (fq : Bf (F := F) c qM) (fk : Bf (F := F) c kM) (fv : Bf (F := F) c vM)
    (f6 : Bf (F := F) c coM) (f7 : Bf (F := F) c cmM) (f8 : Bf (F := F) c clM) :
    (oSlot 1).view.read (Elt F) (computeRun c v28 fq fk fv f6 f7 f8).1.1 = (oSlot 1).view.read (Elt F) f6
    ∧ (oSlot 2).view.read (Elt F) (computeRun c v28 fq fk fv f6 f7 f8).1.1 = (oSlot 2).view.read (Elt F) f6
    ∧ (oSlot 3).view.read (Elt F) (computeRun c v28 fq fk fv f6 f7 f8).1.1 = (oSlot 3).view.read (Elt F) f6 := by
  rw [computeRun_W1]
  refine ⟨funext fun x => ?_, funext fun x => ?_, funext fun x => ?_⟩
  · exact (slot3_read coM.view 1 _ _ _ x).trans ((read_piecesO_rest coM.view f6 _ _ (by show ((1 : Fin 4) : ℕ) ≠ 0; decide)).trans (slot3_read coM.view 1 _ _ _ x).symm)
  · exact (slot3_read coM.view 2 _ _ _ x).trans ((read_piecesO_rest coM.view f6 _ _ (by show ((2 : Fin 4) : ℕ) ≠ 0; decide)).trans (slot3_read coM.view 2 _ _ _ x).symm)
  · exact (slot3_read coM.view 3 _ _ _ x).trans ((read_piecesO_rest coM.view f6 _ _ (by show ((3 : Fin 4) : ℕ) ≠ 0; decide)).trans (slot3_read coM.view 3 _ _ _ x).symm)
theorem computeRun_m_rest (c : Dev nD) (v28 : Vec F S1x8x1x128 .f32) (fq : Bf (F := F) c qM) (fk : Bf (F := F) c kM) (fv : Bf (F := F) c vM)
    (f6 : Bf (F := F) c coM) (f7 : Bf (F := F) c cmM) (f8 : Bf (F := F) c clM) :
    (cSlot cmM 1).view.read (Elt F) (computeRun c v28 fq fk fv f6 f7 f8).1.2.1 = (cSlot cmM 1).view.read (Elt F) f7
    ∧ (cSlot cmM 2).view.read (Elt F) (computeRun c v28 fq fk fv f6 f7 f8).1.2.1 = (cSlot cmM 2).view.read (Elt F) f7
    ∧ (cSlot cmM 3).view.read (Elt F) (computeRun c v28 fq fk fv f6 f7 f8).1.2.1 = (cSlot cmM 3).view.read (Elt F) f7 := by
  rw [computeRun_W2]
  refine ⟨funext fun x => ?_, funext fun x => ?_, funext fun x => ?_⟩
  · exact (slot1_read cmM.view 1 _ _ _ x).trans ((read_piecesC_rest cmM.view f7 _ _ (by show ((1 : Fin 4) : ℕ) ≠ 0; decide)).trans (slot1_read cmM.view 1 _ _ _ x).symm)
  · exact (slot1_read cmM.view 2 _ _ _ x).trans ((read_piecesC_rest cmM.view f7 _ _ (by show ((2 : Fin 4) : ℕ) ≠ 0; decide)).trans (slot1_read cmM.view 2 _ _ _ x).symm)
  · exact (slot1_read cmM.view 3 _ _ _ x).trans ((read_piecesC_rest cmM.view f7 _ _ (by show ((3 : Fin 4) : ℕ) ≠ 0; decide)).trans (slot1_read cmM.view 3 _ _ _ x).symm)
theorem computeRun_l_rest (c : Dev nD) (v28 : Vec F S1x8x1x128 .f32) (fq : Bf (F := F) c qM) (fk : Bf (F := F) c kM) (fv : Bf (F := F) c vM)
    (f6 : Bf (F := F) c coM) (f7 : Bf (F := F) c cmM) (f8 : Bf (F := F) c clM) :
    (cSlot clM 1).view.read (Elt F) (computeRun c v28 fq fk fv f6 f7 f8).1.2.2 = (cSlot clM 1).view.read (Elt F) f8
    ∧ (cSlot clM 2).view.read (Elt F) (computeRun c v28 fq fk fv f6 f7 f8).1.2.2 = (cSlot clM 2).view.read (Elt F) f8
    ∧ (cSlot clM 3).view.read (Elt F) (computeRun c v28 fq fk fv f6 f7 f8).1.2.2 = (cSlot clM 3).view.read (Elt F) f8 := by
  rw [computeRun_W3]
  refine ⟨funext fun x => ?_, funext fun x => ?_, funext fun x => ?_⟩
  · exact (slot1_read clM.view 1 _ _ _ x).trans ((read_piecesC_rest clM.view f8 _ _ (by show ((1 : Fin 4) : ℕ) ≠ 0; decide)).trans (slot1_read clM.view 1 _ _ _ x).symm)
  · exact (slot1_read clM.view 2 _ _ _ x).trans ((read_piecesC_rest clM.view f8 _ _ (by show ((2 : Fin 4) : ℕ) ≠ 0; decide)).trans (slot1_read clM.view 2 _ _ _ x).symm)
  · exact (slot1_read clM.view 3 _ _ _ x).trans ((read_piecesC_rest clM.view f8 _ _ (by show ((3 : Fin 4) : ℕ) ≠ 0; decide)).trans (slot1_read clM.view 3 _ _ _ x).symm)

/-! ## The merge of the four slots -/

/-- A slot's contents as the body loads them: with the leading unit axis. -/
def unsq3 {α : Type} (x : S8x16x128.Idx → α) : S1x8x16x128.Idx → α := fun i => x (ix3 (i 1) (i 2) (i 3))
def unsq1 {α : Type} (x : S8x16x1.Idx → α) : S1x8x16x1.Idx → α := fun i => x (ix3 (i 1) (i 2) (i 3))

/-- The merged and normalised rows, from the four slots' partial sums `o`, row maxima `m` and row sums `l` as
    loaded: slots 0 and 1 are combined first (to the common maximum `max m₀ m₁`), then slots 2 and 3 are folded in,
    and the sum is divided by the merged row sum — through the generated payload terms. -/
def mergeRow (o : Fin 4 → Vec F S1x8x16x128 .f32) (m l : Fin 4 → Vec F S1x8x16x1 .f32) : FVec F S1x8x16x128 .f32 :=
  k0_pay133
    (k0_pay130 (k0_pay118 (m 0) (m 1)) (m 2) (m 3))
    (k0_pay131 (k0_pay118 (m 0) (m 1)) (k0_pay121 (m 0) (o 0) (m 1) (o 1)) (m 2) (o 2) (m 3) (o 3))
    (k0_pay132 (k0_pay118 (m 0) (m 1)) (k0_pay120 (m 0) (m 1)) (k0_pay122 (m 0) (l 0) (m 1)) (l 1) (m 2) (l 2) (m 3))
    (l 3)

/-- The same over the slots' contents `xo j`, `xm j`, `xl j` as the slot views read them. -/
def mergeOf (xo : Fin 4 → S8x16x128.Idx → Elt F .f32) (xm xl : Fin 4 → S8x16x1.Idx → Elt F .f32) : FVec F S1x8x16x128 .f32 :=
  mergeRow (fun j => unsq3 (xo j)) (fun j => unsq1 (xm j)) (fun j => unsq1 (xl j))

/-- Slot `j` of the partial-sum buffer as the merge loads it. -/
abbrev oLoad (c : Dev nD) (g6 : Bf (F := F) c coM) (j : Fin 4) : Vec F S1x8x16x128 .f32 :=
  coM.view.readAt (Elt F) (Rect.unit (s := S4x8x16x128) ![j.val, 0, 0, 0] S1x8x16x128.size (inbS3 j)).toLoadRect g6
/-- Slot `j` of a column buffer as the merge loads it. -/
abbrev cLoad (c : Dev nD) (M : Memref sig .tc .vmem S4x8x16x1 .f32) (g : Bf (F := F) c M) (j : Fin 4) : Vec F S1x8x16x1 .f32 :=
  M.view.readAt (Elt F) (Rect.unit (s := S4x8x16x1) ![j.val, 0, 0, 0] S1x8x16x1.size (inbS1 j)).toLoadRect g

set_option maxRecDepth 65536 in
/-- The run's value is the merge of the twelve loaded slots. -/
theorem mergeRun_val (c : Dev nD) (g6 : Bf (F := F) c coM) (g7 : Bf (F := F) c cmM) (g8 : Bf (F := F) c clM) :
    (mergeRun c g6 g7 g8).1 = mergeRow (oLoad c g6) (cLoad c cmM g7) (cLoad c clM g8) := rfl

omit [FloatOps F] in
theorem oLoad_eq (c : Dev nD) (g6 : Bf (F := F) c coM) (j : Fin 4) (inb : ∀ a, (![j.val, 0, 0, 0] : Fin 4 → ℕ) a + S1x8x16x128.size a ≤ S4x8x16x128.size a)
    (hn : S8x16x128.numel = S1x8x16x128.numel) :
    oLoad c g6 j = unsq3 (((coM.view.slice (Rect.unit (s := S4x8x16x128) ![j.val, 0, 0, 0] S1x8x16x128.size inb)).reshape S8x16x128 hn).read (Elt F) g6) := by
  funext i
  have h0 : (i 0).val < 1 := (i 0).isLt
  show coM.view.read (Elt F) g6 ((Rect.unit (s := S4x8x16x128) ![j.val, 0, 0, 0] S1x8x16x128.size (inbS3 j)).toLoadRect.idx i) = _
  rw [unsq3, slot3_read]
  congr 1
  funext a
  apply Fin.ext
  rw [LoadRect.idx_apply]
  match a with
  | ⟨0, _⟩ => show j.val + 1 * (i 0).val = j.val; omega
  | ⟨1, _⟩ => show 0 + 1 * (i 1).val = (i 1).val; omega
  | ⟨2, _⟩ => show 0 + 1 * (i 2).val = (i 2).val; omega
  | ⟨3, _⟩ => show 0 + 1 * (i 3).val = (i 3).val; omega

omit [FloatOps F] in
theorem cLoad_eq (c : Dev nD) (M : Memref sig .tc .vmem S4x8x16x1 .f32) (g : Bf (F := F) c M) (j : Fin 4)
    (inb : ∀ a, (![j.val, 0, 0, 0] : Fin 4 → ℕ) a + S1x8x16x1.size a ≤ S4x8x16x1.size a)
    (hn : S8x16x1.numel = S1x8x16x1.numel) :
    cLoad c M g j = unsq1 (((M.view.slice (Rect.unit (s := S4x8x16x1) ![j.val, 0, 0, 0] S1x8x16x1.size inb)).reshape S8x16x1 hn).read (Elt F) g) := by
  funext i
  have h0 : (i 0).val < 1 := (i 0).isLt
  show M.view.read (Elt F) g ((Rect.unit (s := S4x8x16x1) ![j.val, 0, 0, 0] S1x8x16x1.size (inbS1 j)).toLoadRect.idx i) = _
  rw [unsq1, slot1_read]
  congr 1
  funext a
  apply Fin.ext
  rw [LoadRect.idx_apply]
  match a with
  | ⟨0, _⟩ => show j.val + 1 * (i 0).val = j.val; omega
  | ⟨1, _⟩ => show 0 + 1 * (i 1).val = (i 1).val; omega
  | ⟨2, _⟩ => show 0 + 1 * (i 2).val = (i 2).val; omega
  | ⟨3, _⟩ => show 0 + 1 * (i 3).val = (i 3).val; omega

/-- What the four slots of the partial-sum buffer read. -/
def slotsO (c : Dev nD) (g6 : Bf (F := F) c coM) : Fin 4 → S8x16x128.Idx → Elt F .f32
  | 0 => (oSlot 0).view.read (Elt F) g6
  | 1 => (oSlot 1).view.read (Elt F) g6
  | 2 => (oSlot 2).view.read (Elt F) g6
  | 3 => (oSlot 3).view.read (Elt F) g6
/-- What the four slots of a column buffer read. -/
def slotsC (c : Dev nD) (M : Memref sig .tc .vmem S4x8x16x1 .f32) (g : Bf (F := F) c M) : Fin 4 → S8x16x1.Idx → Elt F .f32
  | 0 => (cSlot M 0).view.read (Elt F) g
  | 1 => (cSlot M 1).view.read (Elt F) g
  | 2 => (cSlot M 2).view.read (Elt F) g
  | 3 => (cSlot M 3).view.read (Elt F) g

/-- The run's value from what the four slots of each buffer read. -/
theorem mergeRun_slots (c : Dev nD) (g6 : Bf (F := F) c coM) (g7 : Bf (F := F) c cmM) (g8 : Bf (F := F) c clM) :
    (mergeRun c g6 g7 g8).1 = mergeOf (slotsO c g6) (slotsC c cmM g7) (slotsC c clM g8) := by
  rw [mergeRun_val, mergeOf]
  congr 1
  · funext j
    match j with
    | 0 => exact oLoad_eq c g6 0 _ _
    | 1 => exact oLoad_eq c g6 1 _ _
    | 2 => exact oLoad_eq c g6 2 _ _
    | 3 => exact oLoad_eq c g6 3 _ _
  · funext j
    match j with
    | 0 => exact cLoad_eq c cmM g7 0 _ _
    | 1 => exact cLoad_eq c cmM g7 1 _ _
    | 2 => exact cLoad_eq c cmM g7 2 _ _
    | 3 => exact cLoad_eq c cmM g7 3 _ _
  · funext j
    match j with
    | 0 => exact cLoad_eq c clM g8 0 _ _
    | 1 => exact cLoad_eq c clM g8 1 _ _
    | 2 => exact cLoad_eq c clM g8 2 _ _
    | 3 => exact cLoad_eq c clM g8 3 _ _

/-- info: 'Cert.Kernel.FD.computeRun' depends on axioms: [propext, Classical.choice, Quot.sound] -/
#guard_msgs in #print axioms computeRun
/-- info: 'Cert.Kernel.FD.computeRun_o0' depends on axioms: [propext, Classical.choice, Quot.sound] -/
#guard_msgs in #print axioms computeRun_o0
/-- info: 'Cert.Kernel.FD.computeRun_o_rest' depends on axioms: [propext, Classical.choice, Quot.sound] -/
#guard_msgs in #print axioms computeRun_o_rest
/-- info: 'Cert.Kernel.FD.mergeRun' depends on axioms: [propext, Classical.choice, Quot.sound] -/
#guard_msgs in #print axioms mergeRun
/-- info: 'Cert.Kernel.FD.mergeRun_slots' depends on axioms: [propext, Classical.choice, Quot.sound] -/
#guard_msgs in #print axioms mergeRun_slots

end Cert.Kernel.FD

end
-- ==== Proof.DataW.lean ====
/-
  The values of the protocol, from the memory the kernel is launched on. Device c copies row r(c) of its block of the
  keys and of the values into scratch; from them and the queries it computes, head by head, its partial results; the
  merged row of a device is the merge of its own partial results with those of the three devices before it along z;
  the gathered result of a z-plane has, as row b, the merged row of the plane's device that serves b.
-/
import proofs.«900429_g7700000000000430_dist_flashdec_v7x_xyz2x4x4_z_b8_sq8_skv1024_h16_d128_f32_1_alg».proof.Proof.StateW
import proofs.«900429_g7700000000000430_dist_flashdec_v7x_xyz2x4x4_z_b8_sq8_skv1024_h16_d128_f32_1_alg».proof.Proof.ComputeW

noncomputable section

namespace Cert.Kernel.FD

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

variable (m : (ℓ : Loc nD τ sig) → Buf (Elt F) ℓ)

/-- The row of keys (values) device `c` serves: row r(c) of its block of the key (value) array. -/
def kinD (c : Dev nD) : S1024x16x128.Idx → Elt F .f32 := (kSrc c).view.read (Elt F) (m ((kSrc c).view.loc (c : Thread nD τ)))
def vinD (c : Dev nD) : S1024x16x128.Idx → Elt F .f32 := (vSrc c).view.read (Elt F) (m ((vSrc c).view.loc (c : Thread nD τ)))

/-- The partial results device `c` computes from its own key block: the unnormalised outputs, the row maxima, the row sums. -/
def voD (c : Dev nD) : S8x16x128.Idx → Elt F .f32 :=
  computeO c (qstg m c : Bf (F := F) c qM) (kinD m c : Bf (F := F) c kM) (vinD m c : Bf (F := F) c vM)
def vmD (c : Dev nD) : S8x16x1.Idx → Elt F .f32 := computeM c (qstg m c : Bf (F := F) c qM) (kinD m c : Bf (F := F) c kM)
def vlD (c : Dev nD) : S8x16x1.Idx → Elt F .f32 := computeL c (qstg m c : Bf (F := F) c qM) (kinD m c : Bf (F := F) c kM)

/-- The merged row of device `c`: its own partial results merged with those of the three devices before it along z. -/
def vrD (c : Dev nD) : S1x8x16x128.Idx → Elt F .f32 :=
  mergeOf (fun j => voD m (back j.val c)) (fun j => vmD m (back j.val c)) (fun j => vlD m (back j.val c))

/-- The device of plane `z` that serves row `b`. -/
def atRow (z b : ℕ) : Dev nD := ⟨(16 * (b / 4) + 4 * (b % 4) + z % 4) % 32, Nat.mod_lt _ (by decide)⟩

theorem atRow_self (c : Dev nD) : atRow (c.val % 4) (row c) = c := by revert c; decide

/-- The gathered result of plane `z`: row `b` is the merged row of the plane's device serving `b`. -/
def vgD (z : ℕ) : S8x8x16x128.Idx → Elt F .f32 :=
  fun i => vrD m (atRow z (i 0).val) (ix4 (0 : Fin 1) (i 1) (i 2) (i 3))

/-! ## The facts the body's composition needs -/

/-- A device's own row of the gathered result of its plane is its merged row. -/
theorem row1_vgD (c : Dev nD) :
    (row1 c).view.read (Elt F) (vgD m (c.val % 4) : Bf (F := F) c outM) = vrD m c := by
  funext i
  have hi0 : (i 0).val < 1 := (i 0).isLt
  have h0 : k0_off19 c 0 = row c := by rw [off19_eq']; rfl
  have h1 : k0_off19 c 1 = 0 := by rw [off19_eq']; rfl
  have h2 : k0_off19 c 2 = 0 := by rw [off19_eq']; rfl
  have h3 : k0_off19 c 3 = 0 := by rw [off19_eq']; rfl
  show vgD m (c.val % 4) ((Rect.unit (s := S8x8x16x128) (k0_off19 c) S1x8x16x128.size (k0_off19_inb c)).emb i) = vrD m c i
  unfold vgD
  have e0 : ((Rect.unit (s := S8x8x16x128) (k0_off19 c) S1x8x16x128.size (k0_off19_inb c)).emb i 0).val = row c := by
    rw [Rect.emb_apply]; show k0_off19 c 0 + 1 * (i 0).val = row c; omega
  rw [e0, atRow_self]
  congr 1
  funext a
  apply Fin.ext
  match a with
  | ⟨0, _⟩ => show (0 : ℕ) = (i 0).val; omega
  | ⟨1, _⟩ => show ((Rect.unit (s := S8x8x16x128) (k0_off19 c) S1x8x16x128.size (k0_off19_inb c)).emb i 1).val = (i 1).val
              rw [Rect.emb_apply]; show k0_off19 c 1 + 1 * (i 1).val = (i 1).val; omega
  | ⟨2, _⟩ => show ((Rect.unit (s := S8x8x16x128) (k0_off19 c) S1x8x16x128.size (k0_off19_inb c)).emb i 2).val = (i 2).val
              rw [Rect.emb_apply]; show k0_off19 c 2 + 1 * (i 2).val = (i 2).val; omega
  | ⟨3, _⟩ => show ((Rect.unit (s := S8x8x16x128) (k0_off19 c) S1x8x16x128.size (k0_off19_inb c)).emb i 3).val = (i 3).val
              rw [Rect.emb_apply]; show k0_off19 c 3 + 1 * (i 3).val = (i 3).val; omega

/-- The merge at device `c`, run from buffers whose slot `j` reads the partial results of the `j`-th device before `c`,
    returns the merged row of `c`. -/
theorem mergeRun_vrD (c : Dev nD) (g6 : Bf (F := F) c coM) (g7 : Bf (F := F) c cmM) (g8 : Bf (F := F) c clM)
    (ho : ∀ j : Fin 4, slotsO c g6 j = voD m (back j.val c))
    (hm : ∀ j : Fin 4, slotsC c cmM g7 j = vmD m (back j.val c))
    (hl : ∀ j : Fin 4, slotsC c clM g8 j = vlD m (back j.val c)) :
    (mergeRun c g6 g7 g8).1 = vrD m c := by
  rw [mergeRun_slots, vrD]
  congr 1
  · exact funext ho
  · exact funext hm
  · exact funext hl

/-- The same from the twelve slot facts, slot by slot. -/
theorem mergeRun_vrD' (c : Dev nD) (g6 : Bf (F := F) c coM) (g7 : Bf (F := F) c cmM) (g8 : Bf (F := F) c clM)
    (ho0 : (oSlot 0).view.read (Elt F) g6 = voD m (back 0 c)) (ho1 : (oSlot 1).view.read (Elt F) g6 = voD m (back 1 c))
    (ho2 : (oSlot 2).view.read (Elt F) g6 = voD m (back 2 c)) (ho3 : (oSlot 3).view.read (Elt F) g6 = voD m (back 3 c))
    (hm0 : (cSlot cmM 0).view.read (Elt F) g7 = vmD m (back 0 c)) (hm1 : (cSlot cmM 1).view.read (Elt F) g7 = vmD m (back 1 c))
    (hm2 : (cSlot cmM 2).view.read (Elt F) g7 = vmD m (back 2 c)) (hm3 : (cSlot cmM 3).view.read (Elt F) g7 = vmD m (back 3 c))
    (hl0 : (cSlot clM 0).view.read (Elt F) g8 = vlD m (back 0 c)) (hl1 : (cSlot clM 1).view.read (Elt F) g8 = vlD m (back 1 c))
    (hl2 : (cSlot clM 2).view.read (Elt F) g8 = vlD m (back 2 c)) (hl3 : (cSlot clM 3).view.read (Elt F) g8 = vlD m (back 3 c)) :
    (mergeRun c g6 g7 g8).1 = vrD m c :=
  mergeRun_vrD m c g6 g7 g8
    (fun j => match j with | 0 => ho0 | 1 => ho1 | 2 => ho2 | 3 => ho3)
    (fun j => match j with | 0 => hm0 | 1 => hm1 | 2 => hm2 | 3 => hm3)
    (fun j => match j with | 0 => hl0 | 1 => hl1 | 2 => hl2 | 3 => hl3)

/-- The heads at device `c`, run from the staged queries and from scratch buffers holding the device's key and value
    rows, leave in slot 0 of the three buffers the partial results of `c`. -/
theorem computeRun_slot0 (c : Dev nD) (fk : Bf (F := F) c kM) (fv : Bf (F := F) c vM)
    (hk : kM.view.read (Elt F) fk = kinD m c) (hv : vM.view.read (Elt F) fv = vinD m c)
    (f6 : Bf (F := F) c coM) (f7 : Bf (F := F) c cmM) (f8 : Bf (F := F) c clM) :
    (oSlot 0).view.read (Elt F) (computeRun c (q0At c (qstg m c : Bf (F := F) c qM)) (qstg m c : Bf (F := F) c qM) fk fv f6 f7 f8).1.1 = voD m c
    ∧ (cSlot cmM 0).view.read (Elt F) (computeRun c (q0At c (qstg m c : Bf (F := F) c qM)) (qstg m c : Bf (F := F) c qM) fk fv f6 f7 f8).1.2.1 = vmD m c
    ∧ (cSlot clM 0).view.read (Elt F) (computeRun c (q0At c (qstg m c : Bf (F := F) c qM)) (qstg m c : Bf (F := F) c qM) fk fv f6 f7 f8).1.2.2 = vlD m c := by
  obtain rfl : fk = (kinD m c : Bf (F := F) c kM) := hk
  obtain rfl : fv = (vinD m c : Bf (F := F) c vM) := hv
  exact ⟨computeRun_o0 c _ _ _ _ f6 f7 f8, computeRun_m0 c _ _ _ _ f6 f7 f8, computeRun_l0 c _ _ _ _ f6 f7 f8⟩

/-- info: 'Cert.Kernel.FD.row1_vgD' depends on axioms: [propext, Classical.choice, Quot.sound] -/
#guard_msgs in #print axioms row1_vgD
/-- info: 'Cert.Kernel.FD.mergeRun_vrD' depends on axioms: [propext, Classical.choice, Quot.sound] -/
#guard_msgs in #print axioms mergeRun_vrD
/-- info: 'Cert.Kernel.FD.computeRun_slot0' depends on axioms: [propext, Classical.choice, Quot.sound] -/
#guard_msgs in #print axioms computeRun_slot0

end Cert.Kernel.FD

end
-- ==== Proof.Part1W.lean ====
/-
  The entry part of the body at one device: the device copies the row of keys and the row of values it serves from
  the key and value arrays into its two scratch buffers, waits for both copies, and loads head 0's rows of the staged
  query block. Each copy pays the one duty of its load cell; the wait on that cell hands the scratch buffer back
  holding the row, with the row of the array the copy had borrowed.
-/
import proofs.«900429_g7700000000000430_dist_flashdec_v7x_xyz2x4x4_z_b8_sq8_skv1024_h16_d128_f32_1_alg».proof.Proof.BodyStateW
import proofs.«900429_g7700000000000430_dist_flashdec_v7x_xyz2x4x4_z_b8_sq8_skv1024_h16_d128_f32_1_alg».proof.Proof.BodyProtoW
import proofs.«900429_g7700000000000430_dist_flashdec_v7x_xyz2x4x4_z_b8_sq8_skv1024_h16_d128_f32_1_alg».proof.Proof.BodyStepsW
import proofs.«900429_g7700000000000430_dist_flashdec_v7x_xyz2x4x4_z_b8_sq8_skv1024_h16_d128_f32_1_alg».proof.Proof.SegmentsW
import proofs.«900429_g7700000000000430_dist_flashdec_v7x_xyz2x4x4_z_b8_sq8_skv1024_h16_d128_f32_1_alg».proof.Proof.StateW
import proofs.«900429_g7700000000000430_dist_flashdec_v7x_xyz2x4x4_z_b8_sq8_skv1024_h16_d128_f32_1_alg».proof.Proof.DataW

set_option synthInstance.maxSize 4096

noncomputable section

namespace Cert.Kernel.FD

open Cert.Kernel Cert.Kernel.Gen Cert.Kernel.Mesh

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.BodyProto (own_wait)

variable {F : FTy → Type} [FloatOps F]

local notation "𝕄" => MT nD τ sig Unit (Elt F) ℕ UU ℕ

variable (vo : Dev nD → S8x16x128.Idx → Elt F .f32) (vm vl : Dev nD → S8x16x1.Idx → Elt F .f32)
variable (vg : ℕ → S8x8x16x128.Idx → Elt F .f32)
variable (kin vin : Dev nD → S1024x16x128.Idx → Elt F .f32)
variable (m : (ℓ : Loc nD τ sig) → Buf (Elt F) ℓ)

local notation "RD" => Rd vo vm vl vg kin vin m

omit [FloatOps F] in
theorem kind_load_ne (i : Fin 2) : kindOf (sem2 cc0_scratch5 i) ≠ Kind.other := by rw [kind_load]; exact fun e => Kind.noConfusion e

omit [FloatOps F] in
/-- The one duty of a load cell. -/
theorem load_duty (c : Dev nD) (i : Fin 2) : (0 : Fin 5) ∈ (RD).duties (loadCell c i) 0 := by
  show (0 : Fin 5) ∈ (RD).duties ((c : Thread nD τ), .dma (sem2 cc0_scratch5 i)) 0
  rw [duties_dma vo vm vl vg kin vin m c _ (kind_load_ne i)]; exact Finset.mem_singleton_self _

omit [FloatOps F] in
theorem load_amount (c : Dev nD) (i : Fin 2) : (RD).amount (loadCell c i) 0 0 = Nkv := by
  show (RD).amount ((c : Thread nD τ), .dma (sem2 cc0_scratch5 i)) 0 0 = Nkv
  rw [amount_dma, kind_load]; rfl

omit [FloatOps F] in
theorem load_payload (c : Dev nD) (i : Fin 2) :
    (RD).payload (loadCell c i) 0 0 = dmaPay vo vm vl vg kin vin m c (.load i) := by
  show (RD).payload ((c : Thread nD τ), .dma (sem2 cc0_scratch5 i)) 0 0 = _
  rw [payload_dma, kind_load]

omit [FloatOps F] in
/-- What the landing of the key copy hands over: the scratch buffer holding the row's keys, and the row of the array back. -/
theorem load_pay0 (c : Dev nD) (hkin : kin c = (kSrc c).view.read (Elt F) (m ((kSrc c).view.loc (c : Thread nD τ))))
    (fd : Buf (Elt F) (kM.view.loc (c : Thread nD τ))) :
    iprop((kM.view.loc (c : Thread nD τ) ↦[kM.view.set]{fullShare}
            (kM.view.write (Elt F) fd ((kSrc c).view.read (Elt F) (m ((kSrc c).view.loc (c : Thread nD τ)))) Finset.univ))
        ∗ ((kSrc c).view.loc (c : Thread nD τ) ↦[(kSrc c).view.set]{fullShare} m ((kSrc c).view.loc (c : Thread nD τ))))
      ⊢ (RD).payload (loadCell c 0) 0 0 := by
  rw [load_payload]
  show _ ⊢ iprop(holds c kM (kin c) ∗ hbmRow m c 0)
  iintro ⟨Hd, Hs⟩
  isplitl [Hd]
  · unfold holds
    iexists _
    isplitl [Hd]; · iexact Hd
    ipureintro
    rw [View.read_write_univ, hkin]
  · unfold hbmRow
    iexact Hs

omit [FloatOps F] in
theorem load_pay1 (c : Dev nD) (hvin : vin c = (vSrc c).view.read (Elt F) (m ((vSrc c).view.loc (c : Thread nD τ))))
    (fd : Buf (Elt F) (vM.view.loc (c : Thread nD τ))) :
    iprop((vM.view.loc (c : Thread nD τ) ↦[vM.view.set]{fullShare}
            (vM.view.write (Elt F) fd ((vSrc c).view.read (Elt F) (m ((vSrc c).view.loc (c : Thread nD τ)))) Finset.univ))
        ∗ ((vSrc c).view.loc (c : Thread nD τ) ↦[(vSrc c).view.set]{fullShare} m ((vSrc c).view.loc (c : Thread nD τ))))
      ⊢ (RD).payload (loadCell c 1) 0 0 := by
  rw [load_payload]
  show _ ⊢ iprop(holds c vM (vin c) ∗ hbmRow m c 1)
  iintro ⟨Hd, Hs⟩
  isplitl [Hd]
  · unfold holds
    iexists _
    isplitl [Hd]; · iexact Hd
    ipureintro
    rw [View.read_write_univ, hvin]
  · unfold hbmRow
    iexact Hs

omit [FloatOps F] in
theorem dmaPay_load0 (c : Dev nD) :
    dmaPay vo vm vl vg kin vin m c (kindOf (sem2 cc0_scratch5 0)) = iprop(holds c kM (kin c) ∗ hbmRow m c 0) := by
  rw [kind_load]; rfl
omit [FloatOps F] in
theorem dmaPay_load1 (c : Dev nD) :
    dmaPay vo vm vl vg kin vin m c (kindOf (sem2 cc0_scratch5 1)) = iprop(holds c vM (vin c) ∗ hbmRow m c 1) := by
  rw [kind_load]; rfl

omit [FloatOps F] in
theorem dmaPay_load0_le (c : Dev nD) :
    dmaPay vo vm vl vg kin vin m c (kindOf (sem2 cc0_scratch5 0)) ⊢ iprop(holds c kM (kin c) ∗ hbmRow m c 0) :=
  Entails.of_eq (dmaPay_load0 vo vm vl vg kin vin m c)
omit [FloatOps F] in
theorem dmaPay_load1_le (c : Dev nD) :
    dmaPay vo vm vl vg kin vin m c (kindOf (sem2 cc0_scratch5 1)) ⊢ iprop(holds c vM (vin c) ∗ hbmRow m c 1) :=
  Entails.of_eq (dmaPay_load1 vo vm vl vg kin vin m c)

omit [FloatOps F] in
/-- A whole scratch buffer held by its view's elements is held whole. -/
theorem kM_whole (c : Dev nD) (f : Bf (F := F) c kM) :
    (kM.view.loc (c : Thread nD τ) ↦[kM.view.set]{fullShare} f : sProp 𝕄) ⊢ pt c kM f :=
  Entails.of_eq (by simp only [Memref.view_whole, View.set_whole])
omit [FloatOps F] in
theorem vM_whole (c : Dev nD) (f : Bf (F := F) c vM) :
    (vM.view.loc (c : Thread nD τ) ↦[vM.view.set]{fullShare} f : sProp 𝕄) ⊢ pt c vM f :=
  Entails.of_eq (by simp only [Memref.view_whole, View.set_whole])

set_option maxRecDepth 65536 in
set_option maxHeartbeats 1600000 in
/-- The entry part at device `c`. -/
theorem part1_run (c : Dev nD) (κ : GSem nD τ sig → ℕ) (O : CellTallies nD τ sig Unit) (W : Waits sig Unit)
    (hkin : kin c = (kSrc c).view.read (Elt F) (m ((kSrc c).view.loc (c : Thread nD τ))))
    (hvin : vin c = (vSrc c).view.read (Elt F) (m ((vSrc c).view.loc (c : Thread nD τ))))
    (Q : (Σ' (d0 : Dev nD) (v2 : BitVec 32) (v5 : BitVec 32) (v8 : BitVec 32) (v10 : BitVec 32), Vec F S1x8x1x128 .f32) → sProp 𝕄) :
    iprop(cellRec vo vm vl vg kin vin m κ (loadCell c 0) ∗ cellRec vo vm vl vg kin vin m κ (loadCell c 1)
        ∗ MayWait (c : Thread nD τ) (.dma (sem2 cc0_scratch5 0)) () O ∗ MayWait (c : Thread nD τ) (.dma (sem2 cc0_scratch5 1)) () O
        ∗ loadToks (F := F) c ∗ kvPts m c ∗ owned (F := F) c kM ∗ owned (F := F) c vM ∗ pt c qM (qstg m c : Bf (F := F) c qM)
        ∗ owes (c : Thread nD τ) O W
        ∗ (iprop(loadDone (F := F) c ∗ kvPts m c
              ∗ (∃ fk : Bf (F := F) c kM, pt c kM fk ∗ ⌜kM.view.read (Elt F) fk = kin c⌝)
              ∗ (∃ fv : Bf (F := F) c vM, pt c vM fv ∗ ⌜vM.view.read (Elt F) fv = vin c⌝)
              ∗ pt c qM (qstg m c : Bf (F := F) c qM)
              ∗ owes (c : Thread nD τ) O (insert (SemLoc.dma (sem2 cc0_scratch5 1), ()) (insert (SemLoc.dma (sem2 cc0_scratch5 0), ()) W)))
            -∗ Q ⟨c, Scalar.remsi (Scalar.divsi (Dev.word c) 16#32) 2#32, Scalar.remsi (Scalar.divsi (Dev.word c) 4#32) 4#32,
                  Scalar.remsi (Scalar.divsi (Dev.word c) 1#32) 4#32,
                  Scalar.addi (Scalar.muli (Scalar.remsi (Scalar.divsi (Dev.word c) 16#32) 2#32) 4#32) (Scalar.remsi (Scalar.divsi (Dev.word c) 4#32) 4#32),
                  q0At c (qstg m c : Bf (F := F) c qM)⟩))
      ⊢ wp frame (wpE (defs₀ (F := F)) 𝒱₀ (c : Thread nD τ) none) Set.univ
          (k0_part1 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13) Q := by
  rw [k0_part1_eq_skeleton]
  unfold k0_part1_skel
  iintro ⟨#HI0, #HI1, #HM0, #HM1, Htoks, Hkv, HkM, HvM, Hq, HO, Hk⟩
  unfold cellRec
  icases HI0 with ⟨#Hinv0, #Hr0⟩
  icases HI1 with ⟨#Hinv1, #Hr1⟩
  unfold loadToks
  icases Htoks with ⟨Ht0, Ht1, Hat0, Hat1⟩
  unfold kvPts
  icases Hkv with ⟨HK, HV⟩
  unfold owned
  icases HkM with ⟨%fk0, HkM⟩
  icases HvM with ⟨%fv0, HvM⟩
  simp only [Prog.lift, Prog.bind_op, Prog.bind_ret, Prog.pure_eq_ret, wp_deviceId]
  ihave HK' := (pointsTo_split_subset (q := fullShare) (f := m ((kSrc c).view.loc (c : Thread nD τ))) (Finset.subset_univ ((kSrc c).view.set))).1 $$ HK
  icases HK' with ⟨Hrow0, Hrest0⟩
  ihave HV' := (pointsTo_split_subset (q := fullShare) (f := m ((vSrc c).view.loc (c : Thread nD τ))) (Finset.subset_univ ((vSrc c).view.set))).1 $$ HV
  icases HV' with ⟨Hrow1, Hrest1⟩
  iapply (Rounds.wp_copy_pointsTo 𝒱₀ ER RD (c : Thread nD τ) none (src := kSrc c) (dst := kM) (sem := .dma (sem2 cc0_scratch5 0))
      (q := fullShare) (fs := m ((kSrc c).view.loc (c : Thread nD τ))) (fd := fk0) (r := 0) (d := 0) (κ := κ (loadCell c 0))
      (load_duty vo vm vl vg kin vin m c 0) () Nkv (by rw [Nkv_eq]) (load_amount vo vm vl vg kin vin m c 0)
      (load_pay0 vo vm vl vg kin vin m c hkin fk0)) $$ [Hrow0 HkM Ht0]
  · isplitr; · iexact Hinv0
    isplitl [Hrow0]; · iexact Hrow0
    isplitl [HkM]; · iexact HkM
    isplitl [Ht0]; · iexact Ht0
    iexact Hr0
  iintro Hc0
  iapply (Rounds.wp_copy_pointsTo 𝒱₀ ER RD (c : Thread nD τ) none (src := vSrc c) (dst := vM) (sem := .dma (sem2 cc0_scratch5 1))
      (q := fullShare) (fs := m ((vSrc c).view.loc (c : Thread nD τ))) (fd := fv0) (r := 0) (d := 0) (κ := κ (loadCell c 1))
      (load_duty vo vm vl vg kin vin m c 1) () Nkv (by rw [Nkv_eq]) (load_amount vo vm vl vg kin vin m c 1)
      (load_pay1 vo vm vl vg kin vin m c hvin fv0)) $$ [Hrow1 HvM Ht1]
  · isplitr; · iexact Hinv1
    isplitl [Hrow1]; · iexact Hrow1
    isplitl [HvM]; · iexact HvM
    isplitl [Ht1]; · iexact Ht1
    iexact Hr1
  iintro Hc1
  iapply (own_wait vo vm vl vg kin vin m 𝒱₀ c (sem2 cc0_scratch5 0) (kind_load_ne 0) none (dst := kM)
      (by rw [kind_load]; exact Nkv_eq.symm) (Set.mem_univ _)) $$ [Hc0 HO Hat0]
  · isplitr; · iexact Hinv0
    isplitl [Hc0]; · iexact Hc0
    isplitl [HO]; · iexact HO
    isplitr; · iexact HM0
    iexact Hat0
  iintro ⟨HO, Hat0, -, Hpay0⟩
  iapply (own_wait vo vm vl vg kin vin m 𝒱₀ c (sem2 cc0_scratch5 1) (kind_load_ne 1) none (dst := vM)
      (by rw [kind_load]; exact Nkv_eq.symm) (Set.mem_univ _)) $$ [Hc1 HO Hat1]
  · isplitr; · iexact Hinv1
    isplitl [Hc1]; · iexact Hc1
    isplitl [HO]; · iexact HO
    isplitr; · iexact HM1
    iexact Hat1
  iintro ⟨HO, Hat1, -, Hpay1⟩
  ihave Hpay0' := (dmaPay_load0_le vo vm vl vg kin vin m c) $$ Hpay0
  ihave Hpay1' := (dmaPay_load1_le vo vm vl vg kin vin m c) $$ Hpay1
  icases Hpay0' with ⟨HkM, Hrow0⟩
  icases Hpay1' with ⟨HvM, Hrow1⟩
  unfold holds hbmRow
  icases HkM with ⟨%fk, HkM, %hfk⟩
  icases HvM with ⟨%fv, HvM, %hfv⟩
  ihave HK := (pointsTo_split_subset (q := fullShare) (f := m ((kSrc c).view.loc (c : Thread nD τ))) (Finset.subset_univ ((kSrc c).view.set))).2 $$ [Hrow0 Hrest0]
  · isplitl [Hrow0]; · iexact Hrow0
    iexact Hrest0
  ihave HV := (pointsTo_split_subset (q := fullShare) (f := m ((vSrc c).view.loc (c : Thread nD τ))) (Finset.subset_univ ((vSrc c).view.set))).2 $$ [Hrow1 Hrest1]
  · isplitl [Hrow1]; · iexact Hrow1
    iexact Hrest1
  sl_step
  sl_step
  iapply Hk
  isplitl [Hat0 Hat1]
  · unfold loadDone
    isplitl [Hat0]; · iexact Hat0
    iexact Hat1
  isplitl [HK HV]
  · isplitl [HK]; · iexact HK
    iexact HV
  isplitl [HkM]
  · iexists fk
    isplitl [HkM]
    · iapply (kM_whole c fk); iexact HkM
    ipureintro; exact hfk
  isplitl [HvM]
  · iexists fv
    isplitl [HvM]
    · iapply (vM_whole c fv); iexact HvM
    ipureintro; exact hfv
  isplitl [Hq]; · iexact Hq
  iexact HO

/-- info: 'Cert.Kernel.FD.part1_run' depends on axioms: [propext, Classical.choice, Quot.sound] -/
#guard_msgs in #print axioms part1_run

end Cert.Kernel.FD

end
-- ==== Proof.BodyFrontW.lean ====
/-
  The front of the body's first half, and the first half from its pieces.

  From the body's precondition the entry part copies the device's rows of keys and values into its two scratch buffers
  and loads the first rows of the query; the sixteen heads then leave in slot 0 of the three ring buffers the device's
  own partial results and touch nothing else. Cut slot by slot and row by row, that is the state before the first
  signal. The handshake and the ring follow in two stretches; what the front carried past them — the loads waited for,
  the key and value arrays, the two scratch buffers of the loads, the staged query — joins what they leave to make the
  state between the halves.
-/
import proofs.«900429_g7700000000000430_dist_flashdec_v7x_xyz2x4x4_z_b8_sq8_skv1024_h16_d128_f32_1_alg».proof.Proof.BodyAW
import proofs.«900429_g7700000000000430_dist_flashdec_v7x_xyz2x4x4_z_b8_sq8_skv1024_h16_d128_f32_1_alg».proof.Proof.RingHalfW
import proofs.«900429_g7700000000000430_dist_flashdec_v7x_xyz2x4x4_z_b8_sq8_skv1024_h16_d128_f32_1_alg».proof.Proof.Part1W
import proofs.«900429_g7700000000000430_dist_flashdec_v7x_xyz2x4x4_z_b8_sq8_skv1024_h16_d128_f32_1_alg».proof.Proof.ComputeW
import proofs.«900429_g7700000000000430_dist_flashdec_v7x_xyz2x4x4_z_b8_sq8_skv1024_h16_d128_f32_1_alg».proof.Proof.DataW
import proofs.«900429_g7700000000000430_dist_flashdec_v7x_xyz2x4x4_z_b8_sq8_skv1024_h16_d128_f32_1_alg».proof.Proof.BodyStepsW
import proofs.«900429_g7700000000000430_dist_flashdec_v7x_xyz2x4x4_z_b8_sq8_skv1024_h16_d128_f32_1_alg».proof.Proof.BodyGlueW
import proofs.«900429_g7700000000000430_dist_flashdec_v7x_xyz2x4x4_z_b8_sq8_skv1024_h16_d128_f32_1_alg».proof.Proof.LaunchW

noncomputable section

namespace Cert.Kernel.FD

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The entry part and the heads, followed by anything -/

set_option maxRecDepth 65536 in
/-- The entry part and the heads, followed by `k2`, which is handed the device and the words computed so far. -/
noncomputable def frontWith (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3)
    (k2 : Dev nD → BitVec 32 → BitVec 32 → BitVec 32 → BitVec 32 → BitVec 32 → BitVec 32 → Prog (TpuEff nD τ sig (Elt F) Λ₀ .tc) PUnit) :
    Prog (TpuEff nD τ sig (Elt F) Λ₀ .tc) PUnit := do
  let ⟨d0, v2, v5, v8, v10, v28⟩ : Σ' (d0 : Dev nD) (v2 : BitVec 32) (v5 : BitVec 32) (v8 : BitVec 32) (v10 : BitVec 32), Vec F S1x8x1x128 .f32 ← k0_part1 arg0 harg0 arg1 harg1 arg2 harg2 arg3 harg3 arg4 harg4 arg5 harg5 arg6 harg6 arg7 harg7 arg8 harg8 arg9 arg10 arg11 arg12 arg13 arg14 arg15 arg16 arg17
  let ⟨v460, v462, c4_i32_421⟩ : Σ' (v460 : BitVec 32) (v462 : BitVec 32), BitVec 32 ← segCompute arg0 harg0 arg1 harg1 arg2 harg2 arg3 harg3 arg4 harg4 arg5 harg5 arg6 harg6 arg7 harg7 arg8 harg8 arg9 arg10 arg11 arg12 arg13 arg14 arg15 arg16 arg17 d0 v8 v10 v28
  k2 d0 v2 v5 v8 v460 v462 c4_i32_421

set_option maxRecDepth 65536 in
/-- The first half is the front followed by the two stretches of the ring. -/
theorem bodyWith_eq_front (arg0 : Memref sig .tc .vmem S8x8x16x128 .f32) (harg0 : arg0.IsWhole) (arg1 : Memref sig .tc .hbm S8x1024x16x128 .f32) (harg1 : arg1.IsWhole) (arg2 : Memref sig .tc .hbm S8x1024x16x128 .f32) (harg2 : arg2.IsWhole) (arg3 : Memref sig .tc .vmem S8x8x16x128 .f32) (harg3 : arg3.IsWhole) (arg4 : Memref sig .tc .vmem S1024x16x128 .f32) (harg4 : arg4.IsWhole) (arg5 : Memref sig .tc .vmem S1024x16x128 .f32) (harg5 : arg5.IsWhole) (arg6 : Memref sig .tc .vmem S4x8x16x128 .f32) (harg6 : arg6.IsWhole) (arg7 : Memref sig .tc .vmem S4x8x16x1 .f32) (harg7 : arg7.IsWhole) (arg8 : Memref sig .tc .vmem S4x8x16x1 .f32) (harg8 : arg8.IsWhole) (arg9 : DmaSems sig S2) (arg10 : DmaSems sig S3) (arg11 : DmaSems sig S3) (arg12 : DmaSems sig S3) (arg13 : DmaSems sig S3) (arg14 : DmaSems sig S3) (arg15 : DmaSems sig S3) (arg16 : DmaSems sig S3) (arg17 : DmaSems sig S3)
    (rest : Dev nD → BitVec 32 → BitVec 32 → BitVec 32 → BitVec 32 → BitVec 32 → BitVec 32 → Prog (TpuEff nD τ sig (Elt F) Λ₀ .tc) PUnit) :
    bodyWith (F := F) arg0 harg0 arg1 harg1 arg2 harg2 arg3 harg3 arg4 harg4 arg5 harg5 arg6 harg6 arg7 harg7 arg8 harg8 arg9 arg10 arg11 arg12 arg13 arg14 arg15 arg16 arg17 rest = frontWith arg0 harg0 arg1 harg1 arg2 harg2 arg3 harg3 arg4 harg4 arg5 harg5 arg6 harg6 arg7 harg7 arg8 harg8 arg9 arg10 arg11 arg12 arg13 arg14 arg15 arg16 arg17
      (fun d0 v2 v5 v8 v460 v462 c4 => ringHead arg0 harg0 arg1 harg1 arg2 harg2 arg3 harg3 arg4 harg4 arg5 harg5 arg6 harg6 arg7 harg7 arg8 harg8 arg9 arg10 arg11 arg12 arg13 arg14 arg15 arg16 arg17 d0 v2 v5 v8 v460 v462 c4 fun v464 v465 v466 v623 w4 =>
        ringTail arg0 harg0 arg1 harg1 arg2 harg2 arg3 harg3 arg4 harg4 arg5 harg5 arg6 harg6 arg7 harg7 arg8 harg8 arg9 arg10 arg11 arg12 arg13 arg14 arg15 arg16 arg17 d0 v2 v5 v460 v623 w4 (rest d0 v2 v5 v8 v464 v465 v466)) := rfl

section Recs

variable (vo : Dev nD → S8x16x128.Idx → Elt F .f32) (vm vl : Dev nD → S8x16x1.Idx → Elt F .f32)
variable (vg : ℕ → S8x8x16x128.Idx → Elt F .f32)
variable (kin vin : Dev nD → S1024x16x128.Idx → Elt F .f32)
variable (m : (ℓ : Loc nD τ sig) → Buf (Elt F) ℓ)

omit [FloatOps F] in
instance front_commRecs_persistent (κ : GSem nD τ sig → ℕ) (c : Dev nD) : BI.Persistent (commRecs vo vm vl vg kin vin m κ c) := by
  unfold commRecs; infer_instance

omit [FloatOps F] in
theorem front_lev (κ : GSem nD τ sig → ℕ) (c : Dev nD) : commRecs vo vm vl vg kin vin m κ c ⊢ (levAts L lv : sProp 𝕄) := by
  unfold commRecs; iintro ⟨H, -⟩; iexact H
omit [FloatOps F] in
theorem front_load0 (κ : GSem nD τ sig → ℕ) (c : Dev nD) : commRecs vo vm vl vg kin vin m κ c ⊢ cellRec vo vm vl vg kin vin m κ (loadCell c 0) := by
  unfold commRecs; iintro ⟨-, -, -, -, -, -, -, -, -, H, -⟩; iexact H
omit [FloatOps F] in
theorem front_load1 (κ : GSem nD τ sig → ℕ) (c : Dev nD) : commRecs vo vm vl vg kin vin m κ c ⊢ cellRec vo vm vl vg kin vin m κ (loadCell c 1) := by
  unfold commRecs; iintro ⟨-, -, -, -, -, -, -, -, -, -, H⟩; iexact H

end Recs

section FrontProof

variable (m : (ℓ : Loc nD τ sig) → Buf (Elt F) ℓ)

open Cert.Kernel.BodyProto (ringO_entry ringM_entry ringL_entry out_entry mayWait_after)

/-- After the heads, before the first signal. -/
def FrontPost (K : Dev nD × Fin 27 → ℕ) (c : Dev nD) : sProp 𝕄 :=
  iprop(commRecs (voD m) (vmD m) (vlD m) (vgD m) (kinD m) (vinD m) m (κOf K) c ∗ commEntry (voD m) (vmD m) (vlD m) c ∗ loadDone c ∗ kvPts m c ∗ owned c kM ∗ owned c vM
    ∗ stg c cc0_stg0_0 (qstg m c))

omit [FloatOps F] in
theorem lv_load (c : Dev nD) (i : Fin 2) : lv ((c : Thread nD τ), .dma (sem2 cc0_scratch5 i)) () = 0 := by
  fin_cases i <;> rfl

omit [FloatOps F] in
/-- A wait on a load cell sits below everything the device owes at launch. -/
theorem mayWait_load (c : Dev nD) (i : Fin 2) :
    (levAts L lv : sProp 𝕄) ⊢ MayWait (c : Thread nD τ) (.dma (sem2 cc0_scratch5 i)) () (owedAfter 0 c) :=
  mayWait_after c 0 _ fun p hp => by
    have h := List.forall_iff_forall_mem.1 (pay_levels c) p hp
    refine ⟨?_, by rw [lv_load]; exact h.2⟩
    by_contra hne
    have h1 := h.1
    rw [L_of_ne _ hne] at h1
    exact absurd h1 (Finset.notMem_empty _)

/-- The front of the first half: from the body's precondition, the entry part and the sixteen heads leave the device
    ready for its first signal. -/
theorem body_front (K : Dev nD × Fin 27 → ℕ) (c : Dev nD)
    (k2 : Dev nD → BitVec 32 → BitVec 32 → BitVec 32 → BitVec 32 → BitVec 32 → BitVec 32 → Prog (TpuEff nD τ sig (Elt F) Λ₀ .tc) PUnit) (Q : PUnit → sProp 𝕄) :
    iprop(bodyPre (voD m) (vmD m) (vlD m) (vgD m) (kinD m) (vinD m) m K c
        ∗ (∀ v2, ∀ v5, ∀ v8, ∀ v460, ∀ v462, ∀ c4, FrontPost m K c -∗ wp frame (wpE (defs₀ (F := F)) 𝒱₀ c none) Set.univ (k2 c v2 v5 v8 v460 v462 c4) Q))
      ⊢ wp frame (wpE (defs₀ (F := F)) 𝒱₀ c none) Set.univ (frontWith (Memref.whole cc0_stg0_0) (Memref.isWhole_whole _) (Memref.whole main_arg1) (Memref.isWhole_whole _)
      (Memref.whole main_arg2) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _)
      cc0_scratch5 cc0_scratch6 cc0_scratch7 cc0_scratch8 cc0_scratch9 cc0_scratch10 cc0_scratch11 cc0_scratch12 cc0_scratch13 k2) Q := by
  unfold frontWith
  rw [wp_bind]
  iintro ⟨Hpre, Hk⟩
  ihave H := (open_pre (voD m) (vmD m) (vlD m) (vgD m) (kinD m) (vinD m) m K c) $$ Hpre
  icases H with ⟨#Hrecs, Ho, Hbt, Hbp, Hring, Hgath, Hlt, Hkv, HkM, HvM, Hco, Hcm, Hcl, Hx, ⟨%fo, Hout⟩⟩
  unfold owesAt
  icases Ho with ⟨%W, HO⟩
  icases Hx with ⟨%fq, %hfq, Hq⟩
  subst hfq
  iapply (part1_run (voD m) (vmD m) (vlD m) (vgD m) (kinD m) (vinD m) m c (κOf K) (owedAfter 0 c) W rfl rfl _)
  isplitr; · iapply (front_load0 (voD m) (vmD m) (vlD m) (vgD m) (kinD m) (vinD m) m (κOf K) c); iexact Hrecs
  isplitr; · iapply (front_load1 (voD m) (vmD m) (vlD m) (vgD m) (kinD m) (vinD m) m (κOf K) c); iexact Hrecs
  isplitr; · iapply (mayWait_load (F := F) c 0); iapply (front_lev (voD m) (vmD m) (vlD m) (vgD m) (kinD m) (vinD m) m (κOf K) c); iexact Hrecs
  isplitr; · iapply (mayWait_load (F := F) c 1); iapply (front_lev (voD m) (vmD m) (vlD m) (vgD m) (kinD m) (vinD m) m (κOf K) c); iexact Hrecs
  isplitl [Hlt]; · iexact Hlt
  isplitl [Hkv]; · iexact Hkv
  isplitl [HkM]; · iexact HkM
  isplitl [HvM]; · iexact HvM
  isplitl [Hq]; · iexact Hq
  isplitl [HO]; · iexact HO
  iintro ⟨Hld, Hkv, ⟨%fk, Hfk, %hfk⟩, ⟨%fv, Hfv, %hfv⟩, Hq, HO⟩
  dsimp only
  rw [wp_bind]
  ihave H6 := (Entails.of_eq (owned_coM (F := F) c)) $$ Hco
  icases H6 with ⟨%f6, H6⟩
  ihave H7 := (Entails.of_eq (owned_cmM (F := F) c)) $$ Hcm
  icases H7 with ⟨%f7, H7⟩
  ihave H8 := (Entails.of_eq (owned_clM (F := F) c)) $$ Hcl
  icases H8 with ⟨%f8, H8⟩
  iapply ((computeRun c (q0At c (qstg m c : Bf (F := F) c qM)) (qstg m c : Bf (F := F) c qM) fk fv f6 f7 f8).2 _ _ Set.univ _)
  isplitl [Hq]; · iexact Hq
  isplitl [Hfk]; · iexact Hfk
  isplitl [Hfv]; · iexact Hfv
  isplitl [H6]; · iexact H6
  isplitl [H7]; · iexact H7
  isplitl [H8]; · iexact H8
  iintro ⟨Hq, Hfk, Hfv, H6, H7, H8⟩
  dsimp only
  iapply Hk
  unfold FrontPost commEntry
  isplitr; · iexact Hrecs
  isplitl [HO Hbt Hbp Hring Hgath H6 H7 H8 Hout]
  · isplitl [HO]; · unfold owesAt; iexists _; iexact HO
    isplitl [Hbt]; · iexact Hbt
    isplitl [Hbp]; · iexact Hbp
    isplitl [Hring]; · iexact Hring
    isplitl [Hgath]; · iexact Hgath
    isplitl [H6 H7 H8]
    · rw [bigSep_fin3]
      isplitl [H6]; · iapply (ringO_entry (voD m) (vmD m) (vlD m) c _ (computeRun_slot0 m c fk fv hfk hfv f6 f7 f8).1); iexact H6
      isplitl [H7]; · iapply (ringM_entry (voD m) (vmD m) (vlD m) c _ (computeRun_slot0 m c fk fv hfk hfv f6 f7 f8).2.1); iexact H7
      iapply (ringL_entry (voD m) (vmD m) (vlD m) c _ (computeRun_slot0 m c fk fv hfk hfv f6 f7 f8).2.2); iexact H8
    iapply (out_entry (F := F) c fo); iexact Hout
  isplitl [Hld]; · iexact Hld
  isplitl [Hkv]; · iexact Hkv
  isplitl [Hfk]; · iapply (Entails.of_eq (owned_kM (F := F) c).symm); iexists fk; iexact Hfk
  isplitl [Hfv]; · iapply (Entails.of_eq (owned_vM (F := F) c).symm); iexists fv; iexact Hfv
  iexists (qstg m c); isplitr; · ipureintro; rfl
  iexact Hq

/-- The first half of the body, from the two stretches of the ring. -/
theorem first_half (h1 : RingFirst (voD m) (vmD m) (vlD m) (vgD m) (kinD m) (vinD m) m) (h2 : RingSecond (voD m) (vmD m) (vlD m) (vgD m) (kinD m) (vinD m) m) : FirstHalf (voD m) (vmD m) (vlD m) (vgD m) (kinD m) (vinD m) m := by
  intro K c rest Q
  rw [bodyWith_eq_front]
  iintro ⟨Hpre, Hk⟩
  iapply (body_front m K c (fun d0 v2 v5 v8 v460 v462 c4 => ringHead (Memref.whole cc0_stg0_0) (Memref.isWhole_whole _) (Memref.whole main_arg1) (Memref.isWhole_whole _)
      (Memref.whole main_arg2) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _)
      cc0_scratch5 cc0_scratch6 cc0_scratch7 cc0_scratch8 cc0_scratch9 cc0_scratch10 cc0_scratch11 cc0_scratch12 cc0_scratch13 d0 v2 v5 v8 v460 v462 c4 fun v464 v465 v466 v623 w4 =>
        ringTail (Memref.whole cc0_stg0_0) (Memref.isWhole_whole _) (Memref.whole main_arg1) (Memref.isWhole_whole _)
      (Memref.whole main_arg2) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _)
      cc0_scratch5 cc0_scratch6 cc0_scratch7 cc0_scratch8 cc0_scratch9 cc0_scratch10 cc0_scratch11 cc0_scratch12 cc0_scratch13 d0 v2 v5 v460 v623 w4 (rest d0 v2 v5 v8 v464 v465 v466)) Q)
  isplitl [Hpre]; · iexact Hpre
  iintro %v2 %v5 %v8 %v460 %v462 %c4 HF
  unfold FrontPost
  icases HF with ⟨#Hrecs, Hce, Hld, Hkv, HkM, HvM, Hq⟩
  iapply (h1 (κOf K) c v2 v5 v8 v460 v462 c4 _ Q)
  isplitr; · iexact Hrecs
  isplitl [Hce]; · iexact Hce
  iintro %v464 %v465 %v466 %v623 %w HH
  iapply (h2 (κOf K) c v2 v5 v460 v623 w _ Q)
  isplitr; · iexact Hrecs
  isplitl [HH]; · iexact HH
  iintro HE
  iapply Hk
  unfold Mid
  isplitr; · iexact Hrecs
  isplitl [HE]; · iexact HE
  isplitl [Hld]; · iexact Hld
  isplitl [Hkv]; · iexact Hkv
  isplitl [HkM]; · iexact HkM
  isplitl [HvM]; · iexact HvM
  iexact Hq

end FrontProof

/-- info: 'Cert.Kernel.FD.body_front' depends on axioms: [propext, Classical.choice, Quot.sound] -/
#guard_msgs in #print axioms body_front
/-- info: 'Cert.Kernel.FD.first_half' depends on axioms: [propext, Classical.choice, Quot.sound] -/
#guard_msgs in #print axioms first_half

end Cert.Kernel.FD

end
-- ==== Proof.BodyBW.lean ====
/-
  The second half of the body: from the end of the ring to the end of the body.

  After the last hop the four slots of the three ring buffers hold the partial results of the device and of the three devices
  before it along z. The buffers are joined whole again, the merge computes the device's row of the result, the row is stored
  and the three exchanges gather the eight rows; then every own cell closes. This module runs that stretch as one lemma.
-/
import proofs.«900429_g7700000000000430_dist_flashdec_v7x_xyz2x4x4_z_b8_sq8_skv1024_h16_d128_f32_1_alg».proof.Proof.BodyStepsW
import proofs.«900429_g7700000000000430_dist_flashdec_v7x_xyz2x4x4_z_b8_sq8_skv1024_h16_d128_f32_1_alg».proof.Proof.BodyGlueW
import proofs.«900429_g7700000000000430_dist_flashdec_v7x_xyz2x4x4_z_b8_sq8_skv1024_h16_d128_f32_1_alg».proof.Proof.DataW
import proofs.«900429_g7700000000000430_dist_flashdec_v7x_xyz2x4x4_z_b8_sq8_skv1024_h16_d128_f32_1_alg».proof.Proof.BodyAW

noncomputable section

namespace Cert.Kernel.BodyProto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ### The evidence a wait presents, through the index of the payment

Along the list of payments the levels never decrease: the five barrier cells at 1, the ring's receive cells of hop `h` at `2 + h`,
the exchanges' of stage `st` at `5 + st`. So a wait on a cell at level `ℓ` after `k` payments is allowed as soon as `ℓ` is below the
level of payment `k`. -/

section LevelsIdx

open Cert.Kernel.FD
open Cert.Kernel.Mesh (zr zl p0 p1 p2)

variable {F : FTy → Type} [FloatOps F]

local notation "𝕄" => MT nD τ sig Unit (Elt F) ℕ UU ℕ

/-- The level of the cell payment `j` goes to. -/
def lvIdx (j : ℕ) : ℕ := if j < 5 then 1 else if j < 14 then 2 + (j - 5) / 3 else 5 + (j - 14)

theorem lvIdx_mono : ∀ j, j < 17 → ∀ j', j' < 17 → j ≤ j' → lvIdx j ≤ lvIdx j' := by decide

omit [FloatOps F] in
/-- Payment `j` goes to a TensorCore cell at level `lvIdx j`. -/
theorem payList_level (c : Dev nD) (j : ℕ) (hj : j < 17) :
    ((payList c)[j]'(by simpa [payList] using hj)).1.1.2 = .tc ∧ lv ((payList c)[j]'(by simpa [payList] using hj)).1 () = lvIdx j := by
  have : j ∈ Finset.range 17 := Finset.mem_range.mpr hj
  fin_cases this
  · exact ⟨rfl, lv_bar (zl c)⟩
  · exact ⟨rfl, lv_bar (zr c)⟩
  · exact ⟨rfl, lv_bar (p0 c)⟩
  · exact ⟨rfl, lv_bar (p1 c)⟩
  · exact ⟨rfl, lv_bar (p2 c)⟩
  · exact ⟨rfl, lv_rrecv (zr c) 0 0⟩
  · exact ⟨rfl, lv_rrecv (zr c) 1 0⟩
  · exact ⟨rfl, lv_rrecv (zr c) 2 0⟩
  · exact ⟨rfl, lv_rrecv (zr c) 0 1⟩
  · exact ⟨rfl, lv_rrecv (zr c) 1 1⟩
  · exact ⟨rfl, lv_rrecv (zr c) 2 1⟩
  · exact ⟨rfl, lv_rrecv (zr c) 0 2⟩
  · exact ⟨rfl, lv_rrecv (zr c) 1 2⟩
  · exact ⟨rfl, lv_rrecv (zr c) 2 2⟩
  · exact ⟨rfl, lv_grecv (p0 c) 0⟩
  · exact ⟨rfl, lv_grecv (p1 c) 1⟩
  · exact ⟨rfl, lv_grecv (p2 c) 2⟩

omit [FloatOps F] in
/-- What is owed after `k` payments is positive only at the cell of a payment from `k` on. -/
theorem owedAfter_pos (c : Dev nD) (g : GSem nD τ sig) (i : Unit) :
    ∀ n k, k + n = 17 → 0 < owedAfter k c g i →
      ∃ j, k ≤ j ∧ ∃ hj : j < 17, g = ((payList c)[j]'(by simpa [payList] using hj)).1 := by
  intro n
  induction n with
  | zero =>
    intro k hk h
    have hk' : k = 17 := by omega
    subst hk'
    rw [owedAfter_all] at h
    exact absurd h (Nat.lt_irrefl 0)
  | succ n ih =>
    intro k hk h
    have hk' : k < 17 := by omega
    rw [owedAfter_step c k hk'] at h
    rcases Pipeline.add_pos_cases h with h1 | h2
    · obtain ⟨j, hkj, hj, e⟩ := ih (k + 1) (by omega) h1
      exact ⟨j, by omega, hj, e⟩
    · exact ⟨k, le_rfl, hk', (Pipeline.tallyAt_pos h2).1⟩

omit [FloatOps F] in
/-- After `k` payments a device may wait on its cell `sm` at level `ℓ` if `ℓ` is below the level of every payment from `k` on;
    the levels not decreasing, below that of payment `k`. -/
theorem mayWait_idx (c : Dev nD) (k : ℕ) (sm : SemLoc sig) (ℓ : ℕ) (hℓ : lv ((c : Thread nD τ), sm) () = ℓ)
    (hk : k = 17 ∨ (k < 17 ∧ ℓ < lvIdx k)) :
    (levAts L lv : sProp 𝕄) ⊢ MayWait (c : Thread nD τ) sm () (owedAfter k c) := by
  refine Pipeline.mayWait_of_levAts (L := L) (lev := lv) (by rw [L_tc]; exact Finset.mem_singleton_self _) ?_
  intro g i hg
  rcases hk with rfl | ⟨hk17, hlt⟩
  · rw [owedAfter_all] at hg; exact absurd hg (Nat.lt_irrefl 0)
  · obtain ⟨j, hkj, hj, rfl⟩ := owedAfter_pos c g i (17 - k) k (by omega) hg
    obtain ⟨h1, h2⟩ := payList_level c j hj
    refine ⟨?_, ?_⟩
    · unfold L; rw [if_pos h1]; exact Finset.mem_singleton_self _
    · cases i
      rw [hℓ, h2]
      exact Nat.lt_of_lt_of_le hlt (lvIdx_mono k hk17 j hj hkj)

end LevelsIdx

/-! ## From the end of the ring to the end of the body -/

section Second

open Cert.Kernel.FD
open Cert.Kernel.Mesh (zr zl p0 p1 p2)
open Idealize.ShloMosaic.Rounds

variable {F : FTy → Type} [FloatOps F]

local notation "𝕄" => MT nD τ sig Unit (Elt F) ℕ UU ℕ

variable (m : (ℓ : Loc nD τ sig) → Buf (Elt F) ℓ)

/-- The records hold the levels, -/
theorem commRecs_lev (κ : GSem nD τ sig → ℕ) (c : Dev nD) : commRecs (voD m) (vmD m) (vlD m) (vgD m) (kinD m) (vinD m) m κ c ⊢ (levAts L lv : sProp 𝕄) := by
  unfold commRecs
  iintro ⟨H, -⟩
  iexact H

/-- and the records of the three cells of each exchange. -/
theorem commRecs_gath (κ : GSem nD τ sig → ℕ) (c : Dev nD) (st : Fin 3) :
    commRecs (voD m) (vmD m) (vlD m) (vgD m) (kinD m) (vinD m) m κ c
      ⊢ iprop(cellRec (voD m) (vmD m) (vlD m) (vgD m) (kinD m) (vinD m) m κ (gsendCell c st) ∗ cellRec (voD m) (vmD m) (vlD m) (vgD m) (kinD m) (vinD m) m κ (grecvCell c st) ∗ cellRec (voD m) (vmD m) (vlD m) (vgD m) (kinD m) (vinD m) m κ (grecvCell (partner st c) st)) :=
  (show commRecs (voD m) (vmD m) (vlD m) (vgD m) (kinD m) (vinD m) m κ c ⊢ (bigSep Finset.univ fun st : Fin 3 =>
      (iprop(cellRec (voD m) (vmD m) (vlD m) (vgD m) (kinD m) (vinD m) m κ (gsendCell c st) ∗ cellRec (voD m) (vmD m) (vlD m) (vgD m) (kinD m) (vinD m) m κ (grecvCell c st) ∗ cellRec (voD m) (vmD m) (vlD m) (vgD m) (kinD m) (vinD m) m κ (grecvCell (partner st c) st)) : sProp 𝕄)) from by
    unfold commRecs
    iintro ⟨-, -, -, -, -, -, -, -, H, -⟩
    iexact H).trans (bigSep_elim (Finset.mem_univ st))

instance commRecs_persistent (κ : GSem nD τ sig → ℕ) (c : Dev nD) : BI.Persistent (commRecs (voD m) (vmD m) (vlD m) (vgD m) (kinD m) (vinD m) m κ c) := by
  unfold commRecs; infer_instance

omit [FloatOps F] in
theorem routes_p0 (c : Dev nD) : τ.routes (c : Thread nD τ) (p0 c : Thread nD τ) = true := by revert c; decide
omit [FloatOps F] in
theorem routes_p1 (c : Dev nD) : τ.routes (c : Thread nD τ) (p1 c : Thread nD τ) = true := by revert c; decide
omit [FloatOps F] in
theorem routes_p2 (c : Dev nD) : τ.routes (c : Thread nD τ) (p2 c : Thread nD τ) = true := by revert c; decide

set_option maxRecDepth 65536 in
/-- From the state after the ring's last wait, the rest of the body — the merge, the store of the device's row, the three
    exchanges — runs to the body's postcondition. -/
theorem body_second (K : Dev nD × Fin 27 → ℕ) (c : Dev nD) (v2 v5 v8 v464 v465 v466 : BitVec 32) (Kt : PUnit → sProp 𝕄) :
    iprop(Mid (voD m) (vmD m) (vlD m) (vgD m) (kinD m) (vinD m) m K c ∗ (bodyPost (voD m) (vmD m) (vlD m) (vgD m) (kinD m) (vinD m) m c -∗ Kt ⟨⟩))
      ⊢ wp frame (wpE (defs₀ (F := F)) 𝒱₀ (c : Thread nD τ) none) Set.univ
          (do
            let w : FVec F S1x8x16x128 .f32 ← segMerge (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13
            seg31Tail (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c w
            k0_part32 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c v2 v8 v464 v465
            k0_part33 (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c v2 v5 v8 v465 v466
            segExit (F := F) qM (Memref.isWhole_whole _) kHbm (Memref.isWhole_whole _) vHbm (Memref.isWhole_whole _) outM (Memref.isWhole_whole _) kM (Memref.isWhole_whole _) vM (Memref.isWhole_whole _) coM (Memref.isWhole_whole _) cmM (Memref.isWhole_whole _) clM (Memref.isWhole_whole _) cc0_scratch5 cc0_scratch6 cc0_scratch7 cc0_scratch8 cc0_scratch9 cc0_scratch10 cc0_scratch11 cc0_scratch12 cc0_scratch13 c) Kt := by
  unfold Mid ringExit gathToks gathPos owesAt
  iintro ⟨⟨#HC, ⟨⟨%W, HO⟩, Hatb, Hrd, Hg, Hsl, Hrow, Hp0, Hp1, Hp2, #Hq0, #Hq1, #Hq2⟩, HLD, Hkv, HkM, HvM, Hq⟩, HK⟩
  -- the persistent records this stretch uses
  ihave #Hlev := (commRecs_lev m (κOf K) c) $$ HC
  ihave #G0 := (commRecs_gath m (κOf K) c 0) $$ HC
  ihave #G1 := (commRecs_gath m (κOf K) c 1) $$ HC
  ihave #G2 := (commRecs_gath m (κOf K) c 2) $$ HC
  unfold cellRec
  icases G0 with ⟨⟨#Igs0, #Rgs0⟩, ⟨#Igr0, -⟩, #Ign0, -⟩
  icases G1 with ⟨⟨#Igs1, #Rgs1⟩, ⟨#Igr1, -⟩, #Ign1, -⟩
  icases G2 with ⟨⟨#Igs2, #Rgs2⟩, ⟨#Igr2, -⟩, #Ign2, -⟩
  ihave #M31 := (mayWait_idx (F := F) c 15 (.dma (sem3 cc0_scratch12 0)) 0 (lv_gsend c 0) (Or.inr ⟨by decide, by decide⟩)) $$ Hlev
  ihave #M32 := (mayWait_idx (F := F) c 15 (.dma (sem3 cc0_scratch13 0)) (5 + (0 : Fin 3).val) (lv_grecv c 0) (Or.inr ⟨by decide, by decide⟩)) $$ Hlev
  ihave #M33s := (mayWait_idx (F := F) c 16 (.dma (sem3 cc0_scratch12 1)) 0 (lv_gsend c 1) (Or.inr ⟨by decide, by decide⟩)) $$ Hlev
  ihave #M33r := (mayWait_idx (F := F) c 16 (.dma (sem3 cc0_scratch13 1)) (5 + (1 : Fin 3).val) (lv_grecv c 1) (Or.inr ⟨by decide, by decide⟩)) $$ Hlev
  ihave #MXs := (mayWait_idx (F := F) c 17 (.dma (sem3 cc0_scratch12 2)) 0 (lv_gsend c 2) (Or.inl rfl)) $$ Hlev
  ihave #MXr := (mayWait_idx (F := F) c 17 (.dma (sem3 cc0_scratch13 2)) (5 + (2 : Fin 3).val) (lv_grecv c 2) (Or.inl rfl)) $$ Hlev
  -- the tokens, positions and credits of the three exchanges
  ihave Hg' := (Entails.of_eq (Ring.bigSep_fin3 _)) $$ Hg
  icases Hg' with ⟨⟨⟨Tgs0, Tgn0⟩, Ags0, Agr0, Cgr0⟩, ⟨⟨Tgs1, Tgn1⟩, Ags1, Agr1, Cgr1⟩, ⟨Tgs2, Tgn2⟩, Ags2, Agr2, Cgr2⟩
  -- the twelve slots, and the three buffers whole again
  ihave Hsl' := (Entails.of_eq (Ring.bigSep_fin3 _)) $$ Hsl
  icases Hsl' with ⟨So, Sm, Sl⟩
  ihave So' := (Entails.of_eq (bigSep_fin4 _)) $$ So
  icases So' with ⟨So0, So1, So2, So3⟩
  ihave Sm' := (Entails.of_eq (bigSep_fin4 _)) $$ Sm
  icases Sm' with ⟨Sm0, Sm1, Sm2, Sm3⟩
  ihave Sl' := (Entails.of_eq (bigSep_fin4 _)) $$ Sl
  icases Sl' with ⟨Sl0, Sl1, Sl2, Sl3⟩
  ihave E6 := (ringO_exit (voD m) (vmD m) (vlD m) c) $$ [So0 So1 So2 So3]
  · isplitl [So0]; · iexact So0
    isplitl [So1]; · iexact So1
    isplitl [So2]; · iexact So2
    iexact So3
  icases E6 with ⟨%g6, H6, %ho⟩
  ihave E7 := (ringM_exit (voD m) (vmD m) (vlD m) c) $$ [Sm0 Sm1 Sm2 Sm3]
  · isplitl [Sm0]; · iexact Sm0
    isplitl [Sm1]; · iexact Sm1
    isplitl [Sm2]; · iexact Sm2
    iexact Sm3
  icases E7 with ⟨%g7, H7, %hm⟩
  ihave E8 := (ringL_exit (voD m) (vmD m) (vlD m) c) $$ [Sl0 Sl1 Sl2 Sl3]
  · isplitl [Sl0]; · iexact Sl0
    isplitl [Sl1]; · iexact Sl1
    isplitl [Sl2]; · iexact Sl2
    iexact Sl3
  icases E8 with ⟨%g8, H8, %hl⟩
  have hwv : (mergeRun c g6 g7 g8).1 = vrD m c :=
    mergeRun_vrD' m c g6 g7 g8 ho.1 ho.2.1 ho.2.2.1 ho.2.2.2 hm.1 hm.2.1 hm.2.2.1 hm.2.2.2 hl.1 hl.2.1 hl.2.2.1 hl.2.2.2
  have hw : (row1 c).view.read (Elt F) (vgD m (c.val % 4)) = (mergeRun c g6 g7 g8).1 := (row1_vgD m c).trans hwv.symm
  -- the update that closes the cells is absorbed at the end
  iapply (wp_fupd _ _ _ _ _)
  -- the merge
  rw [wp_bind]
  iapply ((mergeRun c g6 g7 g8).2 Set.univ _)
  isplitl [H6]; · iexact H6
  isplitl [H7]; · iexact H7
  isplitl [H8]; · iexact H8
  iintro ⟨H6, H7, H8⟩
  -- the row stored, the first exchange sent
  rw [wp_bind]
  iapply (wp_wand_r _ _ _)
  isplitl [HO Hrow Hp0 Tgs0 Tgn0 Ags0]
  · iapply (seg31Tail_run (voD m) (vmD m) (vlD m) (vgD m) (kinD m) (vinD m) m 𝒱₀ c (mergeRun c g6 g7 g8).1 hw (κOf K) W (routes_p0 c))
    isplitr; · iexact Igs0
    isplitr; · iexact Rgs0
    isplitr; · iexact Ign0
    isplitr; · iexact Hq0
    isplitr; · iexact M31
    isplitl [HO]; · iexact HO
    isplitl [Hrow]; · iexact Hrow
    isplitl [Hp0]; · iexact Hp0
    isplitl [Tgs0]; · iexact Tgs0
    isplitl [Tgn0]; · iexact Tgn0
    iexact Ags0
  iintro %r1 ⟨HO, Ags0, Hrw0⟩
  -- the first partner's row lands; the second exchange sent
  rw [wp_bind]
  iapply (wp_wand_r _ _ _)
  isplitl [HO Cgr0 Agr0 Hrw0 Hp1 Tgs1 Tgn1]
  · iapply (part32_run (voD m) (vmD m) (vlD m) (vgD m) (kinD m) (vinD m) m 𝒱₀ c v2 v8 v464 v465 (κOf K) _ (routes_p1 c))
    isplitr; · iexact Igr0
    isplitr; · iexact M32
    isplitr; · iexact Igs1
    isplitr; · iexact Rgs1
    isplitr; · iexact Ign1
    isplitr; · iexact Hq1
    isplitl [HO]; · iexact HO
    isplitl [Cgr0]; · iexact Cgr0
    isplitl [Agr0]; · iexact Agr0
    isplitl [Hrw0]; · iexact Hrw0
    isplitl [Hp1]; · iexact Hp1
    isplitl [Tgs1]; · iexact Tgs1
    iexact Tgn1
  iintro %r2 ⟨HO, Agr0, Ccs1⟩
  -- the second partner's pair lands; the third exchange sent
  rw [wp_bind]
  iapply (wp_wand_r _ _ _)
  isplitl [HO Ccs1 Ags1 Cgr1 Agr1 Hp2 Tgs2 Tgn2]
  · iapply (part33_run (voD m) (vmD m) (vlD m) (vgD m) (kinD m) (vinD m) m 𝒱₀ c v2 v5 v8 v465 v466 (κOf K) _ (routes_p2 c))
    isplitr; · iexact Igs1
    isplitr; · iexact M33s
    isplitr; · iexact Igr1
    isplitr; · iexact M33r
    isplitr; · iexact Igs2
    isplitr; · iexact Rgs2
    isplitr; · iexact Ign2
    isplitr; · iexact Hq2
    isplitl [HO]; · iexact HO
    isplitl [Ccs1]; · iexact Ccs1
    isplitl [Ags1]; · iexact Ags1
    isplitl [Cgr1]; · iexact Cgr1
    isplitl [Agr1]; · iexact Agr1
    isplitl [Hp2]; · iexact Hp2
    isplitl [Tgs2]; · iexact Tgs2
    iexact Tgn2
  iintro %r3 ⟨HO, Ags1, Agr1, Ccs2⟩
  -- the last exchange's waits, and the result staging buffer whole again
  iapply (wp_wand_r _ _ _)
  isplitl [HO Ccs2 Ags2 Cgr2 Agr2]
  · iapply (segExit_run (voD m) (vmD m) (vlD m) (vgD m) (kinD m) (vinD m) m 𝒱₀ c (κOf K) _)
    isplitr; · iexact Igs2
    isplitr; · iexact MXs
    isplitr; · iexact Igr2
    isplitr; · iexact MXr
    isplitl [HO]; · iexact HO
    isplitl [Ccs2]; · iexact Ccs2
    isplitl [Ags2]; · iexact Ags2
    isplitl [Cgr2]; · iexact Cgr2
    iexact Agr2
  iintro %r4 ⟨HO, Ags2, Agr2, Hout⟩
  -- every own cell closes
  imod (close_post (voD m) (vmD m) (vlD m) (vgD m) (kinD m) (vinD m) m K c) $$ [HO Hatb Hrd Ags0 Agr0 Ags1 Agr1 Ags2 Agr2 HLD Hkv HkM HvM H6 H7 H8 Hq Hout] with Hpost
  · isplitr; · iexact HC
    isplitl [HO]; · unfold owesAt; iexists _; iexact HO
    isplitl [Hatb]; · iexact Hatb
    isplitl [Hrd]; · iexact Hrd
    isplitl [Ags0 Agr0 Ags1 Agr1 Ags2 Agr2]
    · iapply (Entails.of_eq (Ring.bigSep_fin3 (fun st : Fin 3 => gathDone (F := F) c st)).symm)
      unfold gathDone
      isplitl [Ags0 Agr0]; · isplitl [Ags0]; · iexact Ags0
                             iexact Agr0
      isplitl [Ags1 Agr1]; · isplitl [Ags1]; · iexact Ags1
                             iexact Agr1
      isplitl [Ags2]; · iexact Ags2
      iexact Agr2
    isplitl [HLD]; · iexact HLD
    isplitl [Hkv]; · iexact Hkv
    isplitl [HkM]; · iexact HkM
    isplitl [HvM]; · iexact HvM
    isplitl [H6]; · unfold owned; iexists g6; rw [show coM.view.set = Finset.univ from View.set_whole _]; iexact H6
    isplitl [H7]; · unfold owned; iexists g7; rw [show cmM.view.set = Finset.univ from View.set_whole _]; iexact H7
    isplitl [H8]; · unfold owned; iexists g8; rw [show clM.view.set = Finset.univ from View.set_whole _]; iexact H8
    isplitl [Hq]; · iexact Hq
    iexists (vgD m (c.val % 4))
    isplitr; · ipureintro; rfl
    iexact Hout
  imodintro
  iapply HK
  iexact Hpost

/-- The second half of the body, at the values the devices compute. -/
theorem second_half : SecondHalf (voD m) (vmD m) (vlD m) (vgD m) (kinD m) (vinD m) m := by
  intro K c v2 v5 v8 v464 v465 v466 Q
  unfold bodyTail
  exact body_second m K c v2 v5 v8 v464 v465 v466 Q

/-- info: 'Cert.Kernel.BodyProto.second_half' depends on axioms: [propext, Classical.choice, Quot.sound] -/
#guard_msgs in #print axioms second_half

end Second

end Cert.Kernel.BodyProto
-- ==== Proof.RingSecondW.lean ====
/-
  The second stretch of the ring's chain: the rest of the second hop, the third hop, and the wait for its last transfer.
-/
import proofs.«900429_g7700000000000430_dist_flashdec_v7x_xyz2x4x4_z_b8_sq8_skv1024_h16_d128_f32_1_alg».proof.Proof.RingHalfW
import proofs.«900429_g7700000000000430_dist_flashdec_v7x_xyz2x4x4_z_b8_sq8_skv1024_h16_d128_f32_1_alg».proof.Proof.BodyBW

noncomputable section

namespace Cert.Kernel.FD

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.BodyProto (part23_run part24_run part25_run part26_run part27_run part28_run seg29Wait_run bigSep_fin4)

variable {F : FTy → Type} [FloatOps F]

local notation "𝕄" => MT nD τ sig Unit (Elt F) ℕ UU ℕ

section Stretch

variable (vo : Dev nD → S8x16x128.Idx → Elt F .f32) (vm vl : Dev nD → S8x16x1.Idx → Elt F .f32)
variable (vg : ℕ → S8x8x16x128.Idx → Elt F .f32)
variable (kin vin : Dev nD → S1024x16x128.Idx → Elt F .f32)
variable (m : (ℓ : Loc nD τ sig) → Buf (Elt F) ℓ)

omit [FloatOps F] in
instance commRecs_persistent (κ : GSem nD τ sig → ℕ) (c : Dev nD) : BI.Persistent (commRecs vo vm vl vg kin vin m κ c) := by
  unfold commRecs; infer_instance

omit [FloatOps F] in
/-- The records hold the levels, -/
theorem commRecs_levAts (κ : GSem nD τ sig → ℕ) (c : Dev nD) : commRecs vo vm vl vg kin vin m κ c ⊢ (levAts L lv : sProp 𝕄) := by
  unfold commRecs
  iintro ⟨H, -⟩
  iexact H

omit [FloatOps F] in
/-- and the records of the three cells of each ring transfer. -/
theorem commRecs_ring (κ : GSem nD τ sig → ℕ) (c : Dev nD) (b h : Fin 3) :
    commRecs vo vm vl vg kin vin m κ c
      ⊢ iprop(cellRec vo vm vl vg kin vin m κ (rsendCell c b h) ∗ cellRec vo vm vl vg kin vin m κ (rrecvCell c b h) ∗ cellRec vo vm vl vg kin vin m κ (rrecvCell (zr c) b h)) :=
  ((show commRecs vo vm vl vg kin vin m κ c ⊢ (bigSep Finset.univ fun b : Fin 3 => bigSep Finset.univ fun h : Fin 3 =>
      (iprop(cellRec vo vm vl vg kin vin m κ (rsendCell c b h) ∗ cellRec vo vm vl vg kin vin m κ (rrecvCell c b h) ∗ cellRec vo vm vl vg kin vin m κ (rrecvCell (zr c) b h)) : sProp 𝕄)) from by
    unfold commRecs
    iintro ⟨-, -, -, -, -, -, -, H, -⟩
    iexact H).trans (bigSep_elim (Finset.mem_univ b))).trans (bigSep_elim (Finset.mem_univ h))

omit [FloatOps F] in
theorem routes_zr (c : Dev nD) : τ.routes (c : Thread nD τ) (zr c : Thread nD τ) = true := by revert c; decide

set_option maxHeartbeats 4000000 in
set_option maxRecDepth 65536 in
/-- The second stretch of the ring's chain. -/
theorem ring_second : RingSecond vo vm vl vg kin vin m := by
  intro κ c v2 v5 v460 v623 w4 rest Q
  unfold ringTail ringHalf ringExit ringToks ringPos ringDone owesAt
  rw [Ring.bigSep_fin3 (fun b : Fin 3 => bigSep Finset.univ fun h : Fin 3 => iprop(atPos ER (rsendCell c b h) (0 + 1) ∅ 0 ∗ atPos ER (rrecvCell c b h) (0 + 1) ∅ 0)),
    Ring.bigSep_fin3 (fun b : Fin 3 => bigSep Finset.univ fun j : Fin 4 => slotHolds vo vm vl c b j)]
  simp only [Ring.bigSep_fin3 (fun h : Fin 3 => iprop(atPos ER (rsendCell c _ h) (0 + 1) ∅ 0 ∗ atPos ER (rrecvCell c _ h) (0 + 1) ∅ 0)),
    bigSep_fin4 (fun j : Fin 4 => slotHolds vo vm vl c _ j)]
  iintro ⟨#HC, ⟨⟨%W, HO⟩, Hatb, ⟨Zs00, Zr00⟩, ⟨Zs10, Zr10⟩, ⟨Zs20, Zr20⟩, Hsl00, Hsl10, Hsl20, Hsl21, Hcs01, Hcs11, ⟨Hts21, Htn21⟩, ⟨Hats01, Hatr01, Hcr01⟩, ⟨Hats11, Hatr11, Hcr11⟩, ⟨Hats21, Hatr21, Hcr21⟩, ⟨Hts02, Htn02⟩, ⟨Hts12, Htn12⟩, ⟨Hts22, Htn22⟩, ⟨Hats02, Hatr02, Hcr02⟩, ⟨Hats12, Hatr12, Hcr12⟩, ⟨Hats22, Hatr22, Hcr22⟩, Hnx21, Hnx02, Hnx12, Hnx22, Hgath, Hrow, Hp0, Hp1, Hp2, #Hq0, #Hq1, #Hq2⟩, HK⟩
  -- the records and the levels
  ihave #Hlev := (commRecs_levAts vo vm vl vg kin vin m κ c) $$ HC
  ihave #R01 := (commRecs_ring vo vm vl vg kin vin m κ c 0 1) $$ HC
  ihave #R11 := (commRecs_ring vo vm vl vg kin vin m κ c 1 1) $$ HC
  ihave #R21 := (commRecs_ring vo vm vl vg kin vin m κ c 2 1) $$ HC
  ihave #R02 := (commRecs_ring vo vm vl vg kin vin m κ c 0 2) $$ HC
  ihave #R12 := (commRecs_ring vo vm vl vg kin vin m κ c 1 2) $$ HC
  ihave #R22 := (commRecs_ring vo vm vl vg kin vin m κ c 2 2) $$ HC
  unfold cellRec
  icases R01 with ⟨⟨#HIs01, #HRs01⟩, ⟨#HIr01, -⟩, #HIn01, #HRn01⟩
  icases R11 with ⟨⟨#HIs11, #HRs11⟩, ⟨#HIr11, -⟩, #HIn11, #HRn11⟩
  icases R21 with ⟨⟨#HIs21, #HRs21⟩, ⟨#HIr21, -⟩, #HIn21, #HRn21⟩
  icases R02 with ⟨⟨#HIs02, #HRs02⟩, ⟨#HIr02, -⟩, #HIn02, #HRn02⟩
  icases R12 with ⟨⟨#HIs12, #HRs12⟩, ⟨#HIr12, -⟩, #HIn12, #HRn12⟩
  icases R22 with ⟨⟨#HIs22, #HRs22⟩, ⟨#HIr22, -⟩, #HIn22, #HRn22⟩
  ihave #HMs01 := (BodyProto.mayWait_idx (F := F) c 11 (.dma (sem3 (sendArr 0) 1)) 0 (BodyProto.lv_rsend c 0 1) (Or.inr ⟨by decide, by decide⟩)) $$ Hlev
  ihave #HMr01 := (BodyProto.mayWait_idx (F := F) c 11 (.dma (sem3 (recvArr 0) 1)) (2 + (1 : Fin 3).val) (BodyProto.lv_rrecv c 0 1) (Or.inr ⟨by decide, by decide⟩)) $$ Hlev
  ihave #HMs11 := (BodyProto.mayWait_idx (F := F) c 11 (.dma (sem3 (sendArr 1) 1)) 0 (BodyProto.lv_rsend c 1 1) (Or.inr ⟨by decide, by decide⟩)) $$ Hlev
  ihave #HMr11 := (BodyProto.mayWait_idx (F := F) c 11 (.dma (sem3 (recvArr 1) 1)) (2 + (1 : Fin 3).val) (BodyProto.lv_rrecv c 1 1) (Or.inr ⟨by decide, by decide⟩)) $$ Hlev
  ihave #HMs21 := (BodyProto.mayWait_idx (F := F) c 11 (.dma (sem3 (sendArr 2) 1)) 0 (BodyProto.lv_rsend c 2 1) (Or.inr ⟨by decide, by decide⟩)) $$ Hlev
  ihave #HMr21 := (BodyProto.mayWait_idx (F := F) c 11 (.dma (sem3 (recvArr 2) 1)) (2 + (1 : Fin 3).val) (BodyProto.lv_rrecv c 2 1) (Or.inr ⟨by decide, by decide⟩)) $$ Hlev
  ihave #HMs02 := (BodyProto.mayWait_idx (F := F) c 14 (.dma (sem3 (sendArr 0) 2)) 0 (BodyProto.lv_rsend c 0 2) (Or.inr ⟨by decide, by decide⟩)) $$ Hlev
  ihave #HMr02 := (BodyProto.mayWait_idx (F := F) c 14 (.dma (sem3 (recvArr 0) 2)) (2 + (2 : Fin 3).val) (BodyProto.lv_rrecv c 0 2) (Or.inr ⟨by decide, by decide⟩)) $$ Hlev
  ihave #HMs12 := (BodyProto.mayWait_idx (F := F) c 14 (.dma (sem3 (sendArr 1) 2)) 0 (BodyProto.lv_rsend c 1 2) (Or.inr ⟨by decide, by decide⟩)) $$ Hlev
  ihave #HMr12 := (BodyProto.mayWait_idx (F := F) c 14 (.dma (sem3 (recvArr 1) 2)) (2 + (2 : Fin 3).val) (BodyProto.lv_rrecv c 1 2) (Or.inr ⟨by decide, by decide⟩)) $$ Hlev
  ihave #HMs22 := (BodyProto.mayWait_idx (F := F) c 14 (.dma (sem3 (sendArr 2) 2)) 0 (BodyProto.lv_rsend c 2 2) (Or.inr ⟨by decide, by decide⟩)) $$ Hlev
  ihave #HMr22 := (BodyProto.mayWait_idx (F := F) c 14 (.dma (sem3 (recvArr 2) 2)) (2 + (2 : Fin 3).val) (BodyProto.lv_rrecv c 2 2) (Or.inr ⟨by decide, by decide⟩)) $$ Hlev
  -- the second hop's transfer of the row sums, and the wait for the partial sums' send
  rw [wp_bind]
  iapply (wp_wand_r _ _ _)
  isplitl [HO Hsl21 Hnx21 Hts21 Htn21 Hcs01 Hats01]
  · iapply (part23_run vo vm vl vg kin vin m 𝒱₀ c v2 v5 v460 v623 w4 κ _ (routes_zr c))
    isplitr; · iexact HIs21
    isplitr; · iexact HRs21
    isplitr; · iexact HIn21
    isplitr; · iexact HRn21
    isplitr; · iexact HIs01
    isplitr; · iexact HMs01
    isplitl [HO]; · iexact HO
    isplitl [Hsl21]; · iexact Hsl21
    isplitl [Hnx21]; · iexact Hnx21
    isplitl [Hts21]; · iexact Hts21
    isplitl [Htn21]; · iexact Htn21
    isplitl [Hcs01]; · iexact Hcs01
    iexact Hats01
  iintro %r_part23 ⟨HO, Hcs21, Hats01, Hsl01⟩
  -- the second hop's partial sums land in slot 2; the row maxima's send is over; the row maxima land in slot 2
  rw [wp_bind]
  iapply (wp_wand_r _ _ _)
  isplitl [HO Hcr01 Hatr01 Hcs11 Hats11 Hcr11 Hatr11]
  · iapply (part24_run vo vm vl vg kin vin m 𝒱₀ c v2 v5 v460 κ _)
    isplitr; · iexact HIr01
    isplitr; · iexact HMr01
    isplitr; · iexact HIs11
    isplitr; · iexact HMs11
    isplitr; · iexact HIr11
    isplitr; · iexact HMr11
    isplitl [HO]; · iexact HO
    isplitl [Hcr01]; · iexact Hcr01
    isplitl [Hatr01]; · iexact Hatr01
    isplitl [Hcs11]; · iexact Hcs11
    isplitl [Hats11]; · iexact Hats11
    isplitl [Hcr11]; · iexact Hcr11
    iexact Hatr11
  iintro %r_part24 ⟨HO, Hatr01, Hsl02, Hats11, Hsl11, Hatr11, Hsl12⟩
  -- the second hop's row sums: the send is over, and they land in slot 2
  rw [wp_bind]
  iapply (wp_wand_r _ _ _)
  isplitl [HO Hcs21 Hats21 Hcr21 Hatr21]
  · iapply (part25_run vo vm vl vg kin vin m 𝒱₀ c v2 v5 v460 κ _)
    isplitr; · iexact HIs21
    isplitr; · iexact HMs21
    isplitr; · iexact HIr21
    isplitr; · iexact HMr21
    isplitl [HO]; · iexact HO
    isplitl [Hcs21]; · iexact Hcs21
    isplitl [Hats21]; · iexact Hats21
    isplitl [Hcr21]; · iexact Hcr21
    iexact Hatr21
  iintro %r_part25 ⟨HO, Hats21, Hsl21, Hatr21, Hsl22⟩
  -- the third hop's transfers of the partial sums and of the row maxima, from slot 2 into the next device's slot 3
  rw [wp_bind]
  iapply (wp_wand_r _ _ _)
  isplitl [HO Hsl02 Hnx02 Hts02 Htn02 Hsl12 Hnx12 Hts12 Htn12]
  · iapply (part26_run vo vm vl vg kin vin m 𝒱₀ c v2 v5 v460 κ _ (routes_zr c))
    isplitr; · iexact HIs02
    isplitr; · iexact HRs02
    isplitr; · iexact HIn02
    isplitr; · iexact HRn02
    isplitr; · iexact HIs12
    isplitr; · iexact HRs12
    isplitr; · iexact HIn12
    isplitr; · iexact HRn12
    isplitl [HO]; · iexact HO
    isplitl [Hsl02]; · iexact Hsl02
    isplitl [Hnx02]; · iexact Hnx02
    isplitl [Hts02]; · iexact Hts02
    isplitl [Htn02]; · iexact Htn02
    isplitl [Hsl12]; · iexact Hsl12
    isplitl [Hnx12]; · iexact Hnx12
    isplitl [Hts12]; · iexact Hts12
    iexact Htn12
  iintro %r_part26 ⟨HO, Hcs02, Hcs12⟩
  -- the third hop's transfer of the row sums; the partial sums' send is over, and they land in slot 3
  rw [wp_bind]
  iapply (wp_wand_r _ _ _)
  isplitl [HO Hsl22 Hnx22 Hts22 Htn22 Hcs02 Hats02 Hcr02 Hatr02]
  · iapply (part27_run vo vm vl vg kin vin m 𝒱₀ c v2 v5 v460 κ _ (routes_zr c))
    isplitr; · iexact HIs22
    isplitr; · iexact HRs22
    isplitr; · iexact HIn22
    isplitr; · iexact HRn22
    isplitr; · iexact HIs02
    isplitr; · iexact HMs02
    isplitr; · iexact HIr02
    isplitr; · iexact HMr02
    isplitl [HO]; · iexact HO
    isplitl [Hsl22]; · iexact Hsl22
    isplitl [Hnx22]; · iexact Hnx22
    isplitl [Hts22]; · iexact Hts22
    isplitl [Htn22]; · iexact Htn22
    isplitl [Hcs02]; · iexact Hcs02
    isplitl [Hats02]; · iexact Hats02
    isplitl [Hcr02]; · iexact Hcr02
    iexact Hatr02
  iintro %r_part27 ⟨HO, Hcs22, Hats02, Hsl02, Hatr02, Hsl03⟩
  -- the third hop's row maxima: the send is over and they land in slot 3; the row sums' send is over
  rw [wp_bind]
  iapply (wp_wand_r _ _ _)
  isplitl [HO Hcs12 Hats12 Hcr12 Hatr12 Hcs22 Hats22]
  · iapply (part28_run vo vm vl vg kin vin m 𝒱₀ c v2 v5 v460 κ _)
    isplitr; · iexact HIs12
    isplitr; · iexact HMs12
    isplitr; · iexact HIr12
    isplitr; · iexact HMr12
    isplitr; · iexact HIs22
    isplitr; · iexact HMs22
    isplitl [HO]; · iexact HO
    isplitl [Hcs12]; · iexact Hcs12
    isplitl [Hats12]; · iexact Hats12
    isplitl [Hcr12]; · iexact Hcr12
    isplitl [Hatr12]; · iexact Hatr12
    isplitl [Hcs22]; · iexact Hcs22
    iexact Hats22
  iintro %r_part28 ⟨HO, Hats12, Hsl12, Hatr12, Hsl13, Hats22, Hsl22⟩
  obtain ⟨v775, v776⟩ := r_part28
  -- last wait of the ring: the third hop's row sums land in slot 3
  rw [wp_bind]
  iapply (wp_wand_r _ _ _)
  isplitl [HO Hcr22 Hatr22]
  · iapply (seg29Wait_run vo vm vl vg kin vin m 𝒱₀ c κ _)
    isplitr; · iexact HIr22
    isplitr; · iexact HMr22
    isplitl [HO]; · iexact HO
    isplitl [Hcr22]; · iexact Hcr22
    iexact Hatr22
  iintro %r_seg29Wait ⟨HO, Hatr22, Hsl23⟩
  -- the state after the ring's last wait
  iapply HK
  isplitl [HO]; · iexists _; iexact HO
  isplitl [Hatb]; · iexact Hatb
  isplitl [Zs00 Zr00 Hats01 Hatr01 Hats02 Hatr02 Zs10 Zr10 Hats11 Hatr11 Hats12 Hatr12 Zs20 Zr20 Hats21 Hatr21 Hats22 Hatr22]
  · isplitl [Zs00 Zr00 Hats01 Hatr01 Hats02 Hatr02]
    · isplitl [Zs00 Zr00]; · isplitl [Zs00]; · iexact Zs00
                             iexact Zr00
      isplitl [Hats01 Hatr01]; · isplitl [Hats01]; · iexact Hats01
                                 iexact Hatr01
      isplitl [Hats02]; · iexact Hats02
      iexact Hatr02
    isplitl [Zs10 Zr10 Hats11 Hatr11 Hats12 Hatr12]
    · isplitl [Zs10 Zr10]; · isplitl [Zs10]; · iexact Zs10
                             iexact Zr10
      isplitl [Hats11 Hatr11]; · isplitl [Hats11]; · iexact Hats11
                                 iexact Hatr11
      isplitl [Hats12]; · iexact Hats12
      iexact Hatr12
    isplitl [Zs20 Zr20]; · isplitl [Zs20]; · iexact Zs20
                           iexact Zr20
    isplitl [Hats21 Hatr21]; · isplitl [Hats21]; · iexact Hats21
                               iexact Hatr21
    isplitl [Hats22]; · iexact Hats22
    iexact Hatr22
  isplitl [Hgath]; · iexact Hgath
  isplitl [Hsl00 Hsl01 Hsl02 Hsl03 Hsl10 Hsl11 Hsl12 Hsl13 Hsl20 Hsl21 Hsl22 Hsl23]
  · isplitl [Hsl00 Hsl01 Hsl02 Hsl03]
    · isplitl [Hsl00]; · iexact Hsl00
      isplitl [Hsl01]; · iexact Hsl01
      isplitl [Hsl02]; · iexact Hsl02
      iexact Hsl03
    isplitl [Hsl10 Hsl11 Hsl12 Hsl13]
    · isplitl [Hsl10]; · iexact Hsl10
      isplitl [Hsl11]; · iexact Hsl11
      isplitl [Hsl12]; · iexact Hsl12
      iexact Hsl13
    isplitl [Hsl20]; · iexact Hsl20
    isplitl [Hsl21]; · iexact Hsl21
    isplitl [Hsl22]; · iexact Hsl22
    iexact Hsl23
  isplitl [Hrow]; · iexact Hrow
  isplitl [Hp0]; · iexact Hp0
  isplitl [Hp1]; · iexact Hp1
  isplitl [Hp2]; · iexact Hp2
  isplitr; · iexact Hq0
  isplitr; · iexact Hq1
  iexact Hq2

/-- info: 'Cert.Kernel.FD.ring_second' depends on axioms: [propext, Classical.choice, Quot.sound] -/
#guard_msgs in #print axioms ring_second

end Stretch

end Cert.Kernel.FD

end
-- ==== Proof.RingFirstW.lean ====
/-
  The first stretch of the ring's chain: the entry handshake, the first hop, and the second hop's first two transfers.
-/
import proofs.«900429_g7700000000000430_dist_flashdec_v7x_xyz2x4x4_z_b8_sq8_skv1024_h16_d128_f32_1_alg».proof.Proof.RingSecondW

noncomputable section

namespace Cert.Kernel.FD

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.BodyProto (part17_run part18_run part19_run part20_run part21_run part22_run bigSep_fin4 barPay_zl_intro barPay_zr_intro barPay_p0_intro barPay_p1_intro barPay_p2_intro)

variable {F : FTy → Type} [FloatOps F]

local notation "𝕄" => MT nD τ sig Unit (Elt F) ℕ UU ℕ

section Stretch

variable (vo : Dev nD → S8x16x128.Idx → Elt F .f32) (vm vl : Dev nD → S8x16x1.Idx → Elt F .f32)
variable (vg : ℕ → S8x8x16x128.Idx → Elt F .f32)
variable (kin vin : Dev nD → S1024x16x128.Idx → Elt F .f32)
variable (m : (ℓ : Loc nD τ sig) → Buf (Elt F) ℓ)

omit [FloatOps F] in
/-- The records of the six barrier cells a device works with, -/
theorem commRecs_bars (κ : GSem nD τ sig → ℕ) (c : Dev nD) :
    commRecs vo vm vl vg kin vin m κ c
      ⊢ iprop(cellRec vo vm vl vg kin vin m κ (barCell c) ∗ cellRec vo vm vl vg kin vin m κ (barCell (zl c)) ∗ cellRec vo vm vl vg kin vin m κ (barCell (zr c))
          ∗ cellRec vo vm vl vg kin vin m κ (barCell (p0 c)) ∗ cellRec vo vm vl vg kin vin m κ (barCell (p1 c)) ∗ cellRec vo vm vl vg kin vin m κ (barCell (p2 c))) := by
  unfold commRecs
  iintro ⟨-, #H0, #H1, #H2, #H3, #H4, #H5, -⟩
  isplitr; · iexact H0
  isplitr; · iexact H1
  isplitr; · iexact H2
  isplitr; · iexact H3
  isplitr; · iexact H4
  iexact H5

omit [FloatOps F] in
/-- that round 0 of each of its own nine ring receive cells is reached, -/
theorem commRecs_reached_rrecv (κ : GSem nD τ sig → ℕ) (c : Dev nD) :
    commRecs vo vm vl vg kin vin m κ c ⊢ (bigSep Finset.univ fun b : Fin 3 => bigSep Finset.univ fun h : Fin 3 => (reached ER (rrecvCell c b h) 0 : sProp 𝕄)) := by
  have hin : ∀ b h : Fin 3, (iprop(cellRec vo vm vl vg kin vin m κ (rsendCell c b h) ∗ cellRec vo vm vl vg kin vin m κ (rrecvCell c b h) ∗ cellRec vo vm vl vg kin vin m κ (rrecvCell (zr c) b h)) : sProp 𝕄)
      ⊢ reached ER (rrecvCell c b h) 0 := by
    intro b h
    unfold cellRec
    iintro ⟨-, ⟨-, H⟩, -⟩
    iexact H
  have hall : commRecs vo vm vl vg kin vin m κ c ⊢ (bigSep Finset.univ fun b : Fin 3 => bigSep Finset.univ fun h : Fin 3 =>
      (iprop(cellRec vo vm vl vg kin vin m κ (rsendCell c b h) ∗ cellRec vo vm vl vg kin vin m κ (rrecvCell c b h) ∗ cellRec vo vm vl vg kin vin m κ (rrecvCell (zr c) b h)) : sProp 𝕄)) := by
    unfold commRecs
    iintro ⟨-, -, -, -, -, -, -, H, -⟩
    iexact H
  exact hall.trans (bigSep_mono fun b _ => bigSep_mono fun h _ => hin b h)

omit [FloatOps F] in
/-- and the records of the three cells of each exchange. -/
theorem commRecs_gath' (κ : GSem nD τ sig → ℕ) (c : Dev nD) (st : Fin 3) :
    commRecs vo vm vl vg kin vin m κ c
      ⊢ iprop(cellRec vo vm vl vg kin vin m κ (gsendCell c st) ∗ cellRec vo vm vl vg kin vin m κ (grecvCell c st) ∗ cellRec vo vm vl vg kin vin m κ (grecvCell (partner st c) st)) :=
  (show commRecs vo vm vl vg kin vin m κ c ⊢ (bigSep Finset.univ fun st : Fin 3 =>
      (iprop(cellRec vo vm vl vg kin vin m κ (gsendCell c st) ∗ cellRec vo vm vl vg kin vin m κ (grecvCell c st) ∗ cellRec vo vm vl vg kin vin m κ (grecvCell (partner st c) st)) : sProp 𝕄)) from by
    unfold commRecs
    iintro ⟨-, -, -, -, -, -, -, -, H, -⟩
    iexact H).trans (bigSep_elim (Finset.mem_univ st))

omit [FloatOps F] in
theorem routes_zl (c : Dev nD) : τ.routes (c : Thread nD τ) (zl c : Thread nD τ) = true := by revert c; decide

set_option maxHeartbeats 4000000 in
set_option maxRecDepth 65536 in
/-- The first stretch of the ring's chain. -/
theorem ring_first : RingFirst vo vm vl vg kin vin m := by
  intro κ c v2 v5 v8 v460 v462 w4 k Q
  unfold ringHead commEntry ringHalf barToks barPos ringToks ringPos ringDone owesAt
  rw [Ring.bigSep_fin3 (fun b : Fin 3 => bigSep Finset.univ fun h : Fin 3 =>
        iprop((dutyTok ER (rsendCell c b h) 0 0 ∗ dutyTok ER (rrecvCell (zr c) b h) 0 0)
          ∗ atPos ER (rsendCell c b h) 0 ∅ 0 ∗ atPos ER (rrecvCell c b h) 0 ∅ 0 ∗ cred (tallyAt (rrecvCell c b h) () (Nring b)))),
    Ring.bigSep_fin3 (fun b : Fin 3 => iprop(slotHolds vo vm vl c b 0 ∗ slotOwned (F := F) c b 1 ∗ slotOwned (F := F) c b 2 ∗ slotOwned (F := F) c b 3))]
  simp only [Ring.bigSep_fin3 (fun h : Fin 3 =>
        iprop((dutyTok ER (rsendCell c _ h) 0 0 ∗ dutyTok ER (rrecvCell (zr c) _ h) 0 0)
          ∗ atPos ER (rsendCell c _ h) 0 ∅ 0 ∗ atPos ER (rrecvCell c _ h) 0 ∅ 0 ∗ cred (tallyAt (rrecvCell c _ h) () (Nring _))))]
  iintro ⟨#HC, ⟨⟨%W, HO⟩, ⟨Tbl, Tbr, Tb0, Tb1, Tb2⟩, ⟨Hatb, Hcb⟩, ⟨⟨⟨⟨Hts00, Htn00⟩, Hats00, Hatr00, Hcr00⟩, ⟨⟨Hts01, Htn01⟩, Hats01, Hatr01, Hcr01⟩, ⟨⟨Hts02, Htn02⟩, Hats02, Hatr02, Hcr02⟩⟩, ⟨⟨⟨Hts10, Htn10⟩, Hats10, Hatr10, Hcr10⟩, ⟨⟨Hts11, Htn11⟩, Hats11, Hatr11, Hcr11⟩, ⟨⟨Hts12, Htn12⟩, Hats12, Hatr12, Hcr12⟩⟩, ⟨⟨⟨Hts20, Htn20⟩, Hats20, Hatr20, Hcr20⟩, ⟨⟨Hts21, Htn21⟩, Hats21, Hatr21, Hcr21⟩, ⟨⟨Hts22, Htn22⟩, Hats22, Hatr22, Hcr22⟩⟩⟩, Hgath, ⟨⟨Hsl00, Own01, Own02, Own03⟩, ⟨Hsl10, Own11, Own12, Own13⟩, ⟨Hsl20, Own21, Own22, Own23⟩⟩, Hrow, Lp0, Lp1, Lp2⟩, HK⟩
  -- the records and the levels
  ihave #Hlev := (commRecs_levAts vo vm vl vg kin vin m κ c) $$ HC
  ihave #Bars := (commRecs_bars vo vm vl vg kin vin m κ c) $$ HC
  ihave #Hrr := (commRecs_reached_rrecv vo vm vl vg kin vin m κ c) $$ HC
  ihave #G0 := (commRecs_gath' vo vm vl vg kin vin m κ c 0) $$ HC
  ihave #G1 := (commRecs_gath' vo vm vl vg kin vin m κ c 1) $$ HC
  ihave #G2 := (commRecs_gath' vo vm vl vg kin vin m κ c 2) $$ HC
  ihave #R00 := (commRecs_ring vo vm vl vg kin vin m κ c 0 0) $$ HC
  ihave #R10 := (commRecs_ring vo vm vl vg kin vin m κ c 1 0) $$ HC
  ihave #R20 := (commRecs_ring vo vm vl vg kin vin m κ c 2 0) $$ HC
  ihave #R01 := (commRecs_ring vo vm vl vg kin vin m κ c 0 1) $$ HC
  ihave #R11 := (commRecs_ring vo vm vl vg kin vin m κ c 1 1) $$ HC
  unfold cellRec
  icases Bars with ⟨⟨#HIb, -⟩, ⟨#HIbl, #HRbl⟩, ⟨#HIbr, #HRbr⟩, ⟨#HIb0, #HRb0⟩, ⟨#HIb1, #HRb1⟩, #HIb2, #HRb2⟩
  icases G0 with ⟨-, ⟨-, #Rg0⟩, -⟩
  icases G1 with ⟨-, ⟨-, #Rg1⟩, -⟩
  icases G2 with ⟨-, ⟨-, #Rg2⟩, -⟩
  icases R00 with ⟨⟨#HIs00, #HRs00⟩, ⟨#HIr00, -⟩, #HIn00, #HRn00⟩
  icases R10 with ⟨⟨#HIs10, #HRs10⟩, ⟨#HIr10, -⟩, #HIn10, #HRn10⟩
  icases R20 with ⟨⟨#HIs20, #HRs20⟩, ⟨#HIr20, -⟩, #HIn20, #HRn20⟩
  icases R01 with ⟨⟨#HIs01, #HRs01⟩, ⟨#HIr01, -⟩, #HIn01, #HRn01⟩
  icases R11 with ⟨⟨#HIs11, #HRs11⟩, ⟨#HIr11, -⟩, #HIn11, #HRn11⟩
  ihave #HMb := (BodyProto.mayWait_idx (F := F) c 5 (.reg barS) 1 (BodyProto.lv_bar c) (Or.inr ⟨by decide, by decide⟩)) $$ Hlev
  ihave #HMs00 := (BodyProto.mayWait_idx (F := F) c 8 (.dma (sem3 (sendArr 0) 0)) 0 (BodyProto.lv_rsend c 0 0) (Or.inr ⟨by decide, by decide⟩)) $$ Hlev
  ihave #HMr00 := (BodyProto.mayWait_idx (F := F) c 8 (.dma (sem3 (recvArr 0) 0)) (2 + (0 : Fin 3).val) (BodyProto.lv_rrecv c 0 0) (Or.inr ⟨by decide, by decide⟩)) $$ Hlev
  ihave #HMs10 := (BodyProto.mayWait_idx (F := F) c 8 (.dma (sem3 (sendArr 1) 0)) 0 (BodyProto.lv_rsend c 1 0) (Or.inr ⟨by decide, by decide⟩)) $$ Hlev
  ihave #HMr10 := (BodyProto.mayWait_idx (F := F) c 8 (.dma (sem3 (recvArr 1) 0)) (2 + (0 : Fin 3).val) (BodyProto.lv_rrecv c 1 0) (Or.inr ⟨by decide, by decide⟩)) $$ Hlev
  ihave #HMs20 := (BodyProto.mayWait_idx (F := F) c 8 (.dma (sem3 (sendArr 2) 0)) 0 (BodyProto.lv_rsend c 2 0) (Or.inr ⟨by decide, by decide⟩)) $$ Hlev
  ihave #HMr20 := (BodyProto.mayWait_idx (F := F) c 8 (.dma (sem3 (recvArr 2) 0)) (2 + (0 : Fin 3).val) (BodyProto.lv_rrecv c 2 0) (Or.inr ⟨by decide, by decide⟩)) $$ Hlev
  -- what the five signals hand over
  ihave Pzl := (barPay_zl_intro (F := F) c) $$ [Own01 Own02 Own03 Own11 Own12 Own13 Own21 Own22 Own23]
  · isplitr []
    · isplitl [Own01]; · iexact Own01
      isplitl [Own02]; · iexact Own02
      isplitl [Own03]; · iexact Own03
      isplitl [Own11]; · iexact Own11
      isplitl [Own12]; · iexact Own12
      isplitl [Own13]; · iexact Own13
      isplitl [Own21]; · iexact Own21
      isplitl [Own22]; · iexact Own22
      iexact Own23
    · iexact Hrr
  ihave Pp0 := (barPay_p0_intro (F := F) c) $$ [Lp0]
  · isplitl [Lp0]; · iexact Lp0
    iexact Rg0
  ihave Pp1 := (barPay_p1_intro (F := F) c) $$ [Lp1]
  · isplitl [Lp1]; · iexact Lp1
    iexact Rg1
  ihave Pp2 := (barPay_p2_intro (F := F) c) $$ [Lp2]
  · isplitl [Lp2]; · iexact Lp2
    iexact Rg2
  -- the first four signals
  rw [wp_bind]
  iapply (wp_wand_r _ _ _)
  isplitl [HO Tbl Pzl Tbr Tb0 Pp0 Tb1 Pp1]
  · iapply (part17_run vo vm vl vg kin vin m 𝒱₀ c v2 v5 v8 v460 v462 w4 κ W (routes_zl c) (routes_zr c) (BodyProto.routes_p0 c) (BodyProto.routes_p1 c))
    isplitr; · iexact HIbl
    isplitr; · iexact HRbl
    isplitr; · iexact HIbr
    isplitr; · iexact HRbr
    isplitr; · iexact HIb0
    isplitr; · iexact HRb0
    isplitr; · iexact HIb1
    isplitr; · iexact HRb1
    isplitl [HO]; · iexact HO
    isplitl [Tbl]; · iexact Tbl
    isplitl [Pzl]; · iexact Pzl
    isplitl [Tbr]; · iexact Tbr
    isplitl []; · iapply (barPay_zr_intro (F := F) c); iempintro
    isplitl [Tb0]; · iexact Tb0
    isplitl [Pp0]; · iexact Pp0
    isplitl [Tb1]; · iexact Tb1
    iexact Pp1
  iintro %r17 ⟨%hr17, HO⟩
  subst hr17
  -- the fifth signal, the wait for the five neighbours, the first ring transfer
  rw [wp_bind]
  iapply (wp_wand_r _ _ _)
  isplitl [HO Tb2 Pp2 Hcb Hatb Hsl00 Hts00 Htn00]
  · iapply (part18_run vo vm vl vg kin vin m 𝒱₀ c v2 v5 v8 v460 _ _ κ W (BodyProto.routes_p2 c) (routes_zr c))
    isplitr; · iexact HIb2
    isplitr; · iexact HRb2
    isplitr; · iexact HIb
    isplitr; · iexact HMb
    isplitr; · iexact HIs00
    isplitr; · iexact HRs00
    isplitr; · iexact HIn00
    isplitr; · iexact HRn00
    isplitl [HO]; · iexact HO
    isplitl [Tb2]; · iexact Tb2
    isplitl [Pp2]; · iexact Pp2
    isplitl [Hcb]; · iexact Hcb
    isplitl [Hatb]; · iexact Hatb
    isplitl [Hsl00]; · iexact Hsl00
    isplitl [Hts00]; · iexact Hts00
    iexact Htn00
  iintro %r18 ⟨HO, Hatb, Hcs00, ⟨Hnx01, Hnx02, Hnx10, Hnx11, Hnx12, Hnx20, Hnx21, Hnx22⟩, -, Hb1, Hb2, Hb3, Hb4⟩
  ihave Hb2' := (Entails.of_eq (show (barPay (F := F) c 2 : sProp 𝕄) = iprop(rowsOwned (F := F) (p0 c) c 0 ∗ reached ER (grecvCell (p0 c) 0) 0) from rfl)) $$ Hb2
  ihave Hb3' := (Entails.of_eq (show (barPay (F := F) c 3 : sProp 𝕄) = iprop(rowsOwned (F := F) (p1 c) c 1 ∗ reached ER (grecvCell (p1 c) 1) 0) from rfl)) $$ Hb3
  ihave Hb4' := (Entails.of_eq (show (barPay (F := F) c 4 : sProp 𝕄) = iprop(rowsOwned (F := F) (p2 c) c 2 ∗ reached ER (grecvCell (p2 c) 2) 0) from rfl)) $$ Hb4
  icases Hb2' with ⟨Hp0, #Hq0⟩
  icases Hb3' with ⟨Hp1, #Hq1⟩
  icases Hb4' with ⟨Hp2, #Hq2⟩
  ihave Hb1' := (Entails.of_eq (show (barPay (F := F) c 1 : sProp 𝕄) = (iprop(emp) : sProp 𝕄) from rfl)) $$ Hb1
  icases Hb1' with -
  -- the first hop's transfers of the row maxima and of the row sums, and the wait for the partial sums' send
  rw [wp_bind]
  iapply (wp_wand_r _ _ _)
  isplitl [HO Hsl10 Hnx10 Hts10 Htn10 Hsl20 Hnx20 Hts20 Htn20 Hcs00 Hats00]
  · iapply (part19_run vo vm vl vg kin vin m 𝒱₀ c v2 v5 v460 κ _ (routes_zr c))
    isplitr; · iexact HIs10
    isplitr; · iexact HRs10
    isplitr; · iexact HIn10
    isplitr; · iexact HRn10
    isplitr; · iexact HIs20
    isplitr; · iexact HRs20
    isplitr; · iexact HIn20
    isplitr; · iexact HRn20
    isplitr; · iexact HIs00
    isplitr; · iexact HMs00
    isplitl [HO]; · iexact HO
    isplitl [Hsl10]; · iexact Hsl10
    isplitl [Hnx10]; · iexact Hnx10
    isplitl [Hts10]; · iexact Hts10
    isplitl [Htn10]; · iexact Htn10
    isplitl [Hsl20]; · iexact Hsl20
    isplitl [Hnx20]; · iexact Hnx20
    isplitl [Hts20]; · iexact Hts20
    isplitl [Htn20]; · iexact Htn20
    isplitl [Hcs00]; · iexact Hcs00
    iexact Hats00
  iintro %r_part19 ⟨HO, Hcs10, Hcs20, Hats00, Hsl00⟩
  -- the partial sums of the previous device land in slot 1; the row maxima's send is over
  rw [wp_bind]
  iapply (wp_wand_r _ _ _)
  isplitl [HO Hcr00 Hatr00 Hcs10 Hats10]
  · iapply (part20_run vo vm vl vg kin vin m 𝒱₀ c v2 v5 v460 κ _)
    isplitr; · iexact HIr00
    isplitr; · iexact HMr00
    isplitr; · iexact HIs10
    isplitr; · iexact HMs10
    isplitl [HO]; · iexact HO
    isplitl [Hcr00]; · iexact Hcr00
    isplitl [Hatr00]; · iexact Hatr00
    isplitl [Hcs10]; · iexact Hcs10
    iexact Hats10
  iintro %r_part20 ⟨HO, Hatr00, Hsl01, Hats10, Hsl10⟩
  -- the row maxima land in slot 1; the row sums' send is over; the row sums land in slot 1
  rw [wp_bind]
  iapply (wp_wand_r _ _ _)
  isplitl [HO Hcr10 Hatr10 Hcs20 Hats20 Hcr20 Hatr20]
  · iapply (part21_run vo vm vl vg kin vin m 𝒱₀ c v2 v5 v460 κ _)
    isplitr; · iexact HIr10
    isplitr; · iexact HMr10
    isplitr; · iexact HIs20
    isplitr; · iexact HMs20
    isplitr; · iexact HIr20
    isplitr; · iexact HMr20
    isplitl [HO]; · iexact HO
    isplitl [Hcr10]; · iexact Hcr10
    isplitl [Hatr10]; · iexact Hatr10
    isplitl [Hcs20]; · iexact Hcs20
    isplitl [Hats20]; · iexact Hats20
    isplitl [Hcr20]; · iexact Hcr20
    iexact Hatr20
  iintro %r_part21 ⟨HO, Hatr10, Hsl11, Hats20, Hsl20, Hatr20, Hsl21⟩
  obtain ⟨v594, c0⟩ := r_part21
  -- the second hop's transfers of the partial sums and of the row maxima, from slot 1 into the next device's slot 2
  rw [wp_bind]
  iapply (wp_wand_r _ _ _)
  isplitl [HO Hsl01 Hnx01 Hts01 Htn01 Hsl11 Hnx11 Hts11 Htn11]
  · iapply (part22_run vo vm vl vg kin vin m 𝒱₀ c v2 v5 v460 v594 c0 κ _ (routes_zr c))
    isplitr; · iexact HIs01
    isplitr; · iexact HRs01
    isplitr; · iexact HIn01
    isplitr; · iexact HRn01
    isplitr; · iexact HIs11
    isplitr; · iexact HRs11
    isplitr; · iexact HIn11
    isplitr; · iexact HRn11
    isplitl [HO]; · iexact HO
    isplitl [Hsl01]; · iexact Hsl01
    isplitl [Hnx01]; · iexact Hnx01
    isplitl [Hts01]; · iexact Hts01
    isplitl [Htn01]; · iexact Htn01
    isplitl [Hsl11]; · iexact Hsl11
    isplitl [Hnx11]; · iexact Hnx11
    isplitl [Hts11]; · iexact Hts11
    iexact Htn11
  iintro %r_part22 ⟨HO, Hcs01, Hcs11⟩
  obtain ⟨v623, c4⟩ := r_part22
  -- the meeting state
  iapply HK $$ %(Scalar.xori v5 1#32) %(Scalar.xori v5 2#32) %(Scalar.xori v2 1#32) %v623 %c4
  isplitl [HO]; · iexists _; iexact HO
  isplitl [Hatb]; · iexact Hatb
  isplitl [Hats00 Hatr00]
  · isplitl [Hats00]; · iexact Hats00
    iexact Hatr00
  isplitl [Hats10 Hatr10]
  · isplitl [Hats10]; · iexact Hats10
    iexact Hatr10
  isplitl [Hats20 Hatr20]
  · isplitl [Hats20]; · iexact Hats20
    iexact Hatr20
  isplitl [Hsl00]; · iexact Hsl00
  isplitl [Hsl10]; · iexact Hsl10
  isplitl [Hsl20]; · iexact Hsl20
  isplitl [Hsl21]; · iexact Hsl21
  isplitl [Hcs01]; · iexact Hcs01
  isplitl [Hcs11]; · iexact Hcs11
  isplitl [Hts21 Htn21]
  · isplitl [Hts21]; · iexact Hts21
    iexact Htn21
  isplitl [Hats01 Hatr01 Hcr01]
  · isplitl [Hats01]; · iexact Hats01
    isplitl [Hatr01]; · iexact Hatr01
    iexact Hcr01
  isplitl [Hats11 Hatr11 Hcr11]
  · isplitl [Hats11]; · iexact Hats11
    isplitl [Hatr11]; · iexact Hatr11
    iexact Hcr11
  isplitl [Hats21 Hatr21 Hcr21]
  · isplitl [Hats21]; · iexact Hats21
    isplitl [Hatr21]; · iexact Hatr21
    iexact Hcr21
  isplitl [Hts02 Htn02]
  · isplitl [Hts02]; · iexact Hts02
    iexact Htn02
  isplitl [Hts12 Htn12]
  · isplitl [Hts12]; · iexact Hts12
    iexact Htn12
  isplitl [Hts22 Htn22]
  · isplitl [Hts22]; · iexact Hts22
    iexact Htn22
  isplitl [Hats02 Hatr02 Hcr02]
  · isplitl [Hats02]; · iexact Hats02
    isplitl [Hatr02]; · iexact Hatr02
    iexact Hcr02
  isplitl [Hats12 Hatr12 Hcr12]
  · isplitl [Hats12]; · iexact Hats12
    isplitl [Hatr12]; · iexact Hatr12
    iexact Hcr12
  isplitl [Hats22 Hatr22 Hcr22]
  · isplitl [Hats22]; · iexact Hats22
    isplitl [Hatr22]; · iexact Hatr22
    iexact Hcr22
  isplitl [Hnx21]; · iexact Hnx21
  isplitl [Hnx02]; · iexact Hnx02
  isplitl [Hnx12]; · iexact Hnx12
  isplitl [Hnx22]; · iexact Hnx22
  isplitl [Hgath]; · iexact Hgath
  isplitl [Hrow]; · iexact Hrow
  isplitl [Hp0]; · iexact Hp0
  isplitl [Hp1]; · iexact Hp1
  isplitl [Hp2]; · iexact Hp2
  isplitr; · iexact Hq0
  isplitr; · iexact Hq1
  iexact Hq2

/-- info: 'Cert.Kernel.FD.ring_first' depends on axioms: [propext, Classical.choice, Quot.sound] -/
#guard_msgs in #print axioms ring_first

end Stretch

end Cert.Kernel.FD

end
-- ==== Proof.BodyW.lean ====
/-
  The body of the kernel on one device, whole: from what the launch hands a device to what it hands back, through the
  loads, the sixteen heads, the barrier, the three hops of the ring, the merge and the three row exchanges. The two
  halves meet after the last wait of the ring.
-/
import proofs.«900429_g7700000000000430_dist_flashdec_v7x_xyz2x4x4_z_b8_sq8_skv1024_h16_d128_f32_1_alg».proof.Proof.BodyFrontW
import proofs.«900429_g7700000000000430_dist_flashdec_v7x_xyz2x4x4_z_b8_sq8_skv1024_h16_d128_f32_1_alg».proof.Proof.RingFirstW
import proofs.«900429_g7700000000000430_dist_flashdec_v7x_xyz2x4x4_z_b8_sq8_skv1024_h16_d128_f32_1_alg».proof.Proof.RingSecondW
import proofs.«900429_g7700000000000430_dist_flashdec_v7x_xyz2x4x4_z_b8_sq8_skv1024_h16_d128_f32_1_alg».proof.Proof.BodyBW

noncomputable section

namespace Cert.Kernel.FD

open Cert.Kernel Cert.Kernel.Gen Idealize.ShloMosaic

variable {F : FTy → Type} [FloatOps F]

/-- The body lemma at the values the devices really compute. -/
theorem sound_body (m : (ℓ : Loc nD τ sig) → Buf (Elt F) ℓ) :
    SoundBody (voD m) (vmD m) (vlD m) (vgD m) (kinD m) (vinD m) m :=
  sound_body_of_halves _ _ _ _ _ _ _
    (first_half m (ring_first _ _ _ _ _ _ _) (ring_second _ _ _ _ _ _ _))
    (Cert.Kernel.BodyProto.second_half m)

end Cert.Kernel.FD

end
-- ==== Proof.LibFlashMerge.lean ====
/-
  Merging softmax partials.

  A softmax-weighted sum over a finite set of keys, `sum over k of (exp (s k - M) / L) * v k` with `M` the
  maximum of the scores `s` and `L` the sum of the `exp (s k - M)`, can be computed block by block. For a
  block `A` of keys keep the PARTIAL

      m = max over A of s,     l = sum over A of exp (s k - m),     o = sum over A of exp (s k - m) * v k.

  Two partials of disjoint blocks MERGE into the partial of the union: with `M = max m₁ m₂`,

      l = l₁ * exp (m₁ - M) + l₂ * exp (m₂ - M),        o = o₁ * exp (m₁ - M) + o₂ * exp (m₂ - M),

  because `exp (s k - m) * exp (m - M) = exp (s k - M)`. The quotient `o / l` of the partial of the whole
  set is the softmax-weighted sum, so merging the blocks' partials one after the other, in ANY order, and
  dividing at the end gives the value of the plain softmax.

  Layer 1 states this over the real numbers for a generic finite index type. Layer 2 carries each step to
  the extended reals: on (coercions of) real arguments every extended-real operation involved (sum,
  difference, product, maximum, the exponential with its conventions at the infinities, the quotient by a
  nonzero divisor, a finite maximum started from the bottom element, a finite sum) returns the coercion of
  the real operation's value.
-/
import Idealize.ShloMosaic.PureOps.Ideal
import Idealize.ShloMosaic.PureOps.Ideal.Laws

noncomputable section

namespace FlashMerge

open Finset

/-! ## Layer 1: over the real numbers -/

section Real

variable {ι : Type*}

/-- The maximum of the scores `s` over the block `A` (on the empty block the value `0`, which nothing uses). -/
def mPart (s : ι → ℝ) (A : Finset ι) : ℝ := if h : A.Nonempty then A.sup' h s else 0

/-- On a nonempty block the block maximum is the finite supremum of the scores. -/
theorem mPart_eq_sup' (s : ι → ℝ) {A : Finset ι} (hA : A.Nonempty) : mPart s A = A.sup' hA s := dif_pos hA

/-- Every score of the block is at most the block maximum. -/
theorem le_mPart (s : ι → ℝ) {A : Finset ι} {k : ι} (hk : k ∈ A) : s k ≤ mPart s A := by
  rw [mPart_eq_sup' s ⟨k, hk⟩]; exact Finset.le_sup' s hk

/-- The block maximum of a nonempty block is attained. -/
theorem exists_mem_eq_mPart (s : ι → ℝ) {A : Finset ι} (hA : A.Nonempty) : ∃ k ∈ A, s k = mPart s A := by
  obtain ⟨k, hk, h⟩ := Finset.exists_mem_eq_sup' hA s
  exact ⟨k, hk, by rw [mPart_eq_sup' s hA, h]⟩

/-- The maximum over a union of two nonempty blocks is the larger of the two block maxima. -/
theorem mPart_union [DecidableEq ι] (s : ι → ℝ) {A B : Finset ι} (hA : A.Nonempty) (hB : B.Nonempty) :
    mPart s (A ∪ B) = max (mPart s A) (mPart s B) := by
  rw [mPart_eq_sup' s hA, mPart_eq_sup' s hB, mPart_eq_sup' s (hA.mono subset_union_left)]
  exact Finset.sup'_union hA hB s

/-- The exponential sum of the block `A` relative to a reference point `M`: the sum over `A` of `exp (s k - M)`. -/
def expSum (s : ι → ℝ) (A : Finset ι) (M : ℝ) : ℝ := ∑ k ∈ A, Real.exp (s k - M)

/-- The weighted exponential sum of the block `A` relative to `M`: the sum over `A` of `exp (s k - M) * v k`. -/
def expWSum (s v : ι → ℝ) (A : Finset ι) (M : ℝ) : ℝ := ∑ k ∈ A, Real.exp (s k - M) * v k

/-- Moving the reference point: a sum relative to `m`, times `exp (m - M)`, is the sum relative to `M`. -/
theorem expSum_mul_exp (s : ι → ℝ) (A : Finset ι) (m M : ℝ) :
    expSum s A m * Real.exp (m - M) = expSum s A M := by
  unfold expSum
  rw [Finset.sum_mul]
  refine Finset.sum_congr rfl fun k _ => ?_
  rw [← Real.exp_add, sub_add_sub_cancel]

/-- Moving the reference point of a weighted sum, likewise. -/
theorem expWSum_mul_exp (s v : ι → ℝ) (A : Finset ι) (m M : ℝ) :
    expWSum s v A m * Real.exp (m - M) = expWSum s v A M := by
  unfold expWSum
  rw [Finset.sum_mul]
  refine Finset.sum_congr rfl fun k _ => ?_
  rw [mul_right_comm, ← Real.exp_add, sub_add_sub_cancel]

/-- Relative to one reference point the exponential sums of disjoint blocks add. -/
theorem expSum_union [DecidableEq ι] (s : ι → ℝ) {A B : Finset ι} (h : Disjoint A B) (M : ℝ) :
    expSum s (A ∪ B) M = expSum s A M + expSum s B M := Finset.sum_union h

/-- Relative to one reference point the weighted exponential sums of disjoint blocks add. -/
theorem expWSum_union [DecidableEq ι] (s v : ι → ℝ) {A B : Finset ι} (h : Disjoint A B) (M : ℝ) :
    expWSum s v (A ∪ B) M = expWSum s v A M + expWSum s v B M := Finset.sum_union h

/-- The block's exponential sum relative to its own maximum: the sum over `A` of `exp (s k - mPart s A)`. -/
def lPart (s : ι → ℝ) (A : Finset ι) : ℝ := expSum s A (mPart s A)

/-- The block's weighted exponential sum relative to its own maximum: the sum over `A` of `exp (s k - mPart s A) * v k`. -/
def oPart (s v : ι → ℝ) (A : Finset ι) : ℝ := expWSum s v A (mPart s A)

/-- `lPart` spelled out as a sum. -/
theorem lPart_eq_sum (s : ι → ℝ) (A : Finset ι) : lPart s A = ∑ k ∈ A, Real.exp (s k - mPart s A) := rfl

/-- `oPart` spelled out as a sum. -/
theorem oPart_eq_sum (s v : ι → ℝ) (A : Finset ι) :
    oPart s v A = ∑ k ∈ A, Real.exp (s k - mPart s A) * v k := rfl

/-- The exponential sum of a nonempty block relative to its own maximum is at least `1`: the term of a key that
    attains the maximum is `exp 0 = 1` and every term is positive. -/
theorem one_le_lPart (s : ι → ℝ) {A : Finset ι} (hA : A.Nonempty) : 1 ≤ lPart s A := by
  obtain ⟨k, hk, h⟩ := exists_mem_eq_mPart s hA
  calc (1 : ℝ) = Real.exp (s k - mPart s A) := by rw [h, sub_self, Real.exp_zero]
    _ ≤ lPart s A :=
      Finset.single_le_sum (f := fun j => Real.exp (s j - mPart s A)) (fun j _ => (Real.exp_pos _).le) hk

/-- So it is positive. -/
theorem lPart_pos (s : ι → ℝ) {A : Finset ι} (hA : A.Nonempty) : 0 < lPart s A :=
  lt_of_lt_of_le one_pos (one_le_lPart s hA)

/-- So it is not zero. -/
theorem lPart_ne_zero (s : ι → ℝ) {A : Finset ι} (hA : A.Nonempty) : lPart s A ≠ 0 := (lPart_pos s hA).ne'

/-- Relative to ANY reference point the exponential sum of a nonempty block is positive. -/
theorem expSum_pos (s : ι → ℝ) {A : Finset ι} (hA : A.Nonempty) (M : ℝ) : 0 < expSum s A M :=
  Finset.sum_pos (fun _ _ => Real.exp_pos _) hA

/-- The quotient of the two sums of a block is the softmax-weighted sum over the block: each key's weight is its
    exponential divided by the exponential sum. -/
theorem oPart_div_lPart (s v : ι → ℝ) (A : Finset ι) :
    oPart s v A / lPart s A = ∑ k ∈ A, Real.exp (s k - mPart s A) / lPart s A * v k := by
  rw [oPart_eq_sum, Finset.sum_div]
  refine Finset.sum_congr rfl fun k _ => ?_
  rw [div_mul_eq_mul_div]

/-- A softmax partial: a running maximum `m`, and the exponential sum `l` and the weighted sum `o` relative to `m`. -/
@[ext] structure Partial where
  /-- the maximum of the scores seen -/
  m : ℝ
  /-- the sum of `exp (s k - m)` over the keys seen -/
  l : ℝ
  /-- the sum of `exp (s k - m) * v k` over the keys seen -/
  o : ℝ

/-- One merged component: a sum relative to `m₁` and a sum relative to `m₂` are each moved to the common
    reference point `max m₁ m₂` and added. -/
def mergeVal (m₁ m₂ x₁ x₂ : ℝ) : ℝ := x₁ * Real.exp (m₁ - max m₁ m₂) + x₂ * Real.exp (m₂ - max m₁ m₂)

/-- The merge of two partials: the larger maximum, and both sums moved to it and added. -/
def Partial.merge (p q : Partial) : Partial :=
  ⟨max p.m q.m, mergeVal p.m q.m p.l q.l, mergeVal p.m q.m p.o q.o⟩

/-- The partial of a block `A` for scores `s` and values `v`. -/
def partOf (s v : ι → ℝ) (A : Finset ι) : Partial := ⟨mPart s A, lPart s A, oPart s v A⟩

@[simp] theorem partOf_m (s v : ι → ℝ) (A : Finset ι) : (partOf s v A).m = mPart s A := rfl
@[simp] theorem partOf_l (s v : ι → ℝ) (A : Finset ι) : (partOf s v A).l = lPart s A := rfl
@[simp] theorem partOf_o (s v : ι → ℝ) (A : Finset ι) : (partOf s v A).o = oPart s v A := rfl
@[simp] theorem merge_m (p q : Partial) : (p.merge q).m = max p.m q.m := rfl
@[simp] theorem merge_l (p q : Partial) : (p.merge q).l = mergeVal p.m q.m p.l q.l := rfl
@[simp] theorem merge_o (p q : Partial) : (p.merge q).o = mergeVal p.m q.m p.o q.o := rfl

/-- THE MERGE STEP, exponential sums: the sums of two disjoint nonempty blocks, each moved to the larger of the two
    block maxima, add up to the sum of the union relative to the union's maximum. -/
theorem mergeVal_lPart [DecidableEq ι] (s : ι → ℝ) {A B : Finset ι} (hA : A.Nonempty) (hB : B.Nonempty)
    (hAB : Disjoint A B) :
    mergeVal (mPart s A) (mPart s B) (lPart s A) (lPart s B) = lPart s (A ∪ B) := by
  unfold mergeVal lPart
  rw [← mPart_union s hA hB, expSum_mul_exp, expSum_mul_exp, expSum_union s hAB]

/-- THE MERGE STEP, weighted sums: the same for the sums weighted by the values. -/
theorem mergeVal_oPart [DecidableEq ι] (s v : ι → ℝ) {A B : Finset ι} (hA : A.Nonempty) (hB : B.Nonempty)
    (hAB : Disjoint A B) :
    mergeVal (mPart s A) (mPart s B) (oPart s v A) (oPart s v B) = oPart s v (A ∪ B) := by
  unfold mergeVal oPart
  rw [← mPart_union s hA hB, expWSum_mul_exp, expWSum_mul_exp, expWSum_union s v hAB]

/-- THE MERGE STEP: the merge of the partials of two disjoint nonempty blocks is the partial of their union. -/
theorem merge_partOf [DecidableEq ι] (s v : ι → ℝ) {A B : Finset ι} (hA : A.Nonempty) (hB : B.Nonempty)
    (hAB : Disjoint A B) : (partOf s v A).merge (partOf s v B) = partOf s v (A ∪ B) := by
  ext
  · exact (mPart_union s hA hB).symm
  · exact mergeVal_lPart s hA hB hAB
  · exact mergeVal_oPart s v hA hB hAB

/-- Merging is symmetric: the order of the two partials does not matter. -/
theorem Partial.merge_comm (p q : Partial) : p.merge q = q.merge p := by
  ext
  · exact max_comm _ _
  · show mergeVal _ _ _ _ = mergeVal _ _ _ _
    unfold mergeVal; rw [max_comm q.m p.m, add_comm]
  · show mergeVal _ _ _ _ = mergeVal _ _ _ _
    unfold mergeVal; rw [max_comm q.m p.m, add_comm]

/-- The quotient `o / l` of the partial of a nonempty block is the softmax-weighted sum over it, in the plain form:
    with `M` the finite supremum of the scores, the sum over the block of `v k * (exp (s k - M) / L)`, `L` the sum
    of the `exp (s j - M)`. -/
theorem partOf_div_eq_softmax (s v : ι → ℝ) {A : Finset ι} (hA : A.Nonempty) :
    (partOf s v A).o / (partOf s v A).l
      = ∑ k ∈ A, v k * (Real.exp (s k - A.sup' hA s) / ∑ j ∈ A, Real.exp (s j - A.sup' hA s)) := by
  rw [partOf_o, partOf_l, oPart_div_lPart, lPart_eq_sum, mPart_eq_sup' s hA]
  exact Finset.sum_congr rfl fun k _ => mul_comm _ _

/-- Merging a LIST of blocks from the left: from the partial of a first nonempty block `A`, merge in the partials of
    the blocks of `Bs` one after the other. If all blocks are nonempty and pairwise disjoint, the result is the
    partial of the union of all of them. -/
theorem foldl_merge_partOf [DecidableEq ι] (s v : ι → ℝ) :
    ∀ (Bs : List (Finset ι)) (A : Finset ι), A.Nonempty → (∀ B ∈ Bs, B.Nonempty) → (∀ B ∈ Bs, Disjoint A B) →
      Bs.Pairwise Disjoint →
      Bs.foldl (fun acc B => acc.merge (partOf s v B)) (partOf s v A) = partOf s v (Bs.foldl (· ∪ ·) A)
  | [], _, _, _, _, _ => rfl
  | B :: Bs, A, hA, hne, hd, hp => by
    have hB : B.Nonempty := hne B (by simp)
    have hAB : Disjoint A B := hd B (by simp)
    rw [List.foldl_cons, List.foldl_cons, merge_partOf s v hA hB hAB]
    refine foldl_merge_partOf s v Bs (A ∪ B) (hA.mono subset_union_left)
      (fun C hC => hne C (List.mem_cons_of_mem _ hC)) (fun C hC => ?_) (List.pairwise_cons.mp hp).2
    rw [Finset.disjoint_union_left]
    exact ⟨hd C (List.mem_cons_of_mem _ hC), (List.pairwise_cons.mp hp).1 C hC⟩

/-- The union accumulated along a list of indices of a family of blocks is the starting set together with the
    union of the family over the indices of the list. -/
theorem foldl_union_eq_biUnion [DecidableEq ι] {κ : Type*} [DecidableEq κ] (B : κ → Finset ι) :
    ∀ (js : List κ) (A : Finset ι), js.foldl (fun acc j => acc ∪ B j) A = A ∪ js.toFinset.biUnion B
  | [], A => by simp
  | j :: js, A => by
    rw [List.foldl_cons, foldl_union_eq_biUnion B js (A ∪ B j), List.toFinset_cons, Finset.biUnion_insert,
      Finset.union_assoc]

/-- ANY ORDER: for a family `B` of nonempty, pairwise disjoint blocks and a list `j₀ :: js` of distinct indices, merging
    the partials of `B j₀`, then of the `B j` for `j` along `js`, gives the partial of the union of the listed blocks —
    which does not depend on the order of the list. -/
theorem foldl_merge_family [DecidableEq ι] {κ : Type*} [DecidableEq κ] (s v : ι → ℝ) (B : κ → Finset ι)
    (hne : ∀ j, (B j).Nonempty) (hd : ∀ i j, i ≠ j → Disjoint (B i) (B j)) (j₀ : κ) (js : List κ)
    (hnd : (j₀ :: js).Nodup) :
    js.foldl (fun acc j => acc.merge (partOf s v (B j))) (partOf s v (B j₀))
      = partOf s v ((j₀ :: js).toFinset.biUnion B) := by
  have h := foldl_merge_partOf s v (js.map B) (B j₀) (hne j₀)
    (fun C hC => by obtain ⟨j, _, rfl⟩ := List.mem_map.mp hC; exact hne j)
    (fun C hC => by
      obtain ⟨j, hj, rfl⟩ := List.mem_map.mp hC
      exact hd j₀ j (fun e => (List.nodup_cons.mp hnd).1 (e ▸ hj)))
    ((List.pairwise_map).mpr ((List.nodup_cons.mp hnd).2.imp (fun {i j} hij => hd i j hij)))
  rw [List.foldl_map, List.foldl_map] at h
  rw [h, foldl_union_eq_biUnion B js (B j₀), List.toFinset_cons, Finset.biUnion_insert]

/-- FOUR BLOCKS, in the order given: the three merges of the partials of four nonempty pairwise disjoint blocks give
    the partial of their union `U` (whatever the order in which the four blocks are listed: the union is the same set). -/
theorem merge_four [DecidableEq ι] (s v : ι → ℝ) {B₀ B₁ B₂ B₃ U : Finset ι} (h₀ : B₀.Nonempty) (h₁ : B₁.Nonempty)
    (h₂ : B₂.Nonempty) (h₃ : B₃.Nonempty) (d₀₁ : Disjoint B₀ B₁) (d₀₂ : Disjoint B₀ B₂) (d₀₃ : Disjoint B₀ B₃)
    (d₁₂ : Disjoint B₁ B₂) (d₁₃ : Disjoint B₁ B₃) (d₂₃ : Disjoint B₂ B₃) (hU : B₀ ∪ B₁ ∪ B₂ ∪ B₃ = U) :
    (((partOf s v B₀).merge (partOf s v B₁)).merge (partOf s v B₂)).merge (partOf s v B₃) = partOf s v U := by
  rw [merge_partOf s v h₀ h₁ d₀₁,
    merge_partOf s v (h₀.mono subset_union_left) h₂ (Finset.disjoint_union_left.mpr ⟨d₀₂, d₁₂⟩),
    merge_partOf s v ((h₀.mono subset_union_left).mono subset_union_left) h₃
      (Finset.disjoint_union_left.mpr ⟨Finset.disjoint_union_left.mpr ⟨d₀₃, d₁₃⟩, d₂₃⟩), hU]

/-- FOUR BLOCKS, softmax: after the three merges, in any order of the four blocks, the quotient `o / l` is the plain
    softmax-weighted sum over the union `U`. -/
theorem merge_four_div_eq_softmax [DecidableEq ι] (s v : ι → ℝ) {B₀ B₁ B₂ B₃ U : Finset ι} (h₀ : B₀.Nonempty)
    (h₁ : B₁.Nonempty) (h₂ : B₂.Nonempty) (h₃ : B₃.Nonempty) (d₀₁ : Disjoint B₀ B₁) (d₀₂ : Disjoint B₀ B₂)
    (d₀₃ : Disjoint B₀ B₃) (d₁₂ : Disjoint B₁ B₂) (d₁₃ : Disjoint B₁ B₃) (d₂₃ : Disjoint B₂ B₃)
    (hU : B₀ ∪ B₁ ∪ B₂ ∪ B₃ = U) (hUne : U.Nonempty) :
    ((((partOf s v B₀).merge (partOf s v B₁)).merge (partOf s v B₂)).merge (partOf s v B₃)).o
        / ((((partOf s v B₀).merge (partOf s v B₁)).merge (partOf s v B₂)).merge (partOf s v B₃)).l
      = ∑ k ∈ U, v k * (Real.exp (s k - U.sup' hUne s) / ∑ j ∈ U, Real.exp (s j - U.sup' hUne s)) := by
  rw [merge_four s v h₀ h₁ h₂ h₃ d₀₁ d₀₂ d₀₃ d₁₂ d₁₃ d₂₃ hU, partOf_div_eq_softmax s v hUne]

end Real

/-! ### Change of index

A block may be numbered by another index type through an embedding `f : κ ↪ ι` (a device that numbers its own keys from
zero): the partial of the composed scores and values over a block `A` of `κ` is the partial over the image block. -/

section ChangeOfIndex

variable {ι κ : Type*}

/-- The block maximum of the composed scores is the block maximum over the image block. -/
theorem mPart_map (f : κ ↪ ι) (s : ι → ℝ) (A : Finset κ) : mPart (s ∘ f) A = mPart s (A.map f) := by
  by_cases hA : A.Nonempty
  · rw [mPart_eq_sup' _ hA, mPart_eq_sup' _ (Finset.map_nonempty.mpr hA), Finset.sup'_map]
  · have hA' : ¬ (A.map f).Nonempty := fun h => hA (Finset.map_nonempty.mp h)
    unfold mPart
    rw [dif_neg hA, dif_neg hA']

/-- The exponential sum of the composed scores is the exponential sum over the image block. -/
theorem expSum_map (f : κ ↪ ι) (s : ι → ℝ) (A : Finset κ) (M : ℝ) : expSum (s ∘ f) A M = expSum s (A.map f) M :=
  (Finset.sum_map A f fun k => Real.exp (s k - M)).symm

/-- The weighted exponential sum of the composed scores and values is the one over the image block. -/
theorem expWSum_map (f : κ ↪ ι) (s v : ι → ℝ) (A : Finset κ) (M : ℝ) :
    expWSum (s ∘ f) (v ∘ f) A M = expWSum s v (A.map f) M :=
  (Finset.sum_map A f fun k => Real.exp (s k - M) * v k).symm

/-- `lPart` under a change of index. -/
theorem lPart_map (f : κ ↪ ι) (s : ι → ℝ) (A : Finset κ) : lPart (s ∘ f) A = lPart s (A.map f) := by
  unfold lPart
  rw [mPart_map, expSum_map]

/-- `oPart` under a change of index. -/
theorem oPart_map (f : κ ↪ ι) (s v : ι → ℝ) (A : Finset κ) : oPart (s ∘ f) (v ∘ f) A = oPart s v (A.map f) := by
  unfold oPart
  rw [mPart_map, expWSum_map]

/-- CHANGE OF INDEX: the partial of the composed scores and values over `A` is the partial over the image block `A.map f`. -/
theorem partOf_map (f : κ ↪ ι) (s v : ι → ℝ) (A : Finset κ) : partOf (s ∘ f) (v ∘ f) A = partOf s v (A.map f) := by
  ext
  · exact mPart_map f s A
  · exact lPart_map f s A
  · exact oPart_map f s v A

end ChangeOfIndex

/-! ## Layer 2: over the extended reals

Every operation below is applied to COERCIONS of real numbers and returns the coercion of the real operation's value,
so an extended-real expression built from them is computed over the reals first and coerced last. -/

section ExtendedReal

open Idealize.ShloMosaic

variable {ι : Type*}

/-- The extended-real sum of two reals is their real sum. -/
theorem add_coe (a b : ℝ) : (a : EReal) + (b : EReal) = ((a + b : ℝ) : EReal) := (EReal.coe_add a b).symm

/-- The extended-real difference of two reals is their real difference. -/
theorem sub_coe (a b : ℝ) : (a : EReal) - (b : EReal) = ((a - b : ℝ) : EReal) := (EReal.coe_sub a b).symm

/-- The extended-real product of two reals is their real product. -/
theorem mul_coe (a b : ℝ) : (a : EReal) * (b : EReal) = ((a * b : ℝ) : EReal) := (EReal.coe_mul a b).symm

/-- The extended-real maximum of two reals is their real maximum (the coercion is monotone). -/
theorem max_coe (a b : ℝ) : max (a : EReal) (b : EReal) = ((max a b : ℝ) : EReal) :=
  (EReal.coe_strictMono.monotone.map_max).symm

/-- The exponential with its conventions at the infinities is, on a real, the real exponential
    (`Ideal.exp_coe`, restated in this direction). -/
theorem exp_coe (a : ℝ) : Ideal.exp (a : EReal) = ((Real.exp a : ℝ) : EReal) := Ideal.exp_coe a

/-- The quotient with its conventions at zero and the infinities is, on reals with a nonzero divisor, the real
    quotient (from `Ideal.div_coe`: the product with the reciprocal). -/
theorem div_coe (a : ℝ) {b : ℝ} (hb : b ≠ 0) : Ideal.div (a : EReal) (b : EReal) = ((a / b : ℝ) : EReal) := by
  rw [Ideal.div_coe hb, ← EReal.coe_mul, mul_one_div]

/-- A finite sum of reals, taken in the extended reals, is the real sum. -/
theorem sum_coe (f : ι → ℝ) (A : Finset ι) : ∑ k ∈ A, (f k : EReal) = ((∑ k ∈ A, f k : ℝ) : EReal) := by
  induction A using Finset.cons_induction with
  | empty => simp
  | cons a A ha ih => rw [Finset.sum_cons, Finset.sum_cons, ih, add_coe]

/-- A finite maximum of reals over a nonempty set, taken in the extended reals and started from the bottom element
    `⊥` (minus infinity), is the real finite supremum. -/
theorem fold_max_bot_coe (f : ι → ℝ) {A : Finset ι} (hA : A.Nonempty) :
    A.fold max (⊥ : EReal) (fun k => (f k : EReal)) = ((A.sup' hA f : ℝ) : EReal) := by
  induction hA using Finset.Nonempty.cons_induction with
  | singleton a => rw [Finset.fold_singleton, Finset.sup'_singleton, max_bot_right]
  | cons a A ha hA ih => rw [Finset.fold_cons, ih, Finset.sup'_cons hA, max_coe]

/-- The same finite maximum in terms of the block maximum `mPart`. -/
theorem fold_max_bot_coe_mPart (s : ι → ℝ) {A : Finset ι} (hA : A.Nonempty) :
    A.fold max (⊥ : EReal) (fun k => (s k : EReal)) = ((mPart s A : ℝ) : EReal) := by
  rw [fold_max_bot_coe s hA, mPart_eq_sup' s hA]

/-- The exponential sum of a block relative to a real reference point, computed at the extended reals, is the real one. -/
theorem expSum_coe (s : ι → ℝ) (A : Finset ι) (M : ℝ) :
    ∑ k ∈ A, Ideal.exp ((s k : EReal) - (M : EReal)) = ((expSum s A M : ℝ) : EReal) := by
  unfold expSum
  simp only [sub_coe, exp_coe, sum_coe]

/-- The weighted exponential sum of a block relative to a real reference point, computed at the extended reals, is the
    real one. -/
theorem expWSum_coe (s v : ι → ℝ) (A : Finset ι) (M : ℝ) :
    ∑ k ∈ A, Ideal.exp ((s k : EReal) - (M : EReal)) * (v k : EReal) = ((expWSum s v A M : ℝ) : EReal) := by
  unfold expWSum
  simp only [sub_coe, exp_coe, mul_coe, sum_coe]

/-- THE PARTIAL OF A BLOCK at the extended reals: over a nonempty block `A` with real scores `s` and real values `v`, the
    maximum started from `⊥`, the sum of the exponentials of the differences to it, and the sum of their products
    with the values, every operation the extended-real one, are the coercions of the three components of `partOf s v A`. -/
theorem partOf_coe (s v : ι → ℝ) {A : Finset ι} (hA : A.Nonempty) :
    A.fold max (⊥ : EReal) (fun k => (s k : EReal)) = (((partOf s v A).m : ℝ) : EReal)
    ∧ ∑ k ∈ A, Ideal.exp ((s k : EReal) - A.fold max (⊥ : EReal) (fun j => (s j : EReal)))
        = (((partOf s v A).l : ℝ) : EReal)
    ∧ ∑ k ∈ A, Ideal.exp ((s k : EReal) - A.fold max (⊥ : EReal) (fun j => (s j : EReal))) * (v k : EReal)
        = (((partOf s v A).o : ℝ) : EReal) := by
  refine ⟨fold_max_bot_coe_mPart s hA, ?_, ?_⟩
  · rw [fold_max_bot_coe_mPart s hA]; exact expSum_coe s A _
  · rw [fold_max_bot_coe_mPart s hA]; exact expWSum_coe s v A _

/-- The `f32` bit pattern of minus infinity denotes the bottom element `⊥`, the value a maximum-reduction starts from. -/
theorem ofBits_neg_inf_f32 : Ideal.ofBits .f32 0xFF800000#32 = ⊥ := by simp [Ideal.ofBits, Ideal.ieee]

/-- An extended real that is neither infinity is (the coercion of) a real number. -/
theorem exists_coe_of_finite {x : EReal} (ht : x ≠ ⊤) (hb : x ≠ ⊥) : ∃ r : ℝ, x = (r : EReal) :=
  ⟨x.toReal, (EReal.coe_toReal ht hb).symm⟩

/-! ### The same facts in the spelling of a float operation read at the extended reals

At the instance `Ideal` a float of any format `φ` IS an extended real, and `FloatOps.addf`, `subf`, `mulf`,
`maximumf`, `exp`, `divf` ARE `+`, `-`, `*`, `max`, `Ideal.exp`, `Ideal.div` (by `rfl`: the library's
`Ideal.addf_def`, `Ideal.subf_def`, `Ideal.mulf_def`, `Ideal.maximumf_def`, `Ideal.exp_def`, `Ideal.divf_def`). -/

variable {φ : FTy}

/-- The float sum `FloatOps.addf` of two reals, read at the extended reals, is the real sum. -/
theorem addf_coe (a b : ℝ) :
    FloatOps.addf (F := Ideal) (φ := φ) (a : EReal) (b : EReal) = ((a + b : ℝ) : EReal) := add_coe a b

/-- The float difference `FloatOps.subf` of two reals, read at the extended reals, is the real difference. -/
theorem subf_coe (a b : ℝ) :
    FloatOps.subf (F := Ideal) (φ := φ) (a : EReal) (b : EReal) = ((a - b : ℝ) : EReal) := sub_coe a b

/-- The float product `FloatOps.mulf` of two reals, read at the extended reals, is the real product. -/
theorem mulf_coe (a b : ℝ) :
    FloatOps.mulf (F := Ideal) (φ := φ) (a : EReal) (b : EReal) = ((a * b : ℝ) : EReal) := mul_coe a b

/-- The float maximum `FloatOps.maximumf` of two reals, read at the extended reals, is the real maximum. -/
theorem maximumf_coe (a b : ℝ) :
    FloatOps.maximumf (F := Ideal) (φ := φ) (a : EReal) (b : EReal) = ((max a b : ℝ) : EReal) := max_coe a b

/-- The float exponential `FloatOps.exp` of a real, read at the extended reals, is the real exponential. -/
theorem expf_coe (a : ℝ) : FloatOps.exp (F := Ideal) (φ := φ) (a : EReal) = ((Real.exp a : ℝ) : EReal) := exp_coe a

/-- The float quotient `FloatOps.divf` of two reals with a nonzero divisor, read at the extended reals, is the real quotient. -/
theorem divf_coe (a : ℝ) {b : ℝ} (hb : b ≠ 0) :
    FloatOps.divf (F := Ideal) (φ := φ) (a : EReal) (b : EReal) = ((a / b : ℝ) : EReal) := div_coe a hb

/-- A `maximumf`-reduction of reals over a nonempty set started from `⊥`, read at the extended reals, is the real finite
    supremum. -/
theorem fold_maximumf_bot_coe (f : ι → ℝ) {A : Finset ι} (hA : A.Nonempty) :
    A.fold (FloatOps.maximumf (F := Ideal) (φ := φ)) (⊥ : EReal) (fun k => (f k : EReal))
      = ((A.sup' hA f : ℝ) : EReal) :=
  fold_max_bot_coe f hA

/-! ### The merge step at the extended reals -/

/-- ONE MERGED COMPONENT at the extended reals: for real maxima `m₁ m₂` and real sums `x₁ x₂` the expression
    `x₁ * exp (m₁ - max m₁ m₂) + x₂ * exp (m₂ - max m₁ m₂)`, every operation the extended-real one, is the coercion
    of the real merged component `mergeVal m₁ m₂ x₁ x₂`. -/
theorem mergeVal_coe (m₁ m₂ x₁ x₂ : ℝ) :
    (x₁ : EReal) * Ideal.exp ((m₁ : EReal) - max (m₁ : EReal) (m₂ : EReal))
        + (x₂ : EReal) * Ideal.exp ((m₂ : EReal) - max (m₁ : EReal) (m₂ : EReal))
      = ((mergeVal m₁ m₂ x₁ x₂ : ℝ) : EReal) := by
  unfold mergeVal
  rw [max_coe, sub_coe, sub_coe, exp_coe, exp_coe, mul_coe, mul_coe, add_coe]

/-- THE MERGE STEP at the extended reals: for two real partials `p`, `q` the running maximum `max ↑p.m ↑q.m`, the
    merged exponential sum and the merged weighted sum, every operation the extended-real one, are the coercions of
    the three components of the real merge `p.merge q`.

    To rewrite a vector expression index by index, unfold the elementwise operations at the index (`addf`, `subf`,
    `mulf`, `maximumf`, `exp` of the vector layer are the scalar operation at every index) and rewrite with
    `Ideal.addf_def`, `Ideal.subf_def`, `Ideal.mulf_def`, `Ideal.maximumf_def`, `Ideal.exp_def`, `Ideal.divf_def`,
    then with `FlashMerge.mergeVal_coe` and `FlashMerge.max_coe` (or directly with `FlashMerge.addf_coe`,
    `FlashMerge.subf_coe`, `FlashMerge.mulf_coe`, `FlashMerge.maximumf_coe`, `FlashMerge.expf_coe`,
    `FlashMerge.divf_coe`, `FlashMerge.sum_coe`, `FlashMerge.fold_max_bot_coe`). -/
theorem merge_coe (p q : Partial) :
    max (p.m : EReal) (q.m : EReal) = (((p.merge q).m : ℝ) : EReal)
    ∧ (p.l : EReal) * Ideal.exp ((p.m : EReal) - max (p.m : EReal) (q.m : EReal))
        + (q.l : EReal) * Ideal.exp ((q.m : EReal) - max (p.m : EReal) (q.m : EReal)) = (((p.merge q).l : ℝ) : EReal)
    ∧ (p.o : EReal) * Ideal.exp ((p.m : EReal) - max (p.m : EReal) (q.m : EReal))
        + (q.o : EReal) * Ideal.exp ((q.m : EReal) - max (p.m : EReal) (q.m : EReal)) = (((p.merge q).o : ℝ) : EReal) :=
  ⟨max_coe _ _, mergeVal_coe _ _ _ _, mergeVal_coe _ _ _ _⟩

/-- THE MERGE STEP in the spelling of the float operations read at the extended reals (any format `φ`). -/
theorem merge_floatOps_coe (p q : Partial) :
    FloatOps.maximumf (F := Ideal) (φ := φ) (p.m : EReal) (q.m : EReal) = (((p.merge q).m : ℝ) : EReal)
    ∧ FloatOps.addf (F := Ideal) (φ := φ)
        (FloatOps.mulf (p.l : EReal) (FloatOps.exp (FloatOps.subf (p.m : EReal) (FloatOps.maximumf (p.m : EReal) (q.m : EReal)))))
        (FloatOps.mulf (q.l : EReal) (FloatOps.exp (FloatOps.subf (q.m : EReal) (FloatOps.maximumf (p.m : EReal) (q.m : EReal)))))
      = (((p.merge q).l : ℝ) : EReal)
    ∧ FloatOps.addf (F := Ideal) (φ := φ)
        (FloatOps.mulf (p.o : EReal) (FloatOps.exp (FloatOps.subf (p.m : EReal) (FloatOps.maximumf (p.m : EReal) (q.m : EReal)))))
        (FloatOps.mulf (q.o : EReal) (FloatOps.exp (FloatOps.subf (q.m : EReal) (FloatOps.maximumf (p.m : EReal) (q.m : EReal)))))
      = (((p.merge q).o : ℝ) : EReal) :=
  merge_coe p q

/-- A softmax partial with extended-real components: a running maximum, an exponential sum and a weighted sum. -/
@[ext] structure EPartial where
  /-- the running maximum -/
  m : EReal
  /-- the exponential sum relative to `m` -/
  l : EReal
  /-- the weighted exponential sum relative to `m` -/
  o : EReal

/-- The merge of two extended-real partials, every operation the extended-real one. -/
def EPartial.merge (p q : EPartial) : EPartial :=
  ⟨max p.m q.m,
   p.l * Ideal.exp (p.m - max p.m q.m) + q.l * Ideal.exp (q.m - max p.m q.m),
   p.o * Ideal.exp (p.m - max p.m q.m) + q.o * Ideal.exp (q.m - max p.m q.m)⟩

/-- A real partial as an extended-real one: the three components coerced. -/
def Partial.toE (p : Partial) : EPartial := ⟨(p.m : EReal), (p.l : EReal), (p.o : EReal)⟩

@[simp] theorem toE_m (p : Partial) : p.toE.m = (p.m : EReal) := rfl
@[simp] theorem toE_l (p : Partial) : p.toE.l = (p.l : EReal) := rfl
@[simp] theorem toE_o (p : Partial) : p.toE.o = (p.o : EReal) := rfl

/-- The extended-real merge of two real partials is the real merge, coerced. -/
theorem toE_merge (p q : Partial) : p.toE.merge q.toE = (p.merge q).toE := by
  obtain ⟨hm, hl, ho⟩ := merge_coe p q
  ext
  · exact hm
  · exact hl
  · exact ho

/-- Merging a list of real partials one after the other at the extended reals is the real fold, coerced. -/
theorem foldl_toE_merge {κ : Type*} (P : κ → Partial) :
    ∀ (js : List κ) (p : Partial),
      js.foldl (fun acc j => acc.merge (P j).toE) p.toE = (js.foldl (fun acc j => acc.merge (P j)) p).toE
  | [], _ => rfl
  | j :: js, p => by rw [List.foldl_cons, List.foldl_cons, toE_merge, foldl_toE_merge P js]

/-- The quotient `o / l` of the partial of a nonempty block at the extended reals is the real quotient (the divisor
    is at least `1`). -/
theorem div_partOf_coe (s v : ι → ℝ) {A : Finset ι} (hA : A.Nonempty) :
    Ideal.div (partOf s v A).toE.o (partOf s v A).toE.l = (((partOf s v A).o / (partOf s v A).l : ℝ) : EReal) :=
  div_coe _ (lPart_ne_zero s hA)

/-- THE PLAIN SOFTMAX at the extended reals: over a nonempty set `A` of keys with real scores `s` and real values `v`,
    the maximum started from `⊥`, the exponentials of the differences, their sum, the quotients and the sum of the
    products with the values, every operation the extended-real one, give the coercion of the real softmax-weighted sum. -/
theorem softmax_coe (s v : ι → ℝ) {A : Finset ι} (hA : A.Nonempty) :
    ∑ k ∈ A, (v k : EReal) * Ideal.div (Ideal.exp ((s k : EReal) - A.fold max (⊥ : EReal) (fun j => (s j : EReal))))
        (∑ j ∈ A, Ideal.exp ((s j : EReal) - A.fold max (⊥ : EReal) (fun i => (s i : EReal))))
      = ((∑ k ∈ A, v k * (Real.exp (s k - A.sup' hA s) / ∑ j ∈ A, Real.exp (s j - A.sup' hA s)) : ℝ) : EReal) := by
  have hne : (∑ j ∈ A, Real.exp (s j - A.sup' hA s)) ≠ 0 := (expSum_pos s hA _).ne'
  rw [fold_max_bot_coe s hA]
  simp only [sub_coe, exp_coe, sum_coe]
  refine (Finset.sum_congr rfl fun k _ => ?_).trans
    (sum_coe (fun k => v k * (Real.exp (s k - A.sup' hA s) / ∑ j ∈ A, Real.exp (s j - A.sup' hA s))) A)
  rw [div_coe _ hne, mul_coe]

/-- MERGED PARTIALS AGAINST THE PLAIN SOFTMAX, at the extended reals. For a family `B` of nonempty pairwise disjoint
    blocks and a list `j₀ :: js` of distinct indices whose blocks together are the set `U`: merge the (coerced) partials of
    the blocks in the order of the list and divide the weighted sum by the exponential sum, every operation the
    extended-real one; the result is the plain softmax-weighted sum over `U` computed at the extended reals — whatever
    the order of the list. -/
theorem foldl_merge_div_eq_softmax [DecidableEq ι] {κ : Type*} [DecidableEq κ] (s v : ι → ℝ) (B : κ → Finset ι)
    (hne : ∀ j, (B j).Nonempty) (hd : ∀ i j, i ≠ j → Disjoint (B i) (B j)) (j₀ : κ) (js : List κ)
    (hnd : (j₀ :: js).Nodup) {U : Finset ι} (hU : (j₀ :: js).toFinset.biUnion B = U) :
    Ideal.div (js.foldl (fun acc j => acc.merge (partOf s v (B j)).toE) (partOf s v (B j₀)).toE).o
        (js.foldl (fun acc j => acc.merge (partOf s v (B j)).toE) (partOf s v (B j₀)).toE).l
      = ∑ k ∈ U, (v k : EReal) * Ideal.div (Ideal.exp ((s k : EReal) - U.fold max (⊥ : EReal) (fun j => (s j : EReal))))
          (∑ j ∈ U, Ideal.exp ((s j : EReal) - U.fold max (⊥ : EReal) (fun i => (s i : EReal)))) := by
  have hUne : U.Nonempty := by
    rw [← hU, List.toFinset_cons, Finset.biUnion_insert]
    exact (hne j₀).mono Finset.subset_union_left
  rw [foldl_toE_merge (fun j => partOf s v (B j)), foldl_merge_family s v B hne hd j₀ js hnd, hU,
    div_partOf_coe s v hUne, partOf_div_eq_softmax s v hUne, softmax_coe s v hUne]

/-- The same for a FINITE family listed completely: if the list `j₀ :: js` of distinct indices contains every index, the
    merged partials, divided, are the plain softmax-weighted sum over the union of the whole family. -/
theorem foldl_merge_div_eq_softmax_univ [DecidableEq ι] {κ : Type*} [DecidableEq κ] [Fintype κ] (s v : ι → ℝ)
    (B : κ → Finset ι) (hne : ∀ j, (B j).Nonempty) (hd : ∀ i j, i ≠ j → Disjoint (B i) (B j)) (j₀ : κ) (js : List κ)
    (hnd : (j₀ :: js).Nodup) (hall : ∀ j, j ∈ j₀ :: js) {U : Finset ι} (hU : Finset.univ.biUnion B = U) :
    Ideal.div (js.foldl (fun acc j => acc.merge (partOf s v (B j)).toE) (partOf s v (B j₀)).toE).o
        (js.foldl (fun acc j => acc.merge (partOf s v (B j)).toE) (partOf s v (B j₀)).toE).l
      = ∑ k ∈ U, (v k : EReal) * Ideal.div (Ideal.exp ((s k : EReal) - U.fold max (⊥ : EReal) (fun j => (s j : EReal))))
          (∑ j ∈ U, Ideal.exp ((s j : EReal) - U.fold max (⊥ : EReal) (fun i => (s i : EReal)))) := by
  refine foldl_merge_div_eq_softmax s v B hne hd j₀ js hnd ?_
  rw [← hU, Finset.eq_univ_iff_forall.mpr fun j => List.mem_toFinset.mpr (hall j)]

/-- FOUR BLOCKS AGAINST THE PLAIN SOFTMAX, at the extended reals: the three merges of the (coerced) partials of four nonempty
    pairwise disjoint blocks, listed in any order, followed by the quotient of the weighted sum by the exponential sum,
    every operation the extended-real one, give the plain softmax-weighted sum over their union `U` computed at the
    extended reals. -/
theorem merge_four_div_eq_softmax_coe [DecidableEq ι] (s v : ι → ℝ) {B₀ B₁ B₂ B₃ U : Finset ι} (h₀ : B₀.Nonempty)
    (h₁ : B₁.Nonempty) (h₂ : B₂.Nonempty) (h₃ : B₃.Nonempty) (d₀₁ : Disjoint B₀ B₁) (d₀₂ : Disjoint B₀ B₂)
    (d₀₃ : Disjoint B₀ B₃) (d₁₂ : Disjoint B₁ B₂) (d₁₃ : Disjoint B₁ B₃) (d₂₃ : Disjoint B₂ B₃)
    (hU : B₀ ∪ B₁ ∪ B₂ ∪ B₃ = U) :
    Ideal.div ((((partOf s v B₀).toE.merge (partOf s v B₁).toE).merge (partOf s v B₂).toE).merge (partOf s v B₃).toE).o
        ((((partOf s v B₀).toE.merge (partOf s v B₁).toE).merge (partOf s v B₂).toE).merge (partOf s v B₃).toE).l
      = ∑ k ∈ U, (v k : EReal) * Ideal.div (Ideal.exp ((s k : EReal) - U.fold max (⊥ : EReal) (fun j => (s j : EReal))))
          (∑ j ∈ U, Ideal.exp ((s j : EReal) - U.fold max (⊥ : EReal) (fun i => (s i : EReal)))) := by
  have hUne : U.Nonempty := by
    rw [← hU]
    exact ((h₀.mono Finset.subset_union_left).mono Finset.subset_union_left).mono Finset.subset_union_left
  rw [toE_merge, toE_merge, toE_merge, merge_four s v h₀ h₁ h₂ h₃ d₀₁ d₀₂ d₀₃ d₁₂ d₁₃ d₂₃ hU,
    div_partOf_coe s v hUne, partOf_div_eq_softmax s v hUne, softmax_coe s v hUne]

/-- THE PARTIAL OF A BLOCK numbered through an embedding, at the extended reals: over a nonempty block `A` of the index type
    `κ`, with the scores and values read at `f k`, the maximum started from `⊥`, the sum of the exponentials of the
    differences to it and the sum of their products with the values, every operation the extended-real one, are the
    coercions of the three components of the partial over the image block `A.map f`. -/
theorem partOf_map_coe {κ : Type*} (f : κ ↪ ι) (s v : ι → ℝ) {A : Finset κ} (hA : A.Nonempty) :
    A.fold max (⊥ : EReal) (fun k => ((s (f k) : ℝ) : EReal)) = (((partOf s v (A.map f)).m : ℝ) : EReal)
    ∧ ∑ k ∈ A, Ideal.exp (((s (f k) : ℝ) : EReal) - A.fold max (⊥ : EReal) (fun j => ((s (f j) : ℝ) : EReal)))
        = (((partOf s v (A.map f)).l : ℝ) : EReal)
    ∧ ∑ k ∈ A, Ideal.exp (((s (f k) : ℝ) : EReal) - A.fold max (⊥ : EReal) (fun j => ((s (f j) : ℝ) : EReal)))
          * ((v (f k) : ℝ) : EReal)
        = (((partOf s v (A.map f)).o : ℝ) : EReal) := by
  have h := partOf_coe (s ∘ f) (v ∘ f) hA
  rw [partOf_map] at h
  exact h

end ExtendedReal

/-- info: 'FlashMerge.foldl_merge_div_eq_softmax' depends on axioms: [propext, Classical.choice, Quot.sound] -/
#guard_msgs in #print axioms foldl_merge_div_eq_softmax

end FlashMerge

end
-- ==== Proof.RefValue.lean ====
/-
  The reference's result, index by index: for each batch row, query, head and feature, the plain softmax over the
  4096 keys of the scaled scores, applied to the value column.
-/
import proofs.«900429_g7700000000000430_dist_flashdec_v7x_xyz2x4x4_z_b8_sq8_skv1024_h16_d128_f32_1_alg».proof.Defs
import proofs.«900429_g7700000000000430_dist_flashdec_v7x_xyz2x4x4_z_b8_sq8_skv1024_h16_d128_f32_1_alg».proof.Proof.Gen.ReferenceIdeal.Read
import proofs.«900429_g7700000000000430_dist_flashdec_v7x_xyz2x4x4_z_b8_sq8_skv1024_h16_d128_f32_1_alg».proof.Proof.LibFlashMerge
import Idealize.ShloMosaic.Lib.ValueIdx
import Idealize.ShloMosaic.Lib.Pipeline.Value
import Idealize.ShloMosaic.PureOps.Ideal.Laws
import Idealize.ShloMosaic.Lib.ReduceAll

noncomputable section

namespace Cert.Proof.RefValue

open Cert.ReferenceIdeal Cert.ReferenceIdeal.Gen Cert.ReferenceIdeal.Read Idealize.ShloMosaic Idealize.ShloMosaic.ValueIdx

/-! ## The specification -/

/-- The scaled score of key `k` for batch row `b`, query `q` and head `h`: the inner product of the query row and the
    key row over the 128 features, times the scale (the word is kept as it is, never evaluated). -/
def score (Q : S8x8x16x128.Idx → EReal) (K : S8x4096x16x128.Idx → EReal) (b : Fin 8) (q : Fin 8) (h : Fin 16)
    (k : Fin 4096) : EReal :=
  (∑ e : Fin 128, Q (ix4 b q h e) * K (ix4 b k h e)) * Ideal.ofBits .f32 0x3DB504F3#32

/-- The reference's result at batch row `b`, query `q`, head `h` and feature `d`: the plain softmax over the 4096 keys
    of the scaled scores (the maximum started from `⊥`, the exponentials of the differences, each divided by their
    sum), applied to feature `d` of the value rows. -/
def refAt (Q : S8x8x16x128.Idx → EReal) (K V : S8x4096x16x128.Idx → EReal) (b : Fin 8) (q : Fin 8) (h : Fin 16)
    (d : Fin 128) : EReal :=
  ∑ k : Fin 4096, V (ix4 b k h d)
    * Ideal.div (Ideal.exp (score Q K b q h k - Finset.univ.fold max (⊥ : EReal) (fun j => score Q K b q h j)))
        (∑ j : Fin 4096, Ideal.exp (score Q K b q h j - Finset.univ.fold max (⊥ : EReal) (fun l => score Q K b q h l)))

/-- The reference's result as one function of the three argument arrays, index by index. -/
def refG (Q : S8x8x16x128.Idx → EReal) (K V : S8x4096x16x128.Idx → EReal) : S8x8x16x128.Idx → EReal :=
  fun i => refAt Q K V (i 0) (i 1) (i 2) (i 3)

/-- `refG` at an index given by its coordinates. -/
theorem refG_ix4 (Q : S8x8x16x128.Idx → EReal) (K V : S8x4096x16x128.Idx → EReal) (b : Fin 8) (q : Fin 8) (h : Fin 16)
    (d : Fin 128) : refG Q K V (ix4 b q h d) = refAt Q K V b q h d := rfl

/-! ## The reference's stages at an index -/

/-- The scaled scores: the first contraction times the broadcast scale, at batch row `b`, head `h`, query `q`, key `k`. -/
theorem scores_apply (Q : S8x8x16x128.Idx → EReal) (K : S8x4096x16x128.Idx → EReal) (b : Fin 8) (h : Fin 16) (q : Fin 8)
    (k : Fin 4096) : val_main_v2 (F := Ideal) Q K (ix4 b h q k) = score Q K b q h k := by
  rw [val_main_v2_apply, val_main_v0_apply, val_main_v1_apply, val_main_cst_apply]
  have el : ∀ e : Fin 128, lidx_main_v0 (ix4 b h q k) e = ix4 b q h e := fun e => funext fun a => Fin.ext (by
    match a with | ⟨0, _⟩ => rfl | ⟨1, _⟩ => rfl | ⟨2, _⟩ => rfl | ⟨3, _⟩ => rfl)
  have er : ∀ e : Fin 128, ridx_main_v0 (ix4 b h q k) e = ix4 b k h e := fun e => funext fun a => Fin.ext (by
    match a with | ⟨0, _⟩ => rfl | ⟨1, _⟩ => rfl | ⟨2, _⟩ => rfl | ⟨3, _⟩ => rfl)
  simp only [el, er]
  rfl

/-- The row maximum: the maximum of the scaled scores over the 4096 keys, started from minus infinity. -/
theorem rowmax_apply (Q : S8x8x16x128.Idx → EReal) (K : S8x4096x16x128.Idx → EReal) (b : Fin 8) (h : Fin 16) (q : Fin 8) :
    val_main_v3 (F := Ideal) Q K (ix3 b h q)
      = Finset.univ.fold max (⊥ : EReal) (fun k : Fin 4096 => score Q K b q h k) := by
  unfold val_main_v3
  rw [Host.reduce_eq_fold_single FloatOps.maximumf _ _ reducesTo_S8x16x8x4096_S8x16x8_d3
    (by decide : S8x16x8x4096.Reduces [3] S8x16x8) h_S_ (ix3 b h q)]
  have hf : (val_main_v2 (F := Ideal) Q K ∘ (by decide : S8x16x8x4096.Reduces [3] S8x16x8).lift (ix3 b h q))
      = fun k : Fin 4096 => score Q K b q h k := funext fun (k : Fin 4096) => by
    show val_main_v2 (F := Ideal) Q K ((by decide : S8x16x8x4096.Reduces [3] S8x16x8).lift (ix3 b h q) k) = _
    rw [show (by decide : S8x16x8x4096.Reduces [3] S8x16x8).lift (ix3 b h q) k = ix4 b h q k from
      funext fun a => Fin.ext (by match a with | ⟨0, _⟩ => rfl | ⟨1, _⟩ => rfl | ⟨2, _⟩ => rfl | ⟨3, _⟩ => rfl),
      scores_apply]
  rw [hf]
  have hb : val_main_cst_0 (F := Ideal) (Shape.Idx.first h_S_) = (⊥ : EReal) := FlashMerge.ofBits_neg_inf_f32
  rw [hb]
  rfl

/-- The exponentials: at key `k`, the exponential of the scaled score minus the row maximum. -/
theorem exps_apply (Q : S8x8x16x128.Idx → EReal) (K : S8x4096x16x128.Idx → EReal) (b : Fin 8) (h : Fin 16) (q : Fin 8)
    (k : Fin 4096) :
    val_main_v7 (F := Ideal) Q K (ix4 b h q k)
      = Ideal.exp (score Q K b q h k - Finset.univ.fold max (⊥ : EReal) (fun j : Fin 4096 => score Q K b q h j)) := by
  rw [val_main_v7_apply, val_main_v6_apply, val_main_v5_apply, val_main_v4_apply, scores_apply]
  rw [show idx_main_v4 (idx_main_v5 (ix4 b h q k)) = ix3 b h q from
    funext fun a => Fin.ext (by match a with | ⟨0, _⟩ => rfl | ⟨1, _⟩ => rfl | ⟨2, _⟩ => rfl), rowmax_apply]
  rfl

/-- The row sum: the sum of the exponentials over the 4096 keys (the initial value is the zero word). -/
theorem rowsum_apply (Q : S8x8x16x128.Idx → EReal) (K : S8x4096x16x128.Idx → EReal) (b : Fin 8) (h : Fin 16) (q : Fin 8) :
    val_main_v8 (F := Ideal) Q K (ix3 b h q)
      = ∑ j : Fin 4096, Ideal.exp (score Q K b q h j
          - Finset.univ.fold max (⊥ : EReal) (fun l : Fin 4096 => score Q K b q h l)) := by
  rw [val_main_v8_apply, val_main_cst_1_apply]
  have hz : FloatOps.ofBits (F := Ideal) .f32 0x00000000#32 = (0 : EReal) := Ideal.ofBits_zero_f32
  rw [hz, zero_add]
  refine Finset.sum_congr rfl fun j _ => ?_
  rw [show idx_main_v8 (ix3 b h q) j = ix4 b h q j from
    funext fun a => Fin.ext (by match a with | ⟨0, _⟩ => rfl | ⟨1, _⟩ => rfl | ⟨2, _⟩ => rfl | ⟨3, _⟩ => rfl), exps_apply]

/-- The probabilities: at key `k`, the exponential divided by the row sum. -/
theorem probs_apply (Q : S8x8x16x128.Idx → EReal) (K : S8x4096x16x128.Idx → EReal) (b : Fin 8) (h : Fin 16) (q : Fin 8)
    (k : Fin 4096) :
    val_main_v11 (F := Ideal) Q K (ix4 b h q k)
      = Ideal.div (Ideal.exp (score Q K b q h k - Finset.univ.fold max (⊥ : EReal) (fun j : Fin 4096 => score Q K b q h j)))
          (∑ j : Fin 4096, Ideal.exp (score Q K b q h j
            - Finset.univ.fold max (⊥ : EReal) (fun l : Fin 4096 => score Q K b q h l))) := by
  rw [val_main_v11_apply, val_main_v10_apply, val_main_v9_apply, exps_apply]
  rw [show idx_main_v9 (idx_main_v10 (ix4 b h q k)) = ix3 b h q from
    funext fun a => Fin.ext (by match a with | ⟨0, _⟩ => rfl | ⟨1, _⟩ => rfl | ⟨2, _⟩ => rfl), rowsum_apply]
  rfl

/-! ## The reference is the specification -/

/-- The reference's result array is `refG` of its three argument arrays: the second contraction, over the keys, of the
    value rows with the probabilities, read through the final transposition. -/
theorem ref_eq (Q : S8x8x16x128.Idx → EReal) (K V : S8x4096x16x128.Idx → EReal) :
    val_main_v13 (F := Ideal) Q K V = refG Q K V := by
  funext i
  obtain ⟨b, q, h, d, rfl⟩ : ∃ (b : Fin 8) (q : Fin 8) (h : Fin 16) (d : Fin 128), i = ix4 b q h d :=
    ⟨i 0, i 1, i 2, i 3, eq_ix4 i⟩
  rw [refG_ix4, val_main_v13_apply, val_main_v12_apply]
  unfold refAt
  refine Finset.sum_congr rfl fun k _ => ?_
  rw [show lidx_main_v12 (idx_main_v13 (ix4 b q h d)) k = ix4 b k h d from
      funext fun a => Fin.ext (by match a with | ⟨0, _⟩ => rfl | ⟨1, _⟩ => rfl | ⟨2, _⟩ => rfl | ⟨3, _⟩ => rfl),
    show ridx_main_v12 (idx_main_v13 (ix4 b q h d)) k = ix4 b h q k from
      funext fun a => Fin.ext (by match a with | ⟨0, _⟩ => rfl | ⟨1, _⟩ => rfl | ⟨2, _⟩ => rfl | ⟨3, _⟩ => rfl),
    probs_apply]

/-! ## Real entries

When every entry of the three arrays is a real number, every extended-real operation of the specification is the real
operation, and the specification is the coercion of the plain real softmax. The real part of an entry is taken with
`EReal.toReal`, so no choice of witnesses is needed. -/

/-- The scale word denotes a real number: a normal number, its exponent field neither all zeros nor all ones. Its value
    is not computed. -/
theorem scale_real : ∃ c : ℝ, Ideal.ofBits .f32 0x3DB504F3#32 = (c : EReal) := by
  unfold Ideal.ofBits Ideal.ieee
  dsimp only
  rw [if_neg (by decide), if_neg (by decide)]
  exact ⟨_, rfl⟩

/-- An extended real that is the coercion of some real is the coercion of its real part. -/
theorem eq_coe_toReal {x : EReal} (hx : ∃ r : ℝ, x = (r : EReal)) : x = ((x.toReal : ℝ) : EReal) := by
  obtain ⟨r, rfl⟩ := hx
  rw [EReal.toReal_coe]

/-- The product of two extended reals that are reals is the real product of their real parts. -/
theorem mul_eq_coe_toReal {x y : EReal} (hx : ∃ r : ℝ, x = (r : EReal)) (hy : ∃ r : ℝ, y = (r : EReal)) :
    x * y = ((x.toReal * y.toReal : ℝ) : EReal) := by
  obtain ⟨a, rfl⟩ := hx
  obtain ⟨c, rfl⟩ := hy
  rw [EReal.toReal_coe, EReal.toReal_coe, EReal.coe_mul]

/-- The real scaled score of key `k`: the real inner product of the real parts, times the real part of the scale. -/
def realScore (Q : S8x8x16x128.Idx → EReal) (K : S8x4096x16x128.Idx → EReal) (b : Fin 8) (q : Fin 8) (h : Fin 16)
    (k : Fin 4096) : ℝ :=
  (∑ e : Fin 128, (Q (ix4 b q h e)).toReal * (K (ix4 b k h e)).toReal) * (Ideal.ofBits .f32 0x3DB504F3#32).toReal

/-- The real value of key `k` at feature `d`. -/
def realVal (V : S8x4096x16x128.Idx → EReal) (b : Fin 8) (h : Fin 16) (d : Fin 128) (k : Fin 4096) : ℝ :=
  (V (ix4 b k h d)).toReal

/-- With real entries the scaled score is the coercion of the real scaled score. -/
theorem score_real {Q : S8x8x16x128.Idx → EReal} {K : S8x4096x16x128.Idx → EReal}
    (hQ : ∀ i, ∃ r : ℝ, Q i = (r : EReal)) (hK : ∀ i, ∃ r : ℝ, K i = (r : EReal)) (b : Fin 8) (q : Fin 8) (h : Fin 16)
    (k : Fin 4096) : score Q K b q h k = ((realScore Q K b q h k : ℝ) : EReal) := by
  unfold score realScore
  obtain ⟨c, hc⟩ := scale_real
  rw [Finset.sum_congr rfl fun e _ => mul_eq_coe_toReal (hQ (ix4 b q h e)) (hK (ix4 b k h e)), FlashMerge.sum_coe, hc,
    EReal.toReal_coe, FlashMerge.mul_coe]

/-- REAL ENTRIES, extended-real form: with real entries the specification at `(b, q, h, d)` is the plain softmax over all
    4096 keys of the coerced real scores applied to the coerced real values, every operation the extended-real one —
    the very expression the merged partials of the key blocks are equal to. -/
theorem ref_real {Q : S8x8x16x128.Idx → EReal} {K V : S8x4096x16x128.Idx → EReal}
    (hQ : ∀ i, ∃ r : ℝ, Q i = (r : EReal)) (hK : ∀ i, ∃ r : ℝ, K i = (r : EReal)) (hV : ∀ i, ∃ r : ℝ, V i = (r : EReal))
    (b : Fin 8) (q : Fin 8) (h : Fin 16) (d : Fin 128) :
    refG Q K V (ix4 b q h d)
      = ∑ k ∈ (Finset.univ : Finset (Fin 4096)), ((realVal V b h d k : ℝ) : EReal)
          * Ideal.div (Ideal.exp (((realScore Q K b q h k : ℝ) : EReal)
              - (Finset.univ : Finset (Fin 4096)).fold max (⊥ : EReal) (fun j => ((realScore Q K b q h j : ℝ) : EReal))))
            (∑ j ∈ (Finset.univ : Finset (Fin 4096)), Ideal.exp (((realScore Q K b q h j : ℝ) : EReal)
              - (Finset.univ : Finset (Fin 4096)).fold max (⊥ : EReal) (fun i => ((realScore Q K b q h i : ℝ) : EReal)))) := by
  rw [refG_ix4]
  unfold refAt
  simp only [score_real hQ hK]
  refine Finset.sum_congr rfl fun k _ => ?_
  rw [show V (ix4 b k h d) = ((realVal V b h d k : ℝ) : EReal) from eq_coe_toReal (hV _)]

/-- REAL ENTRIES, real form: with real entries the specification at `(b, q, h, d)` is the coercion of the real softmax-weighted
    sum: with `M` the largest real score, the sum over the keys of the value times `exp (s k - M)` over the sum of the
    `exp (s j - M)`. -/
theorem ref_real_coe {Q : S8x8x16x128.Idx → EReal} {K V : S8x4096x16x128.Idx → EReal}
    (hQ : ∀ i, ∃ r : ℝ, Q i = (r : EReal)) (hK : ∀ i, ∃ r : ℝ, K i = (r : EReal)) (hV : ∀ i, ∃ r : ℝ, V i = (r : EReal))
    (b : Fin 8) (q : Fin 8) (h : Fin 16) (d : Fin 128) :
    refG Q K V (ix4 b q h d)
      = ((∑ k ∈ (Finset.univ : Finset (Fin 4096)), realVal V b h d k
            * (Real.exp (realScore Q K b q h k - Finset.univ.sup' Finset.univ_nonempty (realScore Q K b q h))
              / ∑ j ∈ (Finset.univ : Finset (Fin 4096)),
                  Real.exp (realScore Q K b q h j - Finset.univ.sup' Finset.univ_nonempty (realScore Q K b q h))) : ℝ) : EReal) := by
  rw [ref_real hQ hK hV, FlashMerge.softmax_coe (realScore Q K b q h) (realVal V b h d) Finset.univ_nonempty]

/-! ## The four key blocks -/

/-- The keys of block `z`: the 1024 keys `k` with `k / 1024 = z`. -/
def keyBlock (z : Fin 4) : Finset (Fin 4096) := Finset.univ.filter fun k => k.val / 1024 = z.val

theorem mem_keyBlock {z : Fin 4} {k : Fin 4096} : k ∈ keyBlock z ↔ k.val / 1024 = z.val := by
  simp [keyBlock]

/-- Every block has a key (its first one, `1024 * z`). -/
theorem keyBlock_nonempty (z : Fin 4) : (keyBlock z).Nonempty :=
  ⟨⟨z.val * 1024, by omega⟩, mem_keyBlock.mpr (by show z.val * 1024 / 1024 = z.val; omega)⟩

/-- Different blocks share no key. -/
theorem keyBlock_disjoint (i j : Fin 4) (hij : i ≠ j) : Disjoint (keyBlock i) (keyBlock j) := by
  rw [Finset.disjoint_left]
  intro k hi hj
  exact hij (Fin.ext ((mem_keyBlock.mp hi).symm.trans (mem_keyBlock.mp hj)))

/-- The four blocks together are all 4096 keys. -/
theorem keyBlock_union : Finset.univ.biUnion keyBlock = (Finset.univ : Finset (Fin 4096)) := by
  ext k
  simp only [Finset.mem_biUnion, Finset.mem_univ, true_and, iff_true]
  exact ⟨⟨k.val / 1024, by omega⟩, mem_keyBlock.mpr rfl⟩

/-- MERGED BLOCK PARTIALS ARE THE REFERENCE. With real entries: take the softmax partials of the four key blocks (for
    the real scores of `(b, q, h)` and the real values of `(b, h, d)`), merge them one after the other in ANY order
    `j₀ :: js` of the four blocks and divide the weighted sum by the exponential sum, every operation the extended-real
    one; the result is the specification at `(b, q, h, d)`. -/
theorem merged_eq_ref {Q : S8x8x16x128.Idx → EReal} {K V : S8x4096x16x128.Idx → EReal}
    (hQ : ∀ i, ∃ r : ℝ, Q i = (r : EReal)) (hK : ∀ i, ∃ r : ℝ, K i = (r : EReal)) (hV : ∀ i, ∃ r : ℝ, V i = (r : EReal))
    (b : Fin 8) (q : Fin 8) (h : Fin 16) (d : Fin 128) (j₀ : Fin 4) (js : List (Fin 4)) (hnd : (j₀ :: js).Nodup)
    (hall : ∀ j, j ∈ j₀ :: js) :
    Ideal.div
        (js.foldl (fun acc j => acc.merge (FlashMerge.partOf (realScore Q K b q h) (realVal V b h d) (keyBlock j)).toE)
          (FlashMerge.partOf (realScore Q K b q h) (realVal V b h d) (keyBlock j₀)).toE).o
        (js.foldl (fun acc j => acc.merge (FlashMerge.partOf (realScore Q K b q h) (realVal V b h d) (keyBlock j)).toE)
          (FlashMerge.partOf (realScore Q K b q h) (realVal V b h d) (keyBlock j₀)).toE).l
      = refG Q K V (ix4 b q h d) := by
  rw [ref_real hQ hK hV]
  exact FlashMerge.foldl_merge_div_eq_softmax_univ (realScore Q K b q h) (realVal V b h d) keyBlock keyBlock_nonempty
    keyBlock_disjoint j₀ js hnd hall keyBlock_union

/-- In a ring of four, device `z` meets the blocks in the order: its own, then those of the devices one, two and three
    steps back. The four are distinct. -/
theorem ring_order_nodup (z : Fin 4) : (z :: [z - 1, z - 2, z - 3]).Nodup := by revert z; decide

/-- And they are all four blocks. -/
theorem ring_order_complete (z j : Fin 4) : j ∈ z :: [z - 1, z - 2, z - 3] := by revert z j; decide

/-- MERGED IN RING ORDER: with real entries, on every device `z` of the ring the partial of its own block merged with those
    of the blocks one, two and three steps back, then divided, is the specification at `(b, q, h, d)`. -/
theorem merged_ring_eq_ref {Q : S8x8x16x128.Idx → EReal} {K V : S8x4096x16x128.Idx → EReal}
    (hQ : ∀ i, ∃ r : ℝ, Q i = (r : EReal)) (hK : ∀ i, ∃ r : ℝ, K i = (r : EReal)) (hV : ∀ i, ∃ r : ℝ, V i = (r : EReal))
    (b : Fin 8) (q : Fin 8) (h : Fin 16) (d : Fin 128) (z : Fin 4) :
    Ideal.div
        ((((FlashMerge.partOf (realScore Q K b q h) (realVal V b h d) (keyBlock z)).toE.merge
              (FlashMerge.partOf (realScore Q K b q h) (realVal V b h d) (keyBlock (z - 1))).toE).merge
            (FlashMerge.partOf (realScore Q K b q h) (realVal V b h d) (keyBlock (z - 2))).toE).merge
          (FlashMerge.partOf (realScore Q K b q h) (realVal V b h d) (keyBlock (z - 3))).toE).o
        ((((FlashMerge.partOf (realScore Q K b q h) (realVal V b h d) (keyBlock z)).toE.merge
              (FlashMerge.partOf (realScore Q K b q h) (realVal V b h d) (keyBlock (z - 1))).toE).merge
            (FlashMerge.partOf (realScore Q K b q h) (realVal V b h d) (keyBlock (z - 2))).toE).merge
          (FlashMerge.partOf (realScore Q K b q h) (realVal V b h d) (keyBlock (z - 3))).toE).l
      = refG Q K V (ix4 b q h d) :=
  merged_eq_ref hQ hK hV b q h d z [z - 1, z - 2, z - 3] (ring_order_nodup z) (ring_order_complete z)
end Cert.Proof.RefValue

/-! ## Finite inputs are real inputs

The claim's precondition says, of the three argument arrays of one device, that every entry has an absolute value below
plus infinity. Both infinities have absolute value plus infinity, so every entry is a real number. -/

namespace Cert.Proof.RefValue

open Idealize.ShloMosaic Idealize.ShloMosaic.ValueIdx

/-- An extended real whose absolute value `max x (-x)` compares below plus infinity is a real number. -/
theorem real_of_abs_lt_inf {x : EReal}
    (h : FloatOps.cmpf (F := Ideal) (φ := .f32) .olt (FloatOps.hostAbsf (F := Ideal) (φ := .f32) x)
      (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  have hlt : max x (-x) < (⊤ : EReal) := by
    by_contra hn
    have h0 : FloatOps.cmpf (F := Ideal) (φ := .f32) .olt (FloatOps.hostAbsf (F := Ideal) (φ := .f32) x) (⊤ : EReal)
        = 0#1 := by
      show BitVec.ofBool (decide (max x (-x) < (⊤ : EReal))) = 0#1
      rw [decide_eq_false hn]
      rfl
    rw [h0] at h
    exact absurd h (by decide)
  induction x using EReal.rec with
  | bot => exact absurd hlt (by simp)
  | top => exact absurd hlt (by simp)
  | coe r => exact ⟨r, rfl⟩

/-- An array of rank zero has a single position. -/
instance rankZeroIdxUnique : Subsingleton (⟨0, ![]⟩ : Shape).Idx := ⟨fun a c => funext fun d => d.elim0⟩

/-- One array's part of the precondition, for any shape: if the conjunction over all entries of the test that the absolute
    value is below plus infinity is true, every entry of the array is a real number. -/
theorem real_of_all_finite {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel)
    (h : Host.reduce IntOp.andi
        (cmpf .olt (Host.absf x) (broadcastInDim s ![] hb (constant (F := Ideal) (⟨0, ![]⟩ : Shape) .f32 0x7F800000#32)))
        (constantI (⟨0, ![]⟩ : Shape) 1 1#1) hr hu ix0 = 1#1) (i : s.Idx) : ∃ r : ℝ, x i = (r : EReal) := by
  have hi := Host.reduce_andi_all _ _ hr hu ix0 h i
  rw [cmpf_apply, broadcastInDim_apply _ hb _ i ix0 (fun a => a.elim0), constant_apply] at hi
  exact real_of_abs_lt_inf hi

open Cert.Pre_finite_inputs_Kernel in
/-- FROM THE PRECONDITION: if the precondition's function of one device's three argument arrays (its copy of the queries
    and its blocks of the keys and of the values) is true, every entry of the three arrays is a real number. -/
theorem real_of_pre [Cert.Pre_finite_inputs_Kernel.Facts] (Q : FVec Ideal S8x8x16x128 .f32)
    (K V : FVec Ideal S8x1024x16x128 .f32)
    (h : Cert.Pre_finite_inputs_Kernel.fn (F := Ideal) Q K V = fun _ => 1#1) :
    (∀ i, ∃ r : ℝ, Q i = (r : EReal)) ∧ (∀ i, ∃ r : ℝ, K i = (r : EReal)) ∧ (∀ i, ∃ r : ℝ, V i = (r : EReal)) := by
  have h0 := congrFun h ix0
  dsimp only [Cert.Pre_finite_inputs_Kernel.fn] at h0
  obtain ⟨h12, h3⟩ := IntOp.andi_eq_one.mp h0
  obtain ⟨h1, h2⟩ := IntOp.andi_eq_one.mp h12
  exact ⟨real_of_all_finite Q _ _ _ h1, real_of_all_finite K _ _ _ h2, real_of_all_finite V _ _ _ h3⟩

end Cert.Proof.RefValue

end
-- ==== Proof.BlockValue.lean ====
/-
  What one device holds. The 32 devices form a 2 × 4 × 4 mesh numbered row-major; the last axis is a ring of four planes.
  Every device holds all the queries, and of the 4096 keys (and of their values) the block of 1024 of its plane, numbered
  from zero. This module says where a device's key number lies among the 4096, that the block so numbered is the key block
  of the specification, and that the softmax partial a device computes over its own numbering is the partial of that
  key block.
-/
import proofs.«900429_g7700000000000430_dist_flashdec_v7x_xyz2x4x4_z_b8_sq8_skv1024_h16_d128_f32_1_alg».proof.Defs
import proofs.«900429_g7700000000000430_dist_flashdec_v7x_xyz2x4x4_z_b8_sq8_skv1024_h16_d128_f32_1_alg».proof.Proof.RefValue
import Idealize.ShloMosaic.Lib.Layout

noncomputable section

namespace Cert.Proof.BlockValue

open Idealize.ShloMosaic Idealize.ShloMosaic.ValueIdx Cert.Proof.RefValue

/-! ## A key block numbered from zero -/

/-- Key `k` of block `z` as one of the 4096 keys: `1024 * z + k`. -/
def blockEmb (z : Fin 4) : Fin 1024 ↪ Fin 4096 :=
  ⟨fun k => ⟨1024 * z.val + k.val, by omega⟩, fun a c hac => Fin.ext (by
    have hv : 1024 * z.val + a.val = 1024 * z.val + c.val := congrArg Fin.val hac
    omega)⟩

theorem blockEmb_val (z : Fin 4) (k : Fin 1024) : (blockEmb z k).val = 1024 * z.val + k.val := rfl

/-- The keys `1024 * z + k` are exactly key block `z` of the specification. -/
theorem map_blockEmb (z : Fin 4) : Finset.univ.map (blockEmb z) = keyBlock z := by
  ext k
  rw [mem_keyBlock, Finset.mem_map]
  constructor
  · rintro ⟨k', _, rfl⟩
    show (1024 * z.val + k'.val) / 1024 = z.val
    omega
  · intro hk
    refine ⟨⟨k.val - 1024 * z.val, by omega⟩, Finset.mem_univ _, Fin.ext ?_⟩
    show 1024 * z.val + (k.val - 1024 * z.val) = k.val
    omega

/-- THE PARTIAL OF A KEY BLOCK over its own numbering: for real scores `s` and real values `v` of the 4096 keys, the maximum
    over the 1024 keys of block `z` started from `⊥`, the sum of the exponentials of the differences to it, and the sum of
    their products with the values, every operation the extended-real one, are the coercions of the three components
    of the softmax partial of key block `z`. -/
theorem blockPartial_coe (s v : Fin 4096 → ℝ) (z : Fin 4) :
    (Finset.univ : Finset (Fin 1024)).fold max (⊥ : EReal) (fun k => ((s (blockEmb z k) : ℝ) : EReal))
        = (((FlashMerge.partOf s v (keyBlock z)).m : ℝ) : EReal)
    ∧ ∑ k ∈ (Finset.univ : Finset (Fin 1024)), Ideal.exp (((s (blockEmb z k) : ℝ) : EReal)
          - (Finset.univ : Finset (Fin 1024)).fold max (⊥ : EReal) (fun j => ((s (blockEmb z j) : ℝ) : EReal)))
        = (((FlashMerge.partOf s v (keyBlock z)).l : ℝ) : EReal)
    ∧ ∑ k ∈ (Finset.univ : Finset (Fin 1024)), Ideal.exp (((s (blockEmb z k) : ℝ) : EReal)
          - (Finset.univ : Finset (Fin 1024)).fold max (⊥ : EReal) (fun j => ((s (blockEmb z j) : ℝ) : EReal)))
            * ((v (blockEmb z k) : ℝ) : EReal)
        = (((FlashMerge.partOf s v (keyBlock z)).o : ℝ) : EReal) := by
  have h := FlashMerge.partOf_map_coe (blockEmb z) s v (A := (Finset.univ : Finset (Fin 1024))) Finset.univ_nonempty
  rw [map_blockEmb] at h
  exact h

/-! ## The devices of the mesh -/

/-- The plane of device `c`: its coordinate on the last axis of the mesh, `c % 4`. -/
def plane (c : Fin 32) : Fin 4 := ⟨c.val % 4, Nat.mod_lt _ (by decide)⟩

/-- The row of device `c`: its two leading coordinates as one number, `c / 4`. -/
def row (c : Fin 32) : Fin 8 := ⟨c.val / 4, by omega⟩

/-- The block coordinate of device `c` along the axis cut by the mesh's last axis is its plane. -/
theorem meshLin_plane (c : Fin 32) : Layout.meshLin [2, 4, 4] c.val [2] = c.val % 4 := by
  revert c
  decide

/-- WHAT A DEVICE'S BLOCK READS: device `c`'s block of an array of the 4096 keys, cut along the key axis by the mesh's last
    axis, holds at `(b, k, h, e)` the whole array's entry at key `1024 * (c % 4) + k`. -/
theorem keysBlock_apply {α : Type} (c : Fin 32) (K : (⟨4, ![8, 4096, 16, 128]⟩ : Shape).Idx → α) (b : Fin 8) (k : Fin 1024)
    (h : Fin 16) (e : Fin 128) :
    (Layout.blockN ⟨4, ![8, 1024, 16, 128]⟩ ⟨4, ![8, 4096, 16, 128]⟩ (Layout.meshBlock [2, 4, 4] ![[], [2], [], []] c) K)
        (ix4 b k h e)
      = K (ix4 b (blockEmb (plane c) k) h e) := by
  rw [Layout.blockN_apply]
  refine congrArg K (funext fun a => Fin.ext ?_)
  rw [Layout.TilesN.idx_val]
  match a with
  | ⟨0, _⟩ =>
    show Layout.meshLin [2, 4, 4] c.val [] * 8 + b.val = b.val
    show 0 * 8 + b.val = b.val
    omega
  | ⟨1, _⟩ =>
    show Layout.meshLin [2, 4, 4] c.val [2] * 1024 + k.val = 1024 * (c.val % 4) + k.val
    rw [meshLin_plane]
    omega
  | ⟨2, _⟩ =>
    show Layout.meshLin [2, 4, 4] c.val [] * 16 + h.val = h.val
    show 0 * 16 + h.val = h.val
    omega
  | ⟨3, _⟩ =>
    show Layout.meshLin [2, 4, 4] c.val [] * 128 + e.val = e.val
    show 0 * 128 + e.val = e.val
    omega

/-! ## What a device computes from its own block -/

/-- The scaled score a device computes for its own key `k` of batch row `r`, query `q` and head `h`: the inner product of
    the query row with its key row over the 128 features, times the scale. -/
def localScore (Q : (⟨4, ![8, 8, 16, 128]⟩ : Shape).Idx → EReal) (Kd : (⟨4, ![8, 1024, 16, 128]⟩ : Shape).Idx → EReal)
    (r : Fin 8) (q : Fin 8) (h : Fin 16) (k : Fin 1024) : EReal :=
  (∑ e : Fin 128, Q (ix4 r q h e) * Kd (ix4 r k h e)) * Ideal.ofBits .f32 0x3DB504F3#32

/-- When the device's key block reads the whole key array at the keys `1024 * z + k`, its score for its own key `k` is the
    specification's score for key `1024 * z + k`. -/
theorem localScore_eq {Q : (⟨4, ![8, 8, 16, 128]⟩ : Shape).Idx → EReal} {K : (⟨4, ![8, 4096, 16, 128]⟩ : Shape).Idx → EReal}
    {Kd : (⟨4, ![8, 1024, 16, 128]⟩ : Shape).Idx → EReal} {z : Fin 4}
    (hKd : ∀ (b : Fin 8) (k : Fin 1024) (h : Fin 16) (e : Fin 128), Kd (ix4 b k h e) = K (ix4 b (blockEmb z k) h e))
    (r : Fin 8) (q : Fin 8) (h : Fin 16) (k : Fin 1024) :
    localScore Q Kd r q h k = score Q K r q h (blockEmb z k) := by
  unfold localScore score
  congr 1
  refine Finset.sum_congr rfl fun e _ => ?_
  rw [hKd r k h e]

/-- THE TRIPLE A DEVICE HOLDS AFTER ITS LOCAL COMPUTE. With real entries, on a device of plane `z` whose key and value blocks
    read the whole arrays at the keys `1024 * z + k`: the maximum of its 1024 scores started from `⊥`, the sum of the
    exponentials of the differences to it, and the sum of their products with its value column, every operation the
    extended-real one, are the coercions of the three components of the softmax partial of key block `z` for the real
    scores of `(r, q, h)` and the real values of `(r, h, d)`. -/
theorem localPartial_coe {Q : (⟨4, ![8, 8, 16, 128]⟩ : Shape).Idx → EReal} {K V : (⟨4, ![8, 4096, 16, 128]⟩ : Shape).Idx → EReal}
    (hQ : ∀ i, ∃ r : ℝ, Q i = (r : EReal)) (hK : ∀ i, ∃ r : ℝ, K i = (r : EReal)) (hV : ∀ i, ∃ r : ℝ, V i = (r : EReal))
    {Kd Vd : (⟨4, ![8, 1024, 16, 128]⟩ : Shape).Idx → EReal} {z : Fin 4}
    (hKd : ∀ (b : Fin 8) (k : Fin 1024) (h : Fin 16) (e : Fin 128), Kd (ix4 b k h e) = K (ix4 b (blockEmb z k) h e))
    (hVd : ∀ (b : Fin 8) (k : Fin 1024) (h : Fin 16) (e : Fin 128), Vd (ix4 b k h e) = V (ix4 b (blockEmb z k) h e))
    (r : Fin 8) (q : Fin 8) (h : Fin 16) (d : Fin 128) :
    (Finset.univ : Finset (Fin 1024)).fold max (⊥ : EReal) (fun k => localScore Q Kd r q h k)
        = (((FlashMerge.partOf (realScore Q K r q h) (realVal V r h d) (keyBlock z)).m : ℝ) : EReal)
    ∧ ∑ k ∈ (Finset.univ : Finset (Fin 1024)), Ideal.exp (localScore Q Kd r q h k
          - (Finset.univ : Finset (Fin 1024)).fold max (⊥ : EReal) (fun j => localScore Q Kd r q h j))
        = (((FlashMerge.partOf (realScore Q K r q h) (realVal V r h d) (keyBlock z)).l : ℝ) : EReal)
    ∧ ∑ k ∈ (Finset.univ : Finset (Fin 1024)), Ideal.exp (localScore Q Kd r q h k
          - (Finset.univ : Finset (Fin 1024)).fold max (⊥ : EReal) (fun j => localScore Q Kd r q h j))
            * Vd (ix4 r k h d)
        = (((FlashMerge.partOf (realScore Q K r q h) (realVal V r h d) (keyBlock z)).o : ℝ) : EReal) := by
  have hs : ∀ k : Fin 1024, localScore Q Kd r q h k = ((realScore Q K r q h (blockEmb z k) : ℝ) : EReal) := fun k => by
    rw [localScore_eq hKd, score_real hQ hK]
  have hv : ∀ k : Fin 1024, Vd (ix4 r k h d) = ((realVal V r h d (blockEmb z k) : ℝ) : EReal) := fun k => by
    rw [hVd r k h d]
    exact eq_coe_toReal (hV _)
  simp only [hs, hv]
  exact blockPartial_coe (realScore Q K r q h) (realVal V r h d) z

end Cert.Proof.BlockValue

end
-- ==== Proof.HeadValueLib.lean ====
/-
  One attention head's local arithmetic and the four-way merge of partial softmax results, as pure terms over
  literal shapes, and each read index by index at the ideal values (the extended reals).

  A head takes a block `qb` of queries (8 rows of 128 features), a column `kc` of keys and a column `vc` of values
  (1024 rows of 128 features each) and produces three things per query row `q`: the maximum `M q` of the scaled
  scores `s q k = (∑ e, qb q e * kc k e) * scale`, the sum `L q = ∑ k, exp (s q k - M q)` and, per feature `d`, the
  weighted sum `O q d = ∑ k, exp (s q k - M q) * vc k d`.
-/
import proofs.«900429_g7700000000000430_dist_flashdec_v7x_xyz2x4x4_z_b8_sq8_skv1024_h16_d128_f32_1_alg».proof.Proof.Gen.KernelIdeal
import proofs.«900429_g7700000000000430_dist_flashdec_v7x_xyz2x4x4_z_b8_sq8_skv1024_h16_d128_f32_1_alg».proof.Proof.LibFlashMerge
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HeadValue

open Idealize.ShloMosaic Idealize.ShloMosaic.ValueIdx Cert.KernelIdeal Cert.KernelIdeal.Gen

/-! ## One head's arithmetic as pure terms, for every float instance -/

section Defs
variable {F : FTy → Type} [FloatOps F]

/-- The scaled scores of a head: the product of the query block with the transposed key column, times the scale. -/
def headS (qb : Vec F S1x8x1x128 .f32) (kc : Vec F S1024x1x128 .f32) : FVec F S8x1024 .f32 :=
  have q2 : FVec F S8x128 .f32 := shapeCast S8x128 qb shapeCasts_S1x8x1x128_S8x128
  have k2 : FVec F S1024x128 .f32 := shapeCast S1024x128 kc shapeCasts_S1024x1x128_S1024x128
  have z : FVec F S8x1024 .f32 := constant S8x1024 .f32 0x00000000#32
  have mm : FVec F S8x1024 .f32 := matmul dot_S8x128_S1024x128_S8x1024_1_1_0_0_n_n none q2 k2 z
  have c : F .f32 := Scalar.ofBits .f32 0x3DB504F3#32
  have cb : FVec F S8x1024 .f32 := broadcast S8x1024 c
  mulf mm cb

/-- The row maxima of the scaled scores, as a column. -/
def headMax (qb : Vec F S1x8x1x128 .f32) (kc : Vec F S1024x1x128 .f32) : FVec F S8x1 .f32 :=
  have r : FVec F S8 .f32 := multiReduction .maximumf [1] S8 (headS qb kc) 0xFF800000#32 reduces_S8x1024_S8 (.inl rfl) rfl
  shapeCast S8x1 r shapeCasts_S8_S8x1

/-- The exponentials of the differences of the scaled scores to their row maximum. -/
def headP (qb : Vec F S1x8x1x128 .f32) (kc : Vec F S1024x1x128 .f32) : FVec F S8x1024 .f32 :=
  have mb : FVec F S8x1024 .f32 := broadcastTo S8x1024 (headMax qb kc) broadcasts_S8x1_S8x1024
  have df : FVec F S8x1024 .f32 := subf (headS qb kc) mb
  exp df

/-- The weighted sums of a head: the exponentials times the value column, in the stored layout. -/
def headO (qb : Vec F S1x8x1x128 .f32) (kc vc : Vec F S1024x1x128 .f32) : FVec F S1x8x1x128 .f32 :=
  have v2 : FVec F S1024x128 .f32 := shapeCast S1024x128 vc shapeCasts_S1024x1x128_S1024x128
  have z : FVec F S8x128 .f32 := constant S8x128 .f32 0x00000000#32
  have mm : FVec F S8x128 .f32 := matmul dot_S8x1024_S1024x128_S8x128_1_0_0_1_n_n none (headP qb kc) v2 z
  shapeCast S1x8x1x128 mm shapeCasts_S8x128_S1x8x1x128

/-- The row maxima of a head, in the stored layout. -/
def headM (qb : Vec F S1x8x1x128 .f32) (kc : Vec F S1024x1x128 .f32) : FVec F S1x8x1x1 .f32 :=
  shapeCast S1x8x1x1 (headMax qb kc) shapeCasts_S8x1_S1x8x1x1

/-- The row sums of the exponentials of a head, in the stored layout. -/
def headL (qb : Vec F S1x8x1x128 .f32) (kc : Vec F S1024x1x128 .f32) : FVec F S1x8x1x1 .f32 :=
  have r : FVec F S8 .f32 := multiReduction .add [1] S8 (headP qb kc) 0x00000000#32 reduces_S8x1024_S8 (.inl rfl) rfl
  have r2 : FVec F S8x1 .f32 := shapeCast S8x1 r shapeCasts_S8_S8x1
  shapeCast S1x8x1x1 r2 shapeCasts_S8x1_S1x8x1x1

end Defs

/-! ## The layout operations of a head, read at an index -/

section Layout
variable {α : Type}

/-- The query block `[1, 8, 1, 128]` cast to `[8, 128]` reads, at `(q, e)`, the block at `(0, q, 0, e)`. -/
theorem cast_q_apply (x : S1x8x1x128.Idx → α) (h : S1x8x1x128.ShapeCasts S8x128) (q : Fin 8) (e : Fin 128) :
    shapeCast S8x128 x h (ix2 q e) = x (ix4 (0 : Fin 1) q (0 : Fin 1) e) :=
  shapeCast_apply x h _ _ (by
    rw [Shape.rowMajor_val_four, Shape.rowMajor_val_two]
    show ((0 * 8 + q.val) * 1 + 0) * 128 + e.val = q.val * 128 + e.val
    omega)

/-- A key or value column `[1024, 1, 128]` cast to `[1024, 128]` reads, at `(k, e)`, the column at `(k, 0, e)`. -/
theorem cast_kv_apply (x : S1024x1x128.Idx → α) (h : S1024x1x128.ShapeCasts S1024x128) (k : Fin 1024) (e : Fin 128) :
    shapeCast S1024x128 x h (ix2 k e) = x (ix3 k (0 : Fin 1) e) :=
  shapeCast_apply x h _ _ (by
    rw [Shape.rowMajor_val_three, Shape.rowMajor_val_two]
    show (k.val * 1 + 0) * 128 + e.val = k.val * 128 + e.val
    omega)

/-- A vector `[8]` cast to a column `[8, 1]` reads, at `(q, 0)`, the vector at `q`. -/
theorem cast_col_apply (x : S8.Idx → α) (h : S8.ShapeCasts S8x1) (q : Fin 8) (z : Fin 1) :
    shapeCast S8x1 x h (ix2 q z) = x (ix1 q) :=
  shapeCast_apply x h _ _ (by
    have hz : z.val = 0 := by omega
    rw [Shape.rowMajor_val_one, Shape.rowMajor_val_two]
    show q.val = q.val * 1 + z.val
    omega)

/-- A column `[8, 1]` broadcast along the rows of `[8, 1024]` reads, at `(q, k)`, the column at `(q, 0)`. -/
theorem bcast_row_apply (x : S8x1.Idx → α) (h : S8x1.Broadcasts S8x1024) (q : Fin 8) (k : Fin 1024) :
    broadcastTo S8x1024 x h (ix2 q k) = x (ix2 q (0 : Fin 1)) :=
  broadcastTo_apply x h _ _ (fun a => by
    match a with
    | ⟨0, _⟩ => rfl
    | ⟨1, _⟩ => rfl)

/-- A block `[8, 128]` cast to the stored layout `[1, 8, 1, 128]` reads, at `(0, q, 0, d)`, the block at `(q, d)`. -/
theorem cast_out_apply (x : S8x128.Idx → α) (h : S8x128.ShapeCasts S1x8x1x128) (u : Fin 1) (q : Fin 8) (w : Fin 1)
    (d : Fin 128) : shapeCast S1x8x1x128 x h (ix4 u q w d) = x (ix2 q d) :=
  shapeCast_apply x h _ _ (by
    have hu : u.val = 0 := by omega
    have hw : w.val = 0 := by omega
    rw [Shape.rowMajor_val_two, Shape.rowMajor_val_four]
    show q.val * 128 + d.val = ((u.val * 8 + q.val) * 1 + w.val) * 128 + d.val
    omega)

/-- A column `[8, 1]` cast to the stored layout `[1, 8, 1, 1]` reads, at `(0, q, 0, 0)`, the column at `(q, 0)`. -/
theorem cast_out1_apply (x : S8x1.Idx → α) (h : S8x1.ShapeCasts S1x8x1x1) (u : Fin 1) (q : Fin 8) (w z : Fin 1) :
    shapeCast S1x8x1x1 x h (ix4 u q w z) = x (ix2 q (0 : Fin 1)) :=
  shapeCast_apply x h _ _ (by
    have hu : u.val = 0 := by omega
    have hw : w.val = 0 := by omega
    have hz : z.val = 0 := by omega
    rw [Shape.rowMajor_val_two, Shape.rowMajor_val_four]
    show q.val * 1 + 0 = ((u.val * 8 + q.val) * 1 + w.val) * 1 + z.val
    omega)

end Layout

/-! ## The reductions along a row and the two products, read at an index at the ideal values -/

/-- The index of `[8, 1024]` over row `q` with column `k` inserted. -/
theorem lift_row (q : Fin 8) (k : Fin 1024) : reduces_S8x1024_S8.lift (ix1 q) k = ix2 q k := by
  funext c
  match c with
  | ⟨0, _⟩ => exact Fin.ext rfl
  | ⟨1, _⟩ => exact Fin.ext rfl

/-- The maximum over a row, started from minus infinity: the fold of `max` from `⊥` over the 1024 columns. -/
theorem rowmax_apply (src : FVec Ideal S8x1024 .f32) (q : Fin 8) :
    multiReduction .maximumf [1] S8 src 0xFF800000#32 reduces_S8x1024_S8 (.inl rfl) rfl (ix1 q)
      = (Finset.univ : Finset (Fin 1024)).fold max (⊥ : EReal) (fun k => src (ix2 q k)) := by
  refine (Ideal.multiReduction_maximumf_single src 0xFF800000#32 reduces_S8x1024_S8 (.inl rfl) rfl (ix1 q)).trans ?_
  show (Finset.univ : Finset (Fin 1024)).fold max (Ideal.ofBits .f32 0xFF800000#32)
      (fun k : Fin 1024 => src (reduces_S8x1024_S8.lift (ix1 q) k)) = _
  rw [FlashMerge.ofBits_neg_inf_f32]
  exact congrArg ((Finset.univ : Finset (Fin 1024)).fold max (⊥ : EReal)) (funext fun k => congrArg src (lift_row q k))

/-- The sum over a row: the sum over the 1024 columns. -/
theorem rowsum_apply (src : FVec Ideal S8x1024 .f32) (q : Fin 8) :
    multiReduction .add [1] S8 src 0x00000000#32 reduces_S8x1024_S8 (.inl rfl) rfl (ix1 q)
      = ∑ k : Fin 1024, src (ix2 q k) := by
  refine (Ideal.multiReduction_add_single src 0x00000000#32 reduces_S8x1024_S8 (.inl rfl) rfl (ix1 q)).trans ?_
  show ∑ k : Fin 1024, src (reduces_S8x1024_S8.lift (ix1 q) k) = _
  exact Finset.sum_congr rfl fun k _ => congrArg src (lift_row q k)

/-- The left operand of the first product is read on axis 0 at the result's row. -/
theorem qk_lhs_0 (j : S8x1024.Idx) (c : dot_S8x128_S1024x128_S8x1024_1_1_0_0_n_n.contr.Idx) : (dot_S8x128_S1024x128_S8x1024_1_1_0_0_n_n.lhsIdx j c 0).val = (j 0).val := by
  unfold DotDims.lhsIdx
  rw [dif_neg (show ¬(0 : Fin S8x128.rank) ∈ dot_S8x128_S1024x128_S8x1024_1_1_0_0_n_n.lhsBatch by decide),
    dif_pos (show (0 : Fin S8x128.rank) ∈ dot_S8x128_S1024x128_S8x1024_1_1_0_0_n_n.lhsNonContracting by decide)]
  rfl
/-- … and on axis 1 at the contraction's coordinate. -/
theorem qk_lhs_1 (j : S8x1024.Idx) (c : dot_S8x128_S1024x128_S8x1024_1_1_0_0_n_n.contr.Idx) : (dot_S8x128_S1024x128_S8x1024_1_1_0_0_n_n.lhsIdx j c 1).val = (c ⟨0, by decide⟩).val :=
  dot_S8x128_S1024x128_S8x1024_1_1_0_0_n_n.lhsIdx_val_of_single rfl j c
/-- The right operand of the first product is read on axis 0 at the result's column. -/
theorem qk_rhs_0 (j : S8x1024.Idx) (c : dot_S8x128_S1024x128_S8x1024_1_1_0_0_n_n.contr.Idx) : (dot_S8x128_S1024x128_S8x1024_1_1_0_0_n_n.rhsIdx j c 0).val = (j 1).val := by
  unfold DotDims.rhsIdx
  rw [dif_neg (show ¬(0 : Fin S1024x128.rank) ∈ dot_S8x128_S1024x128_S8x1024_1_1_0_0_n_n.rhsBatch by decide),
    dif_pos (show (0 : Fin S1024x128.rank) ∈ dot_S8x128_S1024x128_S8x1024_1_1_0_0_n_n.rhsNonContracting by decide)]
  rfl
/-- … and on axis 1 at the contraction's coordinate. -/
theorem qk_rhs_1 (j : S8x1024.Idx) (c : dot_S8x128_S1024x128_S8x1024_1_1_0_0_n_n.contr.Idx) : (dot_S8x128_S1024x128_S8x1024_1_1_0_0_n_n.rhsIdx j c 1).val = (c ⟨0, by decide⟩).val :=
  dot_S8x128_S1024x128_S8x1024_1_1_0_0_n_n.rhsIdx_val_of_single rfl j c

/-- The product of the queries with the transposed keys at `(q, k)`: the sum over the 128 features of query times
    key, in that order. -/
theorem qk_apply (a : FVec Ideal S8x128 .f32) (b : FVec Ideal S1024x128 .f32) (q : Fin 8) (k : Fin 1024) :
    matmul dot_S8x128_S1024x128_S8x1024_1_1_0_0_n_n none a b (constant S8x1024 .f32 0x00000000#32) (ix2 q k)
      = ∑ e : Fin 128, a (ix2 q e) * b (ix2 k e) := by
  simp only [matmul]
  rw [Ideal.matmul_constant_zero_apply, ← Equiv.sum_comp (contrEquiv1 dot_S8x128_S1024x128_S8x1024_1_1_0_0_n_n 128 rfl rfl).symm]
  refine Finset.sum_congr rfl fun e _ => ?_
  have he := contrEquiv1_symm_val dot_S8x128_S1024x128_S8x1024_1_1_0_0_n_n 128 rfl rfl e
  have el : dot_S8x128_S1024x128_S8x1024_1_1_0_0_n_n.lhsIdx (ix2 q k) ((contrEquiv1 dot_S8x128_S1024x128_S8x1024_1_1_0_0_n_n 128 rfl rfl).symm e) = ix2 q e :=
    funext fun c => Fin.ext (by
      match c with
      | ⟨0, _⟩ => exact qk_lhs_0 _ _
      | ⟨1, _⟩ => exact (qk_lhs_1 _ _).trans he)
  have er : dot_S8x128_S1024x128_S8x1024_1_1_0_0_n_n.rhsIdx (ix2 q k) ((contrEquiv1 dot_S8x128_S1024x128_S8x1024_1_1_0_0_n_n 128 rfl rfl).symm e) = ix2 k e :=
    funext fun c => Fin.ext (by
      match c with
      | ⟨0, _⟩ => exact qk_rhs_0 _ _
      | ⟨1, _⟩ => exact (qk_rhs_1 _ _).trans he)
  rw [el, er]

/-- The left operand of the second product is read on axis 0 at the result's row. -/
theorem pv_lhs_0 (j : S8x128.Idx) (c : dot_S8x1024_S1024x128_S8x128_1_0_0_1_n_n.contr.Idx) : (dot_S8x1024_S1024x128_S8x128_1_0_0_1_n_n.lhsIdx j c 0).val = (j 0).val := by
  unfold DotDims.lhsIdx
  rw [dif_neg (show ¬(0 : Fin S8x1024.rank) ∈ dot_S8x1024_S1024x128_S8x128_1_0_0_1_n_n.lhsBatch by decide),
    dif_pos (show (0 : Fin S8x1024.rank) ∈ dot_S8x1024_S1024x128_S8x128_1_0_0_1_n_n.lhsNonContracting by decide)]
  rfl
/-- … and on axis 1 at the contraction's coordinate. -/
theorem pv_lhs_1 (j : S8x128.Idx) (c : dot_S8x1024_S1024x128_S8x128_1_0_0_1_n_n.contr.Idx) : (dot_S8x1024_S1024x128_S8x128_1_0_0_1_n_n.lhsIdx j c 1).val = (c ⟨0, by decide⟩).val :=
  dot_S8x1024_S1024x128_S8x128_1_0_0_1_n_n.lhsIdx_val_of_single rfl j c
/-- The right operand of the second product is read on axis 0 at the contraction's coordinate. -/
theorem pv_rhs_0 (j : S8x128.Idx) (c : dot_S8x1024_S1024x128_S8x128_1_0_0_1_n_n.contr.Idx) : (dot_S8x1024_S1024x128_S8x128_1_0_0_1_n_n.rhsIdx j c 0).val = (c ⟨0, by decide⟩).val :=
  dot_S8x1024_S1024x128_S8x128_1_0_0_1_n_n.rhsIdx_val_of_single rfl j c
/-- … and on axis 1 at the result's column. -/
theorem pv_rhs_1 (j : S8x128.Idx) (c : dot_S8x1024_S1024x128_S8x128_1_0_0_1_n_n.contr.Idx) : (dot_S8x1024_S1024x128_S8x128_1_0_0_1_n_n.rhsIdx j c 1).val = (j 1).val := by
  unfold DotDims.rhsIdx
  rw [dif_neg (show ¬(1 : Fin S1024x128.rank) ∈ dot_S8x1024_S1024x128_S8x128_1_0_0_1_n_n.rhsBatch by decide),
    dif_pos (show (1 : Fin S1024x128.rank) ∈ dot_S8x1024_S1024x128_S8x128_1_0_0_1_n_n.rhsNonContracting by decide)]
  rfl

/-- The product of the exponentials with the values at `(q, d)`: the sum over the 1024 keys of exponential times
    value, in that order. -/
theorem pv_apply (p : FVec Ideal S8x1024 .f32) (v : FVec Ideal S1024x128 .f32) (q : Fin 8) (d : Fin 128) :
    matmul dot_S8x1024_S1024x128_S8x128_1_0_0_1_n_n none p v (constant S8x128 .f32 0x00000000#32) (ix2 q d)
      = ∑ k : Fin 1024, p (ix2 q k) * v (ix2 k d) := by
  simp only [matmul]
  rw [Ideal.matmul_constant_zero_apply, ← Equiv.sum_comp (contrEquiv1 dot_S8x1024_S1024x128_S8x128_1_0_0_1_n_n 1024 rfl rfl).symm]
  refine Finset.sum_congr rfl fun k _ => ?_
  have hk := contrEquiv1_symm_val dot_S8x1024_S1024x128_S8x128_1_0_0_1_n_n 1024 rfl rfl k
  have el : dot_S8x1024_S1024x128_S8x128_1_0_0_1_n_n.lhsIdx (ix2 q d) ((contrEquiv1 dot_S8x1024_S1024x128_S8x128_1_0_0_1_n_n 1024 rfl rfl).symm k) = ix2 q k :=
    funext fun c => Fin.ext (by
      match c with
      | ⟨0, _⟩ => exact pv_lhs_0 _ _
      | ⟨1, _⟩ => exact (pv_lhs_1 _ _).trans hk)
  have er : dot_S8x1024_S1024x128_S8x128_1_0_0_1_n_n.rhsIdx (ix2 q d) ((contrEquiv1 dot_S8x1024_S1024x128_S8x128_1_0_0_1_n_n 1024 rfl rfl).symm k) = ix2 k d :=
    funext fun c => Fin.ext (by
      match c with
      | ⟨0, _⟩ => exact (pv_rhs_0 _ _).trans hk
      | ⟨1, _⟩ => exact pv_rhs_1 _ _)
  rw [el, er]

/-! ## One head read index by index at the ideal values -/

/-- The scaled score of query row `q` against key `k`: the inner product over the 128 features, query times key,
    times the scale (the word is kept as it is). -/
def sc (qb : S1x8x1x128.Idx → EReal) (kc : S1024x1x128.Idx → EReal) (q : Fin 8) (k : Fin 1024) : EReal :=
  (∑ e : Fin 128, qb (ix4 (0 : Fin 1) q (0 : Fin 1) e) * kc (ix3 k (0 : Fin 1) e)) * Ideal.ofBits .f32 0x3DB504F3#32

/-- The row maximum of the scaled scores of query row `q`, started from `⊥`. -/
def scMax (qb : S1x8x1x128.Idx → EReal) (kc : S1024x1x128.Idx → EReal) (q : Fin 8) : EReal :=
  (Finset.univ : Finset (Fin 1024)).fold max (⊥ : EReal) (fun k => sc qb kc q k)

theorem headS_apply (qb : Vec Ideal S1x8x1x128 .f32) (kc : Vec Ideal S1024x1x128 .f32) (q : Fin 8) (k : Fin 1024) :
    headS qb kc (ix2 q k) = sc qb kc q k := by
  unfold headS sc
  show (matmul (F := Ideal) dot_S8x128_S1024x128_S8x1024_1_1_0_0_n_n none (shapeCast S8x128 qb shapeCasts_S1x8x1x128_S8x128)
      (shapeCast S1024x128 kc shapeCasts_S1024x1x128_S1024x128) (constant S8x1024 .f32 0x00000000#32) (ix2 q k) : EReal)
      * Ideal.ofBits .f32 0x3DB504F3#32 = _
  rw [qk_apply]
  refine congrArg (· * Ideal.ofBits .f32 0x3DB504F3#32) (Finset.sum_congr rfl fun e _ => ?_)
  rw [cast_q_apply, cast_kv_apply]

theorem headMax_apply (qb : Vec Ideal S1x8x1x128 .f32) (kc : Vec Ideal S1024x1x128 .f32) (q : Fin 8) (z : Fin 1) :
    headMax qb kc (ix2 q z) = scMax qb kc q := by
  unfold headMax scMax
  show shapeCast S8x1 (multiReduction (F := Ideal) .maximumf [1] S8 (headS qb kc) 0xFF800000#32 reduces_S8x1024_S8 (.inl rfl) rfl)
      shapeCasts_S8_S8x1 (ix2 q z) = _
  rw [cast_col_apply, rowmax_apply]
  exact congrArg ((Finset.univ : Finset (Fin 1024)).fold max (⊥ : EReal)) (funext fun k => headS_apply qb kc q k)

theorem headP_apply (qb : Vec Ideal S1x8x1x128 .f32) (kc : Vec Ideal S1024x1x128 .f32) (q : Fin 8) (k : Fin 1024) :
    headP qb kc (ix2 q k) = Ideal.exp (sc qb kc q k - scMax qb kc q) := by
  unfold headP
  show Ideal.exp ((headS qb kc (ix2 q k) : EReal)
      - broadcastTo S8x1024 (headMax qb kc) broadcasts_S8x1_S8x1024 (ix2 q k)) = _
  rw [bcast_row_apply, headS_apply, headMax_apply]

/-- THE MAXIMA a head stores: at `(0, q, 0, 0)` the maximum, started from `⊥`, of the 1024 scaled scores of row `q`. -/
theorem headM_apply (qb : Vec Ideal S1x8x1x128 .f32) (kc : Vec Ideal S1024x1x128 .f32) (u : Fin 1) (q : Fin 8)
    (w z : Fin 1) : headM qb kc (ix4 u q w z) = scMax qb kc q := by
  unfold headM
  rw [cast_out1_apply, headMax_apply]

/-- THE ROW SUMS a head stores: at `(0, q, 0, 0)` the sum over the 1024 keys of the exponentials of the differences of
    the scaled scores to their maximum. -/
theorem headL_apply (qb : Vec Ideal S1x8x1x128 .f32) (kc : Vec Ideal S1024x1x128 .f32) (u : Fin 1) (q : Fin 8)
    (w z : Fin 1) :
    headL qb kc (ix4 u q w z) = ∑ k : Fin 1024, Ideal.exp (sc qb kc q k - scMax qb kc q) := by
  unfold headL
  show shapeCast S1x8x1x1 (shapeCast S8x1
      (multiReduction (F := Ideal) .add [1] S8 (headP qb kc) 0x00000000#32 reduces_S8x1024_S8 (.inl rfl) rfl) shapeCasts_S8_S8x1)
      shapeCasts_S8x1_S1x8x1x1 (ix4 u q w z) = _
  rw [cast_out1_apply, cast_col_apply, rowsum_apply]
  exact Finset.sum_congr rfl fun k _ => headP_apply qb kc q k

/-- THE WEIGHTED SUMS a head stores: at `(0, q, 0, d)` the sum over the 1024 keys of the exponential of the difference of
    the scaled score to the maximum, times feature `d` of the key's value row (exponential first, value second). -/
theorem headO_apply (qb : Vec Ideal S1x8x1x128 .f32) (kc vc : Vec Ideal S1024x1x128 .f32) (u : Fin 1) (q : Fin 8)
    (w : Fin 1) (d : Fin 128) :
    headO qb kc vc (ix4 u q w d)
      = ∑ k : Fin 1024, Ideal.exp (sc qb kc q k - scMax qb kc q) * vc (ix3 k (0 : Fin 1) d) := by
  unfold headO
  show shapeCast S1x8x1x128 (matmul (F := Ideal) dot_S8x1024_S1024x128_S8x128_1_0_0_1_n_n none (headP qb kc)
      (shapeCast S1024x128 vc shapeCasts_S1024x1x128_S1024x128) (constant S8x128 .f32 0x00000000#32))
      shapeCasts_S8x128_S1x8x1x128 (ix4 u q w d) = _
  rw [cast_out_apply, pv_apply]
  refine Finset.sum_congr rfl fun k _ => ?_
  rw [headP_apply, cast_kv_apply]

/-! ## The merge of the four slots as pure terms, for every float instance

A slot holds, per query row and head, a running maximum `m`, an exponential sum `l` and, per feature, a weighted sum `o`.
One merge step of `(ma, la, oa)` with `(mb, lb, ob)` takes the new maximum `max ma mb`, the two weights
`exp (ma - max ma mb)` and `exp (mb - max ma mb)`, and the weighted combinations `la * wa + lb * wb`, `oa * wa + ob * wb`. -/

section MergeDefs
variable {F : FTy → Type} [FloatOps F]

/-- The weight of the first operand of a merge step. -/
def mrgWa (ma mb : FVec F S8x16x1 .f32) : FVec F S8x16x1 .f32 := exp (subf ma (maximumf ma mb))

/-- The weight of the second operand of a merge step. -/
def mrgWb (ma mb : FVec F S8x16x1 .f32) : FVec F S8x16x1 .f32 := exp (subf mb (maximumf ma mb))

/-- The merged exponential sum. -/
def mrgL (ma la mb lb : FVec F S8x16x1 .f32) : FVec F S8x16x1 .f32 :=
  addf (mulf la (mrgWa ma mb)) (mulf lb (mrgWb ma mb))

/-- The merged weighted sum: the weights are broadcast along the features. -/
def mrgO (ma : FVec F S8x16x1 .f32) (oa : FVec F S8x16x128 .f32) (mb : FVec F S8x16x1 .f32) (ob : FVec F S8x16x128 .f32) :
    FVec F S8x16x128 .f32 :=
  addf (mulf oa (broadcastTo S8x16x128 (mrgWa ma mb) broadcasts_S8x16x1_S8x16x128))
    (mulf ob (broadcastTo S8x16x128 (mrgWb ma mb) broadcasts_S8x16x1_S8x16x128))

/-- A loaded slot of maxima or exponential sums `[1, 8, 16, 1]` as `[8, 16, 1]`. -/
def slot1 (x : Vec F S1x8x16x1 .f32) : FVec F S8x16x1 .f32 := shapeCast S8x16x1 x shapeCasts_S1x8x16x1_S8x16x1

/-- A loaded slot of weighted sums `[1, 8, 16, 128]` as `[8, 16, 128]`. -/
def slotO (x : Vec F S1x8x16x128 .f32) : FVec F S8x16x128 .f32 := shapeCast S8x16x128 x shapeCasts_S1x8x16x128_S8x16x128

/-- The running maximum after merging slots 0 and 1. -/
def run1M (m0 m1 : Vec F S1x8x16x1 .f32) : FVec F S8x16x1 .f32 := maximumf (slot1 m0) (slot1 m1)
/-- The running exponential sum after merging slots 0 and 1. -/
def run1L (m0 l0 m1 l1 : Vec F S1x8x16x1 .f32) : FVec F S8x16x1 .f32 := mrgL (slot1 m0) (slot1 l0) (slot1 m1) (slot1 l1)
/-- The running weighted sum after merging slots 0 and 1. -/
def run1O (m0 : Vec F S1x8x16x1 .f32) (o0 : Vec F S1x8x16x128 .f32) (m1 : Vec F S1x8x16x1 .f32) (o1 : Vec F S1x8x16x128 .f32) :
    FVec F S8x16x128 .f32 := mrgO (slot1 m0) (slotO o0) (slot1 m1) (slotO o1)

/-- THE MERGED ROW: slots 0, 1, 2, 3 merged one after the other from the left, the weighted sum divided by the
    exponential sum broadcast along the features, in the result's layout `[1, 8, 16, 128]`. -/
def merged (m0 l0 : Vec F S1x8x16x1 .f32) (o0 : Vec F S1x8x16x128 .f32) (m1 l1 : Vec F S1x8x16x1 .f32) (o1 : Vec F S1x8x16x128 .f32)
    (m2 l2 : Vec F S1x8x16x1 .f32) (o2 : Vec F S1x8x16x128 .f32) (m3 l3 : Vec F S1x8x16x1 .f32) (o3 : Vec F S1x8x16x128 .f32) :
    FVec F S1x8x16x128 .f32 :=
  have M1 : FVec F S8x16x1 .f32 := run1M m0 m1
  have L1 : FVec F S8x16x1 .f32 := run1L m0 l0 m1 l1
  have O1 : FVec F S8x16x128 .f32 := run1O m0 o0 m1 o1
  have M2 : FVec F S8x16x1 .f32 := maximumf M1 (slot1 m2)
  have L2 : FVec F S8x16x1 .f32 := mrgL M1 L1 (slot1 m2) (slot1 l2)
  have O2 : FVec F S8x16x128 .f32 := mrgO M1 O1 (slot1 m2) (slotO o2)
  have L3 : FVec F S8x16x1 .f32 := mrgL M2 L2 (slot1 m3) (slot1 l3)
  have O3 : FVec F S8x16x128 .f32 := mrgO M2 O2 (slot1 m3) (slotO o3)
  shapeCast S1x8x16x128 (divf O3 (broadcastTo S8x16x128 L3 broadcasts_S8x16x1_S8x16x128)) shapeCasts_S8x16x128_S1x8x16x128

end MergeDefs

/-! ## The merge read index by index at the ideal values -/

/-- A column `[8, 16, 1]` broadcast along the features of `[8, 16, 128]` reads, at `(q, h, d)`, the column at `(q, h, 0)`. -/
theorem bcast_feat_apply {α : Type} (x : S8x16x1.Idx → α) (hb : S8x16x1.Broadcasts S8x16x128) (q : Fin 8) (h : Fin 16)
    (d : Fin 128) : broadcastTo S8x16x128 x hb (ix3 q h d) = x (ix3 q h (0 : Fin 1)) :=
  broadcastTo_apply x hb _ _ (fun a => by
    match a with
    | ⟨0, _⟩ => rfl
    | ⟨1, _⟩ => rfl
    | ⟨2, _⟩ => rfl)

/-- The partial that three vectors `(M, L, O)` hold for query row `q`, head `h` and feature `d`. -/
def at3 (M L : S8x16x1.Idx → EReal) (O : S8x16x128.Idx → EReal) (q : Fin 8) (h : Fin 16) (d : Fin 128) : FlashMerge.EPartial :=
  ⟨M (ix3 q h (0 : Fin 1)), L (ix3 q h (0 : Fin 1)), O (ix3 q h d)⟩

/-- The partial that a loaded slot `(m, l, o)` holds for query row `q`, head `h` and feature `d`. -/
def slotP (m l : S1x8x16x1.Idx → EReal) (o : S1x8x16x128.Idx → EReal) (q : Fin 8) (h : Fin 16) (d : Fin 128) :
    FlashMerge.EPartial :=
  ⟨m (ix4 (0 : Fin 1) q h (0 : Fin 1)), l (ix4 (0 : Fin 1) q h (0 : Fin 1)), o (ix4 (0 : Fin 1) q h d)⟩

/-- The partial of a loaded slot, once the three loaded values it reads are known. -/
theorem slotP_of (m l : S1x8x16x1.Idx → EReal) (o : S1x8x16x128.Idx → EReal) (q : Fin 8) (h : Fin 16) (d : Fin 128)
    (a b c : EReal) (hm : m (ix4 (0 : Fin 1) q h (0 : Fin 1)) = a) (hl : l (ix4 (0 : Fin 1) q h (0 : Fin 1)) = b)
    (ho : o (ix4 (0 : Fin 1) q h d) = c) : slotP m l o q h d = ⟨a, b, c⟩ := by
  unfold slotP
  rw [hm, hl, ho]

/-- A loaded slot, cast, holds the slot's partial. -/
theorem at3_slot (m l : Vec Ideal S1x8x16x1 .f32) (o : Vec Ideal S1x8x16x128 .f32) (q : Fin 8) (h : Fin 16) (d : Fin 128) :
    at3 (slot1 m) (slot1 l) (slotO o) q h d = slotP m l o q h d := by
  unfold at3 slotP slot1 slotO
  rw [shapeCast_1abc_abc_apply, shapeCast_1abc_abc_apply, shapeCast_1abc_abc_apply]

/-- ONE MERGE STEP of the vectors is, index by index, the merge of the partials they hold. -/
theorem at3_merge (ma la : FVec Ideal S8x16x1 .f32) (oa : FVec Ideal S8x16x128 .f32) (mb lb : FVec Ideal S8x16x1 .f32)
    (ob : FVec Ideal S8x16x128 .f32) (q : Fin 8) (h : Fin 16) (d : Fin 128) :
    at3 (maximumf ma mb) (mrgL ma la mb lb) (mrgO ma oa mb ob) q h d = (at3 ma la oa q h d).merge (at3 mb lb ob q h d) := by
  have hO : mrgO ma oa mb ob (ix3 q h d)
      = oa (ix3 q h d) * Ideal.exp (ma (ix3 q h (0 : Fin 1)) - max (ma (ix3 q h (0 : Fin 1))) (mb (ix3 q h (0 : Fin 1))))
        + ob (ix3 q h d) * Ideal.exp (mb (ix3 q h (0 : Fin 1)) - max (ma (ix3 q h (0 : Fin 1))) (mb (ix3 q h (0 : Fin 1)))) := by
    unfold mrgO
    show (oa (ix3 q h d) : EReal) * broadcastTo S8x16x128 (mrgWa ma mb) broadcasts_S8x16x1_S8x16x128 (ix3 q h d)
        + (ob (ix3 q h d) : EReal) * broadcastTo S8x16x128 (mrgWb ma mb) broadcasts_S8x16x1_S8x16x128 (ix3 q h d) = _
    rw [bcast_feat_apply, bcast_feat_apply]
    rfl
  refine FlashMerge.EPartial.ext ?_ ?_ ?_
  · rfl
  · rfl
  · exact hO

/-- THE MERGED ROW at `(0, q, h, d)`: the weighted sum divided by the exponential sum of the left fold, over slots 1, 2, 3,
    of the merge of partials, started from slot 0's. -/
theorem merged_apply (m l : Fin 4 → Vec Ideal S1x8x16x1 .f32) (o : Fin 4 → Vec Ideal S1x8x16x128 .f32) (u : Fin 1) (q : Fin 8)
    (h : Fin 16) (d : Fin 128) :
    merged (m 0) (l 0) (o 0) (m 1) (l 1) (o 1) (m 2) (l 2) (o 2) (m 3) (l 3) (o 3) (ix4 u q h d)
      = Ideal.div
          (([1, 2, 3] : List (Fin 4)).foldl (fun acc j => acc.merge (slotP (m j) (l j) (o j) q h d)) (slotP (m 0) (l 0) (o 0) q h d)).o
          (([1, 2, 3] : List (Fin 4)).foldl (fun acc j => acc.merge (slotP (m j) (l j) (o j) q h d)) (slotP (m 0) (l 0) (o 0) q h d)).l := by
  have e1 := at3_merge (slot1 (m 0)) (slot1 (l 0)) (slotO (o 0)) (slot1 (m 1)) (slot1 (l 1)) (slotO (o 1)) q h d
  have e2 := at3_merge (run1M (m 0) (m 1)) (run1L (m 0) (l 0) (m 1) (l 1)) (run1O (m 0) (o 0) (m 1) (o 1))
    (slot1 (m 2)) (slot1 (l 2)) (slotO (o 2)) q h d
  have e3 := at3_merge (maximumf (run1M (m 0) (m 1)) (slot1 (m 2)))
    (mrgL (run1M (m 0) (m 1)) (run1L (m 0) (l 0) (m 1) (l 1)) (slot1 (m 2)) (slot1 (l 2)))
    (mrgO (run1M (m 0) (m 1)) (run1O (m 0) (o 0) (m 1) (o 1)) (slot1 (m 2)) (slotO (o 2)))
    (slot1 (m 3)) (slot1 (l 3)) (slotO (o 3)) q h d
  have e1' : at3 (run1M (m 0) (m 1)) (run1L (m 0) (l 0) (m 1) (l 1)) (run1O (m 0) (o 0) (m 1) (o 1)) q h d
      = (slotP (m 0) (l 0) (o 0) q h d).merge (slotP (m 1) (l 1) (o 1) q h d) := by
    rw [← at3_slot, ← at3_slot]; exact e1
  rw [e1', at3_slot] at e2
  rw [e2, at3_slot] at e3
  simp only [List.foldl_cons, List.foldl_nil]
  rw [← e3]
  unfold merged
  show shapeCast S1x8x16x128 _ shapeCasts_S8x16x128_S1x8x16x128 (ix4 u q h d) = _
  rw [shapeCast_abc_1abc_apply]
  show Ideal.div _ (broadcastTo S8x16x128 _ broadcasts_S8x16x1_S8x16x128 (ix3 q h d)) = _
  rw [bcast_feat_apply]
  rfl

/-- The same with the slots' partials named: what a caller uses once it knows what each slot holds. -/
theorem merged_apply_of (m l : Fin 4 → Vec Ideal S1x8x16x1 .f32) (o : Fin 4 → Vec Ideal S1x8x16x128 .f32) (u : Fin 1) (q : Fin 8)
    (h : Fin 16) (d : Fin 128) (P : Fin 4 → FlashMerge.EPartial) (hP : ∀ j, slotP (m j) (l j) (o j) q h d = P j) :
    merged (m 0) (l 0) (o 0) (m 1) (l 1) (o 1) (m 2) (l 2) (o 2) (m 3) (l 3) (o 3) (ix4 u q h d)
      = Ideal.div (([1, 2, 3] : List (Fin 4)).foldl (fun acc j => acc.merge (P j)) (P 0)).o
          (([1, 2, 3] : List (Fin 4)).foldl (fun acc j => acc.merge (P j)) (P 0)).l := by
  rw [merged_apply]
  simp only [hP]

/-- The fold over the slots 1, 2, 3 of partials indexed through a map `blk` of slots to blocks is the fold over the list of
    those blocks: the form in which a statement about a list of blocks applies. -/
theorem foldl_slots (X : Fin 4 → FlashMerge.EPartial) (blk : Fin 4 → Fin 4) :
    ([1, 2, 3] : List (Fin 4)).foldl (fun acc j => acc.merge (X (blk j))) (X (blk 0))
      = [blk 1, blk 2, blk 3].foldl (fun acc b => acc.merge (X b)) (X (blk 0)) := rfl

/-- info: 'Cert.KernelIdeal.HeadValue.headM_apply' depends on axioms: [propext, Classical.choice, Quot.sound] -/
#guard_msgs in #print axioms headM_apply
/-- info: 'Cert.KernelIdeal.HeadValue.headL_apply' depends on axioms: [propext, Classical.choice, Quot.sound] -/
#guard_msgs in #print axioms headL_apply
/-- info: 'Cert.KernelIdeal.HeadValue.headO_apply' depends on axioms: [propext, Classical.choice, Quot.sound] -/
#guard_msgs in #print axioms headO_apply
/-- info: 'Cert.KernelIdeal.HeadValue.merged_apply_of' depends on axioms: [propext, Classical.choice, Quot.sound] -/
#guard_msgs in #print axioms merged_apply_of

end Cert.KernelIdeal.HeadValue

end
-- ==== Proof.HeadValue.lean ====
/-
  The kernel's stored payloads are one head's arithmetic (sixteen times) and the four-way merge: each printed payload,
  with the values it takes from earlier parts written as those parts' payloads of the loads, is the pure term of
  HeadValueLib, by unfolding. The index-by-index readings are HeadValueLib's.
-/
import proofs.«900429_g7700000000000430_dist_flashdec_v7x_xyz2x4x4_z_b8_sq8_skv1024_h16_d128_f32_1_alg».proof.Proof.Gen.KernelIdeal.Skeleton
import proofs.«900429_g7700000000000430_dist_flashdec_v7x_xyz2x4x4_z_b8_sq8_skv1024_h16_d128_f32_1_alg».proof.Proof.LibFlashMerge
import proofs.«900429_g7700000000000430_dist_flashdec_v7x_xyz2x4x4_z_b8_sq8_skv1024_h16_d128_f32_1_alg».proof.Proof.HeadValueLib
import Idealize.ShloMosaic.Lib.ValueIdx
import Idealize.ShloMosaic.Lib.ValueLayout
import Idealize.ShloMosaic.Lib.Pipeline.Value
import Idealize.ShloMosaic.PureOps.Ideal.Laws

set_option maxRecDepth 65536

noncomputable section

open scoped BigOperators

namespace Cert.KernelIdeal.HeadValue

open Idealize.ShloMosaic Idealize.ShloMosaic.ValueIdx Cert.KernelIdeal Cert.KernelIdeal.Gen

variable {F : FTy → Type} [FloatOps F]

/-! ## The sixteen heads: each stored payload is `headO` / `headM` / `headL` of the head's three loads -/

/-- Head 0: the block stored into the partial-sum buffer. -/
theorem head0_O (q : Vec F S1x8x1x128 .f32) (k v : Vec F S1024x1x128 .f32) :
    k0_pay4 q k v = headO q k v := rfl
/-- Head 0: the block stored into the maxima buffer. -/
theorem head0_M (q : Vec F S1x8x1x128 .f32) (k : Vec F S1024x1x128 .f32) :
    k0_pay5 q k = headM q k := rfl
/-- Head 0: the block stored into the row-sum buffer. -/
theorem head0_L (q : Vec F S1x8x1x128 .f32) (k : Vec F S1024x1x128 .f32) :
    k0_pay6 q k = headL q k := rfl

/-- Head 1: the block stored into the partial-sum buffer. -/
theorem head1_O (q : Vec F S1x8x1x128 .f32) (k v : Vec F S1024x1x128 .f32) :
    k0_pay11 (k0_pay7 q) k v = headO q k v := rfl
/-- Head 1: the block stored into the maxima buffer. -/
theorem head1_M (q : Vec F S1x8x1x128 .f32) (k : Vec F S1024x1x128 .f32) :
    k0_pay12 (k0_pay7 q) k = headM q k := rfl
/-- Head 1: the block stored into the row-sum buffer. -/
theorem head1_L (q : Vec F S1x8x1x128 .f32) (k : Vec F S1024x1x128 .f32) :
    k0_pay13 (k0_pay7 q) k = headL q k := rfl

/-- Head 2: the block stored into the partial-sum buffer. -/
theorem head2_O (q : Vec F S1x8x1x128 .f32) (k v : Vec F S1024x1x128 .f32) :
    k0_pay19 (k0_pay14 q) (k0_pay15 k) v = headO q k v := rfl
/-- Head 2: the block stored into the maxima buffer. -/
theorem head2_M (q : Vec F S1x8x1x128 .f32) (k : Vec F S1024x1x128 .f32) :
    k0_pay20 (k0_pay14 q) (k0_pay15 k) = headM q k := rfl
/-- Head 2: the block stored into the row-sum buffer. -/
theorem head2_L (q : Vec F S1x8x1x128 .f32) (k : Vec F S1024x1x128 .f32) :
    k0_pay21 (k0_pay14 q) (k0_pay15 k) = headL q k := rfl

/-- Head 3: the block stored into the partial-sum buffer. -/
theorem head3_O (q : Vec F S1x8x1x128 .f32) (k v : Vec F S1024x1x128 .f32) :
    k0_pay28 (k0_pay22 q) (k0_pay23 k) (k0_pay24 v) (constant S8x1024 .f32 0x00000000#32) = headO q k v := rfl
/-- Head 3: the block stored into the maxima buffer. -/
theorem head3_M (q : Vec F S1x8x1x128 .f32) (k : Vec F S1024x1x128 .f32) :
    k0_pay29 (k0_pay22 q) (k0_pay23 k) (constant S8x1024 .f32 0x00000000#32) = headM q k := rfl
/-- Head 3: the block stored into the row-sum buffer. -/
theorem head3_L (q : Vec F S1x8x1x128 .f32) (k : Vec F S1024x1x128 .f32) :
    k0_pay30 (k0_pay22 q) (k0_pay23 k) (constant S8x1024 .f32 0x00000000#32) = headL q k := rfl

/-- Head 4: the block stored into the partial-sum buffer. -/
theorem head4_O (q : Vec F S1x8x1x128 .f32) (k v : Vec F S1024x1x128 .f32) :
    k0_pay35 (k0_pay31 v) (k0_pay32 q k) = headO q k v := rfl
/-- Head 4: the block stored into the maxima buffer. -/
theorem head4_M (q : Vec F S1x8x1x128 .f32) (k : Vec F S1024x1x128 .f32) :
    k0_pay36 (k0_pay32 q k) = headM q k := rfl
/-- Head 4: the block stored into the row-sum buffer. -/
theorem head4_L (q : Vec F S1x8x1x128 .f32) (k : Vec F S1024x1x128 .f32) :
    k0_pay37 (k0_pay32 q k) = headL q k := rfl

/-- Head 5: the block stored into the partial-sum buffer. -/
theorem head5_O (q : Vec F S1x8x1x128 .f32) (k v : Vec F S1024x1x128 .f32) :
    k0_pay43 (k0_pay38 v) (k0_pay39 q k) (k0_pay41 q k) = headO q k v := rfl
/-- Head 5: the block stored into the maxima buffer. -/
theorem head5_M (q : Vec F S1x8x1x128 .f32) (k : Vec F S1024x1x128 .f32) :
    k0_pay44 (k0_pay40 q k) = headM q k := rfl
/-- Head 5: the block stored into the row-sum buffer. -/
theorem head5_L (q : Vec F S1x8x1x128 .f32) (k : Vec F S1024x1x128 .f32) :
    k0_pay45 (k0_pay39 q k) (k0_pay41 q k) = headL q k := rfl

/-- Head 6: the block stored into the partial-sum buffer. -/
theorem head6_O (q : Vec F S1x8x1x128 .f32) (k v : Vec F S1024x1x128 .f32) :
    k0_pay51 (k0_pay46 v) (k0_pay49 q k) = headO q k v := rfl
/-- Head 6: the block stored into the maxima buffer. -/
theorem head6_M (q : Vec F S1x8x1x128 .f32) (k : Vec F S1024x1x128 .f32) :
    k0_pay52 (k0_pay48 q k) = headM q k := rfl
/-- Head 6: the block stored into the row-sum buffer. -/
theorem head6_L (q : Vec F S1x8x1x128 .f32) (k : Vec F S1024x1x128 .f32) :
    k0_pay53 (k0_pay50 q k) = headL q k := rfl

/-- Head 7: the block stored into the partial-sum buffer. -/
theorem head7_O (q : Vec F S1x8x1x128 .f32) (k v : Vec F S1024x1x128 .f32) :
    k0_pay59 (k0_pay58 q k v) = headO q k v := rfl
/-- Head 7: the block stored into the maxima buffer. -/
theorem head7_M (q : Vec F S1x8x1x128 .f32) (k : Vec F S1024x1x128 .f32) :
    k0_pay60 (k0_pay55 q k) = headM q k := rfl
/-- Head 7: the block stored into the row-sum buffer. -/
theorem head7_L (q : Vec F S1x8x1x128 .f32) (k : Vec F S1024x1x128 .f32) :
    k0_pay61 (k0_pay57 q k) = headL q k := rfl

/-- Head 8: the block stored into the partial-sum buffer. -/
theorem head8_O (q : Vec F S1x8x1x128 .f32) (k v : Vec F S1024x1x128 .f32) :
    k0_pay67 (k0_pay66 q k v) = headO q k v := rfl
/-- Head 8: the block stored into the maxima buffer. -/
theorem head8_M (q : Vec F S1x8x1x128 .f32) (k : Vec F S1024x1x128 .f32) :
    k0_pay68 (k0_pay63 q k) = headM q k := rfl
/-- Head 8: the block stored into the row-sum buffer. -/
theorem head8_L (q : Vec F S1x8x1x128 .f32) (k : Vec F S1024x1x128 .f32) :
    k0_pay69 (k0_pay65 q k) = headL q k := rfl

/-- Head 9: the block stored into the partial-sum buffer. -/
theorem head9_O (q : Vec F S1x8x1x128 .f32) (k v : Vec F S1024x1x128 .f32) :
    k0_pay74 q k v = headO q k v := rfl
/-- Head 9: the block stored into the maxima buffer. -/
theorem head9_M (q : Vec F S1x8x1x128 .f32) (k : Vec F S1024x1x128 .f32) :
    k0_pay75 (k0_pay71 q k) = headM q k := rfl
/-- Head 9: the block stored into the row-sum buffer. -/
theorem head9_L (q : Vec F S1x8x1x128 .f32) (k : Vec F S1024x1x128 .f32) :
    k0_pay76 (k0_pay73 q k) = headL q k := rfl

/-- Head 10: the block stored into the partial-sum buffer. -/
theorem head10_O (q : Vec F S1x8x1x128 .f32) (k v : Vec F S1024x1x128 .f32) :
    k0_pay81 q k v = headO q k v := rfl
/-- Head 10: the block stored into the maxima buffer. -/
theorem head10_M (q : Vec F S1x8x1x128 .f32) (k : Vec F S1024x1x128 .f32) :
    k0_pay82 (k0_pay78 q k) = headM q k := rfl
/-- Head 10: the block stored into the row-sum buffer. -/
theorem head10_L (q : Vec F S1x8x1x128 .f32) (k : Vec F S1024x1x128 .f32) :
    k0_pay83 (k0_pay80 q k) = headL q k := rfl

/-- Head 11: the block stored into the partial-sum buffer. -/
theorem head11_O (q : Vec F S1x8x1x128 .f32) (k v : Vec F S1024x1x128 .f32) :
    k0_pay88 q k v = headO q k v := rfl
/-- Head 11: the block stored into the maxima buffer. -/
theorem head11_M (q : Vec F S1x8x1x128 .f32) (k : Vec F S1024x1x128 .f32) :
    k0_pay89 q k = headM q k := rfl
/-- Head 11: the block stored into the row-sum buffer. -/
theorem head11_L (q : Vec F S1x8x1x128 .f32) (k : Vec F S1024x1x128 .f32) :
    k0_pay90 (k0_pay87 q k) = headL q k := rfl

/-- Head 12: the block stored into the partial-sum buffer. -/
theorem head12_O (q : Vec F S1x8x1x128 .f32) (k v : Vec F S1024x1x128 .f32) :
    k0_pay95 q k v = headO q k v := rfl
/-- Head 12: the block stored into the maxima buffer. -/
theorem head12_M (q : Vec F S1x8x1x128 .f32) (k : Vec F S1024x1x128 .f32) :
    k0_pay96 q k = headM q k := rfl
/-- Head 12: the block stored into the row-sum buffer. -/
theorem head12_L (q : Vec F S1x8x1x128 .f32) (k : Vec F S1024x1x128 .f32) :
    k0_pay97 (k0_pay94 q k) = headL q k := rfl

/-- Head 13: the block stored into the partial-sum buffer. -/
theorem head13_O (q : Vec F S1x8x1x128 .f32) (k v : Vec F S1024x1x128 .f32) :
    k0_pay101 q k v = headO q k v := rfl
/-- Head 13: the block stored into the maxima buffer. -/
theorem head13_M (q : Vec F S1x8x1x128 .f32) (k : Vec F S1024x1x128 .f32) :
    k0_pay102 q k = headM q k := rfl
/-- Head 13: the block stored into the row-sum buffer. -/
theorem head13_L (q : Vec F S1x8x1x128 .f32) (k : Vec F S1024x1x128 .f32) :
    k0_pay103 q k = headL q k := rfl

/-- Head 14: the block stored into the partial-sum buffer. -/
theorem head14_O (q : Vec F S1x8x1x128 .f32) (k v : Vec F S1024x1x128 .f32) :
    k0_pay107 q k v = headO q k v := rfl
/-- Head 14: the block stored into the maxima buffer. -/
theorem head14_M (q : Vec F S1x8x1x128 .f32) (k : Vec F S1024x1x128 .f32) :
    k0_pay108 q k = headM q k := rfl
/-- Head 14: the block stored into the row-sum buffer. -/
theorem head14_L (q : Vec F S1x8x1x128 .f32) (k : Vec F S1024x1x128 .f32) :
    k0_pay109 q k = headL q k := rfl

/-- Head 15: the block stored into the partial-sum buffer. -/
theorem head15_O (q : Vec F S1x8x1x128 .f32) (k v : Vec F S1024x1x128 .f32) :
    k0_pay113 q k v = headO q k v := rfl
/-- Head 15: the block stored into the maxima buffer. -/
theorem head15_M (q : Vec F S1x8x1x128 .f32) (k : Vec F S1024x1x128 .f32) :
    k0_pay114 q k = headM q k := rfl
/-- Head 15: the block stored into the row-sum buffer. -/
theorem head15_L (q : Vec F S1x8x1x128 .f32) (k : Vec F S1024x1x128 .f32) :
    k0_pay115 q k = headL q k := rfl

/-! ## The merge: the row stored into the result is `merged` of the twelve loaded slots -/

/-- The payload the result row's store reads, over the loads of the four slots `(m j, l j, o j)` in the order the body
    makes them: the values it takes from the two earlier parts are those parts' payloads of the loads. -/
theorem merged_payload (m0 l0 : Vec F S1x8x16x1 .f32) (o0 : Vec F S1x8x16x128 .f32) (m1 l1 : Vec F S1x8x16x1 .f32)
    (o1 : Vec F S1x8x16x128 .f32) (m2 l2 : Vec F S1x8x16x1 .f32) (o2 : Vec F S1x8x16x128 .f32) (m3 l3 : Vec F S1x8x16x1 .f32)
    (o3 : Vec F S1x8x16x128 .f32) :
    k0_pay133 (k0_pay130 (k0_pay118 m0 m1) m2 m3)
        (k0_pay131 (k0_pay118 m0 m1) (k0_pay121 m0 o0 m1 o1) m2 o2 m3 o3)
        (k0_pay132 (k0_pay118 m0 m1) (k0_pay120 m0 m1) (k0_pay122 m0 l0 m1) l1 m2 l2 m3) l3
      = merged m0 l0 o0 m1 l1 o1 m2 l2 o2 m3 l3 o3 := rfl

/-- info: 'Cert.KernelIdeal.HeadValue.head15_O' depends on axioms: [propext, Classical.choice, Quot.sound] -/
#guard_msgs in #print axioms head15_O
/-- info: 'Cert.KernelIdeal.HeadValue.merged_payload' depends on axioms: [propext, Classical.choice, Quot.sound] -/
#guard_msgs in #print axioms merged_payload

end Cert.KernelIdeal.HeadValue

end
-- ==== Proof.ValueBridge.lean ====
/-
  From what the devices compute to the reference's specification, over plain functions.

  A device of row `r` and plane `z` holds all the queries `Q` and the blocks `Kz z`, `Vz z` of the keys and values of its
  plane, which read the whole arrays at the keys `1024 * z + k`. For every head it computes, from the head's query block
  and its key and value columns, the row maxima, the row sums of the exponentials and the weighted sums; the three
  arrays so filled are one slot. With real entries a slot is, index by index, the softmax partial of key block `z`. The
  ring brings to slot `j` of a device of plane `z` the slot computed on plane `z - j`; the four slots merged from the
  left, divided, are the reference's specification at that row — whatever the plane.
-/
import proofs.«900429_g7700000000000430_dist_flashdec_v7x_xyz2x4x4_z_b8_sq8_skv1024_h16_d128_f32_1_alg».proof.Proof.BlockValue
import proofs.«900429_g7700000000000430_dist_flashdec_v7x_xyz2x4x4_z_b8_sq8_skv1024_h16_d128_f32_1_alg».proof.Proof.HeadValue

noncomputable section

namespace Cert.Proof.ValueBridge

open Idealize.ShloMosaic Idealize.ShloMosaic.ValueIdx Cert.KernelIdeal Cert.KernelIdeal.HeadValue Cert.Proof.RefValue
  Cert.Proof.BlockValue

/-! ## The blocks a head reads -/

/-- The query block of batch row `r` and head `h`: the 128 features of the 8 queries. -/
def qblk (Q : (⟨4, ![8, 8, 16, 128]⟩ : Shape).Idx → EReal) (r : Fin 8) (h : Fin 16) : S1x8x1x128.Idx → EReal :=
  fun y => Q (ix4 r (y 1 : Fin 8) h (y 3 : Fin 128))

/-- The column of batch row `r` and head `h` of a device's block of keys (or values): the 128 features of its 1024 keys. -/
def kcol (Kd : (⟨4, ![8, 1024, 16, 128]⟩ : Shape).Idx → EReal) (r : Fin 8) (h : Fin 16) : S1024x1x128.Idx → EReal :=
  fun y => Kd (ix4 r (y 0 : Fin 1024) h (y 2 : Fin 128))

theorem qblk_apply (Q : (⟨4, ![8, 8, 16, 128]⟩ : Shape).Idx → EReal) (r : Fin 8) (h : Fin 16) (u : Fin 1) (q : Fin 8)
    (w : Fin 1) (e : Fin 128) : qblk Q r h (ix4 u q w e) = Q (ix4 r q h e) := rfl

theorem kcol_apply (Kd : (⟨4, ![8, 1024, 16, 128]⟩ : Shape).Idx → EReal) (r : Fin 8) (h : Fin 16) (k : Fin 1024) (w : Fin 1)
    (e : Fin 128) : kcol Kd r h (ix3 k w e) = Kd (ix4 r k h e) := rfl

/-- The head's scaled score of its blocks is the device's local score. -/
theorem sc_eq_localScore (Q : (⟨4, ![8, 8, 16, 128]⟩ : Shape).Idx → EReal) (Kd : (⟨4, ![8, 1024, 16, 128]⟩ : Shape).Idx → EReal)
    (r : Fin 8) (h : Fin 16) (q : Fin 8) (k : Fin 1024) : sc (qblk Q r h) (kcol Kd r h) q k = localScore Q Kd r q h k := rfl

/-! ## One slot: what the sixteen heads of a device of plane `z` store -/

/-- The maxima of a slot: at `(q, h, 0)` the row maximum head `h` stores for query `q`. -/
def PM (Q : (⟨4, ![8, 8, 16, 128]⟩ : Shape).Idx → EReal) (Kz : Fin 4 → (⟨4, ![8, 1024, 16, 128]⟩ : Shape).Idx → EReal)
    (r : Fin 8) (z : Fin 4) : S8x16x1.Idx → EReal :=
  fun i => headM (F := Ideal) (qblk Q r (i 1 : Fin 16)) (kcol (Kz z) r (i 1 : Fin 16))
    (ix4 (0 : Fin 1) (i 0 : Fin 8) (0 : Fin 1) (0 : Fin 1))

/-- The exponential sums of a slot: at `(q, h, 0)` the row sum head `h` stores for query `q`. -/
def PL (Q : (⟨4, ![8, 8, 16, 128]⟩ : Shape).Idx → EReal) (Kz : Fin 4 → (⟨4, ![8, 1024, 16, 128]⟩ : Shape).Idx → EReal)
    (r : Fin 8) (z : Fin 4) : S8x16x1.Idx → EReal :=
  fun i => headL (F := Ideal) (qblk Q r (i 1 : Fin 16)) (kcol (Kz z) r (i 1 : Fin 16))
    (ix4 (0 : Fin 1) (i 0 : Fin 8) (0 : Fin 1) (0 : Fin 1))

/-- The weighted sums of a slot: at `(q, h, d)` the weighted sum head `h` stores for query `q` and feature `d`. -/
def PO (Q : (⟨4, ![8, 8, 16, 128]⟩ : Shape).Idx → EReal) (Kz Vz : Fin 4 → (⟨4, ![8, 1024, 16, 128]⟩ : Shape).Idx → EReal)
    (r : Fin 8) (z : Fin 4) : S8x16x128.Idx → EReal :=
  fun i => headO (F := Ideal) (qblk Q r (i 1 : Fin 16)) (kcol (Kz z) r (i 1 : Fin 16)) (kcol (Vz z) r (i 1 : Fin 16))
    (ix4 (0 : Fin 1) (i 0 : Fin 8) (0 : Fin 1) (i 2 : Fin 128))

/-- The slot's maximum at `(q, h)`: the maximum, started from `⊥`, of the device's 1024 local scores. -/
theorem PM_apply (Q : (⟨4, ![8, 8, 16, 128]⟩ : Shape).Idx → EReal) (Kz : Fin 4 → (⟨4, ![8, 1024, 16, 128]⟩ : Shape).Idx → EReal)
    (r : Fin 8) (z : Fin 4) (q : Fin 8) (h : Fin 16) (w : Fin 1) :
    PM Q Kz r z (ix3 q h w)
      = (Finset.univ : Finset (Fin 1024)).fold max (⊥ : EReal) (fun k => localScore Q (Kz z) r q h k) := by
  show headM (F := Ideal) (qblk Q r h) (kcol (Kz z) r h) (ix4 (0 : Fin 1) q (0 : Fin 1) (0 : Fin 1)) = _
  rw [headM_apply]
  rfl

/-- The slot's exponential sum at `(q, h)`: the sum of the exponentials of the differences of the local scores to their
    maximum. -/
theorem PL_apply (Q : (⟨4, ![8, 8, 16, 128]⟩ : Shape).Idx → EReal) (Kz : Fin 4 → (⟨4, ![8, 1024, 16, 128]⟩ : Shape).Idx → EReal)
    (r : Fin 8) (z : Fin 4) (q : Fin 8) (h : Fin 16) (w : Fin 1) :
    PL Q Kz r z (ix3 q h w)
      = ∑ k ∈ (Finset.univ : Finset (Fin 1024)), Ideal.exp (localScore Q (Kz z) r q h k
          - (Finset.univ : Finset (Fin 1024)).fold max (⊥ : EReal) (fun j => localScore Q (Kz z) r q h j)) := by
  show headL (F := Ideal) (qblk Q r h) (kcol (Kz z) r h) (ix4 (0 : Fin 1) q (0 : Fin 1) (0 : Fin 1)) = _
  rw [headL_apply]
  rfl

/-- The slot's weighted sum at `(q, h, d)`: the sum of those exponentials times feature `d` of the device's value rows. -/
theorem PO_apply (Q : (⟨4, ![8, 8, 16, 128]⟩ : Shape).Idx → EReal)
    (Kz Vz : Fin 4 → (⟨4, ![8, 1024, 16, 128]⟩ : Shape).Idx → EReal) (r : Fin 8) (z : Fin 4) (q : Fin 8) (h : Fin 16)
    (d : Fin 128) :
    PO Q Kz Vz r z (ix3 q h d)
      = ∑ k ∈ (Finset.univ : Finset (Fin 1024)), Ideal.exp (localScore Q (Kz z) r q h k
          - (Finset.univ : Finset (Fin 1024)).fold max (⊥ : EReal) (fun j => localScore Q (Kz z) r q h j))
            * Vz z (ix4 r k h d) := by
  show headO (F := Ideal) (qblk Q r h) (kcol (Kz z) r h) (kcol (Vz z) r h) (ix4 (0 : Fin 1) q (0 : Fin 1) d) = _
  rw [headO_apply]
  rfl

/-! ## A slot is the partial of its plane's key block -/

/-- A SLOT, COMPONENT BY COMPONENT. With real entries, and blocks that read the whole arrays at the keys `1024 * z + k`: at
    `(q, h)` and feature `d` the slot of a device of row `r` and plane `z` holds the coercions of the three components of
    the softmax partial of key block `z` for the real scores of `(r, q, h)` and the real values of `(r, h, d)`. -/
theorem slot_partial {Q : (⟨4, ![8, 8, 16, 128]⟩ : Shape).Idx → EReal} {K V : (⟨4, ![8, 4096, 16, 128]⟩ : Shape).Idx → EReal}
    (hQ : ∀ i, ∃ x : ℝ, Q i = (x : EReal)) (hK : ∀ i, ∃ x : ℝ, K i = (x : EReal)) (hV : ∀ i, ∃ x : ℝ, V i = (x : EReal))
    {Kz Vz : Fin 4 → (⟨4, ![8, 1024, 16, 128]⟩ : Shape).Idx → EReal}
    (hKz : ∀ (z : Fin 4) (b : Fin 8) (k : Fin 1024) (h : Fin 16) (e : Fin 128),
      Kz z (ix4 b k h e) = K (ix4 b (blockEmb z k) h e))
    (hVz : ∀ (z : Fin 4) (b : Fin 8) (k : Fin 1024) (h : Fin 16) (e : Fin 128),
      Vz z (ix4 b k h e) = V (ix4 b (blockEmb z k) h e))
    (r : Fin 8) (z : Fin 4) (q : Fin 8) (h : Fin 16) (d : Fin 128) :
    PM Q Kz r z (ix3 q h (0 : Fin 1))
        = (((FlashMerge.partOf (realScore Q K r q h) (realVal V r h d) (keyBlock z)).m : ℝ) : EReal)
    ∧ PL Q Kz r z (ix3 q h (0 : Fin 1))
        = (((FlashMerge.partOf (realScore Q K r q h) (realVal V r h d) (keyBlock z)).l : ℝ) : EReal)
    ∧ PO Q Kz Vz r z (ix3 q h d)
        = (((FlashMerge.partOf (realScore Q K r q h) (realVal V r h d) (keyBlock z)).o : ℝ) : EReal) := by
  rw [PM_apply, PL_apply, PO_apply]
  exact localPartial_coe hQ hK hV (hKz z) (hVz z) r q h d

/-- A SLOT AS A PARTIAL. Three loaded slot vectors `m`, `l`, `o` that read the slot of row `r` and plane `z` hold, for
    query `q`, head `h` and feature `d`, the (coerced) softmax partial of key block `z`. -/
theorem slotP_eq_partOf {Q : (⟨4, ![8, 8, 16, 128]⟩ : Shape).Idx → EReal} {K V : (⟨4, ![8, 4096, 16, 128]⟩ : Shape).Idx → EReal}
    (hQ : ∀ i, ∃ x : ℝ, Q i = (x : EReal)) (hK : ∀ i, ∃ x : ℝ, K i = (x : EReal)) (hV : ∀ i, ∃ x : ℝ, V i = (x : EReal))
    {Kz Vz : Fin 4 → (⟨4, ![8, 1024, 16, 128]⟩ : Shape).Idx → EReal}
    (hKz : ∀ (z : Fin 4) (b : Fin 8) (k : Fin 1024) (h : Fin 16) (e : Fin 128),
      Kz z (ix4 b k h e) = K (ix4 b (blockEmb z k) h e))
    (hVz : ∀ (z : Fin 4) (b : Fin 8) (k : Fin 1024) (h : Fin 16) (e : Fin 128),
      Vz z (ix4 b k h e) = V (ix4 b (blockEmb z k) h e))
    (r : Fin 8) (z : Fin 4) (m l : S1x8x16x1.Idx → EReal) (o : S1x8x16x128.Idx → EReal)
    (hm : ∀ (q : Fin 8) (h : Fin 16), m (ix4 (0 : Fin 1) q h (0 : Fin 1)) = PM Q Kz r z (ix3 q h (0 : Fin 1)))
    (hl : ∀ (q : Fin 8) (h : Fin 16), l (ix4 (0 : Fin 1) q h (0 : Fin 1)) = PL Q Kz r z (ix3 q h (0 : Fin 1)))
    (ho : ∀ (q : Fin 8) (h : Fin 16) (d : Fin 128), o (ix4 (0 : Fin 1) q h d) = PO Q Kz Vz r z (ix3 q h d))
    (q : Fin 8) (h : Fin 16) (d : Fin 128) :
    slotP m l o q h d = (FlashMerge.partOf (realScore Q K r q h) (realVal V r h d) (keyBlock z)).toE := by
  obtain ⟨e1, e2, e3⟩ := slot_partial hQ hK hV hKz hVz r z q h d
  exact slotP_of m l o q h d _ _ _ ((hm q h).trans e1) ((hl q h).trans e2) ((ho q h d).trans e3)

/-! ## The merged row is the specification -/

/-- On a device of plane `z` slot `j` holds the block of plane `z - j`: the four blocks so met are distinct. -/
theorem ring_slots_nodup (z : Fin 4) : ((z - 0) :: [z - 1, z - 2, z - 3]).Nodup := by
  revert z
  decide

/-- And they are all four blocks. -/
theorem ring_slots_complete (z j : Fin 4) : j ∈ (z - 0) :: [z - 1, z - 2, z - 3] := by
  revert z j
  decide

/-- THE MERGED ROW IS THE SPECIFICATION. With real entries, and blocks that read the whole arrays at the keys `1024 * z + k`:
    on a device of row `r` and ANY plane `z`, if slot `j` reads the slot of plane `z - j`, then the four slots merged from
    the left and divided are, at `(0, q, h, d)`, the reference's specification at `(r, q, h, d)`. -/
theorem merged_eq_ref_of_slots {Q : (⟨4, ![8, 8, 16, 128]⟩ : Shape).Idx → EReal}
    {K V : (⟨4, ![8, 4096, 16, 128]⟩ : Shape).Idx → EReal}
    (hQ : ∀ i, ∃ x : ℝ, Q i = (x : EReal)) (hK : ∀ i, ∃ x : ℝ, K i = (x : EReal)) (hV : ∀ i, ∃ x : ℝ, V i = (x : EReal))
    {Kz Vz : Fin 4 → (⟨4, ![8, 1024, 16, 128]⟩ : Shape).Idx → EReal}
    (hKz : ∀ (z : Fin 4) (b : Fin 8) (k : Fin 1024) (h : Fin 16) (e : Fin 128),
      Kz z (ix4 b k h e) = K (ix4 b (blockEmb z k) h e))
    (hVz : ∀ (z : Fin 4) (b : Fin 8) (k : Fin 1024) (h : Fin 16) (e : Fin 128),
      Vz z (ix4 b k h e) = V (ix4 b (blockEmb z k) h e))
    (r : Fin 8) (z : Fin 4) (m l : Fin 4 → S1x8x16x1.Idx → EReal) (o : Fin 4 → S1x8x16x128.Idx → EReal)
    (hm : ∀ (j : Fin 4) (q : Fin 8) (h : Fin 16),
      m j (ix4 (0 : Fin 1) q h (0 : Fin 1)) = PM Q Kz r (z - j) (ix3 q h (0 : Fin 1)))
    (hl : ∀ (j : Fin 4) (q : Fin 8) (h : Fin 16),
      l j (ix4 (0 : Fin 1) q h (0 : Fin 1)) = PL Q Kz r (z - j) (ix3 q h (0 : Fin 1)))
    (ho : ∀ (j : Fin 4) (q : Fin 8) (h : Fin 16) (d : Fin 128),
      o j (ix4 (0 : Fin 1) q h d) = PO Q Kz Vz r (z - j) (ix3 q h d))
    (u : Fin 1) (q : Fin 8) (h : Fin 16) (d : Fin 128) :
    merged (F := Ideal) (m 0) (l 0) (o 0) (m 1) (l 1) (o 1) (m 2) (l 2) (o 2) (m 3) (l 3) (o 3) (ix4 u q h d)
      = refG Q K V (ix4 r q h d) := by
  rw [merged_apply_of m l o u q h d
    (fun j => (FlashMerge.partOf (realScore Q K r q h) (realVal V r h d) (keyBlock (z - j))).toE)
    (fun j => slotP_eq_partOf hQ hK hV hKz hVz r (z - j) (m j) (l j) (o j) (hm j) (hl j) (ho j) q h d)]
  exact merged_eq_ref hQ hK hV r q h d (z - 0) [z - 1, z - 2, z - 3] (ring_slots_nodup z) (ring_slots_complete z)

/-! ## The same with the slot vectors written out -/

/-- The maxima of the slot of plane `z'` as a loaded vector `[1, 8, 16, 1]`. -/
def slotMv (Q : (⟨4, ![8, 8, 16, 128]⟩ : Shape).Idx → EReal) (Kz : Fin 4 → (⟨4, ![8, 1024, 16, 128]⟩ : Shape).Idx → EReal)
    (r : Fin 8) (z' : Fin 4) : S1x8x16x1.Idx → EReal :=
  fun y => PM Q Kz r z' (ix3 (y 1 : Fin 8) (y 2 : Fin 16) (y 3 : Fin 1))

/-- The exponential sums of the slot of plane `z'` as a loaded vector `[1, 8, 16, 1]`. -/
def slotLv (Q : (⟨4, ![8, 8, 16, 128]⟩ : Shape).Idx → EReal) (Kz : Fin 4 → (⟨4, ![8, 1024, 16, 128]⟩ : Shape).Idx → EReal)
    (r : Fin 8) (z' : Fin 4) : S1x8x16x1.Idx → EReal :=
  fun y => PL Q Kz r z' (ix3 (y 1 : Fin 8) (y 2 : Fin 16) (y 3 : Fin 1))

/-- The weighted sums of the slot of plane `z'` as a loaded vector `[1, 8, 16, 128]`. -/
def slotOv (Q : (⟨4, ![8, 8, 16, 128]⟩ : Shape).Idx → EReal) (Kz Vz : Fin 4 → (⟨4, ![8, 1024, 16, 128]⟩ : Shape).Idx → EReal)
    (r : Fin 8) (z' : Fin 4) : S1x8x16x128.Idx → EReal :=
  fun y => PO Q Kz Vz r z' (ix3 (y 1 : Fin 8) (y 2 : Fin 16) (y 3 : Fin 128))

/-- The slot of plane `z'`, as loaded vectors, holds the partial of key block `z'`. -/
theorem slotP_slot_vectors {Q : (⟨4, ![8, 8, 16, 128]⟩ : Shape).Idx → EReal}
    {K V : (⟨4, ![8, 4096, 16, 128]⟩ : Shape).Idx → EReal}
    (hQ : ∀ i, ∃ x : ℝ, Q i = (x : EReal)) (hK : ∀ i, ∃ x : ℝ, K i = (x : EReal)) (hV : ∀ i, ∃ x : ℝ, V i = (x : EReal))
    {Kz Vz : Fin 4 → (⟨4, ![8, 1024, 16, 128]⟩ : Shape).Idx → EReal}
    (hKz : ∀ (z : Fin 4) (b : Fin 8) (k : Fin 1024) (h : Fin 16) (e : Fin 128),
      Kz z (ix4 b k h e) = K (ix4 b (blockEmb z k) h e))
    (hVz : ∀ (z : Fin 4) (b : Fin 8) (k : Fin 1024) (h : Fin 16) (e : Fin 128),
      Vz z (ix4 b k h e) = V (ix4 b (blockEmb z k) h e))
    (r : Fin 8) (z' : Fin 4) (q : Fin 8) (h : Fin 16) (d : Fin 128) :
    slotP (slotMv Q Kz r z') (slotLv Q Kz r z') (slotOv Q Kz Vz r z') q h d
      = (FlashMerge.partOf (realScore Q K r q h) (realVal V r h d) (keyBlock z')).toE :=
  slotP_eq_partOf hQ hK hV hKz hVz r z' _ _ _ (fun _ _ => rfl) (fun _ _ => rfl) (fun _ _ _ => rfl) q h d

/-- THE MERGED ROW of the slot vectors of the planes `z`, `z - 1`, `z - 2`, `z - 3` is the specification at row `r`. -/
theorem merged_slot_vectors_eq_ref {Q : (⟨4, ![8, 8, 16, 128]⟩ : Shape).Idx → EReal}
    {K V : (⟨4, ![8, 4096, 16, 128]⟩ : Shape).Idx → EReal}
    (hQ : ∀ i, ∃ x : ℝ, Q i = (x : EReal)) (hK : ∀ i, ∃ x : ℝ, K i = (x : EReal)) (hV : ∀ i, ∃ x : ℝ, V i = (x : EReal))
    {Kz Vz : Fin 4 → (⟨4, ![8, 1024, 16, 128]⟩ : Shape).Idx → EReal}
    (hKz : ∀ (z : Fin 4) (b : Fin 8) (k : Fin 1024) (h : Fin 16) (e : Fin 128),
      Kz z (ix4 b k h e) = K (ix4 b (blockEmb z k) h e))
    (hVz : ∀ (z : Fin 4) (b : Fin 8) (k : Fin 1024) (h : Fin 16) (e : Fin 128),
      Vz z (ix4 b k h e) = V (ix4 b (blockEmb z k) h e))
    (r : Fin 8) (z : Fin 4) (u : Fin 1) (q : Fin 8) (h : Fin 16) (d : Fin 128) :
    merged (F := Ideal)
        (slotMv Q Kz r (z - 0)) (slotLv Q Kz r (z - 0)) (slotOv Q Kz Vz r (z - 0))
        (slotMv Q Kz r (z - 1)) (slotLv Q Kz r (z - 1)) (slotOv Q Kz Vz r (z - 1))
        (slotMv Q Kz r (z - 2)) (slotLv Q Kz r (z - 2)) (slotOv Q Kz Vz r (z - 2))
        (slotMv Q Kz r (z - 3)) (slotLv Q Kz r (z - 3)) (slotOv Q Kz Vz r (z - 3)) (ix4 u q h d)
      = refG Q K V (ix4 r q h d) :=
  merged_eq_ref_of_slots hQ hK hV hKz hVz r z (fun j => slotMv Q Kz r (z - j)) (fun j => slotLv Q Kz r (z - j))
    (fun j => slotOv Q Kz Vz r (z - j)) (fun _ _ _ => rfl) (fun _ _ _ => rfl) (fun _ _ _ _ => rfl) u q h d

/-- info: 'Cert.Proof.ValueBridge.merged_eq_ref_of_slots' depends on axioms: [propext, Classical.choice, Quot.sound] -/
#guard_msgs in #print axioms merged_eq_ref_of_slots

end Cert.Proof.ValueBridge

end
-- ==== Proof.FinalLoads.lean ====
/-
  What the heads of a device read. A head loads a block of the staged queries and a column of the device's row of keys
  and of values; the staged queries are the device's query array, and the row of keys (values) is row `r` of the
  device's block of the key (value) array, `r` the batch row the device serves. Read index by index: the query block of
  head `i` is the queries of row `r` and head `i`, the key column of head `i` is the keys of row `r` and head `i` of the
  device's block.
-/
import proofs.«900429_g7700000000000430_dist_flashdec_v7x_xyz2x4x4_z_b8_sq8_skv1024_h16_d128_f32_1_alg».proof.Proof.Data
import proofs.«900429_g7700000000000430_dist_flashdec_v7x_xyz2x4x4_z_b8_sq8_skv1024_h16_d128_f32_1_alg».proof.Proof.ValueBridge
import Idealize.ShloMosaic.Lib.ValueIdx
import Idealize.ShloMosaic.Lib.ValueLayout
import Idealize.ShloMosaic.Lib.Layout

noncomputable section

namespace Cert.Proof.FinalLoads

open Cert.KernelIdeal Cert.KernelIdeal.Gen Cert.KernelIdeal.Mesh Cert.KernelIdeal.FD
open Idealize.ShloMosaic Idealize.ShloMosaic.TcCoe Idealize.ShloMosaic.ValueIdx Cert.Proof.ValueBridge

variable (m : (ℓ : Loc nD τ sig) → Buf (Elt Ideal) ℓ)

/-- The batch row a device serves, as a row number of the arrays. -/
def rowF (e : Dev nD) : Fin 8 := ⟨Mesh.row e, Mesh.row_lt e⟩

/-! ## The staged queries -/

/-- A load of a `[1, 8, 1, 128]` block of the staged queries at offsets `off` reads the device's query array at those
    offsets plus the block's index. -/
theorem qload_apply (e : Dev nD) (off : Fin 4 → ℕ) (inb : ∀ a, off a + S1x8x1x128.size a ≤ S8x8x16x128.size a)
    (y : S1x8x1x128.Idx) (j : S8x8x16x128.Idx) (hj : ∀ a, (j a).val = off a + (y a).val) :
    qM.view.readAt (Elt Ideal) (Rect.unit (s := S8x8x16x128) off S1x8x1x128.size inb).toLoadRect
        (qstg m e : Buf (Elt Ideal) (qM.view.loc (e : Thread nD τ))) y
      = m ((e : Thread nD τ).loc main_arg0) j := by
  show m ((e : Thread nD τ).loc main_arg0) _ = m ((e : Thread nD τ).loc main_arg0) j
  congr 1
  funext a
  apply Fin.ext
  rw [hj a]
  show (0 : ℕ) * S8x8x16x128.size a + 1 * (off a + 1 * (y a).val) = off a + (y a).val
  omega

/-- The block of head `i` at the device's row: the load at offsets `(row, 0, i, 0)` is the query block of that row and head. -/
theorem qload_eq (e : Dev nD) (Q : S8x8x16x128.Idx → EReal) (hQ : m ((e : Thread nD τ).loc main_arg0) = Q) (i : Fin 16)
    (off : Fin 4 → ℕ) (inb : ∀ a, off a + S1x8x1x128.size a ≤ S8x8x16x128.size a)
    (hoff : off = ![Mesh.row e, 0, i.val, 0]) :
    qM.view.readAt (Elt Ideal) (Rect.unit (s := S8x8x16x128) off S1x8x1x128.size inb).toLoadRect
        (qstg m e : Buf (Elt Ideal) (qM.view.loc (e : Thread nD τ)))
      = fun y : S1x8x1x128.Idx => Q (ix4 (rowF e) (y 1 : Fin 8) i (y 3 : Fin 128)) := by
  funext y
  rw [qload_apply m e off inb y (ix4 (rowF e) (y 1 : Fin 8) i (y 3 : Fin 128)) (fun a => by
    subst hoff
    have h0 : (y 0).val < 1 := (y 0).isLt
    have h2 : (y 2).val < 1 := (y 2).isLt
    match a with
    | ⟨0, _⟩ => show Mesh.row e = Mesh.row e + (y 0).val; omega
    | ⟨1, _⟩ => show (y 1).val = 0 + (y 1).val; omega
    | ⟨2, _⟩ => show i.val = i.val + (y 2).val; omega
    | ⟨3, _⟩ => show (y 3).val = 0 + (y 3).val; omega), hQ]

/-! ## The device's row of keys and of values -/

/-- Where the device's row of keys lies in its key array: entry `(k, h, d)` of the row is entry `(row, k, h, d)` of the array. -/
theorem kSrc_emb (e : Dev nD) (k : Fin 1024) (h : Fin 16) (d : Fin 128) :
    (kSrc e).view.emb (ix3 k h d) = ix4 (rowF e) k h d := by
  show (Rect.unit (s := S8x1024x16x128) (k0_off1 e) S1x1024x16x128.size (k0_off1_inb e)).emb
      (Shape.reshapeEquiv squeezes_S1x1024x16x128_S1024x16x128.numel_eq (ix3 k h d)) = _
  rw [reshapeEquiv_ix3_1abc]
  have h0 : k0_off1 e 0 = Mesh.row e := by rw [k0_off1_eq e]; rfl
  have h1 : k0_off1 e 1 = 0 := by rw [k0_off1_eq e]; rfl
  have h2 : k0_off1 e 2 = 0 := by rw [k0_off1_eq e]; rfl
  have h3 : k0_off1 e 3 = 0 := by rw [k0_off1_eq e]; rfl
  funext a
  apply Fin.ext
  rw [Rect.emb_apply]
  match a with
  | ⟨0, _⟩ => show k0_off1 e 0 + 1 * 0 = Mesh.row e; omega
  | ⟨1, _⟩ => show k0_off1 e 1 + 1 * k.val = k.val; omega
  | ⟨2, _⟩ => show k0_off1 e 2 + 1 * h.val = h.val; omega
  | ⟨3, _⟩ => show k0_off1 e 3 + 1 * d.val = d.val; omega

/-- The same for the values. -/
theorem vSrc_emb (e : Dev nD) (k : Fin 1024) (h : Fin 16) (d : Fin 128) :
    (vSrc e).view.emb (ix3 k h d) = ix4 (rowF e) k h d := by
  show (Rect.unit (s := S8x1024x16x128) (k0_off1 e) S1x1024x16x128.size (k0_off1_inb e)).emb
      (Shape.reshapeEquiv squeezes_S1x1024x16x128_S1024x16x128.numel_eq (ix3 k h d)) = _
  rw [reshapeEquiv_ix3_1abc]
  have h0 : k0_off1 e 0 = Mesh.row e := by rw [k0_off1_eq e]; rfl
  have h1 : k0_off1 e 1 = 0 := by rw [k0_off1_eq e]; rfl
  have h2 : k0_off1 e 2 = 0 := by rw [k0_off1_eq e]; rfl
  have h3 : k0_off1 e 3 = 0 := by rw [k0_off1_eq e]; rfl
  funext a
  apply Fin.ext
  rw [Rect.emb_apply]
  match a with
  | ⟨0, _⟩ => show k0_off1 e 0 + 1 * 0 = Mesh.row e; omega
  | ⟨1, _⟩ => show k0_off1 e 1 + 1 * k.val = k.val; omega
  | ⟨2, _⟩ => show k0_off1 e 2 + 1 * h.val = h.val; omega
  | ⟨3, _⟩ => show k0_off1 e 3 + 1 * d.val = d.val; omega

/-- The device's row of keys, read from the launch memory: at `(k, h, d)` the device's key array at `(row, k, h, d)`. -/
theorem kSrc_read_apply (e : Dev nD) (k : Fin 1024) (h : Fin 16) (d : Fin 128) :
    (kSrc e).view.read (Elt Ideal) (m ((kSrc e).view.loc (e : Thread nD τ))) (ix3 k h d)
      = m ((e : Thread nD τ).loc main_arg1) (ix4 (rowF e) k h d) := by
  show m ((e : Thread nD τ).loc main_arg1) ((kSrc e).view.emb (ix3 k h d)) = _
  rw [kSrc_emb]

/-- The device's row of values, read from the launch memory. -/
theorem vSrc_read_apply (e : Dev nD) (k : Fin 1024) (h : Fin 16) (d : Fin 128) :
    (vSrc e).view.read (Elt Ideal) (m ((vSrc e).view.loc (e : Thread nD τ))) (ix3 k h d)
      = m ((e : Thread nD τ).loc main_arg2) (ix4 (rowF e) k h d) := by
  show m ((e : Thread nD τ).loc main_arg2) ((vSrc e).view.emb (ix3 k h d)) = _
  rw [vSrc_emb]

/-- A load of a column `[1024, 1, 128]` at offsets `(0, i, 0)` from the key scratch buffer holding a row `f` of keys reads, at
    `(k, 0, d)`, the row at `(k, i, d)`. -/
theorem kcol_load_apply (e : Dev nD) (f : S1024x16x128.Idx → EReal) (i : Fin 16) (off : Fin 3 → ℕ)
    (inb : ∀ a, off a + S1024x1x128.size a ≤ S1024x16x128.size a) (hoff : off = ![0, i.val, 0]) (y : S1024x1x128.Idx) :
    kM.view.readAt (Elt Ideal) (Rect.unit (s := S1024x16x128) off S1024x1x128.size inb).toLoadRect
        (f : Buf (Elt Ideal) (kM.view.loc (e : Thread nD τ))) y
      = f (ix3 (y 0 : Fin 1024) i (y 2 : Fin 128)) := by
  subst hoff
  have h1 : (y 1).val < 1 := (y 1).isLt
  show f _ = f _
  congr 1
  funext a
  apply Fin.ext
  match a with
  | ⟨0, _⟩ => show 0 + 1 * (y 0).val = (y 0).val; omega
  | ⟨1, _⟩ => show i.val + 1 * (y 1).val = i.val; omega
  | ⟨2, _⟩ => show 0 + 1 * (y 2).val = (y 2).val; omega

/-- The same from the value scratch buffer. -/
theorem vcol_load_apply (e : Dev nD) (f : S1024x16x128.Idx → EReal) (i : Fin 16) (off : Fin 3 → ℕ)
    (inb : ∀ a, off a + S1024x1x128.size a ≤ S1024x16x128.size a) (hoff : off = ![0, i.val, 0]) (y : S1024x1x128.Idx) :
    vM.view.readAt (Elt Ideal) (Rect.unit (s := S1024x16x128) off S1024x1x128.size inb).toLoadRect
        (f : Buf (Elt Ideal) (vM.view.loc (e : Thread nD τ))) y
      = f (ix3 (y 0 : Fin 1024) i (y 2 : Fin 128)) := by
  subst hoff
  have h1 : (y 1).val < 1 := (y 1).isLt
  show f _ = f _
  congr 1
  funext a
  apply Fin.ext
  match a with
  | ⟨0, _⟩ => show 0 + 1 * (y 0).val = (y 0).val; omega
  | ⟨1, _⟩ => show i.val + 1 * (y 1).val = i.val; omega
  | ⟨2, _⟩ => show 0 + 1 * (y 2).val = (y 2).val; omega

/-! ## The three loads of a head as the blocks of the specification -/

/-- THE QUERY BLOCK of head `i`: the load of the staged queries at offsets `(row, 0, i, 0)` is the query block of the device's
    row and head `i` of the device's query array `Q`. -/
theorem qAt_eq (e : Dev nD) (Q : S8x8x16x128.Idx → EReal) (hQ : m ((e : Thread nD τ).loc main_arg0) = Q) (i : Fin 16)
    (off : Fin 4 → ℕ) (inb : ∀ a, off a + S1x8x1x128.size a ≤ S8x8x16x128.size a)
    (hoff : off = ![Mesh.row e, 0, i.val, 0]) :
    qAt (F := Ideal) e (qstg m e : Bf (F := Ideal) e qM) off inb = qblk Q (rowF e) i :=
  qload_eq m e Q hQ i off inb hoff

/-- The device's row of keys at `(k, h, d)` is its key array at `(row, k, h, d)`. -/
theorem kinD_apply (e : Dev nD) (k : Fin 1024) (h : Fin 16) (d : Fin 128) :
    kinD m e (ix3 k h d) = m ((e : Thread nD τ).loc main_arg1) (ix4 (rowF e) k h d) := kSrc_read_apply m e k h d

/-- The device's row of values at `(k, h, d)` is its value array at `(row, k, h, d)`. -/
theorem vinD_apply (e : Dev nD) (k : Fin 1024) (h : Fin 16) (d : Fin 128) :
    vinD m e (ix3 k h d) = m ((e : Thread nD τ).loc main_arg2) (ix4 (rowF e) k h d) := vSrc_read_apply m e k h d

/-- THE KEY COLUMN of head `i`: the load at offsets `(0, i, 0)` of the device's row of keys is the column of the device's row
    and head `i` of the device's key array `Kd`. -/
theorem kAt_eq (e : Dev nD) (Kd : S8x1024x16x128.Idx → EReal) (hKd : m ((e : Thread nD τ).loc main_arg1) = Kd) (i : Fin 16)
    (off : Fin 3 → ℕ) (inb : ∀ a, off a + S1024x1x128.size a ≤ S1024x16x128.size a) (hoff : off = ![0, i.val, 0]) :
    kAt (F := Ideal) e (kinD m e : Bf (F := Ideal) e kM) off inb = kcol Kd (rowF e) i := by
  funext y
  show kM.view.readAt (Elt Ideal) (Rect.unit (s := S1024x16x128) off S1024x1x128.size inb).toLoadRect
      (kinD m e : Buf (Elt Ideal) (kM.view.loc (e : Thread nD τ))) y = _
  rw [kcol_load_apply e (kinD m e) i off inb hoff y]
  exact (kinD_apply m e (y 0 : Fin 1024) i (y 2 : Fin 128)).trans (congrFun hKd _)

/-- THE VALUE COLUMN of head `i`, likewise, of the device's value array `Vd`. -/
theorem vAt_eq (e : Dev nD) (Vd : S8x1024x16x128.Idx → EReal) (hVd : m ((e : Thread nD τ).loc main_arg2) = Vd) (i : Fin 16)
    (off : Fin 3 → ℕ) (inb : ∀ a, off a + S1024x1x128.size a ≤ S1024x16x128.size a) (hoff : off = ![0, i.val, 0]) :
    vAt (F := Ideal) e (vinD m e : Bf (F := Ideal) e vM) off inb = kcol Vd (rowF e) i := by
  funext y
  show vM.view.readAt (Elt Ideal) (Rect.unit (s := S1024x16x128) off S1024x1x128.size inb).toLoadRect
      (vinD m e : Buf (Elt Ideal) (vM.view.loc (e : Thread nD τ))) y = _
  rw [vcol_load_apply e (vinD m e) i off inb hoff y]
  exact (vinD_apply m e (y 0 : Fin 1024) i (y 2 : Fin 128)).trans (congrFun hVd _)

end Cert.Proof.FinalLoads

end
-- ==== Proof.FinalValue.lean ====
/-
  The gathered result of the devices is the reference's specification.

  Every device holds the queries and, of the keys and the values, the block of its plane. Head by head a device computes,
  from the query block and the key and value columns of the row it serves, the three arrays of one slot; the stored block of
  a head is the head's arithmetic of its three loads, and the loads are the blocks of the specification, so a device's slot
  is the slot of its row and plane. The ring brings to a device the slots of the three devices before it, which serve the
  same row one, two and three planes back; merged, the four slots are the specification at that row, whatever the plane.
  The gathered result of a plane takes row `b` from the plane's device that serves `b`. The precondition makes every entry
  a real number, which the merge law needs.
-/
import proofs.«900429_g7700000000000430_dist_flashdec_v7x_xyz2x4x4_z_b8_sq8_skv1024_h16_d128_f32_1_alg».proof.Proof.Data
import proofs.«900429_g7700000000000430_dist_flashdec_v7x_xyz2x4x4_z_b8_sq8_skv1024_h16_d128_f32_1_alg».proof.Proof.ValueBridge
import proofs.«900429_g7700000000000430_dist_flashdec_v7x_xyz2x4x4_z_b8_sq8_skv1024_h16_d128_f32_1_alg».proof.Proof.FinalLoads
import Idealize.ShloMosaic.Lib.ValueIdx
import Idealize.ShloMosaic.Lib.Layout

noncomputable section

namespace Cert.Proof.FinalValue

open Cert.KernelIdeal Cert.KernelIdeal.Gen Cert.KernelIdeal.Mesh Cert.KernelIdeal.FD Cert.KernelIdeal.HeadValue
open Idealize.ShloMosaic Idealize.ShloMosaic.TcCoe Idealize.ShloMosaic.ValueIdx
open Cert.Proof.RefValue Cert.Proof.ValueBridge Cert.Proof.FinalLoads
open Cert.Proof.BlockValue (plane blockEmb keysBlock_apply)

/-! ## The blocks of the planes -/

/-- The block of plane `z` of an array of the 4096 keys: at `(b, k, h, e)` the array at key `1024 * z + k`. -/
def Kz (K : (⟨4, ![8, 4096, 16, 128]⟩ : Shape).Idx → EReal) (z : Fin 4) : (⟨4, ![8, 1024, 16, 128]⟩ : Shape).Idx → EReal :=
  fun i => K (ix4 (i 0 : Fin 8) (blockEmb z (i 1 : Fin 1024)) (i 2 : Fin 16) (i 3 : Fin 128))

theorem Kz_apply (K : (⟨4, ![8, 4096, 16, 128]⟩ : Shape).Idx → EReal) (z : Fin 4) (b : Fin 8) (k : Fin 1024) (h : Fin 16)
    (e : Fin 128) : Kz K z (ix4 b k h e) = K (ix4 b (blockEmb z k) h e) := rfl

section Core

variable (m : (ℓ : Loc nD τ sig) → Buf (Elt Ideal) ℓ)
variable (Q : (⟨4, ![8, 8, 16, 128]⟩ : Shape).Idx → EReal) (K V : (⟨4, ![8, 4096, 16, 128]⟩ : Shape).Idx → EReal)

/-- A device's key array is the block of its plane. -/
theorem argK_eq
    (hKm : ∀ e : Dev nD, m ((e : Thread nD τ).loc main_arg1)
      = Layout.blockN ⟨4, ![8, 1024, 16, 128]⟩ ⟨4, ![8, 4096, 16, 128]⟩ (Layout.meshBlock [2, 4, 4] ![[], [2], [], []] e) K)
    (e : Dev nD) : m ((e : Thread nD τ).loc main_arg1) = Kz K (plane e) := by
  funext i
  obtain ⟨b, k, h, d, rfl⟩ : ∃ (b : Fin 8) (k : Fin 1024) (h : Fin 16) (d : Fin 128), i = ix4 b k h d :=
    ⟨i 0, i 1, i 2, i 3, eq_ix4 i⟩
  rw [hKm e]
  exact keysBlock_apply e K b k h d

/-- A device's value array is the block of its plane. -/
theorem argV_eq
    (hVm : ∀ e : Dev nD, m ((e : Thread nD τ).loc main_arg2)
      = Layout.blockN ⟨4, ![8, 1024, 16, 128]⟩ ⟨4, ![8, 4096, 16, 128]⟩ (Layout.meshBlock [2, 4, 4] ![[], [2], [], []] e) V)
    (e : Dev nD) : m ((e : Thread nD τ).loc main_arg2) = Kz V (plane e) := by
  funext i
  obtain ⟨b, k, h, d, rfl⟩ : ∃ (b : Fin 8) (k : Fin 1024) (h : Fin 16) (d : Fin 128), i = ix4 b k h d :=
    ⟨i 0, i 1, i 2, i 3, eq_ix4 i⟩
  rw [hVm e]
  exact keysBlock_apply e V b k h d

variable (hQm : ∀ e : Dev nD, m ((e : Thread nD τ).loc main_arg0) = Q)
variable (hKm : ∀ e : Dev nD, m ((e : Thread nD τ).loc main_arg1)
      = Layout.blockN ⟨4, ![8, 1024, 16, 128]⟩ ⟨4, ![8, 4096, 16, 128]⟩ (Layout.meshBlock [2, 4, 4] ![[], [2], [], []] e) K)
variable (hVm : ∀ e : Dev nD, m ((e : Thread nD τ).loc main_arg2)
      = Layout.blockN ⟨4, ![8, 1024, 16, 128]⟩ ⟨4, ![8, 4096, 16, 128]⟩ (Layout.meshBlock [2, 4, 4] ![[], [2], [], []] e) V)

/-! ## What a device computes is the slot of its row and plane

Head by head: the stored block of head `i` is the head's arithmetic of its three loads, and the three loads are the
query block and the key and value columns of the device's row and head `i`. -/

set_option maxRecDepth 65536 in
include hQm hKm in
/-- The row maxima a device computes are the maxima of the slot of its row and plane. -/
theorem vmD_eq (e : Dev nD) (q : Fin 8) (h : Fin 16) :
    vmD m e (ix3 q h (0 : Fin 1)) = PM Q (Kz K) (rowF e) (plane e) (ix3 q h (0 : Fin 1)) :=
  match h with
  | ⟨0, hh⟩ =>
    calc vmD m e (ix3 q ⟨0, hh⟩ (0 : Fin 1))
        = headM (F := Ideal) (qAt (F := Ideal) e (qstg m e : Bf (F := Ideal) e qM) (k0_off2 e) (k0_off2_inb e)) (kAt (F := Ideal) e (kinD m e : Bf (F := Ideal) e kM) ![0, 0, 0] inb_S1024x16x128_S1024x1x128_0_0_0) (ix4 (0 : Fin 1) q (0 : Fin 1) (0 : Fin 1)) := rfl
      _ = _ := by rw [qAt_eq m e Q (hQm e) ⟨0, hh⟩ (k0_off2 e) (k0_off2_inb e) (k0_off2_eq e), kAt_eq m e (Kz K (plane e)) (argK_eq m K hKm e) ⟨0, hh⟩ ![0, 0, 0] inb_S1024x16x128_S1024x1x128_0_0_0 rfl]; rfl
  | ⟨1, hh⟩ =>
    calc vmD m e (ix3 q ⟨1, hh⟩ (0 : Fin 1))
        = headM (F := Ideal) (qAt (F := Ideal) e (qstg m e : Bf (F := Ideal) e qM) (k0_off3 e) (k0_off3_inb e)) (kAt (F := Ideal) e (kinD m e : Bf (F := Ideal) e kM) ![0, 1, 0] inb_S1024x16x128_S1024x1x128_0_1_0) (ix4 (0 : Fin 1) q (0 : Fin 1) (0 : Fin 1)) := rfl
      _ = _ := by rw [qAt_eq m e Q (hQm e) ⟨1, hh⟩ (k0_off3 e) (k0_off3_inb e) (k0_off3_eq e), kAt_eq m e (Kz K (plane e)) (argK_eq m K hKm e) ⟨1, hh⟩ ![0, 1, 0] inb_S1024x16x128_S1024x1x128_0_1_0 rfl]; rfl
  | ⟨2, hh⟩ =>
    calc vmD m e (ix3 q ⟨2, hh⟩ (0 : Fin 1))
        = headM (F := Ideal) (qAt (F := Ideal) e (qstg m e : Bf (F := Ideal) e qM) (k0_off4 e) (k0_off4_inb e)) (kAt (F := Ideal) e (kinD m e : Bf (F := Ideal) e kM) ![0, 2, 0] inb_S1024x16x128_S1024x1x128_0_2_0) (ix4 (0 : Fin 1) q (0 : Fin 1) (0 : Fin 1)) := rfl
      _ = _ := by rw [qAt_eq m e Q (hQm e) ⟨2, hh⟩ (k0_off4 e) (k0_off4_inb e) (k0_off4_eq e), kAt_eq m e (Kz K (plane e)) (argK_eq m K hKm e) ⟨2, hh⟩ ![0, 2, 0] inb_S1024x16x128_S1024x1x128_0_2_0 rfl]; rfl
  | ⟨3, hh⟩ =>
    calc vmD m e (ix3 q ⟨3, hh⟩ (0 : Fin 1))
        = headM (F := Ideal) (qAt (F := Ideal) e (qstg m e : Bf (F := Ideal) e qM) (k0_off5 e) (k0_off5_inb e)) (kAt (F := Ideal) e (kinD m e : Bf (F := Ideal) e kM) ![0, 3, 0] inb_S1024x16x128_S1024x1x128_0_3_0) (ix4 (0 : Fin 1) q (0 : Fin 1) (0 : Fin 1)) := rfl
      _ = _ := by rw [qAt_eq m e Q (hQm e) ⟨3, hh⟩ (k0_off5 e) (k0_off5_inb e) (k0_off5_eq e), kAt_eq m e (Kz K (plane e)) (argK_eq m K hKm e) ⟨3, hh⟩ ![0, 3, 0] inb_S1024x16x128_S1024x1x128_0_3_0 rfl]; rfl
  | ⟨4, hh⟩ =>
    calc vmD m e (ix3 q ⟨4, hh⟩ (0 : Fin 1))
        = headM (F := Ideal) (qAt (F := Ideal) e (qstg m e : Bf (F := Ideal) e qM) (k0_off6 e) (k0_off6_inb e)) (kAt (F := Ideal) e (kinD m e : Bf (F := Ideal) e kM) ![0, 4, 0] inb_S1024x16x128_S1024x1x128_0_4_0) (ix4 (0 : Fin 1) q (0 : Fin 1) (0 : Fin 1)) := rfl
      _ = _ := by rw [qAt_eq m e Q (hQm e) ⟨4, hh⟩ (k0_off6 e) (k0_off6_inb e) (k0_off6_eq e), kAt_eq m e (Kz K (plane e)) (argK_eq m K hKm e) ⟨4, hh⟩ ![0, 4, 0] inb_S1024x16x128_S1024x1x128_0_4_0 rfl]; rfl
  | ⟨5, hh⟩ =>
    calc vmD m e (ix3 q ⟨5, hh⟩ (0 : Fin 1))
        = headM (F := Ideal) (qAt (F := Ideal) e (qstg m e : Bf (F := Ideal) e qM) (k0_off7 e) (k0_off7_inb e)) (kAt (F := Ideal) e (kinD m e : Bf (F := Ideal) e kM) ![0, 5, 0] inb_S1024x16x128_S1024x1x128_0_5_0) (ix4 (0 : Fin 1) q (0 : Fin 1) (0 : Fin 1)) := rfl
      _ = _ := by rw [qAt_eq m e Q (hQm e) ⟨5, hh⟩ (k0_off7 e) (k0_off7_inb e) (k0_off7_eq e), kAt_eq m e (Kz K (plane e)) (argK_eq m K hKm e) ⟨5, hh⟩ ![0, 5, 0] inb_S1024x16x128_S1024x1x128_0_5_0 rfl]; rfl
  | ⟨6, hh⟩ =>
    calc vmD m e (ix3 q ⟨6, hh⟩ (0 : Fin 1))
        = headM (F := Ideal) (qAt (F := Ideal) e (qstg m e : Bf (F := Ideal) e qM) (k0_off8 e) (k0_off8_inb e)) (kAt (F := Ideal) e (kinD m e : Bf (F := Ideal) e kM) ![0, 6, 0] inb_S1024x16x128_S1024x1x128_0_6_0) (ix4 (0 : Fin 1) q (0 : Fin 1) (0 : Fin 1)) := rfl
      _ = _ := by rw [qAt_eq m e Q (hQm e) ⟨6, hh⟩ (k0_off8 e) (k0_off8_inb e) (k0_off8_eq e), kAt_eq m e (Kz K (plane e)) (argK_eq m K hKm e) ⟨6, hh⟩ ![0, 6, 0] inb_S1024x16x128_S1024x1x128_0_6_0 rfl]; rfl
  | ⟨7, hh⟩ =>
    calc vmD m e (ix3 q ⟨7, hh⟩ (0 : Fin 1))
        = headM (F := Ideal) (qAt (F := Ideal) e (qstg m e : Bf (F := Ideal) e qM) (k0_off9 e) (k0_off9_inb e)) (kAt (F := Ideal) e (kinD m e : Bf (F := Ideal) e kM) ![0, 7, 0] inb_S1024x16x128_S1024x1x128_0_7_0) (ix4 (0 : Fin 1) q (0 : Fin 1) (0 : Fin 1)) := rfl
      _ = _ := by rw [qAt_eq m e Q (hQm e) ⟨7, hh⟩ (k0_off9 e) (k0_off9_inb e) (k0_off9_eq e), kAt_eq m e (Kz K (plane e)) (argK_eq m K hKm e) ⟨7, hh⟩ ![0, 7, 0] inb_S1024x16x128_S1024x1x128_0_7_0 rfl]; rfl
  | ⟨8, hh⟩ =>
    calc vmD m e (ix3 q ⟨8, hh⟩ (0 : Fin 1))
        = headM (F := Ideal) (qAt (F := Ideal) e (qstg m e : Bf (F := Ideal) e qM) (k0_off10 e) (k0_off10_inb e)) (kAt (F := Ideal) e (kinD m e : Bf (F := Ideal) e kM) ![0, 8, 0] inb_S1024x16x128_S1024x1x128_0_8_0) (ix4 (0 : Fin 1) q (0 : Fin 1) (0 : Fin 1)) := rfl
      _ = _ := by rw [qAt_eq m e Q (hQm e) ⟨8, hh⟩ (k0_off10 e) (k0_off10_inb e) (k0_off10_eq e), kAt_eq m e (Kz K (plane e)) (argK_eq m K hKm e) ⟨8, hh⟩ ![0, 8, 0] inb_S1024x16x128_S1024x1x128_0_8_0 rfl]; rfl
  | ⟨9, hh⟩ =>
    calc vmD m e (ix3 q ⟨9, hh⟩ (0 : Fin 1))
        = headM (F := Ideal) (qAt (F := Ideal) e (qstg m e : Bf (F := Ideal) e qM) (k0_off11 e) (k0_off11_inb e)) (kAt (F := Ideal) e (kinD m e : Bf (F := Ideal) e kM) ![0, 9, 0] inb_S1024x16x128_S1024x1x128_0_9_0) (ix4 (0 : Fin 1) q (0 : Fin 1) (0 : Fin 1)) := rfl
      _ = _ := by rw [qAt_eq m e Q (hQm e) ⟨9, hh⟩ (k0_off11 e) (k0_off11_inb e) (k0_off11_eq e), kAt_eq m e (Kz K (plane e)) (argK_eq m K hKm e) ⟨9, hh⟩ ![0, 9, 0] inb_S1024x16x128_S1024x1x128_0_9_0 rfl]; rfl
  | ⟨10, hh⟩ =>
    calc vmD m e (ix3 q ⟨10, hh⟩ (0 : Fin 1))
        = headM (F := Ideal) (qAt (F := Ideal) e (qstg m e : Bf (F := Ideal) e qM) (k0_off12 e) (k0_off12_inb e)) (kAt (F := Ideal) e (kinD m e : Bf (F := Ideal) e kM) ![0, 10, 0] inb_S1024x16x128_S1024x1x128_0_10_0) (ix4 (0 : Fin 1) q (0 : Fin 1) (0 : Fin 1)) := rfl
      _ = _ := by rw [qAt_eq m e Q (hQm e) ⟨10, hh⟩ (k0_off12 e) (k0_off12_inb e) (k0_off12_eq e), kAt_eq m e (Kz K (plane e)) (argK_eq m K hKm e) ⟨10, hh⟩ ![0, 10, 0] inb_S1024x16x128_S1024x1x128_0_10_0 rfl]; rfl
  | ⟨11, hh⟩ =>
    calc vmD m e (ix3 q ⟨11, hh⟩ (0 : Fin 1))
        = headM (F := Ideal) (qAt (F := Ideal) e (qstg m e : Bf (F := Ideal) e qM) (k0_off13 e) (k0_off13_inb e)) (kAt (F := Ideal) e (kinD m e : Bf (F := Ideal) e kM) ![0, 11, 0] inb_S1024x16x128_S1024x1x128_0_11_0) (ix4 (0 : Fin 1) q (0 : Fin 1) (0 : Fin 1)) := rfl
      _ = _ := by rw [qAt_eq m e Q (hQm e) ⟨11, hh⟩ (k0_off13 e) (k0_off13_inb e) (k0_off13_eq e), kAt_eq m e (Kz K (plane e)) (argK_eq m K hKm e) ⟨11, hh⟩ ![0, 11, 0] inb_S1024x16x128_S1024x1x128_0_11_0 rfl]; rfl
  | ⟨12, hh⟩ =>
    calc vmD m e (ix3 q ⟨12, hh⟩ (0 : Fin 1))
        = headM (F := Ideal) (qAt (F := Ideal) e (qstg m e : Bf (F := Ideal) e qM) (k0_off14 e) (k0_off14_inb e)) (kAt (F := Ideal) e (kinD m e : Bf (F := Ideal) e kM) ![0, 12, 0] inb_S1024x16x128_S1024x1x128_0_12_0) (ix4 (0 : Fin 1) q (0 : Fin 1) (0 : Fin 1)) := rfl
      _ = _ := by rw [qAt_eq m e Q (hQm e) ⟨12, hh⟩ (k0_off14 e) (k0_off14_inb e) (k0_off14_eq e), kAt_eq m e (Kz K (plane e)) (argK_eq m K hKm e) ⟨12, hh⟩ ![0, 12, 0] inb_S1024x16x128_S1024x1x128_0_12_0 rfl]; rfl
  | ⟨13, hh⟩ =>
    calc vmD m e (ix3 q ⟨13, hh⟩ (0 : Fin 1))
        = headM (F := Ideal) (qAt (F := Ideal) e (qstg m e : Bf (F := Ideal) e qM) (k0_off15 e) (k0_off15_inb e)) (kAt (F := Ideal) e (kinD m e : Bf (F := Ideal) e kM) ![0, 13, 0] inb_S1024x16x128_S1024x1x128_0_13_0) (ix4 (0 : Fin 1) q (0 : Fin 1) (0 : Fin 1)) := rfl
      _ = _ := by rw [qAt_eq m e Q (hQm e) ⟨13, hh⟩ (k0_off15 e) (k0_off15_inb e) (k0_off15_eq e), kAt_eq m e (Kz K (plane e)) (argK_eq m K hKm e) ⟨13, hh⟩ ![0, 13, 0] inb_S1024x16x128_S1024x1x128_0_13_0 rfl]; rfl
  | ⟨14, hh⟩ =>
    calc vmD m e (ix3 q ⟨14, hh⟩ (0 : Fin 1))
        = headM (F := Ideal) (qAt (F := Ideal) e (qstg m e : Bf (F := Ideal) e qM) (k0_off16 e) (k0_off16_inb e)) (kAt (F := Ideal) e (kinD m e : Bf (F := Ideal) e kM) ![0, 14, 0] inb_S1024x16x128_S1024x1x128_0_14_0) (ix4 (0 : Fin 1) q (0 : Fin 1) (0 : Fin 1)) := rfl
      _ = _ := by rw [qAt_eq m e Q (hQm e) ⟨14, hh⟩ (k0_off16 e) (k0_off16_inb e) (k0_off16_eq e), kAt_eq m e (Kz K (plane e)) (argK_eq m K hKm e) ⟨14, hh⟩ ![0, 14, 0] inb_S1024x16x128_S1024x1x128_0_14_0 rfl]; rfl
  | ⟨15, hh⟩ =>
    calc vmD m e (ix3 q ⟨15, hh⟩ (0 : Fin 1))
        = headM (F := Ideal) (qAt (F := Ideal) e (qstg m e : Bf (F := Ideal) e qM) (k0_off17 e) (k0_off17_inb e)) (kAt (F := Ideal) e (kinD m e : Bf (F := Ideal) e kM) ![0, 15, 0] inb_S1024x16x128_S1024x1x128_0_15_0) (ix4 (0 : Fin 1) q (0 : Fin 1) (0 : Fin 1)) := rfl
      _ = _ := by rw [qAt_eq m e Q (hQm e) ⟨15, hh⟩ (k0_off17 e) (k0_off17_inb e) (k0_off17_eq e), kAt_eq m e (Kz K (plane e)) (argK_eq m K hKm e) ⟨15, hh⟩ ![0, 15, 0] inb_S1024x16x128_S1024x1x128_0_15_0 rfl]; rfl
  | ⟨n + 16, hn⟩ => absurd hn (by omega)

set_option maxRecDepth 65536 in
include hQm hKm in
/-- The row sums a device computes are the exponential sums of the slot of its row and plane. -/
theorem vlD_eq (e : Dev nD) (q : Fin 8) (h : Fin 16) :
    vlD m e (ix3 q h (0 : Fin 1)) = PL Q (Kz K) (rowF e) (plane e) (ix3 q h (0 : Fin 1)) :=
  match h with
  | ⟨0, hh⟩ =>
    calc vlD m e (ix3 q ⟨0, hh⟩ (0 : Fin 1))
        = headL (F := Ideal) (qAt (F := Ideal) e (qstg m e : Bf (F := Ideal) e qM) (k0_off2 e) (k0_off2_inb e)) (kAt (F := Ideal) e (kinD m e : Bf (F := Ideal) e kM) ![0, 0, 0] inb_S1024x16x128_S1024x1x128_0_0_0) (ix4 (0 : Fin 1) q (0 : Fin 1) (0 : Fin 1)) := rfl
      _ = _ := by rw [qAt_eq m e Q (hQm e) ⟨0, hh⟩ (k0_off2 e) (k0_off2_inb e) (k0_off2_eq e), kAt_eq m e (Kz K (plane e)) (argK_eq m K hKm e) ⟨0, hh⟩ ![0, 0, 0] inb_S1024x16x128_S1024x1x128_0_0_0 rfl]; rfl
  | ⟨1, hh⟩ =>
    calc vlD m e (ix3 q ⟨1, hh⟩ (0 : Fin 1))
        = headL (F := Ideal) (qAt (F := Ideal) e (qstg m e : Bf (F := Ideal) e qM) (k0_off3 e) (k0_off3_inb e)) (kAt (F := Ideal) e (kinD m e : Bf (F := Ideal) e kM) ![0, 1, 0] inb_S1024x16x128_S1024x1x128_0_1_0) (ix4 (0 : Fin 1) q (0 : Fin 1) (0 : Fin 1)) := rfl
      _ = _ := by rw [qAt_eq m e Q (hQm e) ⟨1, hh⟩ (k0_off3 e) (k0_off3_inb e) (k0_off3_eq e), kAt_eq m e (Kz K (plane e)) (argK_eq m K hKm e) ⟨1, hh⟩ ![0, 1, 0] inb_S1024x16x128_S1024x1x128_0_1_0 rfl]; rfl
  | ⟨2, hh⟩ =>
    calc vlD m e (ix3 q ⟨2, hh⟩ (0 : Fin 1))
        = headL (F := Ideal) (qAt (F := Ideal) e (qstg m e : Bf (F := Ideal) e qM) (k0_off4 e) (k0_off4_inb e)) (kAt (F := Ideal) e (kinD m e : Bf (F := Ideal) e kM) ![0, 2, 0] inb_S1024x16x128_S1024x1x128_0_2_0) (ix4 (0 : Fin 1) q (0 : Fin 1) (0 : Fin 1)) := rfl
      _ = _ := by rw [qAt_eq m e Q (hQm e) ⟨2, hh⟩ (k0_off4 e) (k0_off4_inb e) (k0_off4_eq e), kAt_eq m e (Kz K (plane e)) (argK_eq m K hKm e) ⟨2, hh⟩ ![0, 2, 0] inb_S1024x16x128_S1024x1x128_0_2_0 rfl]; rfl
  | ⟨3, hh⟩ =>
    calc vlD m e (ix3 q ⟨3, hh⟩ (0 : Fin 1))
        = headL (F := Ideal) (qAt (F := Ideal) e (qstg m e : Bf (F := Ideal) e qM) (k0_off5 e) (k0_off5_inb e)) (kAt (F := Ideal) e (kinD m e : Bf (F := Ideal) e kM) ![0, 3, 0] inb_S1024x16x128_S1024x1x128_0_3_0) (ix4 (0 : Fin 1) q (0 : Fin 1) (0 : Fin 1)) := rfl
      _ = _ := by rw [qAt_eq m e Q (hQm e) ⟨3, hh⟩ (k0_off5 e) (k0_off5_inb e) (k0_off5_eq e), kAt_eq m e (Kz K (plane e)) (argK_eq m K hKm e) ⟨3, hh⟩ ![0, 3, 0] inb_S1024x16x128_S1024x1x128_0_3_0 rfl]; rfl
  | ⟨4, hh⟩ =>
    calc vlD m e (ix3 q ⟨4, hh⟩ (0 : Fin 1))
        = headL (F := Ideal) (qAt (F := Ideal) e (qstg m e : Bf (F := Ideal) e qM) (k0_off6 e) (k0_off6_inb e)) (kAt (F := Ideal) e (kinD m e : Bf (F := Ideal) e kM) ![0, 4, 0] inb_S1024x16x128_S1024x1x128_0_4_0) (ix4 (0 : Fin 1) q (0 : Fin 1) (0 : Fin 1)) := rfl
      _ = _ := by rw [qAt_eq m e Q (hQm e) ⟨4, hh⟩ (k0_off6 e) (k0_off6_inb e) (k0_off6_eq e), kAt_eq m e (Kz K (plane e)) (argK_eq m K hKm e) ⟨4, hh⟩ ![0, 4, 0] inb_S1024x16x128_S1024x1x128_0_4_0 rfl]; rfl
  | ⟨5, hh⟩ =>
    calc vlD m e (ix3 q ⟨5, hh⟩ (0 : Fin 1))
        = headL (F := Ideal) (qAt (F := Ideal) e (qstg m e : Bf (F := Ideal) e qM) (k0_off7 e) (k0_off7_inb e)) (kAt (F := Ideal) e (kinD m e : Bf (F := Ideal) e kM) ![0, 5, 0] inb_S1024x16x128_S1024x1x128_0_5_0) (ix4 (0 : Fin 1) q (0 : Fin 1) (0 : Fin 1)) := rfl
      _ = _ := by rw [qAt_eq m e Q (hQm e) ⟨5, hh⟩ (k0_off7 e) (k0_off7_inb e) (k0_off7_eq e), kAt_eq m e (Kz K (plane e)) (argK_eq m K hKm e) ⟨5, hh⟩ ![0, 5, 0] inb_S1024x16x128_S1024x1x128_0_5_0 rfl]; rfl
  | ⟨6, hh⟩ =>
    calc vlD m e (ix3 q ⟨6, hh⟩ (0 : Fin 1))
        = headL (F := Ideal) (qAt (F := Ideal) e (qstg m e : Bf (F := Ideal) e qM) (k0_off8 e) (k0_off8_inb e)) (kAt (F := Ideal) e (kinD m e : Bf (F := Ideal) e kM) ![0, 6, 0] inb_S1024x16x128_S1024x1x128_0_6_0) (ix4 (0 : Fin 1) q (0 : Fin 1) (0 : Fin 1)) := rfl
      _ = _ := by rw [qAt_eq m e Q (hQm e) ⟨6, hh⟩ (k0_off8 e) (k0_off8_inb e) (k0_off8_eq e), kAt_eq m e (Kz K (plane e)) (argK_eq m K hKm e) ⟨6, hh⟩ ![0, 6, 0] inb_S1024x16x128_S1024x1x128_0_6_0 rfl]; rfl
  | ⟨7, hh⟩ =>
    calc vlD m e (ix3 q ⟨7, hh⟩ (0 : Fin 1))
        = headL (F := Ideal) (qAt (F := Ideal) e (qstg m e : Bf (F := Ideal) e qM) (k0_off9 e) (k0_off9_inb e)) (kAt (F := Ideal) e (kinD m e : Bf (F := Ideal) e kM) ![0, 7, 0] inb_S1024x16x128_S1024x1x128_0_7_0) (ix4 (0 : Fin 1) q (0 : Fin 1) (0 : Fin 1)) := rfl
      _ = _ := by rw [qAt_eq m e Q (hQm e) ⟨7, hh⟩ (k0_off9 e) (k0_off9_inb e) (k0_off9_eq e), kAt_eq m e (Kz K (plane e)) (argK_eq m K hKm e) ⟨7, hh⟩ ![0, 7, 0] inb_S1024x16x128_S1024x1x128_0_7_0 rfl]; rfl
  | ⟨8, hh⟩ =>
    calc vlD m e (ix3 q ⟨8, hh⟩ (0 : Fin 1))
        = headL (F := Ideal) (qAt (F := Ideal) e (qstg m e : Bf (F := Ideal) e qM) (k0_off10 e) (k0_off10_inb e)) (kAt (F := Ideal) e (kinD m e : Bf (F := Ideal) e kM) ![0, 8, 0] inb_S1024x16x128_S1024x1x128_0_8_0) (ix4 (0 : Fin 1) q (0 : Fin 1) (0 : Fin 1)) := rfl
      _ = _ := by rw [qAt_eq m e Q (hQm e) ⟨8, hh⟩ (k0_off10 e) (k0_off10_inb e) (k0_off10_eq e), kAt_eq m e (Kz K (plane e)) (argK_eq m K hKm e) ⟨8, hh⟩ ![0, 8, 0] inb_S1024x16x128_S1024x1x128_0_8_0 rfl]; rfl
  | ⟨9, hh⟩ =>
    calc vlD m e (ix3 q ⟨9, hh⟩ (0 : Fin 1))
        = headL (F := Ideal) (qAt (F := Ideal) e (qstg m e : Bf (F := Ideal) e qM) (k0_off11 e) (k0_off11_inb e)) (kAt (F := Ideal) e (kinD m e : Bf (F := Ideal) e kM) ![0, 9, 0] inb_S1024x16x128_S1024x1x128_0_9_0) (ix4 (0 : Fin 1) q (0 : Fin 1) (0 : Fin 1)) := rfl
      _ = _ := by rw [qAt_eq m e Q (hQm e) ⟨9, hh⟩ (k0_off11 e) (k0_off11_inb e) (k0_off11_eq e), kAt_eq m e (Kz K (plane e)) (argK_eq m K hKm e) ⟨9, hh⟩ ![0, 9, 0] inb_S1024x16x128_S1024x1x128_0_9_0 rfl]; rfl
  | ⟨10, hh⟩ =>
    calc vlD m e (ix3 q ⟨10, hh⟩ (0 : Fin 1))
        = headL (F := Ideal) (qAt (F := Ideal) e (qstg m e : Bf (F := Ideal) e qM) (k0_off12 e) (k0_off12_inb e)) (kAt (F := Ideal) e (kinD m e : Bf (F := Ideal) e kM) ![0, 10, 0] inb_S1024x16x128_S1024x1x128_0_10_0) (ix4 (0 : Fin 1) q (0 : Fin 1) (0 : Fin 1)) := rfl
      _ = _ := by rw [qAt_eq m e Q (hQm e) ⟨10, hh⟩ (k0_off12 e) (k0_off12_inb e) (k0_off12_eq e), kAt_eq m e (Kz K (plane e)) (argK_eq m K hKm e) ⟨10, hh⟩ ![0, 10, 0] inb_S1024x16x128_S1024x1x128_0_10_0 rfl]; rfl
  | ⟨11, hh⟩ =>
    calc vlD m e (ix3 q ⟨11, hh⟩ (0 : Fin 1))
        = headL (F := Ideal) (qAt (F := Ideal) e (qstg m e : Bf (F := Ideal) e qM) (k0_off13 e) (k0_off13_inb e)) (kAt (F := Ideal) e (kinD m e : Bf (F := Ideal) e kM) ![0, 11, 0] inb_S1024x16x128_S1024x1x128_0_11_0) (ix4 (0 : Fin 1) q (0 : Fin 1) (0 : Fin 1)) := rfl
      _ = _ := by rw [qAt_eq m e Q (hQm e) ⟨11, hh⟩ (k0_off13 e) (k0_off13_inb e) (k0_off13_eq e), kAt_eq m e (Kz K (plane e)) (argK_eq m K hKm e) ⟨11, hh⟩ ![0, 11, 0] inb_S1024x16x128_S1024x1x128_0_11_0 rfl]; rfl
  | ⟨12, hh⟩ =>
    calc vlD m e (ix3 q ⟨12, hh⟩ (0 : Fin 1))
        = headL (F := Ideal) (qAt (F := Ideal) e (qstg m e : Bf (F := Ideal) e qM) (k0_off14 e) (k0_off14_inb e)) (kAt (F := Ideal) e (kinD m e : Bf (F := Ideal) e kM) ![0, 12, 0] inb_S1024x16x128_S1024x1x128_0_12_0) (ix4 (0 : Fin 1) q (0 : Fin 1) (0 : Fin 1)) := rfl
      _ = _ := by rw [qAt_eq m e Q (hQm e) ⟨12, hh⟩ (k0_off14 e) (k0_off14_inb e) (k0_off14_eq e), kAt_eq m e (Kz K (plane e)) (argK_eq m K hKm e) ⟨12, hh⟩ ![0, 12, 0] inb_S1024x16x128_S1024x1x128_0_12_0 rfl]; rfl
  | ⟨13, hh⟩ =>
    calc vlD m e (ix3 q ⟨13, hh⟩ (0 : Fin 1))
        = headL (F := Ideal) (qAt (F := Ideal) e (qstg m e : Bf (F := Ideal) e qM) (k0_off15 e) (k0_off15_inb e)) (kAt (F := Ideal) e (kinD m e : Bf (F := Ideal) e kM) ![0, 13, 0] inb_S1024x16x128_S1024x1x128_0_13_0) (ix4 (0 : Fin 1) q (0 : Fin 1) (0 : Fin 1)) := rfl
      _ = _ := by rw [qAt_eq m e Q (hQm e) ⟨13, hh⟩ (k0_off15 e) (k0_off15_inb e) (k0_off15_eq e), kAt_eq m e (Kz K (plane e)) (argK_eq m K hKm e) ⟨13, hh⟩ ![0, 13, 0] inb_S1024x16x128_S1024x1x128_0_13_0 rfl]; rfl
  | ⟨14, hh⟩ =>
    calc vlD m e (ix3 q ⟨14, hh⟩ (0 : Fin 1))
        = headL (F := Ideal) (qAt (F := Ideal) e (qstg m e : Bf (F := Ideal) e qM) (k0_off16 e) (k0_off16_inb e)) (kAt (F := Ideal) e (kinD m e : Bf (F := Ideal) e kM) ![0, 14, 0] inb_S1024x16x128_S1024x1x128_0_14_0) (ix4 (0 : Fin 1) q (0 : Fin 1) (0 : Fin 1)) := rfl
      _ = _ := by rw [qAt_eq m e Q (hQm e) ⟨14, hh⟩ (k0_off16 e) (k0_off16_inb e) (k0_off16_eq e), kAt_eq m e (Kz K (plane e)) (argK_eq m K hKm e) ⟨14, hh⟩ ![0, 14, 0] inb_S1024x16x128_S1024x1x128_0_14_0 rfl]; rfl
  | ⟨15, hh⟩ =>
    calc vlD m e (ix3 q ⟨15, hh⟩ (0 : Fin 1))
        = headL (F := Ideal) (qAt (F := Ideal) e (qstg m e : Bf (F := Ideal) e qM) (k0_off17 e) (k0_off17_inb e)) (kAt (F := Ideal) e (kinD m e : Bf (F := Ideal) e kM) ![0, 15, 0] inb_S1024x16x128_S1024x1x128_0_15_0) (ix4 (0 : Fin 1) q (0 : Fin 1) (0 : Fin 1)) := rfl
      _ = _ := by rw [qAt_eq m e Q (hQm e) ⟨15, hh⟩ (k0_off17 e) (k0_off17_inb e) (k0_off17_eq e), kAt_eq m e (Kz K (plane e)) (argK_eq m K hKm e) ⟨15, hh⟩ ![0, 15, 0] inb_S1024x16x128_S1024x1x128_0_15_0 rfl]; rfl
  | ⟨n + 16, hn⟩ => absurd hn (by omega)

set_option maxRecDepth 65536 in
include hQm hKm hVm in
/-- The unnormalised outputs a device computes are the weighted sums of the slot of its row and plane. -/
theorem voD_eq (e : Dev nD) (q : Fin 8) (h : Fin 16) (d : Fin 128) :
    voD m e (ix3 q h d) = PO Q (Kz K) (Kz V) (rowF e) (plane e) (ix3 q h d) :=
  match h with
  | ⟨0, hh⟩ =>
    calc voD m e (ix3 q ⟨0, hh⟩ d)
        = headO (F := Ideal) (qAt (F := Ideal) e (qstg m e : Bf (F := Ideal) e qM) (k0_off2 e) (k0_off2_inb e)) (kAt (F := Ideal) e (kinD m e : Bf (F := Ideal) e kM) ![0, 0, 0] inb_S1024x16x128_S1024x1x128_0_0_0) (vAt (F := Ideal) e (vinD m e : Bf (F := Ideal) e vM) ![0, 0, 0] inb_S1024x16x128_S1024x1x128_0_0_0) (ix4 (0 : Fin 1) q (0 : Fin 1) d) := rfl
      _ = _ := by rw [qAt_eq m e Q (hQm e) ⟨0, hh⟩ (k0_off2 e) (k0_off2_inb e) (k0_off2_eq e), kAt_eq m e (Kz K (plane e)) (argK_eq m K hKm e) ⟨0, hh⟩ ![0, 0, 0] inb_S1024x16x128_S1024x1x128_0_0_0 rfl, vAt_eq m e (Kz V (plane e)) (argV_eq m V hVm e) ⟨0, hh⟩ ![0, 0, 0] inb_S1024x16x128_S1024x1x128_0_0_0 rfl]; rfl
  | ⟨1, hh⟩ =>
    calc voD m e (ix3 q ⟨1, hh⟩ d)
        = headO (F := Ideal) (qAt (F := Ideal) e (qstg m e : Bf (F := Ideal) e qM) (k0_off3 e) (k0_off3_inb e)) (kAt (F := Ideal) e (kinD m e : Bf (F := Ideal) e kM) ![0, 1, 0] inb_S1024x16x128_S1024x1x128_0_1_0) (vAt (F := Ideal) e (vinD m e : Bf (F := Ideal) e vM) ![0, 1, 0] inb_S1024x16x128_S1024x1x128_0_1_0) (ix4 (0 : Fin 1) q (0 : Fin 1) d) := rfl
      _ = _ := by rw [qAt_eq m e Q (hQm e) ⟨1, hh⟩ (k0_off3 e) (k0_off3_inb e) (k0_off3_eq e), kAt_eq m e (Kz K (plane e)) (argK_eq m K hKm e) ⟨1, hh⟩ ![0, 1, 0] inb_S1024x16x128_S1024x1x128_0_1_0 rfl, vAt_eq m e (Kz V (plane e)) (argV_eq m V hVm e) ⟨1, hh⟩ ![0, 1, 0] inb_S1024x16x128_S1024x1x128_0_1_0 rfl]; rfl
  | ⟨2, hh⟩ =>
    calc voD m e (ix3 q ⟨2, hh⟩ d)
        = headO (F := Ideal) (qAt (F := Ideal) e (qstg m e : Bf (F := Ideal) e qM) (k0_off4 e) (k0_off4_inb e)) (kAt (F := Ideal) e (kinD m e : Bf (F := Ideal) e kM) ![0, 2, 0] inb_S1024x16x128_S1024x1x128_0_2_0) (vAt (F := Ideal) e (vinD m e : Bf (F := Ideal) e vM) ![0, 2, 0] inb_S1024x16x128_S1024x1x128_0_2_0) (ix4 (0 : Fin 1) q (0 : Fin 1) d) := rfl
      _ = _ := by rw [qAt_eq m e Q (hQm e) ⟨2, hh⟩ (k0_off4 e) (k0_off4_inb e) (k0_off4_eq e), kAt_eq m e (Kz K (plane e)) (argK_eq m K hKm e) ⟨2, hh⟩ ![0, 2, 0] inb_S1024x16x128_S1024x1x128_0_2_0 rfl, vAt_eq m e (Kz V (plane e)) (argV_eq m V hVm e) ⟨2, hh⟩ ![0, 2, 0] inb_S1024x16x128_S1024x1x128_0_2_0 rfl]; rfl
  | ⟨3, hh⟩ =>
    calc voD m e (ix3 q ⟨3, hh⟩ d)
        = headO (F := Ideal) (qAt (F := Ideal) e (qstg m e : Bf (F := Ideal) e qM) (k0_off5 e) (k0_off5_inb e)) (kAt (F := Ideal) e (kinD m e : Bf (F := Ideal) e kM) ![0, 3, 0] inb_S1024x16x128_S1024x1x128_0_3_0) (vAt (F := Ideal) e (vinD m e : Bf (F := Ideal) e vM) ![0, 3, 0] inb_S1024x16x128_S1024x1x128_0_3_0) (ix4 (0 : Fin 1) q (0 : Fin 1) d) := rfl
      _ = _ := by rw [qAt_eq m e Q (hQm e) ⟨3, hh⟩ (k0_off5 e) (k0_off5_inb e) (k0_off5_eq e), kAt_eq m e (Kz K (plane e)) (argK_eq m K hKm e) ⟨3, hh⟩ ![0, 3, 0] inb_S1024x16x128_S1024x1x128_0_3_0 rfl, vAt_eq m e (Kz V (plane e)) (argV_eq m V hVm e) ⟨3, hh⟩ ![0, 3, 0] inb_S1024x16x128_S1024x1x128_0_3_0 rfl]; rfl
  | ⟨4, hh⟩ =>
    calc voD m e (ix3 q ⟨4, hh⟩ d)
        = headO (F := Ideal) (qAt (F := Ideal) e (qstg m e : Bf (F := Ideal) e qM) (k0_off6 e) (k0_off6_inb e)) (kAt (F := Ideal) e (kinD m e : Bf (F := Ideal) e kM) ![0, 4, 0] inb_S1024x16x128_S1024x1x128_0_4_0) (vAt (F := Ideal) e (vinD m e : Bf (F := Ideal) e vM) ![0, 4, 0] inb_S1024x16x128_S1024x1x128_0_4_0) (ix4 (0 : Fin 1) q (0 : Fin 1) d) := rfl
      _ = _ := by rw [qAt_eq m e Q (hQm e) ⟨4, hh⟩ (k0_off6 e) (k0_off6_inb e) (k0_off6_eq e), kAt_eq m e (Kz K (plane e)) (argK_eq m K hKm e) ⟨4, hh⟩ ![0, 4, 0] inb_S1024x16x128_S1024x1x128_0_4_0 rfl, vAt_eq m e (Kz V (plane e)) (argV_eq m V hVm e) ⟨4, hh⟩ ![0, 4, 0] inb_S1024x16x128_S1024x1x128_0_4_0 rfl]; rfl
  | ⟨5, hh⟩ =>
    calc voD m e (ix3 q ⟨5, hh⟩ d)
        = headO (F := Ideal) (qAt (F := Ideal) e (qstg m e : Bf (F := Ideal) e qM) (k0_off7 e) (k0_off7_inb e)) (kAt (F := Ideal) e (kinD m e : Bf (F := Ideal) e kM) ![0, 5, 0] inb_S1024x16x128_S1024x1x128_0_5_0) (vAt (F := Ideal) e (vinD m e : Bf (F := Ideal) e vM) ![0, 5, 0] inb_S1024x16x128_S1024x1x128_0_5_0) (ix4 (0 : Fin 1) q (0 : Fin 1) d) := rfl
      _ = _ := by rw [qAt_eq m e Q (hQm e) ⟨5, hh⟩ (k0_off7 e) (k0_off7_inb e) (k0_off7_eq e), kAt_eq m e (Kz K (plane e)) (argK_eq m K hKm e) ⟨5, hh⟩ ![0, 5, 0] inb_S1024x16x128_S1024x1x128_0_5_0 rfl, vAt_eq m e (Kz V (plane e)) (argV_eq m V hVm e) ⟨5, hh⟩ ![0, 5, 0] inb_S1024x16x128_S1024x1x128_0_5_0 rfl]; rfl
  | ⟨6, hh⟩ =>
    calc voD m e (ix3 q ⟨6, hh⟩ d)
        = headO (F := Ideal) (qAt (F := Ideal) e (qstg m e : Bf (F := Ideal) e qM) (k0_off8 e) (k0_off8_inb e)) (kAt (F := Ideal) e (kinD m e : Bf (F := Ideal) e kM) ![0, 6, 0] inb_S1024x16x128_S1024x1x128_0_6_0) (vAt (F := Ideal) e (vinD m e : Bf (F := Ideal) e vM) ![0, 6, 0] inb_S1024x16x128_S1024x1x128_0_6_0) (ix4 (0 : Fin 1) q (0 : Fin 1) d) := rfl
      _ = _ := by rw [qAt_eq m e Q (hQm e) ⟨6, hh⟩ (k0_off8 e) (k0_off8_inb e) (k0_off8_eq e), kAt_eq m e (Kz K (plane e)) (argK_eq m K hKm e) ⟨6, hh⟩ ![0, 6, 0] inb_S1024x16x128_S1024x1x128_0_6_0 rfl, vAt_eq m e (Kz V (plane e)) (argV_eq m V hVm e) ⟨6, hh⟩ ![0, 6, 0] inb_S1024x16x128_S1024x1x128_0_6_0 rfl]; rfl
  | ⟨7, hh⟩ =>
    calc voD m e (ix3 q ⟨7, hh⟩ d)
        = headO (F := Ideal) (qAt (F := Ideal) e (qstg m e : Bf (F := Ideal) e qM) (k0_off9 e) (k0_off9_inb e)) (kAt (F := Ideal) e (kinD m e : Bf (F := Ideal) e kM) ![0, 7, 0] inb_S1024x16x128_S1024x1x128_0_7_0) (vAt (F := Ideal) e (vinD m e : Bf (F := Ideal) e vM) ![0, 7, 0] inb_S1024x16x128_S1024x1x128_0_7_0) (ix4 (0 : Fin 1) q (0 : Fin 1) d) := rfl
      _ = _ := by rw [qAt_eq m e Q (hQm e) ⟨7, hh⟩ (k0_off9 e) (k0_off9_inb e) (k0_off9_eq e), kAt_eq m e (Kz K (plane e)) (argK_eq m K hKm e) ⟨7, hh⟩ ![0, 7, 0] inb_S1024x16x128_S1024x1x128_0_7_0 rfl, vAt_eq m e (Kz V (plane e)) (argV_eq m V hVm e) ⟨7, hh⟩ ![0, 7, 0] inb_S1024x16x128_S1024x1x128_0_7_0 rfl]; rfl
  | ⟨8, hh⟩ =>
    calc voD m e (ix3 q ⟨8, hh⟩ d)
        = headO (F := Ideal) (qAt (F := Ideal) e (qstg m e : Bf (F := Ideal) e qM) (k0_off10 e) (k0_off10_inb e)) (kAt (F := Ideal) e (kinD m e : Bf (F := Ideal) e kM) ![0, 8, 0] inb_S1024x16x128_S1024x1x128_0_8_0) (vAt (F := Ideal) e (vinD m e : Bf (F := Ideal) e vM) ![0, 8, 0] inb_S1024x16x128_S1024x1x128_0_8_0) (ix4 (0 : Fin 1) q (0 : Fin 1) d) := rfl
      _ = _ := by rw [qAt_eq m e Q (hQm e) ⟨8, hh⟩ (k0_off10 e) (k0_off10_inb e) (k0_off10_eq e), kAt_eq m e (Kz K (plane e)) (argK_eq m K hKm e) ⟨8, hh⟩ ![0, 8, 0] inb_S1024x16x128_S1024x1x128_0_8_0 rfl, vAt_eq m e (Kz V (plane e)) (argV_eq m V hVm e) ⟨8, hh⟩ ![0, 8, 0] inb_S1024x16x128_S1024x1x128_0_8_0 rfl]; rfl
  | ⟨9, hh⟩ =>
    calc voD m e (ix3 q ⟨9, hh⟩ d)
        = headO (F := Ideal) (qAt (F := Ideal) e (qstg m e : Bf (F := Ideal) e qM) (k0_off11 e) (k0_off11_inb e)) (kAt (F := Ideal) e (kinD m e : Bf (F := Ideal) e kM) ![0, 9, 0] inb_S1024x16x128_S1024x1x128_0_9_0) (vAt (F := Ideal) e (vinD m e : Bf (F := Ideal) e vM) ![0, 9, 0] inb_S1024x16x128_S1024x1x128_0_9_0) (ix4 (0 : Fin 1) q (0 : Fin 1) d) := rfl
      _ = _ := by rw [qAt_eq m e Q (hQm e) ⟨9, hh⟩ (k0_off11 e) (k0_off11_inb e) (k0_off11_eq e), kAt_eq m e (Kz K (plane e)) (argK_eq m K hKm e) ⟨9, hh⟩ ![0, 9, 0] inb_S1024x16x128_S1024x1x128_0_9_0 rfl, vAt_eq m e (Kz V (plane e)) (argV_eq m V hVm e) ⟨9, hh⟩ ![0, 9, 0] inb_S1024x16x128_S1024x1x128_0_9_0 rfl]; rfl
  | ⟨10, hh⟩ =>
    calc voD m e (ix3 q ⟨10, hh⟩ d)
        = headO (F := Ideal) (qAt (F := Ideal) e (qstg m e : Bf (F := Ideal) e qM) (k0_off12 e) (k0_off12_inb e)) (kAt (F := Ideal) e (kinD m e : Bf (F := Ideal) e kM) ![0, 10, 0] inb_S1024x16x128_S1024x1x128_0_10_0) (vAt (F := Ideal) e (vinD m e : Bf (F := Ideal) e vM) ![0, 10, 0] inb_S1024x16x128_S1024x1x128_0_10_0) (ix4 (0 : Fin 1) q (0 : Fin 1) d) := rfl
      _ = _ := by rw [qAt_eq m e Q (hQm e) ⟨10, hh⟩ (k0_off12 e) (k0_off12_inb e) (k0_off12_eq e), kAt_eq m e (Kz K (plane e)) (argK_eq m K hKm e) ⟨10, hh⟩ ![0, 10, 0] inb_S1024x16x128_S1024x1x128_0_10_0 rfl, vAt_eq m e (Kz V (plane e)) (argV_eq m V hVm e) ⟨10, hh⟩ ![0, 10, 0] inb_S1024x16x128_S1024x1x128_0_10_0 rfl]; rfl
  | ⟨11, hh⟩ =>
    calc voD m e (ix3 q ⟨11, hh⟩ d)
        = headO (F := Ideal) (qAt (F := Ideal) e (qstg m e : Bf (F := Ideal) e qM) (k0_off13 e) (k0_off13_inb e)) (kAt (F := Ideal) e (kinD m e : Bf (F := Ideal) e kM) ![0, 11, 0] inb_S1024x16x128_S1024x1x128_0_11_0) (vAt (F := Ideal) e (vinD m e : Bf (F := Ideal) e vM) ![0, 11, 0] inb_S1024x16x128_S1024x1x128_0_11_0) (ix4 (0 : Fin 1) q (0 : Fin 1) d) := rfl
      _ = _ := by rw [qAt_eq m e Q (hQm e) ⟨11, hh⟩ (k0_off13 e) (k0_off13_inb e) (k0_off13_eq e), kAt_eq m e (Kz K (plane e)) (argK_eq m K hKm e) ⟨11, hh⟩ ![0, 11, 0] inb_S1024x16x128_S1024x1x128_0_11_0 rfl, vAt_eq m e (Kz V (plane e)) (argV_eq m V hVm e) ⟨11, hh⟩ ![0, 11, 0] inb_S1024x16x128_S1024x1x128_0_11_0 rfl]; rfl
  | ⟨12, hh⟩ =>
    calc voD m e (ix3 q ⟨12, hh⟩ d)
        = headO (F := Ideal) (qAt (F := Ideal) e (qstg m e : Bf (F := Ideal) e qM) (k0_off14 e) (k0_off14_inb e)) (kAt (F := Ideal) e (kinD m e : Bf (F := Ideal) e kM) ![0, 12, 0] inb_S1024x16x128_S1024x1x128_0_12_0) (vAt (F := Ideal) e (vinD m e : Bf (F := Ideal) e vM) ![0, 12, 0] inb_S1024x16x128_S1024x1x128_0_12_0) (ix4 (0 : Fin 1) q (0 : Fin 1) d) := rfl
      _ = _ := by rw [qAt_eq m e Q (hQm e) ⟨12, hh⟩ (k0_off14 e) (k0_off14_inb e) (k0_off14_eq e), kAt_eq m e (Kz K (plane e)) (argK_eq m K hKm e) ⟨12, hh⟩ ![0, 12, 0] inb_S1024x16x128_S1024x1x128_0_12_0 rfl, vAt_eq m e (Kz V (plane e)) (argV_eq m V hVm e) ⟨12, hh⟩ ![0, 12, 0] inb_S1024x16x128_S1024x1x128_0_12_0 rfl]; rfl
  | ⟨13, hh⟩ =>
    calc voD m e (ix3 q ⟨13, hh⟩ d)
        = headO (F := Ideal) (qAt (F := Ideal) e (qstg m e : Bf (F := Ideal) e qM) (k0_off15 e) (k0_off15_inb e)) (kAt (F := Ideal) e (kinD m e : Bf (F := Ideal) e kM) ![0, 13, 0] inb_S1024x16x128_S1024x1x128_0_13_0) (vAt (F := Ideal) e (vinD m e : Bf (F := Ideal) e vM) ![0, 13, 0] inb_S1024x16x128_S1024x1x128_0_13_0) (ix4 (0 : Fin 1) q (0 : Fin 1) d) := rfl
      _ = _ := by rw [qAt_eq m e Q (hQm e) ⟨13, hh⟩ (k0_off15 e) (k0_off15_inb e) (k0_off15_eq e), kAt_eq m e (Kz K (plane e)) (argK_eq m K hKm e) ⟨13, hh⟩ ![0, 13, 0] inb_S1024x16x128_S1024x1x128_0_13_0 rfl, vAt_eq m e (Kz V (plane e)) (argV_eq m V hVm e) ⟨13, hh⟩ ![0, 13, 0] inb_S1024x16x128_S1024x1x128_0_13_0 rfl]; rfl
  | ⟨14, hh⟩ =>
    calc voD m e (ix3 q ⟨14, hh⟩ d)
        = headO (F := Ideal) (qAt (F := Ideal) e (qstg m e : Bf (F := Ideal) e qM) (k0_off16 e) (k0_off16_inb e)) (kAt (F := Ideal) e (kinD m e : Bf (F := Ideal) e kM) ![0, 14, 0] inb_S1024x16x128_S1024x1x128_0_14_0) (vAt (F := Ideal) e (vinD m e : Bf (F := Ideal) e vM) ![0, 14, 0] inb_S1024x16x128_S1024x1x128_0_14_0) (ix4 (0 : Fin 1) q (0 : Fin 1) d) := rfl
      _ = _ := by rw [qAt_eq m e Q (hQm e) ⟨14, hh⟩ (k0_off16 e) (k0_off16_inb e) (k0_off16_eq e), kAt_eq m e (Kz K (plane e)) (argK_eq m K hKm e) ⟨14, hh⟩ ![0, 14, 0] inb_S1024x16x128_S1024x1x128_0_14_0 rfl, vAt_eq m e (Kz V (plane e)) (argV_eq m V hVm e) ⟨14, hh⟩ ![0, 14, 0] inb_S1024x16x128_S1024x1x128_0_14_0 rfl]; rfl
  | ⟨15, hh⟩ =>
    calc voD m e (ix3 q ⟨15, hh⟩ d)
        = headO (F := Ideal) (qAt (F := Ideal) e (qstg m e : Bf (F := Ideal) e qM) (k0_off17 e) (k0_off17_inb e)) (kAt (F := Ideal) e (kinD m e : Bf (F := Ideal) e kM) ![0, 15, 0] inb_S1024x16x128_S1024x1x128_0_15_0) (vAt (F := Ideal) e (vinD m e : Bf (F := Ideal) e vM) ![0, 15, 0] inb_S1024x16x128_S1024x1x128_0_15_0) (ix4 (0 : Fin 1) q (0 : Fin 1) d) := rfl
      _ = _ := by rw [qAt_eq m e Q (hQm e) ⟨15, hh⟩ (k0_off17 e) (k0_off17_inb e) (k0_off17_eq e), kAt_eq m e (Kz K (plane e)) (argK_eq m K hKm e) ⟨15, hh⟩ ![0, 15, 0] inb_S1024x16x128_S1024x1x128_0_15_0 rfl, vAt_eq m e (Kz V (plane e)) (argV_eq m V hVm e) ⟨15, hh⟩ ![0, 15, 0] inb_S1024x16x128_S1024x1x128_0_15_0 rfl]; rfl
  | ⟨n + 16, hn⟩ => absurd hn (by omega)

/-! ## The ring and the gathering -/

/-- The device `j` steps back along the ring serves the same row and lies `j` planes back. -/
theorem back_row_plane : ∀ (e : Dev nD) (j : Fin 4), rowF (back j.val e) = rowF e ∧ plane (back j.val e) = plane e - j := by
  decide

/-- The device of plane `z` that serves row `b` serves row `b`. -/
theorem rowF_atRow : ∀ (z : Fin 4) (b : Fin 8), rowF (atRow z.val b.val) = b := by
  decide

variable (hQ : ∀ i, ∃ x : ℝ, Q i = (x : EReal)) (hK : ∀ i, ∃ x : ℝ, K i = (x : EReal)) (hV : ∀ i, ∃ x : ℝ, V i = (x : EReal))

set_option maxRecDepth 65536 in
include hQm hKm hVm hQ hK hV in
/-- THE MERGED ROW of a device is the specification at the row it serves. -/
theorem vrD_eq (e : Dev nD) (u : Fin 1) (q : Fin 8) (h : Fin 16) (d : Fin 128) :
    vrD m e (ix4 u q h d) = refG Q K V (ix4 (rowF e) q h d) :=
  merged_eq_ref_of_slots hQ hK hV (Kz_apply K) (Kz_apply V) (rowF e) (plane e)
    (fun j => unsq1 (vmD m (back j.val e))) (fun j => unsq1 (vlD m (back j.val e))) (fun j => unsq3 (voD m (back j.val e)))
    (fun j q h => (vmD_eq m Q K hQm hKm (back j.val e) q h).trans (by
      rw [(back_row_plane e j).1, (back_row_plane e j).2]))
    (fun j q h => (vlD_eq m Q K hQm hKm (back j.val e) q h).trans (by
      rw [(back_row_plane e j).1, (back_row_plane e j).2]))
    (fun j q h d => (voD_eq m Q K V hQm hKm hVm (back j.val e) q h d).trans (by
      rw [(back_row_plane e j).1, (back_row_plane e j).2]))
    u q h d

include hQm hKm hVm hQ hK hV in
/-- THE GATHERED RESULT of a plane is the specification. -/
theorem gathered_core (c : Dev nD) : vgD m (c.val % 4) = refG Q K V := by
  funext i
  obtain ⟨b, q, h, d, rfl⟩ : ∃ (b : Fin 8) (q : Fin 8) (h : Fin 16) (d : Fin 128), i = ix4 b q h d :=
    ⟨i 0, i 1, i 2, i 3, eq_ix4 i⟩
  show vrD m (atRow (c.val % 4) b.val) (ix4 (0 : Fin 1) q h d) = _
  rw [vrD_eq m Q K V hQm hKm hVm hQ hK hV, rowF_atRow ⟨c.val % 4, Nat.mod_lt _ (by decide)⟩ b]

end Core

/-! ## Real entries from the precondition -/

/-- Every key `k` of the 4096 is key `k % 1024` of the block of plane `k / 1024`. -/
theorem blockEmb_div_mod (k : Fin 4096) :
    blockEmb (plane (⟨k.val / 1024, by omega⟩ : Fin 32)) ⟨k.val % 1024, Nat.mod_lt _ (by decide)⟩ = k := by
  apply Fin.ext
  show 1024 * ((k.val / 1024) % 4) + k.val % 1024 = k.val
  omega

/-- THE GATHERED RESULT IS THE REFERENCE'S SPECIFICATION. From a launch memory whose devices hold the queries and their
    planes' blocks of the reference's keys and values, all finite: the gathered result of every device's plane is the
    specification of the reference's three arrays. -/
theorem gathered_eq_ref [Cert.KernelIdeal.Facts] [Cert.ReferenceIdeal.Facts] [Cert.Pre_finite_inputs_Kernel.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![8, 1024, 16, 128]⟩ ⟨4, ![8, 4096, 16, 128]⟩ (Layout.meshBlock [2, 4, 4] ![[], [2], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![8, 1024, 16, 128]⟩ ⟨4, ![8, 4096, 16, 128]⟩ (Layout.meshBlock [2, 4, 4] ![[], [2], [], []] c) (m' (((0 : Dev Cert.ReferenceIdeal.nD).tc : Thread Cert.ReferenceIdeal.nD Cert.ReferenceIdeal.τ).loc Cert.ReferenceIdeal.main_arg2)))
    (c : Dev Cert.KernelIdeal.nD) :
    Cert.KernelIdeal.FD.outAt (Cert.KernelIdeal.FD.vgD m) c
      = Cert.Proof.RefValue.refG (m' (((0 : Dev Cert.ReferenceIdeal.nD).tc : Thread Cert.ReferenceIdeal.nD Cert.ReferenceIdeal.τ).loc Cert.ReferenceIdeal.main_arg0))
          (m' (((0 : Dev Cert.ReferenceIdeal.nD).tc : Thread Cert.ReferenceIdeal.nD Cert.ReferenceIdeal.τ).loc Cert.ReferenceIdeal.main_arg1))
          (m' (((0 : Dev Cert.ReferenceIdeal.nD).tc : Thread Cert.ReferenceIdeal.nD Cert.ReferenceIdeal.τ).loc Cert.ReferenceIdeal.main_arg2)) := by
  have hQm := fun e => (hagree e).1
  have hKm := fun e => (hagree e).2.1
  have hVm := fun e => (hagree e).2.2
  have hreal := fun e => real_of_pre _ _ _ (hpre e)
  have hQ : ∀ i, ∃ x : ℝ, (m' (((0 : Dev Cert.ReferenceIdeal.nD).tc : Thread Cert.ReferenceIdeal.nD Cert.ReferenceIdeal.τ).loc Cert.ReferenceIdeal.main_arg0)) i = (x : EReal) :=
    fun i => by rw [← hQm 0]; exact (hreal 0).1 i
  have hblock : ∀ (A : (⟨4, ![8, 4096, 16, 128]⟩ : Shape).Idx → EReal)
      (B : Dev Cert.KernelIdeal.nD → (⟨4, ![8, 1024, 16, 128]⟩ : Shape).Idx → EReal)
      (hB : ∀ e, B e = Layout.blockN ⟨4, ![8, 1024, 16, 128]⟩ ⟨4, ![8, 4096, 16, 128]⟩ (Layout.meshBlock [2, 4, 4] ![[], [2], [], []] e) A)
      (hr : ∀ e i, ∃ x : ℝ, B e i = (x : EReal)), ∀ i, ∃ x : ℝ, A i = (x : EReal) := by
    intro A B hB hr i
    obtain ⟨b, k, h, d, rfl⟩ : ∃ (b : Fin 8) (k : Fin 4096) (h : Fin 16) (d : Fin 128), i = ix4 b k h d :=
      ⟨i 0, i 1, i 2, i 3, eq_ix4 i⟩
    have e1 := keysBlock_apply (⟨k.val / 1024, by omega⟩ : Fin 32) A b ⟨k.val % 1024, Nat.mod_lt _ (by decide)⟩ h d
    rw [blockEmb_div_mod k, ← hB] at e1
    rw [← e1]
    exact hr _ _
  have hK := hblock _ (fun e => m ((e.tc : Thread Cert.KernelIdeal.nD Cert.KernelIdeal.τ).loc Cert.KernelIdeal.main_arg1)) hKm
    (fun e => (hreal e).2.1)
  have hV := hblock _ (fun e => m ((e.tc : Thread Cert.KernelIdeal.nD Cert.KernelIdeal.τ).loc Cert.KernelIdeal.main_arg2)) hVm
    (fun e => (hreal e).2.2)
  exact gathered_core m _ _ _ hQm hKm hVm hQ hK hV c

/-- info: 'Cert.Proof.FinalValue.gathered_eq_ref' depends on axioms: [propext, Classical.choice, Quot.sound] -/
#guard_msgs in #print axioms gathered_eq_ref

end Cert.Proof.FinalValue

end
-- ==== Proof.lean ====
/-
  The certificate of the distributed decode step on the 2 x 4 x 4 mesh.

  Each device serves one batch row r = 4 x + y and one block of 1024 keys (its position z). It copies the row's keys and
  values into scratch, computes per head the block's softmax partial - the row maxima m, the row sums l of exp (s - m)
  and the unnormalised outputs o = sum exp (s - m) v - and passes the three around the ring along z, so that after
  three hops every device of the ring holds all four blocks' partials, in its own rotation. It merges them one after
  the other (rescaling both sides to the common maximum), divides o by l, and the eight rows are gathered across x and
  y by three pairwise exchanges (1, 2, 4 rows). Over the extended reals, for real inputs, the merge of the four block
  partials in any order is the partial of all 4096 keys, and o / l of that is the reference's softmax-weighted sum: so
  every device ends with the reference's result.

  The three frames and the value claim all come from ONE run of the kernel (every fair interleaving of the 32 devices
  terminates, nothing faults, the arguments end unchanged, the result array of every device ends at the gathered
  result of its z-plane), read at the word-level program for its frame and at the idealized program for the rest; the
  reference's frame and value come from the run of its host operations.
-/
import proofs.«900429_g7700000000000430_dist_flashdec_v7x_xyz2x4x4_z_b8_sq8_skv1024_h16_d128_f32_1_alg».proof.Defs
import proofs.«900429_g7700000000000430_dist_flashdec_v7x_xyz2x4x4_z_b8_sq8_skv1024_h16_d128_f32_1_alg».proof.Proof.Gen.Kernel
import proofs.«900429_g7700000000000430_dist_flashdec_v7x_xyz2x4x4_z_b8_sq8_skv1024_h16_d128_f32_1_alg».proof.Proof.Gen.KernelIdeal
import proofs.«900429_g7700000000000430_dist_flashdec_v7x_xyz2x4x4_z_b8_sq8_skv1024_h16_d128_f32_1_alg».proof.Proof.Gen.ReferenceIdeal
import proofs.«900429_g7700000000000430_dist_flashdec_v7x_xyz2x4x4_z_b8_sq8_skv1024_h16_d128_f32_1_alg».proof.Proof.Gen.Pre_finite_inputs_Kernel
import proofs.«900429_g7700000000000430_dist_flashdec_v7x_xyz2x4x4_z_b8_sq8_skv1024_h16_d128_f32_1_alg».proof.Proof.Gen.Pre_finite_inputs_ReferenceIdeal
import proofs.«900429_g7700000000000430_dist_flashdec_v7x_xyz2x4x4_z_b8_sq8_skv1024_h16_d128_f32_1_alg».proof.Proof.RefFrame
import proofs.«900429_g7700000000000430_dist_flashdec_v7x_xyz2x4x4_z_b8_sq8_skv1024_h16_d128_f32_1_alg».proof.Proof.Launch
import proofs.«900429_g7700000000000430_dist_flashdec_v7x_xyz2x4x4_z_b8_sq8_skv1024_h16_d128_f32_1_alg».proof.Proof.LaunchW
import proofs.«900429_g7700000000000430_dist_flashdec_v7x_xyz2x4x4_z_b8_sq8_skv1024_h16_d128_f32_1_alg».proof.Proof.Body
import proofs.«900429_g7700000000000430_dist_flashdec_v7x_xyz2x4x4_z_b8_sq8_skv1024_h16_d128_f32_1_alg».proof.Proof.BodyW
import proofs.«900429_g7700000000000430_dist_flashdec_v7x_xyz2x4x4_z_b8_sq8_skv1024_h16_d128_f32_1_alg».proof.Proof.FinalValue
import Idealize.ShloMosaic.Adequacy
import Idealize.ShloMosaic.Init

noncomputable section

namespace Cert.Proof

open Idealize.ShloMosaic Idealize.ShloMosaic.TcCoe Idealize.SL.Sem

/-- The word-level kernel runs to the end on every device, faults nowhere and leaves its argument arrays as they
    were: the run of the protocol, its values forgotten. -/
theorem frame_p : Cert.frame_Kernel := fun m ρ _ =>
  (θ_run (Cert.Kernel.defs (F := Bits)) _ _).mono (fun _ h c => (h c).2)
    (Cert.Kernel.FD.run_value (F := Bits) (Cert.Kernel.FD.voD m) (Cert.Kernel.FD.vmD m) (Cert.Kernel.FD.vlD m) (Cert.Kernel.FD.vgD m)
      (Cert.Kernel.FD.kinD m) (Cert.Kernel.FD.vinD m) m ρ (Cert.Kernel.FD.sound_body m))

/-- The same for the idealized kernel. -/
theorem frame_pi : Cert.frame_KernelIdeal := fun m ρ _ =>
  (θ_run (Cert.KernelIdeal.defs (F := Ideal)) _ _).mono (fun _ h c => (h c).2)
    (Cert.KernelIdeal.FD.run_value (F := Ideal) (Cert.KernelIdeal.FD.voD m) (Cert.KernelIdeal.FD.vmD m) (Cert.KernelIdeal.FD.vlD m) (Cert.KernelIdeal.FD.vgD m)
      (Cert.KernelIdeal.FD.kinD m) (Cert.KernelIdeal.FD.vinD m) m ρ (Cert.KernelIdeal.FD.sound_body m))

/-- Over the extended reals, from memories where every device holds the whole queries and its z-block of the keys
    and values, all real: every device's result array ends at the reference's result. -/
theorem algebraic : Cert.algebraic_KernelIdeal_ReferenceIdeal := by
  intro m ρ m' ρ' hpre hagree
  refine ⟨Cert.Proof.RefValue.refG (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)), ?_, ?_⟩
  · exact (θ_run (Cert.KernelIdeal.defs (F := Ideal)) _ _).mono
      (fun _ h c => ⟨(h c).1.trans (Cert.Proof.FinalValue.gathered_eq_ref m m' hpre hagree c), (h c).2⟩)
      (Cert.KernelIdeal.FD.run_value (F := Ideal) (Cert.KernelIdeal.FD.voD m) (Cert.KernelIdeal.FD.vmD m) (Cert.KernelIdeal.FD.vlD m) (Cert.KernelIdeal.FD.vgD m)
        (Cert.KernelIdeal.FD.kinD m) (Cert.KernelIdeal.FD.vinD m) m ρ (Cert.KernelIdeal.FD.sound_body m))
  · exact (θ_run Cert.ReferenceIdeal.defs _ _).mono
      (fun _ h => ⟨((h 0).1.trans ((Cert.ReferenceIdeal.Read.val_main_v13_eq _ _ _).trans (Cert.Proof.RefValue.ref_eq _ _ _))), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_p, frame_pi, Cert.Proof.RefSide.frame_ri, Cert.Proof.RefSide.preserves, algebraic⟩

end Cert.Proof

end
